-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v307)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v307) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v348) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x32 : Shape := ⟨2, ![50000, 32]⟩
abbrev S100000x16 : Shape := ⟨2, ![100000, 16]⟩
abbrev S50000x8 : Shape := ⟨2, ![50000, 8]⟩
abbrev S20000x8 : Shape := ⟨2, ![20000, 8]⟩
abbrev S2x640000 : Shape := ⟨2, ![2, 640000]⟩
abbrev S2x320000 : Shape := ⟨2, ![2, 320000]⟩
abbrev S2x160000 : Shape := ⟨2, ![2, 160000]⟩
abbrev S32x128 : Shape := ⟨2, ![32, 128]⟩
abbrev S128 : Shape := ⟨1, ![128]⟩
abbrev S16x128 : Shape := ⟨2, ![16, 128]⟩
abbrev S8x128 : Shape := ⟨2, ![8, 128]⟩
abbrev S3x128x128 : Shape := ⟨3, ![3, 128, 128]⟩
abbrev S3x128 : Shape := ⟨2, ![3, 128]⟩
abbrev S_ : Shape := ⟨0, ![]⟩

class Facts : Prop where
  bcast_S_S50000x32 : S_.BroadcastsInDim S50000x32 (![] : Fin 0 → Fin S50000x32.rank)
  reducesTo_S50000x32_S_d0_1 : S50000x32.ReducesTo [0, 1] S_
  h_S_ : 0 < S_.numel
  bcast_S_S100000x16 : S_.BroadcastsInDim S100000x16 (![] : Fin 0 → Fin S100000x16.rank)
  reducesTo_S100000x16_S_d0_1 : S100000x16.ReducesTo [0, 1] S_
  bcast_S_S50000x8 : S_.BroadcastsInDim S50000x8 (![] : Fin 0 → Fin S50000x8.rank)
  reducesTo_S50000x8_S_d0_1 : S50000x8.ReducesTo [0, 1] S_
  bcast_S_S20000x8 : S_.BroadcastsInDim S20000x8 (![] : Fin 0 → Fin S20000x8.rank)
  reducesTo_S20000x8_S_d0_1 : S20000x8.ReducesTo [0, 1] S_
  bcast_S_S32x128 : S_.BroadcastsInDim S32x128 (![] : Fin 0 → Fin S32x128.rank)
  reducesTo_S32x128_S_d0_1 : S32x128.ReducesTo [0, 1] S_
  bcast_S_S128 : S_.BroadcastsInDim S128 (![] : Fin 0 → Fin S128.rank)
  reducesTo_S128_S_d0 : S128.ReducesTo [0] S_
  bcast_S_S16x128 : S_.BroadcastsInDim S16x128 (![] : Fin 0 → Fin S16x128.rank)
  reducesTo_S16x128_S_d0_1 : S16x128.ReducesTo [0, 1] S_
  bcast_S_S8x128 : S_.BroadcastsInDim S8x128 (![] : Fin 0 → Fin S8x128.rank)
  reducesTo_S8x128_S_d0_1 : S8x128.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part4 {F : FTy → Type} [FloatOps F] (main_arg18 : FVec F S3x128x128 .f32) (main_v63 : IVec S_ 1) (main_v67 : IVec S_ 1) : IVec S_ 1 :=
  let main_v68 : IVec S_ 1 := andi main_v63 main_v67
  let main_v69 : FVec F S3x128x128 .f32 := Host.absf main_arg18
  let main_cst_26 : FVec F S_ .f32 := constant S_ .f32 0x7F800000#32
  let main_v70 : FVec F S3x128x128 .f32 := broadcastInDim S3x128x128 ![] bcast_S_S3x128x128 main_cst_26
  let main_v71 : IVec S3x128x128 1 := cmpf .olt main_v69 main_v70
  let main_c_27 : IVec S_ 1 := constantI S_ 1 1#1
  let main_v72 : IVec S_ 1 := (fun x v => Host.reduce IntOp.andi x v reducesTo_S3x128x128_S_d0_1_2 h_S_) main_v71 main_c_27
  let main_v73 : IVec S_ 1 := andi main_v68 main_v72
  main_v73

def fn_part3 {F : FTy → Type} [FloatOps F] (main_arg15 : FVec F S128 .f32) (main_arg16 : FVec F S3x128x128 .f32) (main_arg17 : FVec F S3x128 .f32) (main_arg18 : FVec F S3x128x128 .f32) (main_v48 : IVec S_ 1) (main_v49 : FVec F S8x128 .f32) (main_v50 : FVec F S8x128 .f32) : IVec S_ 1 :=
  let main_v51 : IVec S8x128 1 := cmpf .olt main_v49 main_v50
  let main_c_19 : IVec S_ 1 := constantI S_ 1 1#1
  let main_v52 : IVec S_ 1 := (fun x v => Host.reduce IntOp.andi x v reducesTo_S8x128_S_d0_1 h_S_) main_v51 main_c_19
  let main_v53 : IVec S_ 1 := andi main_v48 main_v52
  let main_v54 : FVec F S128 .f32 := Host.absf main_arg15
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S3x128x128 .f32 := Host.absf main_arg16
  let main_cst_22 : FVec F S_ .f32 := constant S_ .f32 0x7F800000#32
  let main_v60 : FVec F S3x128x128 .f32 := broadcastInDim S3x128x128 ![] bcast_S_S3x128x128 main_cst_22
  let main_v61 : IVec S3x128x128 1 := cmpf .olt main_v59 main_v60
  let main_c_23 : IVec S_ 1 := constantI S_ 1 1#1
  let main_v62 : IVec S_ 1 := (fun x v => Host.reduce IntOp.andi x v reducesTo_S3x128x128_S_d0_1_2 h_S_) main_v61 main_c_23
  let main_v63 : IVec S_ 1 := andi main_v58 main_v62
  let main_v64 : FVec F S3x128 .f32 := Host.absf main_arg17
  let main_cst_24 : FVec F S_ .f32 := constant S_ .f32 0x7F800000#32
  let main_v65 : FVec F S3x128 .f32 := broadcastInDim S3x128 ![] bcast_S_S3x128 main_cst_24
  let main_v66 : IVec S3x128 1 := cmpf .olt main_v64 main_v65
  let main_c_25 : IVec S_ 1 := constantI S_ 1 1#1
  let main_v67 : IVec S_ 1 := (fun x v => Host.reduce IntOp.andi x v reducesTo_S3x128_S_d0_1 h_S_) main_v66 main_c_25
  fn_part4 (F := F) main_arg18 main_v63 main_v67

def fn_part2 {F : FTy → Type} [FloatOps F] (main_arg11 : FVec F S128 .f32) (main_arg12 : FVec F S8x128 .f32) (main_arg13 : FVec F S128 .f32) (main_arg14 : FVec F S8x128 .f32) (main_arg15 : FVec F S128 .f32) (main_arg16 : FVec F S3x128x128 .f32) (main_arg17 : FVec F S3x128 .f32) (main_arg18 : FVec F S3x128x128 .f32) (main_v33 : IVec S_ 1) : IVec S_ 1 :=
  let main_v34 : FVec F S128 .f32 := Host.absf main_arg11
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S8x128 .f32 := Host.absf main_arg12
  let main_cst_14 : FVec F S_ .f32 := constant S_ .f32 0x7F800000#32
  let main_v40 : FVec F S8x128 .f32 := broadcastInDim S8x128 ![] bcast_S_S8x128 main_cst_14
  let main_v41 : IVec S8x128 1 := cmpf .olt main_v39 main_v40
  let main_c_15 : IVec S_ 1 := constantI S_ 1 1#1
  let main_v42 : IVec S_ 1 := (fun x v => Host.reduce IntOp.andi x v reducesTo_S8x128_S_d0_1 h_S_) main_v41 main_c_15
  let main_v43 : IVec S_ 1 := andi main_v38 main_v42
  let main_v44 : FVec F S128 .f32 := Host.absf main_arg13
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S8x128 .f32 := Host.absf main_arg14
  let main_cst_18 : FVec F S_ .f32 := constant S_ .f32 0x7F800000#32
  let main_v50 : FVec F S8x128 .f32 := broadcastInDim S8x128 ![] bcast_S_S8x128 main_cst_18
  fn_part3 (F := F) main_arg15 main_arg16 main_arg17 main_arg18 main_v48 main_v49 main_v50

def fn_part1 {F : FTy → Type} [FloatOps F] (main_arg8 : FVec F S32x128 .f32) (main_arg9 : FVec F S128 .f32) (main_arg10 : FVec F S16x128 .f32) (main_arg11 : FVec F S128 .f32) (main_arg12 : FVec F S8x128 .f32) (main_arg13 : FVec F S128 .f32) (main_arg14 : FVec F S8x128 .f32) (main_arg15 : FVec F S128 .f32) (main_arg16 : FVec F S3x128x128 .f32) (main_arg17 : FVec F S3x128 .f32) (main_arg18 : FVec F S3x128x128 .f32) (main_v13 : IVec S_ 1) (main_v16 : IVec S20000x8 1) : IVec S_ 1 :=
  let main_c_5 : IVec S_ 1 := constantI S_ 1 1#1
  let main_v17 : IVec S_ 1 := (fun x v => Host.reduce IntOp.andi x v reducesTo_S20000x8_S_d0_1 h_S_) main_v16 main_c_5
  let main_v18 : IVec S_ 1 := andi main_v13 main_v17
  let main_v19 : FVec F S32x128 .f32 := Host.absf main_arg8
  let main_cst_6 : FVec F S_ .f32 := constant S_ .f32 0x7F800000#32
  let main_v20 : FVec F S32x128 .f32 := broadcastInDim S32x128 ![] bcast_S_S32x128 main_cst_6
  let main_v21 : IVec S32x128 1 := cmpf .olt main_v19 main_v20
  let main_c_7 : IVec S_ 1 := constantI S_ 1 1#1
  let main_v22 : IVec S_ 1 := (fun x v => Host.reduce IntOp.andi x v reducesTo_S32x128_S_d0_1 h_S_) main_v21 main_c_7
  let main_v23 : IVec S_ 1 := andi main_v18 main_v22
  let main_v24 : FVec F S128 .f32 := Host.absf main_arg9
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S16x128 .f32 := Host.absf main_arg10
  let main_cst_10 : FVec F S_ .f32 := constant S_ .f32 0x7F800000#32
  let main_v30 : FVec F S16x128 .f32 := broadcastInDim S16x128 ![] bcast_S_S16x128 main_cst_10
  let main_v31 : IVec S16x128 1 := cmpf .olt main_v29 main_v30
  let main_c_11 : IVec S_ 1 := constantI S_ 1 1#1
  let main_v32 : IVec S_ 1 := (fun x v => Host.reduce IntOp.andi x v reducesTo_S16x128_S_d0_1 h_S_) main_v31 main_c_11
  let main_v33 : IVec S_ 1 := andi main_v28 main_v32
  fn_part2 (F := F) main_arg11 main_arg12 main_arg13 main_arg14 main_arg15 main_arg16 main_arg17 main_arg18 main_v33

def fn {F : FTy → Type} [FloatOps F] (main_arg0 : FVec F S50000x32 .f32) (main_arg1 : FVec F S100000x16 .f32) (main_arg2 : FVec F S50000x8 .f32) (main_arg3 : FVec F S20000x8 .f32) (main_arg4 : IVec S2x640000 32) (main_arg5 : IVec S2x640000 32) (main_arg6 : IVec S2x320000 32) (main_arg7 : IVec S2x160000 32) (main_arg8 : FVec F S32x128 .f32) (main_arg9 : FVec F S128 .f32) (main_arg10 : FVec F S16x128 .f32) (main_arg11 : FVec F S128 .f32) (main_arg12 : FVec F S8x128 .f32) (main_arg13 : FVec F S128 .f32) (main_arg14 : FVec F S8x128 .f32) (main_arg15 : FVec F S128 .f32) (main_arg16 : FVec F S3x128x128 .f32) (main_arg17 : FVec F S3x128 .f32) (main_arg18 : FVec F S3x128x128 .f32) : IVec S_ 1 :=
  let main_v0 : FVec F S50000x32 .f32 := Host.absf main_arg0
  let main_cst : FVec F S_ .f32 := constant S_ .f32 0x7F800000#32
  let main_v1 : FVec F S50000x32 .f32 := broadcastInDim S50000x32 ![] bcast_S_S50000x32 main_cst
  let main_v2 : IVec S50000x32 1 := cmpf .olt main_v0 main_v1
  let main_c : IVec S_ 1 := constantI S_ 1 1#1
  let main_v3 : IVec S_ 1 := (fun x v => Host.reduce IntOp.andi x v reducesTo_S50000x32_S_d0_1 h_S_) main_v2 main_c
  let main_v4 : FVec F S100000x16 .f32 := Host.absf main_arg1
  let main_cst_0 : FVec F S_ .f32 := constant S_ .f32 0x7F800000#32
  let main_v5 : FVec F S100000x16 .f32 := broadcastInDim S100000x16 ![] bcast_S_S100000x16 main_cst_0
  let main_v6 : IVec S100000x16 1 := cmpf .olt main_v4 main_v5
  let main_c_1 : IVec S_ 1 := constantI S_ 1 1#1
  let main_v7 : IVec S_ 1 := (fun x v => Host.reduce IntOp.andi x v reducesTo_S100000x16_S_d0_1 h_S_) main_v6 main_c_1
  let main_v8 : IVec S_ 1 := andi main_v3 main_v7
  let main_v9 : FVec F S50000x8 .f32 := Host.absf main_arg2
  let main_cst_2 : FVec F S_ .f32 := constant S_ .f32 0x7F800000#32
  let main_v10 : FVec F S50000x8 .f32 := broadcastInDim S50000x8 ![] bcast_S_S50000x8 main_cst_2
  let main_v11 : IVec S50000x8 1 := cmpf .olt main_v9 main_v10
  let main_c_3 : IVec S_ 1 := constantI S_ 1 1#1
  let main_v12 : IVec S_ 1 := (fun x v => Host.reduce IntOp.andi x v reducesTo_S50000x8_S_d0_1 h_S_) main_v11 main_c_3
  let main_v13 : IVec S_ 1 := andi main_v8 main_v12
  let main_v14 : FVec F S20000x8 .f32 := Host.absf main_arg3
  let main_cst_4 : FVec F S_ .f32 := constant S_ .f32 0x7F800000#32
  let main_v15 : FVec F S20000x8 .f32 := broadcastInDim S20000x8 ![] bcast_S_S20000x8 main_cst_4
  let main_v16 : IVec S20000x8 1 := cmpf .olt main_v14 main_v15
  fn_part1 (F := F) main_arg8 main_arg9 main_arg10 main_arg11 main_arg12 main_arg13 main_arg14 main_arg15 main_arg16 main_arg17 main_arg18 main_v13 main_v16
-- ==== Kernel.lean ====
abbrev S50000x32 : Shape := ⟨2, ![50000, 32]⟩
abbrev S100000x16 : Shape := ⟨2, ![100000, 16]⟩
abbrev S50000x8 : Shape := ⟨2, ![50000, 8]⟩
abbrev S20000x8 : Shape := ⟨2, ![20000, 8]⟩
abbrev S2x640000 : Shape := ⟨2, ![2, 640000]⟩
abbrev S2x320000 : Shape := ⟨2, ![2, 320000]⟩
abbrev S2x160000 : Shape := ⟨2, ![2, 160000]⟩
abbrev S32x128 : Shape := ⟨2, ![32, 128]⟩
abbrev S128 : Shape := ⟨1, ![128]⟩
abbrev S16x128 : Shape := ⟨2, ![16, 128]⟩
abbrev S8x128 : Shape := ⟨2, ![8, 128]⟩
abbrev S3x128x128 : Shape := ⟨3, ![3, 128, 128]⟩
abbrev S3x128 : Shape := ⟨2, ![3, 128]⟩
abbrev S1x128 : Shape := ⟨2, ![1, 128]⟩
abbrev S50000x128 : Shape := ⟨2, ![50000, 128]⟩
abbrev S2000x32 : Shape := ⟨2, ![2000, 32]⟩
abbrev S2000x128 : Shape := ⟨2, ![2000, 128]⟩
abbrev S100000x128 : Shape := ⟨2, ![100000, 128]⟩
abbrev S2000x16 : Shape := ⟨2, ![2000, 16]⟩
abbrev S2000x8 : Shape := ⟨2, ![2000, 8]⟩
abbrev S20000x128 : Shape := ⟨2, ![20000, 128]⟩
abbrev S_ : Shape := ⟨0, ![]⟩
abbrev S640000 : Shape := ⟨1, ![640000]⟩
abbrev S1x640000 : Shape := ⟨2, ![1, 640000]⟩
abbrev S50000 : Shape := ⟨1, ![50000]⟩
abbrev S640000x1 : Shape := ⟨2, ![640000, 1]⟩
abbrev S50000x1 : Shape := ⟨2, ![50000, 1]⟩
abbrev S320000 : Shape := ⟨1, ![320000]⟩
abbrev S1x320000 : Shape := ⟨2, ![1, 320000]⟩
abbrev S320000x1 : Shape := ⟨2, ![320000, 1]⟩
abbrev S160000 : Shape := ⟨1, ![160000]⟩
abbrev S1x160000 : Shape := ⟨2, ![1, 160000]⟩
abbrev S160000x1 : Shape := ⟨2, ![160000, 1]⟩
abbrev S1x128x128 : Shape := ⟨3, ![1, 128, 128]⟩
abbrev S128x128 : Shape := ⟨2, ![128, 128]⟩
abbrev S640000x128 : Shape := ⟨2, ![640000, 128]⟩
abbrev S320000x128 : Shape := ⟨2, ![320000, 128]⟩
abbrev S160000x128 : Shape := ⟨2, ![160000, 128]⟩

abbrev nBuf : Space → Nat
  | .hbm => 383
  | .vmem => 141
  | .smem => 0
  | _ => 0

abbrev hbmTy0_0 (i : Nat) : BufTy := match i % 128 with
  | 0 => ⟨S50000x32, .f32⟩
  | 1 => ⟨S100000x16, .f32⟩
  | 2 => ⟨S50000x8, .f32⟩
  | 3 => ⟨S20000x8, .f32⟩
  | 4 => ⟨S2x640000, .i32⟩
  | 5 => ⟨S2x640000, .i32⟩
  | 6 => ⟨S2x320000, .i32⟩
  | 7 => ⟨S2x160000, .i32⟩
  | 8 => ⟨S32x128, .f32⟩
  | 9 => ⟨S128, .f32⟩
  | 10 => ⟨S16x128, .f32⟩
  | 11 => ⟨S128, .f32⟩
  | 12 => ⟨S8x128, .f32⟩
  | 13 => ⟨S128, .f32⟩
  | 14 => ⟨S8x128, .f32⟩
  | 15 => ⟨S128, .f32⟩
  | 16 => ⟨S3x128x128, .f32⟩
  | 17 => ⟨S3x128, .f32⟩
  | 18 => ⟨S3x128x128, .f32⟩
  | 19 => ⟨S1x128, .f32⟩
  | 20 => ⟨S50000x128, .f32⟩
  | 21 => ⟨S1x128, .f32⟩
  | 22 => ⟨S100000x128, .f32⟩
  | 23 => ⟨S1x128, .f32⟩
  | 24 => ⟨S50000x128, .f32⟩
  | 25 => ⟨S1x128, .f32⟩
  | 26 => ⟨S20000x128, .f32⟩
  | 27 => ⟨S_, .f32⟩
  | 28 => ⟨S640000, .f32⟩
  | 29 => ⟨S1x640000, .i32⟩
  | 30 => ⟨S640000, .i32⟩
  | 31 => ⟨S_, .f32⟩
  | 32 => ⟨S50000, .f32⟩
  | 33 => ⟨S640000x1, .i32⟩
  | 34 => ⟨S50000, .f32⟩
  | 35 => ⟨S_, .f32⟩
  | 36 => ⟨S50000, .f32⟩
  | 37 => ⟨S50000, .f32⟩
  | 38 => ⟨S_, .f32⟩
  | 39 => ⟨S50000, .f32⟩
  | 40 => ⟨S50000, .f32⟩
  | 41 => ⟨S50000x1, .f32⟩
  | 42 => ⟨S_, .f32⟩
  | 43 => ⟨S640000, .f32⟩
  | 44 => ⟨S1x640000, .i32⟩
  | 45 => ⟨S640000, .i32⟩
  | 46 => ⟨S_, .f32⟩
  | 47 => ⟨S50000, .f32⟩
  | 48 => ⟨S640000x1, .i32⟩
  | 49 => ⟨S50000, .f32⟩
  | 50 => ⟨S_, .f32⟩
  | 51 => ⟨S50000, .f32⟩
  | 52 => ⟨S50000, .f32⟩
  | 53 => ⟨S_, .f32⟩
  | 54 => ⟨S50000, .f32⟩
  | 55 => ⟨S50000, .f32⟩
  | 56 => ⟨S50000x1, .f32⟩
  | 57 => ⟨S_, .f32⟩
  | 58 => ⟨S320000, .f32⟩
  | 59 => ⟨S1x320000, .i32⟩
  | 60 => ⟨S320000, .i32⟩
  | 61 => ⟨S_, .f32⟩
  | 62 => ⟨S50000, .f32⟩
  | 63 => ⟨S320000x1, .i32⟩
  | 64 => ⟨S50000, .f32⟩
  | 65 => ⟨S_, .f32⟩
  | 66 => ⟨S50000, .f32⟩
  | 67 => ⟨S50000, .f32⟩
  | 68 => ⟨S_, .f32⟩
  | 69 => ⟨S50000, .f32⟩
  | 70 => ⟨S50000, .f32⟩
  | 71 => ⟨S50000x1, .f32⟩
  | 72 => ⟨S_, .f32⟩
  | 73 => ⟨S160000, .f32⟩
  | 74 => ⟨S1x160000, .i32⟩
  | 75 => ⟨S160000, .i32⟩
  | 76 => ⟨S_, .f32⟩
  | 77 => ⟨S50000, .f32⟩
  | 78 => ⟨S160000x1, .i32⟩
  | 79 => ⟨S50000, .f32⟩
  | 80 => ⟨S_, .f32⟩
  | 81 => ⟨S50000, .f32⟩
  | 82 => ⟨S50000, .f32⟩
  | 83 => ⟨S_, .f32⟩
  | 84 => ⟨S50000, .f32⟩
  | 85 => ⟨S50000, .f32⟩
  | 86 => ⟨S50000x1, .f32⟩
  | 87 => ⟨S_, .f32⟩
  | 88 => ⟨S128, .f32⟩
  | 89 => ⟨S1x128x128, .f32⟩
  | 90 => ⟨S128x128, .f32⟩
  | 91 => ⟨S1x128, .f32⟩
  | 92 => ⟨S128, .f32⟩
  | 93 => ⟨S1x128x128, .f32⟩
  | 94 => ⟨S128x128, .f32⟩
  | 95 => ⟨S1x128, .f32⟩
  | 96 => ⟨S50000x128, .f32⟩
  | 97 => ⟨S50000x128, .f32⟩
  | 98 => ⟨S1x128x128, .f32⟩
  | 99 => ⟨S128x128, .f32⟩
  | 100 => ⟨S1x128, .f32⟩
  | 101 => ⟨S100000x128, .f32⟩
  | 102 => ⟨S1x128x128, .f32⟩
  | 103 => ⟨S128x128, .f32⟩
  | 104 => ⟨S1x128, .f32⟩
  | 105 => ⟨S50000x128, .f32⟩
  | 106 => ⟨S1x128x128, .f32⟩
  | 107 => ⟨S128x128, .f32⟩
  | 108 => ⟨S1x128, .f32⟩
  | 109 => ⟨S20000x128, .f32⟩
  | 110 => ⟨S1x640000, .i32⟩
  | 111 => ⟨S640000, .i32⟩
  | 112 => ⟨S_, .i32⟩
  | 113 => ⟨S640000, .i32⟩
  | 114 => ⟨S640000, .i1⟩
  | 115 => ⟨S_, .i32⟩
  | 116 => ⟨S640000, .i32⟩
  | 117 => ⟨S640000, .i32⟩
  | 118 => ⟨S640000, .i32⟩
  | 119 => ⟨S640000x1, .i32⟩
  | 120 => ⟨S640000x128, .f32⟩
  | 121 => ⟨S1x640000, .i32⟩
  | 122 => ⟨S640000, .i32⟩
  | 123 => ⟨S_, .f32⟩
  | 124 => ⟨S50000x128, .f32⟩
  | 125 => ⟨S640000x1, .i32⟩
  | 126 => ⟨S50000x128, .f32⟩
  | 127 => ⟨S50000x128, .f32⟩
  | _ => ⟨S50000x32, .f32⟩

abbrev hbmTy0_1 (i : Nat) : BufTy := match i % 128 with
  | 0 => ⟨S50000x128, .f32⟩
  | 1 => ⟨S1x640000, .i32⟩
  | 2 => ⟨S640000, .i32⟩
  | 3 => ⟨S_, .i32⟩
  | 4 => ⟨S640000, .i32⟩
  | 5 => ⟨S640000, .i1⟩
  | 6 => ⟨S_, .i32⟩
  | 7 => ⟨S640000, .i32⟩
  | 8 => ⟨S640000, .i32⟩
  | 9 => ⟨S640000, .i32⟩
  | 10 => ⟨S640000x1, .i32⟩
  | 11 => ⟨S640000x128, .f32⟩
  | 12 => ⟨S1x640000, .i32⟩
  | 13 => ⟨S640000, .i32⟩
  | 14 => ⟨S_, .f32⟩
  | 15 => ⟨S50000x128, .f32⟩
  | 16 => ⟨S640000x1, .i32⟩
  | 17 => ⟨S50000x128, .f32⟩
  | 18 => ⟨S50000x128, .f32⟩
  | 19 => ⟨S50000x128, .f32⟩
  | 20 => ⟨S1x320000, .i32⟩
  | 21 => ⟨S320000, .i32⟩
  | 22 => ⟨S_, .i32⟩
  | 23 => ⟨S320000, .i32⟩
  | 24 => ⟨S320000, .i1⟩
  | 25 => ⟨S_, .i32⟩
  | 26 => ⟨S320000, .i32⟩
  | 27 => ⟨S320000, .i32⟩
  | 28 => ⟨S320000, .i32⟩
  | 29 => ⟨S320000x1, .i32⟩
  | 30 => ⟨S320000x128, .f32⟩
  | 31 => ⟨S1x320000, .i32⟩
  | 32 => ⟨S320000, .i32⟩
  | 33 => ⟨S_, .f32⟩
  | 34 => ⟨S50000x128, .f32⟩
  | 35 => ⟨S320000x1, .i32⟩
  | 36 => ⟨S50000x128, .f32⟩
  | 37 => ⟨S50000x128, .f32⟩
  | 38 => ⟨S50000x128, .f32⟩
  | 39 => ⟨S1x160000, .i32⟩
  | 40 => ⟨S160000, .i32⟩
  | 41 => ⟨S_, .i32⟩
  | 42 => ⟨S160000, .i32⟩
  | 43 => ⟨S160000, .i1⟩
  | 44 => ⟨S_, .i32⟩
  | 45 => ⟨S160000, .i32⟩
  | 46 => ⟨S160000, .i32⟩
  | 47 => ⟨S160000, .i32⟩
  | 48 => ⟨S160000x1, .i32⟩
  | 49 => ⟨S160000x128, .f32⟩
  | 50 => ⟨S1x160000, .i32⟩
  | 51 => ⟨S160000, .i32⟩
  | 52 => ⟨S_, .f32⟩
  | 53 => ⟨S50000x128, .f32⟩
  | 54 => ⟨S160000x1, .i32⟩
  | 55 => ⟨S50000x128, .f32⟩
  | 56 => ⟨S50000x128, .f32⟩
  | 57 => ⟨S50000x128, .f32⟩
  | 58 => ⟨S50000x128, .f32⟩
  | 59 => ⟨S1x128x128, .f32⟩
  | 60 => ⟨S128x128, .f32⟩
  | 61 => ⟨S1x128, .f32⟩
  | 62 => ⟨S128, .f32⟩
  | 63 => ⟨S1x128x128, .f32⟩
  | 64 => ⟨S128x128, .f32⟩
  | 65 => ⟨S1x128, .f32⟩
  | 66 => ⟨S50000x128, .f32⟩
  | 67 => ⟨S50000x128, .f32⟩
  | 68 => ⟨S1x128x128, .f32⟩
  | 69 => ⟨S128x128, .f32⟩
  | 70 => ⟨S1x128, .f32⟩
  | 71 => ⟨S100000x128, .f32⟩
  | 72 => ⟨S1x128x128, .f32⟩
  | 73 => ⟨S128x128, .f32⟩
  | 74 => ⟨S1x128, .f32⟩
  | 75 => ⟨S50000x128, .f32⟩
  | 76 => ⟨S1x128x128, .f32⟩
  | 77 => ⟨S128x128, .f32⟩
  | 78 => ⟨S1x128, .f32⟩
  | 79 => ⟨S20000x128, .f32⟩
  | 80 => ⟨S1x640000, .i32⟩
  | 81 => ⟨S640000, .i32⟩
  | 82 => ⟨S_, .i32⟩
  | 83 => ⟨S640000, .i32⟩
  | 84 => ⟨S640000, .i1⟩
  | 85 => ⟨S_, .i32⟩
  | 86 => ⟨S640000, .i32⟩
  | 87 => ⟨S640000, .i32⟩
  | 88 => ⟨S640000, .i32⟩
  | 89 => ⟨S640000x1, .i32⟩
  | 90 => ⟨S640000x128, .f32⟩
  | 91 => ⟨S1x640000, .i32⟩
  | 92 => ⟨S640000, .i32⟩
  | 93 => ⟨S_, .f32⟩
  | 94 => ⟨S50000x128, .f32⟩
  | 95 => ⟨S640000x1, .i32⟩
  | 96 => ⟨S50000x128, .f32⟩
  | 97 => ⟨S50000x128, .f32⟩
  | 98 => ⟨S50000x128, .f32⟩
  | 99 => ⟨S1x640000, .i32⟩
  | 100 => ⟨S640000, .i32⟩
  | 101 => ⟨S_, .i32⟩
  | 102 => ⟨S640000, .i32⟩
  | 103 => ⟨S640000, .i1⟩
  | 104 => ⟨S_, .i32⟩
  | 105 => ⟨S640000, .i32⟩
  | 106 => ⟨S640000, .i32⟩
  | 107 => ⟨S640000, .i32⟩
  | 108 => ⟨S640000x1, .i32⟩
  | 109 => ⟨S640000x128, .f32⟩
  | 110 => ⟨S1x640000, .i32⟩
  | 111 => ⟨S640000, .i32⟩
  | 112 => ⟨S_, .f32⟩
  | 113 => ⟨S50000x128, .f32⟩
  | 114 => ⟨S640000x1, .i32⟩
  | 115 => ⟨S50000x128, .f32⟩
  | 116 => ⟨S50000x128, .f32⟩
  | 117 => ⟨S50000x128, .f32⟩
  | 118 => ⟨S1x320000, .i32⟩
  | 119 => ⟨S320000, .i32⟩
  | 120 => ⟨S_, .i32⟩
  | 121 => ⟨S320000, .i32⟩
  | 122 => ⟨S320000, .i1⟩
  | 123 => ⟨S_, .i32⟩
  | 124 => ⟨S320000, .i32⟩
  | 125 => ⟨S320000, .i32⟩
  | 126 => ⟨S320000, .i32⟩
  | 127 => ⟨S320000x1, .i32⟩
  | _ => ⟨S50000x32, .f32⟩

abbrev hbmTy0_2 (i : Nat) : BufTy := match i % 128 with
  | 0 => ⟨S320000x128, .f32⟩
  | 1 => ⟨S1x320000, .i32⟩
  | 2 => ⟨S320000, .i32⟩
  | 3 => ⟨S_, .f32⟩
  | 4 => ⟨S50000x128, .f32⟩
  | 5 => ⟨S320000x1, .i32⟩
  | 6 => ⟨S50000x128, .f32⟩
  | 7 => ⟨S50000x128, .f32⟩
  | 8 => ⟨S50000x128, .f32⟩
  | 9 => ⟨S1x160000, .i32⟩
  | 10 => ⟨S160000, .i32⟩
  | 11 => ⟨S_, .i32⟩
  | 12 => ⟨S160000, .i32⟩
  | 13 => ⟨S160000, .i1⟩
  | 14 => ⟨S_, .i32⟩
  | 15 => ⟨S160000, .i32⟩
  | 16 => ⟨S160000, .i32⟩
  | 17 => ⟨S160000, .i32⟩
  | 18 => ⟨S160000x1, .i32⟩
  | 19 => ⟨S160000x128, .f32⟩
  | 20 => ⟨S1x160000, .i32⟩
  | 21 => ⟨S160000, .i32⟩
  | 22 => ⟨S_, .f32⟩
  | 23 => ⟨S50000x128, .f32⟩
  | 24 => ⟨S160000x1, .i32⟩
  | 25 => ⟨S50000x128, .f32⟩
  | 26 => ⟨S50000x128, .f32⟩
  | 27 => ⟨S50000x128, .f32⟩
  | 28 => ⟨S50000x128, .f32⟩
  | 29 => ⟨S1x128x128, .f32⟩
  | 30 => ⟨S128x128, .f32⟩
  | 31 => ⟨S1x128, .f32⟩
  | 32 => ⟨S128, .f32⟩
  | 33 => ⟨S1x128x128, .f32⟩
  | 34 => ⟨S128x128, .f32⟩
  | 35 => ⟨S1x128, .f32⟩
  | 36 => ⟨S50000x128, .f32⟩
  | 37 => ⟨S50000x128, .f32⟩
  | 38 => ⟨S1x128x128, .f32⟩
  | 39 => ⟨S128x128, .f32⟩
  | 40 => ⟨S1x128, .f32⟩
  | 41 => ⟨S100000x128, .f32⟩
  | 42 => ⟨S1x128x128, .f32⟩
  | 43 => ⟨S128x128, .f32⟩
  | 44 => ⟨S1x128, .f32⟩
  | 45 => ⟨S50000x128, .f32⟩
  | 46 => ⟨S1x128x128, .f32⟩
  | 47 => ⟨S128x128, .f32⟩
  | 48 => ⟨S1x128, .f32⟩
  | 49 => ⟨S20000x128, .f32⟩
  | 50 => ⟨S1x640000, .i32⟩
  | 51 => ⟨S640000, .i32⟩
  | 52 => ⟨S_, .i32⟩
  | 53 => ⟨S640000, .i32⟩
  | 54 => ⟨S640000, .i1⟩
  | 55 => ⟨S_, .i32⟩
  | 56 => ⟨S640000, .i32⟩
  | 57 => ⟨S640000, .i32⟩
  | 58 => ⟨S640000, .i32⟩
  | 59 => ⟨S640000x1, .i32⟩
  | 60 => ⟨S640000x128, .f32⟩
  | 61 => ⟨S1x640000, .i32⟩
  | 62 => ⟨S640000, .i32⟩
  | 63 => ⟨S_, .f32⟩
  | 64 => ⟨S50000x128, .f32⟩
  | 65 => ⟨S640000x1, .i32⟩
  | 66 => ⟨S50000x128, .f32⟩
  | 67 => ⟨S50000x128, .f32⟩
  | 68 => ⟨S50000x128, .f32⟩
  | 69 => ⟨S1x640000, .i32⟩
  | 70 => ⟨S640000, .i32⟩
  | 71 => ⟨S_, .i32⟩
  | 72 => ⟨S640000, .i32⟩
  | 73 => ⟨S640000, .i1⟩
  | 74 => ⟨S_, .i32⟩
  | 75 => ⟨S640000, .i32⟩
  | 76 => ⟨S640000, .i32⟩
  | 77 => ⟨S640000, .i32⟩
  | 78 => ⟨S640000x1, .i32⟩
  | 79 => ⟨S640000x128, .f32⟩
  | 80 => ⟨S1x640000, .i32⟩
  | 81 => ⟨S640000, .i32⟩
  | 82 => ⟨S_, .f32⟩
  | 83 => ⟨S50000x128, .f32⟩
  | 84 => ⟨S640000x1, .i32⟩
  | 85 => ⟨S50000x128, .f32⟩
  | 86 => ⟨S50000x128, .f32⟩
  | 87 => ⟨S50000x128, .f32⟩
  | 88 => ⟨S1x320000, .i32⟩
  | 89 => ⟨S320000, .i32⟩
  | 90 => ⟨S_, .i32⟩
  | 91 => ⟨S320000, .i32⟩
  | 92 => ⟨S320000, .i1⟩
  | 93 => ⟨S_, .i32⟩
  | 94 => ⟨S320000, .i32⟩
  | 95 => ⟨S320000, .i32⟩
  | 96 => ⟨S320000, .i32⟩
  | 97 => ⟨S320000x1, .i32⟩
  | 98 => ⟨S320000x128, .f32⟩
  | 99 => ⟨S1x320000, .i32⟩
  | 100 => ⟨S320000, .i32⟩
  | 101 => ⟨S_, .f32⟩
  | 102 => ⟨S50000x128, .f32⟩
  | 103 => ⟨S320000x1, .i32⟩
  | 104 => ⟨S50000x128, .f32⟩
  | 105 => ⟨S50000x128, .f32⟩
  | 106 => ⟨S50000x128, .f32⟩
  | 107 => ⟨S1x160000, .i32⟩
  | 108 => ⟨S160000, .i32⟩
  | 109 => ⟨S_, .i32⟩
  | 110 => ⟨S160000, .i32⟩
  | 111 => ⟨S160000, .i1⟩
  | 112 => ⟨S_, .i32⟩
  | 113 => ⟨S160000, .i32⟩
  | 114 => ⟨S160000, .i32⟩
  | 115 => ⟨S160000, .i32⟩
  | 116 => ⟨S160000x1, .i32⟩
  | 117 => ⟨S160000x128, .f32⟩
  | 118 => ⟨S1x160000, .i32⟩
  | 119 => ⟨S160000, .i32⟩
  | 120 => ⟨S_, .f32⟩
  | 121 => ⟨S50000x128, .f32⟩
  | 122 => ⟨S160000x1, .i32⟩
  | 123 => ⟨S50000x128, .f32⟩
  | 124 => ⟨S50000x128, .f32⟩
  | 125 => ⟨S50000x128, .f32⟩
  | 126 => ⟨S50000x128, .f32⟩
  | _ => ⟨S50000x32, .f32⟩

abbrev hbmTy (i : Nat) : BufTy := match i / 128 with
  | 0 => hbmTy0_0 i
  | 1 => hbmTy0_1 i
  | 2 => hbmTy0_2 i
  | _ => ⟨S50000x32, .f32⟩

abbrev vmemTy0_0 (i : Nat) : BufTy := match i % 128 with
  | 0 => ⟨S2000x32, .f32⟩
  | 1 => ⟨S2000x32, .f32⟩
  | 2 => ⟨S32x128, .f32⟩
  | 3 => ⟨S1x128, .f32⟩
  | 4 => ⟨S2000x128, .f32⟩
  | 5 => ⟨S2000x128, .f32⟩
  | 6 => ⟨S2000x16, .f32⟩
  | 7 => ⟨S2000x16, .f32⟩
  | 8 => ⟨S16x128, .f32⟩
  | 9 => ⟨S1x128, .f32⟩
  | 10 => ⟨S2000x128, .f32⟩
  | 11 => ⟨S2000x128, .f32⟩
  | 12 => ⟨S2000x8, .f32⟩
  | 13 => ⟨S2000x8, .f32⟩
  | 14 => ⟨S8x128, .f32⟩
  | 15 => ⟨S1x128, .f32⟩
  | 16 => ⟨S2000x128, .f32⟩
  | 17 => ⟨S2000x128, .f32⟩
  | 18 => ⟨S2000x8, .f32⟩
  | 19 => ⟨S2000x8, .f32⟩
  | 20 => ⟨S8x128, .f32⟩
  | 21 => ⟨S1x128, .f32⟩
  | 22 => ⟨S2000x128, .f32⟩
  | 23 => ⟨S2000x128, .f32⟩
  | 24 => ⟨S2000x128, .f32⟩
  | 25 => ⟨S2000x128, .f32⟩
  | 26 => ⟨S128x128, .f32⟩
  | 27 => ⟨S1x128, .f32⟩
  | 28 => ⟨S128x128, .f32⟩
  | 29 => ⟨S2000x128, .f32⟩
  | 30 => ⟨S2000x128, .f32⟩
  | 31 => ⟨S2000x128, .f32⟩
  | 32 => ⟨S2000x128, .f32⟩
  | 33 => ⟨S2000x128, .f32⟩
  | 34 => ⟨S2000x128, .f32⟩
  | 35 => ⟨S128x128, .f32⟩
  | 36 => ⟨S1x128, .f32⟩
  | 37 => ⟨S2000x128, .f32⟩
  | 38 => ⟨S2000x128, .f32⟩
  | 39 => ⟨S2000x128, .f32⟩
  | 40 => ⟨S2000x128, .f32⟩
  | 41 => ⟨S128x128, .f32⟩
  | 42 => ⟨S1x128, .f32⟩
  | 43 => ⟨S2000x128, .f32⟩
  | 44 => ⟨S2000x128, .f32⟩
  | 45 => ⟨S2000x128, .f32⟩
  | 46 => ⟨S2000x128, .f32⟩
  | 47 => ⟨S128x128, .f32⟩
  | 48 => ⟨S1x128, .f32⟩
  | 49 => ⟨S2000x128, .f32⟩
  | 50 => ⟨S2000x128, .f32⟩
  | 51 => ⟨S2000x128, .f32⟩
  | 52 => ⟨S2000x128, .f32⟩
  | 53 => ⟨S2000x128, .f32⟩
  | 54 => ⟨S2000x128, .f32⟩
  | 55 => ⟨S2000x128, .f32⟩
  | 56 => ⟨S2000x128, .f32⟩
  | 57 => ⟨S2000x128, .f32⟩
  | 58 => ⟨S2000x128, .f32⟩
  | 59 => ⟨S2000x128, .f32⟩
  | 60 => ⟨S2000x128, .f32⟩
  | 61 => ⟨S2000x128, .f32⟩
  | 62 => ⟨S2000x128, .f32⟩
  | 63 => ⟨S2000x128, .f32⟩
  | 64 => ⟨S2000x128, .f32⟩
  | 65 => ⟨S128x128, .f32⟩
  | 66 => ⟨S1x128, .f32⟩
  | 67 => ⟨S128x128, .f32⟩
  | 68 => ⟨S2000x128, .f32⟩
  | 69 => ⟨S2000x128, .f32⟩
  | 70 => ⟨S2000x128, .f32⟩
  | 71 => ⟨S2000x128, .f32⟩
  | 72 => ⟨S2000x128, .f32⟩
  | 73 => ⟨S2000x128, .f32⟩
  | 74 => ⟨S128x128, .f32⟩
  | 75 => ⟨S1x128, .f32⟩
  | 76 => ⟨S2000x128, .f32⟩
  | 77 => ⟨S2000x128, .f32⟩
  | 78 => ⟨S2000x128, .f32⟩
  | 79 => ⟨S2000x128, .f32⟩
  | 80 => ⟨S128x128, .f32⟩
  | 81 => ⟨S1x128, .f32⟩
  | 82 => ⟨S2000x128, .f32⟩
  | 83 => ⟨S2000x128, .f32⟩
  | 84 => ⟨S2000x128, .f32⟩
  | 85 => ⟨S2000x128, .f32⟩
  | 86 => ⟨S128x128, .f32⟩
  | 87 => ⟨S1x128, .f32⟩
  | 88 => ⟨S2000x128, .f32⟩
  | 89 => ⟨S2000x128, .f32⟩
  | 90 => ⟨S2000x128, .f32⟩
  | 91 => ⟨S2000x128, .f32⟩
  | 92 => ⟨S2000x128, .f32⟩
  | 93 => ⟨S2000x128, .f32⟩
  | 94 => ⟨S2000x128, .f32⟩
  | 95 => ⟨S2000x128, .f32⟩
  | 96 => ⟨S2000x128, .f32⟩
  | 97 => ⟨S2000x128, .f32⟩
  | 98 => ⟨S2000x128, .f32⟩
  | 99 => ⟨S2000x128, .f32⟩
  | 100 => ⟨S2000x128, .f32⟩
  | 101 => ⟨S2000x128, .f32⟩
  | 102 => ⟨S2000x128, .f32⟩
  | 103 => ⟨S2000x128, .f32⟩
  | 104 => ⟨S128x128, .f32⟩
  | 105 => ⟨S1x128, .f32⟩
  | 106 => ⟨S128x128, .f32⟩
  | 107 => ⟨S2000x128, .f32⟩
  | 108 => ⟨S2000x128, .f32⟩
  | 109 => ⟨S2000x128, .f32⟩
  | 110 => ⟨S2000x128, .f32⟩
  | 111 => ⟨S2000x128, .f32⟩
  | 112 => ⟨S2000x128, .f32⟩
  | 113 => ⟨S128x128, .f32⟩
  | 114 => ⟨S1x128, .f32⟩
  | 115 => ⟨S2000x128, .f32⟩
  | 116 => ⟨S2000x128, .f32⟩
  | 117 => ⟨S2000x128, .f32⟩
  | 118 => ⟨S2000x128, .f32⟩
  | 119 => ⟨S128x128, .f32⟩
  | 120 => ⟨S1x128, .f32⟩
  | 121 => ⟨S2000x128, .f32⟩
  | 122 => ⟨S2000x128, .f32⟩
  | 123 => ⟨S2000x128, .f32⟩
  | 124 => ⟨S2000x128, .f32⟩
  | 125 => ⟨S128x128, .f32⟩
  | 126 => ⟨S1x128, .f32⟩
  | 127 => ⟨S2000x128, .f32⟩
  | _ => ⟨S50000x32, .f32⟩

abbrev vmemTy0_1 (i : Nat) : BufTy := match i % 128 with
  | 0 => ⟨S2000x128, .f32⟩
  | 1 => ⟨S2000x128, .f32⟩
  | 2 => ⟨S2000x128, .f32⟩
  | 3 => ⟨S2000x128, .f32⟩
  | 4 => ⟨S2000x128, .f32⟩
  | 5 => ⟨S2000x128, .f32⟩
  | 6 => ⟨S2000x128, .f32⟩
  | 7 => ⟨S2000x128, .f32⟩
  | 8 => ⟨S2000x128, .f32⟩
  | 9 => ⟨S2000x128, .f32⟩
  | 10 => ⟨S2000x128, .f32⟩
  | 11 => ⟨S2000x128, .f32⟩
  | 12 => ⟨S2000x128, .f32⟩
  | _ => ⟨S50000x32, .f32⟩

abbrev vmemTy (i : Nat) : BufTy := match i / 128 with
  | 0 => vmemTy0_0 i
  | 1 => vmemTy0_1 i
  | _ => ⟨S50000x32, .f32⟩

abbrev bufTy : (tb : Table) → Fin (tcTables nBuf tb) → BufTy
  | .hbm, ⟨i, _⟩ => hbmTy i
  | .local _ .vmem, ⟨i, _⟩ => vmemTy i
  | _, _ => ⟨S50000x32, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 141 → Bool
  | ⟨i, _⟩ => dmaSemScopedAt i

abbrev sig : RefSig :=
  ofTc nBuf bufTy 0 141 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_0 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_1 : Ref sig .tc := ⟨.hbm, 35, rfl⟩
abbrev main_v14 : Ref sig .tc := ⟨.hbm, 36, rfl⟩
abbrev main_v15 : Ref sig .tc := ⟨.hbm, 37, rfl⟩
abbrev main_cst_2 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_3 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_4 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_cst_5 : Ref sig .tc := ⟨.hbm, 50, rfl⟩
abbrev main_v25 : Ref sig .tc := ⟨.hbm, 51, rfl⟩
abbrev main_v26 : Ref sig .tc := ⟨.hbm, 52, rfl⟩
abbrev main_cst_6 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_cst_7 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_cst_8 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_cst_9 : Ref sig .tc := ⟨.hbm, 65, rfl⟩
abbrev main_v36 : Ref sig .tc := ⟨.hbm, 66, rfl⟩
abbrev main_v37 : Ref sig .tc := ⟨.hbm, 67, rfl⟩
abbrev main_cst_10 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_cst_11 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_cst_12 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_cst_13 : Ref sig .tc := ⟨.hbm, 80, rfl⟩
abbrev main_v47 : Ref sig .tc := ⟨.hbm, 81, rfl⟩
abbrev main_v48 : Ref sig .tc := ⟨.hbm, 82, rfl⟩
abbrev main_cst_14 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_cst_15 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60_0 : Ref sig .tc := ⟨.hbm, 96, rfl⟩
abbrev main_v60_1 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_c : Ref sig .tc := ⟨.hbm, 112, rfl⟩
abbrev main_v75 : Ref sig .tc := ⟨.hbm, 113, rfl⟩
abbrev main_v76 : Ref sig .tc := ⟨.hbm, 114, rfl⟩
abbrev main_c_16 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_cst_17 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_c_18 : Ref sig .tc := ⟨.hbm, 131, rfl⟩
abbrev main_v91 : Ref sig .tc := ⟨.hbm, 132, rfl⟩
abbrev main_v92 : Ref sig .tc := ⟨.hbm, 133, rfl⟩
abbrev main_c_19 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_cst_20 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_c_21 : Ref sig .tc := ⟨.hbm, 150, rfl⟩
abbrev main_v107 : Ref sig .tc := ⟨.hbm, 151, rfl⟩
abbrev main_v108 : Ref sig .tc := ⟨.hbm, 152, rfl⟩
abbrev main_c_22 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_cst_23 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_c_24 : Ref sig .tc := ⟨.hbm, 169, rfl⟩
abbrev main_v123 : Ref sig .tc := ⟨.hbm, 170, rfl⟩
abbrev main_v124 : Ref sig .tc := ⟨.hbm, 171, rfl⟩
abbrev main_c_25 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_cst_26 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145_0 : Ref sig .tc := ⟨.hbm, 194, rfl⟩
abbrev main_v145_1 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_c_27 : Ref sig .tc := ⟨.hbm, 210, rfl⟩
abbrev main_v160 : Ref sig .tc := ⟨.hbm, 211, rfl⟩
abbrev main_v161 : Ref sig .tc := ⟨.hbm, 212, rfl⟩
abbrev main_c_28 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_v167 : Ref sig .tc := ⟨.hbm, 219, rfl⟩
abbrev main_v168 : Ref sig .tc := ⟨.hbm, 220, rfl⟩
abbrev main_cst_29 : Ref sig .tc := ⟨.hbm, 221, rfl⟩
abbrev main_v169 : Ref sig .tc := ⟨.hbm, 222, rfl⟩
abbrev main_v170 : Ref sig .tc := ⟨.hbm, 223, rfl⟩
abbrev main_v171 : Ref sig .tc := ⟨.hbm, 224, rfl⟩
abbrev main_v172 : Ref sig .tc := ⟨.hbm, 225, rfl⟩
abbrev main_v173 : Ref sig .tc := ⟨.hbm, 226, rfl⟩
abbrev main_v174 : Ref sig .tc := ⟨.hbm, 227, rfl⟩
abbrev main_v175 : Ref sig .tc := ⟨.hbm, 228, rfl⟩
abbrev main_c_30 : Ref sig .tc := ⟨.hbm, 229, rfl⟩
abbrev main_v176 : Ref sig .tc := ⟨.hbm, 230, rfl⟩
abbrev main_v177 : Ref sig .tc := ⟨.hbm, 231, rfl⟩
abbrev main_c_31 : Ref sig .tc := ⟨.hbm, 232, rfl⟩
abbrev main_v178 : Ref sig .tc := ⟨.hbm, 233, rfl⟩
abbrev main_v179 : Ref sig .tc := ⟨.hbm, 234, rfl⟩
abbrev main_v180 : Ref sig .tc := ⟨.hbm, 235, rfl⟩
abbrev main_v181 : Ref sig .tc := ⟨.hbm, 236, rfl⟩
abbrev main_v182 : Ref sig .tc := ⟨.hbm, 237, rfl⟩
abbrev main_v183 : Ref sig .tc := ⟨.hbm, 238, rfl⟩
abbrev main_v184 : Ref sig .tc := ⟨.hbm, 239, rfl⟩
abbrev main_cst_32 : Ref sig .tc := ⟨.hbm, 240, rfl⟩
abbrev main_v185 : Ref sig .tc := ⟨.hbm, 241, rfl⟩
abbrev main_v186 : Ref sig .tc := ⟨.hbm, 242, rfl⟩
abbrev main_v187 : Ref sig .tc := ⟨.hbm, 243, rfl⟩
abbrev main_v188 : Ref sig .tc := ⟨.hbm, 244, rfl⟩
abbrev main_v189 : Ref sig .tc := ⟨.hbm, 245, rfl⟩
abbrev main_v190 : Ref sig .tc := ⟨.hbm, 246, rfl⟩
abbrev main_v191 : Ref sig .tc := ⟨.hbm, 247, rfl⟩
abbrev main_c_33 : Ref sig .tc := ⟨.hbm, 248, rfl⟩
abbrev main_v192 : Ref sig .tc := ⟨.hbm, 249, rfl⟩
abbrev main_v193 : Ref sig .tc := ⟨.hbm, 250, rfl⟩
abbrev main_c_34 : Ref sig .tc := ⟨.hbm, 251, rfl⟩
abbrev main_v194 : Ref sig .tc := ⟨.hbm, 252, rfl⟩
abbrev main_v195 : Ref sig .tc := ⟨.hbm, 253, rfl⟩
abbrev main_v196 : Ref sig .tc := ⟨.hbm, 254, rfl⟩
abbrev main_v197 : Ref sig .tc := ⟨.hbm, 255, rfl⟩
abbrev main_v198 : Ref sig .tc := ⟨.hbm, 256, rfl⟩
abbrev main_v199 : Ref sig .tc := ⟨.hbm, 257, rfl⟩
abbrev main_v200 : Ref sig .tc := ⟨.hbm, 258, rfl⟩
abbrev main_cst_35 : Ref sig .tc := ⟨.hbm, 259, rfl⟩
abbrev main_v201 : Ref sig .tc := ⟨.hbm, 260, rfl⟩
abbrev main_v202 : Ref sig .tc := ⟨.hbm, 261, rfl⟩
abbrev main_v203 : Ref sig .tc := ⟨.hbm, 262, rfl⟩
abbrev main_v204 : Ref sig .tc := ⟨.hbm, 263, rfl⟩
abbrev main_v205 : Ref sig .tc := ⟨.hbm, 264, rfl⟩
abbrev main_v206 : Ref sig .tc := ⟨.hbm, 265, rfl⟩
abbrev main_v207 : Ref sig .tc := ⟨.hbm, 266, rfl⟩
abbrev main_c_36 : Ref sig .tc := ⟨.hbm, 267, rfl⟩
abbrev main_v208 : Ref sig .tc := ⟨.hbm, 268, rfl⟩
abbrev main_v209 : Ref sig .tc := ⟨.hbm, 269, rfl⟩
abbrev main_c_37 : Ref sig .tc := ⟨.hbm, 270, rfl⟩
abbrev main_v210 : Ref sig .tc := ⟨.hbm, 271, rfl⟩
abbrev main_v211 : Ref sig .tc := ⟨.hbm, 272, rfl⟩
abbrev main_v212 : Ref sig .tc := ⟨.hbm, 273, rfl⟩
abbrev main_v213 : Ref sig .tc := ⟨.hbm, 274, rfl⟩
abbrev main_v214 : Ref sig .tc := ⟨.hbm, 275, rfl⟩
abbrev main_v215 : Ref sig .tc := ⟨.hbm, 276, rfl⟩
abbrev main_v216 : Ref sig .tc := ⟨.hbm, 277, rfl⟩
abbrev main_cst_38 : Ref sig .tc := ⟨.hbm, 278, rfl⟩
abbrev main_v217 : Ref sig .tc := ⟨.hbm, 279, rfl⟩
abbrev main_v218 : Ref sig .tc := ⟨.hbm, 280, rfl⟩
abbrev main_v219 : Ref sig .tc := ⟨.hbm, 281, rfl⟩
abbrev main_v220 : Ref sig .tc := ⟨.hbm, 282, rfl⟩
abbrev main_v221 : Ref sig .tc := ⟨.hbm, 283, rfl⟩
abbrev main_v222 : Ref sig .tc := ⟨.hbm, 284, rfl⟩
abbrev main_v223 : Ref sig .tc := ⟨.hbm, 285, rfl⟩
abbrev main_v224 : Ref sig .tc := ⟨.hbm, 286, rfl⟩
abbrev main_v225 : Ref sig .tc := ⟨.hbm, 287, rfl⟩
abbrev main_v226 : Ref sig .tc := ⟨.hbm, 288, rfl⟩
abbrev main_v227 : Ref sig .tc := ⟨.hbm, 289, rfl⟩
abbrev main_v228 : Ref sig .tc := ⟨.hbm, 290, rfl⟩
abbrev main_v229 : Ref sig .tc := ⟨.hbm, 291, rfl⟩
abbrev main_v230_0 : Ref sig .tc := ⟨.hbm, 292, rfl⟩
abbrev main_v230_1 : Ref sig .tc := ⟨.hbm, 293, rfl⟩
abbrev main_v231 : Ref sig .tc := ⟨.hbm, 294, rfl⟩
abbrev main_v232 : Ref sig .tc := ⟨.hbm, 295, rfl⟩
abbrev main_v233 : Ref sig .tc := ⟨.hbm, 296, rfl⟩
abbrev main_v234 : Ref sig .tc := ⟨.hbm, 297, rfl⟩
abbrev main_v235 : Ref sig .tc := ⟨.hbm, 298, rfl⟩
abbrev main_v236 : Ref sig .tc := ⟨.hbm, 299, rfl⟩
abbrev main_v237 : Ref sig .tc := ⟨.hbm, 300, rfl⟩
abbrev main_v238 : Ref sig .tc := ⟨.hbm, 301, rfl⟩
abbrev main_v239 : Ref sig .tc := ⟨.hbm, 302, rfl⟩
abbrev main_v240 : Ref sig .tc := ⟨.hbm, 303, rfl⟩
abbrev main_v241 : Ref sig .tc := ⟨.hbm, 304, rfl⟩
abbrev main_v242 : Ref sig .tc := ⟨.hbm, 305, rfl⟩
abbrev main_v243 : Ref sig .tc := ⟨.hbm, 306, rfl⟩
abbrev main_v244 : Ref sig .tc := ⟨.hbm, 307, rfl⟩
abbrev main_c_39 : Ref sig .tc := ⟨.hbm, 308, rfl⟩
abbrev main_v245 : Ref sig .tc := ⟨.hbm, 309, rfl⟩
abbrev main_v246 : Ref sig .tc := ⟨.hbm, 310, rfl⟩
abbrev main_c_40 : Ref sig .tc := ⟨.hbm, 311, rfl⟩
abbrev main_v247 : Ref sig .tc := ⟨.hbm, 312, rfl⟩
abbrev main_v248 : Ref sig .tc := ⟨.hbm, 313, rfl⟩
abbrev main_v249 : Ref sig .tc := ⟨.hbm, 314, rfl⟩
abbrev main_v250 : Ref sig .tc := ⟨.hbm, 315, rfl⟩
abbrev main_v251 : Ref sig .tc := ⟨.hbm, 316, rfl⟩
abbrev main_v252 : Ref sig .tc := ⟨.hbm, 317, rfl⟩
abbrev main_v253 : Ref sig .tc := ⟨.hbm, 318, rfl⟩
abbrev main_cst_41 : Ref sig .tc := ⟨.hbm, 319, rfl⟩
abbrev main_v254 : Ref sig .tc := ⟨.hbm, 320, rfl⟩
abbrev main_v255 : Ref sig .tc := ⟨.hbm, 321, rfl⟩
abbrev main_v256 : Ref sig .tc := ⟨.hbm, 322, rfl⟩
abbrev main_v257 : Ref sig .tc := ⟨.hbm, 323, rfl⟩
abbrev main_v258 : Ref sig .tc := ⟨.hbm, 324, rfl⟩
abbrev main_v259 : Ref sig .tc := ⟨.hbm, 325, rfl⟩
abbrev main_v260 : Ref sig .tc := ⟨.hbm, 326, rfl⟩
abbrev main_c_42 : Ref sig .tc := ⟨.hbm, 327, rfl⟩
abbrev main_v261 : Ref sig .tc := ⟨.hbm, 328, rfl⟩
abbrev main_v262 : Ref sig .tc := ⟨.hbm, 329, rfl⟩
abbrev main_c_43 : Ref sig .tc := ⟨.hbm, 330, rfl⟩
abbrev main_v263 : Ref sig .tc := ⟨.hbm, 331, rfl⟩
abbrev main_v264 : Ref sig .tc := ⟨.hbm, 332, rfl⟩
abbrev main_v265 : Ref sig .tc := ⟨.hbm, 333, rfl⟩
abbrev main_v266 : Ref sig .tc := ⟨.hbm, 334, rfl⟩
abbrev main_v267 : Ref sig .tc := ⟨.hbm, 335, rfl⟩
abbrev main_v268 : Ref sig .tc := ⟨.hbm, 336, rfl⟩
abbrev main_v269 : Ref sig .tc := ⟨.hbm, 337, rfl⟩
abbrev main_cst_44 : Ref sig .tc := ⟨.hbm, 338, rfl⟩
abbrev main_v270 : Ref sig .tc := ⟨.hbm, 339, rfl⟩
abbrev main_v271 : Ref sig .tc := ⟨.hbm, 340, rfl⟩
abbrev main_v272 : Ref sig .tc := ⟨.hbm, 341, rfl⟩
abbrev main_v273 : Ref sig .tc := ⟨.hbm, 342, rfl⟩
abbrev main_v274 : Ref sig .tc := ⟨.hbm, 343, rfl⟩
abbrev main_v275 : Ref sig .tc := ⟨.hbm, 344, rfl⟩
abbrev main_v276 : Ref sig .tc := ⟨.hbm, 345, rfl⟩
abbrev main_c_45 : Ref sig .tc := ⟨.hbm, 346, rfl⟩
abbrev main_v277 : Ref sig .tc := ⟨.hbm, 347, rfl⟩
abbrev main_v278 : Ref sig .tc := ⟨.hbm, 348, rfl⟩
abbrev main_c_46 : Ref sig .tc := ⟨.hbm, 349, rfl⟩
abbrev main_v279 : Ref sig .tc := ⟨.hbm, 350, rfl⟩
abbrev main_v280 : Ref sig .tc := ⟨.hbm, 351, rfl⟩
abbrev main_v281 : Ref sig .tc := ⟨.hbm, 352, rfl⟩
abbrev main_v282 : Ref sig .tc := ⟨.hbm, 353, rfl⟩
abbrev main_v283 : Ref sig .tc := ⟨.hbm, 354, rfl⟩
abbrev main_v284 : Ref sig .tc := ⟨.hbm, 355, rfl⟩
abbrev main_v285 : Ref sig .tc := ⟨.hbm, 356, rfl⟩
abbrev main_cst_47 : Ref sig .tc := ⟨.hbm, 357, rfl⟩
abbrev main_v286 : Ref sig .tc := ⟨.hbm, 358, rfl⟩
abbrev main_v287 : Ref sig .tc := ⟨.hbm, 359, rfl⟩
abbrev main_v288 : Ref sig .tc := ⟨.hbm, 360, rfl⟩
abbrev main_v289 : Ref sig .tc := ⟨.hbm, 361, rfl⟩
abbrev main_v290 : Ref sig .tc := ⟨.hbm, 362, rfl⟩
abbrev main_v291 : Ref sig .tc := ⟨.hbm, 363, rfl⟩
abbrev main_v292 : Ref sig .tc := ⟨.hbm, 364, rfl⟩
abbrev main_c_48 : Ref sig .tc := ⟨.hbm, 365, rfl⟩
abbrev main_v293 : Ref sig .tc := ⟨.hbm, 366, rfl⟩
abbrev main_v294 : Ref sig .tc := ⟨.hbm, 367, rfl⟩
abbrev main_c_49 : Ref sig .tc := ⟨.hbm, 368, rfl⟩
abbrev main_v295 : Ref sig .tc := ⟨.hbm, 369, rfl⟩
abbrev main_v296 : Ref sig .tc := ⟨.hbm, 370, rfl⟩
abbrev main_v297 : Ref sig .tc := ⟨.hbm, 371, rfl⟩
abbrev main_v298 : Ref sig .tc := ⟨.hbm, 372, rfl⟩
abbrev main_v299 : Ref sig .tc := ⟨.hbm, 373, rfl⟩
abbrev main_v300 : Ref sig .tc := ⟨.hbm, 374, rfl⟩
abbrev main_v301 : Ref sig .tc := ⟨.hbm, 375, rfl⟩
abbrev main_cst_50 : Ref sig .tc := ⟨.hbm, 376, rfl⟩
abbrev main_v302 : Ref sig .tc := ⟨.hbm, 377, rfl⟩
abbrev main_v303 : Ref sig .tc := ⟨.hbm, 378, rfl⟩
abbrev main_v304 : Ref sig .tc := ⟨.hbm, 379, rfl⟩
abbrev main_v305 : Ref sig .tc := ⟨.hbm, 380, rfl⟩
abbrev main_v306 : Ref sig .tc := ⟨.hbm, 381, rfl⟩
abbrev main_v307 : Ref sig .tc := ⟨.hbm, 382, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg4_0 : Ref sig .tc := ⟨.vmem, 29, rfl⟩
abbrev cc4_stg4_1 : Ref sig .tc := ⟨.vmem, 30, rfl⟩
abbrev cc4_stg5_0 : Ref sig .tc := ⟨.vmem, 31, rfl⟩
abbrev cc4_stg5_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg2_0 : Ref sig .tc := ⟨.vmem, 36, rfl⟩
abbrev cc5_stg3_0 : Ref sig .tc := ⟨.vmem, 37, rfl⟩
abbrev cc5_stg3_1 : Ref sig .tc := ⟨.vmem, 38, rfl⟩
abbrev cc6_stg0_0 : Ref sig .tc := ⟨.vmem, 39, rfl⟩
abbrev cc6_stg0_1 : Ref sig .tc := ⟨.vmem, 40, rfl⟩
abbrev cc6_stg1_0 : Ref sig .tc := ⟨.vmem, 41, rfl⟩
abbrev cc6_stg2_0 : Ref sig .tc := ⟨.vmem, 42, rfl⟩
abbrev cc6_stg3_0 : Ref sig .tc := ⟨.vmem, 43, rfl⟩
abbrev cc6_stg3_1 : Ref sig .tc := ⟨.vmem, 44, rfl⟩
abbrev cc7_stg0_0 : Ref sig .tc := ⟨.vmem, 45, rfl⟩
abbrev cc7_stg0_1 : Ref sig .tc := ⟨.vmem, 46, rfl⟩
abbrev cc7_stg1_0 : Ref sig .tc := ⟨.vmem, 47, rfl⟩
abbrev cc7_stg2_0 : Ref sig .tc := ⟨.vmem, 48, rfl⟩
abbrev cc7_stg3_0 : Ref sig .tc := ⟨.vmem, 49, rfl⟩
abbrev cc7_stg3_1 : Ref sig .tc := ⟨.vmem, 50, rfl⟩
abbrev cc8_stg0_0 : Ref sig .tc := ⟨.vmem, 51, rfl⟩
abbrev cc8_stg0_1 : Ref sig .tc := ⟨.vmem, 52, rfl⟩
abbrev cc8_stg1_0 : Ref sig .tc := ⟨.vmem, 53, rfl⟩
abbrev cc8_stg1_1 : Ref sig .tc := ⟨.vmem, 54, rfl⟩
abbrev cc8_stg2_0 : Ref sig .tc := ⟨.vmem, 55, rfl⟩
abbrev cc8_stg2_1 : Ref sig .tc := ⟨.vmem, 56, rfl⟩
abbrev cc8_stg3_0 : Ref sig .tc := ⟨.vmem, 57, rfl⟩
abbrev cc8_stg3_1 : Ref sig .tc := ⟨.vmem, 58, rfl⟩
abbrev cc8_stg4_0 : Ref sig .tc := ⟨.vmem, 59, rfl⟩
abbrev cc8_stg4_1 : Ref sig .tc := ⟨.vmem, 60, rfl⟩
abbrev cc8_stg5_0 : Ref sig .tc := ⟨.vmem, 61, rfl⟩
abbrev cc8_stg5_1 : Ref sig .tc := ⟨.vmem, 62, rfl⟩
abbrev cc9_stg0_0 : Ref sig .tc := ⟨.vmem, 63, rfl⟩
abbrev cc9_stg0_1 : Ref sig .tc := ⟨.vmem, 64, rfl⟩
abbrev cc9_stg1_0 : Ref sig .tc := ⟨.vmem, 65, rfl⟩
abbrev cc9_stg2_0 : Ref sig .tc := ⟨.vmem, 66, rfl⟩
abbrev cc9_stg3_0 : Ref sig .tc := ⟨.vmem, 67, rfl⟩
abbrev cc9_stg4_0 : Ref sig .tc := ⟨.vmem, 68, rfl⟩
abbrev cc9_stg4_1 : Ref sig .tc := ⟨.vmem, 69, rfl⟩
abbrev cc9_stg5_0 : Ref sig .tc := ⟨.vmem, 70, rfl⟩
abbrev cc9_stg5_1 : Ref sig .tc := ⟨.vmem, 71, rfl⟩
abbrev cc10_stg0_0 : Ref sig .tc := ⟨.vmem, 72, rfl⟩
abbrev cc10_stg0_1 : Ref sig .tc := ⟨.vmem, 73, rfl⟩
abbrev cc10_stg1_0 : Ref sig .tc := ⟨.vmem, 74, rfl⟩
abbrev cc10_stg2_0 : Ref sig .tc := ⟨.vmem, 75, rfl⟩
abbrev cc10_stg3_0 : Ref sig .tc := ⟨.vmem, 76, rfl⟩
abbrev cc10_stg3_1 : Ref sig .tc := ⟨.vmem, 77, rfl⟩
abbrev cc11_stg0_0 : Ref sig .tc := ⟨.vmem, 78, rfl⟩
abbrev cc11_stg0_1 : Ref sig .tc := ⟨.vmem, 79, rfl⟩
abbrev cc11_stg1_0 : Ref sig .tc := ⟨.vmem, 80, rfl⟩
abbrev cc11_stg2_0 : Ref sig .tc := ⟨.vmem, 81, rfl⟩
abbrev cc11_stg3_0 : Ref sig .tc := ⟨.vmem, 82, rfl⟩
abbrev cc11_stg3_1 : Ref sig .tc := ⟨.vmem, 83, rfl⟩
abbrev cc12_stg0_0 : Ref sig .tc := ⟨.vmem, 84, rfl⟩
abbrev cc12_stg0_1 : Ref sig .tc := ⟨.vmem, 85, rfl⟩
abbrev cc12_stg1_0 : Ref sig .tc := ⟨.vmem, 86, rfl⟩
abbrev cc12_stg2_0 : Ref sig .tc := ⟨.vmem, 87, rfl⟩
abbrev cc12_stg3_0 : Ref sig .tc := ⟨.vmem, 88, rfl⟩
abbrev cc12_stg3_1 : Ref sig .tc := ⟨.vmem, 89, rfl⟩
abbrev cc13_stg0_0 : Ref sig .tc := ⟨.vmem, 90, rfl⟩
abbrev cc13_stg0_1 : Ref sig .tc := ⟨.vmem, 91, rfl⟩
abbrev cc13_stg1_0 : Ref sig .tc := ⟨.vmem, 92, rfl⟩
abbrev cc13_stg1_1 : Ref sig .tc := ⟨.vmem, 93, rfl⟩
abbrev cc13_stg2_0 : Ref sig .tc := ⟨.vmem, 94, rfl⟩
abbrev cc13_stg2_1 : Ref sig .tc := ⟨.vmem, 95, rfl⟩
abbrev cc13_stg3_0 : Ref sig .tc := ⟨.vmem, 96, rfl⟩
abbrev cc13_stg3_1 : Ref sig .tc := ⟨.vmem, 97, rfl⟩
abbrev cc13_stg4_0 : Ref sig .tc := ⟨.vmem, 98, rfl⟩
abbrev cc13_stg4_1 : Ref sig .tc := ⟨.vmem, 99, rfl⟩
abbrev cc13_stg5_0 : Ref sig .tc := ⟨.vmem, 100, rfl⟩
abbrev cc13_stg5_1 : Ref sig .tc := ⟨.vmem, 101, rfl⟩
abbrev cc14_stg0_0 : Ref sig .tc := ⟨.vmem, 102, rfl⟩
abbrev cc14_stg0_1 : Ref sig .tc := ⟨.vmem, 103, rfl⟩
abbrev cc14_stg1_0 : Ref sig .tc := ⟨.vmem, 104, rfl⟩
abbrev cc14_stg2_0 : Ref sig .tc := ⟨.vmem, 105, rfl⟩
abbrev cc14_stg3_0 : Ref sig .tc := ⟨.vmem, 106, rfl⟩
abbrev cc14_stg4_0 : Ref sig .tc := ⟨.vmem, 107, rfl⟩
abbrev cc14_stg4_1 : Ref sig .tc := ⟨.vmem, 108, rfl⟩
abbrev cc14_stg5_0 : Ref sig .tc := ⟨.vmem, 109, rfl⟩
abbrev cc14_stg5_1 : Ref sig .tc := ⟨.vmem, 110, rfl⟩
abbrev cc15_stg0_0 : Ref sig .tc := ⟨.vmem, 111, rfl⟩
abbrev cc15_stg0_1 : Ref sig .tc := ⟨.vmem, 112, rfl⟩
abbrev cc15_stg1_0 : Ref sig .tc := ⟨.vmem, 113, rfl⟩
abbrev cc15_stg2_0 : Ref sig .tc := ⟨.vmem, 114, rfl⟩
abbrev cc15_stg3_0 : Ref sig .tc := ⟨.vmem, 115, rfl⟩
abbrev cc15_stg3_1 : Ref sig .tc := ⟨.vmem, 116, rfl⟩
abbrev cc16_stg0_0 : Ref sig .tc := ⟨.vmem, 117, rfl⟩
abbrev cc16_stg0_1 : Ref sig .tc := ⟨.vmem, 118, rfl⟩
abbrev cc16_stg1_0 : Ref sig .tc := ⟨.vmem, 119, rfl⟩
abbrev cc16_stg2_0 : Ref sig .tc := ⟨.vmem, 120, rfl⟩
abbrev cc16_stg3_0 : Ref sig .tc := ⟨.vmem, 121, rfl⟩
abbrev cc16_stg3_1 : Ref sig .tc := ⟨.vmem, 122, rfl⟩
abbrev cc17_stg0_0 : Ref sig .tc := ⟨.vmem, 123, rfl⟩
abbrev cc17_stg0_1 : Ref sig .tc := ⟨.vmem, 124, rfl⟩
abbrev cc17_stg1_0 : Ref sig .tc := ⟨.vmem, 125, rfl⟩
abbrev cc17_stg2_0 : Ref sig .tc := ⟨.vmem, 126, rfl⟩
abbrev cc17_stg3_0 : Ref sig .tc := ⟨.vmem, 127, rfl⟩
abbrev cc17_stg3_1 : Ref sig .tc := ⟨.vmem, 128, rfl⟩
abbrev cc18_stg0_0 : Ref sig .tc := ⟨.vmem, 129, rfl⟩
abbrev cc18_stg0_1 : Ref sig .tc := ⟨.vmem, 130, rfl⟩
abbrev cc18_stg1_0 : Ref sig .tc := ⟨.vmem, 131, rfl⟩
abbrev cc18_stg1_1 : Ref sig .tc := ⟨.vmem, 132, rfl⟩
abbrev cc18_stg2_0 : Ref sig .tc := ⟨.vmem, 133, rfl⟩
abbrev cc18_stg2_1 : Ref sig .tc := ⟨.vmem, 134, rfl⟩
abbrev cc18_stg3_0 : Ref sig .tc := ⟨.vmem, 135, rfl⟩
abbrev cc18_stg3_1 : Ref sig .tc := ⟨.vmem, 136, rfl⟩
abbrev cc18_stg4_0 : Ref sig .tc := ⟨.vmem, 137, rfl⟩
abbrev cc18_stg4_1 : Ref sig .tc := ⟨.vmem, 138, rfl⟩
abbrev cc18_stg5_0 : Ref sig .tc := ⟨.vmem, 139, rfl⟩
abbrev cc18_stg5_1 : Ref sig .tc := ⟨.vmem, 140, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem4_0 : DmaSem sig := 29
abbrev cc4_sem4_1 : DmaSem sig := 30
abbrev cc4_sem5_0 : DmaSem sig := 31
abbrev cc4_sem5_1 : DmaSem sig := 32
abbrev cc5_sem0_0 : DmaSem sig := 33
abbrev cc5_sem0_1 : DmaSem sig := 34
abbrev cc5_sem1_0 : DmaSem sig := 35
abbrev cc5_sem2_0 : DmaSem sig := 36
abbrev cc5_sem3_0 : DmaSem sig := 37
abbrev cc5_sem3_1 : DmaSem sig := 38
abbrev cc6_sem0_0 : DmaSem sig := 39
abbrev cc6_sem0_1 : DmaSem sig := 40
abbrev cc6_sem1_0 : DmaSem sig := 41
abbrev cc6_sem2_0 : DmaSem sig := 42
abbrev cc6_sem3_0 : DmaSem sig := 43
abbrev cc6_sem3_1 : DmaSem sig := 44
abbrev cc7_sem0_0 : DmaSem sig := 45
abbrev cc7_sem0_1 : DmaSem sig := 46
abbrev cc7_sem1_0 : DmaSem sig := 47
abbrev cc7_sem2_0 : DmaSem sig := 48
abbrev cc7_sem3_0 : DmaSem sig := 49
abbrev cc7_sem3_1 : DmaSem sig := 50
abbrev cc8_sem0_0 : DmaSem sig := 51
abbrev cc8_sem0_1 : DmaSem sig := 52
abbrev cc8_sem1_0 : DmaSem sig := 53
abbrev cc8_sem1_1 : DmaSem sig := 54
abbrev cc8_sem2_0 : DmaSem sig := 55
abbrev cc8_sem2_1 : DmaSem sig := 56
abbrev cc8_sem3_0 : DmaSem sig := 57
abbrev cc8_sem3_1 : DmaSem sig := 58
abbrev cc8_sem4_0 : DmaSem sig := 59
abbrev cc8_sem4_1 : DmaSem sig := 60
abbrev cc8_sem5_0 : DmaSem sig := 61
abbrev cc8_sem5_1 : DmaSem sig := 62
abbrev cc9_sem0_0 : DmaSem sig := 63
abbrev cc9_sem0_1 : DmaSem sig := 64
abbrev cc9_sem1_0 : DmaSem sig := 65
abbrev cc9_sem2_0 : DmaSem sig := 66
abbrev cc9_sem3_0 : DmaSem sig := 67
abbrev cc9_sem4_0 : DmaSem sig := 68
abbrev cc9_sem4_1 : DmaSem sig := 69
abbrev cc9_sem5_0 : DmaSem sig := 70
abbrev cc9_sem5_1 : DmaSem sig := 71
abbrev cc10_sem0_0 : DmaSem sig := 72
abbrev cc10_sem0_1 : DmaSem sig := 73
abbrev cc10_sem1_0 : DmaSem sig := 74
abbrev cc10_sem2_0 : DmaSem sig := 75
abbrev cc10_sem3_0 : DmaSem sig := 76
abbrev cc10_sem3_1 : DmaSem sig := 77
abbrev cc11_sem0_0 : DmaSem sig := 78
abbrev cc11_sem0_1 : DmaSem sig := 79
abbrev cc11_sem1_0 : DmaSem sig := 80
abbrev cc11_sem2_0 : DmaSem sig := 81
abbrev cc11_sem3_0 : DmaSem sig := 82
abbrev cc11_sem3_1 : DmaSem sig := 83
abbrev cc12_sem0_0 : DmaSem sig := 84
abbrev cc12_sem0_1 : DmaSem sig := 85
abbrev cc12_sem1_0 : DmaSem sig := 86
abbrev cc12_sem2_0 : DmaSem sig := 87
abbrev cc12_sem3_0 : DmaSem sig := 88
abbrev cc12_sem3_1 : DmaSem sig := 89
abbrev cc13_sem0_0 : DmaSem sig := 90
abbrev cc13_sem0_1 : DmaSem sig := 91
abbrev cc13_sem1_0 : DmaSem sig := 92
abbrev cc13_sem1_1 : DmaSem sig := 93
abbrev cc13_sem2_0 : DmaSem sig := 94
abbrev cc13_sem2_1 : DmaSem sig := 95
abbrev cc13_sem3_0 : DmaSem sig := 96
abbrev cc13_sem3_1 : DmaSem sig := 97
abbrev cc13_sem4_0 : DmaSem sig := 98
abbrev cc13_sem4_1 : DmaSem sig := 99
abbrev cc13_sem5_0 : DmaSem sig := 100
abbrev cc13_sem5_1 : DmaSem sig := 101
abbrev cc14_sem0_0 : DmaSem sig := 102
abbrev cc14_sem0_1 : DmaSem sig := 103
abbrev cc14_sem1_0 : DmaSem sig := 104
abbrev cc14_sem2_0 : DmaSem sig := 105
abbrev cc14_sem3_0 : DmaSem sig := 106
abbrev cc14_sem4_0 : DmaSem sig := 107
abbrev cc14_sem4_1 : DmaSem sig := 108
abbrev cc14_sem5_0 : DmaSem sig := 109
abbrev cc14_sem5_1 : DmaSem sig := 110
abbrev cc15_sem0_0 : DmaSem sig := 111
abbrev cc15_sem0_1 : DmaSem sig := 112
abbrev cc15_sem1_0 : DmaSem sig := 113
abbrev cc15_sem2_0 : DmaSem sig := 114
abbrev cc15_sem3_0 : DmaSem sig := 115
abbrev cc15_sem3_1 : DmaSem sig := 116
abbrev cc16_sem0_0 : DmaSem sig := 117
abbrev cc16_sem0_1 : DmaSem sig := 118
abbrev cc16_sem1_0 : DmaSem sig := 119
abbrev cc16_sem2_0 : DmaSem sig := 120
abbrev cc16_sem3_0 : DmaSem sig := 121
abbrev cc16_sem3_1 : DmaSem sig := 122
abbrev cc17_sem0_0 : DmaSem sig := 123
abbrev cc17_sem0_1 : DmaSem sig := 124
abbrev cc17_sem1_0 : DmaSem sig := 125
abbrev cc17_sem2_0 : DmaSem sig := 126
abbrev cc17_sem3_0 : DmaSem sig := 127
abbrev cc17_sem3_1 : DmaSem sig := 128
abbrev cc18_sem0_0 : DmaSem sig := 129
abbrev cc18_sem0_1 : DmaSem sig := 130
abbrev cc18_sem1_0 : DmaSem sig := 131
abbrev cc18_sem1_1 : DmaSem sig := 132
abbrev cc18_sem2_0 : DmaSem sig := 133
abbrev cc18_sem2_1 : DmaSem sig := 134
abbrev cc18_sem3_0 : DmaSem sig := 135
abbrev cc18_sem3_1 : DmaSem sig := 136
abbrev cc18_sem4_0 : DmaSem sig := 137
abbrev cc18_sem4_1 : DmaSem sig := 138
abbrev cc18_sem5_0 : DmaSem sig := 139
abbrev cc18_sem5_1 : DmaSem sig := 140

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x8 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x8 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S8x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S2000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S2000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S2000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S2000x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S2000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S2000x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S2000x128 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 2 → Memref sig .tc .vmem S2000x128 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev stage8_5 : Fin 2 → Memref sig .tc .vmem S2000x128 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![25], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S128x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S128x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 2 → Memref sig .tc .vmem S2000x128 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev stage9_5 : Fin 2 → Memref sig .tc .vmem S2000x128 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev grid10 : Pipeline.Grid := ⟨1, ![50], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S2000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S128x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 2 → Memref sig .tc .vmem S2000x128 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev grid11 : Pipeline.Grid := ⟨1, ![25], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S2000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S128x128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 2 → Memref sig .tc .vmem S2000x128 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

abbrev grid12 : Pipeline.Grid := ⟨1, ![10], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S2000x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S128x128 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x128 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 2 → Memref sig .tc .vmem S2000x128 .f32 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true]

abbrev grid13 : Pipeline.Grid := ⟨1, ![25], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_3 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_4 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_5 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S2000x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S2000x128 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 2 → Memref sig .tc .vmem S2000x128 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true]

abbrev stage13_3 : Fin 2 → Memref sig .tc .vmem S2000x128 .f32 := fun | 0 => Memref.whole cc13_stg3_0 | 1 => Memref.whole cc13_stg3_1 | ⟨_ + 2, h⟩ => absurd h (Nat.not_lt.2 (Nat.le_add_left _ _))
abbrev sem13_3 : Fin 2 → DmaSem sig := fun | 0 => cc13_sem3_0 | 1 => cc13_sem3_1 | ⟨_ + 2, h⟩ => absurd h (Nat.not_lt.2 (Nat.le_add_left _ _))
abbrev reads13_3 : Fin grid13.rank → Bool := ![true]

abbrev stage13_4 : Fin 2 → Memref sig .tc .vmem S2000x128 .f32 := fun | 0 => Memref.whole cc13_stg4_0 | 1 => Memref.whole cc13_stg4_1 | ⟨_ + 2, h⟩ => absurd h (Nat.not_lt.2 (Nat.le_add_left _ _))
abbrev sem13_4 : Fin 2 → DmaSem sig := fun | 0 => cc13_sem4_0 | 1 => cc13_sem4_1 | ⟨_ + 2, h⟩ => absurd h (Nat.not_lt.2 (Nat.le_add_left _ _))
abbrev reads13_4 : Fin grid13.rank → Bool := ![true]

abbrev stage13_5 : Fin 2 → Memref sig .tc .vmem S2000x128 .f32 := fun | 0 => Memref.whole cc13_stg5_0 | 1 => Memref.whole cc13_stg5_1 | ⟨_ + 2, h⟩ => absurd h (Nat.not_lt.2 (Nat.le_add_left _ _))
abbrev sem13_5 : Fin 2 → DmaSem sig := fun | 0 => cc13_sem5_0 | 1 => cc13_sem5_1 | ⟨_ + 2, h⟩ => absurd h (Nat.not_lt.2 (Nat.le_add_left _ _))
abbrev reads13_5 : Fin grid13.rank → Bool := ![true]

abbrev grid14 : Pipeline.Grid := ⟨1, ![25], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_4 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_5 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S2000x128 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S128x128 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 1 → Memref sig .tc .vmem S1x128 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 1 → Memref sig .tc .vmem S128x128 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![false]

abbrev stage14_4 : Fin 2 → Memref sig .tc .vmem S2000x128 .f32 := fun | 0 => Memref.whole cc14_stg4_0 | 1 => Memref.whole cc14_stg4_1 | ⟨_ + 2, h⟩ => absurd h (Nat.not_lt.2 (Nat.le_add_left _ _))
abbrev sem14_4 : Fin 2 → DmaSem sig := fun | 0 => cc14_sem4_0 | 1 => cc14_sem4_1 | ⟨_ + 2, h⟩ => absurd h (Nat.not_lt.2 (Nat.le_add_left _ _))
abbrev reads14_4 : Fin grid14.rank → Bool := ![true]

abbrev stage14_5 : Fin 2 → Memref sig .tc .vmem S2000x128 .f32 := fun | 0 => Memref.whole cc14_stg5_0 | 1 => Memref.whole cc14_stg5_1 | ⟨_ + 2, h⟩ => absurd h (Nat.not_lt.2 (Nat.le_add_left _ _))
abbrev sem14_5 : Fin 2 → DmaSem sig := fun | 0 => cc14_sem5_0 | 1 => cc14_sem5_1 | ⟨_ + 2, h⟩ => absurd h (Nat.not_lt.2 (Nat.le_add_left _ _))
abbrev reads14_5 : Fin grid14.rank → Bool := ![true]

abbrev grid15 : Pipeline.Grid := ⟨1, ![50], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_3 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S2000x128 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 1 → Memref sig .tc .vmem S128x128 .f32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false]

abbrev stage15_2 : Fin 1 → Memref sig .tc .vmem S1x128 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 2 → Memref sig .tc .vmem S2000x128 .f32 := fun | 0 => Memref.whole cc15_stg3_0 | 1 => Memref.whole cc15_stg3_1 | ⟨_ + 2, h⟩ => absurd h (Nat.not_lt.2 (Nat.le_add_left _ _))
abbrev sem15_3 : Fin 2 → DmaSem sig := fun | 0 => cc15_sem3_0 | 1 => cc15_sem3_1 | ⟨_ + 2, h⟩ => absurd h (Nat.not_lt.2 (Nat.le_add_left _ _))
abbrev reads15_3 : Fin grid15.rank → Bool := ![true]

abbrev grid16 : Pipeline.Grid := ⟨1, ![25], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_2 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_3 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage16_0 : Fin 2 → Memref sig .tc .vmem S2000x128 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 1 → Memref sig .tc .vmem S128x128 .f32 := fun | 0 => Memref.whole cc16_stg1_0 | ⟨_ + 1, h⟩ => absurd h (Nat.not_lt.2 (Nat.le_add_left _ _))
abbrev sem16_1 : Fin 1 → DmaSem sig := fun | 0 => cc16_sem1_0 | ⟨_ + 1, h⟩ => absurd h (Nat.not_lt.2 (Nat.le_add_left _ _))
abbrev reads16_1 : Fin grid16.rank → Bool := ![false]

abbrev stage16_2 : Fin 1 → Memref sig .tc .vmem S1x128 .f32 := fun | 0 => Memref.whole cc16_stg2_0 | ⟨_ + 1, h⟩ => absurd h (Nat.not_lt.2 (Nat.le_add_left _ _))
abbrev sem16_2 : Fin 1 → DmaSem sig := fun | 0 => cc16_sem2_0 | ⟨_ + 1, h⟩ => absurd h (Nat.not_lt.2 (Nat.le_add_left _ _))
abbrev reads16_2 : Fin grid16.rank → Bool := ![false]

abbrev stage16_3 : Fin 2 → Memref sig .tc .vmem S2000x128 .f32 := fun | 0 => Memref.whole cc16_stg3_0 | 1 => Memref.whole cc16_stg3_1 | ⟨_ + 2, h⟩ => absurd h (Nat.not_lt.2 (Nat.le_add_left _ _))
abbrev sem16_3 : Fin 2 → DmaSem sig := fun | 0 => cc16_sem3_0 | 1 => cc16_sem3_1 | ⟨_ + 2, h⟩ => absurd h (Nat.not_lt.2 (Nat.le_add_left _ _))
abbrev reads16_3 : Fin grid16.rank → Bool := ![true]

abbrev grid17 : Pipeline.Grid := ⟨1, ![10], ![false]⟩

def cc17_transform_0 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_1 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_2 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_3 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage17_0 : Fin 2 → Memref sig .tc .vmem S2000x128 .f32 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true]

abbrev stage17_1 : Fin 1 → Memref sig .tc .vmem S128x128 .f32 := fun | 0 => Memref.whole cc17_stg1_0 | ⟨_ + 1, h⟩ => absurd h (Nat.not_lt.2 (Nat.le_add_left _ _))
abbrev sem17_1 : Fin 1 → DmaSem sig := fun | 0 => cc17_sem1_0 | ⟨_ + 1, h⟩ => absurd h (Nat.not_lt.2 (Nat.le_add_left _ _))
abbrev reads17_1 : Fin grid17.rank → Bool := ![false]

abbrev stage17_2 : Fin 1 → Memref sig .tc .vmem S1x128 .f32 := fun | 0 => Memref.whole cc17_stg2_0 | ⟨_ + 1, h⟩ => absurd h (Nat.not_lt.2 (Nat.le_add_left _ _))
abbrev sem17_2 : Fin 1 → DmaSem sig := fun | 0 => cc17_sem2_0 | ⟨_ + 1, h⟩ => absurd h (Nat.not_lt.2 (Nat.le_add_left _ _))
abbrev reads17_2 : Fin grid17.rank → Bool := ![false]

abbrev stage17_3 : Fin 2 → Memref sig .tc .vmem S2000x128 .f32 := fun | 0 => Memref.whole cc17_stg3_0 | 1 => Memref.whole cc17_stg3_1 | ⟨_ + 2, h⟩ => absurd h (Nat.not_lt.2 (Nat.le_add_left _ _))
abbrev sem17_3 : Fin 2 → DmaSem sig := fun | 0 => cc17_sem3_0 | 1 => cc17_sem3_1 | ⟨_ + 2, h⟩ => absurd h (Nat.not_lt.2 (Nat.le_add_left _ _))
abbrev reads17_3 : Fin grid17.rank → Bool := ![true]

abbrev grid18 : Pipeline.Grid := ⟨1, ![25], ![false]⟩

def cc18_transform_0 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_1 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_2 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_3 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_4 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_5 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage18_0 : Fin 2 → Memref sig .tc .vmem S2000x128 .f32 := fun | 0 => Memref.whole cc18_stg0_0 | 1 => Memref.whole cc18_stg0_1 | ⟨_ + 2, h⟩ => absurd h (Nat.not_lt.2 (Nat.le_add_left _ _))
abbrev sem18_0 : Fin 2 → DmaSem sig := fun | 0 => cc18_sem0_0 | 1 => cc18_sem0_1 | ⟨_ + 2, h⟩ => absurd h (Nat.not_lt.2 (Nat.le_add_left _ _))
abbrev reads18_0 : Fin grid18.rank → Bool := ![true]

abbrev stage18_1 : Fin 2 → Memref sig .tc .vmem S2000x128 .f32 := fun | 0 => Memref.whole cc18_stg1_0 | 1 => Memref.whole cc18_stg1_1 | ⟨_ + 2, h⟩ => absurd h (Nat.not_lt.2 (Nat.le_add_left _ _))
abbrev sem18_1 : Fin 2 → DmaSem sig := fun | 0 => cc18_sem1_0 | 1 => cc18_sem1_1 | ⟨_ + 2, h⟩ => absurd h (Nat.not_lt.2 (Nat.le_add_left _ _))
abbrev reads18_1 : Fin grid18.rank → Bool := ![true]

abbrev stage18_2 : Fin 2 → Memref sig .tc .vmem S2000x128 .f32 := fun | 0 => Memref.whole cc18_stg2_0 | 1 => Memref.whole cc18_stg2_1 | ⟨_ + 2, h⟩ => absurd h (Nat.not_lt.2 (Nat.le_add_left _ _))
abbrev sem18_2 : Fin 2 → DmaSem sig := fun | 0 => cc18_sem2_0 | 1 => cc18_sem2_1 | ⟨_ + 2, h⟩ => absurd h (Nat.not_lt.2 (Nat.le_add_left _ _))
abbrev reads18_2 : Fin grid18.rank → Bool := ![true]

abbrev stage18_3 : Fin 2 → Memref sig .tc .vmem S2000x128 .f32 := fun | 0 => Memref.whole cc18_stg3_0 | 1 => Memref.whole cc18_stg3_1 | ⟨_ + 2, h⟩ => absurd h (Nat.not_lt.2 (Nat.le_add_left _ _))
abbrev sem18_3 : Fin 2 → DmaSem sig := fun | 0 => cc18_sem3_0 | 1 => cc18_sem3_1 | ⟨_ + 2, h⟩ => absurd h (Nat.not_lt.2 (Nat.le_add_left _ _))
abbrev reads18_3 : Fin grid18.rank → Bool := ![true]

abbrev stage18_4 : Fin 2 → Memref sig .tc .vmem S2000x128 .f32 := fun | 0 => Memref.whole cc18_stg4_0 | 1 => Memref.whole cc18_stg4_1 | ⟨_ + 2, h⟩ => absurd h (Nat.not_lt.2 (Nat.le_add_left _ _))
abbrev sem18_4 : Fin 2 → DmaSem sig := fun | 0 => cc18_sem4_0 | 1 => cc18_sem4_1 | ⟨_ + 2, h⟩ => absurd h (Nat.not_lt.2 (Nat.le_add_left _ _))
abbrev reads18_4 : Fin grid18.rank → Bool := ![true]

abbrev stage18_5 : Fin 2 → Memref sig .tc .vmem S2000x128 .f32 := fun | 0 => Memref.whole cc18_stg5_0 | 1 => Memref.whole cc18_stg5_1 | ⟨_ + 2, h⟩ => absurd h (Nat.not_lt.2 (Nat.le_add_left _ _))
abbrev sem18_5 : Fin 2 → DmaSem sig := fun | 0 => cc18_sem5_0 | 1 => cc18_sem5_1 | ⟨_ + 2, h⟩ => absurd h (Nat.not_lt.2 (Nat.le_add_left _ _))
abbrev reads18_5 : Fin grid18.rank → Bool := ![true]

class Facts₀ : Prop where
  shapeCasts_S128_S1x128 : S128.ShapeCasts S1x128
  inb_S2000x32_S2000x32_0_0 : ∀ a, (![0, 0] : Fin 2 → Nat) a + S2000x32.size a ≤ S2000x32.size a
  h_S2000x32 : 0 < S2000x32.numel
  bitsLt_bf16_f32 : FTy.bits .bf16 < FTy.bits .f32
  inb_S32x128_S32x128_0_0 : ∀ a, (![0, 0] : Fin 2 → Nat) a + S32x128.size a ≤ S32x128.size a
  h_S32x128 : 0 < S32x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  inb_S2000x16_S2000x16_0_0 : ∀ a, (![0, 0] : Fin 2 → Nat) a + S2000x16.size a ≤ S2000x16.size a
  h_S2000x16 : 0 < S2000x16.numel
  inb_S16x128_S16x128_0_0 : ∀ a, (![0, 0] : Fin 2 → Nat) a + S16x128.size a ≤ S16x128.size a
  h_S16x128 : 0 < S16x128.numel
  inb_S2000x8_S2000x8_0_0 : ∀ a, (![0, 0] : Fin 2 → Nat) a + S2000x8.size a ≤ S2000x8.size a
  h_S2000x8 : 0 < S2000x8.numel
  inb_S8x128_S8x128_0_0 : ∀ a, (![0, 0] : Fin 2 → Nat) a + S8x128.size a ≤ S8x128.size a
  h_S8x128 : 0 < S8x128.numel
  bcast_S_S640000 : S_.BroadcastsInDim S640000 (![] : Fin 0 → Fin S640000.rank)
  slices_S2x640000_S1x640000_1_0 : S2x640000.Slices ![1, 0] S1x640000
  shapeCasts_S1x640000_S640000 : S1x640000.ShapeCasts S640000
  bcast_S_S50000 : S_.BroadcastsInDim S50000 (![] : Fin 0 → Fin S50000.rank)
  bcast_S640000_S640000x1_0 : S640000.BroadcastsInDim S640000x1 (![0] : Fin 1 → Fin S640000x1.rank)
  bcast_S50000_S50000x1_0 : S50000.BroadcastsInDim S50000x1 (![0] : Fin 1 → Fin S50000x1.rank)
  bcast_S_S320000 : S_.BroadcastsInDim S320000 (![] : Fin 0 → Fin S320000.rank)
  slices_S2x320000_S1x320000_1_0 : S2x320000.Slices ![1, 0] S1x320000
  shapeCasts_S1x320000_S320000 : S1x320000.ShapeCasts S320000
  bcast_S320000_S320000x1_0 : S320000.BroadcastsInDim S320000x1 (![0] : Fin 1 → Fin S320000x1.rank)
  bcast_S_S160000 : S_.BroadcastsInDim S160000 (![] : Fin 0 → Fin S160000.rank)
  slices_S2x160000_S1x160000_1_0 : S2x160000.Slices ![1, 0] S1x160000
  shapeCasts_S1x160000_S160000 : S1x160000.ShapeCasts S160000
  bcast_S160000_S160000x1_0 : S160000.BroadcastsInDim S160000x1 (![0] : Fin 1 → Fin S160000x1.rank)
  bcast_S_S128 : S_.BroadcastsInDim S128 (![] : Fin 0 → Fin S128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S2x640000_S1x640000_0_0 : S2x640000.Slices ![0, 0] S1x640000
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  slices_S2x320000_S1x320000_0_0 : S2x320000.Slices ![0, 0] S1x320000
  slices_S2x160000_S1x160000_0_0 : S2x160000.Slices ![0, 0] S1x160000
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  dot_S2000x32_S32x128_S2000x128_1_0_0_1_n_n_wf : DotDims.WF S2000x32 S32x128 S2000x128 [1] [0] [0] [1] [] []
  dot_S2000x16_S16x128_S2000x128_1_0_0_1_n_n_wf : DotDims.WF S2000x16 S16x128 S2000x128 [1] [0] [0] [1] [] []
  dot_S2000x8_S8x128_S2000x128_1_0_0_1_n_n_wf : DotDims.WF S2000x8 S8x128 S2000x128 [1] [0] [0] [1] [] []
  scatter_S50000_S640000x1_S640000_n_0_0_1_wf : ScatterDims.WF S50000 S640000x1 S640000 [] [0] [0] 1
  scatter_S50000_S320000x1_S320000_n_0_0_1_wf : ScatterDims.WF S50000 S320000x1 S320000 [] [0] [0] 1
  scatter_S50000_S160000x1_S160000_n_0_0_1_wf : ScatterDims.WF S50000 S160000x1 S160000 [] [0] [0] 1
  dot_S2000x128_S128x128_S2000x128_1_0_0_1_n_n_wf : DotDims.WF S2000x128 S128x128 S2000x128 [1] [0] [0] [1] [] []
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  gather_S100000x128_S640000x1_S640000x128_1_0_n_n_0_1_1128_wf : GatherDims.WF S100000x128 S640000x1 S640000x128 [1] [0] [] [0] [] 1 ![1, 128]
  gather_S50000x128_S320000x1_S320000x128_1_0_n_n_0_1_1128_wf : GatherDims.WF S50000x128 S320000x1 S320000x128 [1] [0] [] [0] [] 1 ![1, 128]
  scatter_S50000x128_S320000x1_S320000x128_1_0_0_1_wf : ScatterDims.WF S50000x128 S320000x1 S320000x128 [1] [0] [0] 1
  gather_S20000x128_S160000x1_S160000x128_1_0_n_n_0_1_1128_wf : GatherDims.WF S20000x128 S160000x1 S160000x128 [1] [0] [] [0] [] 1 ![1, 128]
  scatter_S50000x128_S160000x1_S160000x128_1_0_0_1_wf : ScatterDims.WF S50000x128 S160000x1 S160000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x32.size a ≤ S50000x32.size a
  hwx0_0 : ∀ i : grid0.Coords, EltTy.bits .f32 = 32 ∨ (Rect.block (s := S50000x32) S2000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S32x128.size a
  hwx0_1 : ∀ i : grid0.Coords, EltTy.bits .f32 = 32 ∨ (Rect.block (s := S32x128) S32x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x16.size a ≤ S100000x16.size a
  hwx1_0 : ∀ i : grid1.Coords, EltTy.bits .f32 = 32 ∨ (Rect.block (s := S100000x16) S2000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x128.size a ≤ S16x128.size a
  hwx1_1 : ∀ i : grid1.Coords, EltTy.bits .f32 = 32 ∨ (Rect.block (s := S16x128) S16x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S100000x128.size a
  hwx1_3 : ∀ i : grid1.Coords, EltTy.bits .f32 = 32 ∨ (Rect.block (s := S100000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x8.size a ≤ S50000x8.size a
  hwx2_0 : ∀ i : grid2.Coords, EltTy.bits .f32 = 32 ∨ (Rect.block (s := S50000x8) S2000x8.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8x128.size a ≤ S8x128.size a
  hwx2_1 : ∀ i : grid2.Coords, EltTy.bits .f32 = 32 ∨ (Rect.block (s := S8x128) S8x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S50000x128.size a
  hwx2_3 : ∀ i : grid2.Coords, EltTy.bits .f32 = 32 ∨ (Rect.block (s := S50000x128) S2000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x8.size a ≤ S20000x8.size a
  hwx3_0 : ∀ i : grid3.Coords, EltTy.bits .f32 = 32 ∨ (Rect.block (s := S20000x8) S2000x8.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S8x128.size a ≤ S8x128.size a
  hwx3_1 : ∀ i : grid3.Coords, EltTy.bits .f32 = 32 ∨ (Rect.block (s := S8x128) S8x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S20000x128.size a
  hwx3_3 : ∀ i : grid3.Coords, EltTy.bits .f32 = 32 ∨ (Rect.block (s := S20000x128) S2000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2000x128.size a ≤ S50000x128.size a
  hwx4_4 : ∀ i : grid4.Coords, EltTy.bits .f32 = 32 ∨ (Rect.block (s := S50000x128) S2000x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x128.size a ≤ S50000x128.size a
  hwx4_5 : ∀ i : grid4.Coords, EltTy.bits .f32 = 32 ∨ (Rect.block (s := S50000x128) S2000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S100000x128.size a
  hwx5_0 : ∀ i : grid5.Coords, EltTy.bits .f32 = 32 ∨ (Rect.block (s := S100000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x128.size a ≤ S100000x128.size a
  hwx5_3 : ∀ i : grid5.Coords, EltTy.bits .f32 = 32 ∨ (Rect.block (s := S100000x128) S2000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S50000x128.size a
  hwx6_0 : ∀ i : grid6.Coords, EltTy.bits .f32 = 32 ∨ (Rect.block (s := S50000x128) S2000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x128.size a ≤ S50000x128.size a
  hwx6_3 : ∀ i : grid6.Coords, EltTy.bits .f32 = 32 ∨ (Rect.block (s := S50000x128) S2000x128.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x128.size a ≤ S20000x128.size a
  hwx7_0 : ∀ i : grid7.Coords, EltTy.bits .f32 = 32 ∨ (Rect.block (s := S20000x128) S2000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x128.size a ≤ S128x128.size a
  hwx7_1 : ∀ i : grid7.Coords, EltTy.bits .f32 = 32 ∨ (Rect.block (s := S128x128) S128x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S2000x128.size a ≤ S20000x128.size a
  hwx7_3 : ∀ i : grid7.Coords, EltTy.bits .f32 = 32 ∨ (Rect.block (s := S20000x128) S2000x128.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x128.size a ≤ S50000x128.size a
  hwx8_0 : ∀ i : grid8.Coords, EltTy.bits .f32 = 32 ∨ (Rect.block (s := S50000x128) S2000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S2000x128.size a ≤ S50000x128.size a
  hwx8_1 : ∀ i : grid8.Coords, EltTy.bits .f32 = 32 ∨ (Rect.block (s := S50000x128) S2000x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S2000x128.size a ≤ S50000x128.size a
  hwx8_2 : ∀ i : grid8.Coords, EltTy.bits .f32 = 32 ∨ (Rect.block (s := S50000x128) S2000x128.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S2000x128.size a ≤ S50000x128.size a
  hwx8_3 : ∀ i : grid8.Coords, EltTy.bits .f32 = 32 ∨ (Rect.block (s := S50000x128) S2000x128.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S2000x128.size a ≤ S50000x128.size a
  hwx8_4 : ∀ i : grid8.Coords, EltTy.bits .f32 = 32 ∨ (Rect.block (s := S50000x128) S2000x128.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S2000x128.size a ≤ S50000x128.size a
  hwx8_5 : ∀ i : grid8.Coords, EltTy.bits .f32 = 32 ∨ (Rect.block (s := S50000x128) S2000x128.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x128.size a ≤ S50000x128.size a
  hwx9_0 : ∀ i : grid9.Coords, EltTy.bits .f32 = 32 ∨ (Rect.block (s := S50000x128) S2000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S128x128.size a ≤ S128x128.size a
  hwx9_1 : ∀ i : grid9.Coords, EltTy.bits .f32 = 32 ∨ (Rect.block (s := S128x128) S128x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S128x128.size a ≤ S128x128.size a
  hwx9_3 : ∀ i : grid9.Coords, EltTy.bits .f32 = 32 ∨ (Rect.block (s := S128x128) S128x128.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S2000x128.size a ≤ S50000x128.size a
  hwx9_4 : ∀ i : grid9.Coords, EltTy.bits .f32 = 32 ∨ (Rect.block (s := S50000x128) S2000x128.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S2000x128.size a ≤ S50000x128.size a
  hwx9_5 : ∀ i : grid9.Coords, EltTy.bits .f32 = 32 ∨ (Rect.block (s := S50000x128) S2000x128.size (cc9_transform_5 i) (hinb9_5 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2000x128.size a ≤ S100000x128.size a
  hwx10_0 : ∀ i : grid10.Coords, EltTy.bits .f32 = 32 ∨ (Rect.block (s := S100000x128) S2000x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S128x128.size a ≤ S128x128.size a
  hwx10_1 : ∀ i : grid10.Coords, EltTy.bits .f32 = 32 ∨ (Rect.block (s := S128x128) S128x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x128.size a ≤ S1x128.size a
  hwx10_2 : ∀ i : grid10.Coords, EltTy.bits .f32 = 32 ∨ (Rect.block (s := S1x128) S1x128.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S2000x128.size a ≤ S100000x128.size a
  hwx10_3 : ∀ i : grid10.Coords, EltTy.bits .f32 = 32 ∨ (Rect.block (s := S100000x128) S2000x128.size (cc10_transform_3 i) (hinb10_3 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S2000x128.size a ≤ S50000x128.size a
  hwx11_0 : ∀ i : grid11.Coords, EltTy.bits .f32 = 32 ∨ (Rect.block (s := S50000x128) S2000x128.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S128x128.size a ≤ S128x128.size a
  hwx11_1 : ∀ i : grid11.Coords, EltTy.bits .f32 = 32 ∨ (Rect.block (s := S128x128) S128x128.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x128.size a ≤ S1x128.size a
  hwx11_2 : ∀ i : grid11.Coords, EltTy.bits .f32 = 32 ∨ (Rect.block (s := S1x128) S1x128.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S2000x128.size a ≤ S50000x128.size a
  hwx11_3 : ∀ i : grid11.Coords, EltTy.bits .f32 = 32 ∨ (Rect.block (s := S50000x128) S2000x128.size (cc11_transform_3 i) (hinb11_3 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S2000x128.size a ≤ S20000x128.size a
  hwx12_0 : ∀ i : grid12.Coords, EltTy.bits .f32 = 32 ∨ (Rect.block (s := S20000x128) S2000x128.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S128x128.size a ≤ S128x128.size a
  hwx12_1 : ∀ i : grid12.Coords, EltTy.bits .f32 = 32 ∨ (Rect.block (s := S128x128) S128x128.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x128.size a ≤ S1x128.size a
  hwx12_2 : ∀ i : grid12.Coords, EltTy.bits .f32 = 32 ∨ (Rect.block (s := S1x128) S1x128.size (cc12_transform_2 i) (hinb12_2 i)).WholeWords (EltTy.packing .f32)
  hstage12_3 : ∀ j, (stage12_3 j).IsWhole
  nbuf12_3 : grid12.bufCount reads12_3 false = 2
  hreads12_3 : ∀ i i' : grid12.Coords, (∀ a, reads12_3 a = true → i a = i' a) → cc12_transform_3 i = cc12_transform_3 i'
  hinb12_3 : ∀ (i : grid12.Coords) a, (cc12_transform_3 i a + 1) * S2000x128.size a ≤ S20000x128.size a
  hwx12_3 : ∀ i : grid12.Coords, EltTy.bits .f32 = 32 ∨ (Rect.block (s := S20000x128) S2000x128.size (cc12_transform_3 i) (hinb12_3 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S2000x128.size a ≤ S50000x128.size a
  hwx13_0 : ∀ i : grid13.Coords, EltTy.bits .f32 = 32 ∨ (Rect.block (s := S50000x128) S2000x128.size (cc13_transform_0 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S2000x128.size a ≤ S50000x128.size a
  hwx13_1 : ∀ i : grid13.Coords, EltTy.bits .f32 = 32 ∨ (Rect.block (s := S50000x128) S2000x128.size (cc13_transform_1 i) (hinb13_1 i)).WholeWords (EltTy.packing .f32)
  hstage13_2 : ∀ j, (stage13_2 j).IsWhole
  nbuf13_2 : grid13.bufCount reads13_2 false = 2
  hreads13_2 : ∀ i i' : grid13.Coords, (∀ a, reads13_2 a = true → i a = i' a) → cc13_transform_2 i = cc13_transform_2 i'
  hinb13_2 : ∀ (i : grid13.Coords) a, (cc13_transform_2 i a + 1) * S2000x128.size a ≤ S50000x128.size a
  hwx13_2 : ∀ i : grid13.Coords, EltTy.bits .f32 = 32 ∨ (Rect.block (s := S50000x128) S2000x128.size (cc13_transform_2 i) (hinb13_2 i)).WholeWords (EltTy.packing .f32)
  hstage13_3 : ∀ j, (stage13_3 j).IsWhole
  nbuf13_3 : grid13.bufCount reads13_3 false = 2
  hreads13_3 : ∀ i i' : grid13.Coords, (∀ a, reads13_3 a = true → i a = i' a) → cc13_transform_3 i = cc13_transform_3 i'
  hinb13_3 : ∀ (i : grid13.Coords) a, (cc13_transform_3 i a + 1) * S2000x128.size a ≤ S50000x128.size a
  hwx13_3 : ∀ i : grid13.Coords, EltTy.bits .f32 = 32 ∨ (Rect.block (s := S50000x128) S2000x128.size (cc13_transform_3 i) (hinb13_3 i)).WholeWords (EltTy.packing .f32)
  hstage13_4 : ∀ j, (stage13_4 j).IsWhole
  nbuf13_4 : grid13.bufCount reads13_4 false = 2
  hreads13_4 : ∀ i i' : grid13.Coords, (∀ a, reads13_4 a = true → i a = i' a) → cc13_transform_4 i = cc13_transform_4 i'
  hinb13_4 : ∀ (i : grid13.Coords) a, (cc13_transform_4 i a + 1) * S2000x128.size a ≤ S50000x128.size a
  hwx13_4 : ∀ i : grid13.Coords, EltTy.bits .f32 = 32 ∨ (Rect.block (s := S50000x128) S2000x128.size (cc13_transform_4 i) (hinb13_4 i)).WholeWords (EltTy.packing .f32)
  hstage13_5 : ∀ j, (stage13_5 j).IsWhole
  nbuf13_5 : grid13.bufCount reads13_5 false = 2
  hreads13_5 : ∀ i i' : grid13.Coords, (∀ a, reads13_5 a = true → i a = i' a) → cc13_transform_5 i = cc13_transform_5 i'
  hinb13_5 : ∀ (i : grid13.Coords) a, (cc13_transform_5 i a + 1) * S2000x128.size a ≤ S50000x128.size a
  hwx13_5 : ∀ i : grid13.Coords, EltTy.bits .f32 = 32 ∨ (Rect.block (s := S50000x128) S2000x128.size (cc13_transform_5 i) (hinb13_5 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S2000x128.size a ≤ S50000x128.size a
  hwx14_0 : ∀ i : grid14.Coords, EltTy.bits .f32 = 32 ∨ (Rect.block (s := S50000x128) S2000x128.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S128x128.size a ≤ S128x128.size a
  hwx14_1 : ∀ i : grid14.Coords, EltTy.bits .f32 = 32 ∨ (Rect.block (s := S128x128) S128x128.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S1x128.size a ≤ S1x128.size a
  hwx14_2 : ∀ i : grid14.Coords, EltTy.bits .f32 = 32 ∨ (Rect.block (s := S1x128) S1x128.size (cc14_transform_2 i) (hinb14_2 i)).WholeWords (EltTy.packing .f32)
  hstage14_3 : ∀ j, (stage14_3 j).IsWhole
  nbuf14_3 : grid14.bufCount reads14_3 true = 1
  hreads14_3 : ∀ i i' : grid14.Coords, (∀ a, reads14_3 a = true → i a = i' a) → cc14_transform_3 i = cc14_transform_3 i'
  hinb14_3 : ∀ (i : grid14.Coords) a, (cc14_transform_3 i a + 1) * S128x128.size a ≤ S128x128.size a
  hwx14_3 : ∀ i : grid14.Coords, EltTy.bits .f32 = 32 ∨ (Rect.block (s := S128x128) S128x128.size (cc14_transform_3 i) (hinb14_3 i)).WholeWords (EltTy.packing .f32)
  hstage14_4 : ∀ j, (stage14_4 j).IsWhole
  nbuf14_4 : grid14.bufCount reads14_4 false = 2
  hreads14_4 : ∀ i i' : grid14.Coords, (∀ a, reads14_4 a = true → i a = i' a) → cc14_transform_4 i = cc14_transform_4 i'
  hinb14_4 : ∀ (i : grid14.Coords) a, (cc14_transform_4 i a + 1) * S2000x128.size a ≤ S50000x128.size a
  hwx14_4 : ∀ i : grid14.Coords, EltTy.bits .f32 = 32 ∨ (Rect.block (s := S50000x128) S2000x128.size (cc14_transform_4 i) (hinb14_4 i)).WholeWords (EltTy.packing .f32)
  hstage14_5 : ∀ j, (stage14_5 j).IsWhole
  nbuf14_5 : grid14.bufCount reads14_5 false = 2
  hreads14_5 : ∀ i i' : grid14.Coords, (∀ a, reads14_5 a = true → i a = i' a) → cc14_transform_5 i = cc14_transform_5 i'
  hinb14_5 : ∀ (i : grid14.Coords) a, (cc14_transform_5 i a + 1) * S2000x128.size a ≤ S50000x128.size a
  hwx14_5 : ∀ i : grid14.Coords, EltTy.bits .f32 = 32 ∨ (Rect.block (s := S50000x128) S2000x128.size (cc14_transform_5 i) (hinb14_5 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S2000x128.size a ≤ S100000x128.size a
  hwx15_0 : ∀ i : grid15.Coords, EltTy.bits .f32 = 32 ∨ (Rect.block (s := S100000x128) S2000x128.size (cc15_transform_0 i) (hinb15_0 i)).WholeWords (EltTy.packing .f32)
  hstage15_1 : ∀ j, (stage15_1 j).IsWhole
  nbuf15_1 : grid15.bufCount reads15_1 true = 1
  hreads15_1 : ∀ i i' : grid15.Coords, (∀ a, reads15_1 a = true → i a = i' a) → cc15_transform_1 i = cc15_transform_1 i'
  hinb15_1 : ∀ (i : grid15.Coords) a, (cc15_transform_1 i a + 1) * S128x128.size a ≤ S128x128.size a
  hwx15_1 : ∀ i : grid15.Coords, EltTy.bits .f32 = 32 ∨ (Rect.block (s := S128x128) S128x128.size (cc15_transform_1 i) (hinb15_1 i)).WholeWords (EltTy.packing .f32)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S1x128.size a ≤ S1x128.size a
  hwx15_2 : ∀ i : grid15.Coords, EltTy.bits .f32 = 32 ∨ (Rect.block (s := S1x128) S1x128.size (cc15_transform_2 i) (hinb15_2 i)).WholeWords (EltTy.packing .f32)
  hstage15_3 : ∀ j, (stage15_3 j).IsWhole
  nbuf15_3 : grid15.bufCount reads15_3 false = 2
  hreads15_3 : ∀ i i' : grid15.Coords, (∀ a, reads15_3 a = true → i a = i' a) → cc15_transform_3 i = cc15_transform_3 i'
  hinb15_3 : ∀ (i : grid15.Coords) a, (cc15_transform_3 i a + 1) * S2000x128.size a ≤ S100000x128.size a
  hwx15_3 : ∀ i : grid15.Coords, EltTy.bits .f32 = 32 ∨ (Rect.block (s := S100000x128) S2000x128.size (cc15_transform_3 i) (hinb15_3 i)).WholeWords (EltTy.packing .f32)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S2000x128.size a ≤ S50000x128.size a
  hwx16_0 : ∀ i : grid16.Coords, EltTy.bits .f32 = 32 ∨ (Rect.block (s := S50000x128) S2000x128.size (cc16_transform_0 i) (hinb16_0 i)).WholeWords (EltTy.packing .f32)
  hstage16_1 : ∀ j, (stage16_1 j).IsWhole
  nbuf16_1 : grid16.bufCount reads16_1 true = 1
  hreads16_1 : ∀ i i' : grid16.Coords, (∀ a, reads16_1 a = true → i a = i' a) → cc16_transform_1 i = cc16_transform_1 i'
  hinb16_1 : ∀ (i : grid16.Coords) a, (cc16_transform_1 i a + 1) * S128x128.size a ≤ S128x128.size a
  hwx16_1 : ∀ i : grid16.Coords, EltTy.bits .f32 = 32 ∨ (Rect.block (s := S128x128) S128x128.size (cc16_transform_1 i) (hinb16_1 i)).WholeWords (EltTy.packing .f32)
  hstage16_2 : ∀ j, (stage16_2 j).IsWhole
  nbuf16_2 : grid16.bufCount reads16_2 true = 1
  hreads16_2 : ∀ i i' : grid16.Coords, (∀ a, reads16_2 a = true → i a = i' a) → cc16_transform_2 i = cc16_transform_2 i'
  hinb16_2 : ∀ (i : grid16.Coords) a, (cc16_transform_2 i a + 1) * S1x128.size a ≤ S1x128.size a
  hwx16_2 : ∀ i : grid16.Coords, EltTy.bits .f32 = 32 ∨ (Rect.block (s := S1x128) S1x128.size (cc16_transform_2 i) (hinb16_2 i)).WholeWords (EltTy.packing .f32)
  hstage16_3 : ∀ j, (stage16_3 j).IsWhole
  nbuf16_3 : grid16.bufCount reads16_3 false = 2
  hreads16_3 : ∀ i i' : grid16.Coords, (∀ a, reads16_3 a = true → i a = i' a) → cc16_transform_3 i = cc16_transform_3 i'
  hinb16_3 : ∀ (i : grid16.Coords) a, (cc16_transform_3 i a + 1) * S2000x128.size a ≤ S50000x128.size a
  hwx16_3 : ∀ i : grid16.Coords, EltTy.bits .f32 = 32 ∨ (Rect.block (s := S50000x128) S2000x128.size (cc16_transform_3 i) (hinb16_3 i)).WholeWords (EltTy.packing .f32)
  hrank17 : 0 < grid17.rank
  hstage17_0 : ∀ j, (stage17_0 j).IsWhole
  nbuf17_0 : grid17.bufCount reads17_0 false = 2
  hreads17_0 : ∀ i i' : grid17.Coords, (∀ a, reads17_0 a = true → i a = i' a) → cc17_transform_0 i = cc17_transform_0 i'
  hinb17_0 : ∀ (i : grid17.Coords) a, (cc17_transform_0 i a + 1) * S2000x128.size a ≤ S20000x128.size a
  hwx17_0 : ∀ i : grid17.Coords, EltTy.bits .f32 = 32 ∨ (Rect.block (s := S20000x128) S2000x128.size (cc17_transform_0 i) (hinb17_0 i)).WholeWords (EltTy.packing .f32)
  hstage17_1 : ∀ j, (stage17_1 j).IsWhole
  nbuf17_1 : grid17.bufCount reads17_1 true = 1
  hreads17_1 : ∀ i i' : grid17.Coords, (∀ a, reads17_1 a = true → i a = i' a) → cc17_transform_1 i = cc17_transform_1 i'
  hinb17_1 : ∀ (i : grid17.Coords) a, (cc17_transform_1 i a + 1) * S128x128.size a ≤ S128x128.size a
  hwx17_1 : ∀ i : grid17.Coords, EltTy.bits .f32 = 32 ∨ (Rect.block (s := S128x128) S128x128.size (cc17_transform_1 i) (hinb17_1 i)).WholeWords (EltTy.packing .f32)
  hstage17_2 : ∀ j, (stage17_2 j).IsWhole
  nbuf17_2 : grid17.bufCount reads17_2 true = 1
  hreads17_2 : ∀ i i' : grid17.Coords, (∀ a, reads17_2 a = true → i a = i' a) → cc17_transform_2 i = cc17_transform_2 i'
  hinb17_2 : ∀ (i : grid17.Coords) a, (cc17_transform_2 i a + 1) * S1x128.size a ≤ S1x128.size a
  hwx17_2 : ∀ i : grid17.Coords, EltTy.bits .f32 = 32 ∨ (Rect.block (s := S1x128) S1x128.size (cc17_transform_2 i) (hinb17_2 i)).WholeWords (EltTy.packing .f32)
  hstage17_3 : ∀ j, (stage17_3 j).IsWhole
  nbuf17_3 : grid17.bufCount reads17_3 false = 2
  hreads17_3 : ∀ i i' : grid17.Coords, (∀ a, reads17_3 a = true → i a = i' a) → cc17_transform_3 i = cc17_transform_3 i'
  hinb17_3 : ∀ (i : grid17.Coords) a, (cc17_transform_3 i a + 1) * S2000x128.size a ≤ S20000x128.size a
  hwx17_3 : ∀ i : grid17.Coords, EltTy.bits .f32 = 32 ∨ (Rect.block (s := S20000x128) S2000x128.size (cc17_transform_3 i) (hinb17_3 i)).WholeWords (EltTy.packing .f32)
  hrank18 : 0 < grid18.rank
  hstage18_0 : ∀ j, (stage18_0 j).IsWhole
  nbuf18_0 : grid18.bufCount reads18_0 false = 2
  hreads18_0 : ∀ i i' : grid18.Coords, (∀ a, reads18_0 a = true → i a = i' a) → cc18_transform_0 i = cc18_transform_0 i'
  hinb18_0 : ∀ (i : grid18.Coords) a, (cc18_transform_0 i a + 1) * S2000x128.size a ≤ S50000x128.size a
  hwx18_0 : ∀ i : grid18.Coords, EltTy.bits .f32 = 32 ∨ (Rect.block (s := S50000x128) S2000x128.size (cc18_transform_0 i) (hinb18_0 i)).WholeWords (EltTy.packing .f32)
  hstage18_1 : ∀ j, (stage18_1 j).IsWhole
  nbuf18_1 : grid18.bufCount reads18_1 false = 2
  hreads18_1 : ∀ i i' : grid18.Coords, (∀ a, reads18_1 a = true → i a = i' a) → cc18_transform_1 i = cc18_transform_1 i'
  hinb18_1 : ∀ (i : grid18.Coords) a, (cc18_transform_1 i a + 1) * S2000x128.size a ≤ S50000x128.size a
  hwx18_1 : ∀ i : grid18.Coords, EltTy.bits .f32 = 32 ∨ (Rect.block (s := S50000x128) S2000x128.size (cc18_transform_1 i) (hinb18_1 i)).WholeWords (EltTy.packing .f32)
  hstage18_2 : ∀ j, (stage18_2 j).IsWhole
  nbuf18_2 : grid18.bufCount reads18_2 false = 2
  hreads18_2 : ∀ i i' : grid18.Coords, (∀ a, reads18_2 a = true → i a = i' a) → cc18_transform_2 i = cc18_transform_2 i'
  hinb18_2 : ∀ (i : grid18.Coords) a, (cc18_transform_2 i a + 1) * S2000x128.size a ≤ S50000x128.size a
  hwx18_2 : ∀ i : grid18.Coords, EltTy.bits .f32 = 32 ∨ (Rect.block (s := S50000x128) S2000x128.size (cc18_transform_2 i) (hinb18_2 i)).WholeWords (EltTy.packing .f32)
  hstage18_3 : ∀ j, (stage18_3 j).IsWhole
  nbuf18_3 : grid18.bufCount reads18_3 false = 2
  hreads18_3 : ∀ i i' : grid18.Coords, (∀ a, reads18_3 a = true → i a = i' a) → cc18_transform_3 i = cc18_transform_3 i'
  hinb18_3 : ∀ (i : grid18.Coords) a, (cc18_transform_3 i a + 1) * S2000x128.size a ≤ S50000x128.size a
  hwx18_3 : ∀ i : grid18.Coords, EltTy.bits .f32 = 32 ∨ (Rect.block (s := S50000x128) S2000x128.size (cc18_transform_3 i) (hinb18_3 i)).WholeWords (EltTy.packing .f32)
  hstage18_4 : ∀ j, (stage18_4 j).IsWhole
  nbuf18_4 : grid18.bufCount reads18_4 false = 2
  hreads18_4 : ∀ i i' : grid18.Coords, (∀ a, reads18_4 a = true → i a = i' a) → cc18_transform_4 i = cc18_transform_4 i'
  hinb18_4 : ∀ (i : grid18.Coords) a, (cc18_transform_4 i a + 1) * S2000x128.size a ≤ S50000x128.size a
  hwx18_4 : ∀ i : grid18.Coords, EltTy.bits .f32 = 32 ∨ (Rect.block (s := S50000x128) S2000x128.size (cc18_transform_4 i) (hinb18_4 i)).WholeWords (EltTy.packing .f32)
  hstage18_5 : ∀ j, (stage18_5 j).IsWhole
  nbuf18_5 : grid18.bufCount reads18_5 false = 2
  hreads18_5 : ∀ i i' : grid18.Coords, (∀ a, reads18_5 a = true → i a = i' a) → cc18_transform_5 i = cc18_transform_5 i'
  hinb18_5 : ∀ (i : grid18.Coords) a, (cc18_transform_5 i a + 1) * S2000x128.size a ≤ S50000x128.size a
  hwx18_5 : ∀ i : grid18.Coords, EltTy.bits .f32 = 32 ∨ (Rect.block (s := S50000x128) S2000x128.size (cc18_transform_5 i) (hinb18_5 i)).WholeWords (EltTy.packing .f32)

variable [Facts₀]

def dot_S2000x32_S32x128_S2000x128_1_0_0_1_n_n : DotDims S2000x32 S32x128 S2000x128 where
  lhsContracting := [1]
  rhsContracting := [0]
  lhsNonContracting := [0]
  rhsNonContracting := [1]
  lhsBatch := []
  rhsBatch := []
  wf := dot_S2000x32_S32x128_S2000x128_1_0_0_1_n_n_wf
def dot_S2000x16_S16x128_S2000x128_1_0_0_1_n_n : DotDims S2000x16 S16x128 S2000x128 where
  lhsContracting := [1]
  rhsContracting := [0]
  lhsNonContracting := [0]
  rhsNonContracting := [1]
  lhsBatch := []
  rhsBatch := []
  wf := dot_S2000x16_S16x128_S2000x128_1_0_0_1_n_n_wf
def dot_S2000x8_S8x128_S2000x128_1_0_0_1_n_n : DotDims S2000x8 S8x128 S2000x128 where
  lhsContracting := [1]
  rhsContracting := [0]
  lhsNonContracting := [0]
  rhsNonContracting := [1]
  lhsBatch := []
  rhsBatch := []
  wf := dot_S2000x8_S8x128_S2000x128_1_0_0_1_n_n_wf
def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def scatter_S50000_S320000x1_S320000_n_0_0_1 : ScatterDims S50000 S320000x1 S320000 where
  updateWindowDims := []
  insertedWindowDims := [0]
  scatterDimsToOperandDims := [0]
  indexVectorDim := 1
  wf := scatter_S50000_S320000x1_S320000_n_0_0_1_wf
def scatter_S50000_S160000x1_S160000_n_0_0_1 : ScatterDims S50000 S160000x1 S160000 where
  updateWindowDims := []
  insertedWindowDims := [0]
  scatterDimsToOperandDims := [0]
  indexVectorDim := 1
  wf := scatter_S50000_S160000x1_S160000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def gather_S50000x128_S320000x1_S320000x128_1_0_n_n_0_1_1128 : GatherDims S50000x128 S320000x1 S320000x128 where
  offsetDims := [1]
  collapsedSliceDims := [0]
  operandBatchingDims := []
  startIndicesBatchingDims := []
  startIndexMap := [0]
  indexVectorDim := 1
  sliceSizes := ![1, 128]
  wf := gather_S50000x128_S320000x1_S320000x128_1_0_n_n_0_1_1128_wf
def scatter_S50000x128_S320000x1_S320000x128_1_0_0_1 : ScatterDims S50000x128 S320000x1 S320000x128 where
  updateWindowDims := [1]
  insertedWindowDims := [0]
  scatterDimsToOperandDims := [0]
  indexVectorDim := 1
  wf := scatter_S50000x128_S320000x1_S320000x128_1_0_0_1_wf
def gather_S20000x128_S160000x1_S160000x128_1_0_n_n_0_1_1128 : GatherDims S20000x128 S160000x1 S160000x128 where
  offsetDims := [1]
  collapsedSliceDims := [0]
  operandBatchingDims := []
  startIndicesBatchingDims := []
  startIndexMap := [0]
  indexVectorDim := 1
  sliceSizes := ![1, 128]
  wf := gather_S20000x128_S160000x1_S160000x128_1_0_n_n_0_1_1128_wf
def scatter_S50000x128_S160000x1_S160000x128_1_0_0_1 : ScatterDims S50000x128 S160000x1 S160000x128 where
  updateWindowDims := [1]
  insertedWindowDims := [0]
  scatterDimsToOperandDims := [0]
  indexVectorDim := 1
  wf := scatter_S50000x128_S160000x1_S160000x128_1_0_0_1_wf

abbrev win0_0 : Pipeline.Window sig grid0 :=
  Pipeline.Window.ofSpec (Memref.whole main_arg0) S2000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg8) S32x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S2000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg10) S16x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg2) S2000x8.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg12) S8x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v5) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_arg3) S2000x8.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg14) S8x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v6) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v7) S2000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v1) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v54) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v59) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v58) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v60_0) S2000x128.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v60_1) S2000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v3) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v62) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v63) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v64) S2000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v5) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v66) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v67) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v68) S2000x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v7) S2000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v70) S128x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v71) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v72) S2000x128.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v60_0) S2000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v88) S2000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v104) S2000x128.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v120) S2000x128.size cc8_transform_3 reads8_3 false false 2 stage8_3 sem8_3
    hrank8 hreads8_3 hinb8_3 nbuf8_3 (Memref.isWhole_whole _) hwx8_3 hstage8_3

abbrev win8_4 : Pipeline.Window sig grid8 :=
  Pipeline.Window.ofSpec (Memref.whole main_v136) S2000x128.size cc8_transform_4 reads8_4 false false 2 stage8_4 sem8_4
    hrank8 hreads8_4 hinb8_4 nbuf8_4 (Memref.isWhole_whole _) hwx8_4 hstage8_4

abbrev win8_5 : Pipeline.Window sig grid8 :=
  Pipeline.Window.ofSpec (Memref.whole main_v137) S2000x128.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v137) S2000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v139) S128x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v144) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v143) S128x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v145_0) S2000x128.size cc9_transform_4 reads9_4 true false 2 stage9_4 sem9_4
    hrank9 hreads9_4 hinb9_4 nbuf9_4 (Memref.isWhole_whole _) hwx9_4 hstage9_4

abbrev win9_5 : Pipeline.Window sig grid9 :=
  Pipeline.Window.ofSpec (Memref.whole main_v145_1) S2000x128.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

abbrev win10_0 : Pipeline.Window sig grid10 :=
  Pipeline.Window.ofSpec (Memref.whole main_v3) S2000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v147) S128x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v148) S1x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v149) S2000x128.size cc10_transform_3 reads10_3 true false 2 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

abbrev win11_0 : Pipeline.Window sig grid11 :=
  Pipeline.Window.ofSpec (Memref.whole main_v5) S2000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v151) S128x128.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v152) S1x128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v153) S2000x128.size cc11_transform_3 reads11_3 true false 2 stage11_3 sem11_3
    hrank11 hreads11_3 hinb11_3 nbuf11_3 (Memref.isWhole_whole _) hwx11_3 hstage11_3

abbrev win11 : Fin 4 → Pipeline.Window sig grid11 := fun | 0 => win11_0 | 1 => win11_1 | 2 => win11_2 | 3 => win11_3 | ⟨_ + 4, h⟩ => absurd h (Nat.not_lt.2 (Nat.le_add_left _ _))
abbrev spec11 : Fin 4 → Pipeline.WinSpec sig grid11.rank := fun w => (win11 w).toWinSpec

abbrev win12_0 : Pipeline.Window sig grid12 :=
  Pipeline.Window.ofSpec (Memref.whole main_v7) S2000x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v155) S128x128.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v156) S1x128.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v157) S2000x128.size cc12_transform_3 reads12_3 true false 2 stage12_3 sem12_3
    hrank12 hreads12_3 hinb12_3 nbuf12_3 (Memref.isWhole_whole _) hwx12_3 hstage12_3

abbrev win12 : Fin 4 → Pipeline.Window sig grid12 := fun | 0 => win12_0 | 1 => win12_1 | 2 => win12_2 | 3 => win12_3 | ⟨_ + 4, h⟩ => absurd h (Nat.not_lt.2 (Nat.le_add_left _ _))
abbrev spec12 : Fin 4 → Pipeline.WinSpec sig grid12.rank := fun w => (win12 w).toWinSpec

abbrev win13_0 : Pipeline.Window sig grid13 :=
  Pipeline.Window.ofSpec (Memref.whole main_v145_0) S2000x128.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v173) S2000x128.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_v189) S2000x128.size cc13_transform_2 reads13_2 false false 2 stage13_2 sem13_2
    hrank13 hreads13_2 hinb13_2 nbuf13_2 (Memref.isWhole_whole _) hwx13_2 hstage13_2

abbrev win13_3 : Pipeline.Window sig grid13 :=
  Pipeline.Window.ofSpec (Memref.whole main_v205) S2000x128.size cc13_transform_3 reads13_3 false false 2 stage13_3 sem13_3
    hrank13 hreads13_3 hinb13_3 nbuf13_3 (Memref.isWhole_whole _) hwx13_3 hstage13_3

abbrev win13_4 : Pipeline.Window sig grid13 :=
  Pipeline.Window.ofSpec (Memref.whole main_v221) S2000x128.size cc13_transform_4 reads13_4 false false 2 stage13_4 sem13_4
    hrank13 hreads13_4 hinb13_4 nbuf13_4 (Memref.isWhole_whole _) hwx13_4 hstage13_4

abbrev win13_5 : Pipeline.Window sig grid13 :=
  Pipeline.Window.ofSpec (Memref.whole main_v222) S2000x128.size cc13_transform_5 reads13_5 true false 2 stage13_5 sem13_5
    hrank13 hreads13_5 hinb13_5 nbuf13_5 (Memref.isWhole_whole _) hwx13_5 hstage13_5

abbrev win13 : Fin 6 → Pipeline.Window sig grid13 := fun | 0 => win13_0 | 1 => win13_1 | 2 => win13_2 | 3 => win13_3 | 4 => win13_4 | 5 => win13_5 | ⟨_ + 6, h⟩ => absurd h (Nat.not_lt.2 (Nat.le_add_left _ _))
abbrev spec13 : Fin 6 → Pipeline.WinSpec sig grid13.rank := fun w => (win13 w).toWinSpec

abbrev win14_0 : Pipeline.Window sig grid14 :=
  Pipeline.Window.ofSpec (Memref.whole main_v222) S2000x128.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v224) S128x128.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v229) S1x128.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v228) S128x128.size cc14_transform_3 reads14_3 false true 1 stage14_3 sem14_3
    hrank14 hreads14_3 hinb14_3 nbuf14_3 (Memref.isWhole_whole _) hwx14_3 hstage14_3

abbrev win14_4 : Pipeline.Window sig grid14 :=
  Pipeline.Window.ofSpec (Memref.whole main_v230_0) S2000x128.size cc14_transform_4 reads14_4 true false 2 stage14_4 sem14_4
    hrank14 hreads14_4 hinb14_4 nbuf14_4 (Memref.isWhole_whole _) hwx14_4 hstage14_4

abbrev win14_5 : Pipeline.Window sig grid14 :=
  Pipeline.Window.ofSpec (Memref.whole main_v230_1) S2000x128.size cc14_transform_5 reads14_5 true false 2 stage14_5 sem14_5
    hrank14 hreads14_5 hinb14_5 nbuf14_5 (Memref.isWhole_whole _) hwx14_5 hstage14_5

abbrev win14 : Fin 6 → Pipeline.Window sig grid14 := fun | 0 => win14_0 | 1 => win14_1 | 2 => win14_2 | 3 => win14_3 | 4 => win14_4 | 5 => win14_5 | ⟨_ + 6, h⟩ => absurd h (Nat.not_lt.2 (Nat.le_add_left _ _))
abbrev spec14 : Fin 6 → Pipeline.WinSpec sig grid14.rank := fun w => (win14 w).toWinSpec

abbrev win15_0 : Pipeline.Window sig grid15 :=
  Pipeline.Window.ofSpec (Memref.whole main_v3) S2000x128.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v232) S128x128.size cc15_transform_1 reads15_1 false true 1 stage15_1 sem15_1
    hrank15 hreads15_1 hinb15_1 nbuf15_1 (Memref.isWhole_whole _) hwx15_1 hstage15_1

abbrev win15_2 : Pipeline.Window sig grid15 :=
  Pipeline.Window.ofSpec (Memref.whole main_v233) S1x128.size cc15_transform_2 reads15_2 false true 1 stage15_2 sem15_2
    hrank15 hreads15_2 hinb15_2 nbuf15_2 (Memref.isWhole_whole _) hwx15_2 hstage15_2

abbrev win15_3 : Pipeline.Window sig grid15 :=
  Pipeline.Window.ofSpec (Memref.whole main_v234) S2000x128.size cc15_transform_3 reads15_3 true false 2 stage15_3 sem15_3
    hrank15 hreads15_3 hinb15_3 nbuf15_3 (Memref.isWhole_whole _) hwx15_3 hstage15_3

abbrev win15 : Fin 4 → Pipeline.Window sig grid15 := fun | 0 => win15_0 | 1 => win15_1 | 2 => win15_2 | 3 => win15_3 | ⟨_ + 4, h⟩ => absurd h (Nat.not_lt.2 (Nat.le_add_left _ _))
abbrev spec15 : Fin 4 → Pipeline.WinSpec sig grid15.rank := fun w => (win15 w).toWinSpec

abbrev win16_0 : Pipeline.Window sig grid16 :=
  Pipeline.Window.ofSpec (Memref.whole main_v5) S2000x128.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_v236) S128x128.size cc16_transform_1 reads16_1 false true 1 stage16_1 sem16_1
    hrank16 hreads16_1 hinb16_1 nbuf16_1 (Memref.isWhole_whole _) hwx16_1 hstage16_1

abbrev win16_2 : Pipeline.Window sig grid16 :=
  Pipeline.Window.ofSpec (Memref.whole main_v237) S1x128.size cc16_transform_2 reads16_2 false true 1 stage16_2 sem16_2
    hrank16 hreads16_2 hinb16_2 nbuf16_2 (Memref.isWhole_whole _) hwx16_2 hstage16_2

abbrev win16_3 : Pipeline.Window sig grid16 :=
  Pipeline.Window.ofSpec (Memref.whole main_v238) S2000x128.size cc16_transform_3 reads16_3 true false 2 stage16_3 sem16_3
    hrank16 hreads16_3 hinb16_3 nbuf16_3 (Memref.isWhole_whole _) hwx16_3 hstage16_3

abbrev win16 : Fin 4 → Pipeline.Window sig grid16 := fun | 0 => win16_0 | 1 => win16_1 | 2 => win16_2 | 3 => win16_3 | ⟨_ + 4, h⟩ => absurd h (Nat.not_lt.2 (Nat.le_add_left _ _))
abbrev spec16 : Fin 4 → Pipeline.WinSpec sig grid16.rank := fun w => (win16 w).toWinSpec

abbrev win17_0 : Pipeline.Window sig grid17 :=
  Pipeline.Window.ofSpec (Memref.whole main_v7) S2000x128.size cc17_transform_0 reads17_0 false false 2 stage17_0 sem17_0
    hrank17 hreads17_0 hinb17_0 nbuf17_0 (Memref.isWhole_whole _) hwx17_0 hstage17_0

abbrev win17_1 : Pipeline.Window sig grid17 :=
  Pipeline.Window.ofSpec (Memref.whole main_v240) S128x128.size cc17_transform_1 reads17_1 false true 1 stage17_1 sem17_1
    hrank17 hreads17_1 hinb17_1 nbuf17_1 (Memref.isWhole_whole _) hwx17_1 hstage17_1

abbrev win17_2 : Pipeline.Window sig grid17 :=
  Pipeline.Window.ofSpec (Memref.whole main_v241) S1x128.size cc17_transform_2 reads17_2 false true 1 stage17_2 sem17_2
    hrank17 hreads17_2 hinb17_2 nbuf17_2 (Memref.isWhole_whole _) hwx17_2 hstage17_2

abbrev win17_3 : Pipeline.Window sig grid17 :=
  Pipeline.Window.ofSpec (Memref.whole main_v242) S2000x128.size cc17_transform_3 reads17_3 true false 2 stage17_3 sem17_3
    hrank17 hreads17_3 hinb17_3 nbuf17_3 (Memref.isWhole_whole _) hwx17_3 hstage17_3

abbrev win17 : Fin 4 → Pipeline.Window sig grid17 := fun | 0 => win17_0 | 1 => win17_1 | 2 => win17_2 | 3 => win17_3 | ⟨_ + 4, h⟩ => absurd h (Nat.not_lt.2 (Nat.le_add_left _ _))
abbrev spec17 : Fin 4 → Pipeline.WinSpec sig grid17.rank := fun w => (win17 w).toWinSpec

abbrev win18_0 : Pipeline.Window sig grid18 :=
  Pipeline.Window.ofSpec (Memref.whole main_v230_0) S2000x128.size cc18_transform_0 reads18_0 false false 2 stage18_0 sem18_0
    hrank18 hreads18_0 hinb18_0 nbuf18_0 (Memref.isWhole_whole _) hwx18_0 hstage18_0

abbrev win18_1 : Pipeline.Window sig grid18 :=
  Pipeline.Window.ofSpec (Memref.whole main_v258) S2000x128.size cc18_transform_1 reads18_1 false false 2 stage18_1 sem18_1
    hrank18 hreads18_1 hinb18_1 nbuf18_1 (Memref.isWhole_whole _) hwx18_1 hstage18_1

abbrev win18_2 : Pipeline.Window sig grid18 :=
  Pipeline.Window.ofSpec (Memref.whole main_v274) S2000x128.size cc18_transform_2 reads18_2 false false 2 stage18_2 sem18_2
    hrank18 hreads18_2 hinb18_2 nbuf18_2 (Memref.isWhole_whole _) hwx18_2 hstage18_2

abbrev win18_3 : Pipeline.Window sig grid18 :=
  Pipeline.Window.ofSpec (Memref.whole main_v290) S2000x128.size cc18_transform_3 reads18_3 false false 2 stage18_3 sem18_3
    hrank18 hreads18_3 hinb18_3 nbuf18_3 (Memref.isWhole_whole _) hwx18_3 hstage18_3

abbrev win18_4 : Pipeline.Window sig grid18 :=
  Pipeline.Window.ofSpec (Memref.whole main_v306) S2000x128.size cc18_transform_4 reads18_4 false false 2 stage18_4 sem18_4
    hrank18 hreads18_4 hinb18_4 nbuf18_4 (Memref.isWhole_whole _) hwx18_4 hstage18_4

abbrev win18_5 : Pipeline.Window sig grid18 :=
  Pipeline.Window.ofSpec (Memref.whole main_v307) S2000x128.size cc18_transform_5 reads18_5 true false 2 stage18_5 sem18_5
    hrank18 hreads18_5 hinb18_5 nbuf18_5 (Memref.isWhole_whole _) hwx18_5 hstage18_5

abbrev win18 : Fin 6 → Pipeline.Window sig grid18 := fun | 0 => win18_0 | 1 => win18_1 | 2 => win18_2 | 3 => win18_3 | 4 => win18_4 | 5 => win18_5 | ⟨_ + 6, h⟩ => absurd h (Nat.not_lt.2 (Nat.le_add_left _ _))
abbrev spec18 : Fin 6 → Pipeline.WinSpec sig grid18.rank := fun w => (win18 w).toWinSpec

class Facts : Prop extends Facts₀ where

variable [Facts]
-- ==== ReferenceIdeal.lean ====
abbrev S50000x32 : Shape := ⟨2, ![50000, 32]⟩
abbrev S100000x16 : Shape := ⟨2, ![100000, 16]⟩
abbrev S50000x8 : Shape := ⟨2, ![50000, 8]⟩
abbrev S20000x8 : Shape := ⟨2, ![20000, 8]⟩
abbrev S2x640000 : Shape := ⟨2, ![2, 640000]⟩
abbrev S2x320000 : Shape := ⟨2, ![2, 320000]⟩
abbrev S2x160000 : Shape := ⟨2, ![2, 160000]⟩
abbrev S32x128 : Shape := ⟨2, ![32, 128]⟩
abbrev S128 : Shape := ⟨1, ![128]⟩
abbrev S16x128 : Shape := ⟨2, ![16, 128]⟩
abbrev S8x128 : Shape := ⟨2, ![8, 128]⟩
abbrev S3x128x128 : Shape := ⟨3, ![3, 128, 128]⟩
abbrev S3x128 : Shape := ⟨2, ![3, 128]⟩
abbrev S50000x128 : Shape := ⟨2, ![50000, 128]⟩
abbrev S1x128 : Shape := ⟨2, ![1, 128]⟩
abbrev S100000x128 : Shape := ⟨2, ![100000, 128]⟩
abbrev S20000x128 : Shape := ⟨2, ![20000, 128]⟩
abbrev S1x128x128 : Shape := ⟨3, ![1, 128, 128]⟩
abbrev S128x128 : Shape := ⟨2, ![128, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S50000x1 : Shape := ⟨2, ![50000, 1]⟩
abbrev S1x320000 : Shape := ⟨2, ![1, 320000]⟩
abbrev S320000 : Shape := ⟨1, ![320000]⟩
abbrev S320000x1 : Shape := ⟨2, ![320000, 1]⟩
abbrev S320000x128 : Shape := ⟨2, ![320000, 128]⟩
abbrev S1x160000 : Shape := ⟨2, ![1, 160000]⟩
abbrev S160000 : Shape := ⟨1, ![160000]⟩
abbrev S160000x1 : Shape := ⟨2, ![160000, 1]⟩
abbrev S160000x128 : Shape := ⟨2, ![160000, 128]⟩

abbrev nBuf : Space → Nat
  | .hbm => 506
  | .vmem => 0
  | .smem => 0
  | _ => 0

abbrev hbmTy0_0 (i : Nat) : BufTy := match i % 128 with
  | 0 => ⟨S50000x32, .f32⟩
  | 1 => ⟨S100000x16, .f32⟩
  | 2 => ⟨S50000x8, .f32⟩
  | 3 => ⟨S20000x8, .f32⟩
  | 4 => ⟨S2x640000, .i32⟩
  | 5 => ⟨S2x640000, .i32⟩
  | 6 => ⟨S2x320000, .i32⟩
  | 7 => ⟨S2x160000, .i32⟩
  | 8 => ⟨S32x128, .f32⟩
  | 9 => ⟨S128, .f32⟩
  | 10 => ⟨S16x128, .f32⟩
  | 11 => ⟨S128, .f32⟩
  | 12 => ⟨S8x128, .f32⟩
  | 13 => ⟨S128, .f32⟩
  | 14 => ⟨S8x128, .f32⟩
  | 15 => ⟨S128, .f32⟩
  | 16 => ⟨S3x128x128, .f32⟩
  | 17 => ⟨S3x128, .f32⟩
  | 18 => ⟨S3x128x128, .f32⟩
  | 19 => ⟨S50000x128, .f32⟩
  | 20 => ⟨S1x128, .f32⟩
  | 21 => ⟨S50000x128, .f32⟩
  | 22 => ⟨S50000x128, .f32⟩
  | 23 => ⟨S100000x128, .f32⟩
  | 24 => ⟨S1x128, .f32⟩
  | 25 => ⟨S100000x128, .f32⟩
  | 26 => ⟨S100000x128, .f32⟩
  | 27 => ⟨S50000x128, .f32⟩
  | 28 => ⟨S1x128, .f32⟩
  | 29 => ⟨S50000x128, .f32⟩
  | 30 => ⟨S50000x128, .f32⟩
  | 31 => ⟨S20000x128, .f32⟩
  | 32 => ⟨S1x128, .f32⟩
  | 33 => ⟨S20000x128, .f32⟩
  | 34 => ⟨S20000x128, .f32⟩
  | 35 => ⟨S1x128x128, .f32⟩
  | 36 => ⟨S128x128, .f32⟩
  | 37 => ⟨S1x640000, .i32⟩
  | 38 => ⟨S640000, .i32⟩
  | 39 => ⟨S_, .i32⟩
  | 40 => ⟨S640000, .i32⟩
  | 41 => ⟨S640000, .i1⟩
  | 42 => ⟨S_, .i32⟩
  | 43 => ⟨S640000, .i32⟩
  | 44 => ⟨S640000, .i32⟩
  | 45 => ⟨S640000, .i32⟩
  | 46 => ⟨S640000x1, .i32⟩
  | 47 => ⟨S640000x128, .f32⟩
  | 48 => ⟨S640000x128, .f32⟩
  | 49 => ⟨S1x640000, .i32⟩
  | 50 => ⟨S640000, .i32⟩
  | 51 => ⟨S_, .f32⟩
  | 52 => ⟨S50000x128, .f32⟩
  | 53 => ⟨S640000x1, .i32⟩
  | 54 => ⟨S50000x128, .f32⟩
  | 55 => ⟨S_, .f32⟩
  | 56 => ⟨S640000x1, .f32⟩
  | 57 => ⟨S1x640000, .i32⟩
  | 58 => ⟨S640000, .i32⟩
  | 59 => ⟨S_, .f32⟩
  | 60 => ⟨S50000x1, .f32⟩
  | 61 => ⟨S640000x1, .i32⟩
  | 62 => ⟨S50000x1, .f32⟩
  | 63 => ⟨S_, .f32⟩
  | 64 => ⟨S_, .f32⟩
  | 65 => ⟨S50000x1, .f32⟩
  | 66 => ⟨S50000x1, .f32⟩
  | 67 => ⟨S50000x128, .f32⟩
  | 68 => ⟨S50000x128, .f32⟩
  | 69 => ⟨S1x640000, .i32⟩
  | 70 => ⟨S640000, .i32⟩
  | 71 => ⟨S_, .i32⟩
  | 72 => ⟨S640000, .i32⟩
  | 73 => ⟨S640000, .i1⟩
  | 74 => ⟨S_, .i32⟩
  | 75 => ⟨S640000, .i32⟩
  | 76 => ⟨S640000, .i32⟩
  | 77 => ⟨S640000, .i32⟩
  | 78 => ⟨S640000x1, .i32⟩
  | 79 => ⟨S640000x128, .f32⟩
  | 80 => ⟨S640000x128, .f32⟩
  | 81 => ⟨S1x640000, .i32⟩
  | 82 => ⟨S640000, .i32⟩
  | 83 => ⟨S_, .f32⟩
  | 84 => ⟨S50000x128, .f32⟩
  | 85 => ⟨S640000x1, .i32⟩
  | 86 => ⟨S50000x128, .f32⟩
  | 87 => ⟨S_, .f32⟩
  | 88 => ⟨S640000x1, .f32⟩
  | 89 => ⟨S1x640000, .i32⟩
  | 90 => ⟨S640000, .i32⟩
  | 91 => ⟨S_, .f32⟩
  | 92 => ⟨S50000x1, .f32⟩
  | 93 => ⟨S640000x1, .i32⟩
  | 94 => ⟨S50000x1, .f32⟩
  | 95 => ⟨S_, .f32⟩
  | 96 => ⟨S_, .f32⟩
  | 97 => ⟨S50000x1, .f32⟩
  | 98 => ⟨S50000x1, .f32⟩
  | 99 => ⟨S50000x128, .f32⟩
  | 100 => ⟨S50000x128, .f32⟩
  | 101 => ⟨S1x320000, .i32⟩
  | 102 => ⟨S320000, .i32⟩
  | 103 => ⟨S_, .i32⟩
  | 104 => ⟨S320000, .i32⟩
  | 105 => ⟨S320000, .i1⟩
  | 106 => ⟨S_, .i32⟩
  | 107 => ⟨S320000, .i32⟩
  | 108 => ⟨S320000, .i32⟩
  | 109 => ⟨S320000, .i32⟩
  | 110 => ⟨S320000x1, .i32⟩
  | 111 => ⟨S320000x128, .f32⟩
  | 112 => ⟨S320000x128, .f32⟩
  | 113 => ⟨S1x320000, .i32⟩
  | 114 => ⟨S320000, .i32⟩
  | 115 => ⟨S_, .f32⟩
  | 116 => ⟨S50000x128, .f32⟩
  | 117 => ⟨S320000x1, .i32⟩
  | 118 => ⟨S50000x128, .f32⟩
  | 119 => ⟨S_, .f32⟩
  | 120 => ⟨S320000x1, .f32⟩
  | 121 => ⟨S1x320000, .i32⟩
  | 122 => ⟨S320000, .i32⟩
  | 123 => ⟨S_, .f32⟩
  | 124 => ⟨S50000x1, .f32⟩
  | 125 => ⟨S320000x1, .i32⟩
  | 126 => ⟨S50000x1, .f32⟩
  | 127 => ⟨S_, .f32⟩
  | _ => ⟨S50000x32, .f32⟩

abbrev hbmTy0_1 (i : Nat) : BufTy := match i % 128 with
  | 0 => ⟨S_, .f32⟩
  | 1 => ⟨S50000x1, .f32⟩
  | 2 => ⟨S50000x1, .f32⟩
  | 3 => ⟨S50000x128, .f32⟩
  | 4 => ⟨S50000x128, .f32⟩
  | 5 => ⟨S1x160000, .i32⟩
  | 6 => ⟨S160000, .i32⟩
  | 7 => ⟨S_, .i32⟩
  | 8 => ⟨S160000, .i32⟩
  | 9 => ⟨S160000, .i1⟩
  | 10 => ⟨S_, .i32⟩
  | 11 => ⟨S160000, .i32⟩
  | 12 => ⟨S160000, .i32⟩
  | 13 => ⟨S160000, .i32⟩
  | 14 => ⟨S160000x1, .i32⟩
  | 15 => ⟨S160000x128, .f32⟩
  | 16 => ⟨S160000x128, .f32⟩
  | 17 => ⟨S1x160000, .i32⟩
  | 18 => ⟨S160000, .i32⟩
  | 19 => ⟨S_, .f32⟩
  | 20 => ⟨S50000x128, .f32⟩
  | 21 => ⟨S160000x1, .i32⟩
  | 22 => ⟨S50000x128, .f32⟩
  | 23 => ⟨S_, .f32⟩
  | 24 => ⟨S160000x1, .f32⟩
  | 25 => ⟨S1x160000, .i32⟩
  | 26 => ⟨S160000, .i32⟩
  | 27 => ⟨S_, .f32⟩
  | 28 => ⟨S50000x1, .f32⟩
  | 29 => ⟨S160000x1, .i32⟩
  | 30 => ⟨S50000x1, .f32⟩
  | 31 => ⟨S_, .f32⟩
  | 32 => ⟨S_, .f32⟩
  | 33 => ⟨S50000x1, .f32⟩
  | 34 => ⟨S50000x1, .f32⟩
  | 35 => ⟨S50000x128, .f32⟩
  | 36 => ⟨S50000x128, .f32⟩
  | 37 => ⟨S1x128x128, .f32⟩
  | 38 => ⟨S128x128, .f32⟩
  | 39 => ⟨S50000x128, .f32⟩
  | 40 => ⟨S1x128, .f32⟩
  | 41 => ⟨S128, .f32⟩
  | 42 => ⟨S1x128, .f32⟩
  | 43 => ⟨S50000x128, .f32⟩
  | 44 => ⟨S50000x128, .f32⟩
  | 45 => ⟨S50000x128, .f32⟩
  | 46 => ⟨S50000x128, .f32⟩
  | 47 => ⟨S50000x128, .f32⟩
  | 48 => ⟨S50000x128, .f32⟩
  | 49 => ⟨S_, .f32⟩
  | 50 => ⟨S50000x128, .f32⟩
  | 51 => ⟨S50000x128, .i1⟩
  | 52 => ⟨S_, .f32⟩
  | 53 => ⟨S50000x128, .f32⟩
  | 54 => ⟨S50000x128, .i1⟩
  | 55 => ⟨S_, .f32⟩
  | 56 => ⟨S_, .f32⟩
  | 57 => ⟨S50000x128, .f32⟩
  | 58 => ⟨S50000x128, .f32⟩
  | 59 => ⟨S50000x128, .f32⟩
  | 60 => ⟨S_, .f32⟩
  | 61 => ⟨S50000x128, .f32⟩
  | 62 => ⟨S50000x128, .f32⟩
  | 63 => ⟨S50000x128, .f32⟩
  | 64 => ⟨S1x128x128, .f32⟩
  | 65 => ⟨S128x128, .f32⟩
  | 66 => ⟨S1x640000, .i32⟩
  | 67 => ⟨S640000, .i32⟩
  | 68 => ⟨S_, .i32⟩
  | 69 => ⟨S640000, .i32⟩
  | 70 => ⟨S640000, .i1⟩
  | 71 => ⟨S_, .i32⟩
  | 72 => ⟨S640000, .i32⟩
  | 73 => ⟨S640000, .i32⟩
  | 74 => ⟨S640000, .i32⟩
  | 75 => ⟨S640000x1, .i32⟩
  | 76 => ⟨S640000x128, .f32⟩
  | 77 => ⟨S640000x128, .f32⟩
  | 78 => ⟨S1x640000, .i32⟩
  | 79 => ⟨S640000, .i32⟩
  | 80 => ⟨S_, .f32⟩
  | 81 => ⟨S50000x128, .f32⟩
  | 82 => ⟨S640000x1, .i32⟩
  | 83 => ⟨S50000x128, .f32⟩
  | 84 => ⟨S_, .f32⟩
  | 85 => ⟨S640000x1, .f32⟩
  | 86 => ⟨S1x640000, .i32⟩
  | 87 => ⟨S640000, .i32⟩
  | 88 => ⟨S_, .f32⟩
  | 89 => ⟨S50000x1, .f32⟩
  | 90 => ⟨S640000x1, .i32⟩
  | 91 => ⟨S50000x1, .f32⟩
  | 92 => ⟨S_, .f32⟩
  | 93 => ⟨S_, .f32⟩
  | 94 => ⟨S50000x1, .f32⟩
  | 95 => ⟨S50000x1, .f32⟩
  | 96 => ⟨S50000x128, .f32⟩
  | 97 => ⟨S50000x128, .f32⟩
  | 98 => ⟨S1x640000, .i32⟩
  | 99 => ⟨S640000, .i32⟩
  | 100 => ⟨S_, .i32⟩
  | 101 => ⟨S640000, .i32⟩
  | 102 => ⟨S640000, .i1⟩
  | 103 => ⟨S_, .i32⟩
  | 104 => ⟨S640000, .i32⟩
  | 105 => ⟨S640000, .i32⟩
  | 106 => ⟨S640000, .i32⟩
  | 107 => ⟨S640000x1, .i32⟩
  | 108 => ⟨S640000x128, .f32⟩
  | 109 => ⟨S640000x128, .f32⟩
  | 110 => ⟨S1x640000, .i32⟩
  | 111 => ⟨S640000, .i32⟩
  | 112 => ⟨S_, .f32⟩
  | 113 => ⟨S50000x128, .f32⟩
  | 114 => ⟨S640000x1, .i32⟩
  | 115 => ⟨S50000x128, .f32⟩
  | 116 => ⟨S_, .f32⟩
  | 117 => ⟨S640000x1, .f32⟩
  | 118 => ⟨S1x640000, .i32⟩
  | 119 => ⟨S640000, .i32⟩
  | 120 => ⟨S_, .f32⟩
  | 121 => ⟨S50000x1, .f32⟩
  | 122 => ⟨S640000x1, .i32⟩
  | 123 => ⟨S50000x1, .f32⟩
  | 124 => ⟨S_, .f32⟩
  | 125 => ⟨S_, .f32⟩
  | 126 => ⟨S50000x1, .f32⟩
  | 127 => ⟨S50000x1, .f32⟩
  | _ => ⟨S50000x32, .f32⟩

abbrev hbmTy0_2 (i : Nat) : BufTy := match i % 128 with
  | 0 => ⟨S50000x128, .f32⟩
  | 1 => ⟨S50000x128, .f32⟩
  | 2 => ⟨S1x320000, .i32⟩
  | 3 => ⟨S320000, .i32⟩
  | 4 => ⟨S_, .i32⟩
  | 5 => ⟨S320000, .i32⟩
  | 6 => ⟨S320000, .i1⟩
  | 7 => ⟨S_, .i32⟩
  | 8 => ⟨S320000, .i32⟩
  | 9 => ⟨S320000, .i32⟩
  | 10 => ⟨S320000, .i32⟩
  | 11 => ⟨S320000x1, .i32⟩
  | 12 => ⟨S320000x128, .f32⟩
  | 13 => ⟨S320000x128, .f32⟩
  | 14 => ⟨S1x320000, .i32⟩
  | 15 => ⟨S320000, .i32⟩
  | 16 => ⟨S_, .f32⟩
  | 17 => ⟨S50000x128, .f32⟩
  | 18 => ⟨S320000x1, .i32⟩
  | 19 => ⟨S50000x128, .f32⟩
  | 20 => ⟨S_, .f32⟩
  | 21 => ⟨S320000x1, .f32⟩
  | 22 => ⟨S1x320000, .i32⟩
  | 23 => ⟨S320000, .i32⟩
  | 24 => ⟨S_, .f32⟩
  | 25 => ⟨S50000x1, .f32⟩
  | 26 => ⟨S320000x1, .i32⟩
  | 27 => ⟨S50000x1, .f32⟩
  | 28 => ⟨S_, .f32⟩
  | 29 => ⟨S_, .f32⟩
  | 30 => ⟨S50000x1, .f32⟩
  | 31 => ⟨S50000x1, .f32⟩
  | 32 => ⟨S50000x128, .f32⟩
  | 33 => ⟨S50000x128, .f32⟩
  | 34 => ⟨S1x160000, .i32⟩
  | 35 => ⟨S160000, .i32⟩
  | 36 => ⟨S_, .i32⟩
  | 37 => ⟨S160000, .i32⟩
  | 38 => ⟨S160000, .i1⟩
  | 39 => ⟨S_, .i32⟩
  | 40 => ⟨S160000, .i32⟩
  | 41 => ⟨S160000, .i32⟩
  | 42 => ⟨S160000, .i32⟩
  | 43 => ⟨S160000x1, .i32⟩
  | 44 => ⟨S160000x128, .f32⟩
  | 45 => ⟨S160000x128, .f32⟩
  | 46 => ⟨S1x160000, .i32⟩
  | 47 => ⟨S160000, .i32⟩
  | 48 => ⟨S_, .f32⟩
  | 49 => ⟨S50000x128, .f32⟩
  | 50 => ⟨S160000x1, .i32⟩
  | 51 => ⟨S50000x128, .f32⟩
  | 52 => ⟨S_, .f32⟩
  | 53 => ⟨S160000x1, .f32⟩
  | 54 => ⟨S1x160000, .i32⟩
  | 55 => ⟨S160000, .i32⟩
  | 56 => ⟨S_, .f32⟩
  | 57 => ⟨S50000x1, .f32⟩
  | 58 => ⟨S160000x1, .i32⟩
  | 59 => ⟨S50000x1, .f32⟩
  | 60 => ⟨S_, .f32⟩
  | 61 => ⟨S_, .f32⟩
  | 62 => ⟨S50000x1, .f32⟩
  | 63 => ⟨S50000x1, .f32⟩
  | 64 => ⟨S50000x128, .f32⟩
  | 65 => ⟨S50000x128, .f32⟩
  | 66 => ⟨S1x128x128, .f32⟩
  | 67 => ⟨S128x128, .f32⟩
  | 68 => ⟨S50000x128, .f32⟩
  | 69 => ⟨S1x128, .f32⟩
  | 70 => ⟨S128, .f32⟩
  | 71 => ⟨S1x128, .f32⟩
  | 72 => ⟨S50000x128, .f32⟩
  | 73 => ⟨S50000x128, .f32⟩
  | 74 => ⟨S50000x128, .f32⟩
  | 75 => ⟨S50000x128, .f32⟩
  | 76 => ⟨S50000x128, .f32⟩
  | 77 => ⟨S50000x128, .f32⟩
  | 78 => ⟨S_, .f32⟩
  | 79 => ⟨S50000x128, .f32⟩
  | 80 => ⟨S50000x128, .i1⟩
  | 81 => ⟨S_, .f32⟩
  | 82 => ⟨S50000x128, .f32⟩
  | 83 => ⟨S50000x128, .i1⟩
  | 84 => ⟨S_, .f32⟩
  | 85 => ⟨S_, .f32⟩
  | 86 => ⟨S50000x128, .f32⟩
  | 87 => ⟨S50000x128, .f32⟩
  | 88 => ⟨S50000x128, .f32⟩
  | 89 => ⟨S_, .f32⟩
  | 90 => ⟨S50000x128, .f32⟩
  | 91 => ⟨S50000x128, .f32⟩
  | 92 => ⟨S50000x128, .f32⟩
  | 93 => ⟨S1x128x128, .f32⟩
  | 94 => ⟨S128x128, .f32⟩
  | 95 => ⟨S1x640000, .i32⟩
  | 96 => ⟨S640000, .i32⟩
  | 97 => ⟨S_, .i32⟩
  | 98 => ⟨S640000, .i32⟩
  | 99 => ⟨S640000, .i1⟩
  | 100 => ⟨S_, .i32⟩
  | 101 => ⟨S640000, .i32⟩
  | 102 => ⟨S640000, .i32⟩
  | 103 => ⟨S640000, .i32⟩
  | 104 => ⟨S640000x1, .i32⟩
  | 105 => ⟨S640000x128, .f32⟩
  | 106 => ⟨S640000x128, .f32⟩
  | 107 => ⟨S1x640000, .i32⟩
  | 108 => ⟨S640000, .i32⟩
  | 109 => ⟨S_, .f32⟩
  | 110 => ⟨S50000x128, .f32⟩
  | 111 => ⟨S640000x1, .i32⟩
  | 112 => ⟨S50000x128, .f32⟩
  | 113 => ⟨S_, .f32⟩
  | 114 => ⟨S640000x1, .f32⟩
  | 115 => ⟨S1x640000, .i32⟩
  | 116 => ⟨S640000, .i32⟩
  | 117 => ⟨S_, .f32⟩
  | 118 => ⟨S50000x1, .f32⟩
  | 119 => ⟨S640000x1, .i32⟩
  | 120 => ⟨S50000x1, .f32⟩
  | 121 => ⟨S_, .f32⟩
  | 122 => ⟨S_, .f32⟩
  | 123 => ⟨S50000x1, .f32⟩
  | 124 => ⟨S50000x1, .f32⟩
  | 125 => ⟨S50000x128, .f32⟩
  | 126 => ⟨S50000x128, .f32⟩
  | 127 => ⟨S1x640000, .i32⟩
  | _ => ⟨S50000x32, .f32⟩

abbrev hbmTy0_3 (i : Nat) : BufTy := match i % 128 with
  | 0 => ⟨S640000, .i32⟩
  | 1 => ⟨S_, .i32⟩
  | 2 => ⟨S640000, .i32⟩
  | 3 => ⟨S640000, .i1⟩
  | 4 => ⟨S_, .i32⟩
  | 5 => ⟨S640000, .i32⟩
  | 6 => ⟨S640000, .i32⟩
  | 7 => ⟨S640000, .i32⟩
  | 8 => ⟨S640000x1, .i32⟩
  | 9 => ⟨S640000x128, .f32⟩
  | 10 => ⟨S640000x128, .f32⟩
  | 11 => ⟨S1x640000, .i32⟩
  | 12 => ⟨S640000, .i32⟩
  | 13 => ⟨S_, .f32⟩
  | 14 => ⟨S50000x128, .f32⟩
  | 15 => ⟨S640000x1, .i32⟩
  | 16 => ⟨S50000x128, .f32⟩
  | 17 => ⟨S_, .f32⟩
  | 18 => ⟨S640000x1, .f32⟩
  | 19 => ⟨S1x640000, .i32⟩
  | 20 => ⟨S640000, .i32⟩
  | 21 => ⟨S_, .f32⟩
  | 22 => ⟨S50000x1, .f32⟩
  | 23 => ⟨S640000x1, .i32⟩
  | 24 => ⟨S50000x1, .f32⟩
  | 25 => ⟨S_, .f32⟩
  | 26 => ⟨S_, .f32⟩
  | 27 => ⟨S50000x1, .f32⟩
  | 28 => ⟨S50000x1, .f32⟩
  | 29 => ⟨S50000x128, .f32⟩
  | 30 => ⟨S50000x128, .f32⟩
  | 31 => ⟨S1x320000, .i32⟩
  | 32 => ⟨S320000, .i32⟩
  | 33 => ⟨S_, .i32⟩
  | 34 => ⟨S320000, .i32⟩
  | 35 => ⟨S320000, .i1⟩
  | 36 => ⟨S_, .i32⟩
  | 37 => ⟨S320000, .i32⟩
  | 38 => ⟨S320000, .i32⟩
  | 39 => ⟨S320000, .i32⟩
  | 40 => ⟨S320000x1, .i32⟩
  | 41 => ⟨S320000x128, .f32⟩
  | 42 => ⟨S320000x128, .f32⟩
  | 43 => ⟨S1x320000, .i32⟩
  | 44 => ⟨S320000, .i32⟩
  | 45 => ⟨S_, .f32⟩
  | 46 => ⟨S50000x128, .f32⟩
  | 47 => ⟨S320000x1, .i32⟩
  | 48 => ⟨S50000x128, .f32⟩
  | 49 => ⟨S_, .f32⟩
  | 50 => ⟨S320000x1, .f32⟩
  | 51 => ⟨S1x320000, .i32⟩
  | 52 => ⟨S320000, .i32⟩
  | 53 => ⟨S_, .f32⟩
  | 54 => ⟨S50000x1, .f32⟩
  | 55 => ⟨S320000x1, .i32⟩
  | 56 => ⟨S50000x1, .f32⟩
  | 57 => ⟨S_, .f32⟩
  | 58 => ⟨S_, .f32⟩
  | 59 => ⟨S50000x1, .f32⟩
  | 60 => ⟨S50000x1, .f32⟩
  | 61 => ⟨S50000x128, .f32⟩
  | 62 => ⟨S50000x128, .f32⟩
  | 63 => ⟨S1x160000, .i32⟩
  | 64 => ⟨S160000, .i32⟩
  | 65 => ⟨S_, .i32⟩
  | 66 => ⟨S160000, .i32⟩
  | 67 => ⟨S160000, .i1⟩
  | 68 => ⟨S_, .i32⟩
  | 69 => ⟨S160000, .i32⟩
  | 70 => ⟨S160000, .i32⟩
  | 71 => ⟨S160000, .i32⟩
  | 72 => ⟨S160000x1, .i32⟩
  | 73 => ⟨S160000x128, .f32⟩
  | 74 => ⟨S160000x128, .f32⟩
  | 75 => ⟨S1x160000, .i32⟩
  | 76 => ⟨S160000, .i32⟩
  | 77 => ⟨S_, .f32⟩
  | 78 => ⟨S50000x128, .f32⟩
  | 79 => ⟨S160000x1, .i32⟩
  | 80 => ⟨S50000x128, .f32⟩
  | 81 => ⟨S_, .f32⟩
  | 82 => ⟨S160000x1, .f32⟩
  | 83 => ⟨S1x160000, .i32⟩
  | 84 => ⟨S160000, .i32⟩
  | 85 => ⟨S_, .f32⟩
  | 86 => ⟨S50000x1, .f32⟩
  | 87 => ⟨S160000x1, .i32⟩
  | 88 => ⟨S50000x1, .f32⟩
  | 89 => ⟨S_, .f32⟩
  | 90 => ⟨S_, .f32⟩
  | 91 => ⟨S50000x1, .f32⟩
  | 92 => ⟨S50000x1, .f32⟩
  | 93 => ⟨S50000x128, .f32⟩
  | 94 => ⟨S50000x128, .f32⟩
  | 95 => ⟨S1x128x128, .f32⟩
  | 96 => ⟨S128x128, .f32⟩
  | 97 => ⟨S50000x128, .f32⟩
  | 98 => ⟨S1x128, .f32⟩
  | 99 => ⟨S128, .f32⟩
  | 100 => ⟨S1x128, .f32⟩
  | 101 => ⟨S50000x128, .f32⟩
  | 102 => ⟨S50000x128, .f32⟩
  | 103 => ⟨S50000x128, .f32⟩
  | 104 => ⟨S50000x128, .f32⟩
  | 105 => ⟨S50000x128, .f32⟩
  | 106 => ⟨S50000x128, .f32⟩
  | 107 => ⟨S_, .f32⟩
  | 108 => ⟨S50000x128, .f32⟩
  | 109 => ⟨S50000x128, .i1⟩
  | 110 => ⟨S_, .f32⟩
  | 111 => ⟨S50000x128, .f32⟩
  | 112 => ⟨S50000x128, .i1⟩
  | 113 => ⟨S_, .f32⟩
  | 114 => ⟨S_, .f32⟩
  | 115 => ⟨S50000x128, .f32⟩
  | 116 => ⟨S50000x128, .f32⟩
  | 117 => ⟨S50000x128, .f32⟩
  | 118 => ⟨S_, .f32⟩
  | 119 => ⟨S50000x128, .f32⟩
  | 120 => ⟨S50000x128, .f32⟩
  | 121 => ⟨S50000x128, .f32⟩
  | _ => ⟨S50000x32, .f32⟩

abbrev hbmTy (i : Nat) : BufTy := match i / 128 with
  | 0 => hbmTy0_0 i
  | 1 => hbmTy0_1 i
  | 2 => hbmTy0_2 i
  | 3 => hbmTy0_3 i
  | _ => ⟨S50000x32, .f32⟩

abbrev bufTy : (tb : Table) → Fin (tcTables nBuf tb) → BufTy
  | .hbm, ⟨i, _⟩ => hbmTy i
  | _, _ => ⟨S50000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_c : Ref sig .tc := ⟨.hbm, 39, rfl⟩
abbrev main_v20 : Ref sig .tc := ⟨.hbm, 40, rfl⟩
abbrev main_v21 : Ref sig .tc := ⟨.hbm, 41, rfl⟩
abbrev main_c_0 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_1 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_2 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_3 : Ref sig .tc := ⟨.hbm, 63, rfl⟩
abbrev main_call0_v0 : Ref sig .tc := ⟨.hbm, 64, rfl⟩
abbrev main_call0_v1 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_c_4 : Ref sig .tc := ⟨.hbm, 71, rfl⟩
abbrev main_v44 : Ref sig .tc := ⟨.hbm, 72, rfl⟩
abbrev main_v45 : Ref sig .tc := ⟨.hbm, 73, rfl⟩
abbrev main_c_5 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_6 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_7 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_8 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_9 : Ref sig .tc := ⟨.hbm, 95, rfl⟩
abbrev main_call1_v0 : Ref sig .tc := ⟨.hbm, 96, rfl⟩
abbrev main_call1_v1 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_c_10 : Ref sig .tc := ⟨.hbm, 103, rfl⟩
abbrev main_v68 : Ref sig .tc := ⟨.hbm, 104, rfl⟩
abbrev main_v69 : Ref sig .tc := ⟨.hbm, 105, rfl⟩
abbrev main_c_11 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_cst_12 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_cst_13 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_cst_14 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_cst_15 : Ref sig .tc := ⟨.hbm, 127, rfl⟩
abbrev main_call2_v0 : Ref sig .tc := ⟨.hbm, 128, rfl⟩
abbrev main_call2_v1 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_c_16 : Ref sig .tc := ⟨.hbm, 135, rfl⟩
abbrev main_v92 : Ref sig .tc := ⟨.hbm, 136, rfl⟩
abbrev main_v93 : Ref sig .tc := ⟨.hbm, 137, rfl⟩
abbrev main_c_17 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_cst_18 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_cst_19 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_cst_20 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_cst_21 : Ref sig .tc := ⟨.hbm, 159, rfl⟩
abbrev main_call3_v0 : Ref sig .tc := ⟨.hbm, 160, rfl⟩
abbrev main_call3_v1 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_call4_cst : Ref sig .tc := ⟨.hbm, 177, rfl⟩
abbrev main_call4_v0 : Ref sig .tc := ⟨.hbm, 178, rfl⟩
abbrev main_call4_v1 : Ref sig .tc := ⟨.hbm, 179, rfl⟩
abbrev main_call4_cst_0 : Ref sig .tc := ⟨.hbm, 180, rfl⟩
abbrev main_call4_v2 : Ref sig .tc := ⟨.hbm, 181, rfl⟩
abbrev main_call4_v3 : Ref sig .tc := ⟨.hbm, 182, rfl⟩
abbrev main_call4_cst_1 : Ref sig .tc := ⟨.hbm, 183, rfl⟩
abbrev main_call4_call0_v0 : Ref sig .tc := ⟨.hbm, 184, rfl⟩
abbrev main_call4_call0_v1 : Ref sig .tc := ⟨.hbm, 185, rfl⟩
abbrev main_call4_v4 : Ref sig .tc := ⟨.hbm, 186, rfl⟩
abbrev main_call4_v5 : Ref sig .tc := ⟨.hbm, 187, rfl⟩
abbrev main_call4_cst_2 : Ref sig .tc := ⟨.hbm, 188, rfl⟩
abbrev main_call4_v6 : Ref sig .tc := ⟨.hbm, 189, rfl⟩
abbrev main_call4_v7 : Ref sig .tc := ⟨.hbm, 190, rfl⟩
abbrev main_v126 : Ref sig .tc := ⟨.hbm, 191, rfl⟩
abbrev main_v127 : Ref sig .tc := ⟨.hbm, 192, rfl⟩
abbrev main_v128 : Ref sig .tc := ⟨.hbm, 193, rfl⟩
abbrev main_v129 : Ref sig .tc := ⟨.hbm, 194, rfl⟩
abbrev main_v130 : Ref sig .tc := ⟨.hbm, 195, rfl⟩
abbrev main_c_22 : Ref sig .tc := ⟨.hbm, 196, rfl⟩
abbrev main_v131 : Ref sig .tc := ⟨.hbm, 197, rfl⟩
abbrev main_v132 : Ref sig .tc := ⟨.hbm, 198, rfl⟩
abbrev main_c_23 : Ref sig .tc := ⟨.hbm, 199, rfl⟩
abbrev main_v133 : Ref sig .tc := ⟨.hbm, 200, rfl⟩
abbrev main_v134 : Ref sig .tc := ⟨.hbm, 201, rfl⟩
abbrev main_v135 : Ref sig .tc := ⟨.hbm, 202, rfl⟩
abbrev main_v136 : Ref sig .tc := ⟨.hbm, 203, rfl⟩
abbrev main_v137 : Ref sig .tc := ⟨.hbm, 204, rfl⟩
abbrev main_v138 : Ref sig .tc := ⟨.hbm, 205, rfl⟩
abbrev main_v139 : Ref sig .tc := ⟨.hbm, 206, rfl⟩
abbrev main_v140 : Ref sig .tc := ⟨.hbm, 207, rfl⟩
abbrev main_cst_24 : Ref sig .tc := ⟨.hbm, 208, rfl⟩
abbrev main_v141 : Ref sig .tc := ⟨.hbm, 209, rfl⟩
abbrev main_v142 : Ref sig .tc := ⟨.hbm, 210, rfl⟩
abbrev main_v143 : Ref sig .tc := ⟨.hbm, 211, rfl⟩
abbrev main_cst_25 : Ref sig .tc := ⟨.hbm, 212, rfl⟩
abbrev main_v144 : Ref sig .tc := ⟨.hbm, 213, rfl⟩
abbrev main_v145 : Ref sig .tc := ⟨.hbm, 214, rfl⟩
abbrev main_v146 : Ref sig .tc := ⟨.hbm, 215, rfl⟩
abbrev main_cst_26 : Ref sig .tc := ⟨.hbm, 216, rfl⟩
abbrev main_v147 : Ref sig .tc := ⟨.hbm, 217, rfl⟩
abbrev main_v148 : Ref sig .tc := ⟨.hbm, 218, rfl⟩
abbrev main_v149 : Ref sig .tc := ⟨.hbm, 219, rfl⟩
abbrev main_cst_27 : Ref sig .tc := ⟨.hbm, 220, rfl⟩
abbrev main_call5_v0 : Ref sig .tc := ⟨.hbm, 221, rfl⟩
abbrev main_call5_v1 : Ref sig .tc := ⟨.hbm, 222, rfl⟩
abbrev main_v150 : Ref sig .tc := ⟨.hbm, 223, rfl⟩
abbrev main_v151 : Ref sig .tc := ⟨.hbm, 224, rfl⟩
abbrev main_v152 : Ref sig .tc := ⟨.hbm, 225, rfl⟩
abbrev main_v153 : Ref sig .tc := ⟨.hbm, 226, rfl⟩
abbrev main_v154 : Ref sig .tc := ⟨.hbm, 227, rfl⟩
abbrev main_c_28 : Ref sig .tc := ⟨.hbm, 228, rfl⟩
abbrev main_v155 : Ref sig .tc := ⟨.hbm, 229, rfl⟩
abbrev main_v156 : Ref sig .tc := ⟨.hbm, 230, rfl⟩
abbrev main_c_29 : Ref sig .tc := ⟨.hbm, 231, rfl⟩
abbrev main_v157 : Ref sig .tc := ⟨.hbm, 232, rfl⟩
abbrev main_v158 : Ref sig .tc := ⟨.hbm, 233, rfl⟩
abbrev main_v159 : Ref sig .tc := ⟨.hbm, 234, rfl⟩
abbrev main_v160 : Ref sig .tc := ⟨.hbm, 235, rfl⟩
abbrev main_v161 : Ref sig .tc := ⟨.hbm, 236, rfl⟩
abbrev main_v162 : Ref sig .tc := ⟨.hbm, 237, rfl⟩
abbrev main_v163 : Ref sig .tc := ⟨.hbm, 238, rfl⟩
abbrev main_v164 : Ref sig .tc := ⟨.hbm, 239, rfl⟩
abbrev main_cst_30 : Ref sig .tc := ⟨.hbm, 240, rfl⟩
abbrev main_v165 : Ref sig .tc := ⟨.hbm, 241, rfl⟩
abbrev main_v166 : Ref sig .tc := ⟨.hbm, 242, rfl⟩
abbrev main_v167 : Ref sig .tc := ⟨.hbm, 243, rfl⟩
abbrev main_cst_31 : Ref sig .tc := ⟨.hbm, 244, rfl⟩
abbrev main_v168 : Ref sig .tc := ⟨.hbm, 245, rfl⟩
abbrev main_v169 : Ref sig .tc := ⟨.hbm, 246, rfl⟩
abbrev main_v170 : Ref sig .tc := ⟨.hbm, 247, rfl⟩
abbrev main_cst_32 : Ref sig .tc := ⟨.hbm, 248, rfl⟩
abbrev main_v171 : Ref sig .tc := ⟨.hbm, 249, rfl⟩
abbrev main_v172 : Ref sig .tc := ⟨.hbm, 250, rfl⟩
abbrev main_v173 : Ref sig .tc := ⟨.hbm, 251, rfl⟩
abbrev main_cst_33 : Ref sig .tc := ⟨.hbm, 252, rfl⟩
abbrev main_call6_v0 : Ref sig .tc := ⟨.hbm, 253, rfl⟩
abbrev main_call6_v1 : Ref sig .tc := ⟨.hbm, 254, rfl⟩
abbrev main_v174 : Ref sig .tc := ⟨.hbm, 255, rfl⟩
abbrev main_v175 : Ref sig .tc := ⟨.hbm, 256, rfl⟩
abbrev main_v176 : Ref sig .tc := ⟨.hbm, 257, rfl⟩
abbrev main_v177 : Ref sig .tc := ⟨.hbm, 258, rfl⟩
abbrev main_v178 : Ref sig .tc := ⟨.hbm, 259, rfl⟩
abbrev main_c_34 : Ref sig .tc := ⟨.hbm, 260, rfl⟩
abbrev main_v179 : Ref sig .tc := ⟨.hbm, 261, rfl⟩
abbrev main_v180 : Ref sig .tc := ⟨.hbm, 262, rfl⟩
abbrev main_c_35 : Ref sig .tc := ⟨.hbm, 263, rfl⟩
abbrev main_v181 : Ref sig .tc := ⟨.hbm, 264, rfl⟩
abbrev main_v182 : Ref sig .tc := ⟨.hbm, 265, rfl⟩
abbrev main_v183 : Ref sig .tc := ⟨.hbm, 266, rfl⟩
abbrev main_v184 : Ref sig .tc := ⟨.hbm, 267, rfl⟩
abbrev main_v185 : Ref sig .tc := ⟨.hbm, 268, rfl⟩
abbrev main_v186 : Ref sig .tc := ⟨.hbm, 269, rfl⟩
abbrev main_v187 : Ref sig .tc := ⟨.hbm, 270, rfl⟩
abbrev main_v188 : Ref sig .tc := ⟨.hbm, 271, rfl⟩
abbrev main_cst_36 : Ref sig .tc := ⟨.hbm, 272, rfl⟩
abbrev main_v189 : Ref sig .tc := ⟨.hbm, 273, rfl⟩
abbrev main_v190 : Ref sig .tc := ⟨.hbm, 274, rfl⟩
abbrev main_v191 : Ref sig .tc := ⟨.hbm, 275, rfl⟩
abbrev main_cst_37 : Ref sig .tc := ⟨.hbm, 276, rfl⟩
abbrev main_v192 : Ref sig .tc := ⟨.hbm, 277, rfl⟩
abbrev main_v193 : Ref sig .tc := ⟨.hbm, 278, rfl⟩
abbrev main_v194 : Ref sig .tc := ⟨.hbm, 279, rfl⟩
abbrev main_cst_38 : Ref sig .tc := ⟨.hbm, 280, rfl⟩
abbrev main_v195 : Ref sig .tc := ⟨.hbm, 281, rfl⟩
abbrev main_v196 : Ref sig .tc := ⟨.hbm, 282, rfl⟩
abbrev main_v197 : Ref sig .tc := ⟨.hbm, 283, rfl⟩
abbrev main_cst_39 : Ref sig .tc := ⟨.hbm, 284, rfl⟩
abbrev main_call7_v0 : Ref sig .tc := ⟨.hbm, 285, rfl⟩
abbrev main_call7_v1 : Ref sig .tc := ⟨.hbm, 286, rfl⟩
abbrev main_v198 : Ref sig .tc := ⟨.hbm, 287, rfl⟩
abbrev main_v199 : Ref sig .tc := ⟨.hbm, 288, rfl⟩
abbrev main_v200 : Ref sig .tc := ⟨.hbm, 289, rfl⟩
abbrev main_v201 : Ref sig .tc := ⟨.hbm, 290, rfl⟩
abbrev main_v202 : Ref sig .tc := ⟨.hbm, 291, rfl⟩
abbrev main_c_40 : Ref sig .tc := ⟨.hbm, 292, rfl⟩
abbrev main_v203 : Ref sig .tc := ⟨.hbm, 293, rfl⟩
abbrev main_v204 : Ref sig .tc := ⟨.hbm, 294, rfl⟩
abbrev main_c_41 : Ref sig .tc := ⟨.hbm, 295, rfl⟩
abbrev main_v205 : Ref sig .tc := ⟨.hbm, 296, rfl⟩
abbrev main_v206 : Ref sig .tc := ⟨.hbm, 297, rfl⟩
abbrev main_v207 : Ref sig .tc := ⟨.hbm, 298, rfl⟩
abbrev main_v208 : Ref sig .tc := ⟨.hbm, 299, rfl⟩
abbrev main_v209 : Ref sig .tc := ⟨.hbm, 300, rfl⟩
abbrev main_v210 : Ref sig .tc := ⟨.hbm, 301, rfl⟩
abbrev main_v211 : Ref sig .tc := ⟨.hbm, 302, rfl⟩
abbrev main_v212 : Ref sig .tc := ⟨.hbm, 303, rfl⟩
abbrev main_cst_42 : Ref sig .tc := ⟨.hbm, 304, rfl⟩
abbrev main_v213 : Ref sig .tc := ⟨.hbm, 305, rfl⟩
abbrev main_v214 : Ref sig .tc := ⟨.hbm, 306, rfl⟩
abbrev main_v215 : Ref sig .tc := ⟨.hbm, 307, rfl⟩
abbrev main_cst_43 : Ref sig .tc := ⟨.hbm, 308, rfl⟩
abbrev main_v216 : Ref sig .tc := ⟨.hbm, 309, rfl⟩
abbrev main_v217 : Ref sig .tc := ⟨.hbm, 310, rfl⟩
abbrev main_v218 : Ref sig .tc := ⟨.hbm, 311, rfl⟩
abbrev main_cst_44 : Ref sig .tc := ⟨.hbm, 312, rfl⟩
abbrev main_v219 : Ref sig .tc := ⟨.hbm, 313, rfl⟩
abbrev main_v220 : Ref sig .tc := ⟨.hbm, 314, rfl⟩
abbrev main_v221 : Ref sig .tc := ⟨.hbm, 315, rfl⟩
abbrev main_cst_45 : Ref sig .tc := ⟨.hbm, 316, rfl⟩
abbrev main_call8_v0 : Ref sig .tc := ⟨.hbm, 317, rfl⟩
abbrev main_call8_v1 : Ref sig .tc := ⟨.hbm, 318, rfl⟩
abbrev main_v222 : Ref sig .tc := ⟨.hbm, 319, rfl⟩
abbrev main_v223 : Ref sig .tc := ⟨.hbm, 320, rfl⟩
abbrev main_v224 : Ref sig .tc := ⟨.hbm, 321, rfl⟩
abbrev main_v225 : Ref sig .tc := ⟨.hbm, 322, rfl⟩
abbrev main_v226 : Ref sig .tc := ⟨.hbm, 323, rfl⟩
abbrev main_v227 : Ref sig .tc := ⟨.hbm, 324, rfl⟩
abbrev main_v228 : Ref sig .tc := ⟨.hbm, 325, rfl⟩
abbrev main_v229 : Ref sig .tc := ⟨.hbm, 326, rfl⟩
abbrev main_v230 : Ref sig .tc := ⟨.hbm, 327, rfl⟩
abbrev main_v231 : Ref sig .tc := ⟨.hbm, 328, rfl⟩
abbrev main_v232 : Ref sig .tc := ⟨.hbm, 329, rfl⟩
abbrev main_v233 : Ref sig .tc := ⟨.hbm, 330, rfl⟩
abbrev main_v234 : Ref sig .tc := ⟨.hbm, 331, rfl⟩
abbrev main_v235 : Ref sig .tc := ⟨.hbm, 332, rfl⟩
abbrev main_v236 : Ref sig .tc := ⟨.hbm, 333, rfl⟩
abbrev main_call9_cst : Ref sig .tc := ⟨.hbm, 334, rfl⟩
abbrev main_call9_v0 : Ref sig .tc := ⟨.hbm, 335, rfl⟩
abbrev main_call9_v1 : Ref sig .tc := ⟨.hbm, 336, rfl⟩
abbrev main_call9_cst_0 : Ref sig .tc := ⟨.hbm, 337, rfl⟩
abbrev main_call9_v2 : Ref sig .tc := ⟨.hbm, 338, rfl⟩
abbrev main_call9_v3 : Ref sig .tc := ⟨.hbm, 339, rfl⟩
abbrev main_call9_cst_1 : Ref sig .tc := ⟨.hbm, 340, rfl⟩
abbrev main_call9_call0_v0 : Ref sig .tc := ⟨.hbm, 341, rfl⟩
abbrev main_call9_call0_v1 : Ref sig .tc := ⟨.hbm, 342, rfl⟩
abbrev main_call9_v4 : Ref sig .tc := ⟨.hbm, 343, rfl⟩
abbrev main_call9_v5 : Ref sig .tc := ⟨.hbm, 344, rfl⟩
abbrev main_call9_cst_2 : Ref sig .tc := ⟨.hbm, 345, rfl⟩
abbrev main_call9_v6 : Ref sig .tc := ⟨.hbm, 346, rfl⟩
abbrev main_call9_v7 : Ref sig .tc := ⟨.hbm, 347, rfl⟩
abbrev main_v237 : Ref sig .tc := ⟨.hbm, 348, rfl⟩
abbrev main_v238 : Ref sig .tc := ⟨.hbm, 349, rfl⟩
abbrev main_v239 : Ref sig .tc := ⟨.hbm, 350, rfl⟩
abbrev main_v240 : Ref sig .tc := ⟨.hbm, 351, rfl⟩
abbrev main_v241 : Ref sig .tc := ⟨.hbm, 352, rfl⟩
abbrev main_c_46 : Ref sig .tc := ⟨.hbm, 353, rfl⟩
abbrev main_v242 : Ref sig .tc := ⟨.hbm, 354, rfl⟩
abbrev main_v243 : Ref sig .tc := ⟨.hbm, 355, rfl⟩
abbrev main_c_47 : Ref sig .tc := ⟨.hbm, 356, rfl⟩
abbrev main_v244 : Ref sig .tc := ⟨.hbm, 357, rfl⟩
abbrev main_v245 : Ref sig .tc := ⟨.hbm, 358, rfl⟩
abbrev main_v246 : Ref sig .tc := ⟨.hbm, 359, rfl⟩
abbrev main_v247 : Ref sig .tc := ⟨.hbm, 360, rfl⟩
abbrev main_v248 : Ref sig .tc := ⟨.hbm, 361, rfl⟩
abbrev main_v249 : Ref sig .tc := ⟨.hbm, 362, rfl⟩
abbrev main_v250 : Ref sig .tc := ⟨.hbm, 363, rfl⟩
abbrev main_v251 : Ref sig .tc := ⟨.hbm, 364, rfl⟩
abbrev main_cst_48 : Ref sig .tc := ⟨.hbm, 365, rfl⟩
abbrev main_v252 : Ref sig .tc := ⟨.hbm, 366, rfl⟩
abbrev main_v253 : Ref sig .tc := ⟨.hbm, 367, rfl⟩
abbrev main_v254 : Ref sig .tc := ⟨.hbm, 368, rfl⟩
abbrev main_cst_49 : Ref sig .tc := ⟨.hbm, 369, rfl⟩
abbrev main_v255 : Ref sig .tc := ⟨.hbm, 370, rfl⟩
abbrev main_v256 : Ref sig .tc := ⟨.hbm, 371, rfl⟩
abbrev main_v257 : Ref sig .tc := ⟨.hbm, 372, rfl⟩
abbrev main_cst_50 : Ref sig .tc := ⟨.hbm, 373, rfl⟩
abbrev main_v258 : Ref sig .tc := ⟨.hbm, 374, rfl⟩
abbrev main_v259 : Ref sig .tc := ⟨.hbm, 375, rfl⟩
abbrev main_v260 : Ref sig .tc := ⟨.hbm, 376, rfl⟩
abbrev main_cst_51 : Ref sig .tc := ⟨.hbm, 377, rfl⟩
abbrev main_call10_v0 : Ref sig .tc := ⟨.hbm, 378, rfl⟩
abbrev main_call10_v1 : Ref sig .tc := ⟨.hbm, 379, rfl⟩
abbrev main_v261 : Ref sig .tc := ⟨.hbm, 380, rfl⟩
abbrev main_v262 : Ref sig .tc := ⟨.hbm, 381, rfl⟩
abbrev main_v263 : Ref sig .tc := ⟨.hbm, 382, rfl⟩
abbrev main_v264 : Ref sig .tc := ⟨.hbm, 383, rfl⟩
abbrev main_v265 : Ref sig .tc := ⟨.hbm, 384, rfl⟩
abbrev main_c_52 : Ref sig .tc := ⟨.hbm, 385, rfl⟩
abbrev main_v266 : Ref sig .tc := ⟨.hbm, 386, rfl⟩
abbrev main_v267 : Ref sig .tc := ⟨.hbm, 387, rfl⟩
abbrev main_c_53 : Ref sig .tc := ⟨.hbm, 388, rfl⟩
abbrev main_v268 : Ref sig .tc := ⟨.hbm, 389, rfl⟩
abbrev main_v269 : Ref sig .tc := ⟨.hbm, 390, rfl⟩
abbrev main_v270 : Ref sig .tc := ⟨.hbm, 391, rfl⟩
abbrev main_v271 : Ref sig .tc := ⟨.hbm, 392, rfl⟩
abbrev main_v272 : Ref sig .tc := ⟨.hbm, 393, rfl⟩
abbrev main_v273 : Ref sig .tc := ⟨.hbm, 394, rfl⟩
abbrev main_v274 : Ref sig .tc := ⟨.hbm, 395, rfl⟩
abbrev main_v275 : Ref sig .tc := ⟨.hbm, 396, rfl⟩
abbrev main_cst_54 : Ref sig .tc := ⟨.hbm, 397, rfl⟩
abbrev main_v276 : Ref sig .tc := ⟨.hbm, 398, rfl⟩
abbrev main_v277 : Ref sig .tc := ⟨.hbm, 399, rfl⟩
abbrev main_v278 : Ref sig .tc := ⟨.hbm, 400, rfl⟩
abbrev main_cst_55 : Ref sig .tc := ⟨.hbm, 401, rfl⟩
abbrev main_v279 : Ref sig .tc := ⟨.hbm, 402, rfl⟩
abbrev main_v280 : Ref sig .tc := ⟨.hbm, 403, rfl⟩
abbrev main_v281 : Ref sig .tc := ⟨.hbm, 404, rfl⟩
abbrev main_cst_56 : Ref sig .tc := ⟨.hbm, 405, rfl⟩
abbrev main_v282 : Ref sig .tc := ⟨.hbm, 406, rfl⟩
abbrev main_v283 : Ref sig .tc := ⟨.hbm, 407, rfl⟩
abbrev main_v284 : Ref sig .tc := ⟨.hbm, 408, rfl⟩
abbrev main_cst_57 : Ref sig .tc := ⟨.hbm, 409, rfl⟩
abbrev main_call11_v0 : Ref sig .tc := ⟨.hbm, 410, rfl⟩
abbrev main_call11_v1 : Ref sig .tc := ⟨.hbm, 411, rfl⟩
abbrev main_v285 : Ref sig .tc := ⟨.hbm, 412, rfl⟩
abbrev main_v286 : Ref sig .tc := ⟨.hbm, 413, rfl⟩
abbrev main_v287 : Ref sig .tc := ⟨.hbm, 414, rfl⟩
abbrev main_v288 : Ref sig .tc := ⟨.hbm, 415, rfl⟩
abbrev main_v289 : Ref sig .tc := ⟨.hbm, 416, rfl⟩
abbrev main_c_58 : Ref sig .tc := ⟨.hbm, 417, rfl⟩
abbrev main_v290 : Ref sig .tc := ⟨.hbm, 418, rfl⟩
abbrev main_v291 : Ref sig .tc := ⟨.hbm, 419, rfl⟩
abbrev main_c_59 : Ref sig .tc := ⟨.hbm, 420, rfl⟩
abbrev main_v292 : Ref sig .tc := ⟨.hbm, 421, rfl⟩
abbrev main_v293 : Ref sig .tc := ⟨.hbm, 422, rfl⟩
abbrev main_v294 : Ref sig .tc := ⟨.hbm, 423, rfl⟩
abbrev main_v295 : Ref sig .tc := ⟨.hbm, 424, rfl⟩
abbrev main_v296 : Ref sig .tc := ⟨.hbm, 425, rfl⟩
abbrev main_v297 : Ref sig .tc := ⟨.hbm, 426, rfl⟩
abbrev main_v298 : Ref sig .tc := ⟨.hbm, 427, rfl⟩
abbrev main_v299 : Ref sig .tc := ⟨.hbm, 428, rfl⟩
abbrev main_cst_60 : Ref sig .tc := ⟨.hbm, 429, rfl⟩
abbrev main_v300 : Ref sig .tc := ⟨.hbm, 430, rfl⟩
abbrev main_v301 : Ref sig .tc := ⟨.hbm, 431, rfl⟩
abbrev main_v302 : Ref sig .tc := ⟨.hbm, 432, rfl⟩
abbrev main_cst_61 : Ref sig .tc := ⟨.hbm, 433, rfl⟩
abbrev main_v303 : Ref sig .tc := ⟨.hbm, 434, rfl⟩
abbrev main_v304 : Ref sig .tc := ⟨.hbm, 435, rfl⟩
abbrev main_v305 : Ref sig .tc := ⟨.hbm, 436, rfl⟩
abbrev main_cst_62 : Ref sig .tc := ⟨.hbm, 437, rfl⟩
abbrev main_v306 : Ref sig .tc := ⟨.hbm, 438, rfl⟩
abbrev main_v307 : Ref sig .tc := ⟨.hbm, 439, rfl⟩
abbrev main_v308 : Ref sig .tc := ⟨.hbm, 440, rfl⟩
abbrev main_cst_63 : Ref sig .tc := ⟨.hbm, 441, rfl⟩
abbrev main_call12_v0 : Ref sig .tc := ⟨.hbm, 442, rfl⟩
abbrev main_call12_v1 : Ref sig .tc := ⟨.hbm, 443, rfl⟩
abbrev main_v309 : Ref sig .tc := ⟨.hbm, 444, rfl⟩
abbrev main_v310 : Ref sig .tc := ⟨.hbm, 445, rfl⟩
abbrev main_v311 : Ref sig .tc := ⟨.hbm, 446, rfl⟩
abbrev main_v312 : Ref sig .tc := ⟨.hbm, 447, rfl⟩
abbrev main_v313 : Ref sig .tc := ⟨.hbm, 448, rfl⟩
abbrev main_c_64 : Ref sig .tc := ⟨.hbm, 449, rfl⟩
abbrev main_v314 : Ref sig .tc := ⟨.hbm, 450, rfl⟩
abbrev main_v315 : Ref sig .tc := ⟨.hbm, 451, rfl⟩
abbrev main_c_65 : Ref sig .tc := ⟨.hbm, 452, rfl⟩
abbrev main_v316 : Ref sig .tc := ⟨.hbm, 453, rfl⟩
abbrev main_v317 : Ref sig .tc := ⟨.hbm, 454, rfl⟩
abbrev main_v318 : Ref sig .tc := ⟨.hbm, 455, rfl⟩
abbrev main_v319 : Ref sig .tc := ⟨.hbm, 456, rfl⟩
abbrev main_v320 : Ref sig .tc := ⟨.hbm, 457, rfl⟩
abbrev main_v321 : Ref sig .tc := ⟨.hbm, 458, rfl⟩
abbrev main_v322 : Ref sig .tc := ⟨.hbm, 459, rfl⟩
abbrev main_v323 : Ref sig .tc := ⟨.hbm, 460, rfl⟩
abbrev main_cst_66 : Ref sig .tc := ⟨.hbm, 461, rfl⟩
abbrev main_v324 : Ref sig .tc := ⟨.hbm, 462, rfl⟩
abbrev main_v325 : Ref sig .tc := ⟨.hbm, 463, rfl⟩
abbrev main_v326 : Ref sig .tc := ⟨.hbm, 464, rfl⟩
abbrev main_cst_67 : Ref sig .tc := ⟨.hbm, 465, rfl⟩
abbrev main_v327 : Ref sig .tc := ⟨.hbm, 466, rfl⟩
abbrev main_v328 : Ref sig .tc := ⟨.hbm, 467, rfl⟩
abbrev main_v329 : Ref sig .tc := ⟨.hbm, 468, rfl⟩
abbrev main_cst_68 : Ref sig .tc := ⟨.hbm, 469, rfl⟩
abbrev main_v330 : Ref sig .tc := ⟨.hbm, 470, rfl⟩
abbrev main_v331 : Ref sig .tc := ⟨.hbm, 471, rfl⟩
abbrev main_v332 : Ref sig .tc := ⟨.hbm, 472, rfl⟩
abbrev main_cst_69 : Ref sig .tc := ⟨.hbm, 473, rfl⟩
abbrev main_call13_v0 : Ref sig .tc := ⟨.hbm, 474, rfl⟩
abbrev main_call13_v1 : Ref sig .tc := ⟨.hbm, 475, rfl⟩
abbrev main_v333 : Ref sig .tc := ⟨.hbm, 476, rfl⟩
abbrev main_v334 : Ref sig .tc := ⟨.hbm, 477, rfl⟩
abbrev main_v335 : Ref sig .tc := ⟨.hbm, 478, rfl⟩
abbrev main_v336 : Ref sig .tc := ⟨.hbm, 479, rfl⟩
abbrev main_v337 : Ref sig .tc := ⟨.hbm, 480, rfl⟩
abbrev main_v338 : Ref sig .tc := ⟨.hbm, 481, rfl⟩
abbrev main_v339 : Ref sig .tc := ⟨.hbm, 482, rfl⟩
abbrev main_v340 : Ref sig .tc := ⟨.hbm, 483, rfl⟩
abbrev main_v341 : Ref sig .tc := ⟨.hbm, 484, rfl⟩
abbrev main_v342 : Ref sig .tc := ⟨.hbm, 485, rfl⟩
abbrev main_v343 : Ref sig .tc := ⟨.hbm, 486, rfl⟩
abbrev main_v344 : Ref sig .tc := ⟨.hbm, 487, rfl⟩
abbrev main_v345 : Ref sig .tc := ⟨.hbm, 488, rfl⟩
abbrev main_v346 : Ref sig .tc := ⟨.hbm, 489, rfl⟩
abbrev main_v347 : Ref sig .tc := ⟨.hbm, 490, rfl⟩
abbrev main_call14_cst : Ref sig .tc := ⟨.hbm, 491, rfl⟩
abbrev main_call14_v0 : Ref sig .tc := ⟨.hbm, 492, rfl⟩
abbrev main_call14_v1 : Ref sig .tc := ⟨.hbm, 493, rfl⟩
abbrev main_call14_cst_0 : Ref sig .tc := ⟨.hbm, 494, rfl⟩
abbrev main_call14_v2 : Ref sig .tc := ⟨.hbm, 495, rfl⟩
abbrev main_call14_v3 : Ref sig .tc := ⟨.hbm, 496, rfl⟩
abbrev main_call14_cst_1 : Ref sig .tc := ⟨.hbm, 497, rfl⟩
abbrev main_call14_call0_v0 : Ref sig .tc := ⟨.hbm, 498, rfl⟩
abbrev main_call14_call0_v1 : Ref sig .tc := ⟨.hbm, 499, rfl⟩
abbrev main_call14_v4 : Ref sig .tc := ⟨.hbm, 500, rfl⟩
abbrev main_call14_v5 : Ref sig .tc := ⟨.hbm, 501, rfl⟩
abbrev main_call14_cst_2 : Ref sig .tc := ⟨.hbm, 502, rfl⟩
abbrev main_call14_v6 : Ref sig .tc := ⟨.hbm, 503, rfl⟩
abbrev main_call14_v7 : Ref sig .tc := ⟨.hbm, 504, rfl⟩
abbrev main_v348 : Ref sig .tc := ⟨.hbm, 505, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1x128_S100000x128_0_1 : S1x128.BroadcastsInDim S100000x128 (![0, 1] : Fin 2 → Fin S100000x128.rank)
  bcast_S1x128_S20000x128_0_1 : S1x128.BroadcastsInDim S20000x128 (![0, 1] : Fin 2 → Fin S20000x128.rank)
  slices_S3x128x128_S1x128x128_0_0_0 : S3x128x128.Slices ![0, 0, 0] S1x128x128
  shapeCasts_S1x128x128_S128x128 : S1x128x128.ShapeCasts S128x128
  slices_S2x640000_S1x640000_0_0 : S2x640000.Slices ![0, 0] S1x640000
  shapeCasts_S1x640000_S640000 : S1x640000.ShapeCasts S640000
  bcast_S_S640000 : S_.BroadcastsInDim S640000 (![] : Fin 0 → Fin S640000.rank)
  bcast_S640000_S640000x1_0 : S640000.BroadcastsInDim S640000x1 (![0] : Fin 1 → Fin S640000x1.rank)
  slices_S2x640000_S1x640000_1_0 : S2x640000.Slices ![1, 0] S1x640000
  bcast_S_S50000x128 : S_.BroadcastsInDim S50000x128 (![] : Fin 0 → Fin S50000x128.rank)
  bcast_S_S640000x1 : S_.BroadcastsInDim S640000x1 (![] : Fin 0 → Fin S640000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  slices_S2x320000_S1x320000_0_0 : S2x320000.Slices ![0, 0] S1x320000
  shapeCasts_S1x320000_S320000 : S1x320000.ShapeCasts S320000
  bcast_S_S320000 : S_.BroadcastsInDim S320000 (![] : Fin 0 → Fin S320000.rank)
  bcast_S320000_S320000x1_0 : S320000.BroadcastsInDim S320000x1 (![0] : Fin 1 → Fin S320000x1.rank)
  slices_S2x320000_S1x320000_1_0 : S2x320000.Slices ![1, 0] S1x320000
  bcast_S_S320000x1 : S_.BroadcastsInDim S320000x1 (![] : Fin 0 → Fin S320000x1.rank)
  slices_S2x160000_S1x160000_0_0 : S2x160000.Slices ![0, 0] S1x160000
  shapeCasts_S1x160000_S160000 : S1x160000.ShapeCasts S160000
  bcast_S_S160000 : S_.BroadcastsInDim S160000 (![] : Fin 0 → Fin S160000.rank)
  bcast_S160000_S160000x1_0 : S160000.BroadcastsInDim S160000x1 (![0] : Fin 1 → Fin S160000x1.rank)
  slices_S2x160000_S1x160000_1_0 : S2x160000.Slices ![1, 0] S1x160000
  bcast_S_S160000x1 : S_.BroadcastsInDim S160000x1 (![] : Fin 0 → Fin S160000x1.rank)
  slices_S3x128_S1x128_0_0 : S3x128.Slices ![0, 0] S1x128
  shapeCasts_S1x128_S128 : S1x128.ShapeCasts S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  dot_S50000x32_S32x128_S50000x128_1_0_0_1_n_n_wf : DotDims.WF S50000x32 S32x128 S50000x128 [1] [0] [0] [1] [] []
  dot_S100000x16_S16x128_S100000x128_1_0_0_1_n_n_wf : DotDims.WF S100000x16 S16x128 S100000x128 [1] [0] [0] [1] [] []
  dot_S50000x8_S8x128_S50000x128_1_0_0_1_n_n_wf : DotDims.WF S50000x8 S8x128 S50000x128 [1] [0] [0] [1] [] []
  dot_S20000x8_S8x128_S20000x128_1_0_0_1_n_n_wf : DotDims.WF S20000x8 S8x128 S20000x128 [1] [0] [0] [1] [] []
  gather_S50000x128_S640000x1_S640000x128_1_0_n_n_0_1_1128_wf : GatherDims.WF S50000x128 S640000x1 S640000x128 [1] [0] [] [0] [] 1 ![1, 128]
  dot_S640000x128_S128x128_S640000x128_1_0_0_1_n_n_wf : DotDims.WF S640000x128 S128x128 S640000x128 [1] [0] [0] [1] [] []
  scatter_S50000x128_S640000x1_S640000x128_1_0_0_1_wf : ScatterDims.WF S50000x128 S640000x1 S640000x128 [1] [0] [0] 1
  scatter_S50000x1_S640000x1_S640000x1_1_0_0_1_wf : ScatterDims.WF S50000x1 S640000x1 S640000x1 [1] [0] [0] 1
  gather_S100000x128_S640000x1_S640000x128_1_0_n_n_0_1_1128_wf : GatherDims.WF S100000x128 S640000x1 S640000x128 [1] [0] [] [0] [] 1 ![1, 128]
  gather_S50000x128_S320000x1_S320000x128_1_0_n_n_0_1_1128_wf : GatherDims.WF S50000x128 S320000x1 S320000x128 [1] [0] [] [0] [] 1 ![1, 128]
  dot_S320000x128_S128x128_S320000x128_1_0_0_1_n_n_wf : DotDims.WF S320000x128 S128x128 S320000x128 [1] [0] [0] [1] [] []
  scatter_S50000x128_S320000x1_S320000x128_1_0_0_1_wf : ScatterDims.WF S50000x128 S320000x1 S320000x128 [1] [0] [0] 1
  scatter_S50000x1_S320000x1_S320000x1_1_0_0_1_wf : ScatterDims.WF S50000x1 S320000x1 S320000x1 [1] [0] [0] 1
  gather_S20000x128_S160000x1_S160000x128_1_0_n_n_0_1_1128_wf : GatherDims.WF S20000x128 S160000x1 S160000x128 [1] [0] [] [0] [] 1 ![1, 128]
  dot_S160000x128_S128x128_S160000x128_1_0_0_1_n_n_wf : DotDims.WF S160000x128 S128x128 S160000x128 [1] [0] [0] [1] [] []
  scatter_S50000x128_S160000x1_S160000x128_1_0_0_1_wf : ScatterDims.WF S50000x128 S160000x1 S160000x128 [1] [0] [0] 1
  scatter_S50000x1_S160000x1_S160000x1_1_0_0_1_wf : ScatterDims.WF S50000x1 S160000x1 S160000x1 [1] [0] [0] 1
  dot_S50000x128_S128x128_S50000x128_1_0_0_1_n_n_wf : DotDims.WF S50000x128 S128x128 S50000x128 [1] [0] [0] [1] [] []

variable [Facts₀]

def dot_S50000x32_S32x128_S50000x128_1_0_0_1_n_n : DotDims S50000x32 S32x128 S50000x128 where
  lhsContracting := [1]
  rhsContracting := [0]
  lhsNonContracting := [0]
  rhsNonContracting := [1]
  lhsBatch := []
  rhsBatch := []
  wf := dot_S50000x32_S32x128_S50000x128_1_0_0_1_n_n_wf
def dot_S100000x16_S16x128_S100000x128_1_0_0_1_n_n : DotDims S100000x16 S16x128 S100000x128 where
  lhsContracting := [1]
  rhsContracting := [0]
  lhsNonContracting := [0]
  rhsNonContracting := [1]
  lhsBatch := []
  rhsBatch := []
  wf := dot_S100000x16_S16x128_S100000x128_1_0_0_1_n_n_wf
def dot_S50000x8_S8x128_S50000x128_1_0_0_1_n_n : DotDims S50000x8 S8x128 S50000x128 where
  lhsContracting := [1]
  rhsContracting := [0]
  lhsNonContracting := [0]
  rhsNonContracting := [1]
  lhsBatch := []
  rhsBatch := []
  wf := dot_S50000x8_S8x128_S50000x128_1_0_0_1_n_n_wf
def dot_S20000x8_S8x128_S20000x128_1_0_0_1_n_n : DotDims S20000x8 S8x128 S20000x128 where
  lhsContracting := [1]
  rhsContracting := [0]
  lhsNonContracting := [0]
  rhsNonContracting := [1]
  lhsBatch := []
  rhsBatch := []
  wf := dot_S20000x8_S8x128_S20000x128_1_0_0_1_n_n_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def scatter_S50000x1_S640000x1_S640000x1_1_0_0_1 : ScatterDims S50000x1 S640000x1 S640000x1 where
  updateWindowDims := [1]
  insertedWindowDims := [0]
  scatterDimsToOperandDims := [0]
  indexVectorDim := 1
  wf := scatter_S50000x1_S640000x1_S640000x1_1_0_0_1_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def gather_S50000x128_S320000x1_S320000x128_1_0_n_n_0_1_1128 : GatherDims S50000x128 S320000x1 S320000x128 where
  offsetDims := [1]
  collapsedSliceDims := [0]
  operandBatchingDims := []
  startIndicesBatchingDims := []
  startIndexMap := [0]
  indexVectorDim := 1
  sliceSizes := ![1, 128]
  wf := gather_S50000x128_S320000x1_S320000x128_1_0_n_n_0_1_1128_wf
def dot_S320000x128_S128x128_S320000x128_1_0_0_1_n_n : DotDims S320000x128 S128x128 S320000x128 where
  lhsContracting := [1]
  rhsContracting := [0]
  lhsNonContracting := [0]
  rhsNonContracting := [1]
  lhsBatch := []
  rhsBatch := []
  wf := dot_S320000x128_S128x128_S320000x128_1_0_0_1_n_n_wf
def scatter_S50000x128_S320000x1_S320000x128_1_0_0_1 : ScatterDims S50000x128 S320000x1 S320000x128 where
  updateWindowDims := [1]
  insertedWindowDims := [0]
  scatterDimsToOperandDims := [0]
  indexVectorDim := 1
  wf := scatter_S50000x128_S320000x1_S320000x128_1_0_0_1_wf
def scatter_S50000x1_S320000x1_S320000x1_1_0_0_1 : ScatterDims S50000x1 S320000x1 S320000x1 where
  updateWindowDims := [1]
  insertedWindowDims := [0]
  scatterDimsToOperandDims := [0]
  indexVectorDim := 1
  wf := scatter_S50000x1_S320000x1_S320000x1_1_0_0_1_wf
def gather_S20000x128_S160000x1_S160000x128_1_0_n_n_0_1_1128 : GatherDims S20000x128 S160000x1 S160000x128 where
  offsetDims := [1]
  collapsedSliceDims := [0]
  operandBatchingDims := []
  startIndicesBatchingDims := []
  startIndexMap := [0]
  indexVectorDim := 1
  sliceSizes := ![1, 128]
  wf := gather_S20000x128_S160000x1_S160000x128_1_0_n_n_0_1_1128_wf
def dot_S160000x128_S128x128_S160000x128_1_0_0_1_n_n : DotDims S160000x128 S128x128 S160000x128 where
  lhsContracting := [1]
  rhsContracting := [0]
  lhsNonContracting := [0]
  rhsNonContracting := [1]
  lhsBatch := []
  rhsBatch := []
  wf := dot_S160000x128_S128x128_S160000x128_1_0_0_1_n_n_wf
def scatter_S50000x128_S160000x1_S160000x128_1_0_0_1 : ScatterDims S50000x128 S160000x1 S160000x128 where
  updateWindowDims := [1]
  insertedWindowDims := [0]
  scatterDimsToOperandDims := [0]
  indexVectorDim := 1
  wf := scatter_S50000x128_S160000x1_S160000x128_1_0_0_1_wf
def scatter_S50000x1_S160000x1_S160000x1_1_0_0_1 : ScatterDims S50000x1 S160000x1 S160000x1 where
  updateWindowDims := [1]
  insertedWindowDims := [0]
  scatterDimsToOperandDims := [0]
  indexVectorDim := 1
  wf := scatter_S50000x1_S160000x1_S160000x1_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KRun.lean ====
/-
  The idealized kernel's run with its RESULT named. Every weakly fair execution of @main terminates without a
  fault; in the final state the result array holds the last boundary valuation of the fold through @main's
  host stretches and regions, read at the result's reference, and every argument array is as launched. The fold
  (the buffer contents at each boundary between a stretch of host operations and a region) and every hypothesis of
  the launch theorem are the generated frame module's; only the postcondition says more than the frame's.
-/
import proofs.«168040_j41652592837487_1_alg».proof.Proof.Gen.KernelIdeal.Frame

set_option maxRecDepth 16384

noncomputable section

namespace Cert.KernelIdeal.KRun

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run, the result at the last boundary's contents. -/
theorem run : θ_run defs (onTc (τ := τ) (main (F := F))) ⟨m, fun _ => 0, ρ⟩ (fun r => ∀ c : Dev nD,
      r.2.mem ((c.tc : Thread nD τ).loc main_v307) = W38 m ρ c (Proc.devRef .tc main_v307)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W38 m ρ c b)
    (hfin := fun c s' => by
      iintro ⟨⟨Hh, -⟩, HSI⟩
      unfold StableHlo.held
      imodintro
      iapply (pointsTo_read_all (Pipeline.ucRefs τ sig) (fun b => (((c : Thread nD τ)).1, b)) (W38 m ρ c) s')
      isplitl [Hh] <;> iassumption)
    (hQ := fun s h c =>
      ⟨h c _ (mem_uc main_v307 (by decide)),
       (h c _ (mem_uc main_arg0 (by decide))).trans (W38_main_arg0 m ρ c),
       (h c _ (mem_uc main_arg1 (by decide))).trans (W38_main_arg1 m ρ c),
       (h c _ (mem_uc main_arg2 (by decide))).trans (W38_main_arg2 m ρ c),
       (h c _ (mem_uc main_arg3 (by decide))).trans (W38_main_arg3 m ρ c),
       (h c _ (mem_uc main_arg4 (by decide))).trans (W38_main_arg4 m ρ c),
       (h c _ (mem_uc main_arg5 (by decide))).trans (W38_main_arg5 m ρ c),
       (h c _ (mem_uc main_arg6 (by decide))).trans (W38_main_arg6 m ρ c),
       (h c _ (mem_uc main_arg7 (by decide))).trans (W38_main_arg7 m ρ c),
       (h c _ (mem_uc main_arg8 (by decide))).trans (W38_main_arg8 m ρ c),
       (h c _ (mem_uc main_arg9 (by decide))).trans (W38_main_arg9 m ρ c),
       (h c _ (mem_uc main_arg10 (by decide))).trans (W38_main_arg10 m ρ c),
       (h c _ (mem_uc main_arg11 (by decide))).trans (W38_main_arg11 m ρ c),
       (h c _ (mem_uc main_arg12 (by decide))).trans (W38_main_arg12 m ρ c),
       (h c _ (mem_uc main_arg13 (by decide))).trans (W38_main_arg13 m ρ c),
       (h c _ (mem_uc main_arg14 (by decide))).trans (W38_main_arg14 m ρ c),
       (h c _ (mem_uc main_arg15 (by decide))).trans (W38_main_arg15 m ρ c),
       (h c _ (mem_uc main_arg16 (by decide))).trans (W38_main_arg16 m ρ c),
       (h c _ (mem_uc main_arg17 (by decide))).trans (W38_main_arg17 m ρ c),
       (h c _ (mem_uc main_arg18 (by decide))).trans (W38_main_arg18 m ρ c)⟩)

end Cert.KernelIdeal.KRun

end
-- ==== Proof.Spec.lean ====
/-
  The three functions the kernel's regions compute, as whole-array functions at the ideal values (an array is a
  function from its index type to the extended reals):
  * `lin x w b`  : row r, column j  ↦  (∑ₖ x(r,k) · w(k,j)) + b(0,j)      — a linear map of the rows plus a bias row;
  * `mm x w`     : row r, column j  ↦  ∑ₖ x(r,k) · w(k,j)                  — the same without the bias;
  * `comb s a b c d` : the exponential linear unit of the five-term sum s + a + b + c + d, entry by entry:
    t where t > 0, and eᵗ − 1 elsewhere.
  Every row count M and inner extent K is a parameter; the column count is 128 throughout.
-/
import Idealize.ShloMosaic.PureOps.Ideal
import Idealize.ShloMosaic.PureOps.Vector
import Idealize.ShloMosaic.Lib.ValueIdx

noncomputable section

namespace Cert.Spec

open Idealize.ShloMosaic Idealize.ShloMosaic.ValueIdx
open scoped BigOperators

/-- A matrix of M rows and K columns times a K × 128 matrix, plus a bias row broadcast down the rows. -/
def lin {M K : Nat} (x : (⟨2, ![M, K]⟩ : Shape).Idx → EReal) (w : (⟨2, ![K, 128]⟩ : Shape).Idx → EReal)
    (b : (⟨2, ![1, 128]⟩ : Shape).Idx → EReal) : (⟨2, ![M, 128]⟩ : Shape).Idx → EReal :=
  fun i => (∑ k : Fin K, x (ix2 (i 0) k) * w (ix2 k (i 1))) + b (ix2 0 (i 1))

/-- The same product without a bias. -/
def mm {M K : Nat} (x : (⟨2, ![M, K]⟩ : Shape).Idx → EReal) (w : (⟨2, ![K, 128]⟩ : Shape).Idx → EReal) :
    (⟨2, ![M, 128]⟩ : Shape).Idx → EReal :=
  fun i => ∑ k : Fin K, x (ix2 (i 0) k) * w (ix2 k (i 1))

/-- The exponential linear unit at one extended real: t where t > 0, eᵗ − 1 elsewhere, spelt with the
    operations a vector program applies entry by entry. -/
def elu1 (t : EReal) : EReal :=
  Scalar.select (FloatOps.cmpf (F := Ideal) (φ := .f32) .ogt t (Scalar.ofBits (F := Ideal) .f32 0x00000000#32)) t
    (FloatOps.subf (F := Ideal) (φ := .f32) (FloatOps.exp (F := Ideal) (φ := .f32) t) (Scalar.ofBits (F := Ideal) .f32 0x3F800000#32))

/-- The unit applied to a five-term sum, entry by entry (the sum associated to the left). -/
def comb {M : Nat} (s a b c d : (⟨2, ![M, 128]⟩ : Shape).Idx → EReal) : (⟨2, ![M, 128]⟩ : Shape).Idx → EReal :=
  fun i => elu1 (s i + a i + b i + c i + d i)

end Cert.Spec

end
-- ==== Proof.KVal.lean ====
/-
  The idealized kernel's result as ONE function of its nineteen argument arrays, at the ideal values.
  The pieces are the program's own operations composed, group by group:
  * `brow b` — a vector of 128 entries laid out as a one-row matrix (the bias row of a projection);
  * `inv_⋆ e` — for an edge list e (row 0 the sources, row 1 the targets), the column of 1 / max(count, 1), count
    the number of edges that land on each of the 50000 target rows (a scatter of ones onto zeros);
  * `rel_⋆ t e inv` — one relation's mean: the rows of the table t gathered at the edges' sources (a negative index
    wrapped once, the row clamped), summed at their targets, and scaled row by row with `inv`;
  * `sW l`, `sb l`, `rW l` — layer l's slice of the three stacked weight arrays;
  then the layers: `next l h` is the exponential linear unit of  h·sW + sb + the four relation means of the
  tables h·rW, h_lane·rW, h_sens·rW, h_inj·rW  (Spec's `lin`, `mm`, `comb`), and the result is three layers over
  the projected inputs.
-/
import proofs.«168040_j41652592837487_1_alg».proof.KernelIdeal
import proofs.«168040_j41652592837487_1_alg».proof.Proof.Gen.KernelIdeal
import proofs.«168040_j41652592837487_1_alg».proof.Proof.Spec

set_option maxRecDepth 16384

noncomputable section

namespace Cert.KernelIdeal.KVal

open Cert.KernelIdeal Cert.KernelIdeal.Gen Idealize.ShloMosaic Idealize.ShloMosaic.TcCoe Idealize.SL.Sem

def brow (b : FVec Ideal S128 .f32) : FVec Ideal S1x128 .f32 :=
  shapeCast S1x128 b shapeCasts_S128_S1x128

def inv_sp (e : IVec S2x640000 32) : FVec Ideal S50000x1 .f32 :=
  broadcastInDim S50000x1 ![0] bcast_S50000_S50000x1_0 (Host.divf (F := Ideal) (broadcastInDim S50000 ![] bcast_S_S50000 (constant (F := Ideal) S_ .f32 0x3F800000#32)) (maximumf (F := Ideal) (Host.scatterAdd (F := Ideal) scatter_S50000_S640000x1_S640000_n_0_0_1 (broadcastInDim S50000 ![] bcast_S_S50000 (constant (F := Ideal) S_ .f32 0x00000000#32)) (broadcastInDim S640000x1 ![0] bcast_S640000_S640000x1_0 (shapeCast S640000 (extractStridedSlice S1x640000 ![1, 0] e slices_S2x640000_S1x640000_1_0) shapeCasts_S1x640000_S640000)) (broadcastInDim S640000 ![] bcast_S_S640000 (constant (F := Ideal) S_ .f32 0x3F800000#32))) (broadcastInDim S50000 ![] bcast_S_S50000 (constant (F := Ideal) S_ .f32 0x3F800000#32))))

def inv_fl (e : IVec S2x640000 32) : FVec Ideal S50000x1 .f32 :=
  broadcastInDim S50000x1 ![0] bcast_S50000_S50000x1_0 (Host.divf (F := Ideal) (broadcastInDim S50000 ![] bcast_S_S50000 (constant (F := Ideal) S_ .f32 0x3F800000#32)) (maximumf (F := Ideal) (Host.scatterAdd (F := Ideal) scatter_S50000_S640000x1_S640000_n_0_0_1 (broadcastInDim S50000 ![] bcast_S_S50000 (constant (F := Ideal) S_ .f32 0x00000000#32)) (broadcastInDim S640000x1 ![0] bcast_S640000_S640000x1_0 (shapeCast S640000 (extractStridedSlice S1x640000 ![1, 0] e slices_S2x640000_S1x640000_1_0) shapeCasts_S1x640000_S640000)) (broadcastInDim S640000 ![] bcast_S_S640000 (constant (F := Ideal) S_ .f32 0x3F800000#32))) (broadcastInDim S50000 ![] bcast_S_S50000 (constant (F := Ideal) S_ .f32 0x3F800000#32))))

def inv_fs (e : IVec S2x320000 32) : FVec Ideal S50000x1 .f32 :=
  broadcastInDim S50000x1 ![0] bcast_S50000_S50000x1_0 (Host.divf (F := Ideal) (broadcastInDim S50000 ![] bcast_S_S50000 (constant (F := Ideal) S_ .f32 0x3F800000#32)) (maximumf (F := Ideal) (Host.scatterAdd (F := Ideal) scatter_S50000_S320000x1_S320000_n_0_0_1 (broadcastInDim S50000 ![] bcast_S_S50000 (constant (F := Ideal) S_ .f32 0x00000000#32)) (broadcastInDim S320000x1 ![0] bcast_S320000_S320000x1_0 (shapeCast S320000 (extractStridedSlice S1x320000 ![1, 0] e slices_S2x320000_S1x320000_1_0) shapeCasts_S1x320000_S320000)) (broadcastInDim S320000 ![] bcast_S_S320000 (constant (F := Ideal) S_ .f32 0x3F800000#32))) (broadcastInDim S50000 ![] bcast_S_S50000 (constant (F := Ideal) S_ .f32 0x3F800000#32))))

def inv_inc (e : IVec S2x160000 32) : FVec Ideal S50000x1 .f32 :=
  broadcastInDim S50000x1 ![0] bcast_S50000_S50000x1_0 (Host.divf (F := Ideal) (broadcastInDim S50000 ![] bcast_S_S50000 (constant (F := Ideal) S_ .f32 0x3F800000#32)) (maximumf (F := Ideal) (Host.scatterAdd (F := Ideal) scatter_S50000_S160000x1_S160000_n_0_0_1 (broadcastInDim S50000 ![] bcast_S_S50000 (constant (F := Ideal) S_ .f32 0x00000000#32)) (broadcastInDim S160000x1 ![0] bcast_S160000_S160000x1_0 (shapeCast S160000 (extractStridedSlice S1x160000 ![1, 0] e slices_S2x160000_S1x160000_1_0) shapeCasts_S1x160000_S160000)) (broadcastInDim S160000 ![] bcast_S_S160000 (constant (F := Ideal) S_ .f32 0x3F800000#32))) (broadcastInDim S50000 ![] bcast_S_S50000 (constant (F := Ideal) S_ .f32 0x3F800000#32))))

def zero128 : FVec Ideal S128 .f32 :=
  broadcastInDim S128 ![] bcast_S_S128 (constant (F := Ideal) S_ .f32 0x00000000#32)

def sW0 (w : FVec Ideal S3x128x128 .f32) : FVec Ideal S128x128 .f32 :=
  shapeCast S128x128 (extractStridedSlice S1x128x128 ![0, 0, 0] w slices_S3x128x128_S1x128x128_0_0_0) shapeCasts_S1x128x128_S128x128

def sb0 (b : FVec Ideal S3x128 .f32) : FVec Ideal S1x128 .f32 :=
  shapeCast S1x128 (shapeCast S128 (extractStridedSlice S1x128 ![0, 0] b slices_S3x128_S1x128_0_0) shapeCasts_S1x128_S128) shapeCasts_S128_S1x128

def rW0 (w : FVec Ideal S3x128x128 .f32) : FVec Ideal S128x128 .f32 :=
  shapeCast S128x128 (extractStridedSlice S1x128x128 ![0, 0, 0] w slices_S3x128x128_S1x128x128_0_0_0) shapeCasts_S1x128x128_S128x128

def sW1 (w : FVec Ideal S3x128x128 .f32) : FVec Ideal S128x128 .f32 :=
  shapeCast S128x128 (extractStridedSlice S1x128x128 ![1, 0, 0] w slices_S3x128x128_S1x128x128_1_0_0) shapeCasts_S1x128x128_S128x128

def sb1 (b : FVec Ideal S3x128 .f32) : FVec Ideal S1x128 .f32 :=
  shapeCast S1x128 (shapeCast S128 (extractStridedSlice S1x128 ![1, 0] b slices_S3x128_S1x128_1_0) shapeCasts_S1x128_S128) shapeCasts_S128_S1x128

def rW1 (w : FVec Ideal S3x128x128 .f32) : FVec Ideal S128x128 .f32 :=
  shapeCast S128x128 (extractStridedSlice S1x128x128 ![1, 0, 0] w slices_S3x128x128_S1x128x128_1_0_0) shapeCasts_S1x128x128_S128x128

def sW2 (w : FVec Ideal S3x128x128 .f32) : FVec Ideal S128x128 .f32 :=
  shapeCast S128x128 (extractStridedSlice S1x128x128 ![2, 0, 0] w slices_S3x128x128_S1x128x128_2_0_0) shapeCasts_S1x128x128_S128x128

def sb2 (b : FVec Ideal S3x128 .f32) : FVec Ideal S1x128 .f32 :=
  shapeCast S1x128 (shapeCast S128 (extractStridedSlice S1x128 ![2, 0] b slices_S3x128_S1x128_2_0) shapeCasts_S1x128_S128) shapeCasts_S128_S1x128

def rW2 (w : FVec Ideal S3x128x128 .f32) : FVec Ideal S128x128 .f32 :=
  shapeCast S128x128 (extractStridedSlice S1x128x128 ![2, 0, 0] w slices_S3x128x128_S1x128x128_2_0_0) shapeCasts_S1x128x128_S128x128

def rel_sp (hrel : FVec Ideal S50000x128 .f32) (e : IVec S2x640000 32) (inv : FVec Ideal S50000x1 .f32) : FVec Ideal S50000x128 .f32 :=
  mulf (F := Ideal) (Host.scatterAdd (F := Ideal) scatter_S50000x128_S640000x1_S640000x128_1_0_0_1 (broadcastInDim S50000x128 ![] bcast_S_S50000x128 (constant (F := Ideal) S_ .f32 0x00000000#32)) (broadcastInDim S640000x1 ![0] bcast_S640000_S640000x1_0 (shapeCast S640000 (extractStridedSlice S1x640000 ![1, 0] e slices_S2x640000_S1x640000_1_0) shapeCasts_S1x640000_S640000)) (Host.gather gather_S50000x128_S640000x1_S640000x128_1_0_n_n_0_1_1128 hrel (broadcastInDim S640000x1 ![0] bcast_S640000_S640000x1_0 (select (cmpi .slt (shapeCast S640000 (extractStridedSlice S1x640000 ![0, 0] e slices_S2x640000_S1x640000_0_0) shapeCasts_S1x640000_S640000) (broadcastInDim S640000 ![] bcast_S_S640000 (constantI S_ 32 0#32))) (addi (shapeCast S640000 (extractStridedSlice S1x640000 ![0, 0] e slices_S2x640000_S1x640000_0_0) shapeCasts_S1x640000_S640000) (broadcastInDim S640000 ![] bcast_S_S640000 (constantI S_ 32 50000#32))) (shapeCast S640000 (extractStridedSlice S1x640000 ![0, 0] e slices_S2x640000_S1x640000_0_0) shapeCasts_S1x640000_S640000))))) (broadcastInDim S50000x128 ![0, 1] bcast_S50000x1_S50000x128_0_1 inv)

def rel_fl (hrel : FVec Ideal S100000x128 .f32) (e : IVec S2x640000 32) (inv : FVec Ideal S50000x1 .f32) : FVec Ideal S50000x128 .f32 :=
  mulf (F := Ideal) (Host.scatterAdd (F := Ideal) scatter_S50000x128_S640000x1_S640000x128_1_0_0_1 (broadcastInDim S50000x128 ![] bcast_S_S50000x128 (constant (F := Ideal) S_ .f32 0x00000000#32)) (broadcastInDim S640000x1 ![0] bcast_S640000_S640000x1_0 (shapeCast S640000 (extractStridedSlice S1x640000 ![1, 0] e slices_S2x640000_S1x640000_1_0) shapeCasts_S1x640000_S640000)) (Host.gather gather_S100000x128_S640000x1_S640000x128_1_0_n_n_0_1_1128 hrel (broadcastInDim S640000x1 ![0] bcast_S640000_S640000x1_0 (select (cmpi .slt (shapeCast S640000 (extractStridedSlice S1x640000 ![0, 0] e slices_S2x640000_S1x640000_0_0) shapeCasts_S1x640000_S640000) (broadcastInDim S640000 ![] bcast_S_S640000 (constantI S_ 32 0#32))) (addi (shapeCast S640000 (extractStridedSlice S1x640000 ![0, 0] e slices_S2x640000_S1x640000_0_0) shapeCasts_S1x640000_S640000) (broadcastInDim S640000 ![] bcast_S_S640000 (constantI S_ 32 100000#32))) (shapeCast S640000 (extractStridedSlice S1x640000 ![0, 0] e slices_S2x640000_S1x640000_0_0) shapeCasts_S1x640000_S640000))))) (broadcastInDim S50000x128 ![0, 1] bcast_S50000x1_S50000x128_0_1 inv)

def rel_fs (hrel : FVec Ideal S50000x128 .f32) (e : IVec S2x320000 32) (inv : FVec Ideal S50000x1 .f32) : FVec Ideal S50000x128 .f32 :=
  mulf (F := Ideal) (Host.scatterAdd (F := Ideal) scatter_S50000x128_S320000x1_S320000x128_1_0_0_1 (broadcastInDim S50000x128 ![] bcast_S_S50000x128 (constant (F := Ideal) S_ .f32 0x00000000#32)) (broadcastInDim S320000x1 ![0] bcast_S320000_S320000x1_0 (shapeCast S320000 (extractStridedSlice S1x320000 ![1, 0] e slices_S2x320000_S1x320000_1_0) shapeCasts_S1x320000_S320000)) (Host.gather gather_S50000x128_S320000x1_S320000x128_1_0_n_n_0_1_1128 hrel (broadcastInDim S320000x1 ![0] bcast_S320000_S320000x1_0 (select (cmpi .slt (shapeCast S320000 (extractStridedSlice S1x320000 ![0, 0] e slices_S2x320000_S1x320000_0_0) shapeCasts_S1x320000_S320000) (broadcastInDim S320000 ![] bcast_S_S320000 (constantI S_ 32 0#32))) (addi (shapeCast S320000 (extractStridedSlice S1x320000 ![0, 0] e slices_S2x320000_S1x320000_0_0) shapeCasts_S1x320000_S320000) (broadcastInDim S320000 ![] bcast_S_S320000 (constantI S_ 32 50000#32))) (shapeCast S320000 (extractStridedSlice S1x320000 ![0, 0] e slices_S2x320000_S1x320000_0_0) shapeCasts_S1x320000_S320000))))) (broadcastInDim S50000x128 ![0, 1] bcast_S50000x1_S50000x128_0_1 inv)

def rel_inc (hrel : FVec Ideal S20000x128 .f32) (e : IVec S2x160000 32) (inv : FVec Ideal S50000x1 .f32) : FVec Ideal S50000x128 .f32 :=
  mulf (F := Ideal) (Host.scatterAdd (F := Ideal) scatter_S50000x128_S160000x1_S160000x128_1_0_0_1 (broadcastInDim S50000x128 ![] bcast_S_S50000x128 (constant (F := Ideal) S_ .f32 0x00000000#32)) (broadcastInDim S160000x1 ![0] bcast_S160000_S160000x1_0 (shapeCast S160000 (extractStridedSlice S1x160000 ![1, 0] e slices_S2x160000_S1x160000_1_0) shapeCasts_S1x160000_S160000)) (Host.gather gather_S20000x128_S160000x1_S160000x128_1_0_n_n_0_1_1128 hrel (broadcastInDim S160000x1 ![0] bcast_S160000_S160000x1_0 (select (cmpi .slt (shapeCast S160000 (extractStridedSlice S1x160000 ![0, 0] e slices_S2x160000_S1x160000_0_0) shapeCasts_S1x160000_S160000) (broadcastInDim S160000 ![] bcast_S_S160000 (constantI S_ 32 0#32))) (addi (shapeCast S160000 (extractStridedSlice S1x160000 ![0, 0] e slices_S2x160000_S1x160000_0_0) shapeCasts_S1x160000_S160000) (broadcastInDim S160000 ![] bcast_S_S160000 (constantI S_ 32 20000#32))) (shapeCast S160000 (extractStridedSlice S1x160000 ![0, 0] e slices_S2x160000_S1x160000_0_0) shapeCasts_S1x160000_S160000))))) (broadcastInDim S50000x128 ![0, 1] bcast_S50000x1_S50000x128_0_1 inv)

/-- The nineteen argument arrays. -/
structure Args where
  a0 : FVec Ideal S50000x32 .f32
  a1 : FVec Ideal S100000x16 .f32
  a2 : FVec Ideal S50000x8 .f32
  a3 : FVec Ideal S20000x8 .f32
  a4 : IVec S2x640000 32
  a5 : IVec S2x640000 32
  a6 : IVec S2x320000 32
  a7 : IVec S2x160000 32
  a8 : FVec Ideal S32x128 .f32
  a9 : FVec Ideal S128 .f32
  a10 : FVec Ideal S16x128 .f32
  a11 : FVec Ideal S128 .f32
  a12 : FVec Ideal S8x128 .f32
  a13 : FVec Ideal S128 .f32
  a14 : FVec Ideal S8x128 .f32
  a15 : FVec Ideal S128 .f32
  a16 : FVec Ideal S3x128x128 .f32
  a17 : FVec Ideal S3x128 .f32
  a18 : FVec Ideal S3x128x128 .f32

/-- The argument arrays of a memory, on one device. -/
def argsOf (m : (ℓ : Loc nD τ sig) → Buf (Elt Ideal) ℓ) (c : Dev nD) : Args :=
  ⟨m ((c.tc : Thread nD τ).loc main_arg0),
   m ((c.tc : Thread nD τ).loc main_arg1),
   m ((c.tc : Thread nD τ).loc main_arg2),
   m ((c.tc : Thread nD τ).loc main_arg3),
   m ((c.tc : Thread nD τ).loc main_arg4),
   m ((c.tc : Thread nD τ).loc main_arg5),
   m ((c.tc : Thread nD τ).loc main_arg6),
   m ((c.tc : Thread nD τ).loc main_arg7),
   m ((c.tc : Thread nD τ).loc main_arg8),
   m ((c.tc : Thread nD τ).loc main_arg9),
   m ((c.tc : Thread nD τ).loc main_arg10),
   m ((c.tc : Thread nD τ).loc main_arg11),
   m ((c.tc : Thread nD τ).loc main_arg12),
   m ((c.tc : Thread nD τ).loc main_arg13),
   m ((c.tc : Thread nD τ).loc main_arg14),
   m ((c.tc : Thread nD τ).loc main_arg15),
   m ((c.tc : Thread nD τ).loc main_arg16),
   m ((c.tc : Thread nD τ).loc main_arg17),
   m ((c.tc : Thread nD τ).loc main_arg18)⟩

/-- The four projected inputs. -/
def h0 (a : Args) : FVec Ideal S50000x128 .f32 := Cert.Spec.lin (M := 50000) (K := 32) a.a0 a.a8 (brow a.a9)
def hl (a : Args) : FVec Ideal S100000x128 .f32 := Cert.Spec.lin (M := 100000) (K := 16) a.a1 a.a10 (brow a.a11)
def hs (a : Args) : FVec Ideal S50000x128 .f32 := Cert.Spec.lin (M := 50000) (K := 8) a.a2 a.a12 (brow a.a13)
def hj (a : Args) : FVec Ideal S20000x128 .f32 := Cert.Spec.lin (M := 20000) (K := 8) a.a3 a.a14 (brow a.a15)

/-- Layer 0. -/
def selfT0 (a : Args) (h : FVec Ideal S50000x128 .f32) : FVec Ideal S50000x128 .f32 := Cert.Spec.lin (M := 50000) (K := 128) h (sW0 a.a16) (sb0 a.a17)
def hrel0 (a : Args) (h : FVec Ideal S50000x128 .f32) : FVec Ideal S50000x128 .f32 := Cert.Spec.mm (M := 50000) (K := 128) h (rW0 a.a18)
def lrel0 (a : Args) : FVec Ideal S100000x128 .f32 := Cert.Spec.lin (M := 100000) (K := 128) (hl a) (rW0 a.a18) (brow zero128)
def srel0 (a : Args) : FVec Ideal S50000x128 .f32 := Cert.Spec.lin (M := 50000) (K := 128) (hs a) (rW0 a.a18) (brow zero128)
def jrel0 (a : Args) : FVec Ideal S20000x128 .f32 := Cert.Spec.lin (M := 20000) (K := 128) (hj a) (rW0 a.a18) (brow zero128)
def next0 (a : Args) (h : FVec Ideal S50000x128 .f32) : FVec Ideal S50000x128 .f32 :=
  Cert.Spec.comb (M := 50000) (selfT0 a h) (rel_sp (hrel0 a h) a.a4 (inv_sp a.a4)) (rel_fl (lrel0 a) a.a5 (inv_fl a.a5))
    (rel_fs (srel0 a) a.a6 (inv_fs a.a6)) (rel_inc (jrel0 a) a.a7 (inv_inc a.a7))

/-- Layer 1. -/
def selfT1 (a : Args) (h : FVec Ideal S50000x128 .f32) : FVec Ideal S50000x128 .f32 := Cert.Spec.lin (M := 50000) (K := 128) h (sW1 a.a16) (sb1 a.a17)
def hrel1 (a : Args) (h : FVec Ideal S50000x128 .f32) : FVec Ideal S50000x128 .f32 := Cert.Spec.mm (M := 50000) (K := 128) h (rW1 a.a18)
def lrel1 (a : Args) : FVec Ideal S100000x128 .f32 := Cert.Spec.lin (M := 100000) (K := 128) (hl a) (rW1 a.a18) (brow zero128)
def srel1 (a : Args) : FVec Ideal S50000x128 .f32 := Cert.Spec.lin (M := 50000) (K := 128) (hs a) (rW1 a.a18) (brow zero128)
def jrel1 (a : Args) : FVec Ideal S20000x128 .f32 := Cert.Spec.lin (M := 20000) (K := 128) (hj a) (rW1 a.a18) (brow zero128)
def next1 (a : Args) (h : FVec Ideal S50000x128 .f32) : FVec Ideal S50000x128 .f32 :=
  Cert.Spec.comb (M := 50000) (selfT1 a h) (rel_sp (hrel1 a h) a.a4 (inv_sp a.a4)) (rel_fl (lrel1 a) a.a5 (inv_fl a.a5))
    (rel_fs (srel1 a) a.a6 (inv_fs a.a6)) (rel_inc (jrel1 a) a.a7 (inv_inc a.a7))

/-- Layer 2. -/
def selfT2 (a : Args) (h : FVec Ideal S50000x128 .f32) : FVec Ideal S50000x128 .f32 := Cert.Spec.lin (M := 50000) (K := 128) h (sW2 a.a16) (sb2 a.a17)
def hrel2 (a : Args) (h : FVec Ideal S50000x128 .f32) : FVec Ideal S50000x128 .f32 := Cert.Spec.mm (M := 50000) (K := 128) h (rW2 a.a18)
def lrel2 (a : Args) : FVec Ideal S100000x128 .f32 := Cert.Spec.lin (M := 100000) (K := 128) (hl a) (rW2 a.a18) (brow zero128)
def srel2 (a : Args) : FVec Ideal S50000x128 .f32 := Cert.Spec.lin (M := 50000) (K := 128) (hs a) (rW2 a.a18) (brow zero128)
def jrel2 (a : Args) : FVec Ideal S20000x128 .f32 := Cert.Spec.lin (M := 20000) (K := 128) (hj a) (rW2 a.a18) (brow zero128)
def next2 (a : Args) (h : FVec Ideal S50000x128 .f32) : FVec Ideal S50000x128 .f32 :=
  Cert.Spec.comb (M := 50000) (selfT2 a h) (rel_sp (hrel2 a h) a.a4 (inv_sp a.a4)) (rel_fl (lrel2 a) a.a5 (inv_fl a.a5))
    (rel_fs (srel2 a) a.a6 (inv_fs a.a6)) (rel_inc (jrel2 a) a.a7 (inv_inc a.a7))

def H1 (a : Args) : FVec Ideal S50000x128 .f32 := next0 a (h0 a)
def H2 (a : Args) : FVec Ideal S50000x128 .f32 := next1 a (H1 a)
/-- The result. -/
def KVal (a : Args) : FVec Ideal S50000x128 .f32 := next2 a (H2 a)

end Cert.KernelIdeal.KVal

end
-- ==== Proof.KHost.lean ====
/-
  What a stretch of @main's host operations leaves in a buffer it writes, for ANY contents V of the buffers before the
  stretch: the stretch's operations composed (KVal's named groups) applied to V at the operands. One lemma per buffer
  that a region or a later stretch reads.
-/
import proofs.«168040_j41652592837487_1_alg».proof.Proof.Gen.KernelIdeal.Launch
import proofs.«168040_j41652592837487_1_alg».proof.Proof.KVal
import Idealize.ShloMosaic.Lib.StableHlo.Run

set_option maxRecDepth 16384

noncomputable section

namespace Cert.KernelIdeal.KHost

open Cert.KernelIdeal Cert.KernelIdeal.Gen Idealize.ShloMosaic Idealize.ShloMosaic.TcCoe Idealize.ShloMosaic.StableHlo Idealize.SL.Sem

variable (V : Valuation τ sig (Elt Ideal))

theorem host_main_v0 : StableHlo.after hostOps0 V (Proc.devRef .tc main_v0) = KVal.brow (V (Proc.devRef .tc main_arg9)) := by
  dsimp only [hostOps0]
  after_results_simp
  rfl

theorem host_main_v2 : StableHlo.after hostOps1 V (Proc.devRef .tc main_v2) = KVal.brow (V (Proc.devRef .tc main_arg11)) := by
  dsimp only [hostOps1]
  after_results_simp
  rfl

theorem host_main_v4 : StableHlo.after hostOps2 V (Proc.devRef .tc main_v4) = KVal.brow (V (Proc.devRef .tc main_arg13)) := by
  dsimp only [hostOps2]
  after_results_simp
  rfl

theorem host_main_v6 : StableHlo.after hostOps3 V (Proc.devRef .tc main_v6) = KVal.brow (V (Proc.devRef .tc main_arg15)) := by
  dsimp only [hostOps3]
  after_results_simp
  rfl

theorem host_main_v18 : StableHlo.after hostOps4 V (Proc.devRef .tc main_v18) = KVal.inv_sp (V (Proc.devRef .tc main_arg4)) := by
  dsimp only [hostOps4]
  after_results_simp
  rfl

theorem host_main_v29 : StableHlo.after hostOps4 V (Proc.devRef .tc main_v29) = KVal.inv_fl (V (Proc.devRef .tc main_arg5)) := by
  dsimp only [hostOps4]
  after_results_simp
  rfl

theorem host_main_v40 : StableHlo.after hostOps4 V (Proc.devRef .tc main_v40) = KVal.inv_fs (V (Proc.devRef .tc main_arg6)) := by
  dsimp only [hostOps4]
  after_results_simp
  rfl

theorem host_main_v51 : StableHlo.after hostOps4 V (Proc.devRef .tc main_v51) = KVal.inv_inc (V (Proc.devRef .tc main_arg7)) := by
  dsimp only [hostOps4]
  after_results_simp
  rfl

theorem host_main_v52 : StableHlo.after hostOps4 V (Proc.devRef .tc main_v52) = KVal.zero128 := by
  dsimp only [hostOps4]
  after_results_simp
  rfl

theorem host_main_v54 : StableHlo.after hostOps4 V (Proc.devRef .tc main_v54) = KVal.sW0 (V (Proc.devRef .tc main_arg16)) := by
  dsimp only [hostOps4]
  after_results_simp
  rfl

theorem host_main_v59 : StableHlo.after hostOps4 V (Proc.devRef .tc main_v59) = KVal.sb0 (V (Proc.devRef .tc main_arg17)) := by
  dsimp only [hostOps4]
  after_results_simp
  rfl

theorem host_main_v58 : StableHlo.after hostOps4 V (Proc.devRef .tc main_v58) = KVal.rW0 (V (Proc.devRef .tc main_arg18)) := by
  dsimp only [hostOps4]
  after_results_simp
  rfl

theorem host_main_v62 : StableHlo.after hostOps5 V (Proc.devRef .tc main_v62) = KVal.rW0 (V (Proc.devRef .tc main_arg18)) := by
  dsimp only [hostOps5]
  after_results_simp
  rfl

theorem host_main_v63 : StableHlo.after hostOps5 V (Proc.devRef .tc main_v63) = KVal.brow (V (Proc.devRef .tc main_v52)) := by
  dsimp only [hostOps5]
  after_results_simp
  rfl

theorem host_main_v66 : StableHlo.after hostOps6 V (Proc.devRef .tc main_v66) = KVal.rW0 (V (Proc.devRef .tc main_arg18)) := by
  dsimp only [hostOps6]
  after_results_simp
  rfl

theorem host_main_v67 : StableHlo.after hostOps6 V (Proc.devRef .tc main_v67) = KVal.brow (V (Proc.devRef .tc main_v52)) := by
  dsimp only [hostOps6]
  after_results_simp
  rfl

theorem host_main_v70 : StableHlo.after hostOps7 V (Proc.devRef .tc main_v70) = KVal.rW0 (V (Proc.devRef .tc main_arg18)) := by
  dsimp only [hostOps7]
  after_results_simp
  rfl

theorem host_main_v71 : StableHlo.after hostOps7 V (Proc.devRef .tc main_v71) = KVal.brow (V (Proc.devRef .tc main_v52)) := by
  dsimp only [hostOps7]
  after_results_simp
  rfl

theorem host_main_v88 : StableHlo.after hostOps8 V (Proc.devRef .tc main_v88) = KVal.rel_sp (V (Proc.devRef .tc main_v60_1)) (V (Proc.devRef .tc main_arg4)) (V (Proc.devRef .tc main_v18)) := by
  dsimp only [hostOps8]
  after_results_simp
  rfl

theorem host_main_v104 : StableHlo.after hostOps8 V (Proc.devRef .tc main_v104) = KVal.rel_fl (V (Proc.devRef .tc main_v64)) (V (Proc.devRef .tc main_arg5)) (V (Proc.devRef .tc main_v29)) := by
  dsimp only [hostOps8]
  after_results_simp
  rfl

theorem host_main_v120 : StableHlo.after hostOps8 V (Proc.devRef .tc main_v120) = KVal.rel_fs (V (Proc.devRef .tc main_v68)) (V (Proc.devRef .tc main_arg6)) (V (Proc.devRef .tc main_v40)) := by
  dsimp only [hostOps8]
  after_results_simp
  rfl

theorem host_main_v136 : StableHlo.after hostOps8 V (Proc.devRef .tc main_v136) = KVal.rel_inc (V (Proc.devRef .tc main_v72)) (V (Proc.devRef .tc main_arg7)) (V (Proc.devRef .tc main_v51)) := by
  dsimp only [hostOps8]
  after_results_simp
  rfl

theorem host_main_v139 : StableHlo.after hostOps9 V (Proc.devRef .tc main_v139) = KVal.sW1 (V (Proc.devRef .tc main_arg16)) := by
  dsimp only [hostOps9]
  after_results_simp
  rfl

theorem host_main_v144 : StableHlo.after hostOps9 V (Proc.devRef .tc main_v144) = KVal.sb1 (V (Proc.devRef .tc main_arg17)) := by
  dsimp only [hostOps9]
  after_results_simp
  rfl

theorem host_main_v143 : StableHlo.after hostOps9 V (Proc.devRef .tc main_v143) = KVal.rW1 (V (Proc.devRef .tc main_arg18)) := by
  dsimp only [hostOps9]
  after_results_simp
  rfl

theorem host_main_v147 : StableHlo.after hostOps10 V (Proc.devRef .tc main_v147) = KVal.rW1 (V (Proc.devRef .tc main_arg18)) := by
  dsimp only [hostOps10]
  after_results_simp
  rfl

theorem host_main_v148 : StableHlo.after hostOps10 V (Proc.devRef .tc main_v148) = KVal.brow (V (Proc.devRef .tc main_v52)) := by
  dsimp only [hostOps10]
  after_results_simp
  rfl

theorem host_main_v151 : StableHlo.after hostOps11 V (Proc.devRef .tc main_v151) = KVal.rW1 (V (Proc.devRef .tc main_arg18)) := by
  dsimp only [hostOps11]
  after_results_simp
  rfl

theorem host_main_v152 : StableHlo.after hostOps11 V (Proc.devRef .tc main_v152) = KVal.brow (V (Proc.devRef .tc main_v52)) := by
  dsimp only [hostOps11]
  after_results_simp
  rfl

theorem host_main_v155 : StableHlo.after hostOps12 V (Proc.devRef .tc main_v155) = KVal.rW1 (V (Proc.devRef .tc main_arg18)) := by
  dsimp only [hostOps12]
  after_results_simp
  rfl

theorem host_main_v156 : StableHlo.after hostOps12 V (Proc.devRef .tc main_v156) = KVal.brow (V (Proc.devRef .tc main_v52)) := by
  dsimp only [hostOps12]
  after_results_simp
  rfl

theorem host_main_v173 : StableHlo.after hostOps13 V (Proc.devRef .tc main_v173) = KVal.rel_sp (V (Proc.devRef .tc main_v145_1)) (V (Proc.devRef .tc main_arg4)) (V (Proc.devRef .tc main_v18)) := by
  dsimp only [hostOps13]
  after_results_simp
  rfl

theorem host_main_v189 : StableHlo.after hostOps13 V (Proc.devRef .tc main_v189) = KVal.rel_fl (V (Proc.devRef .tc main_v149)) (V (Proc.devRef .tc main_arg5)) (V (Proc.devRef .tc main_v29)) := by
  dsimp only [hostOps13]
  after_results_simp
  rfl

theorem host_main_v205 : StableHlo.after hostOps13 V (Proc.devRef .tc main_v205) = KVal.rel_fs (V (Proc.devRef .tc main_v153)) (V (Proc.devRef .tc main_arg6)) (V (Proc.devRef .tc main_v40)) := by
  dsimp only [hostOps13]
  after_results_simp
  rfl

theorem host_main_v221 : StableHlo.after hostOps13 V (Proc.devRef .tc main_v221) = KVal.rel_inc (V (Proc.devRef .tc main_v157)) (V (Proc.devRef .tc main_arg7)) (V (Proc.devRef .tc main_v51)) := by
  dsimp only [hostOps13]
  after_results_simp
  rfl

theorem host_main_v224 : StableHlo.after hostOps14 V (Proc.devRef .tc main_v224) = KVal.sW2 (V (Proc.devRef .tc main_arg16)) := by
  dsimp only [hostOps14]
  after_results_simp
  rfl

theorem host_main_v229 : StableHlo.after hostOps14 V (Proc.devRef .tc main_v229) = KVal.sb2 (V (Proc.devRef .tc main_arg17)) := by
  dsimp only [hostOps14]
  after_results_simp
  rfl

theorem host_main_v228 : StableHlo.after hostOps14 V (Proc.devRef .tc main_v228) = KVal.rW2 (V (Proc.devRef .tc main_arg18)) := by
  dsimp only [hostOps14]
  after_results_simp
  rfl

theorem host_main_v232 : StableHlo.after hostOps15 V (Proc.devRef .tc main_v232) = KVal.rW2 (V (Proc.devRef .tc main_arg18)) := by
  dsimp only [hostOps15]
  after_results_simp
  rfl

theorem host_main_v233 : StableHlo.after hostOps15 V (Proc.devRef .tc main_v233) = KVal.brow (V (Proc.devRef .tc main_v52)) := by
  dsimp only [hostOps15]
  after_results_simp
  rfl

theorem host_main_v236 : StableHlo.after hostOps16 V (Proc.devRef .tc main_v236) = KVal.rW2 (V (Proc.devRef .tc main_arg18)) := by
  dsimp only [hostOps16]
  after_results_simp
  rfl

theorem host_main_v237 : StableHlo.after hostOps16 V (Proc.devRef .tc main_v237) = KVal.brow (V (Proc.devRef .tc main_v52)) := by
  dsimp only [hostOps16]
  after_results_simp
  rfl

theorem host_main_v240 : StableHlo.after hostOps17 V (Proc.devRef .tc main_v240) = KVal.rW2 (V (Proc.devRef .tc main_arg18)) := by
  dsimp only [hostOps17]
  after_results_simp
  rfl

theorem host_main_v241 : StableHlo.after hostOps17 V (Proc.devRef .tc main_v241) = KVal.brow (V (Proc.devRef .tc main_v52)) := by
  dsimp only [hostOps17]
  after_results_simp
  rfl

theorem host_main_v258 : StableHlo.after hostOps18 V (Proc.devRef .tc main_v258) = KVal.rel_sp (V (Proc.devRef .tc main_v230_1)) (V (Proc.devRef .tc main_arg4)) (V (Proc.devRef .tc main_v18)) := by
  dsimp only [hostOps18]
  after_results_simp
  rfl

theorem host_main_v274 : StableHlo.after hostOps18 V (Proc.devRef .tc main_v274) = KVal.rel_fl (V (Proc.devRef .tc main_v234)) (V (Proc.devRef .tc main_arg5)) (V (Proc.devRef .tc main_v29)) := by
  dsimp only [hostOps18]
  after_results_simp
  rfl

theorem host_main_v290 : StableHlo.after hostOps18 V (Proc.devRef .tc main_v290) = KVal.rel_fs (V (Proc.devRef .tc main_v238)) (V (Proc.devRef .tc main_arg6)) (V (Proc.devRef .tc main_v40)) := by
  dsimp only [hostOps18]
  after_results_simp
  rfl

theorem host_main_v306 : StableHlo.after hostOps18 V (Proc.devRef .tc main_v306) = KVal.rel_inc (V (Proc.devRef .tc main_v242)) (V (Proc.devRef .tc main_arg7)) (V (Proc.devRef .tc main_v51)) := by
  dsimp only [hostOps18]
  after_results_simp
  rfl

end Cert.KernelIdeal.KHost

end
-- ==== Proof.KSkip.lean ====
/-
  A stretch of host operations changes only the buffers it writes. For each of @main's nineteen stretches: the list
  of the references it writes, and that any other buffer holds after the stretch what it held before it — the
  boundary valuation after the stretch read at such a reference is the one before it.
-/
import proofs.«168040_j41652592837487_1_alg».proof.Proof.Gen.KernelIdeal.Frame

set_option maxRecDepth 16384

noncomputable section

namespace Cert.KernelIdeal.KSkip

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The references stretch 0 writes. -/
def wr0 : List (Ref sig .tc) := [main_v0]
theorem hs0 (c : Dev nD) (b : Ref sig .tc) (hb : b ∉ wr0) :
    W1 m ρ c (Proc.devRef .tc b) = W0 m ρ c (Proc.devRef .tc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by subst e; decide))))

/-- The references stretch 1 writes. -/
def wr1 : List (Ref sig .tc) := [main_v2]
theorem hs1 (c : Dev nD) (b : Ref sig .tc) (hb : b ∉ wr1) :
    W3 m ρ c (Proc.devRef .tc b) = W2 m ρ c (Proc.devRef .tc b) :=
  StableHlo.after_of_forall_not_mem (b := Proc.devRef .tc b) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by subst e; decide))))

/-- The references stretch 2 writes. -/
def wr2 : List (Ref sig .tc) := [main_v4]
theorem hs2 (c : Dev nD) (b : Ref sig .tc) (hb : b ∉ wr2) :
    W5 m ρ c (Proc.devRef .tc b) = W4 m ρ c (Proc.devRef .tc b) :=
  StableHlo.after_of_forall_not_mem (b := Proc.devRef .tc b) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by subst e; decide))))

/-- The references stretch 3 writes. -/
def wr3 : List (Ref sig .tc) := [main_v6]
theorem hs3 (c : Dev nD) (b : Ref sig .tc) (hb : b ∉ wr3) :
    W7 m ρ c (Proc.devRef .tc b) = W6 m ρ c (Proc.devRef .tc b) :=
  StableHlo.after_of_forall_not_mem (b := Proc.devRef .tc b) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by subst e; decide))))

/-- The references stretch 4 writes. -/
def wr4 : List (Ref sig .tc) := [main_cst, main_v8, main_v9, main_v10, main_cst_0, main_v11, main_v12, main_v13, main_cst_1, main_v14, main_v15, main_cst_2, main_v16, main_v17, main_v18, main_cst_3, main_v19, main_v20, main_v21, main_cst_4, main_v22, main_v23, main_v24, main_cst_5, main_v25, main_v26, main_cst_6, main_v27, main_v28, main_v29, main_cst_7, main_v30, main_v31, main_v32, main_cst_8, main_v33, main_v34, main_v35, main_cst_9, main_v36, main_v37, main_cst_10, main_v38, main_v39, main_v40, main_cst_11, main_v41, main_v42, main_v43, main_cst_12, main_v44, main_v45, main_v46, main_cst_13, main_v47, main_v48, main_cst_14, main_v49, main_v50, main_v51, main_cst_15, main_v52, main_v53, main_v54, main_v55, main_v56, main_v57, main_v58, main_v59]
theorem hs4 (c : Dev nD) (b : Ref sig .tc) (hb : b ∉ wr4) :
    W9 m ρ c (Proc.devRef .tc b) = W8 m ρ c (Proc.devRef .tc b) :=
  StableHlo.after_of_forall_not_mem (b := Proc.devRef .tc b) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by subst e; decide))))

/-- The references stretch 5 writes. -/
def wr5 : List (Ref sig .tc) := [main_v61, main_v62, main_v63]
theorem hs5 (c : Dev nD) (b : Ref sig .tc) (hb : b ∉ wr5) :
    W11 m ρ c (Proc.devRef .tc b) = W10 m ρ c (Proc.devRef .tc b) :=
  StableHlo.after_of_forall_not_mem (b := Proc.devRef .tc b) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by subst e; decide))))

/-- The references stretch 6 writes. -/
def wr6 : List (Ref sig .tc) := [main_v65, main_v66, main_v67]
theorem hs6 (c : Dev nD) (b : Ref sig .tc) (hb : b ∉ wr6) :
    W13 m ρ c (Proc.devRef .tc b) = W12 m ρ c (Proc.devRef .tc b) :=
  StableHlo.after_of_forall_not_mem (b := Proc.devRef .tc b) _ _ (List.forall_iff_forall_mem.mp (by
    simp only [hostOps6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by subst e; decide))))

/-- The references stretch 7 writes. -/
def wr7 : List (Ref sig .tc) := [main_v69, main_v70, main_v71]
theorem hs7 (c : Dev nD) (b : Ref sig .tc) (hb : b ∉ wr7) :
    W15 m ρ c (Proc.devRef .tc b) = W14 m ρ c (Proc.devRef .tc b) :=
  StableHlo.after_of_forall_not_mem (b := Proc.devRef .tc b) _ _ (List.forall_iff_forall_mem.mp (by
    simp only [hostOps7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by subst e; decide))))

/-- The references stretch 8 writes. -/
def wr8 : List (Ref sig .tc) := [main_v73, main_v74, main_c, main_v75, main_v76, main_c_16, main_v77, main_v78, main_v79, main_v80, main_v81, main_v82, main_v83, main_cst_17, main_v84, main_v85, main_v86, main_v87, main_v88, main_v89, main_v90, main_c_18, main_v91, main_v92, main_c_19, main_v93, main_v94, main_v95, main_v96, main_v97, main_v98, main_v99, main_cst_20, main_v100, main_v101, main_v102, main_v103, main_v104, main_v105, main_v106, main_c_21, main_v107, main_v108, main_c_22, main_v109, main_v110, main_v111, main_v112, main_v113, main_v114, main_v115, main_cst_23, main_v116, main_v117, main_v118, main_v119, main_v120, main_v121, main_v122, main_c_24, main_v123, main_v124, main_c_25, main_v125, main_v126, main_v127, main_v128, main_v129, main_v130, main_v131, main_cst_26, main_v132, main_v133, main_v134, main_v135, main_v136]
theorem hs8 (c : Dev nD) (b : Ref sig .tc) (hb : b ∉ wr8) :
    W17 m ρ c (Proc.devRef .tc b) = W16 m ρ c (Proc.devRef .tc b) :=
  StableHlo.after_of_forall_not_mem (b := Proc.devRef .tc b) _ _ (List.forall_iff_forall_mem.mp (by
    simp only [hostOps8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by subst e; decide))))

/-- The references stretch 9 writes. -/
def wr9 : List (Ref sig .tc) := [main_v138, main_v139, main_v140, main_v141, main_v142, main_v143, main_v144]
theorem hs9 (c : Dev nD) (b : Ref sig .tc) (hb : b ∉ wr9) :
    W19 m ρ c (Proc.devRef .tc b) = W18 m ρ c (Proc.devRef .tc b) :=
  StableHlo.after_of_forall_not_mem (b := Proc.devRef .tc b) _ _ (List.forall_iff_forall_mem.mp (by
    simp only [hostOps9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by subst e; decide))))

/-- The references stretch 10 writes. -/
def wr10 : List (Ref sig .tc) := [main_v146, main_v147, main_v148]
theorem hs10 (c : Dev nD) (b : Ref sig .tc) (hb : b ∉ wr10) :
    W21 m ρ c (Proc.devRef .tc b) = W20 m ρ c (Proc.devRef .tc b) :=
  StableHlo.after_of_forall_not_mem (b := Proc.devRef .tc b) _ _ (List.forall_iff_forall_mem.mp (by
    simp only [hostOps10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by subst e; decide))))

/-- The references stretch 11 writes. -/
def wr11 : List (Ref sig .tc) := [main_v150, main_v151, main_v152]
theorem hs11 (c : Dev nD) (b : Ref sig .tc) (hb : b ∉ wr11) :
    W23 m ρ c (Proc.devRef .tc b) = W22 m ρ c (Proc.devRef .tc b) :=
  StableHlo.after_of_forall_not_mem (b := Proc.devRef .tc b) _ _ (List.forall_iff_forall_mem.mp (by
    simp only [hostOps11, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by subst e; decide))))

/-- The references stretch 12 writes. -/
def wr12 : List (Ref sig .tc) := [main_v154, main_v155, main_v156]
theorem hs12 (c : Dev nD) (b : Ref sig .tc) (hb : b ∉ wr12) :
    W25 m ρ c (Proc.devRef .tc b) = W24 m ρ c (Proc.devRef .tc b) :=
  StableHlo.after_of_forall_not_mem (b := Proc.devRef .tc b) _ _ (List.forall_iff_forall_mem.mp (by
    simp only [hostOps12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by subst e; decide))))

/-- The references stretch 13 writes. -/
def wr13 : List (Ref sig .tc) := [main_v158, main_v159, main_c_27, main_v160, main_v161, main_c_28, main_v162, main_v163, main_v164, main_v165, main_v166, main_v167, main_v168, main_cst_29, main_v169, main_v170, main_v171, main_v172, main_v173, main_v174, main_v175, main_c_30, main_v176, main_v177, main_c_31, main_v178, main_v179, main_v180, main_v181, main_v182, main_v183, main_v184, main_cst_32, main_v185, main_v186, main_v187, main_v188, main_v189, main_v190, main_v191, main_c_33, main_v192, main_v193, main_c_34, main_v194, main_v195, main_v196, main_v197, main_v198, main_v199, main_v200, main_cst_35, main_v201, main_v202, main_v203, main_v204, main_v205, main_v206, main_v207, main_c_36, main_v208, main_v209, main_c_37, main_v210, main_v211, main_v212, main_v213, main_v214, main_v215, main_v216, main_cst_38, main_v217, main_v218, main_v219, main_v220, main_v221]
theorem hs13 (c : Dev nD) (b : Ref sig .tc) (hb : b ∉ wr13) :
    W27 m ρ c (Proc.devRef .tc b) = W26 m ρ c (Proc.devRef .tc b) :=
  StableHlo.after_of_forall_not_mem (b := Proc.devRef .tc b) _ _ (List.forall_iff_forall_mem.mp (by
    simp only [hostOps13, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by subst e; decide))))

/-- The references stretch 14 writes. -/
def wr14 : List (Ref sig .tc) := [main_v223, main_v224, main_v225, main_v226, main_v227, main_v228, main_v229]
theorem hs14 (c : Dev nD) (b : Ref sig .tc) (hb : b ∉ wr14) :
    W29 m ρ c (Proc.devRef .tc b) = W28 m ρ c (Proc.devRef .tc b) :=
  StableHlo.after_of_forall_not_mem (b := Proc.devRef .tc b) _ _ (List.forall_iff_forall_mem.mp (by
    simp only [hostOps14, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by subst e; decide))))

/-- The references stretch 15 writes. -/
def wr15 : List (Ref sig .tc) := [main_v231, main_v232, main_v233]
theorem hs15 (c : Dev nD) (b : Ref sig .tc) (hb : b ∉ wr15) :
    W31 m ρ c (Proc.devRef .tc b) = W30 m ρ c (Proc.devRef .tc b) :=
  StableHlo.after_of_forall_not_mem (b := Proc.devRef .tc b) _ _ (List.forall_iff_forall_mem.mp (by
    simp only [hostOps15, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by subst e; decide))))

/-- The references stretch 16 writes. -/
def wr16 : List (Ref sig .tc) := [main_v235, main_v236, main_v237]
theorem hs16 (c : Dev nD) (b : Ref sig .tc) (hb : b ∉ wr16) :
    W33 m ρ c (Proc.devRef .tc b) = W32 m ρ c (Proc.devRef .tc b) :=
  StableHlo.after_of_forall_not_mem (b := Proc.devRef .tc b) _ _ (List.forall_iff_forall_mem.mp (by
    simp only [hostOps16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by subst e; decide))))

/-- The references stretch 17 writes. -/
def wr17 : List (Ref sig .tc) := [main_v239, main_v240, main_v241]
theorem hs17 (c : Dev nD) (b : Ref sig .tc) (hb : b ∉ wr17) :
    W35 m ρ c (Proc.devRef .tc b) = W34 m ρ c (Proc.devRef .tc b) :=
  StableHlo.after_of_forall_not_mem (b := Proc.devRef .tc b) _ _ (List.forall_iff_forall_mem.mp (by
    simp only [hostOps17, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by subst e; decide))))

/-- The references stretch 18 writes. -/
def wr18 : List (Ref sig .tc) := [main_v243, main_v244, main_c_39, main_v245, main_v246, main_c_40, main_v247, main_v248, main_v249, main_v250, main_v251, main_v252, main_v253, main_cst_41, main_v254, main_v255, main_v256, main_v257, main_v258, main_v259, main_v260, main_c_42, main_v261, main_v262, main_c_43, main_v263, main_v264, main_v265, main_v266, main_v267, main_v268, main_v269, main_cst_44, main_v270, main_v271, main_v272, main_v273, main_v274, main_v275, main_v276, main_c_45, main_v277, main_v278, main_c_46, main_v279, main_v280, main_v281, main_v282, main_v283, main_v284, main_v285, main_cst_47, main_v286, main_v287, main_v288, main_v289, main_v290, main_v291, main_v292, main_c_48, main_v293, main_v294, main_c_49, main_v295, main_v296, main_v297, main_v298, main_v299, main_v300, main_v301, main_cst_50, main_v302, main_v303, main_v304, main_v305, main_v306]
theorem hs18 (c : Dev nD) (b : Ref sig .tc) (hb : b ∉ wr18) :
    W37 m ρ c (Proc.devRef .tc b) = W36 m ρ c (Proc.devRef .tc b) :=
  StableHlo.after_of_forall_not_mem (b := Proc.devRef .tc b) _ _ (List.forall_iff_forall_mem.mp (by
    simp only [hostOps18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by subst e; decide))))

end Cert.KernelIdeal.KSkip

end
-- ==== Proof.KWalkA.lean ====
/-
  Walks of one buffer back through the boundaries of @main: a buffer that no stretch and no region writes between two
  boundaries holds at the later one what it held at the earlier one. One step per boundary crossed (a region leaves
  every buffer that is not one of its arrays, and leaves its own input arrays as it found them; a stretch leaves
  every buffer it does not write).
-/
import proofs.«168040_j41652592837487_1_alg».proof.Proof.KSkip

set_option maxRecDepth 16384

noncomputable section

namespace Cert.KernelIdeal.KWalk

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem wk_main_arg0_1 (c : Dev nD) : W1 m ρ c (Proc.devRef .tc main_arg0) = W0 m ρ c (Proc.devRef .tc main_arg0) :=
  (KSkip.hs0 m ρ c main_arg0 (by decide))

theorem wk_main_arg1_3 (c : Dev nD) : W3 m ρ c (Proc.devRef .tc main_arg1) = W0 m ρ c (Proc.devRef .tc main_arg1) :=
  ((KSkip.hs1 m ρ c main_arg1 (by decide)).trans ((W2_of_ne m ρ c main_arg1 (by decide)).trans (KSkip.hs0 m ρ c main_arg1 (by decide))))

theorem wk_main_arg10_3 (c : Dev nD) : W3 m ρ c (Proc.devRef .tc main_arg10) = W0 m ρ c (Proc.devRef .tc main_arg10) :=
  ((KSkip.hs1 m ρ c main_arg10 (by decide)).trans ((W2_of_ne m ρ c main_arg10 (by decide)).trans (KSkip.hs0 m ρ c main_arg10 (by decide))))

theorem wk_main_arg11_2 (c : Dev nD) : W2 m ρ c (Proc.devRef .tc main_arg11) = W0 m ρ c (Proc.devRef .tc main_arg11) :=
  ((W2_of_ne m ρ c main_arg11 (by decide)).trans (KSkip.hs0 m ρ c main_arg11 (by decide)))

theorem wk_main_arg12_5 (c : Dev nD) : W5 m ρ c (Proc.devRef .tc main_arg12) = W0 m ρ c (Proc.devRef .tc main_arg12) :=
  ((KSkip.hs2 m ρ c main_arg12 (by decide)).trans ((W4_of_ne m ρ c main_arg12 (by decide)).trans ((KSkip.hs1 m ρ c main_arg12 (by decide)).trans ((W2_of_ne m ρ c main_arg12 (by decide)).trans (KSkip.hs0 m ρ c main_arg12 (by decide))))))

theorem wk_main_arg13_4 (c : Dev nD) : W4 m ρ c (Proc.devRef .tc main_arg13) = W0 m ρ c (Proc.devRef .tc main_arg13) :=
  ((W4_of_ne m ρ c main_arg13 (by decide)).trans ((KSkip.hs1 m ρ c main_arg13 (by decide)).trans ((W2_of_ne m ρ c main_arg13 (by decide)).trans (KSkip.hs0 m ρ c main_arg13 (by decide)))))

theorem wk_main_arg14_7 (c : Dev nD) : W7 m ρ c (Proc.devRef .tc main_arg14) = W0 m ρ c (Proc.devRef .tc main_arg14) :=
  ((KSkip.hs3 m ρ c main_arg14 (by decide)).trans ((W6_of_ne m ρ c main_arg14 (by decide)).trans ((KSkip.hs2 m ρ c main_arg14 (by decide)).trans ((W4_of_ne m ρ c main_arg14 (by decide)).trans ((KSkip.hs1 m ρ c main_arg14 (by decide)).trans ((W2_of_ne m ρ c main_arg14 (by decide)).trans (KSkip.hs0 m ρ c main_arg14 (by decide))))))))

theorem wk_main_arg15_6 (c : Dev nD) : W6 m ρ c (Proc.devRef .tc main_arg15) = W0 m ρ c (Proc.devRef .tc main_arg15) :=
  ((W6_of_ne m ρ c main_arg15 (by decide)).trans ((KSkip.hs2 m ρ c main_arg15 (by decide)).trans ((W4_of_ne m ρ c main_arg15 (by decide)).trans ((KSkip.hs1 m ρ c main_arg15 (by decide)).trans ((W2_of_ne m ρ c main_arg15 (by decide)).trans (KSkip.hs0 m ρ c main_arg15 (by decide)))))))

theorem wk_main_arg2_5 (c : Dev nD) : W5 m ρ c (Proc.devRef .tc main_arg2) = W0 m ρ c (Proc.devRef .tc main_arg2) :=
  ((KSkip.hs2 m ρ c main_arg2 (by decide)).trans ((W4_of_ne m ρ c main_arg2 (by decide)).trans ((KSkip.hs1 m ρ c main_arg2 (by decide)).trans ((W2_of_ne m ρ c main_arg2 (by decide)).trans (KSkip.hs0 m ρ c main_arg2 (by decide))))))

theorem wk_main_arg3_7 (c : Dev nD) : W7 m ρ c (Proc.devRef .tc main_arg3) = W0 m ρ c (Proc.devRef .tc main_arg3) :=
  ((KSkip.hs3 m ρ c main_arg3 (by decide)).trans ((W6_of_ne m ρ c main_arg3 (by decide)).trans ((KSkip.hs2 m ρ c main_arg3 (by decide)).trans ((W4_of_ne m ρ c main_arg3 (by decide)).trans ((KSkip.hs1 m ρ c main_arg3 (by decide)).trans ((W2_of_ne m ρ c main_arg3 (by decide)).trans (KSkip.hs0 m ρ c main_arg3 (by decide))))))))

theorem wk_main_arg8_1 (c : Dev nD) : W1 m ρ c (Proc.devRef .tc main_arg8) = W0 m ρ c (Proc.devRef .tc main_arg8) :=
  (KSkip.hs0 m ρ c main_arg8 (by decide))

end Cert.KernelIdeal.KWalk

end
-- ==== Proof.KWalkE.lean ====
/-
  Walks of one buffer back through the boundaries of @main: a buffer that no stretch and no region writes between two
  boundaries holds at the later one what it held at the earlier one. One step per boundary crossed (a region leaves
  every buffer that is not one of its arrays, and leaves its own input arrays as it found them; a stretch leaves
  every buffer it does not write).
-/
import proofs.«168040_j41652592837487_1_alg».proof.Proof.KSkip

set_option maxRecDepth 16384

noncomputable section

namespace Cert.KernelIdeal.KWalk

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem wk_main_arg4_8 (c : Dev nD) : W8 m ρ c (Proc.devRef .tc main_arg4) = W0 m ρ c (Proc.devRef .tc main_arg4) :=
  ((W8_of_ne m ρ c main_arg4 (by decide)).trans ((KSkip.hs3 m ρ c main_arg4 (by decide)).trans ((W6_of_ne m ρ c main_arg4 (by decide)).trans ((KSkip.hs2 m ρ c main_arg4 (by decide)).trans ((W4_of_ne m ρ c main_arg4 (by decide)).trans ((KSkip.hs1 m ρ c main_arg4 (by decide)).trans ((W2_of_ne m ρ c main_arg4 (by decide)).trans (KSkip.hs0 m ρ c main_arg4 (by decide)))))))))

theorem wk_main_arg4_16 (c : Dev nD) : W16 m ρ c (Proc.devRef .tc main_arg4) = W0 m ρ c (Proc.devRef .tc main_arg4) :=
  ((W16_of_ne m ρ c main_arg4 (by decide)).trans ((KSkip.hs7 m ρ c main_arg4 (by decide)).trans ((W14_of_ne m ρ c main_arg4 (by decide)).trans ((KSkip.hs6 m ρ c main_arg4 (by decide)).trans ((W12_of_ne m ρ c main_arg4 (by decide)).trans ((KSkip.hs5 m ρ c main_arg4 (by decide)).trans ((W10_of_ne m ρ c main_arg4 (by decide)).trans ((KSkip.hs4 m ρ c main_arg4 (by decide)).trans (wk_main_arg4_8 m ρ c)))))))))

theorem wk_main_arg4_26 (c : Dev nD) : W26 m ρ c (Proc.devRef .tc main_arg4) = W0 m ρ c (Proc.devRef .tc main_arg4) :=
  ((W26_of_ne m ρ c main_arg4 (by decide)).trans ((KSkip.hs12 m ρ c main_arg4 (by decide)).trans ((W24_of_ne m ρ c main_arg4 (by decide)).trans ((KSkip.hs11 m ρ c main_arg4 (by decide)).trans ((W22_of_ne m ρ c main_arg4 (by decide)).trans ((KSkip.hs10 m ρ c main_arg4 (by decide)).trans ((W20_of_ne m ρ c main_arg4 (by decide)).trans ((KSkip.hs9 m ρ c main_arg4 (by decide)).trans ((W18_of_ne m ρ c main_arg4 (by decide)).trans ((KSkip.hs8 m ρ c main_arg4 (by decide)).trans (wk_main_arg4_16 m ρ c)))))))))))

theorem wk_main_arg4_36 (c : Dev nD) : W36 m ρ c (Proc.devRef .tc main_arg4) = W0 m ρ c (Proc.devRef .tc main_arg4) :=
  ((W36_of_ne m ρ c main_arg4 (by decide)).trans ((KSkip.hs17 m ρ c main_arg4 (by decide)).trans ((W34_of_ne m ρ c main_arg4 (by decide)).trans ((KSkip.hs16 m ρ c main_arg4 (by decide)).trans ((W32_of_ne m ρ c main_arg4 (by decide)).trans ((KSkip.hs15 m ρ c main_arg4 (by decide)).trans ((W30_of_ne m ρ c main_arg4 (by decide)).trans ((KSkip.hs14 m ρ c main_arg4 (by decide)).trans ((W28_of_ne m ρ c main_arg4 (by decide)).trans ((KSkip.hs13 m ρ c main_arg4 (by decide)).trans (wk_main_arg4_26 m ρ c)))))))))))

theorem wk_main_arg5_8 (c : Dev nD) : W8 m ρ c (Proc.devRef .tc main_arg5) = W0 m ρ c (Proc.devRef .tc main_arg5) :=
  ((W8_of_ne m ρ c main_arg5 (by decide)).trans ((KSkip.hs3 m ρ c main_arg5 (by decide)).trans ((W6_of_ne m ρ c main_arg5 (by decide)).trans ((KSkip.hs2 m ρ c main_arg5 (by decide)).trans ((W4_of_ne m ρ c main_arg5 (by decide)).trans ((KSkip.hs1 m ρ c main_arg5 (by decide)).trans ((W2_of_ne m ρ c main_arg5 (by decide)).trans (KSkip.hs0 m ρ c main_arg5 (by decide)))))))))

theorem wk_main_arg5_16 (c : Dev nD) : W16 m ρ c (Proc.devRef .tc main_arg5) = W0 m ρ c (Proc.devRef .tc main_arg5) :=
  ((W16_of_ne m ρ c main_arg5 (by decide)).trans ((KSkip.hs7 m ρ c main_arg5 (by decide)).trans ((W14_of_ne m ρ c main_arg5 (by decide)).trans ((KSkip.hs6 m ρ c main_arg5 (by decide)).trans ((W12_of_ne m ρ c main_arg5 (by decide)).trans ((KSkip.hs5 m ρ c main_arg5 (by decide)).trans ((W10_of_ne m ρ c main_arg5 (by decide)).trans ((KSkip.hs4 m ρ c main_arg5 (by decide)).trans (wk_main_arg5_8 m ρ c)))))))))

theorem wk_main_arg5_26 (c : Dev nD) : W26 m ρ c (Proc.devRef .tc main_arg5) = W0 m ρ c (Proc.devRef .tc main_arg5) :=
  ((W26_of_ne m ρ c main_arg5 (by decide)).trans ((KSkip.hs12 m ρ c main_arg5 (by decide)).trans ((W24_of_ne m ρ c main_arg5 (by decide)).trans ((KSkip.hs11 m ρ c main_arg5 (by decide)).trans ((W22_of_ne m ρ c main_arg5 (by decide)).trans ((KSkip.hs10 m ρ c main_arg5 (by decide)).trans ((W20_of_ne m ρ c main_arg5 (by decide)).trans ((KSkip.hs9 m ρ c main_arg5 (by decide)).trans ((W18_of_ne m ρ c main_arg5 (by decide)).trans ((KSkip.hs8 m ρ c main_arg5 (by decide)).trans (wk_main_arg5_16 m ρ c)))))))))))

theorem wk_main_arg5_36 (c : Dev nD) : W36 m ρ c (Proc.devRef .tc main_arg5) = W0 m ρ c (Proc.devRef .tc main_arg5) :=
  ((W36_of_ne m ρ c main_arg5 (by decide)).trans ((KSkip.hs17 m ρ c main_arg5 (by decide)).trans ((W34_of_ne m ρ c main_arg5 (by decide)).trans ((KSkip.hs16 m ρ c main_arg5 (by decide)).trans ((W32_of_ne m ρ c main_arg5 (by decide)).trans ((KSkip.hs15 m ρ c main_arg5 (by decide)).trans ((W30_of_ne m ρ c main_arg5 (by decide)).trans ((KSkip.hs14 m ρ c main_arg5 (by decide)).trans ((W28_of_ne m ρ c main_arg5 (by decide)).trans ((KSkip.hs13 m ρ c main_arg5 (by decide)).trans (wk_main_arg5_26 m ρ c)))))))))))

theorem wk_main_arg6_8 (c : Dev nD) : W8 m ρ c (Proc.devRef .tc main_arg6) = W0 m ρ c (Proc.devRef .tc main_arg6) :=
  ((W8_of_ne m ρ c main_arg6 (by decide)).trans ((KSkip.hs3 m ρ c main_arg6 (by decide)).trans ((W6_of_ne m ρ c main_arg6 (by decide)).trans ((KSkip.hs2 m ρ c main_arg6 (by decide)).trans ((W4_of_ne m ρ c main_arg6 (by decide)).trans ((KSkip.hs1 m ρ c main_arg6 (by decide)).trans ((W2_of_ne m ρ c main_arg6 (by decide)).trans (KSkip.hs0 m ρ c main_arg6 (by decide)))))))))

theorem wk_main_arg6_16 (c : Dev nD) : W16 m ρ c (Proc.devRef .tc main_arg6) = W0 m ρ c (Proc.devRef .tc main_arg6) :=
  ((W16_of_ne m ρ c main_arg6 (by decide)).trans ((KSkip.hs7 m ρ c main_arg6 (by decide)).trans ((W14_of_ne m ρ c main_arg6 (by decide)).trans ((KSkip.hs6 m ρ c main_arg6 (by decide)).trans ((W12_of_ne m ρ c main_arg6 (by decide)).trans ((KSkip.hs5 m ρ c main_arg6 (by decide)).trans ((W10_of_ne m ρ c main_arg6 (by decide)).trans ((KSkip.hs4 m ρ c main_arg6 (by decide)).trans (wk_main_arg6_8 m ρ c)))))))))

theorem wk_main_arg6_26 (c : Dev nD) : W26 m ρ c (Proc.devRef .tc main_arg6) = W0 m ρ c (Proc.devRef .tc main_arg6) :=
  ((W26_of_ne m ρ c main_arg6 (by decide)).trans ((KSkip.hs12 m ρ c main_arg6 (by decide)).trans ((W24_of_ne m ρ c main_arg6 (by decide)).trans ((KSkip.hs11 m ρ c main_arg6 (by decide)).trans ((W22_of_ne m ρ c main_arg6 (by decide)).trans ((KSkip.hs10 m ρ c main_arg6 (by decide)).trans ((W20_of_ne m ρ c main_arg6 (by decide)).trans ((KSkip.hs9 m ρ c main_arg6 (by decide)).trans ((W18_of_ne m ρ c main_arg6 (by decide)).trans ((KSkip.hs8 m ρ c main_arg6 (by decide)).trans (wk_main_arg6_16 m ρ c)))))))))))

theorem wk_main_arg6_36 (c : Dev nD) : W36 m ρ c (Proc.devRef .tc main_arg6) = W0 m ρ c (Proc.devRef .tc main_arg6) :=
  ((W36_of_ne m ρ c main_arg6 (by decide)).trans ((KSkip.hs17 m ρ c main_arg6 (by decide)).trans ((W34_of_ne m ρ c main_arg6 (by decide)).trans ((KSkip.hs16 m ρ c main_arg6 (by decide)).trans ((W32_of_ne m ρ c main_arg6 (by decide)).trans ((KSkip.hs15 m ρ c main_arg6 (by decide)).trans ((W30_of_ne m ρ c main_arg6 (by decide)).trans ((KSkip.hs14 m ρ c main_arg6 (by decide)).trans ((W28_of_ne m ρ c main_arg6 (by decide)).trans ((KSkip.hs13 m ρ c main_arg6 (by decide)).trans (wk_main_arg6_26 m ρ c)))))))))))

theorem wk_main_arg7_8 (c : Dev nD) : W8 m ρ c (Proc.devRef .tc main_arg7) = W0 m ρ c (Proc.devRef .tc main_arg7) :=
  ((W8_of_ne m ρ c main_arg7 (by decide)).trans ((KSkip.hs3 m ρ c main_arg7 (by decide)).trans ((W6_of_ne m ρ c main_arg7 (by decide)).trans ((KSkip.hs2 m ρ c main_arg7 (by decide)).trans ((W4_of_ne m ρ c main_arg7 (by decide)).trans ((KSkip.hs1 m ρ c main_arg7 (by decide)).trans ((W2_of_ne m ρ c main_arg7 (by decide)).trans (KSkip.hs0 m ρ c main_arg7 (by decide)))))))))

theorem wk_main_arg7_16 (c : Dev nD) : W16 m ρ c (Proc.devRef .tc main_arg7) = W0 m ρ c (Proc.devRef .tc main_arg7) :=
  ((W16_of_ne m ρ c main_arg7 (by decide)).trans ((KSkip.hs7 m ρ c main_arg7 (by decide)).trans ((W14_of_ne m ρ c main_arg7 (by decide)).trans ((KSkip.hs6 m ρ c main_arg7 (by decide)).trans ((W12_of_ne m ρ c main_arg7 (by decide)).trans ((KSkip.hs5 m ρ c main_arg7 (by decide)).trans ((W10_of_ne m ρ c main_arg7 (by decide)).trans ((KSkip.hs4 m ρ c main_arg7 (by decide)).trans (wk_main_arg7_8 m ρ c)))))))))

theorem wk_main_arg7_26 (c : Dev nD) : W26 m ρ c (Proc.devRef .tc main_arg7) = W0 m ρ c (Proc.devRef .tc main_arg7) :=
  ((W26_of_ne m ρ c main_arg7 (by decide)).trans ((KSkip.hs12 m ρ c main_arg7 (by decide)).trans ((W24_of_ne m ρ c main_arg7 (by decide)).trans ((KSkip.hs11 m ρ c main_arg7 (by decide)).trans ((W22_of_ne m ρ c main_arg7 (by decide)).trans ((KSkip.hs10 m ρ c main_arg7 (by decide)).trans ((W20_of_ne m ρ c main_arg7 (by decide)).trans ((KSkip.hs9 m ρ c main_arg7 (by decide)).trans ((W18_of_ne m ρ c main_arg7 (by decide)).trans ((KSkip.hs8 m ρ c main_arg7 (by decide)).trans (wk_main_arg7_16 m ρ c)))))))))))

theorem wk_main_arg7_36 (c : Dev nD) : W36 m ρ c (Proc.devRef .tc main_arg7) = W0 m ρ c (Proc.devRef .tc main_arg7) :=
  ((W36_of_ne m ρ c main_arg7 (by decide)).trans ((KSkip.hs17 m ρ c main_arg7 (by decide)).trans ((W34_of_ne m ρ c main_arg7 (by decide)).trans ((KSkip.hs16 m ρ c main_arg7 (by decide)).trans ((W32_of_ne m ρ c main_arg7 (by decide)).trans ((KSkip.hs15 m ρ c main_arg7 (by decide)).trans ((W30_of_ne m ρ c main_arg7 (by decide)).trans ((KSkip.hs14 m ρ c main_arg7 (by decide)).trans ((W28_of_ne m ρ c main_arg7 (by decide)).trans ((KSkip.hs13 m ρ c main_arg7 (by decide)).trans (wk_main_arg7_26 m ρ c)))))))))))

end Cert.KernelIdeal.KWalk

end
-- ==== Proof.KWalkW.lean ====
/-
  Walks of one buffer back through the boundaries of @main: a buffer that no stretch and no region writes between two
  boundaries holds at the later one what it held at the earlier one. One step per boundary crossed (a region leaves
  every buffer that is not one of its arrays, and leaves its own input arrays as it found them; a stretch leaves
  every buffer it does not write).
-/
import proofs.«168040_j41652592837487_1_alg».proof.Proof.KSkip

set_option maxRecDepth 16384

noncomputable section

namespace Cert.KernelIdeal.KWalk

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem wk_main_arg16_8 (c : Dev nD) : W8 m ρ c (Proc.devRef .tc main_arg16) = W0 m ρ c (Proc.devRef .tc main_arg16) :=
  ((W8_of_ne m ρ c main_arg16 (by decide)).trans ((KSkip.hs3 m ρ c main_arg16 (by decide)).trans ((W6_of_ne m ρ c main_arg16 (by decide)).trans ((KSkip.hs2 m ρ c main_arg16 (by decide)).trans ((W4_of_ne m ρ c main_arg16 (by decide)).trans ((KSkip.hs1 m ρ c main_arg16 (by decide)).trans ((W2_of_ne m ρ c main_arg16 (by decide)).trans (KSkip.hs0 m ρ c main_arg16 (by decide)))))))))

theorem wk_main_arg16_18 (c : Dev nD) : W18 m ρ c (Proc.devRef .tc main_arg16) = W0 m ρ c (Proc.devRef .tc main_arg16) :=
  ((W18_of_ne m ρ c main_arg16 (by decide)).trans ((KSkip.hs8 m ρ c main_arg16 (by decide)).trans ((W16_of_ne m ρ c main_arg16 (by decide)).trans ((KSkip.hs7 m ρ c main_arg16 (by decide)).trans ((W14_of_ne m ρ c main_arg16 (by decide)).trans ((KSkip.hs6 m ρ c main_arg16 (by decide)).trans ((W12_of_ne m ρ c main_arg16 (by decide)).trans ((KSkip.hs5 m ρ c main_arg16 (by decide)).trans ((W10_of_ne m ρ c main_arg16 (by decide)).trans ((KSkip.hs4 m ρ c main_arg16 (by decide)).trans (wk_main_arg16_8 m ρ c)))))))))))

theorem wk_main_arg16_28 (c : Dev nD) : W28 m ρ c (Proc.devRef .tc main_arg16) = W0 m ρ c (Proc.devRef .tc main_arg16) :=
  ((W28_of_ne m ρ c main_arg16 (by decide)).trans ((KSkip.hs13 m ρ c main_arg16 (by decide)).trans ((W26_of_ne m ρ c main_arg16 (by decide)).trans ((KSkip.hs12 m ρ c main_arg16 (by decide)).trans ((W24_of_ne m ρ c main_arg16 (by decide)).trans ((KSkip.hs11 m ρ c main_arg16 (by decide)).trans ((W22_of_ne m ρ c main_arg16 (by decide)).trans ((KSkip.hs10 m ρ c main_arg16 (by decide)).trans ((W20_of_ne m ρ c main_arg16 (by decide)).trans ((KSkip.hs9 m ρ c main_arg16 (by decide)).trans (wk_main_arg16_18 m ρ c)))))))))))

theorem wk_main_arg17_8 (c : Dev nD) : W8 m ρ c (Proc.devRef .tc main_arg17) = W0 m ρ c (Proc.devRef .tc main_arg17) :=
  ((W8_of_ne m ρ c main_arg17 (by decide)).trans ((KSkip.hs3 m ρ c main_arg17 (by decide)).trans ((W6_of_ne m ρ c main_arg17 (by decide)).trans ((KSkip.hs2 m ρ c main_arg17 (by decide)).trans ((W4_of_ne m ρ c main_arg17 (by decide)).trans ((KSkip.hs1 m ρ c main_arg17 (by decide)).trans ((W2_of_ne m ρ c main_arg17 (by decide)).trans (KSkip.hs0 m ρ c main_arg17 (by decide)))))))))

theorem wk_main_arg17_18 (c : Dev nD) : W18 m ρ c (Proc.devRef .tc main_arg17) = W0 m ρ c (Proc.devRef .tc main_arg17) :=
  ((W18_of_ne m ρ c main_arg17 (by decide)).trans ((KSkip.hs8 m ρ c main_arg17 (by decide)).trans ((W16_of_ne m ρ c main_arg17 (by decide)).trans ((KSkip.hs7 m ρ c main_arg17 (by decide)).trans ((W14_of_ne m ρ c main_arg17 (by decide)).trans ((KSkip.hs6 m ρ c main_arg17 (by decide)).trans ((W12_of_ne m ρ c main_arg17 (by decide)).trans ((KSkip.hs5 m ρ c main_arg17 (by decide)).trans ((W10_of_ne m ρ c main_arg17 (by decide)).trans ((KSkip.hs4 m ρ c main_arg17 (by decide)).trans (wk_main_arg17_8 m ρ c)))))))))))

theorem wk_main_arg17_28 (c : Dev nD) : W28 m ρ c (Proc.devRef .tc main_arg17) = W0 m ρ c (Proc.devRef .tc main_arg17) :=
  ((W28_of_ne m ρ c main_arg17 (by decide)).trans ((KSkip.hs13 m ρ c main_arg17 (by decide)).trans ((W26_of_ne m ρ c main_arg17 (by decide)).trans ((KSkip.hs12 m ρ c main_arg17 (by decide)).trans ((W24_of_ne m ρ c main_arg17 (by decide)).trans ((KSkip.hs11 m ρ c main_arg17 (by decide)).trans ((W22_of_ne m ρ c main_arg17 (by decide)).trans ((KSkip.hs10 m ρ c main_arg17 (by decide)).trans ((W20_of_ne m ρ c main_arg17 (by decide)).trans ((KSkip.hs9 m ρ c main_arg17 (by decide)).trans (wk_main_arg17_18 m ρ c)))))))))))

theorem wk_main_arg18_8 (c : Dev nD) : W8 m ρ c (Proc.devRef .tc main_arg18) = W0 m ρ c (Proc.devRef .tc main_arg18) :=
  ((W8_of_ne m ρ c main_arg18 (by decide)).trans ((KSkip.hs3 m ρ c main_arg18 (by decide)).trans ((W6_of_ne m ρ c main_arg18 (by decide)).trans ((KSkip.hs2 m ρ c main_arg18 (by decide)).trans ((W4_of_ne m ρ c main_arg18 (by decide)).trans ((KSkip.hs1 m ρ c main_arg18 (by decide)).trans ((W2_of_ne m ρ c main_arg18 (by decide)).trans (KSkip.hs0 m ρ c main_arg18 (by decide)))))))))

theorem wk_main_arg18_10 (c : Dev nD) : W10 m ρ c (Proc.devRef .tc main_arg18) = W0 m ρ c (Proc.devRef .tc main_arg18) :=
  ((W10_of_ne m ρ c main_arg18 (by decide)).trans ((KSkip.hs4 m ρ c main_arg18 (by decide)).trans (wk_main_arg18_8 m ρ c)))

theorem wk_main_arg18_12 (c : Dev nD) : W12 m ρ c (Proc.devRef .tc main_arg18) = W0 m ρ c (Proc.devRef .tc main_arg18) :=
  ((W12_of_ne m ρ c main_arg18 (by decide)).trans ((KSkip.hs5 m ρ c main_arg18 (by decide)).trans (wk_main_arg18_10 m ρ c)))

theorem wk_main_arg18_14 (c : Dev nD) : W14 m ρ c (Proc.devRef .tc main_arg18) = W0 m ρ c (Proc.devRef .tc main_arg18) :=
  ((W14_of_ne m ρ c main_arg18 (by decide)).trans ((KSkip.hs6 m ρ c main_arg18 (by decide)).trans (wk_main_arg18_12 m ρ c)))

theorem wk_main_arg18_18 (c : Dev nD) : W18 m ρ c (Proc.devRef .tc main_arg18) = W0 m ρ c (Proc.devRef .tc main_arg18) :=
  ((W18_of_ne m ρ c main_arg18 (by decide)).trans ((KSkip.hs8 m ρ c main_arg18 (by decide)).trans ((W16_of_ne m ρ c main_arg18 (by decide)).trans ((KSkip.hs7 m ρ c main_arg18 (by decide)).trans (wk_main_arg18_14 m ρ c)))))

theorem wk_main_arg18_20 (c : Dev nD) : W20 m ρ c (Proc.devRef .tc main_arg18) = W0 m ρ c (Proc.devRef .tc main_arg18) :=
  ((W20_of_ne m ρ c main_arg18 (by decide)).trans ((KSkip.hs9 m ρ c main_arg18 (by decide)).trans (wk_main_arg18_18 m ρ c)))

theorem wk_main_arg18_22 (c : Dev nD) : W22 m ρ c (Proc.devRef .tc main_arg18) = W0 m ρ c (Proc.devRef .tc main_arg18) :=
  ((W22_of_ne m ρ c main_arg18 (by decide)).trans ((KSkip.hs10 m ρ c main_arg18 (by decide)).trans (wk_main_arg18_20 m ρ c)))

theorem wk_main_arg18_24 (c : Dev nD) : W24 m ρ c (Proc.devRef .tc main_arg18) = W0 m ρ c (Proc.devRef .tc main_arg18) :=
  ((W24_of_ne m ρ c main_arg18 (by decide)).trans ((KSkip.hs11 m ρ c main_arg18 (by decide)).trans (wk_main_arg18_22 m ρ c)))

theorem wk_main_arg18_28 (c : Dev nD) : W28 m ρ c (Proc.devRef .tc main_arg18) = W0 m ρ c (Proc.devRef .tc main_arg18) :=
  ((W28_of_ne m ρ c main_arg18 (by decide)).trans ((KSkip.hs13 m ρ c main_arg18 (by decide)).trans ((W26_of_ne m ρ c main_arg18 (by decide)).trans ((KSkip.hs12 m ρ c main_arg18 (by decide)).trans (wk_main_arg18_24 m ρ c)))))

theorem wk_main_arg18_30 (c : Dev nD) : W30 m ρ c (Proc.devRef .tc main_arg18) = W0 m ρ c (Proc.devRef .tc main_arg18) :=
  ((W30_of_ne m ρ c main_arg18 (by decide)).trans ((KSkip.hs14 m ρ c main_arg18 (by decide)).trans (wk_main_arg18_28 m ρ c)))

theorem wk_main_arg18_32 (c : Dev nD) : W32 m ρ c (Proc.devRef .tc main_arg18) = W0 m ρ c (Proc.devRef .tc main_arg18) :=
  ((W32_of_ne m ρ c main_arg18 (by decide)).trans ((KSkip.hs15 m ρ c main_arg18 (by decide)).trans (wk_main_arg18_30 m ρ c)))

theorem wk_main_arg18_34 (c : Dev nD) : W34 m ρ c (Proc.devRef .tc main_arg18) = W0 m ρ c (Proc.devRef .tc main_arg18) :=
  ((W34_of_ne m ρ c main_arg18 (by decide)).trans ((KSkip.hs16 m ρ c main_arg18 (by decide)).trans (wk_main_arg18_32 m ρ c)))

end Cert.KernelIdeal.KWalk

end
-- ==== Proof.KWalkH.lean ====
/-
  Walks of one buffer back through the boundaries of @main: a buffer that no stretch and no region writes between two
  boundaries holds at the later one what it held at the earlier one. One step per boundary crossed (a region leaves
  every buffer that is not one of its arrays, and leaves its own input arrays as it found them; a stretch leaves
  every buffer it does not write).
-/
import proofs.«168040_j41652592837487_1_alg».proof.Proof.KSkip

set_option maxRecDepth 16384

noncomputable section

namespace Cert.KernelIdeal.KWalk

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem wk_main_v1_9 (c : Dev nD) : W9 m ρ c (Proc.devRef .tc main_v1) = W2 m ρ c (Proc.devRef .tc main_v1) :=
  ((KSkip.hs4 m ρ c main_v1 (by decide)).trans ((W8_of_ne m ρ c main_v1 (by decide)).trans ((KSkip.hs3 m ρ c main_v1 (by decide)).trans ((W6_of_ne m ρ c main_v1 (by decide)).trans ((KSkip.hs2 m ρ c main_v1 (by decide)).trans ((W4_of_ne m ρ c main_v1 (by decide)).trans (KSkip.hs1 m ρ c main_v1 (by decide))))))))

theorem wk_main_v137_19 (c : Dev nD) : W19 m ρ c (Proc.devRef .tc main_v137) = W18 m ρ c (Proc.devRef .tc main_v137) :=
  (KSkip.hs9 m ρ c main_v137 (by decide))

theorem wk_main_v145_0_27 (c : Dev nD) : W27 m ρ c (Proc.devRef .tc main_v145_0) = W20 m ρ c (Proc.devRef .tc main_v145_0) :=
  ((KSkip.hs13 m ρ c main_v145_0 (by decide)).trans ((W26_of_ne m ρ c main_v145_0 (by decide)).trans ((KSkip.hs12 m ρ c main_v145_0 (by decide)).trans ((W24_of_ne m ρ c main_v145_0 (by decide)).trans ((KSkip.hs11 m ρ c main_v145_0 (by decide)).trans ((W22_of_ne m ρ c main_v145_0 (by decide)).trans (KSkip.hs10 m ρ c main_v145_0 (by decide))))))))

theorem wk_main_v145_1_26 (c : Dev nD) : W26 m ρ c (Proc.devRef .tc main_v145_1) = W20 m ρ c (Proc.devRef .tc main_v145_1) :=
  ((W26_of_ne m ρ c main_v145_1 (by decide)).trans ((KSkip.hs12 m ρ c main_v145_1 (by decide)).trans ((W24_of_ne m ρ c main_v145_1 (by decide)).trans ((KSkip.hs11 m ρ c main_v145_1 (by decide)).trans ((W22_of_ne m ρ c main_v145_1 (by decide)).trans (KSkip.hs10 m ρ c main_v145_1 (by decide)))))))

theorem wk_main_v149_26 (c : Dev nD) : W26 m ρ c (Proc.devRef .tc main_v149) = W22 m ρ c (Proc.devRef .tc main_v149) :=
  ((W26_of_ne m ρ c main_v149 (by decide)).trans ((KSkip.hs12 m ρ c main_v149 (by decide)).trans ((W24_of_ne m ρ c main_v149 (by decide)).trans (KSkip.hs11 m ρ c main_v149 (by decide)))))

theorem wk_main_v153_26 (c : Dev nD) : W26 m ρ c (Proc.devRef .tc main_v153) = W24 m ρ c (Proc.devRef .tc main_v153) :=
  ((W26_of_ne m ρ c main_v153 (by decide)).trans (KSkip.hs12 m ρ c main_v153 (by decide)))

theorem wk_main_v18_16 (c : Dev nD) : W16 m ρ c (Proc.devRef .tc main_v18) = W9 m ρ c (Proc.devRef .tc main_v18) :=
  ((W16_of_ne m ρ c main_v18 (by decide)).trans ((KSkip.hs7 m ρ c main_v18 (by decide)).trans ((W14_of_ne m ρ c main_v18 (by decide)).trans ((KSkip.hs6 m ρ c main_v18 (by decide)).trans ((W12_of_ne m ρ c main_v18 (by decide)).trans ((KSkip.hs5 m ρ c main_v18 (by decide)).trans (W10_of_ne m ρ c main_v18 (by decide))))))))

theorem wk_main_v18_26 (c : Dev nD) : W26 m ρ c (Proc.devRef .tc main_v18) = W9 m ρ c (Proc.devRef .tc main_v18) :=
  ((W26_of_ne m ρ c main_v18 (by decide)).trans ((KSkip.hs12 m ρ c main_v18 (by decide)).trans ((W24_of_ne m ρ c main_v18 (by decide)).trans ((KSkip.hs11 m ρ c main_v18 (by decide)).trans ((W22_of_ne m ρ c main_v18 (by decide)).trans ((KSkip.hs10 m ρ c main_v18 (by decide)).trans ((W20_of_ne m ρ c main_v18 (by decide)).trans ((KSkip.hs9 m ρ c main_v18 (by decide)).trans ((W18_of_ne m ρ c main_v18 (by decide)).trans ((KSkip.hs8 m ρ c main_v18 (by decide)).trans (wk_main_v18_16 m ρ c)))))))))))

theorem wk_main_v18_36 (c : Dev nD) : W36 m ρ c (Proc.devRef .tc main_v18) = W9 m ρ c (Proc.devRef .tc main_v18) :=
  ((W36_of_ne m ρ c main_v18 (by decide)).trans ((KSkip.hs17 m ρ c main_v18 (by decide)).trans ((W34_of_ne m ρ c main_v18 (by decide)).trans ((KSkip.hs16 m ρ c main_v18 (by decide)).trans ((W32_of_ne m ρ c main_v18 (by decide)).trans ((KSkip.hs15 m ρ c main_v18 (by decide)).trans ((W30_of_ne m ρ c main_v18 (by decide)).trans ((KSkip.hs14 m ρ c main_v18 (by decide)).trans ((W28_of_ne m ρ c main_v18 (by decide)).trans ((KSkip.hs13 m ρ c main_v18 (by decide)).trans (wk_main_v18_26 m ρ c)))))))))))

theorem wk_main_v222_29 (c : Dev nD) : W29 m ρ c (Proc.devRef .tc main_v222) = W28 m ρ c (Proc.devRef .tc main_v222) :=
  (KSkip.hs14 m ρ c main_v222 (by decide))

theorem wk_main_v230_0_37 (c : Dev nD) : W37 m ρ c (Proc.devRef .tc main_v230_0) = W30 m ρ c (Proc.devRef .tc main_v230_0) :=
  ((KSkip.hs18 m ρ c main_v230_0 (by decide)).trans ((W36_of_ne m ρ c main_v230_0 (by decide)).trans ((KSkip.hs17 m ρ c main_v230_0 (by decide)).trans ((W34_of_ne m ρ c main_v230_0 (by decide)).trans ((KSkip.hs16 m ρ c main_v230_0 (by decide)).trans ((W32_of_ne m ρ c main_v230_0 (by decide)).trans (KSkip.hs15 m ρ c main_v230_0 (by decide))))))))

theorem wk_main_v230_1_36 (c : Dev nD) : W36 m ρ c (Proc.devRef .tc main_v230_1) = W30 m ρ c (Proc.devRef .tc main_v230_1) :=
  ((W36_of_ne m ρ c main_v230_1 (by decide)).trans ((KSkip.hs17 m ρ c main_v230_1 (by decide)).trans ((W34_of_ne m ρ c main_v230_1 (by decide)).trans ((KSkip.hs16 m ρ c main_v230_1 (by decide)).trans ((W32_of_ne m ρ c main_v230_1 (by decide)).trans (KSkip.hs15 m ρ c main_v230_1 (by decide)))))))

theorem wk_main_v234_36 (c : Dev nD) : W36 m ρ c (Proc.devRef .tc main_v234) = W32 m ρ c (Proc.devRef .tc main_v234) :=
  ((W36_of_ne m ρ c main_v234 (by decide)).trans ((KSkip.hs17 m ρ c main_v234 (by decide)).trans ((W34_of_ne m ρ c main_v234 (by decide)).trans (KSkip.hs16 m ρ c main_v234 (by decide)))))

theorem wk_main_v238_36 (c : Dev nD) : W36 m ρ c (Proc.devRef .tc main_v238) = W34 m ρ c (Proc.devRef .tc main_v238) :=
  ((W36_of_ne m ρ c main_v238 (by decide)).trans (KSkip.hs17 m ρ c main_v238 (by decide)))

theorem wk_main_v29_16 (c : Dev nD) : W16 m ρ c (Proc.devRef .tc main_v29) = W9 m ρ c (Proc.devRef .tc main_v29) :=
  ((W16_of_ne m ρ c main_v29 (by decide)).trans ((KSkip.hs7 m ρ c main_v29 (by decide)).trans ((W14_of_ne m ρ c main_v29 (by decide)).trans ((KSkip.hs6 m ρ c main_v29 (by decide)).trans ((W12_of_ne m ρ c main_v29 (by decide)).trans ((KSkip.hs5 m ρ c main_v29 (by decide)).trans (W10_of_ne m ρ c main_v29 (by decide))))))))

theorem wk_main_v29_26 (c : Dev nD) : W26 m ρ c (Proc.devRef .tc main_v29) = W9 m ρ c (Proc.devRef .tc main_v29) :=
  ((W26_of_ne m ρ c main_v29 (by decide)).trans ((KSkip.hs12 m ρ c main_v29 (by decide)).trans ((W24_of_ne m ρ c main_v29 (by decide)).trans ((KSkip.hs11 m ρ c main_v29 (by decide)).trans ((W22_of_ne m ρ c main_v29 (by decide)).trans ((KSkip.hs10 m ρ c main_v29 (by decide)).trans ((W20_of_ne m ρ c main_v29 (by decide)).trans ((KSkip.hs9 m ρ c main_v29 (by decide)).trans ((W18_of_ne m ρ c main_v29 (by decide)).trans ((KSkip.hs8 m ρ c main_v29 (by decide)).trans (wk_main_v29_16 m ρ c)))))))))))

theorem wk_main_v29_36 (c : Dev nD) : W36 m ρ c (Proc.devRef .tc main_v29) = W9 m ρ c (Proc.devRef .tc main_v29) :=
  ((W36_of_ne m ρ c main_v29 (by decide)).trans ((KSkip.hs17 m ρ c main_v29 (by decide)).trans ((W34_of_ne m ρ c main_v29 (by decide)).trans ((KSkip.hs16 m ρ c main_v29 (by decide)).trans ((W32_of_ne m ρ c main_v29 (by decide)).trans ((KSkip.hs15 m ρ c main_v29 (by decide)).trans ((W30_of_ne m ρ c main_v29 (by decide)).trans ((KSkip.hs14 m ρ c main_v29 (by decide)).trans ((W28_of_ne m ρ c main_v29 (by decide)).trans ((KSkip.hs13 m ρ c main_v29 (by decide)).trans (wk_main_v29_26 m ρ c)))))))))))

theorem wk_main_v3_11 (c : Dev nD) : W11 m ρ c (Proc.devRef .tc main_v3) = W4 m ρ c (Proc.devRef .tc main_v3) :=
  ((KSkip.hs5 m ρ c main_v3 (by decide)).trans ((W10_of_ne m ρ c main_v3 (by decide)).trans ((KSkip.hs4 m ρ c main_v3 (by decide)).trans ((W8_of_ne m ρ c main_v3 (by decide)).trans ((KSkip.hs3 m ρ c main_v3 (by decide)).trans ((W6_of_ne m ρ c main_v3 (by decide)).trans (KSkip.hs2 m ρ c main_v3 (by decide))))))))

theorem wk_main_v3_21 (c : Dev nD) : W21 m ρ c (Proc.devRef .tc main_v3) = W4 m ρ c (Proc.devRef .tc main_v3) :=
  ((KSkip.hs10 m ρ c main_v3 (by decide)).trans ((W20_of_ne m ρ c main_v3 (by decide)).trans ((KSkip.hs9 m ρ c main_v3 (by decide)).trans ((W18_of_ne m ρ c main_v3 (by decide)).trans ((KSkip.hs8 m ρ c main_v3 (by decide)).trans ((W16_of_ne m ρ c main_v3 (by decide)).trans ((KSkip.hs7 m ρ c main_v3 (by decide)).trans ((W14_of_ne m ρ c main_v3 (by decide)).trans ((KSkip.hs6 m ρ c main_v3 (by decide)).trans ((show W12 m ρ c (Proc.devRef .tc main_v3) = W11 m ρ c (Proc.devRef .tc main_v3) from (W12_arr m ρ c 0).trans (((dat5 (V11 m ρ) c).arrAt_in 0 rfl _).trans (A_eq5 (V11 m ρ) c 0))).trans (wk_main_v3_11 m ρ c)))))))))))

theorem wk_main_v3_31 (c : Dev nD) : W31 m ρ c (Proc.devRef .tc main_v3) = W4 m ρ c (Proc.devRef .tc main_v3) :=
  ((KSkip.hs15 m ρ c main_v3 (by decide)).trans ((W30_of_ne m ρ c main_v3 (by decide)).trans ((KSkip.hs14 m ρ c main_v3 (by decide)).trans ((W28_of_ne m ρ c main_v3 (by decide)).trans ((KSkip.hs13 m ρ c main_v3 (by decide)).trans ((W26_of_ne m ρ c main_v3 (by decide)).trans ((KSkip.hs12 m ρ c main_v3 (by decide)).trans ((W24_of_ne m ρ c main_v3 (by decide)).trans ((KSkip.hs11 m ρ c main_v3 (by decide)).trans ((show W22 m ρ c (Proc.devRef .tc main_v3) = W21 m ρ c (Proc.devRef .tc main_v3) from (W22_arr m ρ c 0).trans (((dat10 (V21 m ρ) c).arrAt_in 0 rfl _).trans (A_eq10 (V21 m ρ) c 0))).trans (wk_main_v3_21 m ρ c)))))))))))

theorem wk_main_v40_16 (c : Dev nD) : W16 m ρ c (Proc.devRef .tc main_v40) = W9 m ρ c (Proc.devRef .tc main_v40) :=
  ((W16_of_ne m ρ c main_v40 (by decide)).trans ((KSkip.hs7 m ρ c main_v40 (by decide)).trans ((W14_of_ne m ρ c main_v40 (by decide)).trans ((KSkip.hs6 m ρ c main_v40 (by decide)).trans ((W12_of_ne m ρ c main_v40 (by decide)).trans ((KSkip.hs5 m ρ c main_v40 (by decide)).trans (W10_of_ne m ρ c main_v40 (by decide))))))))

theorem wk_main_v40_26 (c : Dev nD) : W26 m ρ c (Proc.devRef .tc main_v40) = W9 m ρ c (Proc.devRef .tc main_v40) :=
  ((W26_of_ne m ρ c main_v40 (by decide)).trans ((KSkip.hs12 m ρ c main_v40 (by decide)).trans ((W24_of_ne m ρ c main_v40 (by decide)).trans ((KSkip.hs11 m ρ c main_v40 (by decide)).trans ((W22_of_ne m ρ c main_v40 (by decide)).trans ((KSkip.hs10 m ρ c main_v40 (by decide)).trans ((W20_of_ne m ρ c main_v40 (by decide)).trans ((KSkip.hs9 m ρ c main_v40 (by decide)).trans ((W18_of_ne m ρ c main_v40 (by decide)).trans ((KSkip.hs8 m ρ c main_v40 (by decide)).trans (wk_main_v40_16 m ρ c)))))))))))

theorem wk_main_v40_36 (c : Dev nD) : W36 m ρ c (Proc.devRef .tc main_v40) = W9 m ρ c (Proc.devRef .tc main_v40) :=
  ((W36_of_ne m ρ c main_v40 (by decide)).trans ((KSkip.hs17 m ρ c main_v40 (by decide)).trans ((W34_of_ne m ρ c main_v40 (by decide)).trans ((KSkip.hs16 m ρ c main_v40 (by decide)).trans ((W32_of_ne m ρ c main_v40 (by decide)).trans ((KSkip.hs15 m ρ c main_v40 (by decide)).trans ((W30_of_ne m ρ c main_v40 (by decide)).trans ((KSkip.hs14 m ρ c main_v40 (by decide)).trans ((W28_of_ne m ρ c main_v40 (by decide)).trans ((KSkip.hs13 m ρ c main_v40 (by decide)).trans (wk_main_v40_26 m ρ c)))))))))))

theorem wk_main_v5_13 (c : Dev nD) : W13 m ρ c (Proc.devRef .tc main_v5) = W6 m ρ c (Proc.devRef .tc main_v5) :=
  ((KSkip.hs6 m ρ c main_v5 (by decide)).trans ((W12_of_ne m ρ c main_v5 (by decide)).trans ((KSkip.hs5 m ρ c main_v5 (by decide)).trans ((W10_of_ne m ρ c main_v5 (by decide)).trans ((KSkip.hs4 m ρ c main_v5 (by decide)).trans ((W8_of_ne m ρ c main_v5 (by decide)).trans (KSkip.hs3 m ρ c main_v5 (by decide))))))))

theorem wk_main_v5_23 (c : Dev nD) : W23 m ρ c (Proc.devRef .tc main_v5) = W6 m ρ c (Proc.devRef .tc main_v5) :=
  ((KSkip.hs11 m ρ c main_v5 (by decide)).trans ((W22_of_ne m ρ c main_v5 (by decide)).trans ((KSkip.hs10 m ρ c main_v5 (by decide)).trans ((W20_of_ne m ρ c main_v5 (by decide)).trans ((KSkip.hs9 m ρ c main_v5 (by decide)).trans ((W18_of_ne m ρ c main_v5 (by decide)).trans ((KSkip.hs8 m ρ c main_v5 (by decide)).trans ((W16_of_ne m ρ c main_v5 (by decide)).trans ((KSkip.hs7 m ρ c main_v5 (by decide)).trans ((show W14 m ρ c (Proc.devRef .tc main_v5) = W13 m ρ c (Proc.devRef .tc main_v5) from (W14_arr m ρ c 0).trans (((dat6 (V13 m ρ) c).arrAt_in 0 rfl _).trans (A_eq6 (V13 m ρ) c 0))).trans (wk_main_v5_13 m ρ c)))))))))))

theorem wk_main_v5_33 (c : Dev nD) : W33 m ρ c (Proc.devRef .tc main_v5) = W6 m ρ c (Proc.devRef .tc main_v5) :=
  ((KSkip.hs16 m ρ c main_v5 (by decide)).trans ((W32_of_ne m ρ c main_v5 (by decide)).trans ((KSkip.hs15 m ρ c main_v5 (by decide)).trans ((W30_of_ne m ρ c main_v5 (by decide)).trans ((KSkip.hs14 m ρ c main_v5 (by decide)).trans ((W28_of_ne m ρ c main_v5 (by decide)).trans ((KSkip.hs13 m ρ c main_v5 (by decide)).trans ((W26_of_ne m ρ c main_v5 (by decide)).trans ((KSkip.hs12 m ρ c main_v5 (by decide)).trans ((show W24 m ρ c (Proc.devRef .tc main_v5) = W23 m ρ c (Proc.devRef .tc main_v5) from (W24_arr m ρ c 0).trans (((dat11 (V23 m ρ) c).arrAt_in 0 rfl _).trans (A_eq11 (V23 m ρ) c 0))).trans (wk_main_v5_23 m ρ c)))))))))))

theorem wk_main_v51_16 (c : Dev nD) : W16 m ρ c (Proc.devRef .tc main_v51) = W9 m ρ c (Proc.devRef .tc main_v51) :=
  ((W16_of_ne m ρ c main_v51 (by decide)).trans ((KSkip.hs7 m ρ c main_v51 (by decide)).trans ((W14_of_ne m ρ c main_v51 (by decide)).trans ((KSkip.hs6 m ρ c main_v51 (by decide)).trans ((W12_of_ne m ρ c main_v51 (by decide)).trans ((KSkip.hs5 m ρ c main_v51 (by decide)).trans (W10_of_ne m ρ c main_v51 (by decide))))))))

theorem wk_main_v51_26 (c : Dev nD) : W26 m ρ c (Proc.devRef .tc main_v51) = W9 m ρ c (Proc.devRef .tc main_v51) :=
  ((W26_of_ne m ρ c main_v51 (by decide)).trans ((KSkip.hs12 m ρ c main_v51 (by decide)).trans ((W24_of_ne m ρ c main_v51 (by decide)).trans ((KSkip.hs11 m ρ c main_v51 (by decide)).trans ((W22_of_ne m ρ c main_v51 (by decide)).trans ((KSkip.hs10 m ρ c main_v51 (by decide)).trans ((W20_of_ne m ρ c main_v51 (by decide)).trans ((KSkip.hs9 m ρ c main_v51 (by decide)).trans ((W18_of_ne m ρ c main_v51 (by decide)).trans ((KSkip.hs8 m ρ c main_v51 (by decide)).trans (wk_main_v51_16 m ρ c)))))))))))

theorem wk_main_v51_36 (c : Dev nD) : W36 m ρ c (Proc.devRef .tc main_v51) = W9 m ρ c (Proc.devRef .tc main_v51) :=
  ((W36_of_ne m ρ c main_v51 (by decide)).trans ((KSkip.hs17 m ρ c main_v51 (by decide)).trans ((W34_of_ne m ρ c main_v51 (by decide)).trans ((KSkip.hs16 m ρ c main_v51 (by decide)).trans ((W32_of_ne m ρ c main_v51 (by decide)).trans ((KSkip.hs15 m ρ c main_v51 (by decide)).trans ((W30_of_ne m ρ c main_v51 (by decide)).trans ((KSkip.hs14 m ρ c main_v51 (by decide)).trans ((W28_of_ne m ρ c main_v51 (by decide)).trans ((KSkip.hs13 m ρ c main_v51 (by decide)).trans (wk_main_v51_26 m ρ c)))))))))))

theorem wk_main_v52_10 (c : Dev nD) : W10 m ρ c (Proc.devRef .tc main_v52) = W9 m ρ c (Proc.devRef .tc main_v52) :=
  (W10_of_ne m ρ c main_v52 (by decide))

theorem wk_main_v52_12 (c : Dev nD) : W12 m ρ c (Proc.devRef .tc main_v52) = W9 m ρ c (Proc.devRef .tc main_v52) :=
  ((W12_of_ne m ρ c main_v52 (by decide)).trans ((KSkip.hs5 m ρ c main_v52 (by decide)).trans (wk_main_v52_10 m ρ c)))

theorem wk_main_v52_14 (c : Dev nD) : W14 m ρ c (Proc.devRef .tc main_v52) = W9 m ρ c (Proc.devRef .tc main_v52) :=
  ((W14_of_ne m ρ c main_v52 (by decide)).trans ((KSkip.hs6 m ρ c main_v52 (by decide)).trans (wk_main_v52_12 m ρ c)))

theorem wk_main_v52_20 (c : Dev nD) : W20 m ρ c (Proc.devRef .tc main_v52) = W9 m ρ c (Proc.devRef .tc main_v52) :=
  ((W20_of_ne m ρ c main_v52 (by decide)).trans ((KSkip.hs9 m ρ c main_v52 (by decide)).trans ((W18_of_ne m ρ c main_v52 (by decide)).trans ((KSkip.hs8 m ρ c main_v52 (by decide)).trans ((W16_of_ne m ρ c main_v52 (by decide)).trans ((KSkip.hs7 m ρ c main_v52 (by decide)).trans (wk_main_v52_14 m ρ c)))))))

theorem wk_main_v52_22 (c : Dev nD) : W22 m ρ c (Proc.devRef .tc main_v52) = W9 m ρ c (Proc.devRef .tc main_v52) :=
  ((W22_of_ne m ρ c main_v52 (by decide)).trans ((KSkip.hs10 m ρ c main_v52 (by decide)).trans (wk_main_v52_20 m ρ c)))

theorem wk_main_v52_24 (c : Dev nD) : W24 m ρ c (Proc.devRef .tc main_v52) = W9 m ρ c (Proc.devRef .tc main_v52) :=
  ((W24_of_ne m ρ c main_v52 (by decide)).trans ((KSkip.hs11 m ρ c main_v52 (by decide)).trans (wk_main_v52_22 m ρ c)))

theorem wk_main_v52_30 (c : Dev nD) : W30 m ρ c (Proc.devRef .tc main_v52) = W9 m ρ c (Proc.devRef .tc main_v52) :=
  ((W30_of_ne m ρ c main_v52 (by decide)).trans ((KSkip.hs14 m ρ c main_v52 (by decide)).trans ((W28_of_ne m ρ c main_v52 (by decide)).trans ((KSkip.hs13 m ρ c main_v52 (by decide)).trans ((W26_of_ne m ρ c main_v52 (by decide)).trans ((KSkip.hs12 m ρ c main_v52 (by decide)).trans (wk_main_v52_24 m ρ c)))))))

theorem wk_main_v52_32 (c : Dev nD) : W32 m ρ c (Proc.devRef .tc main_v52) = W9 m ρ c (Proc.devRef .tc main_v52) :=
  ((W32_of_ne m ρ c main_v52 (by decide)).trans ((KSkip.hs15 m ρ c main_v52 (by decide)).trans (wk_main_v52_30 m ρ c)))

theorem wk_main_v52_34 (c : Dev nD) : W34 m ρ c (Proc.devRef .tc main_v52) = W9 m ρ c (Proc.devRef .tc main_v52) :=
  ((W34_of_ne m ρ c main_v52 (by decide)).trans ((KSkip.hs16 m ρ c main_v52 (by decide)).trans (wk_main_v52_32 m ρ c)))

theorem wk_main_v60_0_17 (c : Dev nD) : W17 m ρ c (Proc.devRef .tc main_v60_0) = W10 m ρ c (Proc.devRef .tc main_v60_0) :=
  ((KSkip.hs8 m ρ c main_v60_0 (by decide)).trans ((W16_of_ne m ρ c main_v60_0 (by decide)).trans ((KSkip.hs7 m ρ c main_v60_0 (by decide)).trans ((W14_of_ne m ρ c main_v60_0 (by decide)).trans ((KSkip.hs6 m ρ c main_v60_0 (by decide)).trans ((W12_of_ne m ρ c main_v60_0 (by decide)).trans (KSkip.hs5 m ρ c main_v60_0 (by decide))))))))

theorem wk_main_v60_1_16 (c : Dev nD) : W16 m ρ c (Proc.devRef .tc main_v60_1) = W10 m ρ c (Proc.devRef .tc main_v60_1) :=
  ((W16_of_ne m ρ c main_v60_1 (by decide)).trans ((KSkip.hs7 m ρ c main_v60_1 (by decide)).trans ((W14_of_ne m ρ c main_v60_1 (by decide)).trans ((KSkip.hs6 m ρ c main_v60_1 (by decide)).trans ((W12_of_ne m ρ c main_v60_1 (by decide)).trans (KSkip.hs5 m ρ c main_v60_1 (by decide)))))))

theorem wk_main_v64_16 (c : Dev nD) : W16 m ρ c (Proc.devRef .tc main_v64) = W12 m ρ c (Proc.devRef .tc main_v64) :=
  ((W16_of_ne m ρ c main_v64 (by decide)).trans ((KSkip.hs7 m ρ c main_v64 (by decide)).trans ((W14_of_ne m ρ c main_v64 (by decide)).trans (KSkip.hs6 m ρ c main_v64 (by decide)))))

theorem wk_main_v68_16 (c : Dev nD) : W16 m ρ c (Proc.devRef .tc main_v68) = W14 m ρ c (Proc.devRef .tc main_v68) :=
  ((W16_of_ne m ρ c main_v68 (by decide)).trans (KSkip.hs7 m ρ c main_v68 (by decide)))

theorem wk_main_v7_15 (c : Dev nD) : W15 m ρ c (Proc.devRef .tc main_v7) = W8 m ρ c (Proc.devRef .tc main_v7) :=
  ((KSkip.hs7 m ρ c main_v7 (by decide)).trans ((W14_of_ne m ρ c main_v7 (by decide)).trans ((KSkip.hs6 m ρ c main_v7 (by decide)).trans ((W12_of_ne m ρ c main_v7 (by decide)).trans ((KSkip.hs5 m ρ c main_v7 (by decide)).trans ((W10_of_ne m ρ c main_v7 (by decide)).trans (KSkip.hs4 m ρ c main_v7 (by decide))))))))

theorem wk_main_v7_25 (c : Dev nD) : W25 m ρ c (Proc.devRef .tc main_v7) = W8 m ρ c (Proc.devRef .tc main_v7) :=
  ((KSkip.hs12 m ρ c main_v7 (by decide)).trans ((W24_of_ne m ρ c main_v7 (by decide)).trans ((KSkip.hs11 m ρ c main_v7 (by decide)).trans ((W22_of_ne m ρ c main_v7 (by decide)).trans ((KSkip.hs10 m ρ c main_v7 (by decide)).trans ((W20_of_ne m ρ c main_v7 (by decide)).trans ((KSkip.hs9 m ρ c main_v7 (by decide)).trans ((W18_of_ne m ρ c main_v7 (by decide)).trans ((KSkip.hs8 m ρ c main_v7 (by decide)).trans ((show W16 m ρ c (Proc.devRef .tc main_v7) = W15 m ρ c (Proc.devRef .tc main_v7) from (W16_arr m ρ c 0).trans (((dat7 (V15 m ρ) c).arrAt_in 0 rfl _).trans (A_eq7 (V15 m ρ) c 0))).trans (wk_main_v7_15 m ρ c)))))))))))

theorem wk_main_v7_35 (c : Dev nD) : W35 m ρ c (Proc.devRef .tc main_v7) = W8 m ρ c (Proc.devRef .tc main_v7) :=
  ((KSkip.hs17 m ρ c main_v7 (by decide)).trans ((W34_of_ne m ρ c main_v7 (by decide)).trans ((KSkip.hs16 m ρ c main_v7 (by decide)).trans ((W32_of_ne m ρ c main_v7 (by decide)).trans ((KSkip.hs15 m ρ c main_v7 (by decide)).trans ((W30_of_ne m ρ c main_v7 (by decide)).trans ((KSkip.hs14 m ρ c main_v7 (by decide)).trans ((W28_of_ne m ρ c main_v7 (by decide)).trans ((KSkip.hs13 m ρ c main_v7 (by decide)).trans ((show W26 m ρ c (Proc.devRef .tc main_v7) = W25 m ρ c (Proc.devRef .tc main_v7) from (W26_arr m ρ c 0).trans (((dat12 (V25 m ρ) c).arrAt_in 0 rfl _).trans (A_eq12 (V25 m ρ) c 0))).trans (wk_main_v7_25 m ρ c)))))))))))

end Cert.KernelIdeal.KWalk

end
-- ==== Proof.LibDotRows.lean ====
/-
  A plain matrix product read at an index.  For shapes [R, K] · [K, J] → [R, J] whose dimension
  numbers contract the left operand's axis 1 with the right operand's axis 0 (no batch axis), the
  sum over the contraction index that `tpu.matmul` and `dot_general` denote at the ideal values is
  the textbook sum over `k : Fin K` of `lhs (r, k) * rhs (k, c)`.  The four coordinate facts about
  the dimension numbers' operand indices are hypotheses: for a record with literal lists each of
  them holds by `rfl`.
-/
import Idealize.ShloMosaic.PureOps.Ideal.Laws
import Idealize.ShloMosaic.Lib.ValueIdx

noncomputable section

open scoped BigOperators

namespace Idealize.ShloMosaic.ValueIdx

open Idealize.ShloMosaic

/-- The contraction sum of a plain [R, K] · [K, J] product at output index `j` is the sum over
    `k : Fin K` of the left operand at `(j 0, k)` times the right operand at `(k, j 1)`. -/
theorem dot_rows_sum {M : Type*} [AddCommMonoid M] {R K J : Nat}
    (d : DotDims ⟨2, ![R, K]⟩ ⟨2, ![K, J]⟩ ⟨2, ![R, J]⟩)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (g : (⟨2, ![R, K]⟩ : Shape).Idx → (⟨2, ![K, J]⟩ : Shape).Idx → M) (j : (⟨2, ![R, J]⟩ : Shape).Idx) :
    ∑ k : d.contr.Idx, g (d.lhsIdx j k) (d.rhsIdx j k) = ∑ k : Fin K, g (ix2 (j 0) k) (ix2 k (j 1)) := by
  rw [← Equiv.sum_comp (contrEquiv1 d K hr hs).symm]
  refine Finset.sum_congr rfl fun k _ => ?_
  have e1 : d.lhsIdx j ((contrEquiv1 d K hr hs).symm k) = ix2 (j 0) k := by
    funext a
    match a with
    | ⟨0, _⟩ => exact Fin.ext (h1 j _)
    | ⟨1, _⟩ => exact Fin.ext ((h2 j _).trans (contrEquiv1_symm_val d K hr hs k))
  have e2 : d.rhsIdx j ((contrEquiv1 d K hr hs).symm k) = ix2 k (j 1) := by
    funext a
    match a with
    | ⟨0, _⟩ => exact Fin.ext ((h3 j _).trans (contrEquiv1_symm_val d K hr hs k))
    | ⟨1, _⟩ => exact Fin.ext (h4 j _)
  exact congrArg₂ g e1 e2

/-- A `tpu.matmul` into the zero accumulator, at the ideal values, read at `(r, c)`. -/
theorem matmul_zero_rows {R K J : Nat} {φ₁ φ₂ : FTy}
    (d : DotDims ⟨2, ![R, K]⟩ ⟨2, ![K, J]⟩ ⟨2, ![R, J]⟩) (prec : Option ContractPrecision)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (lhs : FVec Ideal ⟨2, ![R, K]⟩ φ₁) (rhs : FVec Ideal ⟨2, ![K, J]⟩ φ₂) (r : Fin R) (c : Fin J) :
    FloatOps.matmul d prec lhs rhs (constant ⟨2, ![R, J]⟩ .f32 0x00000000#32) (ix2 r c)
      = ∑ k : Fin K, lhs (ix2 r k) * rhs (ix2 k c) := by
  rw [Ideal.matmul_constant_zero_apply]
  exact dot_rows_sum d hr hs h1 h2 h3 h4 (fun a b => lhs a * rhs b) (ix2 r c)

/-- The host's `dot_general`, at the ideal values, read at `(r, c)`. -/
theorem dotGeneral_rows {R K J : Nat} {φ₁ φ₂ : FTy}
    (d : DotDims ⟨2, ![R, K]⟩ ⟨2, ![K, J]⟩ ⟨2, ![R, J]⟩) (prec : Option ContractPrecision) (sched : HostSchedule)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (lhs : FVec Ideal ⟨2, ![R, K]⟩ φ₁) (rhs : FVec Ideal ⟨2, ![K, J]⟩ φ₂) (r : Fin R) (c : Fin J) :
    FloatOps.dotGeneral d prec sched lhs rhs (ix2 r c) = ∑ k : Fin K, lhs (ix2 r k) * rhs (ix2 k c) := by
  rw [Ideal.dotGeneral_apply]
  exact dot_rows_sum d hr hs h1 h2 h3 h4 (fun a b => lhs a * rhs b) (ix2 r c)

end Idealize.ShloMosaic.ValueIdx

end
-- ==== Proof.RegPay.lean ====
/-
  What one block of rows of a region computes, read entry by entry at the ideal values, and how a block's
  entries sit in the whole array.

  Three bodies occur.  A product of a block of rows [R, K] with a whole [K, 128] matrix into the zero
  accumulator, plus a whole bias row [1, 128] broadcast down the rows: at (r, q) it is the sum over k of
  x(r,k) · w(k,q), plus b(0,q) (rounding an operand to a narrower format, or casting it to its own shape,
  changes nothing at the ideal values).  The same product without the bias.  And the exponential linear unit
  of a five-term sum, entry by entry.

  A block of R rows that starts at row o of an [M, ·] array holds at (r, k) the array's entry (o + r, k); the
  matrix and the bias row are read whole.  So the block's result at (r, q) is the array-level function of
  Spec at (o + r, q): the three lemmas `lin_block`, `mm_block`, `comb_block`.
-/
import proofs.«168040_j41652592837487_1_alg».proof.Proof.Spec
import proofs.«168040_j41652592837487_1_alg».proof.Proof.LibDotRows
import Idealize.ShloMosaic.PureOps.Ideal.Laws
import Idealize.ShloMosaic.Lib.ValueIdx
import Idealize.ShloMosaic.Lib.Pipeline.Value

noncomputable section

open scoped BigOperators

namespace Cert.KernelIdeal.RegPay

open Idealize.ShloMosaic Idealize.ShloMosaic.ValueIdx

/-- A product of the rows [R, K] with a [K, 128] matrix into the zero accumulator, plus a bias row broadcast
    down the rows, read at row r and column q: the sum over k of x(r,k) · w(k,q), plus b(0,q). Rounding the
    operands to a narrower format changes nothing at the ideal values. -/
theorem lin_body_apply {R K : Nat}
    (d : DotDims ⟨2, ![R, K]⟩ ⟨2, ![K, 128]⟩ ⟨2, ![R, 128]⟩)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (x : FVec Ideal ⟨2, ![R, K]⟩ .f32) (w : FVec Ideal ⟨2, ![K, 128]⟩ .f32) (b : FVec Ideal ⟨2, ![1, 128]⟩ .f32)
    (hx : FTy.bf16.bits < FTy.f32.bits)
    (hsc : (⟨2, ![1, 128]⟩ : Shape).ShapeCasts ⟨2, ![1, 128]⟩)
    (hbc : (⟨2, ![1, 128]⟩ : Shape).Broadcasts ⟨2, ![R, 128]⟩) (r : Fin R) (q : Fin 128) :
    addf (matmul d none (truncf .bf16 x hx) (truncf .bf16 w hx) (constant ⟨2, ![R, 128]⟩ .f32 0x00000000#32))
        (broadcastTo ⟨2, ![R, 128]⟩ (shapeCast ⟨2, ![1, 128]⟩ b hsc) hbc) (ix2 r q)
      = (∑ k : Fin K, x (ix2 r k) * w (ix2 k q)) + b (ix2 0 q) := by
  rw [addf_apply, shapeCast_self]
  refine congrArg₂ (· + ·) (matmul_zero_rows d none hr hs h1 h2 h3 h4 _ _ r q) ?_
  refine broadcastTo_apply b hbc (ix2 r q) (ix2 0 q) fun a => ?_
  match a with
  | ⟨0, _⟩ => rfl
  | ⟨1, _⟩ => rfl

/-- The same with each operand first cast to its own shape. -/
theorem lin_body_cast_apply {R K : Nat}
    (d : DotDims ⟨2, ![R, K]⟩ ⟨2, ![K, 128]⟩ ⟨2, ![R, 128]⟩)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (x : FVec Ideal ⟨2, ![R, K]⟩ .f32) (w : FVec Ideal ⟨2, ![K, 128]⟩ .f32) (b : FVec Ideal ⟨2, ![1, 128]⟩ .f32)
    (hx : FTy.bf16.bits < FTy.f32.bits)
    (hcx : (⟨2, ![R, K]⟩ : Shape).ShapeCasts ⟨2, ![R, K]⟩) (hcw : (⟨2, ![K, 128]⟩ : Shape).ShapeCasts ⟨2, ![K, 128]⟩)
    (hsc : (⟨2, ![1, 128]⟩ : Shape).ShapeCasts ⟨2, ![1, 128]⟩)
    (hbc : (⟨2, ![1, 128]⟩ : Shape).Broadcasts ⟨2, ![R, 128]⟩) (r : Fin R) (q : Fin 128) :
    addf (matmul d none (truncf .bf16 (shapeCast ⟨2, ![R, K]⟩ x hcx) hx) (truncf .bf16 (shapeCast ⟨2, ![K, 128]⟩ w hcw) hx)
          (constant ⟨2, ![R, 128]⟩ .f32 0x00000000#32))
        (broadcastTo ⟨2, ![R, 128]⟩ (shapeCast ⟨2, ![1, 128]⟩ b hsc) hbc) (ix2 r q)
      = (∑ k : Fin K, x (ix2 r k) * w (ix2 k q)) + b (ix2 0 q) := by
  rw [shapeCast_self x, shapeCast_self w]
  exact lin_body_apply d hr hs h1 h2 h3 h4 x w b hx hsc hbc r q

/-- The product alone, each operand first cast to its own shape. -/
theorem mm_body_cast_apply {R K : Nat}
    (d : DotDims ⟨2, ![R, K]⟩ ⟨2, ![K, 128]⟩ ⟨2, ![R, 128]⟩)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (x : FVec Ideal ⟨2, ![R, K]⟩ .f32) (w : FVec Ideal ⟨2, ![K, 128]⟩ .f32)
    (hx : FTy.bf16.bits < FTy.f32.bits)
    (hcx : (⟨2, ![R, K]⟩ : Shape).ShapeCasts ⟨2, ![R, K]⟩) (hcw : (⟨2, ![K, 128]⟩ : Shape).ShapeCasts ⟨2, ![K, 128]⟩)
    (r : Fin R) (q : Fin 128) :
    matmul d none (truncf .bf16 (shapeCast ⟨2, ![R, K]⟩ x hcx) hx) (truncf .bf16 (shapeCast ⟨2, ![K, 128]⟩ w hcw) hx)
          (constant ⟨2, ![R, 128]⟩ .f32 0x00000000#32) (ix2 r q)
      = ∑ k : Fin K, x (ix2 r k) * w (ix2 k q) := by
  rw [shapeCast_self x, shapeCast_self w]
  exact matmul_zero_rows d none hr hs h1 h2 h3 h4 _ _ r q

/-- The exponential linear unit spelt with vector operations, read at an entry: the scalar unit of the entry. -/
theorem elu_body_apply {s : Shape} (t : FVec Ideal s .f32) (j : s.Idx) :
    select (cmpf .ogt t (broadcast s (Scalar.ofBits (F := Ideal) .f32 0x00000000#32))) t
        (subf (exp t) (broadcast s (Scalar.ofBits (F := Ideal) .f32 0x3F800000#32))) j
      = Cert.Spec.elu1 (t j) := rfl

/-- The unit of the left-associated sum of five vectors, each first cast to its own shape, read at an entry. -/
theorem comb_body_apply {s : Shape} (x0 x1 x2 x3 x4 : FVec Ideal s .f32) (h : s.ShapeCasts s) (j : s.Idx) :
    select (cmpf .ogt (addf (addf (addf (addf (shapeCast s x0 h) (shapeCast s x1 h)) (shapeCast s x2 h)) (shapeCast s x3 h)) (shapeCast s x4 h))
          (broadcast s (Scalar.ofBits (F := Ideal) .f32 0x00000000#32)))
        (addf (addf (addf (addf (shapeCast s x0 h) (shapeCast s x1 h)) (shapeCast s x2 h)) (shapeCast s x3 h)) (shapeCast s x4 h))
        (subf (exp (addf (addf (addf (addf (shapeCast s x0 h) (shapeCast s x1 h)) (shapeCast s x2 h)) (shapeCast s x3 h)) (shapeCast s x4 h)))
          (broadcast s (Scalar.ofBits (F := Ideal) .f32 0x3F800000#32))) j
      = Cert.Spec.elu1 (x0 j + x1 j + x2 j + x3 j + x4 j) := by
  simp only [shapeCast_self]
  refine (elu_body_apply _ j).trans (congrArg Cert.Spec.elu1 ?_)
  rw [addf_apply, addf_apply, addf_apply, addf_apply]

/-- FROM A BLOCK OF ROWS TO THE ARRAY, linear map plus bias. A block of R rows starting at row o of an
    [M, K] array, the whole weight matrix and the whole bias row: if the block's result at (r, q) is the sum
    over k of x(r,k) · w(k,q) plus b(0,q), then at block index j it is the array-level function at the array
    index i with i₀ = o + j₀ and i₁ = j₁. -/
theorem lin_block {M R K : Nat}
    (A0 : (⟨2, ![M, K]⟩ : Shape).Idx → EReal) (A1 : (⟨2, ![K, 128]⟩ : Shape).Idx → EReal)
    (A2 : (⟨2, ![1, 128]⟩ : Shape).Idx → EReal)
    (x0 : (⟨2, ![R, K]⟩ : Shape).Idx → EReal) (x1 : (⟨2, ![K, 128]⟩ : Shape).Idx → EReal)
    (x2 : (⟨2, ![1, 128]⟩ : Shape).Idx → EReal) (pay : (⟨2, ![R, 128]⟩ : Shape).Idx → EReal) (o : Nat)
    (hpay : ∀ (r : Fin R) (q : Fin 128), pay (ix2 r q) = (∑ k : Fin K, x0 (ix2 r k) * x1 (ix2 k q)) + x2 (ix2 0 q))
    (h0 : ∀ (y : (⟨2, ![R, K]⟩ : Shape).Idx) (i : (⟨2, ![M, K]⟩ : Shape).Idx),
      (i 0).val = o + (y 0).val → (i 1).val = (y 1).val → x0 y = A0 i)
    (h1 : x1 = A1) (h2 : x2 = A2)
    (j : (⟨2, ![R, 128]⟩ : Shape).Idx) (i : (⟨2, ![M, 128]⟩ : Shape).Idx)
    (hi0 : (i 0).val = o + (j 0).val) (hi1 : (i 1).val = (j 1).val) :
    pay j = Cert.Spec.lin A0 A1 A2 i := by
  subst h1 h2
  obtain ⟨p, q, rfl⟩ : ∃ (p : Fin R) (q : Fin 128), j = ix2 p q := ⟨j 0, j 1, eq_ix2 j⟩
  have hq : q = i 1 := Fin.ext hi1.symm
  rw [hpay, hq]
  unfold Cert.Spec.lin
  refine congrArg₂ (· + ·) (Finset.sum_congr rfl fun k _ => ?_) rfl
  rw [h0 (ix2 p k) (ix2 (i 0) k) hi0 rfl]

/-- FROM A BLOCK OF ROWS TO THE ARRAY, the product alone. -/
theorem mm_block {M R K : Nat}
    (A0 : (⟨2, ![M, K]⟩ : Shape).Idx → EReal) (A1 : (⟨2, ![K, 128]⟩ : Shape).Idx → EReal)
    (x0 : (⟨2, ![R, K]⟩ : Shape).Idx → EReal) (x1 : (⟨2, ![K, 128]⟩ : Shape).Idx → EReal)
    (pay : (⟨2, ![R, 128]⟩ : Shape).Idx → EReal) (o : Nat)
    (hpay : ∀ (r : Fin R) (q : Fin 128), pay (ix2 r q) = ∑ k : Fin K, x0 (ix2 r k) * x1 (ix2 k q))
    (h0 : ∀ (y : (⟨2, ![R, K]⟩ : Shape).Idx) (i : (⟨2, ![M, K]⟩ : Shape).Idx),
      (i 0).val = o + (y 0).val → (i 1).val = (y 1).val → x0 y = A0 i)
    (h1 : x1 = A1)
    (j : (⟨2, ![R, 128]⟩ : Shape).Idx) (i : (⟨2, ![M, 128]⟩ : Shape).Idx)
    (hi0 : (i 0).val = o + (j 0).val) (hi1 : (i 1).val = (j 1).val) :
    pay j = Cert.Spec.mm A0 A1 i := by
  subst h1
  obtain ⟨p, q, rfl⟩ : ∃ (p : Fin R) (q : Fin 128), j = ix2 p q := ⟨j 0, j 1, eq_ix2 j⟩
  have hq : q = i 1 := Fin.ext hi1.symm
  rw [hpay, hq]
  unfold Cert.Spec.mm
  refine Finset.sum_congr rfl fun k _ => ?_
  rw [h0 (ix2 p k) (ix2 (i 0) k) hi0 rfl]

/-- FROM A BLOCK OF ROWS TO THE ARRAY, the unit of a five-term sum: entry by entry, so each block entry is the
    array-level function at the array index under it. -/
theorem comb_block {M R : Nat}
    (A0 A1 A2 A3 A4 : (⟨2, ![M, 128]⟩ : Shape).Idx → EReal)
    (x0 x1 x2 x3 x4 : (⟨2, ![R, 128]⟩ : Shape).Idx → EReal)
    (pay : (⟨2, ![R, 128]⟩ : Shape).Idx → EReal)
    (hpay : ∀ j, pay j = Cert.Spec.elu1 (x0 j + x1 j + x2 j + x3 j + x4 j))
    (j : (⟨2, ![R, 128]⟩ : Shape).Idx) (i : (⟨2, ![M, 128]⟩ : Shape).Idx)
    (h0 : x0 j = A0 i) (h1 : x1 j = A1 i) (h2 : x2 j = A2 i) (h3 : x3 j = A3 i) (h4 : x4 j = A4 i) :
    pay j = Cert.Spec.comb A0 A1 A2 A3 A4 i := by
  rw [hpay, h0, h1, h2, h3, h4]
  rfl

/-- The offsets of a whole-buffer rectangle are zero on every axis. -/
theorem hz : (![0, 0] : Fin 2 → Nat) = fun _ => 0 := funext fun a => by fin_cases a <;> rfl

end Cert.KernelIdeal.RegPay

end
-- ==== Proof.Reg0.lean ====
/-
  Region 0: a linear map of the rows plus a bias row.  The 50000 rows of the row operand [50000, 32] are
  cut into 25 blocks of 2000 rows; grid point t reads block t of the row operand, the whole weight matrix
  [32, 128] and the whole bias row [1, 128], and writes block t of the result [50000, 128]: at (r, q) the
  sum over k of x(2000 t + r, k) · w(k, q), plus b(0, q).  The 25 blocks cover the result, so after the
  region the result array is the array-level function `Spec.lin` of the three operand arrays as the region
  found them.
-/
import proofs.«168040_j41652592837487_1_alg».proof.Proof.Gen.KernelIdeal.Frame
import proofs.«168040_j41652592837487_1_alg».proof.Proof.Spec
import proofs.«168040_j41652592837487_1_alg».proof.Proof.RegPay
import Idealize.ShloMosaic.Lib.Pipeline.Value

set_option maxRecDepth 16384

noncomputable section

open scoped BigOperators

namespace Cert.KernelIdeal.Reg

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.RegPay

variable (V : (c : Dev nD) → (b : Ref sig .tc) → Buf (Elt Ideal) ((c : Thread nD τ).loc b))

/-- The body's stored value at row r and column q of a block: the sum over k of x(r,k) · w(k,q), plus b(0,q). -/
theorem pay0 (x : Vec Ideal S2000x32 .f32) (w : Vec Ideal S32x128 .f32) (b : Vec Ideal S1x128 .f32) (r : Fin 2000) (q : Fin 128) :
    k0_pay1 x w b (ix2 r q) = (∑ kk : Fin 32, x (ix2 r kk) * w (ix2 kk q)) + b (ix2 0 q) := by
  unfold k0_pay1
  exact lin_body_apply _ rfl rfl (fun _ _ => rfl) (fun _ _ => rfl) (fun _ _ => rfl) (fun _ _ => rfl) x w b _ _ _ r q

/-- The block index maps over the grid: the row operand and the result move to block (t, 0) at point t; the
    weight matrix and the bias row stay at block (0, 0). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Block t of the row operand holds at (r, k) the operand's entry (2000 t + r, k). -/
theorem rows0 (c : Dev nD) (t : Fin cfg0.N) (y : S2000x32.Idx) (i : (⟨2, ![50000, 32]⟩ : Shape).Idx)
    (ha : (i 0).val = t.val * 2000 + (y 0).val) (hb : (i 1).val = (y 1).val) :
    iblk0 V c 0 t y = V c (Pipeline.arrRef spec0 0) i := by
  obtain ⟨e00, e01, -⟩ := idx0 t
  unfold iblk0
  show V c (Pipeline.arrRef spec0 0) (((cfg0.win 0).blk t).view.emb y) = V c (Pipeline.arrRef spec0 0) i
  refine congrArg (V c (Pipeline.arrRef spec0 0)) (funext fun a => Fin.ext ?_)
  match a with
  | ⟨0, _⟩ => show win0_0.index t (0 : Fin 2) * 2000 + 1 * (y 0).val = (i 0).val; omega
  | ⟨1, _⟩ => show win0_0.index t (1 : Fin 2) * 32 + 1 * (y 1).val = (i 1).val; omega

/-- The weight matrix is read whole at every point. -/
theorem whole0_1 (c : Dev nD) (t : Fin cfg0.N) : iblk0 V c 1 t = V c (Pipeline.arrRef spec0 1) := by
  obtain ⟨_, _, ea, eb, _, _, _, _⟩ := idx0 t
  funext (y : S32x128.Idx)
  unfold iblk0
  show V c (Pipeline.arrRef spec0 1) (((cfg0.win 1).blk t).view.emb y) = V c (Pipeline.arrRef spec0 1) y
  refine congrArg (V c (Pipeline.arrRef spec0 1)) (funext fun a => Fin.ext ?_)
  match a with
  | ⟨0, _⟩ => show win0_1.index t (0 : Fin 2) * 32 + 1 * (y 0).val = (y 0).val; omega
  | ⟨1, _⟩ => show win0_1.index t (1 : Fin 2) * 128 + 1 * (y 1).val = (y 1).val; omega

/-- The bias row is read whole at every point. -/
theorem whole0_2 (c : Dev nD) (t : Fin cfg0.N) : iblk0 V c 2 t = V c (Pipeline.arrRef spec0 2) := by
  obtain ⟨_, _, _, _, ea, eb, _, _⟩ := idx0 t
  funext (y : S1x128.Idx)
  unfold iblk0
  show V c (Pipeline.arrRef spec0 2) (((cfg0.win 2).blk t).view.emb y) = V c (Pipeline.arrRef spec0 2) y
  refine congrArg (V c (Pipeline.arrRef spec0 2)) (funext fun a => Fin.ext ?_)
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- Entry (r, q) of the block point t writes sits at (2000 t + r, q) of the result. -/
theorem outpos0_3 (t : Fin cfg0.N) (j : S2000x128.Idx) :
    ((((cfg0.win 3).blk t).view.emb j) 0).val = t.val * 2000 + (j 0).val
    ∧ ((((cfg0.win 3).blk t).view.emb j) 1).val = (j 1).val := by
  obtain ⟨_, _, _, _, _, _, ea, eb⟩ := idx0 t
  constructor
  · show win0_3.index t (0 : Fin 2) * 2000 + 1 * (j 0).val = t.val * 2000 + (j 0).val; omega
  · show win0_3.index t (1 : Fin 2) * 128 + 1 * (j 1).val = (j 1).val; omega

/-- What point t writes back is block t of `Spec.lin` of the operand arrays. -/
theorem flushed0 (c : Dev nD) (t : Fin cfg0.N) :
    (dat0 (F := Ideal) V c).flushed 3 t = ((cfg0.win 3).blk t).view.read (Elt Ideal)
      (Cert.Spec.lin (M := 50000) (K := 32) (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero hz]
  simp only [View.ld_unit_zero (S := S2000x32) hz, View.ld_unit_zero (S := S32x128) hz, View.ld_unit_zero (S := S1x128) hz]
  funext j
  show k0_pay1 (iblk0 V c 0 t) (iblk0 V c 1 t) (iblk0 V c 2 t) j
    = Cert.Spec.lin (M := 50000) (K := 32) (V c (Pipeline.arrRef spec0 0)) (V c (Pipeline.arrRef spec0 1)) (V c (Pipeline.arrRef spec0 2)) (((cfg0.win 3).blk t).view.emb j)
  exact lin_block (M := 50000) (R := 2000) (K := 32) (V c (Pipeline.arrRef spec0 0)) (V c (Pipeline.arrRef spec0 1)) (V c (Pipeline.arrRef spec0 2)) (iblk0 V c 0 t) (iblk0 V c 1 t) (iblk0 V c 2 t)
    (k0_pay1 (iblk0 V c 0 t) (iblk0 V c 1 t) (iblk0 V c 2 t)) (t.val * 2000) (pay0 (iblk0 V c 0 t) (iblk0 V c 1 t) (iblk0 V c 2 t))
    (fun y i ha hb => rows0 V c t y i ha hb) (whole0_1 V c t) (whole0_2 V c t) j
    (((cfg0.win 3).blk t).view.emb j) (outpos0_3 t j).1 (outpos0_3 t j).2

/-- An index of the result array is in point t's block iff each coordinate is in the block's range. -/
theorem mem_blk0_3 (t : Fin cfg0.N) (i : (⟨2, ![50000, 128]⟩ : Shape).Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v1).slice (win0_3.rect t)).set ↔ _
  rw [View.set_slice_whole, Rect.mem_set_unit]
  exact Iff.rfl

/-- Row r of the result is in the block of point r / 2000. -/
theorem cover0_3 (i : (⟨2, ![50000, 128]⟩ : Shape).Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : (i 0).val / 2000 < cfg0.N := by rw [show cfg0.N = 25 from N_0]; omega
  obtain ⟨f0, f1, f2, f3, f4, f5, f6, f7⟩ := idx0 ⟨(i 0).val / 2000, hN⟩
  have g0 : win0_3.index ⟨(i 0).val / 2000, hN⟩ (0 : Fin 2) = (i 0).val / 2000 := f6
  have g1 : win0_3.index ⟨(i 0).val / 2000, hN⟩ (1 : Fin 2) = 0 := f7
  refine ⟨⟨(i 0).val / 2000, hN⟩, flush0_3 _, ?_⟩
  rw [mem_blk0_3]
  intro a
  match a with
  | ⟨0, _⟩ => show win0_3.index ⟨(i 0).val / 2000, hN⟩ (0 : Fin 2) * 2000 ≤ (i 0).val ∧ (i 0).val < win0_3.index ⟨(i 0).val / 2000, hN⟩ (0 : Fin 2) * 2000 + 2000; omega
  | ⟨1, _⟩ => show win0_3.index ⟨(i 0).val / 2000, hN⟩ (1 : Fin 2) * 128 ≤ (i 1).val ∧ (i 1).val < win0_3.index ⟨(i 0).val / 2000, hN⟩ (1 : Fin 2) * 128 + 128; omega

/-- THE RESULT ARRAY after the region. -/
theorem final0 (c : Dev nD) : (dat0 (F := Ideal) V c).arrAt 3 cfg0.N
    = Cert.Spec.lin (M := 50000) (K := 32) (V c (Pipeline.arrRef spec0 0)) (V c (Pipeline.arrRef spec0 1)) (V c (Pipeline.arrRef spec0 2)) :=
  (dat0 (F := Ideal) V c).arrAt_eq_of_cover 3 (Cert.Spec.lin (M := 50000) (K := 32) (V c (Pipeline.arrRef spec0 0)) (V c (Pipeline.arrRef spec0 1)) (V c (Pipeline.arrRef spec0 2)))
    (fun t _ => flushed0 V c t) (cover0_3)

end Cert.KernelIdeal.Reg

end
-- ==== Proof.Reg1.lean ====
/-
  Region 1: a linear map of the rows plus a bias row.  The 100000 rows of the row operand [100000, 16] are
  cut into 50 blocks of 2000 rows; grid point t reads block t of the row operand, the whole weight matrix
  [16, 128] and the whole bias row [1, 128], and writes block t of the result [100000, 128]: at (r, q) the
  sum over k of x(2000 t + r, k) · w(k, q), plus b(0, q).  The 50 blocks cover the result, so after the
  region the result array is the array-level function `Spec.lin` of the three operand arrays as the region
  found them.
-/
import proofs.«168040_j41652592837487_1_alg».proof.Proof.Gen.KernelIdeal.Frame
import proofs.«168040_j41652592837487_1_alg».proof.Proof.Spec
import proofs.«168040_j41652592837487_1_alg».proof.Proof.RegPay
import Idealize.ShloMosaic.Lib.Pipeline.Value

set_option maxRecDepth 16384

noncomputable section

open scoped BigOperators

namespace Cert.KernelIdeal.Reg

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.RegPay

variable (V : (c : Dev nD) → (b : Ref sig .tc) → Buf (Elt Ideal) ((c : Thread nD τ).loc b))

/-- The body's stored value at row r and column q of a block: the sum over k of x(r,k) · w(k,q), plus b(0,q). -/
theorem pay1 (x : Vec Ideal S2000x16 .f32) (w : Vec Ideal S16x128 .f32) (b : Vec Ideal S1x128 .f32) (r : Fin 2000) (q : Fin 128) :
    k1_pay1 x w b (ix2 r q) = (∑ kk : Fin 16, x (ix2 r kk) * w (ix2 kk q)) + b (ix2 0 q) := by
  unfold k1_pay1
  exact lin_body_apply _ rfl rfl (fun _ _ => rfl) (fun _ _ => rfl) (fun _ _ => rfl) (fun _ _ => rfl) x w b _ _ _ r q

/-- The block index maps over the grid: the row operand and the result move to block (t, 0) at point t; the
    weight matrix and the bias row stay at block (0, 0). -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Block t of the row operand holds at (r, k) the operand's entry (2000 t + r, k). -/
theorem rows1 (c : Dev nD) (t : Fin cfg1.N) (y : S2000x16.Idx) (i : (⟨2, ![100000, 16]⟩ : Shape).Idx)
    (ha : (i 0).val = t.val * 2000 + (y 0).val) (hb : (i 1).val = (y 1).val) :
    iblk1 V c 0 t y = V c (Pipeline.arrRef spec1 0) i := by
  obtain ⟨e00, e01, -⟩ := idx1 t
  unfold iblk1
  show V c (Pipeline.arrRef spec1 0) (((cfg1.win 0).blk t).view.emb y) = V c (Pipeline.arrRef spec1 0) i
  refine congrArg (V c (Pipeline.arrRef spec1 0)) (funext fun a => Fin.ext ?_)
  match a with
  | ⟨0, _⟩ => show win1_0.index t (0 : Fin 2) * 2000 + 1 * (y 0).val = (i 0).val; omega
  | ⟨1, _⟩ => show win1_0.index t (1 : Fin 2) * 16 + 1 * (y 1).val = (i 1).val; omega

/-- The weight matrix is read whole at every point. -/
theorem whole1_1 (c : Dev nD) (t : Fin cfg1.N) : iblk1 V c 1 t = V c (Pipeline.arrRef spec1 1) := by
  obtain ⟨_, _, ea, eb, _, _, _, _⟩ := idx1 t
  funext (y : S16x128.Idx)
  unfold iblk1
  show V c (Pipeline.arrRef spec1 1) (((cfg1.win 1).blk t).view.emb y) = V c (Pipeline.arrRef spec1 1) y
  refine congrArg (V c (Pipeline.arrRef spec1 1)) (funext fun a => Fin.ext ?_)
  match a with
  | ⟨0, _⟩ => show win1_1.index t (0 : Fin 2) * 16 + 1 * (y 0).val = (y 0).val; omega
  | ⟨1, _⟩ => show win1_1.index t (1 : Fin 2) * 128 + 1 * (y 1).val = (y 1).val; omega

/-- The bias row is read whole at every point. -/
theorem whole1_2 (c : Dev nD) (t : Fin cfg1.N) : iblk1 V c 2 t = V c (Pipeline.arrRef spec1 2) := by
  obtain ⟨_, _, _, _, ea, eb, _, _⟩ := idx1 t
  funext (y : S1x128.Idx)
  unfold iblk1
  show V c (Pipeline.arrRef spec1 2) (((cfg1.win 2).blk t).view.emb y) = V c (Pipeline.arrRef spec1 2) y
  refine congrArg (V c (Pipeline.arrRef spec1 2)) (funext fun a => Fin.ext ?_)
  match a with
  | ⟨0, _⟩ => show win1_2.index t (0 : Fin 2) * 1 + 1 * (y 0).val = (y 0).val; omega
  | ⟨1, _⟩ => show win1_2.index t (1 : Fin 2) * 128 + 1 * (y 1).val = (y 1).val; omega

/-- Entry (r, q) of the block point t writes sits at (2000 t + r, q) of the result. -/
theorem outpos1_3 (t : Fin cfg1.N) (j : S2000x128.Idx) :
    ((((cfg1.win 3).blk t).view.emb j) 0).val = t.val * 2000 + (j 0).val
    ∧ ((((cfg1.win 3).blk t).view.emb j) 1).val = (j 1).val := by
  obtain ⟨_, _, _, _, _, _, ea, eb⟩ := idx1 t
  constructor
  · show win1_3.index t (0 : Fin 2) * 2000 + 1 * (j 0).val = t.val * 2000 + (j 0).val; omega
  · show win1_3.index t (1 : Fin 2) * 128 + 1 * (j 1).val = (j 1).val; omega

/-- What point t writes back is block t of `Spec.lin` of the operand arrays. -/
theorem flushed1 (c : Dev nD) (t : Fin cfg1.N) :
    (dat1 (F := Ideal) V c).flushed 3 t = ((cfg1.win 3).blk t).view.read (Elt Ideal)
      (Cert.Spec.lin (M := 100000) (K := 16) (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero hz]
  simp only [View.ld_unit_zero (S := S2000x16) hz, View.ld_unit_zero (S := S16x128) hz, View.ld_unit_zero (S := S1x128) hz]
  funext j
  show k1_pay1 (iblk1 V c 0 t) (iblk1 V c 1 t) (iblk1 V c 2 t) j
    = Cert.Spec.lin (M := 100000) (K := 16) (V c (Pipeline.arrRef spec1 0)) (V c (Pipeline.arrRef spec1 1)) (V c (Pipeline.arrRef spec1 2)) (((cfg1.win 3).blk t).view.emb j)
  exact lin_block (M := 100000) (R := 2000) (K := 16) (V c (Pipeline.arrRef spec1 0)) (V c (Pipeline.arrRef spec1 1)) (V c (Pipeline.arrRef spec1 2)) (iblk1 V c 0 t) (iblk1 V c 1 t) (iblk1 V c 2 t)
    (k1_pay1 (iblk1 V c 0 t) (iblk1 V c 1 t) (iblk1 V c 2 t)) (t.val * 2000) (pay1 (iblk1 V c 0 t) (iblk1 V c 1 t) (iblk1 V c 2 t))
    (fun y i ha hb => rows1 V c t y i ha hb) (whole1_1 V c t) (whole1_2 V c t) j
    (((cfg1.win 3).blk t).view.emb j) (outpos1_3 t j).1 (outpos1_3 t j).2

/-- An index of the result array is in point t's block iff each coordinate is in the block's range. -/
theorem mem_blk1_3 (t : Fin cfg1.N) (i : (⟨2, ![100000, 128]⟩ : Shape).Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v3).slice (win1_3.rect t)).set ↔ _
  rw [View.set_slice_whole, Rect.mem_set_unit]
  exact Iff.rfl

/-- Row r of the result is in the block of point r / 2000. -/
theorem cover1_3 (i : (⟨2, ![100000, 128]⟩ : Shape).Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : (i 0).val / 2000 < cfg1.N := by rw [show cfg1.N = 50 from N_1]; omega
  obtain ⟨f0, f1, f2, f3, f4, f5, f6, f7⟩ := idx1 ⟨(i 0).val / 2000, hN⟩
  have g0 : win1_3.index ⟨(i 0).val / 2000, hN⟩ (0 : Fin 2) = (i 0).val / 2000 := f6
  have g1 : win1_3.index ⟨(i 0).val / 2000, hN⟩ (1 : Fin 2) = 0 := f7
  refine ⟨⟨(i 0).val / 2000, hN⟩, flush1_3 _, ?_⟩
  rw [mem_blk1_3]
  intro a
  match a with
  | ⟨0, _⟩ => show win1_3.index ⟨(i 0).val / 2000, hN⟩ (0 : Fin 2) * 2000 ≤ (i 0).val ∧ (i 0).val < win1_3.index ⟨(i 0).val / 2000, hN⟩ (0 : Fin 2) * 2000 + 2000; omega
  | ⟨1, _⟩ => show win1_3.index ⟨(i 0).val / 2000, hN⟩ (1 : Fin 2) * 128 ≤ (i 1).val ∧ (i 1).val < win1_3.index ⟨(i 0).val / 2000, hN⟩ (1 : Fin 2) * 128 + 128; omega

/-- THE RESULT ARRAY after the region. -/
theorem final1 (c : Dev nD) : (dat1 (F := Ideal) V c).arrAt 3 cfg1.N
    = Cert.Spec.lin (M := 100000) (K := 16) (V c (Pipeline.arrRef spec1 0)) (V c (Pipeline.arrRef spec1 1)) (V c (Pipeline.arrRef spec1 2)) :=
  (dat1 (F := Ideal) V c).arrAt_eq_of_cover 3 (Cert.Spec.lin (M := 100000) (K := 16) (V c (Pipeline.arrRef spec1 0)) (V c (Pipeline.arrRef spec1 1)) (V c (Pipeline.arrRef spec1 2)))
    (fun t _ => flushed1 V c t) (cover1_3)

end Cert.KernelIdeal.Reg

end
-- ==== Proof.Reg2.lean ====
/-
  Region 2: a linear map of the rows plus a bias row.  The 50000 rows of the row operand [50000, 8] are
  cut into 25 blocks of 2000 rows; grid point t reads block t of the row operand, the whole weight matrix
  [8, 128] and the whole bias row [1, 128], and writes block t of the result [50000, 128]: at (r, q) the
  sum over k of x(2000 t + r, k) · w(k, q), plus b(0, q).  The 25 blocks cover the result, so after the
  region the result array is the array-level function `Spec.lin` of the three operand arrays as the region
  found them.
-/
import proofs.«168040_j41652592837487_1_alg».proof.Proof.Gen.KernelIdeal.Frame
import proofs.«168040_j41652592837487_1_alg».proof.Proof.Spec
import proofs.«168040_j41652592837487_1_alg».proof.Proof.RegPay
import Idealize.ShloMosaic.Lib.Pipeline.Value

set_option maxRecDepth 16384

noncomputable section

open scoped BigOperators

namespace Cert.KernelIdeal.Reg

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.RegPay

variable (V : (c : Dev nD) → (b : Ref sig .tc) → Buf (Elt Ideal) ((c : Thread nD τ).loc b))

/-- The body's stored value at row r and column q of a block: the sum over k of x(r,k) · w(k,q), plus b(0,q). -/
theorem pay2 (x : Vec Ideal S2000x8 .f32) (w : Vec Ideal S8x128 .f32) (b : Vec Ideal S1x128 .f32) (r : Fin 2000) (q : Fin 128) :
    k2_pay1 x w b (ix2 r q) = (∑ kk : Fin 8, x (ix2 r kk) * w (ix2 kk q)) + b (ix2 0 q) := by
  unfold k2_pay1
  exact lin_body_apply _ rfl rfl (fun _ _ => rfl) (fun _ _ => rfl) (fun _ _ => rfl) (fun _ _ => rfl) x w b _ _ _ r q

/-- The block index maps over the grid: the row operand and the result move to block (t, 0) at point t; the
    weight matrix and the bias row stay at block (0, 0). -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Block t of the row operand holds at (r, k) the operand's entry (2000 t + r, k). -/
theorem rows2 (c : Dev nD) (t : Fin cfg2.N) (y : S2000x8.Idx) (i : (⟨2, ![50000, 8]⟩ : Shape).Idx)
    (ha : (i 0).val = t.val * 2000 + (y 0).val) (hb : (i 1).val = (y 1).val) :
    iblk2 V c 0 t y = V c (Pipeline.arrRef spec2 0) i := by
  obtain ⟨e00, e01, -⟩ := idx2 t
  unfold iblk2
  show V c (Pipeline.arrRef spec2 0) (((cfg2.win 0).blk t).view.emb y) = V c (Pipeline.arrRef spec2 0) i
  refine congrArg (V c (Pipeline.arrRef spec2 0)) (funext fun a => Fin.ext ?_)
  match a with
  | ⟨0, _⟩ => show win2_0.index t (0 : Fin 2) * 2000 + 1 * (y 0).val = (i 0).val; omega
  | ⟨1, _⟩ => show win2_0.index t (1 : Fin 2) * 8 + 1 * (y 1).val = (i 1).val; omega

/-- The weight matrix is read whole at every point. -/
theorem whole2_1 (c : Dev nD) (t : Fin cfg2.N) : iblk2 V c 1 t = V c (Pipeline.arrRef spec2 1) := by
  obtain ⟨_, _, ea, eb, _, _, _, _⟩ := idx2 t
  funext (y : S8x128.Idx)
  unfold iblk2
  show V c (Pipeline.arrRef spec2 1) (((cfg2.win 1).blk t).view.emb y) = V c (Pipeline.arrRef spec2 1) y
  refine congrArg (V c (Pipeline.arrRef spec2 1)) (funext fun a => Fin.ext ?_)
  match a with
  | ⟨0, _⟩ => show win2_1.index t (0 : Fin 2) * 8 + 1 * (y 0).val = (y 0).val; omega
  | ⟨1, _⟩ => show win2_1.index t (1 : Fin 2) * 128 + 1 * (y 1).val = (y 1).val; omega

/-- The bias row is read whole at every point. -/
theorem whole2_2 (c : Dev nD) (t : Fin cfg2.N) : iblk2 V c 2 t = V c (Pipeline.arrRef spec2 2) := by
  obtain ⟨_, _, _, _, ea, eb, _, _⟩ := idx2 t
  funext (y : S1x128.Idx)
  unfold iblk2
  show V c (Pipeline.arrRef spec2 2) (((cfg2.win 2).blk t).view.emb y) = V c (Pipeline.arrRef spec2 2) y
  refine congrArg (V c (Pipeline.arrRef spec2 2)) (funext fun a => Fin.ext ?_)
  match a with
  | ⟨0, _⟩ => show win2_2.index t (0 : Fin 2) * 1 + 1 * (y 0).val = (y 0).val; omega
  | ⟨1, _⟩ => show win2_2.index t (1 : Fin 2) * 128 + 1 * (y 1).val = (y 1).val; omega

/-- Entry (r, q) of the block point t writes sits at (2000 t + r, q) of the result. -/
theorem outpos2_3 (t : Fin cfg2.N) (j : S2000x128.Idx) :
    ((((cfg2.win 3).blk t).view.emb j) 0).val = t.val * 2000 + (j 0).val
    ∧ ((((cfg2.win 3).blk t).view.emb j) 1).val = (j 1).val := by
  obtain ⟨_, _, _, _, _, _, ea, eb⟩ := idx2 t
  constructor
  · show win2_3.index t (0 : Fin 2) * 2000 + 1 * (j 0).val = t.val * 2000 + (j 0).val; omega
  · show win2_3.index t (1 : Fin 2) * 128 + 1 * (j 1).val = (j 1).val; omega

/-- What point t writes back is block t of `Spec.lin` of the operand arrays. -/
theorem flushed2 (c : Dev nD) (t : Fin cfg2.N) :
    (dat2 (F := Ideal) V c).flushed 3 t = ((cfg2.win 3).blk t).view.read (Elt Ideal)
      (Cert.Spec.lin (M := 50000) (K := 8) (V c (Pipeline.arrRef spec2 0)) (V c (Pipeline.arrRef spec2 1)) (V c (Pipeline.arrRef spec2 2))) := by
  show (cfg2.win 3).cut (grid2.coords t) ((dat2 V c).after 3 t) = _
  rw [after2_3]
  unfold out2_3
  rw [View.canon_unit_zero hz]
  simp only [View.ld_unit_zero (S := S2000x8) hz, View.ld_unit_zero (S := S8x128) hz, View.ld_unit_zero (S := S1x128) hz]
  funext j
  show k2_pay1 (iblk2 V c 0 t) (iblk2 V c 1 t) (iblk2 V c 2 t) j
    = Cert.Spec.lin (M := 50000) (K := 8) (V c (Pipeline.arrRef spec2 0)) (V c (Pipeline.arrRef spec2 1)) (V c (Pipeline.arrRef spec2 2)) (((cfg2.win 3).blk t).view.emb j)
  exact lin_block (M := 50000) (R := 2000) (K := 8) (V c (Pipeline.arrRef spec2 0)) (V c (Pipeline.arrRef spec2 1)) (V c (Pipeline.arrRef spec2 2)) (iblk2 V c 0 t) (iblk2 V c 1 t) (iblk2 V c 2 t)
    (k2_pay1 (iblk2 V c 0 t) (iblk2 V c 1 t) (iblk2 V c 2 t)) (t.val * 2000) (pay2 (iblk2 V c 0 t) (iblk2 V c 1 t) (iblk2 V c 2 t))
    (fun y i ha hb => rows2 V c t y i ha hb) (whole2_1 V c t) (whole2_2 V c t) j
    (((cfg2.win 3).blk t).view.emb j) (outpos2_3 t j).1 (outpos2_3 t j).2

/-- An index of the result array is in point t's block iff each coordinate is in the block's range. -/
theorem mem_blk2_3 (t : Fin cfg2.N) (i : (⟨2, ![50000, 128]⟩ : Shape).Idx) :
    i ∈ ((cfg2.win 3).blk t).view.set ↔ ∀ a : Fin 2, win2_3.index t a * S2000x128.size a ≤ (i a).val ∧ (i a).val < win2_3.index t a * S2000x128.size a + S2000x128.size a := by
  show i ∈ ((View.whole main_v5).slice (win2_3.rect t)).set ↔ _
  rw [View.set_slice_whole, Rect.mem_set_unit]
  exact Iff.rfl

/-- Row r of the result is in the block of point r / 2000. -/
theorem cover2_3 (i : (⟨2, ![50000, 128]⟩ : Shape).Idx) :
    ∃ t : Fin cfg2.N, (cfg2.win 3).flush t = true ∧ i ∈ ((cfg2.win 3).blk t).view.set := by
  have hi0 : (i 0).val < 50000 := (i 0).isLt
  have hi1 : (i 1).val < 128 := (i 1).isLt
  have hN : (i 0).val / 2000 < cfg2.N := by rw [show cfg2.N = 25 from N_2]; omega
  obtain ⟨f0, f1, f2, f3, f4, f5, f6, f7⟩ := idx2 ⟨(i 0).val / 2000, hN⟩
  have g0 : win2_3.index ⟨(i 0).val / 2000, hN⟩ (0 : Fin 2) = (i 0).val / 2000 := f6
  have g1 : win2_3.index ⟨(i 0).val / 2000, hN⟩ (1 : Fin 2) = 0 := f7
  refine ⟨⟨(i 0).val / 2000, hN⟩, flush2_3 _, ?_⟩
  rw [mem_blk2_3]
  intro a
  match a with
  | ⟨0, _⟩ => show win2_3.index ⟨(i 0).val / 2000, hN⟩ (0 : Fin 2) * 2000 ≤ (i 0).val ∧ (i 0).val < win2_3.index ⟨(i 0).val / 2000, hN⟩ (0 : Fin 2) * 2000 + 2000; omega
  | ⟨1, _⟩ => show win2_3.index ⟨(i 0).val / 2000, hN⟩ (1 : Fin 2) * 128 ≤ (i 1).val ∧ (i 1).val < win2_3.index ⟨(i 0).val / 2000, hN⟩ (1 : Fin 2) * 128 + 128; omega

/-- THE RESULT ARRAY after the region. -/
theorem final2 (c : Dev nD) : (dat2 (F := Ideal) V c).arrAt 3 cfg2.N
    = Cert.Spec.lin (M := 50000) (K := 8) (V c (Pipeline.arrRef spec2 0)) (V c (Pipeline.arrRef spec2 1)) (V c (Pipeline.arrRef spec2 2)) :=
  (dat2 (F := Ideal) V c).arrAt_eq_of_cover 3 (Cert.Spec.lin (M := 50000) (K := 8) (V c (Pipeline.arrRef spec2 0)) (V c (Pipeline.arrRef spec2 1)) (V c (Pipeline.arrRef spec2 2)))
    (fun t _ => flushed2 V c t) (cover2_3)

end Cert.KernelIdeal.Reg

end
-- ==== Proof.Reg3.lean ====
/-
  Region 3: a linear map of the rows plus a bias row.  The 20000 rows of the row operand [20000, 8] are
  cut into 10 blocks of 2000 rows; grid point t reads block t of the row operand, the whole weight matrix
  [8, 128] and the whole bias row [1, 128], and writes block t of the result [20000, 128]: at (r, q) the
  sum over k of x(2000 t + r, k) · w(k, q), plus b(0, q).  The 10 blocks cover the result, so after the
  region the result array is the array-level function `Spec.lin` of the three operand arrays as the region
  found them.
-/
import proofs.«168040_j41652592837487_1_alg».proof.Proof.Gen.KernelIdeal.Frame
import proofs.«168040_j41652592837487_1_alg».proof.Proof.Spec
import proofs.«168040_j41652592837487_1_alg».proof.Proof.RegPay
import Idealize.ShloMosaic.Lib.Pipeline.Value

set_option maxRecDepth 16384

noncomputable section

open scoped BigOperators

namespace Cert.KernelIdeal.Reg

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.RegPay

variable (V : (c : Dev nD) → (b : Ref sig .tc) → Buf (Elt Ideal) ((c : Thread nD τ).loc b))

/-- The body's stored value at row r and column q of a block: the sum over k of x(r,k) · w(k,q), plus b(0,q). -/
theorem pay3 (x : Vec Ideal S2000x8 .f32) (w : Vec Ideal S8x128 .f32) (b : Vec Ideal S1x128 .f32) (r : Fin 2000) (q : Fin 128) :
    k3_pay1 x w b (ix2 r q) = (∑ kk : Fin 8, x (ix2 r kk) * w (ix2 kk q)) + b (ix2 0 q) := by
  unfold k3_pay1
  exact lin_body_apply _ rfl rfl (fun _ _ => rfl) (fun _ _ => rfl) (fun _ _ => rfl) (fun _ _ => rfl) x w b _ _ _ r q

/-- The block index maps over the grid: the row operand and the result move to block (t, 0) at point t; the
    weight matrix and the bias row stay at block (0, 0). -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Block t of the row operand holds at (r, k) the operand's entry (2000 t + r, k). -/
theorem rows3 (c : Dev nD) (t : Fin cfg3.N) (y : S2000x8.Idx) (i : (⟨2, ![20000, 8]⟩ : Shape).Idx)
    (ha : (i 0).val = t.val * 2000 + (y 0).val) (hb : (i 1).val = (y 1).val) :
    iblk3 V c 0 t y = V c (Pipeline.arrRef spec3 0) i := by
  obtain ⟨e00, e01, -⟩ := idx3 t
  unfold iblk3
  show V c (Pipeline.arrRef spec3 0) (((cfg3.win 0).blk t).view.emb y) = V c (Pipeline.arrRef spec3 0) i
  refine congrArg (V c (Pipeline.arrRef spec3 0)) (funext fun a => Fin.ext ?_)
  match a with
  | ⟨0, _⟩ => show win3_0.index t (0 : Fin 2) * 2000 + 1 * (y 0).val = (i 0).val; omega
  | ⟨1, _⟩ => show win3_0.index t (1 : Fin 2) * 8 + 1 * (y 1).val = (i 1).val; omega

/-- The weight matrix is read whole at every point. -/
theorem whole3_1 (c : Dev nD) (t : Fin cfg3.N) : iblk3 V c 1 t = V c (Pipeline.arrRef spec3 1) := by
  obtain ⟨_, _, ea, eb, _, _, _, _⟩ := idx3 t
  funext (y : S8x128.Idx)
  unfold iblk3
  show V c (Pipeline.arrRef spec3 1) (((cfg3.win 1).blk t).view.emb y) = V c (Pipeline.arrRef spec3 1) y
  refine congrArg (V c (Pipeline.arrRef spec3 1)) (funext fun a => Fin.ext ?_)
  match a with
  | ⟨0, _⟩ => show win3_1.index t (0 : Fin 2) * 8 + 1 * (y 0).val = (y 0).val; omega
  | ⟨1, _⟩ => show win3_1.index t (1 : Fin 2) * 128 + 1 * (y 1).val = (y 1).val; omega

/-- The bias row is read whole at every point. -/
theorem whole3_2 (c : Dev nD) (t : Fin cfg3.N) : iblk3 V c 2 t = V c (Pipeline.arrRef spec3 2) := by
  obtain ⟨_, _, _, _, ea, eb, _, _⟩ := idx3 t
  funext (y : S1x128.Idx)
  unfold iblk3
  show V c (Pipeline.arrRef spec3 2) (((cfg3.win 2).blk t).view.emb y) = V c (Pipeline.arrRef spec3 2) y
  refine congrArg (V c (Pipeline.arrRef spec3 2)) (funext fun a => Fin.ext ?_)
  match a with
  | ⟨0, _⟩ => show win3_2.index t (0 : Fin 2) * 1 + 1 * (y 0).val = (y 0).val; omega
  | ⟨1, _⟩ => show win3_2.index t (1 : Fin 2) * 128 + 1 * (y 1).val = (y 1).val; omega

/-- Entry (r, q) of the block point t writes sits at (2000 t + r, q) of the result. -/
theorem outpos3_3 (t : Fin cfg3.N) (j : S2000x128.Idx) :
    ((((cfg3.win 3).blk t).view.emb j) 0).val = t.val * 2000 + (j 0).val
    ∧ ((((cfg3.win 3).blk t).view.emb j) 1).val = (j 1).val := by
  obtain ⟨_, _, _, _, _, _, ea, eb⟩ := idx3 t
  constructor
  · show win3_3.index t (0 : Fin 2) * 2000 + 1 * (j 0).val = t.val * 2000 + (j 0).val; omega
  · show win3_3.index t (1 : Fin 2) * 128 + 1 * (j 1).val = (j 1).val; omega

/-- What point t writes back is block t of `Spec.lin` of the operand arrays. -/
theorem flushed3 (c : Dev nD) (t : Fin cfg3.N) :
    (dat3 (F := Ideal) V c).flushed 3 t = ((cfg3.win 3).blk t).view.read (Elt Ideal)
      (Cert.Spec.lin (M := 20000) (K := 8) (V c (Pipeline.arrRef spec3 0)) (V c (Pipeline.arrRef spec3 1)) (V c (Pipeline.arrRef spec3 2))) := by
  show (cfg3.win 3).cut (grid3.coords t) ((dat3 V c).after 3 t) = _
  rw [after3_3]
  unfold out3_3
  rw [View.canon_unit_zero hz]
  simp only [View.ld_unit_zero (S := S2000x8) hz, View.ld_unit_zero (S := S8x128) hz, View.ld_unit_zero (S := S1x128) hz]
  funext j
  show k3_pay1 (iblk3 V c 0 t) (iblk3 V c 1 t) (iblk3 V c 2 t) j
    = Cert.Spec.lin (M := 20000) (K := 8) (V c (Pipeline.arrRef spec3 0)) (V c (Pipeline.arrRef spec3 1)) (V c (Pipeline.arrRef spec3 2)) (((cfg3.win 3).blk t).view.emb j)
  exact lin_block (M := 20000) (R := 2000) (K := 8) (V c (Pipeline.arrRef spec3 0)) (V c (Pipeline.arrRef spec3 1)) (V c (Pipeline.arrRef spec3 2)) (iblk3 V c 0 t) (iblk3 V c 1 t) (iblk3 V c 2 t)
    (k3_pay1 (iblk3 V c 0 t) (iblk3 V c 1 t) (iblk3 V c 2 t)) (t.val * 2000) (pay3 (iblk3 V c 0 t) (iblk3 V c 1 t) (iblk3 V c 2 t))
    (fun y i ha hb => rows3 V c t y i ha hb) (whole3_1 V c t) (whole3_2 V c t) j
    (((cfg3.win 3).blk t).view.emb j) (outpos3_3 t j).1 (outpos3_3 t j).2

/-- An index of the result array is in point t's block iff each coordinate is in the block's range. -/
theorem mem_blk3_3 (t : Fin cfg3.N) (i : (⟨2, ![20000, 128]⟩ : Shape).Idx) :
    i ∈ ((cfg3.win 3).blk t).view.set ↔ ∀ a : Fin 2, win3_3.index t a * S2000x128.size a ≤ (i a).val ∧ (i a).val < win3_3.index t a * S2000x128.size a + S2000x128.size a := by
  show i ∈ ((View.whole main_v7).slice (win3_3.rect t)).set ↔ _
  rw [View.set_slice_whole, Rect.mem_set_unit]
  exact Iff.rfl

/-- Row r of the result is in the block of point r / 2000. -/
theorem cover3_3 (i : (⟨2, ![20000, 128]⟩ : Shape).Idx) :
    ∃ t : Fin cfg3.N, (cfg3.win 3).flush t = true ∧ i ∈ ((cfg3.win 3).blk t).view.set := by
  have hi0 : (i 0).val < 20000 := (i 0).isLt
  have hi1 : (i 1).val < 128 := (i 1).isLt
  have hN : (i 0).val / 2000 < cfg3.N := by rw [show cfg3.N = 10 from N_3]; omega
  obtain ⟨f0, f1, f2, f3, f4, f5, f6, f7⟩ := idx3 ⟨(i 0).val / 2000, hN⟩
  have g0 : win3_3.index ⟨(i 0).val / 2000, hN⟩ (0 : Fin 2) = (i 0).val / 2000 := f6
  have g1 : win3_3.index ⟨(i 0).val / 2000, hN⟩ (1 : Fin 2) = 0 := f7
  refine ⟨⟨(i 0).val / 2000, hN⟩, flush3_3 _, ?_⟩
  rw [mem_blk3_3]
  intro a
  match a with
  | ⟨0, _⟩ => show win3_3.index ⟨(i 0).val / 2000, hN⟩ (0 : Fin 2) * 2000 ≤ (i 0).val ∧ (i 0).val < win3_3.index ⟨(i 0).val / 2000, hN⟩ (0 : Fin 2) * 2000 + 2000; omega
  | ⟨1, _⟩ => show win3_3.index ⟨(i 0).val / 2000, hN⟩ (1 : Fin 2) * 128 ≤ (i 1).val ∧ (i 1).val < win3_3.index ⟨(i 0).val / 2000, hN⟩ (1 : Fin 2) * 128 + 128; omega

/-- THE RESULT ARRAY after the region. -/
theorem final3 (c : Dev nD) : (dat3 (F := Ideal) V c).arrAt 3 cfg3.N
    = Cert.Spec.lin (M := 20000) (K := 8) (V c (Pipeline.arrRef spec3 0)) (V c (Pipeline.arrRef spec3 1)) (V c (Pipeline.arrRef spec3 2)) :=
  (dat3 (F := Ideal) V c).arrAt_eq_of_cover 3 (Cert.Spec.lin (M := 20000) (K := 8) (V c (Pipeline.arrRef spec3 0)) (V c (Pipeline.arrRef spec3 1)) (V c (Pipeline.arrRef spec3 2)))
    (fun t _ => flushed3 V c t) (cover3_3)

end Cert.KernelIdeal.Reg

end
-- ==== Proof.Reg4.lean ====
/-
  Region 4: two products of the same rows.  The 50000 rows of the row operand [50000, 128] are cut into 25
  blocks of 2000 rows; grid point t reads block t of the row operand, two whole weight matrices [128, 128]
  and a whole bias row [1, 128], and writes block t of two results [50000, 128]: the first at (r, q) the sum
  over k of x(2000 t + r, k) · wa(k, q), plus b(0, q); the second the sum over k of x(2000 t + r, k) · wb(k, q).
  The 25 blocks cover each result, so after the region the two result arrays are the array-level functions
  `Spec.lin` and `Spec.mm` of the operand arrays as the region found them.
-/
import proofs.«168040_j41652592837487_1_alg».proof.Proof.Gen.KernelIdeal.Frame
import proofs.«168040_j41652592837487_1_alg».proof.Proof.Spec
import proofs.«168040_j41652592837487_1_alg».proof.Proof.RegPay
import Idealize.ShloMosaic.Lib.Pipeline.Value

set_option maxRecDepth 16384

noncomputable section

open scoped BigOperators

namespace Cert.KernelIdeal.Reg

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.RegPay

variable (V : (c : Dev nD) → (b : Ref sig .tc) → Buf (Elt Ideal) ((c : Thread nD τ).loc b))

/-- The first stored value at row r and column q of a block: the sum over k of x(r,k) · wa(k,q), plus b(0,q). -/
theorem pay4_2 (x : Vec Ideal S2000x128 .f32) (w : Vec Ideal S128x128 .f32) (b : Vec Ideal S1x128 .f32) (r : Fin 2000) (q : Fin 128) :
    k4_pay2 x w b (ix2 r q) = (∑ kk : Fin 128, x (ix2 r kk) * w (ix2 kk q)) + b (ix2 0 q) := by
  unfold k4_pay2 k4_pay1
  exact lin_body_cast_apply _ rfl rfl (fun _ _ => rfl) (fun _ _ => rfl) (fun _ _ => rfl) (fun _ _ => rfl) x w b _ _ _ _ _ r q

/-- The second stored value at row r and column q of a block: the sum over k of x(r,k) · wb(k,q). -/
theorem pay4_3 (x : Vec Ideal S2000x128 .f32) (w : Vec Ideal S128x128 .f32) (r : Fin 2000) (q : Fin 128) :
    k4_pay3 x w (ix2 r q) = ∑ kk : Fin 128, x (ix2 r kk) * w (ix2 kk q) := by
  unfold k4_pay3 k4_pay1
  exact mm_body_cast_apply _ rfl rfl (fun _ _ => rfl) (fun _ _ => rfl) (fun _ _ => rfl) (fun _ _ => rfl) x w _ _ _ r q

/-- The block index maps over the grid: the row operand and the two results move to block (t, 0) at point t;
    the weight matrices and the bias row stay at block (0, 0). -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0
    ∧ win4_5.index t (0 : Fin 2) = t.val ∧ win4_5.index t (1 : Fin 2) = 0 :=
  (by decide +kernel : ∀ t : Fin grid4.N, _)

/-- Block t of the row operand holds at (r, k) the operand's entry (2000 t + r, k). -/
theorem rows4 (c : Dev nD) (t : Fin cfg4.N) (y : S2000x128.Idx) (i : (⟨2, ![50000, 128]⟩ : Shape).Idx)
    (ha : (i 0).val = t.val * 2000 + (y 0).val) (hb : (i 1).val = (y 1).val) :
    iblk4 V c 0 t y = V c (Pipeline.arrRef spec4 0) i := by
  obtain ⟨e00, e01, -⟩ := idx4 t
  unfold iblk4
  show V c (Pipeline.arrRef spec4 0) (((cfg4.win 0).blk t).view.emb y) = V c (Pipeline.arrRef spec4 0) i
  refine congrArg (V c (Pipeline.arrRef spec4 0)) (funext fun a => Fin.ext ?_)
  match a with
  | ⟨0, _⟩ => show win4_0.index t (0 : Fin 2) * 2000 + 1 * (y 0).val = (i 0).val; omega
  | ⟨1, _⟩ => show win4_0.index t (1 : Fin 2) * 128 + 1 * (y 1).val = (i 1).val; omega

/-- The first weight matrix is read whole at every point. -/
theorem whole4_1 (c : Dev nD) (t : Fin cfg4.N) : iblk4 V c 1 t = V c (Pipeline.arrRef spec4 1) := by
  obtain ⟨_, _, ea, eb, _, _, _, _, _, _, _, _⟩ := idx4 t
  funext (y : S128x128.Idx)
  unfold iblk4
  show V c (Pipeline.arrRef spec4 1) (((cfg4.win 1).blk t).view.emb y) = V c (Pipeline.arrRef spec4 1) y
  refine congrArg (V c (Pipeline.arrRef spec4 1)) (funext fun a => Fin.ext ?_)
  match a with
  | ⟨0, _⟩ => show win4_1.index t (0 : Fin 2) * 128 + 1 * (y 0).val = (y 0).val; omega
  | ⟨1, _⟩ => show win4_1.index t (1 : Fin 2) * 128 + 1 * (y 1).val = (y 1).val; omega

/-- The bias row is read whole at every point. -/
theorem whole4_2 (c : Dev nD) (t : Fin cfg4.N) : iblk4 V c 2 t = V c (Pipeline.arrRef spec4 2) := by
  obtain ⟨_, _, _, _, ea, eb, _, _, _, _, _, _⟩ := idx4 t
  funext (y : S1x128.Idx)
  unfold iblk4
  show V c (Pipeline.arrRef spec4 2) (((cfg4.win 2).blk t).view.emb y) = V c (Pipeline.arrRef spec4 2) y
  refine congrArg (V c (Pipeline.arrRef spec4 2)) (funext fun a => Fin.ext ?_)
  match a with
  | ⟨0, _⟩ => show win4_2.index t (0 : Fin 2) * 1 + 1 * (y 0).val = (y 0).val; omega
  | ⟨1, _⟩ => show win4_2.index t (1 : Fin 2) * 128 + 1 * (y 1).val = (y 1).val; omega

/-- The second weight matrix is read whole at every point. -/
theorem whole4_3 (c : Dev nD) (t : Fin cfg4.N) : iblk4 V c 3 t = V c (Pipeline.arrRef spec4 3) := by
  obtain ⟨_, _, _, _, _, _, ea, eb, _, _, _, _⟩ := idx4 t
  funext (y : S128x128.Idx)
  unfold iblk4
  show V c (Pipeline.arrRef spec4 3) (((cfg4.win 3).blk t).view.emb y) = V c (Pipeline.arrRef spec4 3) y
  refine congrArg (V c (Pipeline.arrRef spec4 3)) (funext fun a => Fin.ext ?_)
  match a with
  | ⟨0, _⟩ => show win4_3.index t (0 : Fin 2) * 128 + 1 * (y 0).val = (y 0).val; omega
  | ⟨1, _⟩ => show win4_3.index t (1 : Fin 2) * 128 + 1 * (y 1).val = (y 1).val; omega

/-- Entry (r, q) of the block point t writes sits at (2000 t + r, q) of the result. -/
theorem outpos4_4 (t : Fin cfg4.N) (j : S2000x128.Idx) :
    ((((cfg4.win 4).blk t).view.emb j) 0).val = t.val * 2000 + (j 0).val
    ∧ ((((cfg4.win 4).blk t).view.emb j) 1).val = (j 1).val := by
  obtain ⟨_, _, _, _, _, _, _, _, ea, eb, _, _⟩ := idx4 t
  constructor
  · show win4_4.index t (0 : Fin 2) * 2000 + 1 * (j 0).val = t.val * 2000 + (j 0).val; omega
  · show win4_4.index t (1 : Fin 2) * 128 + 1 * (j 1).val = (j 1).val; omega

/-- Entry (r, q) of the block point t writes sits at (2000 t + r, q) of the result. -/
theorem outpos4_5 (t : Fin cfg4.N) (j : S2000x128.Idx) :
    ((((cfg4.win 5).blk t).view.emb j) 0).val = t.val * 2000 + (j 0).val
    ∧ ((((cfg4.win 5).blk t).view.emb j) 1).val = (j 1).val := by
  obtain ⟨_, _, _, _, _, _, _, _, _, _, ea, eb⟩ := idx4 t
  constructor
  · show win4_5.index t (0 : Fin 2) * 2000 + 1 * (j 0).val = t.val * 2000 + (j 0).val; omega
  · show win4_5.index t (1 : Fin 2) * 128 + 1 * (j 1).val = (j 1).val; omega

/-- What point t writes back through the first result's window is block t of `Spec.lin` of the operand arrays. -/
theorem flushed4_4 (c : Dev nD) (t : Fin cfg4.N) :
    (dat4 (F := Ideal) V c).flushed 4 t = ((cfg4.win 4).blk t).view.read (Elt Ideal)
      (Cert.Spec.lin (M := 50000) (K := 128) (V c (Pipeline.arrRef spec4 0)) (V c (Pipeline.arrRef spec4 1)) (V c (Pipeline.arrRef spec4 2))) := by
  show (cfg4.win 4).cut (grid4.coords t) ((dat4 V c).after 4 t) = _
  rw [after4_4]
  unfold out4_4
  rw [View.canon_unit_zero hz]
  simp only [View.ld_unit_zero (S := S2000x128) hz, View.ld_unit_zero (S := S128x128) hz, View.ld_unit_zero (S := S1x128) hz]
  funext j
  show k4_pay2 (iblk4 V c 0 t) (iblk4 V c 1 t) (iblk4 V c 2 t) j
    = Cert.Spec.lin (M := 50000) (K := 128) (V c (Pipeline.arrRef spec4 0)) (V c (Pipeline.arrRef spec4 1)) (V c (Pipeline.arrRef spec4 2)) (((cfg4.win 4).blk t).view.emb j)
  exact lin_block (M := 50000) (R := 2000) (K := 128) (V c (Pipeline.arrRef spec4 0)) (V c (Pipeline.arrRef spec4 1)) (V c (Pipeline.arrRef spec4 2)) (iblk4 V c 0 t) (iblk4 V c 1 t) (iblk4 V c 2 t)
    (k4_pay2 (iblk4 V c 0 t) (iblk4 V c 1 t) (iblk4 V c 2 t)) (t.val * 2000) (pay4_2 (iblk4 V c 0 t) (iblk4 V c 1 t) (iblk4 V c 2 t))
    (fun y i ha hb => rows4 V c t y i ha hb) (whole4_1 V c t) (whole4_2 V c t) j
    (((cfg4.win 4).blk t).view.emb j) (outpos4_4 t j).1 (outpos4_4 t j).2

/-- What point t writes back through the second result's window is block t of `Spec.mm` of the operand arrays. -/
theorem flushed4_5 (c : Dev nD) (t : Fin cfg4.N) :
    (dat4 (F := Ideal) V c).flushed 5 t = ((cfg4.win 5).blk t).view.read (Elt Ideal)
      (Cert.Spec.mm (M := 50000) (K := 128) (V c (Pipeline.arrRef spec4 0)) (V c (Pipeline.arrRef spec4 3))) := by
  show (cfg4.win 5).cut (grid4.coords t) ((dat4 V c).after 5 t) = _
  rw [after4_5]
  unfold out4_5
  rw [View.canon_unit_zero hz]
  simp only [View.ld_unit_zero (S := S2000x128) hz, View.ld_unit_zero (S := S128x128) hz]
  funext j
  show k4_pay3 (iblk4 V c 0 t) (iblk4 V c 3 t) j
    = Cert.Spec.mm (M := 50000) (K := 128) (V c (Pipeline.arrRef spec4 0)) (V c (Pipeline.arrRef spec4 3)) (((cfg4.win 5).blk t).view.emb j)
  exact mm_block (M := 50000) (R := 2000) (K := 128) (V c (Pipeline.arrRef spec4 0)) (V c (Pipeline.arrRef spec4 3)) (iblk4 V c 0 t) (iblk4 V c 3 t)
    (k4_pay3 (iblk4 V c 0 t) (iblk4 V c 3 t)) (t.val * 2000) (pay4_3 (iblk4 V c 0 t) (iblk4 V c 3 t))
    (fun y i ha hb => rows4 V c t y i ha hb) (whole4_3 V c t) j
    (((cfg4.win 5).blk t).view.emb j) (outpos4_5 t j).1 (outpos4_5 t j).2

/-- An index of the result array is in point t's block iff each coordinate is in the block's range. -/
theorem mem_blk4_4 (t : Fin cfg4.N) (i : (⟨2, ![50000, 128]⟩ : Shape).Idx) :
    i ∈ ((cfg4.win 4).blk t).view.set ↔ ∀ a : Fin 2, win4_4.index t a * S2000x128.size a ≤ (i a).val ∧ (i a).val < win4_4.index t a * S2000x128.size a + S2000x128.size a := by
  show i ∈ ((View.whole main_v60_0).slice (win4_4.rect t)).set ↔ _
  rw [View.set_slice_whole, Rect.mem_set_unit]
  exact Iff.rfl

/-- Row r of the result is in the block of point r / 2000. -/
theorem cover4_4 (i : (⟨2, ![50000, 128]⟩ : Shape).Idx) :
    ∃ t : Fin cfg4.N, (cfg4.win 4).flush t = true ∧ i ∈ ((cfg4.win 4).blk t).view.set := by
  have hi0 : (i 0).val < 50000 := (i 0).isLt
  have hi1 : (i 1).val < 128 := (i 1).isLt
  have hN : (i 0).val / 2000 < cfg4.N := by rw [show cfg4.N = 25 from N_4]; omega
  obtain ⟨f0, f1, f2, f3, f4, f5, f6, f7, f8, f9, f10, f11⟩ := idx4 ⟨(i 0).val / 2000, hN⟩
  have g0 : win4_4.index ⟨(i 0).val / 2000, hN⟩ (0 : Fin 2) = (i 0).val / 2000 := f8
  have g1 : win4_4.index ⟨(i 0).val / 2000, hN⟩ (1 : Fin 2) = 0 := f9
  refine ⟨⟨(i 0).val / 2000, hN⟩, flush4_4 _, ?_⟩
  rw [mem_blk4_4]
  intro a
  match a with
  | ⟨0, _⟩ => show win4_4.index ⟨(i 0).val / 2000, hN⟩ (0 : Fin 2) * 2000 ≤ (i 0).val ∧ (i 0).val < win4_4.index ⟨(i 0).val / 2000, hN⟩ (0 : Fin 2) * 2000 + 2000; omega
  | ⟨1, _⟩ => show win4_4.index ⟨(i 0).val / 2000, hN⟩ (1 : Fin 2) * 128 ≤ (i 1).val ∧ (i 1).val < win4_4.index ⟨(i 0).val / 2000, hN⟩ (1 : Fin 2) * 128 + 128; omega

/-- THE RESULT ARRAY after the region. -/
theorem final4_4 (c : Dev nD) : (dat4 (F := Ideal) V c).arrAt 4 cfg4.N
    = Cert.Spec.lin (M := 50000) (K := 128) (V c (Pipeline.arrRef spec4 0)) (V c (Pipeline.arrRef spec4 1)) (V c (Pipeline.arrRef spec4 2)) :=
  (dat4 (F := Ideal) V c).arrAt_eq_of_cover 4 (Cert.Spec.lin (M := 50000) (K := 128) (V c (Pipeline.arrRef spec4 0)) (V c (Pipeline.arrRef spec4 1)) (V c (Pipeline.arrRef spec4 2)))
    (fun t _ => flushed4_4 V c t) (cover4_4)

/-- An index of the result array is in point t's block iff each coordinate is in the block's range. -/
theorem mem_blk4_5 (t : Fin cfg4.N) (i : (⟨2, ![50000, 128]⟩ : Shape).Idx) :
    i ∈ ((cfg4.win 5).blk t).view.set ↔ ∀ a : Fin 2, win4_5.index t a * S2000x128.size a ≤ (i a).val ∧ (i a).val < win4_5.index t a * S2000x128.size a + S2000x128.size a := by
  show i ∈ ((View.whole main_v60_1).slice (win4_5.rect t)).set ↔ _
  rw [View.set_slice_whole, Rect.mem_set_unit]
  exact Iff.rfl

/-- Row r of the result is in the block of point r / 2000. -/
theorem cover4_5 (i : (⟨2, ![50000, 128]⟩ : Shape).Idx) :
    ∃ t : Fin cfg4.N, (cfg4.win 5).flush t = true ∧ i ∈ ((cfg4.win 5).blk t).view.set := by
  have hi0 : (i 0).val < 50000 := (i 0).isLt
  have hi1 : (i 1).val < 128 := (i 1).isLt
  have hN : (i 0).val / 2000 < cfg4.N := by rw [show cfg4.N = 25 from N_4]; omega
  obtain ⟨f0, f1, f2, f3, f4, f5, f6, f7, f8, f9, f10, f11⟩ := idx4 ⟨(i 0).val / 2000, hN⟩
  have g0 : win4_5.index ⟨(i 0).val / 2000, hN⟩ (0 : Fin 2) = (i 0).val / 2000 := f10
  have g1 : win4_5.index ⟨(i 0).val / 2000, hN⟩ (1 : Fin 2) = 0 := f11
  refine ⟨⟨(i 0).val / 2000, hN⟩, flush4_5 _, ?_⟩
  rw [mem_blk4_5]
  intro a
  match a with
  | ⟨0, _⟩ => show win4_5.index ⟨(i 0).val / 2000, hN⟩ (0 : Fin 2) * 2000 ≤ (i 0).val ∧ (i 0).val < win4_5.index ⟨(i 0).val / 2000, hN⟩ (0 : Fin 2) * 2000 + 2000; omega
  | ⟨1, _⟩ => show win4_5.index ⟨(i 0).val / 2000, hN⟩ (1 : Fin 2) * 128 ≤ (i 1).val ∧ (i 1).val < win4_5.index ⟨(i 0).val / 2000, hN⟩ (1 : Fin 2) * 128 + 128; omega

/-- THE RESULT ARRAY after the region. -/
theorem final4_5 (c : Dev nD) : (dat4 (F := Ideal) V c).arrAt 5 cfg4.N
    = Cert.Spec.mm (M := 50000) (K := 128) (V c (Pipeline.arrRef spec4 0)) (V c (Pipeline.arrRef spec4 3)) :=
  (dat4 (F := Ideal) V c).arrAt_eq_of_cover 5 (Cert.Spec.mm (M := 50000) (K := 128) (V c (Pipeline.arrRef spec4 0)) (V c (Pipeline.arrRef spec4 3)))
    (fun t _ => flushed4_5 V c t) (cover4_5)

end Cert.KernelIdeal.Reg

end
-- ==== Proof.Reg5.lean ====
/-
  Region 5: a linear map of the rows plus a bias row.  The 100000 rows of the row operand [100000, 128] are
  cut into 50 blocks of 2000 rows; grid point t reads block t of the row operand, the whole weight matrix
  [128, 128] and the whole bias row [1, 128], and writes block t of the result [100000, 128]: at (r, q) the
  sum over k of x(2000 t + r, k) · w(k, q), plus b(0, q).  The 50 blocks cover the result, so after the
  region the result array is the array-level function `Spec.lin` of the three operand arrays as the region
  found them.
-/
import proofs.«168040_j41652592837487_1_alg».proof.Proof.Gen.KernelIdeal.Frame
import proofs.«168040_j41652592837487_1_alg».proof.Proof.Spec
import proofs.«168040_j41652592837487_1_alg».proof.Proof.RegPay
import Idealize.ShloMosaic.Lib.Pipeline.Value

set_option maxRecDepth 16384

noncomputable section

open scoped BigOperators

namespace Cert.KernelIdeal.Reg

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.RegPay

variable (V : (c : Dev nD) → (b : Ref sig .tc) → Buf (Elt Ideal) ((c : Thread nD τ).loc b))

/-- The body's stored value at row r and column q of a block: the sum over k of x(r,k) · w(k,q), plus b(0,q). -/
theorem pay5 (x : Vec Ideal S2000x128 .f32) (w : Vec Ideal S128x128 .f32) (b : Vec Ideal S1x128 .f32) (r : Fin 2000) (q : Fin 128) :
    k5_pay1 x w b (ix2 r q) = (∑ kk : Fin 128, x (ix2 r kk) * w (ix2 kk q)) + b (ix2 0 q) := by
  unfold k5_pay1
  exact lin_body_cast_apply _ rfl rfl (fun _ _ => rfl) (fun _ _ => rfl) (fun _ _ => rfl) (fun _ _ => rfl) x w b _ _ _ _ _ r q

/-- The block index maps over the grid: the row operand and the result move to block (t, 0) at point t; the
    weight matrix and the bias row stay at block (0, 0). -/
theorem idx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- Block t of the row operand holds at (r, k) the operand's entry (2000 t + r, k). -/
theorem rows5 (c : Dev nD) (t : Fin cfg5.N) (y : S2000x128.Idx) (i : (⟨2, ![100000, 128]⟩ : Shape).Idx)
    (ha : (i 0).val = t.val * 2000 + (y 0).val) (hb : (i 1).val = (y 1).val) :
    iblk5 V c 0 t y = V c (Pipeline.arrRef spec5 0) i := by
  obtain ⟨e00, e01, -⟩ := idx5 t
  unfold iblk5
  show V c (Pipeline.arrRef spec5 0) (((cfg5.win 0).blk t).view.emb y) = V c (Pipeline.arrRef spec5 0) i
  refine congrArg (V c (Pipeline.arrRef spec5 0)) (funext fun a => Fin.ext ?_)
  match a with
  | ⟨0, _⟩ => show win5_0.index t (0 : Fin 2) * 2000 + 1 * (y 0).val = (i 0).val; omega
  | ⟨1, _⟩ => show win5_0.index t (1 : Fin 2) * 128 + 1 * (y 1).val = (i 1).val; omega

/-- The weight matrix is read whole at every point. -/
theorem whole5_1 (c : Dev nD) (t : Fin cfg5.N) : iblk5 V c 1 t = V c (Pipeline.arrRef spec5 1) := by
  obtain ⟨_, _, ea, eb, _, _, _, _⟩ := idx5 t
  funext (y : S128x128.Idx)
  unfold iblk5
  show V c (Pipeline.arrRef spec5 1) (((cfg5.win 1).blk t).view.emb y) = V c (Pipeline.arrRef spec5 1) y
  refine congrArg (V c (Pipeline.arrRef spec5 1)) (funext fun a => Fin.ext ?_)
  match a with
  | ⟨0, _⟩ => show win5_1.index t (0 : Fin 2) * 128 + 1 * (y 0).val = (y 0).val; omega
  | ⟨1, _⟩ => show win5_1.index t (1 : Fin 2) * 128 + 1 * (y 1).val = (y 1).val; omega

/-- The bias row is read whole at every point. -/
theorem whole5_2 (c : Dev nD) (t : Fin cfg5.N) : iblk5 V c 2 t = V c (Pipeline.arrRef spec5 2) := by
  obtain ⟨_, _, _, _, ea, eb, _, _⟩ := idx5 t
  funext (y : S1x128.Idx)
  unfold iblk5
  show V c (Pipeline.arrRef spec5 2) (((cfg5.win 2).blk t).view.emb y) = V c (Pipeline.arrRef spec5 2) y
  refine congrArg (V c (Pipeline.arrRef spec5 2)) (funext fun a => Fin.ext ?_)
  match a with
  | ⟨0, _⟩ => show win5_2.index t (0 : Fin 2) * 1 + 1 * (y 0).val = (y 0).val; omega
  | ⟨1, _⟩ => show win5_2.index t (1 : Fin 2) * 128 + 1 * (y 1).val = (y 1).val; omega

/-- Entry (r, q) of the block point t writes sits at (2000 t + r, q) of the result. -/
theorem outpos5_3 (t : Fin cfg5.N) (j : S2000x128.Idx) :
    ((((cfg5.win 3).blk t).view.emb j) 0).val = t.val * 2000 + (j 0).val
    ∧ ((((cfg5.win 3).blk t).view.emb j) 1).val = (j 1).val := by
  obtain ⟨_, _, _, _, _, _, ea, eb⟩ := idx5 t
  constructor
  · show win5_3.index t (0 : Fin 2) * 2000 + 1 * (j 0).val = t.val * 2000 + (j 0).val; omega
  · show win5_3.index t (1 : Fin 2) * 128 + 1 * (j 1).val = (j 1).val; omega

/-- What point t writes back is block t of `Spec.lin` of the operand arrays. -/
theorem flushed5 (c : Dev nD) (t : Fin cfg5.N) :
    (dat5 (F := Ideal) V c).flushed 3 t = ((cfg5.win 3).blk t).view.read (Elt Ideal)
      (Cert.Spec.lin (M := 100000) (K := 128) (V c (Pipeline.arrRef spec5 0)) (V c (Pipeline.arrRef spec5 1)) (V c (Pipeline.arrRef spec5 2))) := by
  show (cfg5.win 3).cut (grid5.coords t) ((dat5 V c).after 3 t) = _
  rw [after5_3]
  unfold out5_3
  rw [View.canon_unit_zero hz]
  simp only [View.ld_unit_zero (S := S2000x128) hz, View.ld_unit_zero (S := S128x128) hz, View.ld_unit_zero (S := S1x128) hz]
  funext j
  show k5_pay1 (iblk5 V c 0 t) (iblk5 V c 1 t) (iblk5 V c 2 t) j
    = Cert.Spec.lin (M := 100000) (K := 128) (V c (Pipeline.arrRef spec5 0)) (V c (Pipeline.arrRef spec5 1)) (V c (Pipeline.arrRef spec5 2)) (((cfg5.win 3).blk t).view.emb j)
  exact lin_block (M := 100000) (R := 2000) (K := 128) (V c (Pipeline.arrRef spec5 0)) (V c (Pipeline.arrRef spec5 1)) (V c (Pipeline.arrRef spec5 2)) (iblk5 V c 0 t) (iblk5 V c 1 t) (iblk5 V c 2 t)
    (k5_pay1 (iblk5 V c 0 t) (iblk5 V c 1 t) (iblk5 V c 2 t)) (t.val * 2000) (pay5 (iblk5 V c 0 t) (iblk5 V c 1 t) (iblk5 V c 2 t))
    (fun y i ha hb => rows5 V c t y i ha hb) (whole5_1 V c t) (whole5_2 V c t) j
    (((cfg5.win 3).blk t).view.emb j) (outpos5_3 t j).1 (outpos5_3 t j).2

/-- An index of the result array is in point t's block iff each coordinate is in the block's range. -/
theorem mem_blk5_3 (t : Fin cfg5.N) (i : (⟨2, ![100000, 128]⟩ : Shape).Idx) :
    i ∈ ((cfg5.win 3).blk t).view.set ↔ ∀ a : Fin 2, win5_3.index t a * S2000x128.size a ≤ (i a).val ∧ (i a).val < win5_3.index t a * S2000x128.size a + S2000x128.size a := by
  show i ∈ ((View.whole main_v64).slice (win5_3.rect t)).set ↔ _
  rw [View.set_slice_whole, Rect.mem_set_unit]
  exact Iff.rfl

/-- Row r of the result is in the block of point r / 2000. -/
theorem cover5_3 (i : (⟨2, ![100000, 128]⟩ : Shape).Idx) :
    ∃ t : Fin cfg5.N, (cfg5.win 3).flush t = true ∧ i ∈ ((cfg5.win 3).blk t).view.set := by
  have hi0 : (i 0).val < 100000 := (i 0).isLt
  have hi1 : (i 1).val < 128 := (i 1).isLt
  have hN : (i 0).val / 2000 < cfg5.N := by rw [show cfg5.N = 50 from N_5]; omega
  obtain ⟨f0, f1, f2, f3, f4, f5, f6, f7⟩ := idx5 ⟨(i 0).val / 2000, hN⟩
  have g0 : win5_3.index ⟨(i 0).val / 2000, hN⟩ (0 : Fin 2) = (i 0).val / 2000 := f6
  have g1 : win5_3.index ⟨(i 0).val / 2000, hN⟩ (1 : Fin 2) = 0 := f7
  refine ⟨⟨(i 0).val / 2000, hN⟩, flush5_3 _, ?_⟩
  rw [mem_blk5_3]
  intro a
  match a with
  | ⟨0, _⟩ => show win5_3.index ⟨(i 0).val / 2000, hN⟩ (0 : Fin 2) * 2000 ≤ (i 0).val ∧ (i 0).val < win5_3.index ⟨(i 0).val / 2000, hN⟩ (0 : Fin 2) * 2000 + 2000; omega
  | ⟨1, _⟩ => show win5_3.index ⟨(i 0).val / 2000, hN⟩ (1 : Fin 2) * 128 ≤ (i 1).val ∧ (i 1).val < win5_3.index ⟨(i 0).val / 2000, hN⟩ (1 : Fin 2) * 128 + 128; omega

/-- THE RESULT ARRAY after the region. -/
theorem final5 (c : Dev nD) : (dat5 (F := Ideal) V c).arrAt 3 cfg5.N
    = Cert.Spec.lin (M := 100000) (K := 128) (V c (Pipeline.arrRef spec5 0)) (V c (Pipeline.arrRef spec5 1)) (V c (Pipeline.arrRef spec5 2)) :=
  (dat5 (F := Ideal) V c).arrAt_eq_of_cover 3 (Cert.Spec.lin (M := 100000) (K := 128) (V c (Pipeline.arrRef spec5 0)) (V c (Pipeline.arrRef spec5 1)) (V c (Pipeline.arrRef spec5 2)))
    (fun t _ => flushed5 V c t) (cover5_3)

end Cert.KernelIdeal.Reg

end
-- ==== Proof.Reg6.lean ====
/-
  Region 6: a linear map of the rows plus a bias row.  The 50000 rows of the row operand [50000, 128] are
  cut into 25 blocks of 2000 rows; grid point t reads block t of the row operand, the whole weight matrix
  [128, 128] and the whole bias row [1, 128], and writes block t of the result [50000, 128]: at (r, q) the
  sum over k of x(2000 t + r, k) · w(k, q), plus b(0, q).  The 25 blocks cover the result, so after the
  region the result array is the array-level function `Spec.lin` of the three operand arrays as the region
  found them.
-/
import proofs.«168040_j41652592837487_1_alg».proof.Proof.Gen.KernelIdeal.Frame
import proofs.«168040_j41652592837487_1_alg».proof.Proof.Spec
import proofs.«168040_j41652592837487_1_alg».proof.Proof.RegPay
import Idealize.ShloMosaic.Lib.Pipeline.Value

set_option maxRecDepth 16384

noncomputable section

open scoped BigOperators

namespace Cert.KernelIdeal.Reg

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.RegPay

variable (V : (c : Dev nD) → (b : Ref sig .tc) → Buf (Elt Ideal) ((c : Thread nD τ).loc b))

/-- The body's stored value at row r and column q of a block: the sum over k of x(r,k) · w(k,q), plus b(0,q). -/
theorem pay6 (x : Vec Ideal S2000x128 .f32) (w : Vec Ideal S128x128 .f32) (b : Vec Ideal S1x128 .f32) (r : Fin 2000) (q : Fin 128) :
    k6_pay1 x w b (ix2 r q) = (∑ kk : Fin 128, x (ix2 r kk) * w (ix2 kk q)) + b (ix2 0 q) := by
  unfold k6_pay1
  exact lin_body_cast_apply _ rfl rfl (fun _ _ => rfl) (fun _ _ => rfl) (fun _ _ => rfl) (fun _ _ => rfl) x w b _ _ _ _ _ r q

/-- The block index maps over the grid: the row operand and the result move to block (t, 0) at point t; the
    weight matrix and the bias row stay at block (0, 0). -/
theorem idx6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- Block t of the row operand holds at (r, k) the operand's entry (2000 t + r, k). -/
theorem rows6 (c : Dev nD) (t : Fin cfg6.N) (y : S2000x128.Idx) (i : (⟨2, ![50000, 128]⟩ : Shape).Idx)
    (ha : (i 0).val = t.val * 2000 + (y 0).val) (hb : (i 1).val = (y 1).val) :
    iblk6 V c 0 t y = V c (Pipeline.arrRef spec6 0) i := by
  obtain ⟨e00, e01, -⟩ := idx6 t
  unfold iblk6
  show V c (Pipeline.arrRef spec6 0) (((cfg6.win 0).blk t).view.emb y) = V c (Pipeline.arrRef spec6 0) i
  refine congrArg (V c (Pipeline.arrRef spec6 0)) (funext fun a => Fin.ext ?_)
  match a with
  | ⟨0, _⟩ => show win6_0.index t (0 : Fin 2) * 2000 + 1 * (y 0).val = (i 0).val; omega
  | ⟨1, _⟩ => show win6_0.index t (1 : Fin 2) * 128 + 1 * (y 1).val = (i 1).val; omega

/-- The weight matrix is read whole at every point. -/
theorem whole6_1 (c : Dev nD) (t : Fin cfg6.N) : iblk6 V c 1 t = V c (Pipeline.arrRef spec6 1) := by
  obtain ⟨_, _, ea, eb, _, _, _, _⟩ := idx6 t
  funext (y : S128x128.Idx)
  unfold iblk6
  show V c (Pipeline.arrRef spec6 1) (((cfg6.win 1).blk t).view.emb y) = V c (Pipeline.arrRef spec6 1) y
  refine congrArg (V c (Pipeline.arrRef spec6 1)) (funext fun a => Fin.ext ?_)
  match a with
  | ⟨0, _⟩ => show win6_1.index t (0 : Fin 2) * 128 + 1 * (y 0).val = (y 0).val; omega
  | ⟨1, _⟩ => show win6_1.index t (1 : Fin 2) * 128 + 1 * (y 1).val = (y 1).val; omega

/-- The bias row is read whole at every point. -/
theorem whole6_2 (c : Dev nD) (t : Fin cfg6.N) : iblk6 V c 2 t = V c (Pipeline.arrRef spec6 2) := by
  obtain ⟨_, _, _, _, ea, eb, _, _⟩ := idx6 t
  funext (y : S1x128.Idx)
  unfold iblk6
  show V c (Pipeline.arrRef spec6 2) (((cfg6.win 2).blk t).view.emb y) = V c (Pipeline.arrRef spec6 2) y
  refine congrArg (V c (Pipeline.arrRef spec6 2)) (funext fun a => Fin.ext ?_)
  match a with
  | ⟨0, _⟩ => show win6_2.index t (0 : Fin 2) * 1 + 1 * (y 0).val = (y 0).val; omega
  | ⟨1, _⟩ => show win6_2.index t (1 : Fin 2) * 128 + 1 * (y 1).val = (y 1).val; omega

/-- Entry (r, q) of the block point t writes sits at (2000 t + r, q) of the result. -/
theorem outpos6_3 (t : Fin cfg6.N) (j : S2000x128.Idx) :
    ((((cfg6.win 3).blk t).view.emb j) 0).val = t.val * 2000 + (j 0).val
    ∧ ((((cfg6.win 3).blk t).view.emb j) 1).val = (j 1).val := by
  obtain ⟨_, _, _, _, _, _, ea, eb⟩ := idx6 t
  constructor
  · show win6_3.index t (0 : Fin 2) * 2000 + 1 * (j 0).val = t.val * 2000 + (j 0).val; omega
  · show win6_3.index t (1 : Fin 2) * 128 + 1 * (j 1).val = (j 1).val; omega

/-- What point t writes back is block t of `Spec.lin` of the operand arrays. -/
theorem flushed6 (c : Dev nD) (t : Fin cfg6.N) :
    (dat6 (F := Ideal) V c).flushed 3 t = ((cfg6.win 3).blk t).view.read (Elt Ideal)
      (Cert.Spec.lin (M := 50000) (K := 128) (V c (Pipeline.arrRef spec6 0)) (V c (Pipeline.arrRef spec6 1)) (V c (Pipeline.arrRef spec6 2))) := by
  show (cfg6.win 3).cut (grid6.coords t) ((dat6 V c).after 3 t) = _
  rw [after6_3]
  unfold out6_3
  rw [View.canon_unit_zero hz]
  simp only [View.ld_unit_zero (S := S2000x128) hz, View.ld_unit_zero (S := S128x128) hz, View.ld_unit_zero (S := S1x128) hz]
  funext j
  show k6_pay1 (iblk6 V c 0 t) (iblk6 V c 1 t) (iblk6 V c 2 t) j
    = Cert.Spec.lin (M := 50000) (K := 128) (V c (Pipeline.arrRef spec6 0)) (V c (Pipeline.arrRef spec6 1)) (V c (Pipeline.arrRef spec6 2)) (((cfg6.win 3).blk t).view.emb j)
  exact lin_block (M := 50000) (R := 2000) (K := 128) (V c (Pipeline.arrRef spec6 0)) (V c (Pipeline.arrRef spec6 1)) (V c (Pipeline.arrRef spec6 2)) (iblk6 V c 0 t) (iblk6 V c 1 t) (iblk6 V c 2 t)
    (k6_pay1 (iblk6 V c 0 t) (iblk6 V c 1 t) (iblk6 V c 2 t)) (t.val * 2000) (pay6 (iblk6 V c 0 t) (iblk6 V c 1 t) (iblk6 V c 2 t))
    (fun y i ha hb => rows6 V c t y i ha hb) (whole6_1 V c t) (whole6_2 V c t) j
    (((cfg6.win 3).blk t).view.emb j) (outpos6_3 t j).1 (outpos6_3 t j).2

/-- An index of the result array is in point t's block iff each coordinate is in the block's range. -/
theorem mem_blk6_3 (t : Fin cfg6.N) (i : (⟨2, ![50000, 128]⟩ : Shape).Idx) :
    i ∈ ((cfg6.win 3).blk t).view.set ↔ ∀ a : Fin 2, win6_3.index t a * S2000x128.size a ≤ (i a).val ∧ (i a).val < win6_3.index t a * S2000x128.size a + S2000x128.size a := by
  show i ∈ ((View.whole main_v68).slice (win6_3.rect t)).set ↔ _
  rw [View.set_slice_whole, Rect.mem_set_unit]
  exact Iff.rfl

/-- Row r of the result is in the block of point r / 2000. -/
theorem cover6_3 (i : (⟨2, ![50000, 128]⟩ : Shape).Idx) :
    ∃ t : Fin cfg6.N, (cfg6.win 3).flush t = true ∧ i ∈ ((cfg6.win 3).blk t).view.set := by
  have hi0 : (i 0).val < 50000 := (i 0).isLt
  have hi1 : (i 1).val < 128 := (i 1).isLt
  have hN : (i 0).val / 2000 < cfg6.N := by rw [show cfg6.N = 25 from N_6]; omega
  obtain ⟨f0, f1, f2, f3, f4, f5, f6, f7⟩ := idx6 ⟨(i 0).val / 2000, hN⟩
  have g0 : win6_3.index ⟨(i 0).val / 2000, hN⟩ (0 : Fin 2) = (i 0).val / 2000 := f6
  have g1 : win6_3.index ⟨(i 0).val / 2000, hN⟩ (1 : Fin 2) = 0 := f7
  refine ⟨⟨(i 0).val / 2000, hN⟩, flush6_3 _, ?_⟩
  rw [mem_blk6_3]
  intro a
  match a with
  | ⟨0, _⟩ => show win6_3.index ⟨(i 0).val / 2000, hN⟩ (0 : Fin 2) * 2000 ≤ (i 0).val ∧ (i 0).val < win6_3.index ⟨(i 0).val / 2000, hN⟩ (0 : Fin 2) * 2000 + 2000; omega
  | ⟨1, _⟩ => show win6_3.index ⟨(i 0).val / 2000, hN⟩ (1 : Fin 2) * 128 ≤ (i 1).val ∧ (i 1).val < win6_3.index ⟨(i 0).val / 2000, hN⟩ (1 : Fin 2) * 128 + 128; omega

/-- THE RESULT ARRAY after the region. -/
theorem final6 (c : Dev nD) : (dat6 (F := Ideal) V c).arrAt 3 cfg6.N
    = Cert.Spec.lin (M := 50000) (K := 128) (V c (Pipeline.arrRef spec6 0)) (V c (Pipeline.arrRef spec6 1)) (V c (Pipeline.arrRef spec6 2)) :=
  (dat6 (F := Ideal) V c).arrAt_eq_of_cover 3 (Cert.Spec.lin (M := 50000) (K := 128) (V c (Pipeline.arrRef spec6 0)) (V c (Pipeline.arrRef spec6 1)) (V c (Pipeline.arrRef spec6 2)))
    (fun t _ => flushed6 V c t) (cover6_3)

end Cert.KernelIdeal.Reg

end
-- ==== Proof.Reg7.lean ====
/-
  Region 7: a linear map of the rows plus a bias row.  The 20000 rows of the row operand [20000, 128] are
  cut into 10 blocks of 2000 rows; grid point t reads block t of the row operand, the whole weight matrix
  [128, 128] and the whole bias row [1, 128], and writes block t of the result [20000, 128]: at (r, q) the
  sum over k of x(2000 t + r, k) · w(k, q), plus b(0, q).  The 10 blocks cover the result, so after the
  region the result array is the array-level function `Spec.lin` of the three operand arrays as the region
  found them.
-/
import proofs.«168040_j41652592837487_1_alg».proof.Proof.Gen.KernelIdeal.Frame
import proofs.«168040_j41652592837487_1_alg».proof.Proof.Spec
import proofs.«168040_j41652592837487_1_alg».proof.Proof.RegPay
import Idealize.ShloMosaic.Lib.Pipeline.Value

set_option maxRecDepth 16384

noncomputable section

open scoped BigOperators

namespace Cert.KernelIdeal.Reg

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.RegPay

variable (V : (c : Dev nD) → (b : Ref sig .tc) → Buf (Elt Ideal) ((c : Thread nD τ).loc b))

/-- The body's stored value at row r and column q of a block: the sum over k of x(r,k) · w(k,q), plus b(0,q). -/
theorem pay7 (x : Vec Ideal S2000x128 .f32) (w : Vec Ideal S128x128 .f32) (b : Vec Ideal S1x128 .f32) (r : Fin 2000) (q : Fin 128) :
    k7_pay1 x w b (ix2 r q) = (∑ kk : Fin 128, x (ix2 r kk) * w (ix2 kk q)) + b (ix2 0 q) := by
  unfold k7_pay1
  exact lin_body_cast_apply _ rfl rfl (fun _ _ => rfl) (fun _ _ => rfl) (fun _ _ => rfl) (fun _ _ => rfl) x w b _ _ _ _ _ r q

/-- The block index maps over the grid: the row operand and the result move to block (t, 0) at point t; the
    weight matrix and the bias row stay at block (0, 0). -/
theorem idx7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

/-- Block t of the row operand holds at (r, k) the operand's entry (2000 t + r, k). -/
theorem rows7 (c : Dev nD) (t : Fin cfg7.N) (y : S2000x128.Idx) (i : (⟨2, ![20000, 128]⟩ : Shape).Idx)
    (ha : (i 0).val = t.val * 2000 + (y 0).val) (hb : (i 1).val = (y 1).val) :
    iblk7 V c 0 t y = V c (Pipeline.arrRef spec7 0) i := by
  obtain ⟨e00, e01, -⟩ := idx7 t
  unfold iblk7
  show V c (Pipeline.arrRef spec7 0) (((cfg7.win 0).blk t).view.emb y) = V c (Pipeline.arrRef spec7 0) i
  refine congrArg (V c (Pipeline.arrRef spec7 0)) (funext fun a => Fin.ext ?_)
  match a with
  | ⟨0, _⟩ => show win7_0.index t (0 : Fin 2) * 2000 + 1 * (y 0).val = (i 0).val; omega
  | ⟨1, _⟩ => show win7_0.index t (1 : Fin 2) * 128 + 1 * (y 1).val = (i 1).val; omega

/-- The weight matrix is read whole at every point. -/
theorem whole7_1 (c : Dev nD) (t : Fin cfg7.N) : iblk7 V c 1 t = V c (Pipeline.arrRef spec7 1) := by
  obtain ⟨_, _, ea, eb, _, _, _, _⟩ := idx7 t
  funext (y : S128x128.Idx)
  unfold iblk7
  show V c (Pipeline.arrRef spec7 1) (((cfg7.win 1).blk t).view.emb y) = V c (Pipeline.arrRef spec7 1) y
  refine congrArg (V c (Pipeline.arrRef spec7 1)) (funext fun a => Fin.ext ?_)
  match a with
  | ⟨0, _⟩ => show win7_1.index t (0 : Fin 2) * 128 + 1 * (y 0).val = (y 0).val; omega
  | ⟨1, _⟩ => show win7_1.index t (1 : Fin 2) * 128 + 1 * (y 1).val = (y 1).val; omega

/-- The bias row is read whole at every point. -/
theorem whole7_2 (c : Dev nD) (t : Fin cfg7.N) : iblk7 V c 2 t = V c (Pipeline.arrRef spec7 2) := by
  obtain ⟨_, _, _, _, ea, eb, _, _⟩ := idx7 t
  funext (y : S1x128.Idx)
  unfold iblk7
  show V c (Pipeline.arrRef spec7 2) (((cfg7.win 2).blk t).view.emb y) = V c (Pipeline.arrRef spec7 2) y
  refine congrArg (V c (Pipeline.arrRef spec7 2)) (funext fun a => Fin.ext ?_)
  match a with
  | ⟨0, _⟩ => show win7_2.index t (0 : Fin 2) * 1 + 1 * (y 0).val = (y 0).val; omega
  | ⟨1, _⟩ => show win7_2.index t (1 : Fin 2) * 128 + 1 * (y 1).val = (y 1).val; omega

/-- Entry (r, q) of the block point t writes sits at (2000 t + r, q) of the result. -/
theorem outpos7_3 (t : Fin cfg7.N) (j : S2000x128.Idx) :
    ((((cfg7.win 3).blk t).view.emb j) 0).val = t.val * 2000 + (j 0).val
    ∧ ((((cfg7.win 3).blk t).view.emb j) 1).val = (j 1).val := by
  obtain ⟨_, _, _, _, _, _, ea, eb⟩ := idx7 t
  constructor
  · show win7_3.index t (0 : Fin 2) * 2000 + 1 * (j 0).val = t.val * 2000 + (j 0).val; omega
  · show win7_3.index t (1 : Fin 2) * 128 + 1 * (j 1).val = (j 1).val; omega

/-- What point t writes back is block t of `Spec.lin` of the operand arrays. -/
theorem flushed7 (c : Dev nD) (t : Fin cfg7.N) :
    (dat7 (F := Ideal) V c).flushed 3 t = ((cfg7.win 3).blk t).view.read (Elt Ideal)
      (Cert.Spec.lin (M := 20000) (K := 128) (V c (Pipeline.arrRef spec7 0)) (V c (Pipeline.arrRef spec7 1)) (V c (Pipeline.arrRef spec7 2))) := by
  show (cfg7.win 3).cut (grid7.coords t) ((dat7 V c).after 3 t) = _
  rw [after7_3]
  unfold out7_3
  rw [View.canon_unit_zero hz]
  simp only [View.ld_unit_zero (S := S2000x128) hz, View.ld_unit_zero (S := S128x128) hz, View.ld_unit_zero (S := S1x128) hz]
  funext j
  show k7_pay1 (iblk7 V c 0 t) (iblk7 V c 1 t) (iblk7 V c 2 t) j
    = Cert.Spec.lin (M := 20000) (K := 128) (V c (Pipeline.arrRef spec7 0)) (V c (Pipeline.arrRef spec7 1)) (V c (Pipeline.arrRef spec7 2)) (((cfg7.win 3).blk t).view.emb j)
  exact lin_block (M := 20000) (R := 2000) (K := 128) (V c (Pipeline.arrRef spec7 0)) (V c (Pipeline.arrRef spec7 1)) (V c (Pipeline.arrRef spec7 2)) (iblk7 V c 0 t) (iblk7 V c 1 t) (iblk7 V c 2 t)
    (k7_pay1 (iblk7 V c 0 t) (iblk7 V c 1 t) (iblk7 V c 2 t)) (t.val * 2000) (pay7 (iblk7 V c 0 t) (iblk7 V c 1 t) (iblk7 V c 2 t))
    (fun y i ha hb => rows7 V c t y i ha hb) (whole7_1 V c t) (whole7_2 V c t) j
    (((cfg7.win 3).blk t).view.emb j) (outpos7_3 t j).1 (outpos7_3 t j).2

/-- An index of the result array is in point t's block iff each coordinate is in the block's range. -/
theorem mem_blk7_3 (t : Fin cfg7.N) (i : (⟨2, ![20000, 128]⟩ : Shape).Idx) :
    i ∈ ((cfg7.win 3).blk t).view.set ↔ ∀ a : Fin 2, win7_3.index t a * S2000x128.size a ≤ (i a).val ∧ (i a).val < win7_3.index t a * S2000x128.size a + S2000x128.size a := by
  show i ∈ ((View.whole main_v72).slice (win7_3.rect t)).set ↔ _
  rw [View.set_slice_whole, Rect.mem_set_unit]
  exact Iff.rfl

/-- Row r of the result is in the block of point r / 2000. -/
theorem cover7_3 (i : (⟨2, ![20000, 128]⟩ : Shape).Idx) :
    ∃ t : Fin cfg7.N, (cfg7.win 3).flush t = true ∧ i ∈ ((cfg7.win 3).blk t).view.set := by
  have hi0 : (i 0).val < 20000 := (i 0).isLt
  have hi1 : (i 1).val < 128 := (i 1).isLt
  have hN : (i 0).val / 2000 < cfg7.N := by rw [show cfg7.N = 10 from N_7]; omega
  obtain ⟨f0, f1, f2, f3, f4, f5, f6, f7⟩ := idx7 ⟨(i 0).val / 2000, hN⟩
  have g0 : win7_3.index ⟨(i 0).val / 2000, hN⟩ (0 : Fin 2) = (i 0).val / 2000 := f6
  have g1 : win7_3.index ⟨(i 0).val / 2000, hN⟩ (1 : Fin 2) = 0 := f7
  refine ⟨⟨(i 0).val / 2000, hN⟩, flush7_3 _, ?_⟩
  rw [mem_blk7_3]
  intro a
  match a with
  | ⟨0, _⟩ => show win7_3.index ⟨(i 0).val / 2000, hN⟩ (0 : Fin 2) * 2000 ≤ (i 0).val ∧ (i 0).val < win7_3.index ⟨(i 0).val / 2000, hN⟩ (0 : Fin 2) * 2000 + 2000; omega
  | ⟨1, _⟩ => show win7_3.index ⟨(i 0).val / 2000, hN⟩ (1 : Fin 2) * 128 ≤ (i 1).val ∧ (i 1).val < win7_3.index ⟨(i 0).val / 2000, hN⟩ (1 : Fin 2) * 128 + 128; omega

/-- THE RESULT ARRAY after the region. -/
theorem final7 (c : Dev nD) : (dat7 (F := Ideal) V c).arrAt 3 cfg7.N
    = Cert.Spec.lin (M := 20000) (K := 128) (V c (Pipeline.arrRef spec7 0)) (V c (Pipeline.arrRef spec7 1)) (V c (Pipeline.arrRef spec7 2)) :=
  (dat7 (F := Ideal) V c).arrAt_eq_of_cover 3 (Cert.Spec.lin (M := 20000) (K := 128) (V c (Pipeline.arrRef spec7 0)) (V c (Pipeline.arrRef spec7 1)) (V c (Pipeline.arrRef spec7 2)))
    (fun t _ => flushed7 V c t) (cover7_3)

end Cert.KernelIdeal.Reg

end
-- ==== Proof.Reg8.lean ====
/-
  Region 8: the exponential linear unit of a five-term sum, entry by entry.  The 50000 rows of the five
  operands [50000, 128] and of the result are cut into 25 blocks of 2000 rows; grid point t reads block t of
  each operand and writes block t of the result: at each entry the unit of s + a + b + c + d (the sum
  associated to the left).  The 25 blocks cover the result, so after the region the result array is the
  array-level function `Spec.comb` of the five operand arrays as the region found them.
-/
import proofs.«168040_j41652592837487_1_alg».proof.Proof.Gen.KernelIdeal.Frame
import proofs.«168040_j41652592837487_1_alg».proof.Proof.Spec
import proofs.«168040_j41652592837487_1_alg».proof.Proof.RegPay
import Idealize.ShloMosaic.Lib.Pipeline.Value

set_option maxRecDepth 16384

noncomputable section

open scoped BigOperators

namespace Cert.KernelIdeal.Reg

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.RegPay

variable (V : (c : Dev nD) → (b : Ref sig .tc) → Buf (Elt Ideal) ((c : Thread nD τ).loc b))

/-- The body's stored value at an entry of a block: the unit of the five-term sum of the operands' entries. -/
theorem pay8 (x0 x1 x2 x3 x4 : Vec Ideal S2000x128 .f32) (j : S2000x128.Idx) :
    k8_pay1 x0 x1 x2 x3 x4 j = Cert.Spec.elu1 (x0 j + x1 j + x2 j + x3 j + x4 j) := by
  unfold k8_pay1
  exact comb_body_apply x0 x1 x2 x3 x4 _ j

/-- The block index maps over the grid: every window moves to block (t, 0) at point t. -/
theorem idx8 : ∀ t : Fin cfg8.N, win8_0.index t (0 : Fin 2) = t.val ∧ win8_0.index t (1 : Fin 2) = 0
    ∧ win8_1.index t (0 : Fin 2) = t.val ∧ win8_1.index t (1 : Fin 2) = 0
    ∧ win8_2.index t (0 : Fin 2) = t.val ∧ win8_2.index t (1 : Fin 2) = 0
    ∧ win8_3.index t (0 : Fin 2) = t.val ∧ win8_3.index t (1 : Fin 2) = 0
    ∧ win8_4.index t (0 : Fin 2) = t.val ∧ win8_4.index t (1 : Fin 2) = 0
    ∧ win8_5.index t (0 : Fin 2) = t.val ∧ win8_5.index t (1 : Fin 2) = 0 :=
  (by decide +kernel : ∀ t : Fin grid8.N, _)

/-- Block t of operand 0 holds at an entry the operand's entry under the same entry of the result's block t. -/
theorem read8_0 (c : Dev nD) (t : Fin cfg8.N) (j : S2000x128.Idx) :
    iblk8 V c 0 t j = V c (Pipeline.arrRef spec8 0) (((cfg8.win 5).blk t).view.emb j) := by
  obtain ⟨ea, eb, _, _, _, _, _, _, _, _, ec, ed⟩ := idx8 t
  unfold iblk8
  show V c (Pipeline.arrRef spec8 0) (((cfg8.win 0).blk t).view.emb j) = V c (Pipeline.arrRef spec8 0) (((cfg8.win 5).blk t).view.emb j)
  refine congrArg (V c (Pipeline.arrRef spec8 0)) (funext fun a => Fin.ext ?_)
  match a with
  | ⟨0, _⟩ => show win8_0.index t (0 : Fin 2) * 2000 + 1 * (j 0).val = win8_5.index t (0 : Fin 2) * 2000 + 1 * (j 0).val; omega
  | ⟨1, _⟩ => show win8_0.index t (1 : Fin 2) * 128 + 1 * (j 1).val = win8_5.index t (1 : Fin 2) * 128 + 1 * (j 1).val; omega

/-- Block t of operand 1 holds at an entry the operand's entry under the same entry of the result's block t. -/
theorem read8_1 (c : Dev nD) (t : Fin cfg8.N) (j : S2000x128.Idx) :
    iblk8 V c 1 t j = V c (Pipeline.arrRef spec8 1) (((cfg8.win 5).blk t).view.emb j) := by
  obtain ⟨_, _, ea, eb, _, _, _, _, _, _, ec, ed⟩ := idx8 t
  unfold iblk8
  show V c (Pipeline.arrRef spec8 1) (((cfg8.win 1).blk t).view.emb j) = V c (Pipeline.arrRef spec8 1) (((cfg8.win 5).blk t).view.emb j)
  refine congrArg (V c (Pipeline.arrRef spec8 1)) (funext fun a => Fin.ext ?_)
  match a with
  | ⟨0, _⟩ => show win8_1.index t (0 : Fin 2) * 2000 + 1 * (j 0).val = win8_5.index t (0 : Fin 2) * 2000 + 1 * (j 0).val; omega
  | ⟨1, _⟩ => show win8_1.index t (1 : Fin 2) * 128 + 1 * (j 1).val = win8_5.index t (1 : Fin 2) * 128 + 1 * (j 1).val; omega

/-- Block t of operand 2 holds at an entry the operand's entry under the same entry of the result's block t. -/
theorem read8_2 (c : Dev nD) (t : Fin cfg8.N) (j : S2000x128.Idx) :
    iblk8 V c 2 t j = V c (Pipeline.arrRef spec8 2) (((cfg8.win 5).blk t).view.emb j) := by
  obtain ⟨_, _, _, _, ea, eb, _, _, _, _, ec, ed⟩ := idx8 t
  unfold iblk8
  show V c (Pipeline.arrRef spec8 2) (((cfg8.win 2).blk t).view.emb j) = V c (Pipeline.arrRef spec8 2) (((cfg8.win 5).blk t).view.emb j)
  refine congrArg (V c (Pipeline.arrRef spec8 2)) (funext fun a => Fin.ext ?_)
  match a with
  | ⟨0, _⟩ => show win8_2.index t (0 : Fin 2) * 2000 + 1 * (j 0).val = win8_5.index t (0 : Fin 2) * 2000 + 1 * (j 0).val; omega
  | ⟨1, _⟩ => show win8_2.index t (1 : Fin 2) * 128 + 1 * (j 1).val = win8_5.index t (1 : Fin 2) * 128 + 1 * (j 1).val; omega

/-- Block t of operand 3 holds at an entry the operand's entry under the same entry of the result's block t. -/
theorem read8_3 (c : Dev nD) (t : Fin cfg8.N) (j : S2000x128.Idx) :
    iblk8 V c 3 t j = V c (Pipeline.arrRef spec8 3) (((cfg8.win 5).blk t).view.emb j) := by
  obtain ⟨_, _, _, _, _, _, ea, eb, _, _, ec, ed⟩ := idx8 t
  unfold iblk8
  show V c (Pipeline.arrRef spec8 3) (((cfg8.win 3).blk t).view.emb j) = V c (Pipeline.arrRef spec8 3) (((cfg8.win 5).blk t).view.emb j)
  refine congrArg (V c (Pipeline.arrRef spec8 3)) (funext fun a => Fin.ext ?_)
  match a with
  | ⟨0, _⟩ => show win8_3.index t (0 : Fin 2) * 2000 + 1 * (j 0).val = win8_5.index t (0 : Fin 2) * 2000 + 1 * (j 0).val; omega
  | ⟨1, _⟩ => show win8_3.index t (1 : Fin 2) * 128 + 1 * (j 1).val = win8_5.index t (1 : Fin 2) * 128 + 1 * (j 1).val; omega

/-- Block t of operand 4 holds at an entry the operand's entry under the same entry of the result's block t. -/
theorem read8_4 (c : Dev nD) (t : Fin cfg8.N) (j : S2000x128.Idx) :
    iblk8 V c 4 t j = V c (Pipeline.arrRef spec8 4) (((cfg8.win 5).blk t).view.emb j) := by
  obtain ⟨_, _, _, _, _, _, _, _, ea, eb, ec, ed⟩ := idx8 t
  unfold iblk8
  show V c (Pipeline.arrRef spec8 4) (((cfg8.win 4).blk t).view.emb j) = V c (Pipeline.arrRef spec8 4) (((cfg8.win 5).blk t).view.emb j)
  refine congrArg (V c (Pipeline.arrRef spec8 4)) (funext fun a => Fin.ext ?_)
  match a with
  | ⟨0, _⟩ => show win8_4.index t (0 : Fin 2) * 2000 + 1 * (j 0).val = win8_5.index t (0 : Fin 2) * 2000 + 1 * (j 0).val; omega
  | ⟨1, _⟩ => show win8_4.index t (1 : Fin 2) * 128 + 1 * (j 1).val = win8_5.index t (1 : Fin 2) * 128 + 1 * (j 1).val; omega

/-- What point t writes back is block t of `Spec.comb` of the operand arrays. -/
theorem flushed8 (c : Dev nD) (t : Fin cfg8.N) :
    (dat8 (F := Ideal) V c).flushed 5 t = ((cfg8.win 5).blk t).view.read (Elt Ideal)
      (Cert.Spec.comb (M := 50000) (V c (Pipeline.arrRef spec8 0)) (V c (Pipeline.arrRef spec8 1)) (V c (Pipeline.arrRef spec8 2)) (V c (Pipeline.arrRef spec8 3)) (V c (Pipeline.arrRef spec8 4))) := by
  show (cfg8.win 5).cut (grid8.coords t) ((dat8 V c).after 5 t) = _
  rw [after8_5]
  unfold out8_5
  rw [View.canon_unit_zero hz]
  simp only [View.ld_unit_zero (S := S2000x128) hz]
  funext j
  show k8_pay1 (iblk8 V c 0 t) (iblk8 V c 1 t) (iblk8 V c 2 t) (iblk8 V c 3 t) (iblk8 V c 4 t) j
    = Cert.Spec.comb (M := 50000) (V c (Pipeline.arrRef spec8 0)) (V c (Pipeline.arrRef spec8 1)) (V c (Pipeline.arrRef spec8 2)) (V c (Pipeline.arrRef spec8 3)) (V c (Pipeline.arrRef spec8 4)) (((cfg8.win 5).blk t).view.emb j)
  exact comb_block (M := 50000) (R := 2000) (V c (Pipeline.arrRef spec8 0)) (V c (Pipeline.arrRef spec8 1)) (V c (Pipeline.arrRef spec8 2)) (V c (Pipeline.arrRef spec8 3)) (V c (Pipeline.arrRef spec8 4))
    (iblk8 V c 0 t) (iblk8 V c 1 t) (iblk8 V c 2 t) (iblk8 V c 3 t) (iblk8 V c 4 t)
    (k8_pay1 (iblk8 V c 0 t) (iblk8 V c 1 t) (iblk8 V c 2 t) (iblk8 V c 3 t) (iblk8 V c 4 t)) (pay8 (iblk8 V c 0 t) (iblk8 V c 1 t) (iblk8 V c 2 t) (iblk8 V c 3 t) (iblk8 V c 4 t)) j
    (((cfg8.win 5).blk t).view.emb j) (read8_0 V c t j) (read8_1 V c t j) (read8_2 V c t j) (read8_3 V c t j) (read8_4 V c t j)

/-- An index of the result array is in point t's block iff each coordinate is in the block's range. -/
theorem mem_blk8_5 (t : Fin cfg8.N) (i : (⟨2, ![50000, 128]⟩ : Shape).Idx) :
    i ∈ ((cfg8.win 5).blk t).view.set ↔ ∀ a : Fin 2, win8_5.index t a * S2000x128.size a ≤ (i a).val ∧ (i a).val < win8_5.index t a * S2000x128.size a + S2000x128.size a := by
  show i ∈ ((View.whole main_v137).slice (win8_5.rect t)).set ↔ _
  rw [View.set_slice_whole, Rect.mem_set_unit]
  exact Iff.rfl

/-- Row r of the result is in the block of point r / 2000. -/
theorem cover8_5 (i : (⟨2, ![50000, 128]⟩ : Shape).Idx) :
    ∃ t : Fin cfg8.N, (cfg8.win 5).flush t = true ∧ i ∈ ((cfg8.win 5).blk t).view.set := by
  have hi0 : (i 0).val < 50000 := (i 0).isLt
  have hi1 : (i 1).val < 128 := (i 1).isLt
  have hN : (i 0).val / 2000 < cfg8.N := by rw [show cfg8.N = 25 from N_8]; omega
  obtain ⟨f0, f1, f2, f3, f4, f5, f6, f7, f8, f9, f10, f11⟩ := idx8 ⟨(i 0).val / 2000, hN⟩
  have g0 : win8_5.index ⟨(i 0).val / 2000, hN⟩ (0 : Fin 2) = (i 0).val / 2000 := f10
  have g1 : win8_5.index ⟨(i 0).val / 2000, hN⟩ (1 : Fin 2) = 0 := f11
  refine ⟨⟨(i 0).val / 2000, hN⟩, flush8_5 _, ?_⟩
  rw [mem_blk8_5]
  intro a
  match a with
  | ⟨0, _⟩ => show win8_5.index ⟨(i 0).val / 2000, hN⟩ (0 : Fin 2) * 2000 ≤ (i 0).val ∧ (i 0).val < win8_5.index ⟨(i 0).val / 2000, hN⟩ (0 : Fin 2) * 2000 + 2000; omega
  | ⟨1, _⟩ => show win8_5.index ⟨(i 0).val / 2000, hN⟩ (1 : Fin 2) * 128 ≤ (i 1).val ∧ (i 1).val < win8_5.index ⟨(i 0).val / 2000, hN⟩ (1 : Fin 2) * 128 + 128; omega

/-- THE RESULT ARRAY after the region. -/
theorem final8 (c : Dev nD) : (dat8 (F := Ideal) V c).arrAt 5 cfg8.N
    = Cert.Spec.comb (M := 50000) (V c (Pipeline.arrRef spec8 0)) (V c (Pipeline.arrRef spec8 1)) (V c (Pipeline.arrRef spec8 2)) (V c (Pipeline.arrRef spec8 3)) (V c (Pipeline.arrRef spec8 4)) :=
  (dat8 (F := Ideal) V c).arrAt_eq_of_cover 5 (Cert.Spec.comb (M := 50000) (V c (Pipeline.arrRef spec8 0)) (V c (Pipeline.arrRef spec8 1)) (V c (Pipeline.arrRef spec8 2)) (V c (Pipeline.arrRef spec8 3)) (V c (Pipeline.arrRef spec8 4)))
    (fun t _ => flushed8 V c t) (cover8_5)

end Cert.KernelIdeal.Reg

end
-- ==== Proof.Reg9.lean ====
/-
  Region 9: two products of the same rows.  The 50000 rows of the row operand [50000, 128] are cut into 25
  blocks of 2000 rows; grid point t reads block t of the row operand, two whole weight matrices [128, 128]
  and a whole bias row [1, 128], and writes block t of two results [50000, 128]: the first at (r, q) the sum
  over k of x(2000 t + r, k) · wa(k, q), plus b(0, q); the second the sum over k of x(2000 t + r, k) · wb(k, q).
  The 25 blocks cover each result, so after the region the two result arrays are the array-level functions
  `Spec.lin` and `Spec.mm` of the operand arrays as the region found them.
-/
import proofs.«168040_j41652592837487_1_alg».proof.Proof.Gen.KernelIdeal.Frame
import proofs.«168040_j41652592837487_1_alg».proof.Proof.Spec
import proofs.«168040_j41652592837487_1_alg».proof.Proof.RegPay
import Idealize.ShloMosaic.Lib.Pipeline.Value

set_option maxRecDepth 16384

noncomputable section

open scoped BigOperators

namespace Cert.KernelIdeal.Reg

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.RegPay

variable (V : (c : Dev nD) → (b : Ref sig .tc) → Buf (Elt Ideal) ((c : Thread nD τ).loc b))

/-- The first stored value at row r and column q of a block: the sum over k of x(r,k) · wa(k,q), plus b(0,q). -/
theorem pay9_2 (x : Vec Ideal S2000x128 .f32) (w : Vec Ideal S128x128 .f32) (b : Vec Ideal S1x128 .f32) (r : Fin 2000) (q : Fin 128) :
    k9_pay2 x w b (ix2 r q) = (∑ kk : Fin 128, x (ix2 r kk) * w (ix2 kk q)) + b (ix2 0 q) := by
  unfold k9_pay2 k9_pay1
  exact lin_body_cast_apply _ rfl rfl (fun _ _ => rfl) (fun _ _ => rfl) (fun _ _ => rfl) (fun _ _ => rfl) x w b _ _ _ _ _ r q

/-- The second stored value at row r and column q of a block: the sum over k of x(r,k) · wb(k,q). -/
theorem pay9_3 (x : Vec Ideal S2000x128 .f32) (w : Vec Ideal S128x128 .f32) (r : Fin 2000) (q : Fin 128) :
    k9_pay3 x w (ix2 r q) = ∑ kk : Fin 128, x (ix2 r kk) * w (ix2 kk q) := by
  unfold k9_pay3 k9_pay1
  exact mm_body_cast_apply _ rfl rfl (fun _ _ => rfl) (fun _ _ => rfl) (fun _ _ => rfl) (fun _ _ => rfl) x w _ _ _ r q

/-- The block index maps over the grid: the row operand and the two results move to block (t, 0) at point t;
    the weight matrices and the bias row stay at block (0, 0). -/
theorem idx9 : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = t.val ∧ win9_4.index t (1 : Fin 2) = 0
    ∧ win9_5.index t (0 : Fin 2) = t.val ∧ win9_5.index t (1 : Fin 2) = 0 :=
  (by decide +kernel : ∀ t : Fin grid9.N, _)

/-- Block t of the row operand holds at (r, k) the operand's entry (2000 t + r, k). -/
theorem rows9 (c : Dev nD) (t : Fin cfg9.N) (y : S2000x128.Idx) (i : (⟨2, ![50000, 128]⟩ : Shape).Idx)
    (ha : (i 0).val = t.val * 2000 + (y 0).val) (hb : (i 1).val = (y 1).val) :
    iblk9 V c 0 t y = V c (Pipeline.arrRef spec9 0) i := by
  obtain ⟨e00, e01, -⟩ := idx9 t
  unfold iblk9
  show V c (Pipeline.arrRef spec9 0) (((cfg9.win 0).blk t).view.emb y) = V c (Pipeline.arrRef spec9 0) i
  refine congrArg (V c (Pipeline.arrRef spec9 0)) (funext fun a => Fin.ext ?_)
  match a with
  | ⟨0, _⟩ => show win9_0.index t (0 : Fin 2) * 2000 + 1 * (y 0).val = (i 0).val; omega
  | ⟨1, _⟩ => show win9_0.index t (1 : Fin 2) * 128 + 1 * (y 1).val = (i 1).val; omega

/-- The first weight matrix is read whole at every point. -/
theorem whole9_1 (c : Dev nD) (t : Fin cfg9.N) : iblk9 V c 1 t = V c (Pipeline.arrRef spec9 1) := by
  obtain ⟨_, _, ea, eb, _, _, _, _, _, _, _, _⟩ := idx9 t
  funext (y : S128x128.Idx)
  unfold iblk9
  show V c (Pipeline.arrRef spec9 1) (((cfg9.win 1).blk t).view.emb y) = V c (Pipeline.arrRef spec9 1) y
  refine congrArg (V c (Pipeline.arrRef spec9 1)) (funext fun a => Fin.ext ?_)
  match a with
  | ⟨0, _⟩ => show win9_1.index t (0 : Fin 2) * 128 + 1 * (y 0).val = (y 0).val; omega
  | ⟨1, _⟩ => show win9_1.index t (1 : Fin 2) * 128 + 1 * (y 1).val = (y 1).val; omega

/-- The bias row is read whole at every point. -/
theorem whole9_2 (c : Dev nD) (t : Fin cfg9.N) : iblk9 V c 2 t = V c (Pipeline.arrRef spec9 2) := by
  obtain ⟨_, _, _, _, ea, eb, _, _, _, _, _, _⟩ := idx9 t
  funext (y : S1x128.Idx)
  unfold iblk9
  show V c (Pipeline.arrRef spec9 2) (((cfg9.win 2).blk t).view.emb y) = V c (Pipeline.arrRef spec9 2) y
  refine congrArg (V c (Pipeline.arrRef spec9 2)) (funext fun a => Fin.ext ?_)
  match a with
  | ⟨0, _⟩ => show win9_2.index t (0 : Fin 2) * 1 + 1 * (y 0).val = (y 0).val; omega
  | ⟨1, _⟩ => show win9_2.index t (1 : Fin 2) * 128 + 1 * (y 1).val = (y 1).val; omega

/-- The second weight matrix is read whole at every point. -/
theorem whole9_3 (c : Dev nD) (t : Fin cfg9.N) : iblk9 V c 3 t = V c (Pipeline.arrRef spec9 3) := by
  obtain ⟨_, _, _, _, _, _, ea, eb, _, _, _, _⟩ := idx9 t
  funext (y : S128x128.Idx)
  unfold iblk9
  show V c (Pipeline.arrRef spec9 3) (((cfg9.win 3).blk t).view.emb y) = V c (Pipeline.arrRef spec9 3) y
  refine congrArg (V c (Pipeline.arrRef spec9 3)) (funext fun a => Fin.ext ?_)
  match a with
  | ⟨0, _⟩ => show win9_3.index t (0 : Fin 2) * 128 + 1 * (y 0).val = (y 0).val; omega
  | ⟨1, _⟩ => show win9_3.index t (1 : Fin 2) * 128 + 1 * (y 1).val = (y 1).val; omega

/-- Entry (r, q) of the block point t writes sits at (2000 t + r, q) of the result. -/
theorem outpos9_4 (t : Fin cfg9.N) (j : S2000x128.Idx) :
    ((((cfg9.win 4).blk t).view.emb j) 0).val = t.val * 2000 + (j 0).val
    ∧ ((((cfg9.win 4).blk t).view.emb j) 1).val = (j 1).val := by
  obtain ⟨_, _, _, _, _, _, _, _, ea, eb, _, _⟩ := idx9 t
  constructor
  · show win9_4.index t (0 : Fin 2) * 2000 + 1 * (j 0).val = t.val * 2000 + (j 0).val; omega
  · show win9_4.index t (1 : Fin 2) * 128 + 1 * (j 1).val = (j 1).val; omega

/-- Entry (r, q) of the block point t writes sits at (2000 t + r, q) of the result. -/
theorem outpos9_5 (t : Fin cfg9.N) (j : S2000x128.Idx) :
    ((((cfg9.win 5).blk t).view.emb j) 0).val = t.val * 2000 + (j 0).val
    ∧ ((((cfg9.win 5).blk t).view.emb j) 1).val = (j 1).val := by
  obtain ⟨_, _, _, _, _, _, _, _, _, _, ea, eb⟩ := idx9 t
  constructor
  · show win9_5.index t (0 : Fin 2) * 2000 + 1 * (j 0).val = t.val * 2000 + (j 0).val; omega
  · show win9_5.index t (1 : Fin 2) * 128 + 1 * (j 1).val = (j 1).val; omega

/-- What point t writes back through the first result's window is block t of `Spec.lin` of the operand arrays. -/
theorem flushed9_4 (c : Dev nD) (t : Fin cfg9.N) :
    (dat9 (F := Ideal) V c).flushed 4 t = ((cfg9.win 4).blk t).view.read (Elt Ideal)
      (Cert.Spec.lin (M := 50000) (K := 128) (V c (Pipeline.arrRef spec9 0)) (V c (Pipeline.arrRef spec9 1)) (V c (Pipeline.arrRef spec9 2))) := by
  show (cfg9.win 4).cut (grid9.coords t) ((dat9 V c).after 4 t) = _
  rw [after9_4]
  unfold out9_4
  rw [View.canon_unit_zero hz]
  simp only [View.ld_unit_zero (S := S2000x128) hz, View.ld_unit_zero (S := S128x128) hz, View.ld_unit_zero (S := S1x128) hz]
  funext j
  show k9_pay2 (iblk9 V c 0 t) (iblk9 V c 1 t) (iblk9 V c 2 t) j
    = Cert.Spec.lin (M := 50000) (K := 128) (V c (Pipeline.arrRef spec9 0)) (V c (Pipeline.arrRef spec9 1)) (V c (Pipeline.arrRef spec9 2)) (((cfg9.win 4).blk t).view.emb j)
  exact lin_block (M := 50000) (R := 2000) (K := 128) (V c (Pipeline.arrRef spec9 0)) (V c (Pipeline.arrRef spec9 1)) (V c (Pipeline.arrRef spec9 2)) (iblk9 V c 0 t) (iblk9 V c 1 t) (iblk9 V c 2 t)
    (k9_pay2 (iblk9 V c 0 t) (iblk9 V c 1 t) (iblk9 V c 2 t)) (t.val * 2000) (pay9_2 (iblk9 V c 0 t) (iblk9 V c 1 t) (iblk9 V c 2 t))
    (fun y i ha hb => rows9 V c t y i ha hb) (whole9_1 V c t) (whole9_2 V c t) j
    (((cfg9.win 4).blk t).view.emb j) (outpos9_4 t j).1 (outpos9_4 t j).2

/-- What point t writes back through the second result's window is block t of `Spec.mm` of the operand arrays. -/
theorem flushed9_5 (c : Dev nD) (t : Fin cfg9.N) :
    (dat9 (F := Ideal) V c).flushed 5 t = ((cfg9.win 5).blk t).view.read (Elt Ideal)
      (Cert.Spec.mm (M := 50000) (K := 128) (V c (Pipeline.arrRef spec9 0)) (V c (Pipeline.arrRef spec9 3))) := by
  show (cfg9.win 5).cut (grid9.coords t) ((dat9 V c).after 5 t) = _
  rw [after9_5]
  unfold out9_5
  rw [View.canon_unit_zero hz]
  simp only [View.ld_unit_zero (S := S2000x128) hz, View.ld_unit_zero (S := S128x128) hz]
  funext j
  show k9_pay3 (iblk9 V c 0 t) (iblk9 V c 3 t) j
    = Cert.Spec.mm (M := 50000) (K := 128) (V c (Pipeline.arrRef spec9 0)) (V c (Pipeline.arrRef spec9 3)) (((cfg9.win 5).blk t).view.emb j)
  exact mm_block (M := 50000) (R := 2000) (K := 128) (V c (Pipeline.arrRef spec9 0)) (V c (Pipeline.arrRef spec9 3)) (iblk9 V c 0 t) (iblk9 V c 3 t)
    (k9_pay3 (iblk9 V c 0 t) (iblk9 V c 3 t)) (t.val * 2000) (pay9_3 (iblk9 V c 0 t) (iblk9 V c 3 t))
    (fun y i ha hb => rows9 V c t y i ha hb) (whole9_3 V c t) j
    (((cfg9.win 5).blk t).view.emb j) (outpos9_5 t j).1 (outpos9_5 t j).2

/-- An index of the result array is in point t's block iff each coordinate is in the block's range. -/
theorem mem_blk9_4 (t : Fin cfg9.N) (i : (⟨2, ![50000, 128]⟩ : Shape).Idx) :
    i ∈ ((cfg9.win 4).blk t).view.set ↔ ∀ a : Fin 2, win9_4.index t a * S2000x128.size a ≤ (i a).val ∧ (i a).val < win9_4.index t a * S2000x128.size a + S2000x128.size a := by
  show i ∈ ((View.whole main_v145_0).slice (win9_4.rect t)).set ↔ _
  rw [View.set_slice_whole, Rect.mem_set_unit]
  exact Iff.rfl

/-- Row r of the result is in the block of point r / 2000. -/
theorem cover9_4 (i : (⟨2, ![50000, 128]⟩ : Shape).Idx) :
    ∃ t : Fin cfg9.N, (cfg9.win 4).flush t = true ∧ i ∈ ((cfg9.win 4).blk t).view.set := by
  have hi0 : (i 0).val < 50000 := (i 0).isLt
  have hi1 : (i 1).val < 128 := (i 1).isLt
  have hN : (i 0).val / 2000 < cfg9.N := by rw [show cfg9.N = 25 from N_9]; omega
  obtain ⟨f0, f1, f2, f3, f4, f5, f6, f7, f8, f9, f10, f11⟩ := idx9 ⟨(i 0).val / 2000, hN⟩
  have g0 : win9_4.index ⟨(i 0).val / 2000, hN⟩ (0 : Fin 2) = (i 0).val / 2000 := f8
  have g1 : win9_4.index ⟨(i 0).val / 2000, hN⟩ (1 : Fin 2) = 0 := f9
  refine ⟨⟨(i 0).val / 2000, hN⟩, flush9_4 _, ?_⟩
  rw [mem_blk9_4]
  intro a
  match a with
  | ⟨0, _⟩ => show win9_4.index ⟨(i 0).val / 2000, hN⟩ (0 : Fin 2) * 2000 ≤ (i 0).val ∧ (i 0).val < win9_4.index ⟨(i 0).val / 2000, hN⟩ (0 : Fin 2) * 2000 + 2000; omega
  | ⟨1, _⟩ => show win9_4.index ⟨(i 0).val / 2000, hN⟩ (1 : Fin 2) * 128 ≤ (i 1).val ∧ (i 1).val < win9_4.index ⟨(i 0).val / 2000, hN⟩ (1 : Fin 2) * 128 + 128; omega

/-- THE RESULT ARRAY after the region. -/
theorem final9_4 (c : Dev nD) : (dat9 (F := Ideal) V c).arrAt 4 cfg9.N
    = Cert.Spec.lin (M := 50000) (K := 128) (V c (Pipeline.arrRef spec9 0)) (V c (Pipeline.arrRef spec9 1)) (V c (Pipeline.arrRef spec9 2)) :=
  (dat9 (F := Ideal) V c).arrAt_eq_of_cover 4 (Cert.Spec.lin (M := 50000) (K := 128) (V c (Pipeline.arrRef spec9 0)) (V c (Pipeline.arrRef spec9 1)) (V c (Pipeline.arrRef spec9 2)))
    (fun t _ => flushed9_4 V c t) (cover9_4)

/-- An index of the result array is in point t's block iff each coordinate is in the block's range. -/
theorem mem_blk9_5 (t : Fin cfg9.N) (i : (⟨2, ![50000, 128]⟩ : Shape).Idx) :
    i ∈ ((cfg9.win 5).blk t).view.set ↔ ∀ a : Fin 2, win9_5.index t a * S2000x128.size a ≤ (i a).val ∧ (i a).val < win9_5.index t a * S2000x128.size a + S2000x128.size a := by
  show i ∈ ((View.whole main_v145_1).slice (win9_5.rect t)).set ↔ _
  rw [View.set_slice_whole, Rect.mem_set_unit]
  exact Iff.rfl

/-- Row r of the result is in the block of point r / 2000. -/
theorem cover9_5 (i : (⟨2, ![50000, 128]⟩ : Shape).Idx) :
    ∃ t : Fin cfg9.N, (cfg9.win 5).flush t = true ∧ i ∈ ((cfg9.win 5).blk t).view.set := by
  have hi0 : (i 0).val < 50000 := (i 0).isLt
  have hi1 : (i 1).val < 128 := (i 1).isLt
  have hN : (i 0).val / 2000 < cfg9.N := by rw [show cfg9.N = 25 from N_9]; omega
  obtain ⟨f0, f1, f2, f3, f4, f5, f6, f7, f8, f9, f10, f11⟩ := idx9 ⟨(i 0).val / 2000, hN⟩
  have g0 : win9_5.index ⟨(i 0).val / 2000, hN⟩ (0 : Fin 2) = (i 0).val / 2000 := f10
  have g1 : win9_5.index ⟨(i 0).val / 2000, hN⟩ (1 : Fin 2) = 0 := f11
  refine ⟨⟨(i 0).val / 2000, hN⟩, flush9_5 _, ?_⟩
  rw [mem_blk9_5]
  intro a
  match a with
  | ⟨0, _⟩ => show win9_5.index ⟨(i 0).val / 2000, hN⟩ (0 : Fin 2) * 2000 ≤ (i 0).val ∧ (i 0).val < win9_5.index ⟨(i 0).val / 2000, hN⟩ (0 : Fin 2) * 2000 + 2000; omega
  | ⟨1, _⟩ => show win9_5.index ⟨(i 0).val / 2000, hN⟩ (1 : Fin 2) * 128 ≤ (i 1).val ∧ (i 1).val < win9_5.index ⟨(i 0).val / 2000, hN⟩ (1 : Fin 2) * 128 + 128; omega

/-- THE RESULT ARRAY after the region. -/
theorem final9_5 (c : Dev nD) : (dat9 (F := Ideal) V c).arrAt 5 cfg9.N
    = Cert.Spec.mm (M := 50000) (K := 128) (V c (Pipeline.arrRef spec9 0)) (V c (Pipeline.arrRef spec9 3)) :=
  (dat9 (F := Ideal) V c).arrAt_eq_of_cover 5 (Cert.Spec.mm (M := 50000) (K := 128) (V c (Pipeline.arrRef spec9 0)) (V c (Pipeline.arrRef spec9 3)))
    (fun t _ => flushed9_5 V c t) (cover9_5)

end Cert.KernelIdeal.Reg

end
-- ==== Proof.Reg10.lean ====
/-
  Region 10: a linear map of the rows plus a bias row.  The 100000 rows of the row operand [100000, 128] are
  cut into 50 blocks of 2000 rows; grid point t reads block t of the row operand, the whole weight matrix
  [128, 128] and the whole bias row [1, 128], and writes block t of the result [100000, 128]: at (r, q) the
  sum over k of x(2000 t + r, k) · w(k, q), plus b(0, q).  The 50 blocks cover the result, so after the
  region the result array is the array-level function `Spec.lin` of the three operand arrays as the region
  found them.
-/
import proofs.«168040_j41652592837487_1_alg».proof.Proof.Gen.KernelIdeal.Frame
import proofs.«168040_j41652592837487_1_alg».proof.Proof.Spec
import proofs.«168040_j41652592837487_1_alg».proof.Proof.RegPay
import Idealize.ShloMosaic.Lib.Pipeline.Value

set_option maxRecDepth 16384

noncomputable section

open scoped BigOperators

namespace Cert.KernelIdeal.Reg

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.RegPay

variable (V : (c : Dev nD) → (b : Ref sig .tc) → Buf (Elt Ideal) ((c : Thread nD τ).loc b))

/-- The body's stored value at row r and column q of a block: the sum over k of x(r,k) · w(k,q), plus b(0,q). -/
theorem pay10 (x : Vec Ideal S2000x128 .f32) (w : Vec Ideal S128x128 .f32) (b : Vec Ideal S1x128 .f32) (r : Fin 2000) (q : Fin 128) :
    k10_pay1 x w b (ix2 r q) = (∑ kk : Fin 128, x (ix2 r kk) * w (ix2 kk q)) + b (ix2 0 q) := by
  unfold k10_pay1
  exact lin_body_cast_apply _ rfl rfl (fun _ _ => rfl) (fun _ _ => rfl) (fun _ _ => rfl) (fun _ _ => rfl) x w b _ _ _ _ _ r q

/-- The block index maps over the grid: the row operand and the result move to block (t, 0) at point t; the
    weight matrix and the bias row stay at block (0, 0). -/
theorem idx10 : ∀ t : Fin cfg10.N, win10_0.index t (0 : Fin 2) = t.val ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = t.val ∧ win10_3.index t (1 : Fin 2) = 0 :=
  (by decide +kernel : ∀ t : Fin grid10.N, _)

/-- Block t of the row operand holds at (r, k) the operand's entry (2000 t + r, k). -/
theorem rows10 (c : Dev nD) (t : Fin cfg10.N) (y : S2000x128.Idx) (i : (⟨2, ![100000, 128]⟩ : Shape).Idx)
    (ha : (i 0).val = t.val * 2000 + (y 0).val) (hb : (i 1).val = (y 1).val) :
    iblk10 V c 0 t y = V c (Pipeline.arrRef spec10 0) i := by
  obtain ⟨e00, e01, -⟩ := idx10 t
  unfold iblk10
  show V c (Pipeline.arrRef spec10 0) (((cfg10.win 0).blk t).view.emb y) = V c (Pipeline.arrRef spec10 0) i
  refine congrArg (V c (Pipeline.arrRef spec10 0)) (funext fun a => Fin.ext ?_)
  match a with
  | ⟨0, _⟩ => show win10_0.index t (0 : Fin 2) * 2000 + 1 * (y 0).val = (i 0).val; omega
  | ⟨1, _⟩ => show win10_0.index t (1 : Fin 2) * 128 + 1 * (y 1).val = (i 1).val; omega

/-- The weight matrix is read whole at every point. -/
theorem whole10_1 (c : Dev nD) (t : Fin cfg10.N) : iblk10 V c 1 t = V c (Pipeline.arrRef spec10 1) := by
  obtain ⟨_, _, ea, eb, _, _, _, _⟩ := idx10 t
  funext (y : S128x128.Idx)
  unfold iblk10
  show V c (Pipeline.arrRef spec10 1) (((cfg10.win 1).blk t).view.emb y) = V c (Pipeline.arrRef spec10 1) y
  refine congrArg (V c (Pipeline.arrRef spec10 1)) (funext fun a => Fin.ext ?_)
  match a with
  | ⟨0, _⟩ => show win10_1.index t (0 : Fin 2) * 128 + 1 * (y 0).val = (y 0).val; omega
  | ⟨1, _⟩ => show win10_1.index t (1 : Fin 2) * 128 + 1 * (y 1).val = (y 1).val; omega

/-- The bias row is read whole at every point. -/
theorem whole10_2 (c : Dev nD) (t : Fin cfg10.N) : iblk10 V c 2 t = V c (Pipeline.arrRef spec10 2) := by
  obtain ⟨_, _, _, _, ea, eb, _, _⟩ := idx10 t
  funext (y : S1x128.Idx)
  unfold iblk10
  show V c (Pipeline.arrRef spec10 2) (((cfg10.win 2).blk t).view.emb y) = V c (Pipeline.arrRef spec10 2) y
  refine congrArg (V c (Pipeline.arrRef spec10 2)) (funext fun a => Fin.ext ?_)
  match a with
  | ⟨0, _⟩ => show win10_2.index t (0 : Fin 2) * 1 + 1 * (y 0).val = (y 0).val; omega
  | ⟨1, _⟩ => show win10_2.index t (1 : Fin 2) * 128 + 1 * (y 1).val = (y 1).val; omega

/-- Entry (r, q) of the block point t writes sits at (2000 t + r, q) of the result. -/
theorem outpos10_3 (t : Fin cfg10.N) (j : S2000x128.Idx) :
    ((((cfg10.win 3).blk t).view.emb j) 0).val = t.val * 2000 + (j 0).val
    ∧ ((((cfg10.win 3).blk t).view.emb j) 1).val = (j 1).val := by
  obtain ⟨_, _, _, _, _, _, ea, eb⟩ := idx10 t
  constructor
  · show win10_3.index t (0 : Fin 2) * 2000 + 1 * (j 0).val = t.val * 2000 + (j 0).val; omega
  · show win10_3.index t (1 : Fin 2) * 128 + 1 * (j 1).val = (j 1).val; omega

/-- What point t writes back is block t of `Spec.lin` of the operand arrays. -/
theorem flushed10 (c : Dev nD) (t : Fin cfg10.N) :
    (dat10 (F := Ideal) V c).flushed 3 t = ((cfg10.win 3).blk t).view.read (Elt Ideal)
      (Cert.Spec.lin (M := 100000) (K := 128) (V c (Pipeline.arrRef spec10 0)) (V c (Pipeline.arrRef spec10 1)) (V c (Pipeline.arrRef spec10 2))) := by
  show (cfg10.win 3).cut (grid10.coords t) ((dat10 V c).after 3 t) = _
  rw [after10_3]
  unfold out10_3
  rw [View.canon_unit_zero hz]
  simp only [View.ld_unit_zero (S := S2000x128) hz, View.ld_unit_zero (S := S128x128) hz, View.ld_unit_zero (S := S1x128) hz]
  funext j
  show k10_pay1 (iblk10 V c 0 t) (iblk10 V c 1 t) (iblk10 V c 2 t) j
    = Cert.Spec.lin (M := 100000) (K := 128) (V c (Pipeline.arrRef spec10 0)) (V c (Pipeline.arrRef spec10 1)) (V c (Pipeline.arrRef spec10 2)) (((cfg10.win 3).blk t).view.emb j)
  exact lin_block (M := 100000) (R := 2000) (K := 128) (V c (Pipeline.arrRef spec10 0)) (V c (Pipeline.arrRef spec10 1)) (V c (Pipeline.arrRef spec10 2)) (iblk10 V c 0 t) (iblk10 V c 1 t) (iblk10 V c 2 t)
    (k10_pay1 (iblk10 V c 0 t) (iblk10 V c 1 t) (iblk10 V c 2 t)) (t.val * 2000) (pay10 (iblk10 V c 0 t) (iblk10 V c 1 t) (iblk10 V c 2 t))
    (fun y i ha hb => rows10 V c t y i ha hb) (whole10_1 V c t) (whole10_2 V c t) j
    (((cfg10.win 3).blk t).view.emb j) (outpos10_3 t j).1 (outpos10_3 t j).2

/-- An index of the result array is in point t's block iff each coordinate is in the block's range. -/
theorem mem_blk10_3 (t : Fin cfg10.N) (i : (⟨2, ![100000, 128]⟩ : Shape).Idx) :
    i ∈ ((cfg10.win 3).blk t).view.set ↔ ∀ a : Fin 2, win10_3.index t a * S2000x128.size a ≤ (i a).val ∧ (i a).val < win10_3.index t a * S2000x128.size a + S2000x128.size a := by
  show i ∈ ((View.whole main_v149).slice (win10_3.rect t)).set ↔ _
  rw [View.set_slice_whole, Rect.mem_set_unit]
  exact Iff.rfl

/-- Row r of the result is in the block of point r / 2000. -/
theorem cover10_3 (i : (⟨2, ![100000, 128]⟩ : Shape).Idx) :
    ∃ t : Fin cfg10.N, (cfg10.win 3).flush t = true ∧ i ∈ ((cfg10.win 3).blk t).view.set := by
  have hi0 : (i 0).val < 100000 := (i 0).isLt
  have hi1 : (i 1).val < 128 := (i 1).isLt
  have hN : (i 0).val / 2000 < cfg10.N := by rw [show cfg10.N = 50 from N_10]; omega
  obtain ⟨f0, f1, f2, f3, f4, f5, f6, f7⟩ := idx10 ⟨(i 0).val / 2000, hN⟩
  have g0 : win10_3.index ⟨(i 0).val / 2000, hN⟩ (0 : Fin 2) = (i 0).val / 2000 := f6
  have g1 : win10_3.index ⟨(i 0).val / 2000, hN⟩ (1 : Fin 2) = 0 := f7
  refine ⟨⟨(i 0).val / 2000, hN⟩, flush10_3 _, ?_⟩
  rw [mem_blk10_3]
  intro a
  match a with
  | ⟨0, _⟩ => show win10_3.index ⟨(i 0).val / 2000, hN⟩ (0 : Fin 2) * 2000 ≤ (i 0).val ∧ (i 0).val < win10_3.index ⟨(i 0).val / 2000, hN⟩ (0 : Fin 2) * 2000 + 2000; omega
  | ⟨1, _⟩ => show win10_3.index ⟨(i 0).val / 2000, hN⟩ (1 : Fin 2) * 128 ≤ (i 1).val ∧ (i 1).val < win10_3.index ⟨(i 0).val / 2000, hN⟩ (1 : Fin 2) * 128 + 128; omega

/-- THE RESULT ARRAY after the region. -/
theorem final10 (c : Dev nD) : (dat10 (F := Ideal) V c).arrAt 3 cfg10.N
    = Cert.Spec.lin (M := 100000) (K := 128) (V c (Pipeline.arrRef spec10 0)) (V c (Pipeline.arrRef spec10 1)) (V c (Pipeline.arrRef spec10 2)) :=
  (dat10 (F := Ideal) V c).arrAt_eq_of_cover 3 (Cert.Spec.lin (M := 100000) (K := 128) (V c (Pipeline.arrRef spec10 0)) (V c (Pipeline.arrRef spec10 1)) (V c (Pipeline.arrRef spec10 2)))
    (fun t _ => flushed10 V c t) (cover10_3)

end Cert.KernelIdeal.Reg

end
-- ==== Proof.Reg11.lean ====
/-
  Region 11: a linear map of the rows plus a bias row.  The 50000 rows of the row operand [50000, 128] are
  cut into 25 blocks of 2000 rows; grid point t reads block t of the row operand, the whole weight matrix
  [128, 128] and the whole bias row [1, 128], and writes block t of the result [50000, 128]: at (r, q) the
  sum over k of x(2000 t + r, k) · w(k, q), plus b(0, q).  The 25 blocks cover the result, so after the
  region the result array is the array-level function `Spec.lin` of the three operand arrays as the region
  found them.
-/
import proofs.«168040_j41652592837487_1_alg».proof.Proof.Gen.KernelIdeal.Frame
import proofs.«168040_j41652592837487_1_alg».proof.Proof.Spec
import proofs.«168040_j41652592837487_1_alg».proof.Proof.RegPay
import Idealize.ShloMosaic.Lib.Pipeline.Value

set_option maxRecDepth 16384

noncomputable section

open scoped BigOperators

namespace Cert.KernelIdeal.Reg

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.RegPay

variable (V : (c : Dev nD) → (b : Ref sig .tc) → Buf (Elt Ideal) ((c : Thread nD τ).loc b))

/-- The body's stored value at row r and column q of a block: the sum over k of x(r,k) · w(k,q), plus b(0,q). -/
theorem pay11 (x : Vec Ideal S2000x128 .f32) (w : Vec Ideal S128x128 .f32) (b : Vec Ideal S1x128 .f32) (r : Fin 2000) (q : Fin 128) :
    k11_pay1 x w b (ix2 r q) = (∑ kk : Fin 128, x (ix2 r kk) * w (ix2 kk q)) + b (ix2 0 q) := by
  unfold k11_pay1
  exact lin_body_cast_apply _ rfl rfl (fun _ _ => rfl) (fun _ _ => rfl) (fun _ _ => rfl) (fun _ _ => rfl) x w b _ _ _ _ _ r q

/-- The block index maps over the grid: the row operand and the result move to block (t, 0) at point t; the
    weight matrix and the bias row stay at block (0, 0). -/
theorem idx11 : ∀ t : Fin cfg11.N, win11_0.index t (0 : Fin 2) = t.val ∧ win11_0.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = t.val ∧ win11_3.index t (1 : Fin 2) = 0 :=
  (by decide +kernel : ∀ t : Fin grid11.N, _)

/-- Block t of the row operand holds at (r, k) the operand's entry (2000 t + r, k). -/
theorem rows11 (c : Dev nD) (t : Fin cfg11.N) (y : S2000x128.Idx) (i : (⟨2, ![50000, 128]⟩ : Shape).Idx)
    (ha : (i 0).val = t.val * 2000 + (y 0).val) (hb : (i 1).val = (y 1).val) :
    iblk11 V c 0 t y = V c (Pipeline.arrRef spec11 0) i := by
  obtain ⟨e00, e01, -⟩ := idx11 t
  unfold iblk11
  show V c (Pipeline.arrRef spec11 0) (((cfg11.win 0).blk t).view.emb y) = V c (Pipeline.arrRef spec11 0) i
  refine congrArg (V c (Pipeline.arrRef spec11 0)) (funext fun a => Fin.ext ?_)
  match a with
  | ⟨0, _⟩ => show win11_0.index t (0 : Fin 2) * 2000 + 1 * (y 0).val = (i 0).val; omega
  | ⟨1, _⟩ => show win11_0.index t (1 : Fin 2) * 128 + 1 * (y 1).val = (i 1).val; omega

/-- The weight matrix is read whole at every point. -/
theorem whole11_1 (c : Dev nD) (t : Fin cfg11.N) : iblk11 V c 1 t = V c (Pipeline.arrRef spec11 1) := by
  obtain ⟨_, _, ea, eb, _, _, _, _⟩ := idx11 t
  funext (y : S128x128.Idx)
  unfold iblk11
  show V c (Pipeline.arrRef spec11 1) (((cfg11.win 1).blk t).view.emb y) = V c (Pipeline.arrRef spec11 1) y
  refine congrArg (V c (Pipeline.arrRef spec11 1)) (funext fun a => Fin.ext ?_)
  match a with
  | ⟨0, _⟩ => show win11_1.index t (0 : Fin 2) * 128 + 1 * (y 0).val = (y 0).val; omega
  | ⟨1, _⟩ => show win11_1.index t (1 : Fin 2) * 128 + 1 * (y 1).val = (y 1).val; omega

/-- The bias row is read whole at every point. -/
theorem whole11_2 (c : Dev nD) (t : Fin cfg11.N) : iblk11 V c 2 t = V c (Pipeline.arrRef spec11 2) := by
  obtain ⟨_, _, _, _, ea, eb, _, _⟩ := idx11 t
  funext (y : S1x128.Idx)
  unfold iblk11
  show V c (Pipeline.arrRef spec11 2) (((cfg11.win 2).blk t).view.emb y) = V c (Pipeline.arrRef spec11 2) y
  refine congrArg (V c (Pipeline.arrRef spec11 2)) (funext fun a => Fin.ext ?_)
  match a with
  | ⟨0, _⟩ => show win11_2.index t (0 : Fin 2) * 1 + 1 * (y 0).val = (y 0).val; omega
  | ⟨1, _⟩ => show win11_2.index t (1 : Fin 2) * 128 + 1 * (y 1).val = (y 1).val; omega

/-- Entry (r, q) of the block point t writes sits at (2000 t + r, q) of the result. -/
theorem outpos11_3 (t : Fin cfg11.N) (j : S2000x128.Idx) :
    ((((cfg11.win 3).blk t).view.emb j) 0).val = t.val * 2000 + (j 0).val
    ∧ ((((cfg11.win 3).blk t).view.emb j) 1).val = (j 1).val := by
  obtain ⟨_, _, _, _, _, _, ea, eb⟩ := idx11 t
  constructor
  · show win11_3.index t (0 : Fin 2) * 2000 + 1 * (j 0).val = t.val * 2000 + (j 0).val; omega
  · show win11_3.index t (1 : Fin 2) * 128 + 1 * (j 1).val = (j 1).val; omega

/-- What point t writes back is block t of `Spec.lin` of the operand arrays. -/
theorem flushed11 (c : Dev nD) (t : Fin cfg11.N) :
    (dat11 (F := Ideal) V c).flushed 3 t = ((cfg11.win 3).blk t).view.read (Elt Ideal)
      (Cert.Spec.lin (M := 50000) (K := 128) (V c (Pipeline.arrRef spec11 0)) (V c (Pipeline.arrRef spec11 1)) (V c (Pipeline.arrRef spec11 2))) := by
  show (cfg11.win 3).cut (grid11.coords t) ((dat11 V c).after 3 t) = _
  rw [after11_3]
  unfold out11_3
  rw [View.canon_unit_zero hz]
  simp only [View.ld_unit_zero (S := S2000x128) hz, View.ld_unit_zero (S := S128x128) hz, View.ld_unit_zero (S := S1x128) hz]
  funext j
  show k11_pay1 (iblk11 V c 0 t) (iblk11 V c 1 t) (iblk11 V c 2 t) j
    = Cert.Spec.lin (M := 50000) (K := 128) (V c (Pipeline.arrRef spec11 0)) (V c (Pipeline.arrRef spec11 1)) (V c (Pipeline.arrRef spec11 2)) (((cfg11.win 3).blk t).view.emb j)
  exact lin_block (M := 50000) (R := 2000) (K := 128) (V c (Pipeline.arrRef spec11 0)) (V c (Pipeline.arrRef spec11 1)) (V c (Pipeline.arrRef spec11 2)) (iblk11 V c 0 t) (iblk11 V c 1 t) (iblk11 V c 2 t)
    (k11_pay1 (iblk11 V c 0 t) (iblk11 V c 1 t) (iblk11 V c 2 t)) (t.val * 2000) (pay11 (iblk11 V c 0 t) (iblk11 V c 1 t) (iblk11 V c 2 t))
    (fun y i ha hb => rows11 V c t y i ha hb) (whole11_1 V c t) (whole11_2 V c t) j
    (((cfg11.win 3).blk t).view.emb j) (outpos11_3 t j).1 (outpos11_3 t j).2

/-- An index of the result array is in point t's block iff each coordinate is in the block's range. -/
theorem mem_blk11_3 (t : Fin cfg11.N) (i : (⟨2, ![50000, 128]⟩ : Shape).Idx) :
    i ∈ ((cfg11.win 3).blk t).view.set ↔ ∀ a : Fin 2, win11_3.index t a * S2000x128.size a ≤ (i a).val ∧ (i a).val < win11_3.index t a * S2000x128.size a + S2000x128.size a := by
  show i ∈ ((View.whole main_v153).slice (win11_3.rect t)).set ↔ _
  rw [View.set_slice_whole, Rect.mem_set_unit]
  exact Iff.rfl

/-- Row r of the result is in the block of point r / 2000. -/
theorem cover11_3 (i : (⟨2, ![50000, 128]⟩ : Shape).Idx) :
    ∃ t : Fin cfg11.N, (cfg11.win 3).flush t = true ∧ i ∈ ((cfg11.win 3).blk t).view.set := by
  have hi0 : (i 0).val < 50000 := (i 0).isLt
  have hi1 : (i 1).val < 128 := (i 1).isLt
  have hN : (i 0).val / 2000 < cfg11.N := by rw [show cfg11.N = 25 from N_11]; omega
  obtain ⟨f0, f1, f2, f3, f4, f5, f6, f7⟩ := idx11 ⟨(i 0).val / 2000, hN⟩
  have g0 : win11_3.index ⟨(i 0).val / 2000, hN⟩ (0 : Fin 2) = (i 0).val / 2000 := f6
  have g1 : win11_3.index ⟨(i 0).val / 2000, hN⟩ (1 : Fin 2) = 0 := f7
  refine ⟨⟨(i 0).val / 2000, hN⟩, flush11_3 _, ?_⟩
  rw [mem_blk11_3]
  intro a
  match a with
  | ⟨0, _⟩ => show win11_3.index ⟨(i 0).val / 2000, hN⟩ (0 : Fin 2) * 2000 ≤ (i 0).val ∧ (i 0).val < win11_3.index ⟨(i 0).val / 2000, hN⟩ (0 : Fin 2) * 2000 + 2000; omega
  | ⟨1, _⟩ => show win11_3.index ⟨(i 0).val / 2000, hN⟩ (1 : Fin 2) * 128 ≤ (i 1).val ∧ (i 1).val < win11_3.index ⟨(i 0).val / 2000, hN⟩ (1 : Fin 2) * 128 + 128; omega

/-- THE RESULT ARRAY after the region. -/
theorem final11 (c : Dev nD) : (dat11 (F := Ideal) V c).arrAt 3 cfg11.N
    = Cert.Spec.lin (M := 50000) (K := 128) (V c (Pipeline.arrRef spec11 0)) (V c (Pipeline.arrRef spec11 1)) (V c (Pipeline.arrRef spec11 2)) :=
  (dat11 (F := Ideal) V c).arrAt_eq_of_cover 3 (Cert.Spec.lin (M := 50000) (K := 128) (V c (Pipeline.arrRef spec11 0)) (V c (Pipeline.arrRef spec11 1)) (V c (Pipeline.arrRef spec11 2)))
    (fun t _ => flushed11 V c t) (cover11_3)

end Cert.KernelIdeal.Reg

end
-- ==== Proof.Reg12.lean ====
/-
  Region 12: a linear map of the rows plus a bias row.  The 20000 rows of the row operand [20000, 128] are
  cut into 10 blocks of 2000 rows; grid point t reads block t of the row operand, the whole weight matrix
  [128, 128] and the whole bias row [1, 128], and writes block t of the result [20000, 128]: at (r, q) the
  sum over k of x(2000 t + r, k) · w(k, q), plus b(0, q).  The 10 blocks cover the result, so after the
  region the result array is the array-level function `Spec.lin` of the three operand arrays as the region
  found them.
-/
import proofs.«168040_j41652592837487_1_alg».proof.Proof.Gen.KernelIdeal.Frame
import proofs.«168040_j41652592837487_1_alg».proof.Proof.Spec
import proofs.«168040_j41652592837487_1_alg».proof.Proof.RegPay
import Idealize.ShloMosaic.Lib.Pipeline.Value

set_option maxRecDepth 16384

noncomputable section

open scoped BigOperators

namespace Cert.KernelIdeal.Reg

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.RegPay

variable (V : (c : Dev nD) → (b : Ref sig .tc) → Buf (Elt Ideal) ((c : Thread nD τ).loc b))

/-- The body's stored value at row r and column q of a block: the sum over k of x(r,k) · w(k,q), plus b(0,q). -/
theorem pay12 (x : Vec Ideal S2000x128 .f32) (w : Vec Ideal S128x128 .f32) (b : Vec Ideal S1x128 .f32) (r : Fin 2000) (q : Fin 128) :
    k12_pay1 x w b (ix2 r q) = (∑ kk : Fin 128, x (ix2 r kk) * w (ix2 kk q)) + b (ix2 0 q) := by
  unfold k12_pay1
  exact lin_body_cast_apply _ rfl rfl (fun _ _ => rfl) (fun _ _ => rfl) (fun _ _ => rfl) (fun _ _ => rfl) x w b _ _ _ _ _ r q

/-- The block index maps over the grid: the row operand and the result move to block (t, 0) at point t; the
    weight matrix and the bias row stay at block (0, 0). -/
theorem idx12 : ∀ t : Fin cfg12.N, win12_0.index t (0 : Fin 2) = t.val ∧ win12_0.index t (1 : Fin 2) = 0
    ∧ win12_1.index t (0 : Fin 2) = 0 ∧ win12_1.index t (1 : Fin 2) = 0
    ∧ win12_2.index t (0 : Fin 2) = 0 ∧ win12_2.index t (1 : Fin 2) = 0
    ∧ win12_3.index t (0 : Fin 2) = t.val ∧ win12_3.index t (1 : Fin 2) = 0 :=
  (by decide +kernel : ∀ t : Fin grid12.N, _)

/-- Block t of the row operand holds at (r, k) the operand's entry (2000 t + r, k). -/
theorem rows12 (c : Dev nD) (t : Fin cfg12.N) (y : S2000x128.Idx) (i : (⟨2, ![20000, 128]⟩ : Shape).Idx)
    (ha : (i 0).val = t.val * 2000 + (y 0).val) (hb : (i 1).val = (y 1).val) :
    iblk12 V c 0 t y = V c (Pipeline.arrRef spec12 0) i := by
  obtain ⟨e00, e01, -⟩ := idx12 t
  unfold iblk12
  show V c (Pipeline.arrRef spec12 0) (((cfg12.win 0).blk t).view.emb y) = V c (Pipeline.arrRef spec12 0) i
  refine congrArg (V c (Pipeline.arrRef spec12 0)) (funext fun a => Fin.ext ?_)
  match a with
  | ⟨0, _⟩ => show win12_0.index t (0 : Fin 2) * 2000 + 1 * (y 0).val = (i 0).val; omega
  | ⟨1, _⟩ => show win12_0.index t (1 : Fin 2) * 128 + 1 * (y 1).val = (i 1).val; omega

/-- The weight matrix is read whole at every point. -/
theorem whole12_1 (c : Dev nD) (t : Fin cfg12.N) : iblk12 V c 1 t = V c (Pipeline.arrRef spec12 1) := by
  obtain ⟨_, _, ea, eb, _, _, _, _⟩ := idx12 t
  funext (y : S128x128.Idx)
  unfold iblk12
  show V c (Pipeline.arrRef spec12 1) (((cfg12.win 1).blk t).view.emb y) = V c (Pipeline.arrRef spec12 1) y
  refine congrArg (V c (Pipeline.arrRef spec12 1)) (funext fun a => Fin.ext ?_)
  match a with
  | ⟨0, _⟩ => show win12_1.index t (0 : Fin 2) * 128 + 1 * (y 0).val = (y 0).val; omega
  | ⟨1, _⟩ => show win12_1.index t (1 : Fin 2) * 128 + 1 * (y 1).val = (y 1).val; omega

/-- The bias row is read whole at every point. -/
theorem whole12_2 (c : Dev nD) (t : Fin cfg12.N) : iblk12 V c 2 t = V c (Pipeline.arrRef spec12 2) := by
  obtain ⟨_, _, _, _, ea, eb, _, _⟩ := idx12 t
  funext (y : S1x128.Idx)
  unfold iblk12
  show V c (Pipeline.arrRef spec12 2) (((cfg12.win 2).blk t).view.emb y) = V c (Pipeline.arrRef spec12 2) y
  refine congrArg (V c (Pipeline.arrRef spec12 2)) (funext fun a => Fin.ext ?_)
  match a with
  | ⟨0, _⟩ => show win12_2.index t (0 : Fin 2) * 1 + 1 * (y 0).val = (y 0).val; omega
  | ⟨1, _⟩ => show win12_2.index t (1 : Fin 2) * 128 + 1 * (y 1).val = (y 1).val; omega

/-- Entry (r, q) of the block point t writes sits at (2000 t + r, q) of the result. -/
theorem outpos12_3 (t : Fin cfg12.N) (j : S2000x128.Idx) :
    ((((cfg12.win 3).blk t).view.emb j) 0).val = t.val * 2000 + (j 0).val
    ∧ ((((cfg12.win 3).blk t).view.emb j) 1).val = (j 1).val := by
  obtain ⟨_, _, _, _, _, _, ea, eb⟩ := idx12 t
  constructor
  · show win12_3.index t (0 : Fin 2) * 2000 + 1 * (j 0).val = t.val * 2000 + (j 0).val; omega
  · show win12_3.index t (1 : Fin 2) * 128 + 1 * (j 1).val = (j 1).val; omega

/-- What point t writes back is block t of `Spec.lin` of the operand arrays. -/
theorem flushed12 (c : Dev nD) (t : Fin cfg12.N) :
    (dat12 (F := Ideal) V c).flushed 3 t = ((cfg12.win 3).blk t).view.read (Elt Ideal)
      (Cert.Spec.lin (M := 20000) (K := 128) (V c (Pipeline.arrRef spec12 0)) (V c (Pipeline.arrRef spec12 1)) (V c (Pipeline.arrRef spec12 2))) := by
  show (cfg12.win 3).cut (grid12.coords t) ((dat12 V c).after 3 t) = _
  rw [after12_3]
  unfold out12_3
  rw [View.canon_unit_zero hz]
  simp only [View.ld_unit_zero (S := S2000x128) hz, View.ld_unit_zero (S := S128x128) hz, View.ld_unit_zero (S := S1x128) hz]
  funext j
  show k12_pay1 (iblk12 V c 0 t) (iblk12 V c 1 t) (iblk12 V c 2 t) j
    = Cert.Spec.lin (M := 20000) (K := 128) (V c (Pipeline.arrRef spec12 0)) (V c (Pipeline.arrRef spec12 1)) (V c (Pipeline.arrRef spec12 2)) (((cfg12.win 3).blk t).view.emb j)
  exact lin_block (M := 20000) (R := 2000) (K := 128) (V c (Pipeline.arrRef spec12 0)) (V c (Pipeline.arrRef spec12 1)) (V c (Pipeline.arrRef spec12 2)) (iblk12 V c 0 t) (iblk12 V c 1 t) (iblk12 V c 2 t)
    (k12_pay1 (iblk12 V c 0 t) (iblk12 V c 1 t) (iblk12 V c 2 t)) (t.val * 2000) (pay12 (iblk12 V c 0 t) (iblk12 V c 1 t) (iblk12 V c 2 t))
    (fun y i ha hb => rows12 V c t y i ha hb) (whole12_1 V c t) (whole12_2 V c t) j
    (((cfg12.win 3).blk t).view.emb j) (outpos12_3 t j).1 (outpos12_3 t j).2

/-- An index of the result array is in point t's block iff each coordinate is in the block's range. -/
theorem mem_blk12_3 (t : Fin cfg12.N) (i : (⟨2, ![20000, 128]⟩ : Shape).Idx) :
    i ∈ ((cfg12.win 3).blk t).view.set ↔ ∀ a : Fin 2, win12_3.index t a * S2000x128.size a ≤ (i a).val ∧ (i a).val < win12_3.index t a * S2000x128.size a + S2000x128.size a := by
  show i ∈ ((View.whole main_v157).slice (win12_3.rect t)).set ↔ _
  rw [View.set_slice_whole, Rect.mem_set_unit]
  exact Iff.rfl

/-- Row r of the result is in the block of point r / 2000. -/
theorem cover12_3 (i : (⟨2, ![20000, 128]⟩ : Shape).Idx) :
    ∃ t : Fin cfg12.N, (cfg12.win 3).flush t = true ∧ i ∈ ((cfg12.win 3).blk t).view.set := by
  have hi0 : (i 0).val < 20000 := (i 0).isLt
  have hi1 : (i 1).val < 128 := (i 1).isLt
  have hN : (i 0).val / 2000 < cfg12.N := by rw [show cfg12.N = 10 from N_12]; omega
  obtain ⟨f0, f1, f2, f3, f4, f5, f6, f7⟩ := idx12 ⟨(i 0).val / 2000, hN⟩
  have g0 : win12_3.index ⟨(i 0).val / 2000, hN⟩ (0 : Fin 2) = (i 0).val / 2000 := f6
  have g1 : win12_3.index ⟨(i 0).val / 2000, hN⟩ (1 : Fin 2) = 0 := f7
  refine ⟨⟨(i 0).val / 2000, hN⟩, flush12_3 _, ?_⟩
  rw [mem_blk12_3]
  intro a
  match a with
  | ⟨0, _⟩ => show win12_3.index ⟨(i 0).val / 2000, hN⟩ (0 : Fin 2) * 2000 ≤ (i 0).val ∧ (i 0).val < win12_3.index ⟨(i 0).val / 2000, hN⟩ (0 : Fin 2) * 2000 + 2000; omega
  | ⟨1, _⟩ => show win12_3.index ⟨(i 0).val / 2000, hN⟩ (1 : Fin 2) * 128 ≤ (i 1).val ∧ (i 1).val < win12_3.index ⟨(i 0).val / 2000, hN⟩ (1 : Fin 2) * 128 + 128; omega

/-- THE RESULT ARRAY after the region. -/
theorem final12 (c : Dev nD) : (dat12 (F := Ideal) V c).arrAt 3 cfg12.N
    = Cert.Spec.lin (M := 20000) (K := 128) (V c (Pipeline.arrRef spec12 0)) (V c (Pipeline.arrRef spec12 1)) (V c (Pipeline.arrRef spec12 2)) :=
  (dat12 (F := Ideal) V c).arrAt_eq_of_cover 3 (Cert.Spec.lin (M := 20000) (K := 128) (V c (Pipeline.arrRef spec12 0)) (V c (Pipeline.arrRef spec12 1)) (V c (Pipeline.arrRef spec12 2)))
    (fun t _ => flushed12 V c t) (cover12_3)

end Cert.KernelIdeal.Reg

end
-- ==== Proof.Reg13.lean ====
/-
  Region 13: the exponential linear unit of a five-term sum, entry by entry.  The 50000 rows of the five
  operands [50000, 128] and of the result are cut into 25 blocks of 2000 rows; grid point t reads block t of
  each operand and writes block t of the result: at each entry the unit of s + a + b + c + d (the sum
  associated to the left).  The 25 blocks cover the result, so after the region the result array is the
  array-level function `Spec.comb` of the five operand arrays as the region found them.
-/
import proofs.«168040_j41652592837487_1_alg».proof.Proof.Gen.KernelIdeal.Frame
import proofs.«168040_j41652592837487_1_alg».proof.Proof.Spec
import proofs.«168040_j41652592837487_1_alg».proof.Proof.RegPay
import Idealize.ShloMosaic.Lib.Pipeline.Value

set_option maxRecDepth 16384

noncomputable section

open scoped BigOperators

namespace Cert.KernelIdeal.Reg

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.RegPay

variable (V : (c : Dev nD) → (b : Ref sig .tc) → Buf (Elt Ideal) ((c : Thread nD τ).loc b))

/-- The body's stored value at an entry of a block: the unit of the five-term sum of the operands' entries. -/
theorem pay13 (x0 x1 x2 x3 x4 : Vec Ideal S2000x128 .f32) (j : S2000x128.Idx) :
    k13_pay1 x0 x1 x2 x3 x4 j = Cert.Spec.elu1 (x0 j + x1 j + x2 j + x3 j + x4 j) := by
  unfold k13_pay1
  exact comb_body_apply x0 x1 x2 x3 x4 _ j

/-- The block index maps over the grid: every window moves to block (t, 0) at point t. -/
theorem idx13 : ∀ t : Fin cfg13.N, win13_0.index t (0 : Fin 2) = t.val ∧ win13_0.index t (1 : Fin 2) = 0
    ∧ win13_1.index t (0 : Fin 2) = t.val ∧ win13_1.index t (1 : Fin 2) = 0
    ∧ win13_2.index t (0 : Fin 2) = t.val ∧ win13_2.index t (1 : Fin 2) = 0
    ∧ win13_3.index t (0 : Fin 2) = t.val ∧ win13_3.index t (1 : Fin 2) = 0
    ∧ win13_4.index t (0 : Fin 2) = t.val ∧ win13_4.index t (1 : Fin 2) = 0
    ∧ win13_5.index t (0 : Fin 2) = t.val ∧ win13_5.index t (1 : Fin 2) = 0 :=
  (by decide +kernel : ∀ t : Fin grid13.N, _)

/-- Block t of operand 0 holds at an entry the operand's entry under the same entry of the result's block t. -/
theorem read13_0 (c : Dev nD) (t : Fin cfg13.N) (j : S2000x128.Idx) :
    iblk13 V c 0 t j = V c (Pipeline.arrRef spec13 0) (((cfg13.win 5).blk t).view.emb j) := by
  obtain ⟨ea, eb, _, _, _, _, _, _, _, _, ec, ed⟩ := idx13 t
  unfold iblk13
  show V c (Pipeline.arrRef spec13 0) (((cfg13.win 0).blk t).view.emb j) = V c (Pipeline.arrRef spec13 0) (((cfg13.win 5).blk t).view.emb j)
  refine congrArg (V c (Pipeline.arrRef spec13 0)) (funext fun a => Fin.ext ?_)
  match a with
  | ⟨0, _⟩ => show win13_0.index t (0 : Fin 2) * 2000 + 1 * (j 0).val = win13_5.index t (0 : Fin 2) * 2000 + 1 * (j 0).val; omega
  | ⟨1, _⟩ => show win13_0.index t (1 : Fin 2) * 128 + 1 * (j 1).val = win13_5.index t (1 : Fin 2) * 128 + 1 * (j 1).val; omega

/-- Block t of operand 1 holds at an entry the operand's entry under the same entry of the result's block t. -/
theorem read13_1 (c : Dev nD) (t : Fin cfg13.N) (j : S2000x128.Idx) :
    iblk13 V c 1 t j = V c (Pipeline.arrRef spec13 1) (((cfg13.win 5).blk t).view.emb j) := by
  obtain ⟨_, _, ea, eb, _, _, _, _, _, _, ec, ed⟩ := idx13 t
  unfold iblk13
  show V c (Pipeline.arrRef spec13 1) (((cfg13.win 1).blk t).view.emb j) = V c (Pipeline.arrRef spec13 1) (((cfg13.win 5).blk t).view.emb j)
  refine congrArg (V c (Pipeline.arrRef spec13 1)) (funext fun a => Fin.ext ?_)
  match a with
  | ⟨0, _⟩ => show win13_1.index t (0 : Fin 2) * 2000 + 1 * (j 0).val = win13_5.index t (0 : Fin 2) * 2000 + 1 * (j 0).val; omega
  | ⟨1, _⟩ => show win13_1.index t (1 : Fin 2) * 128 + 1 * (j 1).val = win13_5.index t (1 : Fin 2) * 128 + 1 * (j 1).val; omega

/-- Block t of operand 2 holds at an entry the operand's entry under the same entry of the result's block t. -/
theorem read13_2 (c : Dev nD) (t : Fin cfg13.N) (j : S2000x128.Idx) :
    iblk13 V c 2 t j = V c (Pipeline.arrRef spec13 2) (((cfg13.win 5).blk t).view.emb j) := by
  obtain ⟨_, _, _, _, ea, eb, _, _, _, _, ec, ed⟩ := idx13 t
  unfold iblk13
  show V c (Pipeline.arrRef spec13 2) (((cfg13.win 2).blk t).view.emb j) = V c (Pipeline.arrRef spec13 2) (((cfg13.win 5).blk t).view.emb j)
  refine congrArg (V c (Pipeline.arrRef spec13 2)) (funext fun a => Fin.ext ?_)
  match a with
  | ⟨0, _⟩ => show win13_2.index t (0 : Fin 2) * 2000 + 1 * (j 0).val = win13_5.index t (0 : Fin 2) * 2000 + 1 * (j 0).val; omega
  | ⟨1, _⟩ => show win13_2.index t (1 : Fin 2) * 128 + 1 * (j 1).val = win13_5.index t (1 : Fin 2) * 128 + 1 * (j 1).val; omega

/-- Block t of operand 3 holds at an entry the operand's entry under the same entry of the result's block t. -/
theorem read13_3 (c : Dev nD) (t : Fin cfg13.N) (j : S2000x128.Idx) :
    iblk13 V c 3 t j = V c (Pipeline.arrRef spec13 3) (((cfg13.win 5).blk t).view.emb j) := by
  obtain ⟨_, _, _, _, _, _, ea, eb, _, _, ec, ed⟩ := idx13 t
  unfold iblk13
  show V c (Pipeline.arrRef spec13 3) (((cfg13.win 3).blk t).view.emb j) = V c (Pipeline.arrRef spec13 3) (((cfg13.win 5).blk t).view.emb j)
  refine congrArg (V c (Pipeline.arrRef spec13 3)) (funext fun a => Fin.ext ?_)
  match a with
  | ⟨0, _⟩ => show win13_3.index t (0 : Fin 2) * 2000 + 1 * (j 0).val = win13_5.index t (0 : Fin 2) * 2000 + 1 * (j 0).val; omega
  | ⟨1, _⟩ => show win13_3.index t (1 : Fin 2) * 128 + 1 * (j 1).val = win13_5.index t (1 : Fin 2) * 128 + 1 * (j 1).val; omega

/-- Block t of operand 4 holds at an entry the operand's entry under the same entry of the result's block t. -/
theorem read13_4 (c : Dev nD) (t : Fin cfg13.N) (j : S2000x128.Idx) :
    iblk13 V c 4 t j = V c (Pipeline.arrRef spec13 4) (((cfg13.win 5).blk t).view.emb j) := by
  obtain ⟨_, _, _, _, _, _, _, _, ea, eb, ec, ed⟩ := idx13 t
  unfold iblk13
  show V c (Pipeline.arrRef spec13 4) (((cfg13.win 4).blk t).view.emb j) = V c (Pipeline.arrRef spec13 4) (((cfg13.win 5).blk t).view.emb j)
  refine congrArg (V c (Pipeline.arrRef spec13 4)) (funext fun a => Fin.ext ?_)
  match a with
  | ⟨0, _⟩ => show win13_4.index t (0 : Fin 2) * 2000 + 1 * (j 0).val = win13_5.index t (0 : Fin 2) * 2000 + 1 * (j 0).val; omega
  | ⟨1, _⟩ => show win13_4.index t (1 : Fin 2) * 128 + 1 * (j 1).val = win13_5.index t (1 : Fin 2) * 128 + 1 * (j 1).val; omega

/-- What point t writes back is block t of `Spec.comb` of the operand arrays. -/
theorem flushed13 (c : Dev nD) (t : Fin cfg13.N) :
    (dat13 (F := Ideal) V c).flushed 5 t = ((cfg13.win 5).blk t).view.read (Elt Ideal)
      (Cert.Spec.comb (M := 50000) (V c (Pipeline.arrRef spec13 0)) (V c (Pipeline.arrRef spec13 1)) (V c (Pipeline.arrRef spec13 2)) (V c (Pipeline.arrRef spec13 3)) (V c (Pipeline.arrRef spec13 4))) := by
  show (cfg13.win 5).cut (grid13.coords t) ((dat13 V c).after 5 t) = _
  rw [after13_5]
  unfold out13_5
  rw [View.canon_unit_zero hz]
  simp only [View.ld_unit_zero (S := S2000x128) hz]
  funext j
  show k13_pay1 (iblk13 V c 0 t) (iblk13 V c 1 t) (iblk13 V c 2 t) (iblk13 V c 3 t) (iblk13 V c 4 t) j
    = Cert.Spec.comb (M := 50000) (V c (Pipeline.arrRef spec13 0)) (V c (Pipeline.arrRef spec13 1)) (V c (Pipeline.arrRef spec13 2)) (V c (Pipeline.arrRef spec13 3)) (V c (Pipeline.arrRef spec13 4)) (((cfg13.win 5).blk t).view.emb j)
  exact comb_block (M := 50000) (R := 2000) (V c (Pipeline.arrRef spec13 0)) (V c (Pipeline.arrRef spec13 1)) (V c (Pipeline.arrRef spec13 2)) (V c (Pipeline.arrRef spec13 3)) (V c (Pipeline.arrRef spec13 4))
    (iblk13 V c 0 t) (iblk13 V c 1 t) (iblk13 V c 2 t) (iblk13 V c 3 t) (iblk13 V c 4 t)
    (k13_pay1 (iblk13 V c 0 t) (iblk13 V c 1 t) (iblk13 V c 2 t) (iblk13 V c 3 t) (iblk13 V c 4 t)) (pay13 (iblk13 V c 0 t) (iblk13 V c 1 t) (iblk13 V c 2 t) (iblk13 V c 3 t) (iblk13 V c 4 t)) j
    (((cfg13.win 5).blk t).view.emb j) (read13_0 V c t j) (read13_1 V c t j) (read13_2 V c t j) (read13_3 V c t j) (read13_4 V c t j)

/-- An index of the result array is in point t's block iff each coordinate is in the block's range. -/
theorem mem_blk13_5 (t : Fin cfg13.N) (i : (⟨2, ![50000, 128]⟩ : Shape).Idx) :
    i ∈ ((cfg13.win 5).blk t).view.set ↔ ∀ a : Fin 2, win13_5.index t a * S2000x128.size a ≤ (i a).val ∧ (i a).val < win13_5.index t a * S2000x128.size a + S2000x128.size a := by
  show i ∈ ((View.whole main_v222).slice (win13_5.rect t)).set ↔ _
  rw [View.set_slice_whole, Rect.mem_set_unit]
  exact Iff.rfl

/-- Row r of the result is in the block of point r / 2000. -/
theorem cover13_5 (i : (⟨2, ![50000, 128]⟩ : Shape).Idx) :
    ∃ t : Fin cfg13.N, (cfg13.win 5).flush t = true ∧ i ∈ ((cfg13.win 5).blk t).view.set := by
  have hi0 : (i 0).val < 50000 := (i 0).isLt
  have hi1 : (i 1).val < 128 := (i 1).isLt
  have hN : (i 0).val / 2000 < cfg13.N := by rw [show cfg13.N = 25 from N_13]; omega
  obtain ⟨f0, f1, f2, f3, f4, f5, f6, f7, f8, f9, f10, f11⟩ := idx13 ⟨(i 0).val / 2000, hN⟩
  have g0 : win13_5.index ⟨(i 0).val / 2000, hN⟩ (0 : Fin 2) = (i 0).val / 2000 := f10
  have g1 : win13_5.index ⟨(i 0).val / 2000, hN⟩ (1 : Fin 2) = 0 := f11
  refine ⟨⟨(i 0).val / 2000, hN⟩, flush13_5 _, ?_⟩
  rw [mem_blk13_5]
  intro a
  match a with
  | ⟨0, _⟩ => show win13_5.index ⟨(i 0).val / 2000, hN⟩ (0 : Fin 2) * 2000 ≤ (i 0).val ∧ (i 0).val < win13_5.index ⟨(i 0).val / 2000, hN⟩ (0 : Fin 2) * 2000 + 2000; omega
  | ⟨1, _⟩ => show win13_5.index ⟨(i 0).val / 2000, hN⟩ (1 : Fin 2) * 128 ≤ (i 1).val ∧ (i 1).val < win13_5.index ⟨(i 0).val / 2000, hN⟩ (1 : Fin 2) * 128 + 128; omega

/-- THE RESULT ARRAY after the region. -/
theorem final13 (c : Dev nD) : (dat13 (F := Ideal) V c).arrAt 5 cfg13.N
    = Cert.Spec.comb (M := 50000) (V c (Pipeline.arrRef spec13 0)) (V c (Pipeline.arrRef spec13 1)) (V c (Pipeline.arrRef spec13 2)) (V c (Pipeline.arrRef spec13 3)) (V c (Pipeline.arrRef spec13 4)) :=
  (dat13 (F := Ideal) V c).arrAt_eq_of_cover 5 (Cert.Spec.comb (M := 50000) (V c (Pipeline.arrRef spec13 0)) (V c (Pipeline.arrRef spec13 1)) (V c (Pipeline.arrRef spec13 2)) (V c (Pipeline.arrRef spec13 3)) (V c (Pipeline.arrRef spec13 4)))
    (fun t _ => flushed13 V c t) (cover13_5)

end Cert.KernelIdeal.Reg

end
-- ==== Proof.Reg14.lean ====
/-
  Region 14: two products of the same rows.  The 50000 rows of the row operand [50000, 128] are cut into 25
  blocks of 2000 rows; grid point t reads block t of the row operand, two whole weight matrices [128, 128]
  and a whole bias row [1, 128], and writes block t of two results [50000, 128]: the first at (r, q) the sum
  over k of x(2000 t + r, k) · wa(k, q), plus b(0, q); the second the sum over k of x(2000 t + r, k) · wb(k, q).
  The 25 blocks cover each result, so after the region the two result arrays are the array-level functions
  `Spec.lin` and `Spec.mm` of the operand arrays as the region found them.
-/
import proofs.«168040_j41652592837487_1_alg».proof.Proof.Gen.KernelIdeal.Frame
import proofs.«168040_j41652592837487_1_alg».proof.Proof.Spec
import proofs.«168040_j41652592837487_1_alg».proof.Proof.RegPay
import Idealize.ShloMosaic.Lib.Pipeline.Value

set_option maxRecDepth 16384

noncomputable section

open scoped BigOperators

namespace Cert.KernelIdeal.Reg

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.RegPay

variable (V : (c : Dev nD) → (b : Ref sig .tc) → Buf (Elt Ideal) ((c : Thread nD τ).loc b))

/-- The first stored value at row r and column q of a block: the sum over k of x(r,k) · wa(k,q), plus b(0,q). -/
theorem pay14_2 (x : Vec Ideal S2000x128 .f32) (w : Vec Ideal S128x128 .f32) (b : Vec Ideal S1x128 .f32) (r : Fin 2000) (q : Fin 128) :
    k14_pay2 x w b (ix2 r q) = (∑ kk : Fin 128, x (ix2 r kk) * w (ix2 kk q)) + b (ix2 0 q) := by
  unfold k14_pay2 k14_pay1
  exact lin_body_cast_apply _ rfl rfl (fun _ _ => rfl) (fun _ _ => rfl) (fun _ _ => rfl) (fun _ _ => rfl) x w b _ _ _ _ _ r q

/-- The second stored value at row r and column q of a block: the sum over k of x(r,k) · wb(k,q). -/
theorem pay14_3 (x : Vec Ideal S2000x128 .f32) (w : Vec Ideal S128x128 .f32) (r : Fin 2000) (q : Fin 128) :
    k14_pay3 x w (ix2 r q) = ∑ kk : Fin 128, x (ix2 r kk) * w (ix2 kk q) := by
  unfold k14_pay3 k14_pay1
  exact mm_body_cast_apply _ rfl rfl (fun _ _ => rfl) (fun _ _ => rfl) (fun _ _ => rfl) (fun _ _ => rfl) x w _ _ _ r q

/-- The block index maps over the grid: the row operand and the two results move to block (t, 0) at point t;
    the weight matrices and the bias row stay at block (0, 0). -/
theorem idx14 : ∀ t : Fin cfg14.N, win14_0.index t (0 : Fin 2) = t.val ∧ win14_0.index t (1 : Fin 2) = 0
    ∧ win14_1.index t (0 : Fin 2) = 0 ∧ win14_1.index t (1 : Fin 2) = 0
    ∧ win14_2.index t (0 : Fin 2) = 0 ∧ win14_2.index t (1 : Fin 2) = 0
    ∧ win14_3.index t (0 : Fin 2) = 0 ∧ win14_3.index t (1 : Fin 2) = 0
    ∧ win14_4.index t (0 : Fin 2) = t.val ∧ win14_4.index t (1 : Fin 2) = 0
    ∧ win14_5.index t (0 : Fin 2) = t.val ∧ win14_5.index t (1 : Fin 2) = 0 :=
  (by decide +kernel : ∀ t : Fin grid14.N, _)

/-- Block t of the row operand holds at (r, k) the operand's entry (2000 t + r, k). -/
theorem rows14 (c : Dev nD) (t : Fin cfg14.N) (y : S2000x128.Idx) (i : (⟨2, ![50000, 128]⟩ : Shape).Idx)
    (ha : (i 0).val = t.val * 2000 + (y 0).val) (hb : (i 1).val = (y 1).val) :
    iblk14 V c 0 t y = V c (Pipeline.arrRef spec14 0) i := by
  obtain ⟨e00, e01, -⟩ := idx14 t
  unfold iblk14
  show V c (Pipeline.arrRef spec14 0) (((cfg14.win 0).blk t).view.emb y) = V c (Pipeline.arrRef spec14 0) i
  refine congrArg (V c (Pipeline.arrRef spec14 0)) (funext fun a => Fin.ext ?_)
  match a with
  | ⟨0, _⟩ => show win14_0.index t (0 : Fin 2) * 2000 + 1 * (y 0).val = (i 0).val; omega
  | ⟨1, _⟩ => show win14_0.index t (1 : Fin 2) * 128 + 1 * (y 1).val = (i 1).val; omega

/-- The first weight matrix is read whole at every point. -/
theorem whole14_1 (c : Dev nD) (t : Fin cfg14.N) : iblk14 V c 1 t = V c (Pipeline.arrRef spec14 1) := by
  obtain ⟨_, _, ea, eb, _, _, _, _, _, _, _, _⟩ := idx14 t
  funext (y : S128x128.Idx)
  unfold iblk14
  show V c (Pipeline.arrRef spec14 1) (((cfg14.win 1).blk t).view.emb y) = V c (Pipeline.arrRef spec14 1) y
  refine congrArg (V c (Pipeline.arrRef spec14 1)) (funext fun a => Fin.ext ?_)
  match a with
  | ⟨0, _⟩ => show win14_1.index t (0 : Fin 2) * 128 + 1 * (y 0).val = (y 0).val; omega
  | ⟨1, _⟩ => show win14_1.index t (1 : Fin 2) * 128 + 1 * (y 1).val = (y 1).val; omega

/-- The bias row is read whole at every point. -/
theorem whole14_2 (c : Dev nD) (t : Fin cfg14.N) : iblk14 V c 2 t = V c (Pipeline.arrRef spec14 2) := by
  obtain ⟨_, _, _, _, ea, eb, _, _, _, _, _, _⟩ := idx14 t
  funext (y : S1x128.Idx)
  unfold iblk14
  show V c (Pipeline.arrRef spec14 2) (((cfg14.win 2).blk t).view.emb y) = V c (Pipeline.arrRef spec14 2) y
  refine congrArg (V c (Pipeline.arrRef spec14 2)) (funext fun a => Fin.ext ?_)
  match a with
  | ⟨0, _⟩ => show win14_2.index t (0 : Fin 2) * 1 + 1 * (y 0).val = (y 0).val; omega
  | ⟨1, _⟩ => show win14_2.index t (1 : Fin 2) * 128 + 1 * (y 1).val = (y 1).val; omega

/-- The second weight matrix is read whole at every point. -/
theorem whole14_3 (c : Dev nD) (t : Fin cfg14.N) : iblk14 V c 3 t = V c (Pipeline.arrRef spec14 3) := by
  obtain ⟨_, _, _, _, _, _, ea, eb, _, _, _, _⟩ := idx14 t
  funext (y : S128x128.Idx)
  unfold iblk14
  show V c (Pipeline.arrRef spec14 3) (((cfg14.win 3).blk t).view.emb y) = V c (Pipeline.arrRef spec14 3) y
  refine congrArg (V c (Pipeline.arrRef spec14 3)) (funext fun a => Fin.ext ?_)
  match a with
  | ⟨0, _⟩ => show win14_3.index t (0 : Fin 2) * 128 + 1 * (y 0).val = (y 0).val; omega
  | ⟨1, _⟩ => show win14_3.index t (1 : Fin 2) * 128 + 1 * (y 1).val = (y 1).val; omega

/-- Entry (r, q) of the block point t writes sits at (2000 t + r, q) of the result. -/
theorem outpos14_4 (t : Fin cfg14.N) (j : S2000x128.Idx) :
    ((((cfg14.win 4).blk t).view.emb j) 0).val = t.val * 2000 + (j 0).val
    ∧ ((((cfg14.win 4).blk t).view.emb j) 1).val = (j 1).val := by
  obtain ⟨_, _, _, _, _, _, _, _, ea, eb, _, _⟩ := idx14 t
  constructor
  · show win14_4.index t (0 : Fin 2) * 2000 + 1 * (j 0).val = t.val * 2000 + (j 0).val; omega
  · show win14_4.index t (1 : Fin 2) * 128 + 1 * (j 1).val = (j 1).val; omega

/-- Entry (r, q) of the block point t writes sits at (2000 t + r, q) of the result. -/
theorem outpos14_5 (t : Fin cfg14.N) (j : S2000x128.Idx) :
    ((((cfg14.win 5).blk t).view.emb j) 0).val = t.val * 2000 + (j 0).val
    ∧ ((((cfg14.win 5).blk t).view.emb j) 1).val = (j 1).val := by
  obtain ⟨_, _, _, _, _, _, _, _, _, _, ea, eb⟩ := idx14 t
  constructor
  · show win14_5.index t (0 : Fin 2) * 2000 + 1 * (j 0).val = t.val * 2000 + (j 0).val; omega
  · show win14_5.index t (1 : Fin 2) * 128 + 1 * (j 1).val = (j 1).val; omega

/-- What point t writes back through the first result's window is block t of `Spec.lin` of the operand arrays. -/
theorem flushed14_4 (c : Dev nD) (t : Fin cfg14.N) :
    (dat14 (F := Ideal) V c).flushed 4 t = ((cfg14.win 4).blk t).view.read (Elt Ideal)
      (Cert.Spec.lin (M := 50000) (K := 128) (V c (Pipeline.arrRef spec14 0)) (V c (Pipeline.arrRef spec14 1)) (V c (Pipeline.arrRef spec14 2))) := by
  show (cfg14.win 4).cut (grid14.coords t) ((dat14 V c).after 4 t) = _
  rw [after14_4]
  unfold out14_4
  rw [View.canon_unit_zero hz]
  simp only [View.ld_unit_zero (S := S2000x128) hz, View.ld_unit_zero (S := S128x128) hz, View.ld_unit_zero (S := S1x128) hz]
  funext j
  show k14_pay2 (iblk14 V c 0 t) (iblk14 V c 1 t) (iblk14 V c 2 t) j
    = Cert.Spec.lin (M := 50000) (K := 128) (V c (Pipeline.arrRef spec14 0)) (V c (Pipeline.arrRef spec14 1)) (V c (Pipeline.arrRef spec14 2)) (((cfg14.win 4).blk t).view.emb j)
  exact lin_block (M := 50000) (R := 2000) (K := 128) (V c (Pipeline.arrRef spec14 0)) (V c (Pipeline.arrRef spec14 1)) (V c (Pipeline.arrRef spec14 2)) (iblk14 V c 0 t) (iblk14 V c 1 t) (iblk14 V c 2 t)
    (k14_pay2 (iblk14 V c 0 t) (iblk14 V c 1 t) (iblk14 V c 2 t)) (t.val * 2000) (pay14_2 (iblk14 V c 0 t) (iblk14 V c 1 t) (iblk14 V c 2 t))
    (fun y i ha hb => rows14 V c t y i ha hb) (whole14_1 V c t) (whole14_2 V c t) j
    (((cfg14.win 4).blk t).view.emb j) (outpos14_4 t j).1 (outpos14_4 t j).2

/-- What point t writes back through the second result's window is block t of `Spec.mm` of the operand arrays. -/
theorem flushed14_5 (c : Dev nD) (t : Fin cfg14.N) :
    (dat14 (F := Ideal) V c).flushed 5 t = ((cfg14.win 5).blk t).view.read (Elt Ideal)
      (Cert.Spec.mm (M := 50000) (K := 128) (V c (Pipeline.arrRef spec14 0)) (V c (Pipeline.arrRef spec14 3))) := by
  show (cfg14.win 5).cut (grid14.coords t) ((dat14 V c).after 5 t) = _
  rw [after14_5]
  unfold out14_5
  rw [View.canon_unit_zero hz]
  simp only [View.ld_unit_zero (S := S2000x128) hz, View.ld_unit_zero (S := S128x128) hz]
  funext j
  show k14_pay3 (iblk14 V c 0 t) (iblk14 V c 3 t) j
    = Cert.Spec.mm (M := 50000) (K := 128) (V c (Pipeline.arrRef spec14 0)) (V c (Pipeline.arrRef spec14 3)) (((cfg14.win 5).blk t).view.emb j)
  exact mm_block (M := 50000) (R := 2000) (K := 128) (V c (Pipeline.arrRef spec14 0)) (V c (Pipeline.arrRef spec14 3)) (iblk14 V c 0 t) (iblk14 V c 3 t)
    (k14_pay3 (iblk14 V c 0 t) (iblk14 V c 3 t)) (t.val * 2000) (pay14_3 (iblk14 V c 0 t) (iblk14 V c 3 t))
    (fun y i ha hb => rows14 V c t y i ha hb) (whole14_3 V c t) j
    (((cfg14.win 5).blk t).view.emb j) (outpos14_5 t j).1 (outpos14_5 t j).2

/-- An index of the result array is in point t's block iff each coordinate is in the block's range. -/
theorem mem_blk14_4 (t : Fin cfg14.N) (i : (⟨2, ![50000, 128]⟩ : Shape).Idx) :
    i ∈ ((cfg14.win 4).blk t).view.set ↔ ∀ a : Fin 2, win14_4.index t a * S2000x128.size a ≤ (i a).val ∧ (i a).val < win14_4.index t a * S2000x128.size a + S2000x128.size a := by
  show i ∈ ((View.whole main_v230_0).slice (win14_4.rect t)).set ↔ _
  rw [View.set_slice_whole, Rect.mem_set_unit]
  exact Iff.rfl

/-- Row r of the result is in the block of point r / 2000. -/
theorem cover14_4 (i : (⟨2, ![50000, 128]⟩ : Shape).Idx) :
    ∃ t : Fin cfg14.N, (cfg14.win 4).flush t = true ∧ i ∈ ((cfg14.win 4).blk t).view.set := by
  have hi0 : (i 0).val < 50000 := (i 0).isLt
  have hi1 : (i 1).val < 128 := (i 1).isLt
  have hN : (i 0).val / 2000 < cfg14.N := by rw [show cfg14.N = 25 from N_14]; omega
  obtain ⟨f0, f1, f2, f3, f4, f5, f6, f7, f8, f9, f10, f11⟩ := idx14 ⟨(i 0).val / 2000, hN⟩
  have g0 : win14_4.index ⟨(i 0).val / 2000, hN⟩ (0 : Fin 2) = (i 0).val / 2000 := f8
  have g1 : win14_4.index ⟨(i 0).val / 2000, hN⟩ (1 : Fin 2) = 0 := f9
  refine ⟨⟨(i 0).val / 2000, hN⟩, flush14_4 _, ?_⟩
  rw [mem_blk14_4]
  intro a
  match a with
  | ⟨0, _⟩ => show win14_4.index ⟨(i 0).val / 2000, hN⟩ (0 : Fin 2) * 2000 ≤ (i 0).val ∧ (i 0).val < win14_4.index ⟨(i 0).val / 2000, hN⟩ (0 : Fin 2) * 2000 + 2000; omega
  | ⟨1, _⟩ => show win14_4.index ⟨(i 0).val / 2000, hN⟩ (1 : Fin 2) * 128 ≤ (i 1).val ∧ (i 1).val < win14_4.index ⟨(i 0).val / 2000, hN⟩ (1 : Fin 2) * 128 + 128; omega

/-- THE RESULT ARRAY after the region. -/
theorem final14_4 (c : Dev nD) : (dat14 (F := Ideal) V c).arrAt 4 cfg14.N
    = Cert.Spec.lin (M := 50000) (K := 128) (V c (Pipeline.arrRef spec14 0)) (V c (Pipeline.arrRef spec14 1)) (V c (Pipeline.arrRef spec14 2)) :=
  (dat14 (F := Ideal) V c).arrAt_eq_of_cover 4 (Cert.Spec.lin (M := 50000) (K := 128) (V c (Pipeline.arrRef spec14 0)) (V c (Pipeline.arrRef spec14 1)) (V c (Pipeline.arrRef spec14 2)))
    (fun t _ => flushed14_4 V c t) (cover14_4)

/-- An index of the result array is in point t's block iff each coordinate is in the block's range. -/
theorem mem_blk14_5 (t : Fin cfg14.N) (i : (⟨2, ![50000, 128]⟩ : Shape).Idx) :
    i ∈ ((cfg14.win 5).blk t).view.set ↔ ∀ a : Fin 2, win14_5.index t a * S2000x128.size a ≤ (i a).val ∧ (i a).val < win14_5.index t a * S2000x128.size a + S2000x128.size a := by
  show i ∈ ((View.whole main_v230_1).slice (win14_5.rect t)).set ↔ _
  rw [View.set_slice_whole, Rect.mem_set_unit]
  exact Iff.rfl

/-- Row r of the result is in the block of point r / 2000. -/
theorem cover14_5 (i : (⟨2, ![50000, 128]⟩ : Shape).Idx) :
    ∃ t : Fin cfg14.N, (cfg14.win 5).flush t = true ∧ i ∈ ((cfg14.win 5).blk t).view.set := by
  have hi0 : (i 0).val < 50000 := (i 0).isLt
  have hi1 : (i 1).val < 128 := (i 1).isLt
  have hN : (i 0).val / 2000 < cfg14.N := by rw [show cfg14.N = 25 from N_14]; omega
  obtain ⟨f0, f1, f2, f3, f4, f5, f6, f7, f8, f9, f10, f11⟩ := idx14 ⟨(i 0).val / 2000, hN⟩
  have g0 : win14_5.index ⟨(i 0).val / 2000, hN⟩ (0 : Fin 2) = (i 0).val / 2000 := f10
  have g1 : win14_5.index ⟨(i 0).val / 2000, hN⟩ (1 : Fin 2) = 0 := f11
  refine ⟨⟨(i 0).val / 2000, hN⟩, flush14_5 _, ?_⟩
  rw [mem_blk14_5]
  intro a
  match a with
  | ⟨0, _⟩ => show win14_5.index ⟨(i 0).val / 2000, hN⟩ (0 : Fin 2) * 2000 ≤ (i 0).val ∧ (i 0).val < win14_5.index ⟨(i 0).val / 2000, hN⟩ (0 : Fin 2) * 2000 + 2000; omega
  | ⟨1, _⟩ => show win14_5.index ⟨(i 0).val / 2000, hN⟩ (1 : Fin 2) * 128 ≤ (i 1).val ∧ (i 1).val < win14_5.index ⟨(i 0).val / 2000, hN⟩ (1 : Fin 2) * 128 + 128; omega

/-- THE RESULT ARRAY after the region. -/
theorem final14_5 (c : Dev nD) : (dat14 (F := Ideal) V c).arrAt 5 cfg14.N
    = Cert.Spec.mm (M := 50000) (K := 128) (V c (Pipeline.arrRef spec14 0)) (V c (Pipeline.arrRef spec14 3)) :=
  (dat14 (F := Ideal) V c).arrAt_eq_of_cover 5 (Cert.Spec.mm (M := 50000) (K := 128) (V c (Pipeline.arrRef spec14 0)) (V c (Pipeline.arrRef spec14 3)))
    (fun t _ => flushed14_5 V c t) (cover14_5)

end Cert.KernelIdeal.Reg

end
-- ==== Proof.Reg15.lean ====
/-
  Region 15: a linear map of the rows plus a bias row.  The 100000 rows of the row operand [100000, 128] are
  cut into 50 blocks of 2000 rows; grid point t reads block t of the row operand, the whole weight matrix
  [128, 128] and the whole bias row [1, 128], and writes block t of the result [100000, 128]: at (r, q) the
  sum over k of x(2000 t + r, k) · w(k, q), plus b(0, q).  The 50 blocks cover the result, so after the
  region the result array is the array-level function `Spec.lin` of the three operand arrays as the region
  found them.
-/
import proofs.«168040_j41652592837487_1_alg».proof.Proof.Gen.KernelIdeal.Frame
import proofs.«168040_j41652592837487_1_alg».proof.Proof.Spec
import proofs.«168040_j41652592837487_1_alg».proof.Proof.RegPay
import Idealize.ShloMosaic.Lib.Pipeline.Value

set_option maxRecDepth 16384

noncomputable section

open scoped BigOperators

namespace Cert.KernelIdeal.Reg

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.RegPay

variable (V : (c : Dev nD) → (b : Ref sig .tc) → Buf (Elt Ideal) ((c : Thread nD τ).loc b))

/-- The body's stored value at row r and column q of a block: the sum over k of x(r,k) · w(k,q), plus b(0,q). -/
theorem pay15 (x : Vec Ideal S2000x128 .f32) (w : Vec Ideal S128x128 .f32) (b : Vec Ideal S1x128 .f32) (r : Fin 2000) (q : Fin 128) :
    k15_pay1 x w b (ix2 r q) = (∑ kk : Fin 128, x (ix2 r kk) * w (ix2 kk q)) + b (ix2 0 q) := by
  unfold k15_pay1
  exact lin_body_cast_apply _ rfl rfl (fun _ _ => rfl) (fun _ _ => rfl) (fun _ _ => rfl) (fun _ _ => rfl) x w b _ _ _ _ _ r q

/-- The block index maps over the grid: the row operand and the result move to block (t, 0) at point t; the
    weight matrix and the bias row stay at block (0, 0). -/
theorem idx15 : ∀ t : Fin cfg15.N, win15_0.index t (0 : Fin 2) = t.val ∧ win15_0.index t (1 : Fin 2) = 0
    ∧ win15_1.index t (0 : Fin 2) = 0 ∧ win15_1.index t (1 : Fin 2) = 0
    ∧ win15_2.index t (0 : Fin 2) = 0 ∧ win15_2.index t (1 : Fin 2) = 0
    ∧ win15_3.index t (0 : Fin 2) = t.val ∧ win15_3.index t (1 : Fin 2) = 0 :=
  (by decide +kernel : ∀ t : Fin grid15.N, _)

/-- Block t of the row operand holds at (r, k) the operand's entry (2000 t + r, k). -/
theorem rows15 (c : Dev nD) (t : Fin cfg15.N) (y : S2000x128.Idx) (i : (⟨2, ![100000, 128]⟩ : Shape).Idx)
    (ha : (i 0).val = t.val * 2000 + (y 0).val) (hb : (i 1).val = (y 1).val) :
    iblk15 V c 0 t y = V c (Pipeline.arrRef spec15 0) i := by
  obtain ⟨e00, e01, -⟩ := idx15 t
  unfold iblk15
  show V c (Pipeline.arrRef spec15 0) (((cfg15.win 0).blk t).view.emb y) = V c (Pipeline.arrRef spec15 0) i
  refine congrArg (V c (Pipeline.arrRef spec15 0)) (funext fun a => Fin.ext ?_)
  match a with
  | ⟨0, _⟩ => show win15_0.index t (0 : Fin 2) * 2000 + 1 * (y 0).val = (i 0).val; omega
  | ⟨1, _⟩ => show win15_0.index t (1 : Fin 2) * 128 + 1 * (y 1).val = (i 1).val; omega

/-- The weight matrix is read whole at every point. -/
theorem whole15_1 (c : Dev nD) (t : Fin cfg15.N) : iblk15 V c 1 t = V c (Pipeline.arrRef spec15 1) := by
  obtain ⟨_, _, ea, eb, _, _, _, _⟩ := idx15 t
  funext (y : S128x128.Idx)
  unfold iblk15
  show V c (Pipeline.arrRef spec15 1) (((cfg15.win 1).blk t).view.emb y) = V c (Pipeline.arrRef spec15 1) y
  refine congrArg (V c (Pipeline.arrRef spec15 1)) (funext fun a => Fin.ext ?_)
  match a with
  | ⟨0, _⟩ => show win15_1.index t (0 : Fin 2) * 128 + 1 * (y 0).val = (y 0).val; omega
  | ⟨1, _⟩ => show win15_1.index t (1 : Fin 2) * 128 + 1 * (y 1).val = (y 1).val; omega

/-- The bias row is read whole at every point. -/
theorem whole15_2 (c : Dev nD) (t : Fin cfg15.N) : iblk15 V c 2 t = V c (Pipeline.arrRef spec15 2) := by
  obtain ⟨_, _, _, _, ea, eb, _, _⟩ := idx15 t
  funext (y : S1x128.Idx)
  unfold iblk15
  show V c (Pipeline.arrRef spec15 2) (((cfg15.win 2).blk t).view.emb y) = V c (Pipeline.arrRef spec15 2) y
  refine congrArg (V c (Pipeline.arrRef spec15 2)) (funext fun a => Fin.ext ?_)
  match a with
  | ⟨0, _⟩ => show win15_2.index t (0 : Fin 2) * 1 + 1 * (y 0).val = (y 0).val; omega
  | ⟨1, _⟩ => show win15_2.index t (1 : Fin 2) * 128 + 1 * (y 1).val = (y 1).val; omega

/-- Entry (r, q) of the block point t writes sits at (2000 t + r, q) of the result. -/
theorem outpos15_3 (t : Fin cfg15.N) (j : S2000x128.Idx) :
    ((((cfg15.win 3).blk t).view.emb j) 0).val = t.val * 2000 + (j 0).val
    ∧ ((((cfg15.win 3).blk t).view.emb j) 1).val = (j 1).val := by
  obtain ⟨_, _, _, _, _, _, ea, eb⟩ := idx15 t
  constructor
  · show win15_3.index t (0 : Fin 2) * 2000 + 1 * (j 0).val = t.val * 2000 + (j 0).val; omega
  · show win15_3.index t (1 : Fin 2) * 128 + 1 * (j 1).val = (j 1).val; omega

/-- What point t writes back is block t of `Spec.lin` of the operand arrays. -/
theorem flushed15 (c : Dev nD) (t : Fin cfg15.N) :
    (dat15 (F := Ideal) V c).flushed 3 t = ((cfg15.win 3).blk t).view.read (Elt Ideal)
      (Cert.Spec.lin (M := 100000) (K := 128) (V c (Pipeline.arrRef spec15 0)) (V c (Pipeline.arrRef spec15 1)) (V c (Pipeline.arrRef spec15 2))) := by
  show (cfg15.win 3).cut (grid15.coords t) ((dat15 V c).after 3 t) = _
  rw [after15_3]
  unfold out15_3
  rw [View.canon_unit_zero hz]
  simp only [View.ld_unit_zero (S := S2000x128) hz, View.ld_unit_zero (S := S128x128) hz, View.ld_unit_zero (S := S1x128) hz]
  funext j
  show k15_pay1 (iblk15 V c 0 t) (iblk15 V c 1 t) (iblk15 V c 2 t) j
    = Cert.Spec.lin (M := 100000) (K := 128) (V c (Pipeline.arrRef spec15 0)) (V c (Pipeline.arrRef spec15 1)) (V c (Pipeline.arrRef spec15 2)) (((cfg15.win 3).blk t).view.emb j)
  exact lin_block (M := 100000) (R := 2000) (K := 128) (V c (Pipeline.arrRef spec15 0)) (V c (Pipeline.arrRef spec15 1)) (V c (Pipeline.arrRef spec15 2)) (iblk15 V c 0 t) (iblk15 V c 1 t) (iblk15 V c 2 t)
    (k15_pay1 (iblk15 V c 0 t) (iblk15 V c 1 t) (iblk15 V c 2 t)) (t.val * 2000) (pay15 (iblk15 V c 0 t) (iblk15 V c 1 t) (iblk15 V c 2 t))
    (fun y i ha hb => rows15 V c t y i ha hb) (whole15_1 V c t) (whole15_2 V c t) j
    (((cfg15.win 3).blk t).view.emb j) (outpos15_3 t j).1 (outpos15_3 t j).2

/-- An index of the result array is in point t's block iff each coordinate is in the block's range. -/
theorem mem_blk15_3 (t : Fin cfg15.N) (i : (⟨2, ![100000, 128]⟩ : Shape).Idx) :
    i ∈ ((cfg15.win 3).blk t).view.set ↔ ∀ a : Fin 2, win15_3.index t a * S2000x128.size a ≤ (i a).val ∧ (i a).val < win15_3.index t a * S2000x128.size a + S2000x128.size a := by
  show i ∈ ((View.whole main_v234).slice (win15_3.rect t)).set ↔ _
  rw [View.set_slice_whole, Rect.mem_set_unit]
  exact Iff.rfl

/-- Row r of the result is in the block of point r / 2000. -/
theorem cover15_3 (i : (⟨2, ![100000, 128]⟩ : Shape).Idx) :
    ∃ t : Fin cfg15.N, (cfg15.win 3).flush t = true ∧ i ∈ ((cfg15.win 3).blk t).view.set := by
  have hi0 : (i 0).val < 100000 := (i 0).isLt
  have hi1 : (i 1).val < 128 := (i 1).isLt
  have hN : (i 0).val / 2000 < cfg15.N := by rw [show cfg15.N = 50 from N_15]; omega
  obtain ⟨f0, f1, f2, f3, f4, f5, f6, f7⟩ := idx15 ⟨(i 0).val / 2000, hN⟩
  have g0 : win15_3.index ⟨(i 0).val / 2000, hN⟩ (0 : Fin 2) = (i 0).val / 2000 := f6
  have g1 : win15_3.index ⟨(i 0).val / 2000, hN⟩ (1 : Fin 2) = 0 := f7
  refine ⟨⟨(i 0).val / 2000, hN⟩, flush15_3 _, ?_⟩
  rw [mem_blk15_3]
  intro a
  match a with
  | ⟨0, _⟩ => show win15_3.index ⟨(i 0).val / 2000, hN⟩ (0 : Fin 2) * 2000 ≤ (i 0).val ∧ (i 0).val < win15_3.index ⟨(i 0).val / 2000, hN⟩ (0 : Fin 2) * 2000 + 2000; omega
  | ⟨1, _⟩ => show win15_3.index ⟨(i 0).val / 2000, hN⟩ (1 : Fin 2) * 128 ≤ (i 1).val ∧ (i 1).val < win15_3.index ⟨(i 0).val / 2000, hN⟩ (1 : Fin 2) * 128 + 128; omega

/-- THE RESULT ARRAY after the region. -/
theorem final15 (c : Dev nD) : (dat15 (F := Ideal) V c).arrAt 3 cfg15.N
    = Cert.Spec.lin (M := 100000) (K := 128) (V c (Pipeline.arrRef spec15 0)) (V c (Pipeline.arrRef spec15 1)) (V c (Pipeline.arrRef spec15 2)) :=
  (dat15 (F := Ideal) V c).arrAt_eq_of_cover 3 (Cert.Spec.lin (M := 100000) (K := 128) (V c (Pipeline.arrRef spec15 0)) (V c (Pipeline.arrRef spec15 1)) (V c (Pipeline.arrRef spec15 2)))
    (fun t _ => flushed15 V c t) (cover15_3)

end Cert.KernelIdeal.Reg

end
-- ==== Proof.Reg16.lean ====
/-
  Region 16: a linear map of the rows plus a bias row.  The 50000 rows of the row operand [50000, 128] are
  cut into 25 blocks of 2000 rows; grid point t reads block t of the row operand, the whole weight matrix
  [128, 128] and the whole bias row [1, 128], and writes block t of the result [50000, 128]: at (r, q) the
  sum over k of x(2000 t + r, k) · w(k, q), plus b(0, q).  The 25 blocks cover the result, so after the
  region the result array is the array-level function `Spec.lin` of the three operand arrays as the region
  found them.
-/
import proofs.«168040_j41652592837487_1_alg».proof.Proof.Gen.KernelIdeal.Frame
import proofs.«168040_j41652592837487_1_alg».proof.Proof.Spec
import proofs.«168040_j41652592837487_1_alg».proof.Proof.RegPay
import Idealize.ShloMosaic.Lib.Pipeline.Value

set_option maxRecDepth 16384

noncomputable section

open scoped BigOperators

namespace Cert.KernelIdeal.Reg

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.RegPay

variable (V : (c : Dev nD) → (b : Ref sig .tc) → Buf (Elt Ideal) ((c : Thread nD τ).loc b))

/-- The body's stored value at row r and column q of a block: the sum over k of x(r,k) · w(k,q), plus b(0,q). -/
theorem pay16 (x : Vec Ideal S2000x128 .f32) (w : Vec Ideal S128x128 .f32) (b : Vec Ideal S1x128 .f32) (r : Fin 2000) (q : Fin 128) :
    k16_pay1 x w b (ix2 r q) = (∑ kk : Fin 128, x (ix2 r kk) * w (ix2 kk q)) + b (ix2 0 q) := by
  unfold k16_pay1
  exact lin_body_cast_apply _ rfl rfl (fun _ _ => rfl) (fun _ _ => rfl) (fun _ _ => rfl) (fun _ _ => rfl) x w b _ _ _ _ _ r q

/-- The block index maps over the grid: the row operand and the result move to block (t, 0) at point t; the
    weight matrix and the bias row stay at block (0, 0). -/
theorem idx16 : ∀ t : Fin cfg16.N, win16_0.index t (0 : Fin 2) = t.val ∧ win16_0.index t (1 : Fin 2) = 0
    ∧ win16_1.index t (0 : Fin 2) = 0 ∧ win16_1.index t (1 : Fin 2) = 0
    ∧ win16_2.index t (0 : Fin 2) = 0 ∧ win16_2.index t (1 : Fin 2) = 0
    ∧ win16_3.index t (0 : Fin 2) = t.val ∧ win16_3.index t (1 : Fin 2) = 0 :=
  (by decide +kernel : ∀ t : Fin grid16.N, _)

/-- Block t of the row operand holds at (r, k) the operand's entry (2000 t + r, k). -/
theorem rows16 (c : Dev nD) (t : Fin cfg16.N) (y : S2000x128.Idx) (i : (⟨2, ![50000, 128]⟩ : Shape).Idx)
    (ha : (i 0).val = t.val * 2000 + (y 0).val) (hb : (i 1).val = (y 1).val) :
    iblk16 V c 0 t y = V c (Pipeline.arrRef spec16 0) i := by
  obtain ⟨e00, e01, -⟩ := idx16 t
  unfold iblk16
  show V c (Pipeline.arrRef spec16 0) (((cfg16.win 0).blk t).view.emb y) = V c (Pipeline.arrRef spec16 0) i
  refine congrArg (V c (Pipeline.arrRef spec16 0)) (funext fun a => Fin.ext ?_)
  match a with
  | ⟨0, _⟩ => show win16_0.index t (0 : Fin 2) * 2000 + 1 * (y 0).val = (i 0).val; omega
  | ⟨1, _⟩ => show win16_0.index t (1 : Fin 2) * 128 + 1 * (y 1).val = (i 1).val; omega

/-- The weight matrix is read whole at every point. -/
theorem whole16_1 (c : Dev nD) (t : Fin cfg16.N) : iblk16 V c 1 t = V c (Pipeline.arrRef spec16 1) := by
  obtain ⟨_, _, ea, eb, _, _, _, _⟩ := idx16 t
  funext (y : S128x128.Idx)
  unfold iblk16
  show V c (Pipeline.arrRef spec16 1) (((cfg16.win 1).blk t).view.emb y) = V c (Pipeline.arrRef spec16 1) y
  refine congrArg (V c (Pipeline.arrRef spec16 1)) (funext fun a => Fin.ext ?_)
  match a with
  | ⟨0, _⟩ => show win16_1.index t (0 : Fin 2) * 128 + 1 * (y 0).val = (y 0).val; omega
  | ⟨1, _⟩ => show win16_1.index t (1 : Fin 2) * 128 + 1 * (y 1).val = (y 1).val; omega

/-- The bias row is read whole at every point. -/
theorem whole16_2 (c : Dev nD) (t : Fin cfg16.N) : iblk16 V c 2 t = V c (Pipeline.arrRef spec16 2) := by
  obtain ⟨_, _, _, _, ea, eb, _, _⟩ := idx16 t
  funext (y : S1x128.Idx)
  unfold iblk16
  show V c (Pipeline.arrRef spec16 2) (((cfg16.win 2).blk t).view.emb y) = V c (Pipeline.arrRef spec16 2) y
  refine congrArg (V c (Pipeline.arrRef spec16 2)) (funext fun a => Fin.ext ?_)
  match a with
  | ⟨0, _⟩ => show win16_2.index t (0 : Fin 2) * 1 + 1 * (y 0).val = (y 0).val; omega
  | ⟨1, _⟩ => show win16_2.index t (1 : Fin 2) * 128 + 1 * (y 1).val = (y 1).val; omega

/-- Entry (r, q) of the block point t writes sits at (2000 t + r, q) of the result. -/
theorem outpos16_3 (t : Fin cfg16.N) (j : S2000x128.Idx) :
    ((((cfg16.win 3).blk t).view.emb j) 0).val = t.val * 2000 + (j 0).val
    ∧ ((((cfg16.win 3).blk t).view.emb j) 1).val = (j 1).val := by
  obtain ⟨_, _, _, _, _, _, ea, eb⟩ := idx16 t
  constructor
  · show win16_3.index t (0 : Fin 2) * 2000 + 1 * (j 0).val = t.val * 2000 + (j 0).val; omega
  · show win16_3.index t (1 : Fin 2) * 128 + 1 * (j 1).val = (j 1).val; omega

/-- What point t writes back is block t of `Spec.lin` of the operand arrays. -/
theorem flushed16 (c : Dev nD) (t : Fin cfg16.N) :
    (dat16 (F := Ideal) V c).flushed 3 t = ((cfg16.win 3).blk t).view.read (Elt Ideal)
      (Cert.Spec.lin (M := 50000) (K := 128) (V c (Pipeline.arrRef spec16 0)) (V c (Pipeline.arrRef spec16 1)) (V c (Pipeline.arrRef spec16 2))) := by
  show (cfg16.win 3).cut (grid16.coords t) ((dat16 V c).after 3 t) = _
  rw [after16_3]
  unfold out16_3
  rw [View.canon_unit_zero hz]
  simp only [View.ld_unit_zero (S := S2000x128) hz, View.ld_unit_zero (S := S128x128) hz, View.ld_unit_zero (S := S1x128) hz]
  funext j
  show k16_pay1 (iblk16 V c 0 t) (iblk16 V c 1 t) (iblk16 V c 2 t) j
    = Cert.Spec.lin (M := 50000) (K := 128) (V c (Pipeline.arrRef spec16 0)) (V c (Pipeline.arrRef spec16 1)) (V c (Pipeline.arrRef spec16 2)) (((cfg16.win 3).blk t).view.emb j)
  exact lin_block (M := 50000) (R := 2000) (K := 128) (V c (Pipeline.arrRef spec16 0)) (V c (Pipeline.arrRef spec16 1)) (V c (Pipeline.arrRef spec16 2)) (iblk16 V c 0 t) (iblk16 V c 1 t) (iblk16 V c 2 t)
    (k16_pay1 (iblk16 V c 0 t) (iblk16 V c 1 t) (iblk16 V c 2 t)) (t.val * 2000) (pay16 (iblk16 V c 0 t) (iblk16 V c 1 t) (iblk16 V c 2 t))
    (fun y i ha hb => rows16 V c t y i ha hb) (whole16_1 V c t) (whole16_2 V c t) j
    (((cfg16.win 3).blk t).view.emb j) (outpos16_3 t j).1 (outpos16_3 t j).2

/-- An index of the result array is in point t's block iff each coordinate is in the block's range. -/
theorem mem_blk16_3 (t : Fin cfg16.N) (i : (⟨2, ![50000, 128]⟩ : Shape).Idx) :
    i ∈ ((cfg16.win 3).blk t).view.set ↔ ∀ a : Fin 2, win16_3.index t a * S2000x128.size a ≤ (i a).val ∧ (i a).val < win16_3.index t a * S2000x128.size a + S2000x128.size a := by
  show i ∈ ((View.whole main_v238).slice (win16_3.rect t)).set ↔ _
  rw [View.set_slice_whole, Rect.mem_set_unit]
  exact Iff.rfl

/-- Row r of the result is in the block of point r / 2000. -/
theorem cover16_3 (i : (⟨2, ![50000, 128]⟩ : Shape).Idx) :
    ∃ t : Fin cfg16.N, (cfg16.win 3).flush t = true ∧ i ∈ ((cfg16.win 3).blk t).view.set := by
  have hi0 : (i 0).val < 50000 := (i 0).isLt
  have hi1 : (i 1).val < 128 := (i 1).isLt
  have hN : (i 0).val / 2000 < cfg16.N := by rw [show cfg16.N = 25 from N_16]; omega
  obtain ⟨f0, f1, f2, f3, f4, f5, f6, f7⟩ := idx16 ⟨(i 0).val / 2000, hN⟩
  have g0 : win16_3.index ⟨(i 0).val / 2000, hN⟩ (0 : Fin 2) = (i 0).val / 2000 := f6
  have g1 : win16_3.index ⟨(i 0).val / 2000, hN⟩ (1 : Fin 2) = 0 := f7
  refine ⟨⟨(i 0).val / 2000, hN⟩, flush16_3 _, ?_⟩
  rw [mem_blk16_3]
  intro a
  match a with
  | ⟨0, _⟩ => show win16_3.index ⟨(i 0).val / 2000, hN⟩ (0 : Fin 2) * 2000 ≤ (i 0).val ∧ (i 0).val < win16_3.index ⟨(i 0).val / 2000, hN⟩ (0 : Fin 2) * 2000 + 2000; omega
  | ⟨1, _⟩ => show win16_3.index ⟨(i 0).val / 2000, hN⟩ (1 : Fin 2) * 128 ≤ (i 1).val ∧ (i 1).val < win16_3.index ⟨(i 0).val / 2000, hN⟩ (1 : Fin 2) * 128 + 128; omega

/-- THE RESULT ARRAY after the region. -/
theorem final16 (c : Dev nD) : (dat16 (F := Ideal) V c).arrAt 3 cfg16.N
    = Cert.Spec.lin (M := 50000) (K := 128) (V c (Pipeline.arrRef spec16 0)) (V c (Pipeline.arrRef spec16 1)) (V c (Pipeline.arrRef spec16 2)) :=
  (dat16 (F := Ideal) V c).arrAt_eq_of_cover 3 (Cert.Spec.lin (M := 50000) (K := 128) (V c (Pipeline.arrRef spec16 0)) (V c (Pipeline.arrRef spec16 1)) (V c (Pipeline.arrRef spec16 2)))
    (fun t _ => flushed16 V c t) (cover16_3)

end Cert.KernelIdeal.Reg

end
-- ==== Proof.Reg17.lean ====
/-
  Region 17: a linear map of the rows plus a bias row.  The 20000 rows of the row operand [20000, 128] are
  cut into 10 blocks of 2000 rows; grid point t reads block t of the row operand, the whole weight matrix
  [128, 128] and the whole bias row [1, 128], and writes block t of the result [20000, 128]: at (r, q) the
  sum over k of x(2000 t + r, k) · w(k, q), plus b(0, q).  The 10 blocks cover the result, so after the
  region the result array is the array-level function `Spec.lin` of the three operand arrays as the region
  found them.
-/
import proofs.«168040_j41652592837487_1_alg».proof.Proof.Gen.KernelIdeal.Frame
import proofs.«168040_j41652592837487_1_alg».proof.Proof.Spec
import proofs.«168040_j41652592837487_1_alg».proof.Proof.RegPay
import Idealize.ShloMosaic.Lib.Pipeline.Value

set_option maxRecDepth 16384

noncomputable section

open scoped BigOperators

namespace Cert.KernelIdeal.Reg

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.RegPay

variable (V : (c : Dev nD) → (b : Ref sig .tc) → Buf (Elt Ideal) ((c : Thread nD τ).loc b))

/-- The body's stored value at row r and column q of a block: the sum over k of x(r,k) · w(k,q), plus b(0,q). -/
theorem pay17 (x : Vec Ideal S2000x128 .f32) (w : Vec Ideal S128x128 .f32) (b : Vec Ideal S1x128 .f32) (r : Fin 2000) (q : Fin 128) :
    k17_pay1 x w b (ix2 r q) = (∑ kk : Fin 128, x (ix2 r kk) * w (ix2 kk q)) + b (ix2 0 q) := by
  unfold k17_pay1
  exact lin_body_cast_apply _ rfl rfl (fun _ _ => rfl) (fun _ _ => rfl) (fun _ _ => rfl) (fun _ _ => rfl) x w b _ _ _ _ _ r q

/-- The block index maps over the grid: the row operand and the result move to block (t, 0) at point t; the
    weight matrix and the bias row stay at block (0, 0). -/
theorem idx17 : ∀ t : Fin cfg17.N, win17_0.index t (0 : Fin 2) = t.val ∧ win17_0.index t (1 : Fin 2) = 0
    ∧ win17_1.index t (0 : Fin 2) = 0 ∧ win17_1.index t (1 : Fin 2) = 0
    ∧ win17_2.index t (0 : Fin 2) = 0 ∧ win17_2.index t (1 : Fin 2) = 0
    ∧ win17_3.index t (0 : Fin 2) = t.val ∧ win17_3.index t (1 : Fin 2) = 0 :=
  (by decide +kernel : ∀ t : Fin grid17.N, _)

/-- Block t of the row operand holds at (r, k) the operand's entry (2000 t + r, k). -/
theorem rows17 (c : Dev nD) (t : Fin cfg17.N) (y : S2000x128.Idx) (i : (⟨2, ![20000, 128]⟩ : Shape).Idx)
    (ha : (i 0).val = t.val * 2000 + (y 0).val) (hb : (i 1).val = (y 1).val) :
    iblk17 V c 0 t y = V c (Pipeline.arrRef spec17 0) i := by
  obtain ⟨e00, e01, -⟩ := idx17 t
  unfold iblk17
  show V c (Pipeline.arrRef spec17 0) (((cfg17.win 0).blk t).view.emb y) = V c (Pipeline.arrRef spec17 0) i
  refine congrArg (V c (Pipeline.arrRef spec17 0)) (funext fun a => Fin.ext ?_)
  match a with
  | ⟨0, _⟩ => show win17_0.index t (0 : Fin 2) * 2000 + 1 * (y 0).val = (i 0).val; omega
  | ⟨1, _⟩ => show win17_0.index t (1 : Fin 2) * 128 + 1 * (y 1).val = (i 1).val; omega

/-- The weight matrix is read whole at every point. -/
theorem whole17_1 (c : Dev nD) (t : Fin cfg17.N) : iblk17 V c 1 t = V c (Pipeline.arrRef spec17 1) := by
  obtain ⟨_, _, ea, eb, _, _, _, _⟩ := idx17 t
  funext (y : S128x128.Idx)
  unfold iblk17
  show V c (Pipeline.arrRef spec17 1) (((cfg17.win 1).blk t).view.emb y) = V c (Pipeline.arrRef spec17 1) y
  refine congrArg (V c (Pipeline.arrRef spec17 1)) (funext fun a => Fin.ext ?_)
  match a with
  | ⟨0, _⟩ => show win17_1.index t (0 : Fin 2) * 128 + 1 * (y 0).val = (y 0).val; omega
  | ⟨1, _⟩ => show win17_1.index t (1 : Fin 2) * 128 + 1 * (y 1).val = (y 1).val; omega

/-- The bias row is read whole at every point. -/
theorem whole17_2 (c : Dev nD) (t : Fin cfg17.N) : iblk17 V c 2 t = V c (Pipeline.arrRef spec17 2) := by
  obtain ⟨_, _, _, _, ea, eb, _, _⟩ := idx17 t
  funext (y : S1x128.Idx)
  unfold iblk17
  show V c (Pipeline.arrRef spec17 2) (((cfg17.win 2).blk t).view.emb y) = V c (Pipeline.arrRef spec17 2) y
  refine congrArg (V c (Pipeline.arrRef spec17 2)) (funext fun a => Fin.ext ?_)
  match a with
  | ⟨0, _⟩ => show win17_2.index t (0 : Fin 2) * 1 + 1 * (y 0).val = (y 0).val; omega
  | ⟨1, _⟩ => show win17_2.index t (1 : Fin 2) * 128 + 1 * (y 1).val = (y 1).val; omega

/-- Entry (r, q) of the block point t writes sits at (2000 t + r, q) of the result. -/
theorem outpos17_3 (t : Fin cfg17.N) (j : S2000x128.Idx) :
    ((((cfg17.win 3).blk t).view.emb j) 0).val = t.val * 2000 + (j 0).val
    ∧ ((((cfg17.win 3).blk t).view.emb j) 1).val = (j 1).val := by
  obtain ⟨_, _, _, _, _, _, ea, eb⟩ := idx17 t
  constructor
  · show win17_3.index t (0 : Fin 2) * 2000 + 1 * (j 0).val = t.val * 2000 + (j 0).val; omega
  · show win17_3.index t (1 : Fin 2) * 128 + 1 * (j 1).val = (j 1).val; omega

/-- What point t writes back is block t of `Spec.lin` of the operand arrays. -/
theorem flushed17 (c : Dev nD) (t : Fin cfg17.N) :
    (dat17 (F := Ideal) V c).flushed 3 t = ((cfg17.win 3).blk t).view.read (Elt Ideal)
      (Cert.Spec.lin (M := 20000) (K := 128) (V c (Pipeline.arrRef spec17 0)) (V c (Pipeline.arrRef spec17 1)) (V c (Pipeline.arrRef spec17 2))) := by
  show (cfg17.win 3).cut (grid17.coords t) ((dat17 V c).after 3 t) = _
  rw [after17_3]
  unfold out17_3
  rw [View.canon_unit_zero hz]
  simp only [View.ld_unit_zero (S := S2000x128) hz, View.ld_unit_zero (S := S128x128) hz, View.ld_unit_zero (S := S1x128) hz]
  funext j
  show k17_pay1 (iblk17 V c 0 t) (iblk17 V c 1 t) (iblk17 V c 2 t) j
    = Cert.Spec.lin (M := 20000) (K := 128) (V c (Pipeline.arrRef spec17 0)) (V c (Pipeline.arrRef spec17 1)) (V c (Pipeline.arrRef spec17 2)) (((cfg17.win 3).blk t).view.emb j)
  exact lin_block (M := 20000) (R := 2000) (K := 128) (V c (Pipeline.arrRef spec17 0)) (V c (Pipeline.arrRef spec17 1)) (V c (Pipeline.arrRef spec17 2)) (iblk17 V c 0 t) (iblk17 V c 1 t) (iblk17 V c 2 t)
    (k17_pay1 (iblk17 V c 0 t) (iblk17 V c 1 t) (iblk17 V c 2 t)) (t.val * 2000) (pay17 (iblk17 V c 0 t) (iblk17 V c 1 t) (iblk17 V c 2 t))
    (fun y i ha hb => rows17 V c t y i ha hb) (whole17_1 V c t) (whole17_2 V c t) j
    (((cfg17.win 3).blk t).view.emb j) (outpos17_3 t j).1 (outpos17_3 t j).2

/-- An index of the result array is in point t's block iff each coordinate is in the block's range. -/
theorem mem_blk17_3 (t : Fin cfg17.N) (i : (⟨2, ![20000, 128]⟩ : Shape).Idx) :
    i ∈ ((cfg17.win 3).blk t).view.set ↔ ∀ a : Fin 2, win17_3.index t a * S2000x128.size a ≤ (i a).val ∧ (i a).val < win17_3.index t a * S2000x128.size a + S2000x128.size a := by
  show i ∈ ((View.whole main_v242).slice (win17_3.rect t)).set ↔ _
  rw [View.set_slice_whole, Rect.mem_set_unit]
  exact Iff.rfl

/-- Row r of the result is in the block of point r / 2000. -/
theorem cover17_3 (i : (⟨2, ![20000, 128]⟩ : Shape).Idx) :
    ∃ t : Fin cfg17.N, (cfg17.win 3).flush t = true ∧ i ∈ ((cfg17.win 3).blk t).view.set := by
  have hi0 : (i 0).val < 20000 := (i 0).isLt
  have hi1 : (i 1).val < 128 := (i 1).isLt
  have hN : (i 0).val / 2000 < cfg17.N := by rw [show cfg17.N = 10 from N_17]; omega
  obtain ⟨f0, f1, f2, f3, f4, f5, f6, f7⟩ := idx17 ⟨(i 0).val / 2000, hN⟩
  have g0 : win17_3.index ⟨(i 0).val / 2000, hN⟩ (0 : Fin 2) = (i 0).val / 2000 := f6
  have g1 : win17_3.index ⟨(i 0).val / 2000, hN⟩ (1 : Fin 2) = 0 := f7
  refine ⟨⟨(i 0).val / 2000, hN⟩, flush17_3 _, ?_⟩
  rw [mem_blk17_3]
  intro a
  match a with
  | ⟨0, _⟩ => show win17_3.index ⟨(i 0).val / 2000, hN⟩ (0 : Fin 2) * 2000 ≤ (i 0).val ∧ (i 0).val < win17_3.index ⟨(i 0).val / 2000, hN⟩ (0 : Fin 2) * 2000 + 2000; omega
  | ⟨1, _⟩ => show win17_3.index ⟨(i 0).val / 2000, hN⟩ (1 : Fin 2) * 128 ≤ (i 1).val ∧ (i 1).val < win17_3.index ⟨(i 0).val / 2000, hN⟩ (1 : Fin 2) * 128 + 128; omega

/-- THE RESULT ARRAY after the region. -/
theorem final17 (c : Dev nD) : (dat17 (F := Ideal) V c).arrAt 3 cfg17.N
    = Cert.Spec.lin (M := 20000) (K := 128) (V c (Pipeline.arrRef spec17 0)) (V c (Pipeline.arrRef spec17 1)) (V c (Pipeline.arrRef spec17 2)) :=
  (dat17 (F := Ideal) V c).arrAt_eq_of_cover 3 (Cert.Spec.lin (M := 20000) (K := 128) (V c (Pipeline.arrRef spec17 0)) (V c (Pipeline.arrRef spec17 1)) (V c (Pipeline.arrRef spec17 2)))
    (fun t _ => flushed17 V c t) (cover17_3)

end Cert.KernelIdeal.Reg

end
-- ==== Proof.Reg18.lean ====
/-
  Region 18: the exponential linear unit of a five-term sum, entry by entry.  The 50000 rows of the five
  operands [50000, 128] and of the result are cut into 25 blocks of 2000 rows; grid point t reads block t of
  each operand and writes block t of the result: at each entry the unit of s + a + b + c + d (the sum
  associated to the left).  The 25 blocks cover the result, so after the region the result array is the
  array-level function `Spec.comb` of the five operand arrays as the region found them.
-/
import proofs.«168040_j41652592837487_1_alg».proof.Proof.Gen.KernelIdeal.Frame
import proofs.«168040_j41652592837487_1_alg».proof.Proof.Spec
import proofs.«168040_j41652592837487_1_alg».proof.Proof.RegPay
import Idealize.ShloMosaic.Lib.Pipeline.Value

set_option maxRecDepth 16384

noncomputable section

open scoped BigOperators

namespace Cert.KernelIdeal.Reg

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.RegPay

variable (V : (c : Dev nD) → (b : Ref sig .tc) → Buf (Elt Ideal) ((c : Thread nD τ).loc b))

/-- The body's stored value at an entry of a block: the unit of the five-term sum of the operands' entries. -/
theorem pay18 (x0 x1 x2 x3 x4 : Vec Ideal S2000x128 .f32) (j : S2000x128.Idx) :
    k18_pay1 x0 x1 x2 x3 x4 j = Cert.Spec.elu1 (x0 j + x1 j + x2 j + x3 j + x4 j) := by
  unfold k18_pay1
  exact comb_body_apply x0 x1 x2 x3 x4 _ j

/-- The block index maps over the grid: every window moves to block (t, 0) at point t. -/
theorem idx18 : ∀ t : Fin cfg18.N, win18_0.index t (0 : Fin 2) = t.val ∧ win18_0.index t (1 : Fin 2) = 0
    ∧ win18_1.index t (0 : Fin 2) = t.val ∧ win18_1.index t (1 : Fin 2) = 0
    ∧ win18_2.index t (0 : Fin 2) = t.val ∧ win18_2.index t (1 : Fin 2) = 0
    ∧ win18_3.index t (0 : Fin 2) = t.val ∧ win18_3.index t (1 : Fin 2) = 0
    ∧ win18_4.index t (0 : Fin 2) = t.val ∧ win18_4.index t (1 : Fin 2) = 0
    ∧ win18_5.index t (0 : Fin 2) = t.val ∧ win18_5.index t (1 : Fin 2) = 0 :=
  (by decide +kernel : ∀ t : Fin grid18.N, _)

/-- Block t of operand 0 holds at an entry the operand's entry under the same entry of the result's block t. -/
theorem read18_0 (c : Dev nD) (t : Fin cfg18.N) (j : S2000x128.Idx) :
    iblk18 V c 0 t j = V c (Pipeline.arrRef spec18 0) (((cfg18.win 5).blk t).view.emb j) := by
  obtain ⟨ea, eb, _, _, _, _, _, _, _, _, ec, ed⟩ := idx18 t
  unfold iblk18
  show V c (Pipeline.arrRef spec18 0) (((cfg18.win 0).blk t).view.emb j) = V c (Pipeline.arrRef spec18 0) (((cfg18.win 5).blk t).view.emb j)
  refine congrArg (V c (Pipeline.arrRef spec18 0)) (funext fun a => Fin.ext ?_)
  match a with
  | ⟨0, _⟩ => show win18_0.index t (0 : Fin 2) * 2000 + 1 * (j 0).val = win18_5.index t (0 : Fin 2) * 2000 + 1 * (j 0).val; omega
  | ⟨1, _⟩ => show win18_0.index t (1 : Fin 2) * 128 + 1 * (j 1).val = win18_5.index t (1 : Fin 2) * 128 + 1 * (j 1).val; omega

/-- Block t of operand 1 holds at an entry the operand's entry under the same entry of the result's block t. -/
theorem read18_1 (c : Dev nD) (t : Fin cfg18.N) (j : S2000x128.Idx) :
    iblk18 V c 1 t j = V c (Pipeline.arrRef spec18 1) (((cfg18.win 5).blk t).view.emb j) := by
  obtain ⟨_, _, ea, eb, _, _, _, _, _, _, ec, ed⟩ := idx18 t
  unfold iblk18
  show V c (Pipeline.arrRef spec18 1) (((cfg18.win 1).blk t).view.emb j) = V c (Pipeline.arrRef spec18 1) (((cfg18.win 5).blk t).view.emb j)
  refine congrArg (V c (Pipeline.arrRef spec18 1)) (funext fun a => Fin.ext ?_)
  match a with
  | ⟨0, _⟩ => show win18_1.index t (0 : Fin 2) * 2000 + 1 * (j 0).val = win18_5.index t (0 : Fin 2) * 2000 + 1 * (j 0).val; omega
  | ⟨1, _⟩ => show win18_1.index t (1 : Fin 2) * 128 + 1 * (j 1).val = win18_5.index t (1 : Fin 2) * 128 + 1 * (j 1).val; omega

/-- Block t of operand 2 holds at an entry the operand's entry under the same entry of the result's block t. -/
theorem read18_2 (c : Dev nD) (t : Fin cfg18.N) (j : S2000x128.Idx) :
    iblk18 V c 2 t j = V c (Pipeline.arrRef spec18 2) (((cfg18.win 5).blk t).view.emb j) := by
  obtain ⟨_, _, _, _, ea, eb, _, _, _, _, ec, ed⟩ := idx18 t
  unfold iblk18
  show V c (Pipeline.arrRef spec18 2) (((cfg18.win 2).blk t).view.emb j) = V c (Pipeline.arrRef spec18 2) (((cfg18.win 5).blk t).view.emb j)
  refine congrArg (V c (Pipeline.arrRef spec18 2)) (funext fun a => Fin.ext ?_)
  match a with
  | ⟨0, _⟩ => show win18_2.index t (0 : Fin 2) * 2000 + 1 * (j 0).val = win18_5.index t (0 : Fin 2) * 2000 + 1 * (j 0).val; omega
  | ⟨1, _⟩ => show win18_2.index t (1 : Fin 2) * 128 + 1 * (j 1).val = win18_5.index t (1 : Fin 2) * 128 + 1 * (j 1).val; omega

/-- Block t of operand 3 holds at an entry the operand's entry under the same entry of the result's block t. -/
theorem read18_3 (c : Dev nD) (t : Fin cfg18.N) (j : S2000x128.Idx) :
    iblk18 V c 3 t j = V c (Pipeline.arrRef spec18 3) (((cfg18.win 5).blk t).view.emb j) := by
  obtain ⟨_, _, _, _, _, _, ea, eb, _, _, ec, ed⟩ := idx18 t
  unfold iblk18
  show V c (Pipeline.arrRef spec18 3) (((cfg18.win 3).blk t).view.emb j) = V c (Pipeline.arrRef spec18 3) (((cfg18.win 5).blk t).view.emb j)
  refine congrArg (V c (Pipeline.arrRef spec18 3)) (funext fun a => Fin.ext ?_)
  match a with
  | ⟨0, _⟩ => show win18_3.index t (0 : Fin 2) * 2000 + 1 * (j 0).val = win18_5.index t (0 : Fin 2) * 2000 + 1 * (j 0).val; omega
  | ⟨1, _⟩ => show win18_3.index t (1 : Fin 2) * 128 + 1 * (j 1).val = win18_5.index t (1 : Fin 2) * 128 + 1 * (j 1).val; omega

/-- Block t of operand 4 holds at an entry the operand's entry under the same entry of the result's block t. -/
theorem read18_4 (c : Dev nD) (t : Fin cfg18.N) (j : S2000x128.Idx) :
    iblk18 V c 4 t j = V c (Pipeline.arrRef spec18 4) (((cfg18.win 5).blk t).view.emb j) := by
  obtain ⟨_, _, _, _, _, _, _, _, ea, eb, ec, ed⟩ := idx18 t
  unfold iblk18
  show V c (Pipeline.arrRef spec18 4) (((cfg18.win 4).blk t).view.emb j) = V c (Pipeline.arrRef spec18 4) (((cfg18.win 5).blk t).view.emb j)
  refine congrArg (V c (Pipeline.arrRef spec18 4)) (funext fun a => Fin.ext ?_)
  match a with
  | ⟨0, _⟩ => show win18_4.index t (0 : Fin 2) * 2000 + 1 * (j 0).val = win18_5.index t (0 : Fin 2) * 2000 + 1 * (j 0).val; omega
  | ⟨1, _⟩ => show win18_4.index t (1 : Fin 2) * 128 + 1 * (j 1).val = win18_5.index t (1 : Fin 2) * 128 + 1 * (j 1).val; omega

/-- What point t writes back is block t of `Spec.comb` of the operand arrays. -/
theorem flushed18 (c : Dev nD) (t : Fin cfg18.N) :
    (dat18 (F := Ideal) V c).flushed 5 t = ((cfg18.win 5).blk t).view.read (Elt Ideal)
      (Cert.Spec.comb (M := 50000) (V c (Pipeline.arrRef spec18 0)) (V c (Pipeline.arrRef spec18 1)) (V c (Pipeline.arrRef spec18 2)) (V c (Pipeline.arrRef spec18 3)) (V c (Pipeline.arrRef spec18 4))) := by
  show (cfg18.win 5).cut (grid18.coords t) ((dat18 V c).after 5 t) = _
  rw [after18_5]
  unfold out18_5
  rw [View.canon_unit_zero hz]
  simp only [View.ld_unit_zero (S := S2000x128) hz]
  funext j
  show k18_pay1 (iblk18 V c 0 t) (iblk18 V c 1 t) (iblk18 V c 2 t) (iblk18 V c 3 t) (iblk18 V c 4 t) j
    = Cert.Spec.comb (M := 50000) (V c (Pipeline.arrRef spec18 0)) (V c (Pipeline.arrRef spec18 1)) (V c (Pipeline.arrRef spec18 2)) (V c (Pipeline.arrRef spec18 3)) (V c (Pipeline.arrRef spec18 4)) (((cfg18.win 5).blk t).view.emb j)
  exact comb_block (M := 50000) (R := 2000) (V c (Pipeline.arrRef spec18 0)) (V c (Pipeline.arrRef spec18 1)) (V c (Pipeline.arrRef spec18 2)) (V c (Pipeline.arrRef spec18 3)) (V c (Pipeline.arrRef spec18 4))
    (iblk18 V c 0 t) (iblk18 V c 1 t) (iblk18 V c 2 t) (iblk18 V c 3 t) (iblk18 V c 4 t)
    (k18_pay1 (iblk18 V c 0 t) (iblk18 V c 1 t) (iblk18 V c 2 t) (iblk18 V c 3 t) (iblk18 V c 4 t)) (pay18 (iblk18 V c 0 t) (iblk18 V c 1 t) (iblk18 V c 2 t) (iblk18 V c 3 t) (iblk18 V c 4 t)) j
    (((cfg18.win 5).blk t).view.emb j) (read18_0 V c t j) (read18_1 V c t j) (read18_2 V c t j) (read18_3 V c t j) (read18_4 V c t j)

/-- An index of the result array is in point t's block iff each coordinate is in the block's range. -/
theorem mem_blk18_5 (t : Fin cfg18.N) (i : (⟨2, ![50000, 128]⟩ : Shape).Idx) :
    i ∈ ((cfg18.win 5).blk t).view.set ↔ ∀ a : Fin 2, win18_5.index t a * S2000x128.size a ≤ (i a).val ∧ (i a).val < win18_5.index t a * S2000x128.size a + S2000x128.size a := by
  show i ∈ ((View.whole main_v307).slice (win18_5.rect t)).set ↔ _
  rw [View.set_slice_whole, Rect.mem_set_unit]
  exact Iff.rfl

/-- Row r of the result is in the block of point r / 2000. -/
theorem cover18_5 (i : (⟨2, ![50000, 128]⟩ : Shape).Idx) :
    ∃ t : Fin cfg18.N, (cfg18.win 5).flush t = true ∧ i ∈ ((cfg18.win 5).blk t).view.set := by
  have hi0 : (i 0).val < 50000 := (i 0).isLt
  have hi1 : (i 1).val < 128 := (i 1).isLt
  have hN : (i 0).val / 2000 < cfg18.N := by rw [show cfg18.N = 25 from N_18]; omega
  obtain ⟨f0, f1, f2, f3, f4, f5, f6, f7, f8, f9, f10, f11⟩ := idx18 ⟨(i 0).val / 2000, hN⟩
  have g0 : win18_5.index ⟨(i 0).val / 2000, hN⟩ (0 : Fin 2) = (i 0).val / 2000 := f10
  have g1 : win18_5.index ⟨(i 0).val / 2000, hN⟩ (1 : Fin 2) = 0 := f11
  refine ⟨⟨(i 0).val / 2000, hN⟩, flush18_5 _, ?_⟩
  rw [mem_blk18_5]
  intro a
  match a with
  | ⟨0, _⟩ => show win18_5.index ⟨(i 0).val / 2000, hN⟩ (0 : Fin 2) * 2000 ≤ (i 0).val ∧ (i 0).val < win18_5.index ⟨(i 0).val / 2000, hN⟩ (0 : Fin 2) * 2000 + 2000; omega
  | ⟨1, _⟩ => show win18_5.index ⟨(i 0).val / 2000, hN⟩ (1 : Fin 2) * 128 ≤ (i 1).val ∧ (i 1).val < win18_5.index ⟨(i 0).val / 2000, hN⟩ (1 : Fin 2) * 128 + 128; omega

/-- THE RESULT ARRAY after the region. -/
theorem final18 (c : Dev nD) : (dat18 (F := Ideal) V c).arrAt 5 cfg18.N
    = Cert.Spec.comb (M := 50000) (V c (Pipeline.arrRef spec18 0)) (V c (Pipeline.arrRef spec18 1)) (V c (Pipeline.arrRef spec18 2)) (V c (Pipeline.arrRef spec18 3)) (V c (Pipeline.arrRef spec18 4)) :=
  (dat18 (F := Ideal) V c).arrAt_eq_of_cover 5 (Cert.Spec.comb (M := 50000) (V c (Pipeline.arrRef spec18 0)) (V c (Pipeline.arrRef spec18 1)) (V c (Pipeline.arrRef spec18 2)) (V c (Pipeline.arrRef spec18 3)) (V c (Pipeline.arrRef spec18 4)))
    (fun t _ => flushed18 V c t) (cover18_5)

end Cert.KernelIdeal.Reg

end
-- ==== Proof.KFold.lean ====
/-
  The idealized kernel's result array, read off the fold through @main. In dataflow order, each buffer that matters
  is identified, at the boundary where it is produced, with its expression over the argument arrays (KVal): an
  argument is itself at the launch; a buffer a host stretch writes is the stretch's operations composed, applied to the
  operands' expressions; an output array of a region is the region's function (Spec's `lin`, `mm`, `comb`, by the
  region's value lemma) of its input arrays' expressions. An operand produced at an earlier boundary is carried to the
  boundary where it is read by a walk. The last lemma is the result: three layers over the projected inputs.
-/
import proofs.«168040_j41652592837487_1_alg».proof.Proof.KVal
import proofs.«168040_j41652592837487_1_alg».proof.Proof.KHost
import proofs.«168040_j41652592837487_1_alg».proof.Proof.KWalkA
import proofs.«168040_j41652592837487_1_alg».proof.Proof.KWalkE
import proofs.«168040_j41652592837487_1_alg».proof.Proof.KWalkW
import proofs.«168040_j41652592837487_1_alg».proof.Proof.KWalkH
import proofs.«168040_j41652592837487_1_alg».proof.Proof.Reg0
import proofs.«168040_j41652592837487_1_alg».proof.Proof.Reg1
import proofs.«168040_j41652592837487_1_alg».proof.Proof.Reg2
import proofs.«168040_j41652592837487_1_alg».proof.Proof.Reg3
import proofs.«168040_j41652592837487_1_alg».proof.Proof.Reg4
import proofs.«168040_j41652592837487_1_alg».proof.Proof.Reg5
import proofs.«168040_j41652592837487_1_alg».proof.Proof.Reg6
import proofs.«168040_j41652592837487_1_alg».proof.Proof.Reg7
import proofs.«168040_j41652592837487_1_alg».proof.Proof.Reg8
import proofs.«168040_j41652592837487_1_alg».proof.Proof.Reg9
import proofs.«168040_j41652592837487_1_alg».proof.Proof.Reg10
import proofs.«168040_j41652592837487_1_alg».proof.Proof.Reg11
import proofs.«168040_j41652592837487_1_alg».proof.Proof.Reg12
import proofs.«168040_j41652592837487_1_alg».proof.Proof.Reg13
import proofs.«168040_j41652592837487_1_alg».proof.Proof.Reg14
import proofs.«168040_j41652592837487_1_alg».proof.Proof.Reg15
import proofs.«168040_j41652592837487_1_alg».proof.Proof.Reg16
import proofs.«168040_j41652592837487_1_alg».proof.Proof.Reg17
import proofs.«168040_j41652592837487_1_alg».proof.Proof.Reg18

set_option maxRecDepth 16384

noncomputable section

namespace Cert.KernelIdeal.KFold

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)
theorem val_main_arg0 (c : Dev nD) : W0 m ρ c (Proc.devRef .tc main_arg0) = (KVal.argsOf m c).a0 := rfl
theorem val_main_arg1 (c : Dev nD) : W0 m ρ c (Proc.devRef .tc main_arg1) = (KVal.argsOf m c).a1 := rfl
theorem val_main_arg2 (c : Dev nD) : W0 m ρ c (Proc.devRef .tc main_arg2) = (KVal.argsOf m c).a2 := rfl
theorem val_main_arg3 (c : Dev nD) : W0 m ρ c (Proc.devRef .tc main_arg3) = (KVal.argsOf m c).a3 := rfl
theorem val_main_arg4 (c : Dev nD) : W0 m ρ c (Proc.devRef .tc main_arg4) = (KVal.argsOf m c).a4 := rfl
theorem val_main_arg5 (c : Dev nD) : W0 m ρ c (Proc.devRef .tc main_arg5) = (KVal.argsOf m c).a5 := rfl
theorem val_main_arg6 (c : Dev nD) : W0 m ρ c (Proc.devRef .tc main_arg6) = (KVal.argsOf m c).a6 := rfl
theorem val_main_arg7 (c : Dev nD) : W0 m ρ c (Proc.devRef .tc main_arg7) = (KVal.argsOf m c).a7 := rfl
theorem val_main_arg8 (c : Dev nD) : W0 m ρ c (Proc.devRef .tc main_arg8) = (KVal.argsOf m c).a8 := rfl
theorem val_main_arg9 (c : Dev nD) : W0 m ρ c (Proc.devRef .tc main_arg9) = (KVal.argsOf m c).a9 := rfl
theorem val_main_arg10 (c : Dev nD) : W0 m ρ c (Proc.devRef .tc main_arg10) = (KVal.argsOf m c).a10 := rfl
theorem val_main_arg11 (c : Dev nD) : W0 m ρ c (Proc.devRef .tc main_arg11) = (KVal.argsOf m c).a11 := rfl
theorem val_main_arg12 (c : Dev nD) : W0 m ρ c (Proc.devRef .tc main_arg12) = (KVal.argsOf m c).a12 := rfl
theorem val_main_arg13 (c : Dev nD) : W0 m ρ c (Proc.devRef .tc main_arg13) = (KVal.argsOf m c).a13 := rfl
theorem val_main_arg14 (c : Dev nD) : W0 m ρ c (Proc.devRef .tc main_arg14) = (KVal.argsOf m c).a14 := rfl
theorem val_main_arg15 (c : Dev nD) : W0 m ρ c (Proc.devRef .tc main_arg15) = (KVal.argsOf m c).a15 := rfl
theorem val_main_arg16 (c : Dev nD) : W0 m ρ c (Proc.devRef .tc main_arg16) = (KVal.argsOf m c).a16 := rfl
theorem val_main_arg17 (c : Dev nD) : W0 m ρ c (Proc.devRef .tc main_arg17) = (KVal.argsOf m c).a17 := rfl
theorem val_main_arg18 (c : Dev nD) : W0 m ρ c (Proc.devRef .tc main_arg18) = (KVal.argsOf m c).a18 := rfl

theorem val_main_v0 (c : Dev nD) : W1 m ρ c (Proc.devRef .tc main_v0) = KVal.brow ((KVal.argsOf m c).a9) := by
  have e := KHost.host_main_v0 (W0 m ρ c)
  rw [(val_main_arg9 m ρ c)] at e
  exact e

theorem val_main_v1 (c : Dev nD) : W2 m ρ c (Proc.devRef .tc main_v1) = KVal.h0 (KVal.argsOf m c) := by
  have e0 : V1 m ρ c (Pipeline.arrRef spec0 0) = (KVal.argsOf m c).a0 := ((KWalk.wk_main_arg0_1 m ρ c).trans (val_main_arg0 m ρ c))
  have e1 : V1 m ρ c (Pipeline.arrRef spec0 1) = (KVal.argsOf m c).a8 := ((KWalk.wk_main_arg8_1 m ρ c).trans (val_main_arg8 m ρ c))
  have e2 : V1 m ρ c (Pipeline.arrRef spec0 2) = KVal.brow ((KVal.argsOf m c).a9) := (val_main_v0 m ρ c)
  refine (W2_arr m ρ c 3).trans ((Reg.final0 (V1 m ρ) c).trans ?_)
  rw [e0, e1, e2]
  rfl

theorem val_main_v2 (c : Dev nD) : W3 m ρ c (Proc.devRef .tc main_v2) = KVal.brow ((KVal.argsOf m c).a11) := by
  have e := KHost.host_main_v2 (W2 m ρ c)
  rw [((KWalk.wk_main_arg11_2 m ρ c).trans (val_main_arg11 m ρ c))] at e
  exact e

theorem val_main_v3 (c : Dev nD) : W4 m ρ c (Proc.devRef .tc main_v3) = KVal.hl (KVal.argsOf m c) := by
  have e0 : V3 m ρ c (Pipeline.arrRef spec1 0) = (KVal.argsOf m c).a1 := ((KWalk.wk_main_arg1_3 m ρ c).trans (val_main_arg1 m ρ c))
  have e1 : V3 m ρ c (Pipeline.arrRef spec1 1) = (KVal.argsOf m c).a10 := ((KWalk.wk_main_arg10_3 m ρ c).trans (val_main_arg10 m ρ c))
  have e2 : V3 m ρ c (Pipeline.arrRef spec1 2) = KVal.brow ((KVal.argsOf m c).a11) := (val_main_v2 m ρ c)
  refine (W4_arr m ρ c 3).trans ((Reg.final1 (V3 m ρ) c).trans ?_)
  rw [e0, e1, e2]
  rfl

theorem val_main_v4 (c : Dev nD) : W5 m ρ c (Proc.devRef .tc main_v4) = KVal.brow ((KVal.argsOf m c).a13) := by
  have e := KHost.host_main_v4 (W4 m ρ c)
  rw [((KWalk.wk_main_arg13_4 m ρ c).trans (val_main_arg13 m ρ c))] at e
  exact e

theorem val_main_v5 (c : Dev nD) : W6 m ρ c (Proc.devRef .tc main_v5) = KVal.hs (KVal.argsOf m c) := by
  have e0 : V5 m ρ c (Pipeline.arrRef spec2 0) = (KVal.argsOf m c).a2 := ((KWalk.wk_main_arg2_5 m ρ c).trans (val_main_arg2 m ρ c))
  have e1 : V5 m ρ c (Pipeline.arrRef spec2 1) = (KVal.argsOf m c).a12 := ((KWalk.wk_main_arg12_5 m ρ c).trans (val_main_arg12 m ρ c))
  have e2 : V5 m ρ c (Pipeline.arrRef spec2 2) = KVal.brow ((KVal.argsOf m c).a13) := (val_main_v4 m ρ c)
  refine (W6_arr m ρ c 3).trans ((Reg.final2 (V5 m ρ) c).trans ?_)
  rw [e0, e1, e2]
  rfl

theorem val_main_v6 (c : Dev nD) : W7 m ρ c (Proc.devRef .tc main_v6) = KVal.brow ((KVal.argsOf m c).a15) := by
  have e := KHost.host_main_v6 (W6 m ρ c)
  rw [((KWalk.wk_main_arg15_6 m ρ c).trans (val_main_arg15 m ρ c))] at e
  exact e

theorem val_main_v7 (c : Dev nD) : W8 m ρ c (Proc.devRef .tc main_v7) = KVal.hj (KVal.argsOf m c) := by
  have e0 : V7 m ρ c (Pipeline.arrRef spec3 0) = (KVal.argsOf m c).a3 := ((KWalk.wk_main_arg3_7 m ρ c).trans (val_main_arg3 m ρ c))
  have e1 : V7 m ρ c (Pipeline.arrRef spec3 1) = (KVal.argsOf m c).a14 := ((KWalk.wk_main_arg14_7 m ρ c).trans (val_main_arg14 m ρ c))
  have e2 : V7 m ρ c (Pipeline.arrRef spec3 2) = KVal.brow ((KVal.argsOf m c).a15) := (val_main_v6 m ρ c)
  refine (W8_arr m ρ c 3).trans ((Reg.final3 (V7 m ρ) c).trans ?_)
  rw [e0, e1, e2]
  rfl

theorem val_main_v18 (c : Dev nD) : W9 m ρ c (Proc.devRef .tc main_v18) = KVal.inv_sp ((KVal.argsOf m c).a4) := by
  have e := KHost.host_main_v18 (W8 m ρ c)
  rw [((KWalk.wk_main_arg4_8 m ρ c).trans (val_main_arg4 m ρ c))] at e
  exact e

theorem val_main_v29 (c : Dev nD) : W9 m ρ c (Proc.devRef .tc main_v29) = KVal.inv_fl ((KVal.argsOf m c).a5) := by
  have e := KHost.host_main_v29 (W8 m ρ c)
  rw [((KWalk.wk_main_arg5_8 m ρ c).trans (val_main_arg5 m ρ c))] at e
  exact e

theorem val_main_v40 (c : Dev nD) : W9 m ρ c (Proc.devRef .tc main_v40) = KVal.inv_fs ((KVal.argsOf m c).a6) := by
  have e := KHost.host_main_v40 (W8 m ρ c)
  rw [((KWalk.wk_main_arg6_8 m ρ c).trans (val_main_arg6 m ρ c))] at e
  exact e

theorem val_main_v51 (c : Dev nD) : W9 m ρ c (Proc.devRef .tc main_v51) = KVal.inv_inc ((KVal.argsOf m c).a7) := by
  have e := KHost.host_main_v51 (W8 m ρ c)
  rw [((KWalk.wk_main_arg7_8 m ρ c).trans (val_main_arg7 m ρ c))] at e
  exact e

theorem val_main_v52 (c : Dev nD) : W9 m ρ c (Proc.devRef .tc main_v52) = KVal.zero128 := by
  have e := KHost.host_main_v52 (W8 m ρ c)
  exact e

theorem val_main_v54 (c : Dev nD) : W9 m ρ c (Proc.devRef .tc main_v54) = KVal.sW0 ((KVal.argsOf m c).a16) := by
  have e := KHost.host_main_v54 (W8 m ρ c)
  rw [((KWalk.wk_main_arg16_8 m ρ c).trans (val_main_arg16 m ρ c))] at e
  exact e

theorem val_main_v59 (c : Dev nD) : W9 m ρ c (Proc.devRef .tc main_v59) = KVal.sb0 ((KVal.argsOf m c).a17) := by
  have e := KHost.host_main_v59 (W8 m ρ c)
  rw [((KWalk.wk_main_arg17_8 m ρ c).trans (val_main_arg17 m ρ c))] at e
  exact e

theorem val_main_v58 (c : Dev nD) : W9 m ρ c (Proc.devRef .tc main_v58) = KVal.rW0 ((KVal.argsOf m c).a18) := by
  have e := KHost.host_main_v58 (W8 m ρ c)
  rw [((KWalk.wk_main_arg18_8 m ρ c).trans (val_main_arg18 m ρ c))] at e
  exact e

theorem val_main_v60_0 (c : Dev nD) : W10 m ρ c (Proc.devRef .tc main_v60_0) = KVal.selfT0 (KVal.argsOf m c) (KVal.h0 (KVal.argsOf m c)) := by
  have e0 : V9 m ρ c (Pipeline.arrRef spec4 0) = KVal.h0 (KVal.argsOf m c) := ((KWalk.wk_main_v1_9 m ρ c).trans (val_main_v1 m ρ c))
  have e1 : V9 m ρ c (Pipeline.arrRef spec4 1) = KVal.sW0 ((KVal.argsOf m c).a16) := (val_main_v54 m ρ c)
  have e2 : V9 m ρ c (Pipeline.arrRef spec4 2) = KVal.sb0 ((KVal.argsOf m c).a17) := (val_main_v59 m ρ c)
  have e3 : V9 m ρ c (Pipeline.arrRef spec4 3) = KVal.rW0 ((KVal.argsOf m c).a18) := (val_main_v58 m ρ c)
  refine (W10_arr m ρ c 4).trans ((Reg.final4_4 (V9 m ρ) c).trans ?_)
  rw [e0, e1, e2]
  rfl

theorem val_main_v60_1 (c : Dev nD) : W10 m ρ c (Proc.devRef .tc main_v60_1) = KVal.hrel0 (KVal.argsOf m c) (KVal.h0 (KVal.argsOf m c)) := by
  have e0 : V9 m ρ c (Pipeline.arrRef spec4 0) = KVal.h0 (KVal.argsOf m c) := ((KWalk.wk_main_v1_9 m ρ c).trans (val_main_v1 m ρ c))
  have e1 : V9 m ρ c (Pipeline.arrRef spec4 1) = KVal.sW0 ((KVal.argsOf m c).a16) := (val_main_v54 m ρ c)
  have e2 : V9 m ρ c (Pipeline.arrRef spec4 2) = KVal.sb0 ((KVal.argsOf m c).a17) := (val_main_v59 m ρ c)
  have e3 : V9 m ρ c (Pipeline.arrRef spec4 3) = KVal.rW0 ((KVal.argsOf m c).a18) := (val_main_v58 m ρ c)
  refine (W10_arr m ρ c 5).trans ((Reg.final4_5 (V9 m ρ) c).trans ?_)
  rw [e0, e3]
  rfl

theorem val_main_v62 (c : Dev nD) : W11 m ρ c (Proc.devRef .tc main_v62) = KVal.rW0 ((KVal.argsOf m c).a18) := by
  have e := KHost.host_main_v62 (W10 m ρ c)
  rw [((KWalk.wk_main_arg18_10 m ρ c).trans (val_main_arg18 m ρ c))] at e
  exact e

theorem val_main_v63 (c : Dev nD) : W11 m ρ c (Proc.devRef .tc main_v63) = KVal.brow (KVal.zero128) := by
  have e := KHost.host_main_v63 (W10 m ρ c)
  rw [((KWalk.wk_main_v52_10 m ρ c).trans (val_main_v52 m ρ c))] at e
  exact e

theorem val_main_v64 (c : Dev nD) : W12 m ρ c (Proc.devRef .tc main_v64) = KVal.lrel0 (KVal.argsOf m c) := by
  have e0 : V11 m ρ c (Pipeline.arrRef spec5 0) = KVal.hl (KVal.argsOf m c) := ((KWalk.wk_main_v3_11 m ρ c).trans (val_main_v3 m ρ c))
  have e1 : V11 m ρ c (Pipeline.arrRef spec5 1) = KVal.rW0 ((KVal.argsOf m c).a18) := (val_main_v62 m ρ c)
  have e2 : V11 m ρ c (Pipeline.arrRef spec5 2) = KVal.brow (KVal.zero128) := (val_main_v63 m ρ c)
  refine (W12_arr m ρ c 3).trans ((Reg.final5 (V11 m ρ) c).trans ?_)
  rw [e0, e1, e2]
  rfl

theorem val_main_v66 (c : Dev nD) : W13 m ρ c (Proc.devRef .tc main_v66) = KVal.rW0 ((KVal.argsOf m c).a18) := by
  have e := KHost.host_main_v66 (W12 m ρ c)
  rw [((KWalk.wk_main_arg18_12 m ρ c).trans (val_main_arg18 m ρ c))] at e
  exact e

theorem val_main_v67 (c : Dev nD) : W13 m ρ c (Proc.devRef .tc main_v67) = KVal.brow (KVal.zero128) := by
  have e := KHost.host_main_v67 (W12 m ρ c)
  rw [((KWalk.wk_main_v52_12 m ρ c).trans (val_main_v52 m ρ c))] at e
  exact e

theorem val_main_v68 (c : Dev nD) : W14 m ρ c (Proc.devRef .tc main_v68) = KVal.srel0 (KVal.argsOf m c) := by
  have e0 : V13 m ρ c (Pipeline.arrRef spec6 0) = KVal.hs (KVal.argsOf m c) := ((KWalk.wk_main_v5_13 m ρ c).trans (val_main_v5 m ρ c))
  have e1 : V13 m ρ c (Pipeline.arrRef spec6 1) = KVal.rW0 ((KVal.argsOf m c).a18) := (val_main_v66 m ρ c)
  have e2 : V13 m ρ c (Pipeline.arrRef spec6 2) = KVal.brow (KVal.zero128) := (val_main_v67 m ρ c)
  refine (W14_arr m ρ c 3).trans ((Reg.final6 (V13 m ρ) c).trans ?_)
  rw [e0, e1, e2]
  rfl

theorem val_main_v70 (c : Dev nD) : W15 m ρ c (Proc.devRef .tc main_v70) = KVal.rW0 ((KVal.argsOf m c).a18) := by
  have e := KHost.host_main_v70 (W14 m ρ c)
  rw [((KWalk.wk_main_arg18_14 m ρ c).trans (val_main_arg18 m ρ c))] at e
  exact e

theorem val_main_v71 (c : Dev nD) : W15 m ρ c (Proc.devRef .tc main_v71) = KVal.brow (KVal.zero128) := by
  have e := KHost.host_main_v71 (W14 m ρ c)
  rw [((KWalk.wk_main_v52_14 m ρ c).trans (val_main_v52 m ρ c))] at e
  exact e

theorem val_main_v72 (c : Dev nD) : W16 m ρ c (Proc.devRef .tc main_v72) = KVal.jrel0 (KVal.argsOf m c) := by
  have e0 : V15 m ρ c (Pipeline.arrRef spec7 0) = KVal.hj (KVal.argsOf m c) := ((KWalk.wk_main_v7_15 m ρ c).trans (val_main_v7 m ρ c))
  have e1 : V15 m ρ c (Pipeline.arrRef spec7 1) = KVal.rW0 ((KVal.argsOf m c).a18) := (val_main_v70 m ρ c)
  have e2 : V15 m ρ c (Pipeline.arrRef spec7 2) = KVal.brow (KVal.zero128) := (val_main_v71 m ρ c)
  refine (W16_arr m ρ c 3).trans ((Reg.final7 (V15 m ρ) c).trans ?_)
  rw [e0, e1, e2]
  rfl

theorem val_main_v88 (c : Dev nD) : W17 m ρ c (Proc.devRef .tc main_v88) = KVal.rel_sp (KVal.hrel0 (KVal.argsOf m c) (KVal.h0 (KVal.argsOf m c))) ((KVal.argsOf m c).a4) (KVal.inv_sp ((KVal.argsOf m c).a4)) := by
  have e := KHost.host_main_v88 (W16 m ρ c)
  rw [((KWalk.wk_main_v60_1_16 m ρ c).trans (val_main_v60_1 m ρ c)), ((KWalk.wk_main_arg4_16 m ρ c).trans (val_main_arg4 m ρ c)), ((KWalk.wk_main_v18_16 m ρ c).trans (val_main_v18 m ρ c))] at e
  exact e

theorem val_main_v104 (c : Dev nD) : W17 m ρ c (Proc.devRef .tc main_v104) = KVal.rel_fl (KVal.lrel0 (KVal.argsOf m c)) ((KVal.argsOf m c).a5) (KVal.inv_fl ((KVal.argsOf m c).a5)) := by
  have e := KHost.host_main_v104 (W16 m ρ c)
  rw [((KWalk.wk_main_v64_16 m ρ c).trans (val_main_v64 m ρ c)), ((KWalk.wk_main_arg5_16 m ρ c).trans (val_main_arg5 m ρ c)), ((KWalk.wk_main_v29_16 m ρ c).trans (val_main_v29 m ρ c))] at e
  exact e

theorem val_main_v120 (c : Dev nD) : W17 m ρ c (Proc.devRef .tc main_v120) = KVal.rel_fs (KVal.srel0 (KVal.argsOf m c)) ((KVal.argsOf m c).a6) (KVal.inv_fs ((KVal.argsOf m c).a6)) := by
  have e := KHost.host_main_v120 (W16 m ρ c)
  rw [((KWalk.wk_main_v68_16 m ρ c).trans (val_main_v68 m ρ c)), ((KWalk.wk_main_arg6_16 m ρ c).trans (val_main_arg6 m ρ c)), ((KWalk.wk_main_v40_16 m ρ c).trans (val_main_v40 m ρ c))] at e
  exact e

theorem val_main_v136 (c : Dev nD) : W17 m ρ c (Proc.devRef .tc main_v136) = KVal.rel_inc (KVal.jrel0 (KVal.argsOf m c)) ((KVal.argsOf m c).a7) (KVal.inv_inc ((KVal.argsOf m c).a7)) := by
  have e := KHost.host_main_v136 (W16 m ρ c)
  rw [(val_main_v72 m ρ c), ((KWalk.wk_main_arg7_16 m ρ c).trans (val_main_arg7 m ρ c)), ((KWalk.wk_main_v51_16 m ρ c).trans (val_main_v51 m ρ c))] at e
  exact e

set_option maxHeartbeats 1600000 in
theorem val_main_v137 (c : Dev nD) : W18 m ρ c (Proc.devRef .tc main_v137) = KVal.H1 (KVal.argsOf m c) := by
  have e0 : V17 m ρ c (Pipeline.arrRef spec8 0) = KVal.selfT0 (KVal.argsOf m c) (KVal.h0 (KVal.argsOf m c)) := ((KWalk.wk_main_v60_0_17 m ρ c).trans (val_main_v60_0 m ρ c))
  have e1 : V17 m ρ c (Pipeline.arrRef spec8 1) = KVal.rel_sp (KVal.hrel0 (KVal.argsOf m c) (KVal.h0 (KVal.argsOf m c))) ((KVal.argsOf m c).a4) (KVal.inv_sp ((KVal.argsOf m c).a4)) := (val_main_v88 m ρ c)
  have e2 : V17 m ρ c (Pipeline.arrRef spec8 2) = KVal.rel_fl (KVal.lrel0 (KVal.argsOf m c)) ((KVal.argsOf m c).a5) (KVal.inv_fl ((KVal.argsOf m c).a5)) := (val_main_v104 m ρ c)
  have e3 : V17 m ρ c (Pipeline.arrRef spec8 3) = KVal.rel_fs (KVal.srel0 (KVal.argsOf m c)) ((KVal.argsOf m c).a6) (KVal.inv_fs ((KVal.argsOf m c).a6)) := (val_main_v120 m ρ c)
  have e4 : V17 m ρ c (Pipeline.arrRef spec8 4) = KVal.rel_inc (KVal.jrel0 (KVal.argsOf m c)) ((KVal.argsOf m c).a7) (KVal.inv_inc ((KVal.argsOf m c).a7)) := (val_main_v136 m ρ c)
  refine (W18_arr m ρ c 5).trans ((Reg.final8 (V17 m ρ) c).trans ?_)
  rw [e0, e1, e2, e3, e4]
  rfl

theorem val_main_v139 (c : Dev nD) : W19 m ρ c (Proc.devRef .tc main_v139) = KVal.sW1 ((KVal.argsOf m c).a16) := by
  have e := KHost.host_main_v139 (W18 m ρ c)
  rw [((KWalk.wk_main_arg16_18 m ρ c).trans (val_main_arg16 m ρ c))] at e
  exact e

theorem val_main_v144 (c : Dev nD) : W19 m ρ c (Proc.devRef .tc main_v144) = KVal.sb1 ((KVal.argsOf m c).a17) := by
  have e := KHost.host_main_v144 (W18 m ρ c)
  rw [((KWalk.wk_main_arg17_18 m ρ c).trans (val_main_arg17 m ρ c))] at e
  exact e

theorem val_main_v143 (c : Dev nD) : W19 m ρ c (Proc.devRef .tc main_v143) = KVal.rW1 ((KVal.argsOf m c).a18) := by
  have e := KHost.host_main_v143 (W18 m ρ c)
  rw [((KWalk.wk_main_arg18_18 m ρ c).trans (val_main_arg18 m ρ c))] at e
  exact e

theorem val_main_v145_0 (c : Dev nD) : W20 m ρ c (Proc.devRef .tc main_v145_0) = KVal.selfT1 (KVal.argsOf m c) (KVal.H1 (KVal.argsOf m c)) := by
  have e0 : V19 m ρ c (Pipeline.arrRef spec9 0) = KVal.H1 (KVal.argsOf m c) := ((KWalk.wk_main_v137_19 m ρ c).trans (val_main_v137 m ρ c))
  have e1 : V19 m ρ c (Pipeline.arrRef spec9 1) = KVal.sW1 ((KVal.argsOf m c).a16) := (val_main_v139 m ρ c)
  have e2 : V19 m ρ c (Pipeline.arrRef spec9 2) = KVal.sb1 ((KVal.argsOf m c).a17) := (val_main_v144 m ρ c)
  have e3 : V19 m ρ c (Pipeline.arrRef spec9 3) = KVal.rW1 ((KVal.argsOf m c).a18) := (val_main_v143 m ρ c)
  refine (W20_arr m ρ c 4).trans ((Reg.final9_4 (V19 m ρ) c).trans ?_)
  rw [e0, e1, e2]
  rfl

theorem val_main_v145_1 (c : Dev nD) : W20 m ρ c (Proc.devRef .tc main_v145_1) = KVal.hrel1 (KVal.argsOf m c) (KVal.H1 (KVal.argsOf m c)) := by
  have e0 : V19 m ρ c (Pipeline.arrRef spec9 0) = KVal.H1 (KVal.argsOf m c) := ((KWalk.wk_main_v137_19 m ρ c).trans (val_main_v137 m ρ c))
  have e1 : V19 m ρ c (Pipeline.arrRef spec9 1) = KVal.sW1 ((KVal.argsOf m c).a16) := (val_main_v139 m ρ c)
  have e2 : V19 m ρ c (Pipeline.arrRef spec9 2) = KVal.sb1 ((KVal.argsOf m c).a17) := (val_main_v144 m ρ c)
  have e3 : V19 m ρ c (Pipeline.arrRef spec9 3) = KVal.rW1 ((KVal.argsOf m c).a18) := (val_main_v143 m ρ c)
  refine (W20_arr m ρ c 5).trans ((Reg.final9_5 (V19 m ρ) c).trans ?_)
  rw [e0, e3]
  rfl

theorem val_main_v147 (c : Dev nD) : W21 m ρ c (Proc.devRef .tc main_v147) = KVal.rW1 ((KVal.argsOf m c).a18) := by
  have e := KHost.host_main_v147 (W20 m ρ c)
  rw [((KWalk.wk_main_arg18_20 m ρ c).trans (val_main_arg18 m ρ c))] at e
  exact e

theorem val_main_v148 (c : Dev nD) : W21 m ρ c (Proc.devRef .tc main_v148) = KVal.brow (KVal.zero128) := by
  have e := KHost.host_main_v148 (W20 m ρ c)
  rw [((KWalk.wk_main_v52_20 m ρ c).trans (val_main_v52 m ρ c))] at e
  exact e

theorem val_main_v149 (c : Dev nD) : W22 m ρ c (Proc.devRef .tc main_v149) = KVal.lrel1 (KVal.argsOf m c) := by
  have e0 : V21 m ρ c (Pipeline.arrRef spec10 0) = KVal.hl (KVal.argsOf m c) := ((KWalk.wk_main_v3_21 m ρ c).trans (val_main_v3 m ρ c))
  have e1 : V21 m ρ c (Pipeline.arrRef spec10 1) = KVal.rW1 ((KVal.argsOf m c).a18) := (val_main_v147 m ρ c)
  have e2 : V21 m ρ c (Pipeline.arrRef spec10 2) = KVal.brow (KVal.zero128) := (val_main_v148 m ρ c)
  refine (W22_arr m ρ c 3).trans ((Reg.final10 (V21 m ρ) c).trans ?_)
  rw [e0, e1, e2]
  rfl

theorem val_main_v151 (c : Dev nD) : W23 m ρ c (Proc.devRef .tc main_v151) = KVal.rW1 ((KVal.argsOf m c).a18) := by
  have e := KHost.host_main_v151 (W22 m ρ c)
  rw [((KWalk.wk_main_arg18_22 m ρ c).trans (val_main_arg18 m ρ c))] at e
  exact e

theorem val_main_v152 (c : Dev nD) : W23 m ρ c (Proc.devRef .tc main_v152) = KVal.brow (KVal.zero128) := by
  have e := KHost.host_main_v152 (W22 m ρ c)
  rw [((KWalk.wk_main_v52_22 m ρ c).trans (val_main_v52 m ρ c))] at e
  exact e

theorem val_main_v153 (c : Dev nD) : W24 m ρ c (Proc.devRef .tc main_v153) = KVal.srel1 (KVal.argsOf m c) := by
  have e0 : V23 m ρ c (Pipeline.arrRef spec11 0) = KVal.hs (KVal.argsOf m c) := ((KWalk.wk_main_v5_23 m ρ c).trans (val_main_v5 m ρ c))
  have e1 : V23 m ρ c (Pipeline.arrRef spec11 1) = KVal.rW1 ((KVal.argsOf m c).a18) := (val_main_v151 m ρ c)
  have e2 : V23 m ρ c (Pipeline.arrRef spec11 2) = KVal.brow (KVal.zero128) := (val_main_v152 m ρ c)
  refine (W24_arr m ρ c 3).trans ((Reg.final11 (V23 m ρ) c).trans ?_)
  rw [e0, e1, e2]
  rfl

theorem val_main_v155 (c : Dev nD) : W25 m ρ c (Proc.devRef .tc main_v155) = KVal.rW1 ((KVal.argsOf m c).a18) := by
  have e := KHost.host_main_v155 (W24 m ρ c)
  rw [((KWalk.wk_main_arg18_24 m ρ c).trans (val_main_arg18 m ρ c))] at e
  exact e

theorem val_main_v156 (c : Dev nD) : W25 m ρ c (Proc.devRef .tc main_v156) = KVal.brow (KVal.zero128) := by
  have e := KHost.host_main_v156 (W24 m ρ c)
  rw [((KWalk.wk_main_v52_24 m ρ c).trans (val_main_v52 m ρ c))] at e
  exact e

theorem val_main_v157 (c : Dev nD) : W26 m ρ c (Proc.devRef .tc main_v157) = KVal.jrel1 (KVal.argsOf m c) := by
  have e0 : V25 m ρ c (Pipeline.arrRef spec12 0) = KVal.hj (KVal.argsOf m c) := ((KWalk.wk_main_v7_25 m ρ c).trans (val_main_v7 m ρ c))
  have e1 : V25 m ρ c (Pipeline.arrRef spec12 1) = KVal.rW1 ((KVal.argsOf m c).a18) := (val_main_v155 m ρ c)
  have e2 : V25 m ρ c (Pipeline.arrRef spec12 2) = KVal.brow (KVal.zero128) := (val_main_v156 m ρ c)
  refine (W26_arr m ρ c 3).trans ((Reg.final12 (V25 m ρ) c).trans ?_)
  rw [e0, e1, e2]
  rfl

theorem val_main_v173 (c : Dev nD) : W27 m ρ c (Proc.devRef .tc main_v173) = KVal.rel_sp (KVal.hrel1 (KVal.argsOf m c) (KVal.H1 (KVal.argsOf m c))) ((KVal.argsOf m c).a4) (KVal.inv_sp ((KVal.argsOf m c).a4)) := by
  have e := KHost.host_main_v173 (W26 m ρ c)
  rw [((KWalk.wk_main_v145_1_26 m ρ c).trans (val_main_v145_1 m ρ c)), ((KWalk.wk_main_arg4_26 m ρ c).trans (val_main_arg4 m ρ c)), ((KWalk.wk_main_v18_26 m ρ c).trans (val_main_v18 m ρ c))] at e
  exact e

theorem val_main_v189 (c : Dev nD) : W27 m ρ c (Proc.devRef .tc main_v189) = KVal.rel_fl (KVal.lrel1 (KVal.argsOf m c)) ((KVal.argsOf m c).a5) (KVal.inv_fl ((KVal.argsOf m c).a5)) := by
  have e := KHost.host_main_v189 (W26 m ρ c)
  rw [((KWalk.wk_main_v149_26 m ρ c).trans (val_main_v149 m ρ c)), ((KWalk.wk_main_arg5_26 m ρ c).trans (val_main_arg5 m ρ c)), ((KWalk.wk_main_v29_26 m ρ c).trans (val_main_v29 m ρ c))] at e
  exact e

theorem val_main_v205 (c : Dev nD) : W27 m ρ c (Proc.devRef .tc main_v205) = KVal.rel_fs (KVal.srel1 (KVal.argsOf m c)) ((KVal.argsOf m c).a6) (KVal.inv_fs ((KVal.argsOf m c).a6)) := by
  have e := KHost.host_main_v205 (W26 m ρ c)
  rw [((KWalk.wk_main_v153_26 m ρ c).trans (val_main_v153 m ρ c)), ((KWalk.wk_main_arg6_26 m ρ c).trans (val_main_arg6 m ρ c)), ((KWalk.wk_main_v40_26 m ρ c).trans (val_main_v40 m ρ c))] at e
  exact e

theorem val_main_v221 (c : Dev nD) : W27 m ρ c (Proc.devRef .tc main_v221) = KVal.rel_inc (KVal.jrel1 (KVal.argsOf m c)) ((KVal.argsOf m c).a7) (KVal.inv_inc ((KVal.argsOf m c).a7)) := by
  have e := KHost.host_main_v221 (W26 m ρ c)
  rw [(val_main_v157 m ρ c), ((KWalk.wk_main_arg7_26 m ρ c).trans (val_main_arg7 m ρ c)), ((KWalk.wk_main_v51_26 m ρ c).trans (val_main_v51 m ρ c))] at e
  exact e

set_option maxHeartbeats 1600000 in
theorem val_main_v222 (c : Dev nD) : W28 m ρ c (Proc.devRef .tc main_v222) = KVal.H2 (KVal.argsOf m c) := by
  have e0 : V27 m ρ c (Pipeline.arrRef spec13 0) = KVal.selfT1 (KVal.argsOf m c) (KVal.H1 (KVal.argsOf m c)) := ((KWalk.wk_main_v145_0_27 m ρ c).trans (val_main_v145_0 m ρ c))
  have e1 : V27 m ρ c (Pipeline.arrRef spec13 1) = KVal.rel_sp (KVal.hrel1 (KVal.argsOf m c) (KVal.H1 (KVal.argsOf m c))) ((KVal.argsOf m c).a4) (KVal.inv_sp ((KVal.argsOf m c).a4)) := (val_main_v173 m ρ c)
  have e2 : V27 m ρ c (Pipeline.arrRef spec13 2) = KVal.rel_fl (KVal.lrel1 (KVal.argsOf m c)) ((KVal.argsOf m c).a5) (KVal.inv_fl ((KVal.argsOf m c).a5)) := (val_main_v189 m ρ c)
  have e3 : V27 m ρ c (Pipeline.arrRef spec13 3) = KVal.rel_fs (KVal.srel1 (KVal.argsOf m c)) ((KVal.argsOf m c).a6) (KVal.inv_fs ((KVal.argsOf m c).a6)) := (val_main_v205 m ρ c)
  have e4 : V27 m ρ c (Pipeline.arrRef spec13 4) = KVal.rel_inc (KVal.jrel1 (KVal.argsOf m c)) ((KVal.argsOf m c).a7) (KVal.inv_inc ((KVal.argsOf m c).a7)) := (val_main_v221 m ρ c)
  refine (W28_arr m ρ c 5).trans ((Reg.final13 (V27 m ρ) c).trans ?_)
  rw [e0, e1, e2, e3, e4]
  rfl

theorem val_main_v224 (c : Dev nD) : W29 m ρ c (Proc.devRef .tc main_v224) = KVal.sW2 ((KVal.argsOf m c).a16) := by
  have e := KHost.host_main_v224 (W28 m ρ c)
  rw [((KWalk.wk_main_arg16_28 m ρ c).trans (val_main_arg16 m ρ c))] at e
  exact e

theorem val_main_v229 (c : Dev nD) : W29 m ρ c (Proc.devRef .tc main_v229) = KVal.sb2 ((KVal.argsOf m c).a17) := by
  have e := KHost.host_main_v229 (W28 m ρ c)
  rw [((KWalk.wk_main_arg17_28 m ρ c).trans (val_main_arg17 m ρ c))] at e
  exact e

theorem val_main_v228 (c : Dev nD) : W29 m ρ c (Proc.devRef .tc main_v228) = KVal.rW2 ((KVal.argsOf m c).a18) := by
  have e := KHost.host_main_v228 (W28 m ρ c)
  rw [((KWalk.wk_main_arg18_28 m ρ c).trans (val_main_arg18 m ρ c))] at e
  exact e

theorem val_main_v230_0 (c : Dev nD) : W30 m ρ c (Proc.devRef .tc main_v230_0) = KVal.selfT2 (KVal.argsOf m c) (KVal.H2 (KVal.argsOf m c)) := by
  have e0 : V29 m ρ c (Pipeline.arrRef spec14 0) = KVal.H2 (KVal.argsOf m c) := ((KWalk.wk_main_v222_29 m ρ c).trans (val_main_v222 m ρ c))
  have e1 : V29 m ρ c (Pipeline.arrRef spec14 1) = KVal.sW2 ((KVal.argsOf m c).a16) := (val_main_v224 m ρ c)
  have e2 : V29 m ρ c (Pipeline.arrRef spec14 2) = KVal.sb2 ((KVal.argsOf m c).a17) := (val_main_v229 m ρ c)
  have e3 : V29 m ρ c (Pipeline.arrRef spec14 3) = KVal.rW2 ((KVal.argsOf m c).a18) := (val_main_v228 m ρ c)
  refine (W30_arr m ρ c 4).trans ((Reg.final14_4 (V29 m ρ) c).trans ?_)
  rw [e0, e1, e2]
  rfl

theorem val_main_v230_1 (c : Dev nD) : W30 m ρ c (Proc.devRef .tc main_v230_1) = KVal.hrel2 (KVal.argsOf m c) (KVal.H2 (KVal.argsOf m c)) := by
  have e0 : V29 m ρ c (Pipeline.arrRef spec14 0) = KVal.H2 (KVal.argsOf m c) := ((KWalk.wk_main_v222_29 m ρ c).trans (val_main_v222 m ρ c))
  have e1 : V29 m ρ c (Pipeline.arrRef spec14 1) = KVal.sW2 ((KVal.argsOf m c).a16) := (val_main_v224 m ρ c)
  have e2 : V29 m ρ c (Pipeline.arrRef spec14 2) = KVal.sb2 ((KVal.argsOf m c).a17) := (val_main_v229 m ρ c)
  have e3 : V29 m ρ c (Pipeline.arrRef spec14 3) = KVal.rW2 ((KVal.argsOf m c).a18) := (val_main_v228 m ρ c)
  refine (W30_arr m ρ c 5).trans ((Reg.final14_5 (V29 m ρ) c).trans ?_)
  rw [e0, e3]
  rfl

theorem val_main_v232 (c : Dev nD) : W31 m ρ c (Proc.devRef .tc main_v232) = KVal.rW2 ((KVal.argsOf m c).a18) := by
  have e := KHost.host_main_v232 (W30 m ρ c)
  rw [((KWalk.wk_main_arg18_30 m ρ c).trans (val_main_arg18 m ρ c))] at e
  exact e

theorem val_main_v233 (c : Dev nD) : W31 m ρ c (Proc.devRef .tc main_v233) = KVal.brow (KVal.zero128) := by
  have e := KHost.host_main_v233 (W30 m ρ c)
  rw [((KWalk.wk_main_v52_30 m ρ c).trans (val_main_v52 m ρ c))] at e
  exact e

theorem val_main_v234 (c : Dev nD) : W32 m ρ c (Proc.devRef .tc main_v234) = KVal.lrel2 (KVal.argsOf m c) := by
  have e0 : V31 m ρ c (Pipeline.arrRef spec15 0) = KVal.hl (KVal.argsOf m c) := ((KWalk.wk_main_v3_31 m ρ c).trans (val_main_v3 m ρ c))
  have e1 : V31 m ρ c (Pipeline.arrRef spec15 1) = KVal.rW2 ((KVal.argsOf m c).a18) := (val_main_v232 m ρ c)
  have e2 : V31 m ρ c (Pipeline.arrRef spec15 2) = KVal.brow (KVal.zero128) := (val_main_v233 m ρ c)
  refine (W32_arr m ρ c 3).trans ((Reg.final15 (V31 m ρ) c).trans ?_)
  rw [e0, e1, e2]
  rfl

theorem val_main_v236 (c : Dev nD) : W33 m ρ c (Proc.devRef .tc main_v236) = KVal.rW2 ((KVal.argsOf m c).a18) := by
  have e := KHost.host_main_v236 (W32 m ρ c)
  rw [((KWalk.wk_main_arg18_32 m ρ c).trans (val_main_arg18 m ρ c))] at e
  exact e

theorem val_main_v237 (c : Dev nD) : W33 m ρ c (Proc.devRef .tc main_v237) = KVal.brow (KVal.zero128) := by
  have e := KHost.host_main_v237 (W32 m ρ c)
  rw [((KWalk.wk_main_v52_32 m ρ c).trans (val_main_v52 m ρ c))] at e
  exact e

theorem val_main_v238 (c : Dev nD) : W34 m ρ c (Proc.devRef .tc main_v238) = KVal.srel2 (KVal.argsOf m c) := by
  have e0 : V33 m ρ c (Pipeline.arrRef spec16 0) = KVal.hs (KVal.argsOf m c) := ((KWalk.wk_main_v5_33 m ρ c).trans (val_main_v5 m ρ c))
  have e1 : V33 m ρ c (Pipeline.arrRef spec16 1) = KVal.rW2 ((KVal.argsOf m c).a18) := (val_main_v236 m ρ c)
  have e2 : V33 m ρ c (Pipeline.arrRef spec16 2) = KVal.brow (KVal.zero128) := (val_main_v237 m ρ c)
  refine (W34_arr m ρ c 3).trans ((Reg.final16 (V33 m ρ) c).trans ?_)
  rw [e0, e1, e2]
  rfl

theorem val_main_v240 (c : Dev nD) : W35 m ρ c (Proc.devRef .tc main_v240) = KVal.rW2 ((KVal.argsOf m c).a18) := by
  have e := KHost.host_main_v240 (W34 m ρ c)
  rw [((KWalk.wk_main_arg18_34 m ρ c).trans (val_main_arg18 m ρ c))] at e
  exact e

theorem val_main_v241 (c : Dev nD) : W35 m ρ c (Proc.devRef .tc main_v241) = KVal.brow (KVal.zero128) := by
  have e := KHost.host_main_v241 (W34 m ρ c)
  rw [((KWalk.wk_main_v52_34 m ρ c).trans (val_main_v52 m ρ c))] at e
  exact e

theorem val_main_v242 (c : Dev nD) : W36 m ρ c (Proc.devRef .tc main_v242) = KVal.jrel2 (KVal.argsOf m c) := by
  have e0 : V35 m ρ c (Pipeline.arrRef spec17 0) = KVal.hj (KVal.argsOf m c) := ((KWalk.wk_main_v7_35 m ρ c).trans (val_main_v7 m ρ c))
  have e1 : V35 m ρ c (Pipeline.arrRef spec17 1) = KVal.rW2 ((KVal.argsOf m c).a18) := (val_main_v240 m ρ c)
  have e2 : V35 m ρ c (Pipeline.arrRef spec17 2) = KVal.brow (KVal.zero128) := (val_main_v241 m ρ c)
  refine (W36_arr m ρ c 3).trans ((Reg.final17 (V35 m ρ) c).trans ?_)
  rw [e0, e1, e2]
  rfl

theorem val_main_v258 (c : Dev nD) : W37 m ρ c (Proc.devRef .tc main_v258) = KVal.rel_sp (KVal.hrel2 (KVal.argsOf m c) (KVal.H2 (KVal.argsOf m c))) ((KVal.argsOf m c).a4) (KVal.inv_sp ((KVal.argsOf m c).a4)) := by
  have e := KHost.host_main_v258 (W36 m ρ c)
  rw [((KWalk.wk_main_v230_1_36 m ρ c).trans (val_main_v230_1 m ρ c)), ((KWalk.wk_main_arg4_36 m ρ c).trans (val_main_arg4 m ρ c)), ((KWalk.wk_main_v18_36 m ρ c).trans (val_main_v18 m ρ c))] at e
  exact e

theorem val_main_v274 (c : Dev nD) : W37 m ρ c (Proc.devRef .tc main_v274) = KVal.rel_fl (KVal.lrel2 (KVal.argsOf m c)) ((KVal.argsOf m c).a5) (KVal.inv_fl ((KVal.argsOf m c).a5)) := by
  have e := KHost.host_main_v274 (W36 m ρ c)
  rw [((KWalk.wk_main_v234_36 m ρ c).trans (val_main_v234 m ρ c)), ((KWalk.wk_main_arg5_36 m ρ c).trans (val_main_arg5 m ρ c)), ((KWalk.wk_main_v29_36 m ρ c).trans (val_main_v29 m ρ c))] at e
  exact e

theorem val_main_v290 (c : Dev nD) : W37 m ρ c (Proc.devRef .tc main_v290) = KVal.rel_fs (KVal.srel2 (KVal.argsOf m c)) ((KVal.argsOf m c).a6) (KVal.inv_fs ((KVal.argsOf m c).a6)) := by
  have e := KHost.host_main_v290 (W36 m ρ c)
  rw [((KWalk.wk_main_v238_36 m ρ c).trans (val_main_v238 m ρ c)), ((KWalk.wk_main_arg6_36 m ρ c).trans (val_main_arg6 m ρ c)), ((KWalk.wk_main_v40_36 m ρ c).trans (val_main_v40 m ρ c))] at e
  exact e

theorem val_main_v306 (c : Dev nD) : W37 m ρ c (Proc.devRef .tc main_v306) = KVal.rel_inc (KVal.jrel2 (KVal.argsOf m c)) ((KVal.argsOf m c).a7) (KVal.inv_inc ((KVal.argsOf m c).a7)) := by
  have e := KHost.host_main_v306 (W36 m ρ c)
  rw [(val_main_v242 m ρ c), ((KWalk.wk_main_arg7_36 m ρ c).trans (val_main_arg7 m ρ c)), ((KWalk.wk_main_v51_36 m ρ c).trans (val_main_v51 m ρ c))] at e
  exact e

set_option maxHeartbeats 1600000 in
theorem val_main_v307 (c : Dev nD) : W38 m ρ c (Proc.devRef .tc main_v307) = KVal.KVal (KVal.argsOf m c) := by
  have e0 : V37 m ρ c (Pipeline.arrRef spec18 0) = KVal.selfT2 (KVal.argsOf m c) (KVal.H2 (KVal.argsOf m c)) := ((KWalk.wk_main_v230_0_37 m ρ c).trans (val_main_v230_0 m ρ c))
  have e1 : V37 m ρ c (Pipeline.arrRef spec18 1) = KVal.rel_sp (KVal.hrel2 (KVal.argsOf m c) (KVal.H2 (KVal.argsOf m c))) ((KVal.argsOf m c).a4) (KVal.inv_sp ((KVal.argsOf m c).a4)) := (val_main_v258 m ρ c)
  have e2 : V37 m ρ c (Pipeline.arrRef spec18 2) = KVal.rel_fl (KVal.lrel2 (KVal.argsOf m c)) ((KVal.argsOf m c).a5) (KVal.inv_fl ((KVal.argsOf m c).a5)) := (val_main_v274 m ρ c)
  have e3 : V37 m ρ c (Pipeline.arrRef spec18 3) = KVal.rel_fs (KVal.srel2 (KVal.argsOf m c)) ((KVal.argsOf m c).a6) (KVal.inv_fs ((KVal.argsOf m c).a6)) := (val_main_v290 m ρ c)
  have e4 : V37 m ρ c (Pipeline.arrRef spec18 4) = KVal.rel_inc (KVal.jrel2 (KVal.argsOf m c)) ((KVal.argsOf m c).a7) (KVal.inv_inc ((KVal.argsOf m c).a7)) := (val_main_v306 m ρ c)
  refine (W38_arr m ρ c 5).trans ((Reg.final18 (V37 m ρ) c).trans ?_)
  rw [e0, e1, e2, e3, e4]
  rfl

/-- The result array at the last boundary is the kernel's value function of the argument arrays. -/
theorem result_eq (c : Dev nD) : W38 m ρ c (Proc.devRef .tc main_v307) = KVal.KVal (KVal.argsOf m c) := val_main_v307 m ρ c

end Cert.KernelIdeal.KFold

end
-- ==== Proof.RefOps0.lean ====
/-
  Statements 1 … 60 of the reference's @main as a list of operations, in order.  A call of a module-local
  function is that function's body over the call's own buffers: the clipping function is three operations (its
  scalar bound converted, broadcast, the elementwise maximum), the ELU function fifteen (three scalar zeros, two
  comparisons with zero, the inner selection's three, the exponential minus one, the scalar one and its
  broadcast, the product, the outer selection).  The part of @main is the straight line of these operations.
-/
import proofs.«168040_j41652592837487_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of statements 1 … 60, in order. -/
abbrev ops0 : List (HloOp τ sig (Elt F)) :=
  [
    StableHlo.binary main_arg0 main_arg8 main_v0 ((fun l r => Host.dotGeneral dot_S50000x32_S32x128_S50000x128_1_0_0_1_n_n none l r) : (⟨S50000x32, .f32⟩ : BufTy).Contents (Elt F) → (⟨S32x128, .f32⟩ : BufTy).Contents (Elt F) → (⟨S50000x128, .f32⟩ : BufTy).Contents (Elt F)),
    StableHlo.unary main_arg9 main_v1 (broadcastInDim S1x128 ![1] bcast_S128_S1x128_1 : (⟨S128, .f32⟩ : BufTy).Contents (Elt F) → (⟨S1x128, .f32⟩ : BufTy).Contents (Elt F)),
    StableHlo.unary main_v1 main_v2 (broadcastInDim S50000x128 ![0, 1] bcast_S1x128_S50000x128_0_1 : (⟨S1x128, .f32⟩ : BufTy).Contents (Elt F) → (⟨S50000x128, .f32⟩ : BufTy).Contents (Elt F)),
    StableHlo.binary main_v0 main_v2 main_v3 (addf : (⟨S50000x128, .f32⟩ : BufTy).Contents (Elt F) → (⟨S50000x128, .f32⟩ : BufTy).Contents (Elt F) → (⟨S50000x128, .f32⟩ : BufTy).Contents (Elt F)),
    StableHlo.binary main_arg1 main_arg10 main_v4 ((fun l r => Host.dotGeneral dot_S100000x16_S16x128_S100000x128_1_0_0_1_n_n none l r) : (⟨S100000x16, .f32⟩ : BufTy).Contents (Elt F) → (⟨S16x128, .f32⟩ : BufTy).Contents (Elt F) → (⟨S100000x128, .f32⟩ : BufTy).Contents (Elt F)),
    StableHlo.unary main_arg11 main_v5 (broadcastInDim S1x128 ![1] bcast_S128_S1x128_1 : (⟨S128, .f32⟩ : BufTy).Contents (Elt F) → (⟨S1x128, .f32⟩ : BufTy).Contents (Elt F)),
    StableHlo.unary main_v5 main_v6 (broadcastInDim S100000x128 ![0, 1] bcast_S1x128_S100000x128_0_1 : (⟨S1x128, .f32⟩ : BufTy).Contents (Elt F) → (⟨S100000x128, .f32⟩ : BufTy).Contents (Elt F)),
    StableHlo.binary main_v4 main_v6 main_v7 (addf : (⟨S100000x128, .f32⟩ : BufTy).Contents (Elt F) → (⟨S100000x128, .f32⟩ : BufTy).Contents (Elt F) → (⟨S100000x128, .f32⟩ : BufTy).Contents (Elt F)),
    StableHlo.binary main_arg2 main_arg12 main_v8 ((fun l r => Host.dotGeneral dot_S50000x8_S8x128_S50000x128_1_0_0_1_n_n none l r) : (⟨S50000x8, .f32⟩ : BufTy).Contents (Elt F) → (⟨S8x128, .f32⟩ : BufTy).Contents (Elt F) → (⟨S50000x128, .f32⟩ : BufTy).Contents (Elt F)),
    StableHlo.unary main_arg13 main_v9 (broadcastInDim S1x128 ![1] bcast_S128_S1x128_1 : (⟨S128, .f32⟩ : BufTy).Contents (Elt F) → (⟨S1x128, .f32⟩ : BufTy).Contents (Elt F)),
    StableHlo.unary main_v9 main_v10 (broadcastInDim S50000x128 ![0, 1] bcast_S1x128_S50000x128_0_1 : (⟨S1x128, .f32⟩ : BufTy).Contents (Elt F) → (⟨S50000x128, .f32⟩ : BufTy).Contents (Elt F)),
    StableHlo.binary main_v8 main_v10 main_v11 (addf : (⟨S50000x128, .f32⟩ : BufTy).Contents (Elt F) → (⟨S50000x128, .f32⟩ : BufTy).Contents (Elt F) → (⟨S50000x128, .f32⟩ : BufTy).Contents (Elt F)),
    StableHlo.binary main_arg3 main_arg14 main_v12 ((fun l r => Host.dotGeneral dot_S20000x8_S8x128_S20000x128_1_0_0_1_n_n none l r) : (⟨S20000x8, .f32⟩ : BufTy).Contents (Elt F) → (⟨S8x128, .f32⟩ : BufTy).Contents (Elt F) → (⟨S20000x128, .f32⟩ : BufTy).Contents (Elt F)),
    StableHlo.unary main_arg15 main_v13 (broadcastInDim S1x128 ![1] bcast_S128_S1x128_1 : (⟨S128, .f32⟩ : BufTy).Contents (Elt F) → (⟨S1x128, .f32⟩ : BufTy).Contents (Elt F)),
    StableHlo.unary main_v13 main_v14 (broadcastInDim S20000x128 ![0, 1] bcast_S1x128_S20000x128_0_1 : (⟨S1x128, .f32⟩ : BufTy).Contents (Elt F) → (⟨S20000x128, .f32⟩ : BufTy).Contents (Elt F)),
    StableHlo.binary main_v12 main_v14 main_v15 (addf : (⟨S20000x128, .f32⟩ : BufTy).Contents (Elt F) → (⟨S20000x128, .f32⟩ : BufTy).Contents (Elt F) → (⟨S20000x128, .f32⟩ : BufTy).Contents (Elt F)),
    StableHlo.unary main_arg18 main_v16 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v16 main_v17 rfl shapeCasts_S1x128x128_S128x128,
    StableHlo.unary main_arg4 main_v18 ((extractStridedSlice S1x640000 ![0, 0] · slices_S2x640000_S1x640000_0_0) : (⟨S2x640000, .i32⟩ : BufTy).Contents (Elt F) → (⟨S1x640000, .i32⟩ : BufTy).Contents (Elt F)),
    StableHlo.reshape main_v18 main_v19 rfl shapeCasts_S1x640000_S640000,
    StableHlo.nullary main_c (constantI S_ 32 0#32),
    StableHlo.unary main_c main_v20 (broadcastInDim S640000 ![] bcast_S_S640000 : (⟨S_, .i32⟩ : BufTy).Contents (Elt F) → (⟨S640000, .i32⟩ : BufTy).Contents (Elt F)),
    StableHlo.binary main_v19 main_v20 main_v21 (cmpi .slt : (⟨S640000, .i32⟩ : BufTy).Contents (Elt F) → (⟨S640000, .i32⟩ : BufTy).Contents (Elt F) → (⟨S640000, .i1⟩ : BufTy).Contents (Elt F)),
    StableHlo.nullary main_c_0 (constantI S_ 32 50000#32),
    StableHlo.unary main_c_0 main_v22 (broadcastInDim S640000 ![] bcast_S_S640000 : (⟨S_, .i32⟩ : BufTy).Contents (Elt F) → (⟨S640000, .i32⟩ : BufTy).Contents (Elt F)),
    StableHlo.binary main_v19 main_v22 main_v23 (addi : (⟨S640000, .i32⟩ : BufTy).Contents (Elt F) → (⟨S640000, .i32⟩ : BufTy).Contents (Elt F) → (⟨S640000, .i32⟩ : BufTy).Contents (Elt F)),
    StableHlo.ternary main_v21 main_v23 main_v19 main_v24 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v24 main_v25 (broadcastInDim S640000x1 ![0] bcast_S640000_S640000x1_0 : (⟨S640000, .i32⟩ : BufTy).Contents (Elt F) → (⟨S640000x1, .i32⟩ : BufTy).Contents (Elt F)),
    StableHlo.binary main_v3 main_v25 main_v26 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    StableHlo.binary main_v26 main_v17 main_v27 ((fun l r => Host.dotGeneral dot_S640000x128_S128x128_S640000x128_1_0_0_1_n_n none l r) : (⟨S640000x128, .f32⟩ : BufTy).Contents (Elt F) → (⟨S128x128, .f32⟩ : BufTy).Contents (Elt F) → (⟨S640000x128, .f32⟩ : BufTy).Contents (Elt F)),
    StableHlo.unary main_arg4 main_v28 ((extractStridedSlice S1x640000 ![1, 0] · slices_S2x640000_S1x640000_1_0) : (⟨S2x640000, .i32⟩ : BufTy).Contents (Elt F) → (⟨S1x640000, .i32⟩ : BufTy).Contents (Elt F)),
    StableHlo.reshape main_v28 main_v29 rfl shapeCasts_S1x640000_S640000,
    StableHlo.nullary main_cst (constant S_ .f32 0x00000000#32),
    StableHlo.unary main_cst main_v30 (broadcastInDim S50000x128 ![] bcast_S_S50000x128 : (⟨S_, .f32⟩ : BufTy).Contents (Elt F) → (⟨S50000x128, .f32⟩ : BufTy).Contents (Elt F)),
    StableHlo.unary main_v29 main_v31 (broadcastInDim S640000x1 ![0] bcast_S640000_S640000x1_0 : (⟨S640000, .i32⟩ : BufTy).Contents (Elt F) → (⟨S640000x1, .i32⟩ : BufTy).Contents (Elt F)),
    StableHlo.ternary main_v30 main_v31 main_v27 main_v32 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)),
    StableHlo.nullary main_cst_1 (constant S_ .f32 0x3F800000#32),
    StableHlo.unary main_cst_1 main_v33 (broadcastInDim S640000x1 ![] bcast_S_S640000x1 : (⟨S_, .f32⟩ : BufTy).Contents (Elt F) → (⟨S640000x1, .f32⟩ : BufTy).Contents (Elt F)),
    StableHlo.unary main_arg4 main_v34 ((extractStridedSlice S1x640000 ![1, 0] · slices_S2x640000_S1x640000_1_0) : (⟨S2x640000, .i32⟩ : BufTy).Contents (Elt F) → (⟨S1x640000, .i32⟩ : BufTy).Contents (Elt F)),
    StableHlo.reshape main_v34 main_v35 rfl shapeCasts_S1x640000_S640000,
    StableHlo.nullary main_cst_2 (constant S_ .f32 0x00000000#32),
    StableHlo.unary main_cst_2 main_v36 (broadcastInDim S50000x1 ![] bcast_S_S50000x1 : (⟨S_, .f32⟩ : BufTy).Contents (Elt F) → (⟨S50000x1, .f32⟩ : BufTy).Contents (Elt F)),
    StableHlo.unary main_v35 main_v37 (broadcastInDim S640000x1 ![0] bcast_S640000_S640000x1_0 : (⟨S640000, .i32⟩ : BufTy).Contents (Elt F) → (⟨S640000x1, .i32⟩ : BufTy).Contents (Elt F)),
    StableHlo.ternary main_v36 main_v37 main_v33 main_v38 ((fun x i u => Host.scatterAdd scatter_S50000x1_S640000x1_S640000x1_1_0_0_1 x i u) : (⟨S50000x1, .f32⟩ : BufTy).Contents (Elt F) → (⟨S640000x1, .i32⟩ : BufTy).Contents (Elt F) → (⟨S640000x1, .f32⟩ : BufTy).Contents (Elt F) → (⟨S50000x1, .f32⟩ : BufTy).Contents (Elt F)),
    StableHlo.nullary main_cst_3 (constant S_ .f32 0x3F800000#32),
    StableHlo.TRef.unary (.of main_cst_3) main_call0.v0 id,
    StableHlo.TRef.unary main_call0.v0 main_call0.v1 (broadcastInDim S50000x1 ![] bcast_S_S50000x1),
    StableHlo.TRef.binary main_call0.v1 (.of main_v38) main_call0.v2 maximumf,
    StableHlo.unary main_v39 main_v40 (broadcastInDim S50000x128 ![0, 1] bcast_S50000x1_S50000x128_0_1 : (⟨S50000x1, .f32⟩ : BufTy).Contents (Elt F) → (⟨S50000x128, .f32⟩ : BufTy).Contents (Elt F)),
    StableHlo.binary main_v32 main_v40 main_v41 (Host.divf : (⟨S50000x128, .f32⟩ : BufTy).Contents (Elt F) → (⟨S50000x128, .f32⟩ : BufTy).Contents (Elt F) → (⟨S50000x128, .f32⟩ : BufTy).Contents (Elt F)),
    StableHlo.unary main_arg5 main_v42 ((extractStridedSlice S1x640000 ![0, 0] · slices_S2x640000_S1x640000_0_0) : (⟨S2x640000, .i32⟩ : BufTy).Contents (Elt F) → (⟨S1x640000, .i32⟩ : BufTy).Contents (Elt F)),
    StableHlo.reshape main_v42 main_v43 rfl shapeCasts_S1x640000_S640000,
    StableHlo.nullary main_c_4 (constantI S_ 32 0#32),
    StableHlo.unary main_c_4 main_v44 (broadcastInDim S640000 ![] bcast_S_S640000 : (⟨S_, .i32⟩ : BufTy).Contents (Elt F) → (⟨S640000, .i32⟩ : BufTy).Contents (Elt F)),
    StableHlo.binary main_v43 main_v44 main_v45 (cmpi .slt : (⟨S640000, .i32⟩ : BufTy).Contents (Elt F) → (⟨S640000, .i32⟩ : BufTy).Contents (Elt F) → (⟨S640000, .i1⟩ : BufTy).Contents (Elt F)),
    StableHlo.nullary main_c_5 (constantI S_ 32 100000#32),
    StableHlo.unary main_c_5 main_v46 (broadcastInDim S640000 ![] bcast_S_S640000 : (⟨S_, .i32⟩ : BufTy).Contents (Elt F) → (⟨S640000, .i32⟩ : BufTy).Contents (Elt F)),
    StableHlo.binary main_v43 main_v46 main_v47 (addi : (⟨S640000, .i32⟩ : BufTy).Contents (Elt F) → (⟨S640000, .i32⟩ : BufTy).Contents (Elt F) → (⟨S640000, .i32⟩ : BufTy).Contents (Elt F)),
    StableHlo.ternary main_v45 main_v47 main_v43 main_v48 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v48 main_v49 (broadcastInDim S640000x1 ![0] bcast_S640000_S640000x1_0 : (⟨S640000, .i32⟩ : BufTy).Contents (Elt F) → (⟨S640000x1, .i32⟩ : BufTy).Contents (Elt F)),
    StableHlo.binary main_v7 main_v49 main_v50 ((fun x i => Host.gather gather_S100000x128_S640000x1_S640000x128_1_0_n_n_0_1_1128 x i) : (⟨S100000x128, .f32⟩ : BufTy).Contents (Elt F) → (⟨S640000x1, .i32⟩ : BufTy).Contents (Elt F) → (⟨S640000x128, .f32⟩ : BufTy).Contents (Elt F)),
    StableHlo.binary main_v50 main_v17 main_v51 ((fun l r => Host.dotGeneral dot_S640000x128_S128x128_S640000x128_1_0_0_1_n_n none l r) : (⟨S640000x128, .f32⟩ : BufTy).Contents (Elt F) → (⟨S128x128, .f32⟩ : BufTy).Contents (Elt F) → (⟨S640000x128, .f32⟩ : BufTy).Contents (Elt F)) ]

set_option maxRecDepth 8192 in
set_option maxHeartbeats 4000000 in
/-- The part is that straight line: the called functions unfolded at their calls, both sides are one chain of
    operation steps once sequencing is reassociated. -/
theorem part0_eq (c : Dev nD) : main_part0 (F := F) c = seq ops0 := by
  simp only [main_part0, fn_clip.body, fn_elu.body, fn_where.body, fn_where_0.body, seq, bind_assoc, pure_bind, bind_pure_unit] <;> rfl

/-- Every operation touches TensorCore buffers only. -/
theorem ops0_sub : (ops0 : List (HloOp τ sig (Elt F))).Forall fun op => op.bufs ⊆ tcRefs τ sig :=
  ⟨binary_bufs_sub .., unary_bufs_sub .., unary_bufs_sub .., binary_bufs_sub .., binary_bufs_sub .., unary_bufs_sub .., unary_bufs_sub .., binary_bufs_sub .., binary_bufs_sub .., unary_bufs_sub .., unary_bufs_sub .., binary_bufs_sub .., binary_bufs_sub .., unary_bufs_sub .., unary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., reshape_bufs_sub .., nullary_bufs_sub .., unary_bufs_sub .., unary_bufs_sub .., ternary_bufs_sub .., nullary_bufs_sub .., unary_bufs_sub .., unary_bufs_sub .., reshape_bufs_sub .., nullary_bufs_sub .., unary_bufs_sub .., unary_bufs_sub .., ternary_bufs_sub .., nullary_bufs_sub .., unary_bufs_sub .., unary_bufs_sub .., binary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

/-- Every operation determines its results. -/
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Cert.ReferenceIdeal.RefRun

end
-- ==== Proof.RefOps1.lean ====
/-
  Statements 61 … 120 of the reference's @main as a list of operations, in order.  A call of a module-local
  function is that function's body over the call's own buffers: the clipping function is three operations (its
  scalar bound converted, broadcast, the elementwise maximum), the ELU function fifteen (three scalar zeros, two
  comparisons with zero, the inner selection's three, the exponential minus one, the scalar one and its
  broadcast, the product, the outer selection).  The part of @main is the straight line of these operations.
-/
import proofs.«168040_j41652592837487_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of statements 61 … 120, in order. -/
abbrev ops1 : List (HloOp τ sig (Elt F)) :=
  [
    StableHlo.unary main_arg5 main_v52 ((extractStridedSlice S1x640000 ![1, 0] · slices_S2x640000_S1x640000_1_0) : (⟨S2x640000, .i32⟩ : BufTy).Contents (Elt F) → (⟨S1x640000, .i32⟩ : BufTy).Contents (Elt F)),
    StableHlo.reshape main_v52 main_v53 rfl shapeCasts_S1x640000_S640000,
    StableHlo.nullary main_cst_6 (constant S_ .f32 0x00000000#32),
    StableHlo.unary main_cst_6 main_v54 (broadcastInDim S50000x128 ![] bcast_S_S50000x128 : (⟨S_, .f32⟩ : BufTy).Contents (Elt F) → (⟨S50000x128, .f32⟩ : BufTy).Contents (Elt F)),
    StableHlo.unary main_v53 main_v55 (broadcastInDim S640000x1 ![0] bcast_S640000_S640000x1_0 : (⟨S640000, .i32⟩ : BufTy).Contents (Elt F) → (⟨S640000x1, .i32⟩ : BufTy).Contents (Elt F)),
    StableHlo.ternary main_v54 main_v55 main_v51 main_v56 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)),
    StableHlo.nullary main_cst_7 (constant S_ .f32 0x3F800000#32),
    StableHlo.unary main_cst_7 main_v57 (broadcastInDim S640000x1 ![] bcast_S_S640000x1 : (⟨S_, .f32⟩ : BufTy).Contents (Elt F) → (⟨S640000x1, .f32⟩ : BufTy).Contents (Elt F)),
    StableHlo.unary main_arg5 main_v58 ((extractStridedSlice S1x640000 ![1, 0] · slices_S2x640000_S1x640000_1_0) : (⟨S2x640000, .i32⟩ : BufTy).Contents (Elt F) → (⟨S1x640000, .i32⟩ : BufTy).Contents (Elt F)),
    StableHlo.reshape main_v58 main_v59 rfl shapeCasts_S1x640000_S640000,
    StableHlo.nullary main_cst_8 (constant S_ .f32 0x00000000#32),
    StableHlo.unary main_cst_8 main_v60 (broadcastInDim S50000x1 ![] bcast_S_S50000x1 : (⟨S_, .f32⟩ : BufTy).Contents (Elt F) → (⟨S50000x1, .f32⟩ : BufTy).Contents (Elt F)),
    StableHlo.unary main_v59 main_v61 (broadcastInDim S640000x1 ![0] bcast_S640000_S640000x1_0 : (⟨S640000, .i32⟩ : BufTy).Contents (Elt F) → (⟨S640000x1, .i32⟩ : BufTy).Contents (Elt F)),
    StableHlo.ternary main_v60 main_v61 main_v57 main_v62 ((fun x i u => Host.scatterAdd scatter_S50000x1_S640000x1_S640000x1_1_0_0_1 x i u) : (⟨S50000x1, .f32⟩ : BufTy).Contents (Elt F) → (⟨S640000x1, .i32⟩ : BufTy).Contents (Elt F) → (⟨S640000x1, .f32⟩ : BufTy).Contents (Elt F) → (⟨S50000x1, .f32⟩ : BufTy).Contents (Elt F)),
    StableHlo.nullary main_cst_9 (constant S_ .f32 0x3F800000#32),
    StableHlo.TRef.unary (.of main_cst_9) main_call1.v0 id,
    StableHlo.TRef.unary main_call1.v0 main_call1.v1 (broadcastInDim S50000x1 ![] bcast_S_S50000x1),
    StableHlo.TRef.binary main_call1.v1 (.of main_v62) main_call1.v2 maximumf,
    StableHlo.unary main_v63 main_v64 (broadcastInDim S50000x128 ![0, 1] bcast_S50000x1_S50000x128_0_1 : (⟨S50000x1, .f32⟩ : BufTy).Contents (Elt F) → (⟨S50000x128, .f32⟩ : BufTy).Contents (Elt F)),
    StableHlo.binary main_v56 main_v64 main_v65 (Host.divf : (⟨S50000x128, .f32⟩ : BufTy).Contents (Elt F) → (⟨S50000x128, .f32⟩ : BufTy).Contents (Elt F) → (⟨S50000x128, .f32⟩ : BufTy).Contents (Elt F)),
    StableHlo.unary main_arg6 main_v66 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v66 main_v67 rfl shapeCasts_S1x320000_S320000,
    StableHlo.nullary main_c_10 (constantI S_ 32 0#32),
    StableHlo.unary main_c_10 main_v68 (broadcastInDim S320000 ![] bcast_S_S320000 : (⟨S_, .i32⟩ : BufTy).Contents (Elt F) → (⟨S320000, .i32⟩ : BufTy).Contents (Elt F)),
    StableHlo.binary main_v67 main_v68 main_v69 (cmpi .slt : (⟨S320000, .i32⟩ : BufTy).Contents (Elt F) → (⟨S320000, .i32⟩ : BufTy).Contents (Elt F) → (⟨S320000, .i1⟩ : BufTy).Contents (Elt F)),
    StableHlo.nullary main_c_11 (constantI S_ 32 50000#32),
    StableHlo.unary main_c_11 main_v70 (broadcastInDim S320000 ![] bcast_S_S320000 : (⟨S_, .i32⟩ : BufTy).Contents (Elt F) → (⟨S320000, .i32⟩ : BufTy).Contents (Elt F)),
    StableHlo.binary main_v67 main_v70 main_v71 (addi : (⟨S320000, .i32⟩ : BufTy).Contents (Elt F) → (⟨S320000, .i32⟩ : BufTy).Contents (Elt F) → (⟨S320000, .i32⟩ : BufTy).Contents (Elt F)),
    StableHlo.ternary main_v69 main_v71 main_v67 main_v72 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v72 main_v73 (broadcastInDim S320000x1 ![0] bcast_S320000_S320000x1_0 : (⟨S320000, .i32⟩ : BufTy).Contents (Elt F) → (⟨S320000x1, .i32⟩ : BufTy).Contents (Elt F)),
    StableHlo.binary main_v11 main_v73 main_v74 ((fun x i => Host.gather gather_S50000x128_S320000x1_S320000x128_1_0_n_n_0_1_1128 x i) : (⟨S50000x128, .f32⟩ : BufTy).Contents (Elt F) → (⟨S320000x1, .i32⟩ : BufTy).Contents (Elt F) → (⟨S320000x128, .f32⟩ : BufTy).Contents (Elt F)),
    StableHlo.binary main_v74 main_v17 main_v75 ((fun l r => Host.dotGeneral dot_S320000x128_S128x128_S320000x128_1_0_0_1_n_n none l r) : (⟨S320000x128, .f32⟩ : BufTy).Contents (Elt F) → (⟨S128x128, .f32⟩ : BufTy).Contents (Elt F) → (⟨S320000x128, .f32⟩ : BufTy).Contents (Elt F)),
    StableHlo.unary main_arg6 main_v76 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v76 main_v77 rfl shapeCasts_S1x320000_S320000,
    StableHlo.nullary main_cst_12 (constant S_ .f32 0x00000000#32),
    StableHlo.unary main_cst_12 main_v78 (broadcastInDim S50000x128 ![] bcast_S_S50000x128 : (⟨S_, .f32⟩ : BufTy).Contents (Elt F) → (⟨S50000x128, .f32⟩ : BufTy).Contents (Elt F)),
    StableHlo.unary main_v77 main_v79 (broadcastInDim S320000x1 ![0] bcast_S320000_S320000x1_0 : (⟨S320000, .i32⟩ : BufTy).Contents (Elt F) → (⟨S320000x1, .i32⟩ : BufTy).Contents (Elt F)),
    StableHlo.ternary main_v78 main_v79 main_v75 main_v80 ((fun x i u => Host.scatterAdd scatter_S50000x128_S320000x1_S320000x128_1_0_0_1 x i u) : (⟨S50000x128, .f32⟩ : BufTy).Contents (Elt F) → (⟨S320000x1, .i32⟩ : BufTy).Contents (Elt F) → (⟨S320000x128, .f32⟩ : BufTy).Contents (Elt F) → (⟨S50000x128, .f32⟩ : BufTy).Contents (Elt F)),
    StableHlo.nullary main_cst_13 (constant S_ .f32 0x3F800000#32),
    StableHlo.unary main_cst_13 main_v81 (broadcastInDim S320000x1 ![] bcast_S_S320000x1 : (⟨S_, .f32⟩ : BufTy).Contents (Elt F) → (⟨S320000x1, .f32⟩ : BufTy).Contents (Elt F)),
    StableHlo.unary main_arg6 main_v82 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v82 main_v83 rfl shapeCasts_S1x320000_S320000,
    StableHlo.nullary main_cst_14 (constant S_ .f32 0x00000000#32),
    StableHlo.unary main_cst_14 main_v84 (broadcastInDim S50000x1 ![] bcast_S_S50000x1 : (⟨S_, .f32⟩ : BufTy).Contents (Elt F) → (⟨S50000x1, .f32⟩ : BufTy).Contents (Elt F)),
    StableHlo.unary main_v83 main_v85 (broadcastInDim S320000x1 ![0] bcast_S320000_S320000x1_0 : (⟨S320000, .i32⟩ : BufTy).Contents (Elt F) → (⟨S320000x1, .i32⟩ : BufTy).Contents (Elt F)),
    StableHlo.ternary main_v84 main_v85 main_v81 main_v86 ((fun x i u => Host.scatterAdd scatter_S50000x1_S320000x1_S320000x1_1_0_0_1 x i u) : (⟨S50000x1, .f32⟩ : BufTy).Contents (Elt F) → (⟨S320000x1, .i32⟩ : BufTy).Contents (Elt F) → (⟨S320000x1, .f32⟩ : BufTy).Contents (Elt F) → (⟨S50000x1, .f32⟩ : BufTy).Contents (Elt F)),
    StableHlo.nullary main_cst_15 (constant S_ .f32 0x3F800000#32),
    StableHlo.TRef.unary (.of main_cst_15) main_call2.v0 id,
    StableHlo.TRef.unary main_call2.v0 main_call2.v1 (broadcastInDim S50000x1 ![] bcast_S_S50000x1),
    StableHlo.TRef.binary main_call2.v1 (.of main_v86) main_call2.v2 maximumf,
    StableHlo.unary main_v87 main_v88 (broadcastInDim S50000x128 ![0, 1] bcast_S50000x1_S50000x128_0_1 : (⟨S50000x1, .f32⟩ : BufTy).Contents (Elt F) → (⟨S50000x128, .f32⟩ : BufTy).Contents (Elt F)),
    StableHlo.binary main_v80 main_v88 main_v89 (Host.divf : (⟨S50000x128, .f32⟩ : BufTy).Contents (Elt F) → (⟨S50000x128, .f32⟩ : BufTy).Contents (Elt F) → (⟨S50000x128, .f32⟩ : BufTy).Contents (Elt F)),
    StableHlo.unary main_arg7 main_v90 ((extractStridedSlice S1x160000 ![0, 0] · slices_S2x160000_S1x160000_0_0) : (⟨S2x160000, .i32⟩ : BufTy).Contents (Elt F) → (⟨S1x160000, .i32⟩ : BufTy).Contents (Elt F)),
    StableHlo.reshape main_v90 main_v91 rfl shapeCasts_S1x160000_S160000,
    StableHlo.nullary main_c_16 (constantI S_ 32 0#32),
    StableHlo.unary main_c_16 main_v92 (broadcastInDim S160000 ![] bcast_S_S160000 : (⟨S_, .i32⟩ : BufTy).Contents (Elt F) → (⟨S160000, .i32⟩ : BufTy).Contents (Elt F)),
    StableHlo.binary main_v91 main_v92 main_v93 (cmpi .slt : (⟨S160000, .i32⟩ : BufTy).Contents (Elt F) → (⟨S160000, .i32⟩ : BufTy).Contents (Elt F) → (⟨S160000, .i1⟩ : BufTy).Contents (Elt F)),
    StableHlo.nullary main_c_17 (constantI S_ 32 20000#32),
    StableHlo.unary main_c_17 main_v94 (broadcastInDim S160000 ![] bcast_S_S160000 : (⟨S_, .i32⟩ : BufTy).Contents (Elt F) → (⟨S160000, .i32⟩ : BufTy).Contents (Elt F)),
    StableHlo.binary main_v91 main_v94 main_v95 (addi : (⟨S160000, .i32⟩ : BufTy).Contents (Elt F) → (⟨S160000, .i32⟩ : BufTy).Contents (Elt F) → (⟨S160000, .i32⟩ : BufTy).Contents (Elt F)),
    StableHlo.ternary main_v93 main_v95 main_v91 main_v96 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    StableHlo.unary main_v96 main_v97 (broadcastInDim S160000x1 ![0] bcast_S160000_S160000x1_0 : (⟨S160000, .i32⟩ : BufTy).Contents (Elt F) → (⟨S160000x1, .i32⟩ : BufTy).Contents (Elt F)),
    StableHlo.binary main_v15 main_v97 main_v98 ((fun x i => Host.gather gather_S20000x128_S160000x1_S160000x128_1_0_n_n_0_1_1128 x i) : (⟨S20000x128, .f32⟩ : BufTy).Contents (Elt F) → (⟨S160000x1, .i32⟩ : BufTy).Contents (Elt F) → (⟨S160000x128, .f32⟩ : BufTy).Contents (Elt F)),
    StableHlo.binary main_v98 main_v17 main_v99 ((fun l r => Host.dotGeneral dot_S160000x128_S128x128_S160000x128_1_0_0_1_n_n none l r) : (⟨S160000x128, .f32⟩ : BufTy).Contents (Elt F) → (⟨S128x128, .f32⟩ : BufTy).Contents (Elt F) → (⟨S160000x128, .f32⟩ : BufTy).Contents (Elt F)) ]

set_option maxRecDepth 8192 in
set_option maxHeartbeats 4000000 in
/-- The part is that straight line: the called functions unfolded at their calls, both sides are one chain of
    operation steps once sequencing is reassociated. -/
theorem part1_eq (c : Dev nD) : main_part1 (F := F) c = seq ops1 := by
  simp only [main_part1, fn_clip.body, fn_elu.body, fn_where.body, fn_where_0.body, seq, bind_assoc, pure_bind, bind_pure_unit] <;> rfl

/-- Every operation touches TensorCore buffers only. -/
theorem ops1_sub : (ops1 : List (HloOp τ sig (Elt F))).Forall fun op => op.bufs ⊆ tcRefs τ sig :=
  ⟨unary_bufs_sub .., reshape_bufs_sub .., nullary_bufs_sub .., unary_bufs_sub .., unary_bufs_sub .., ternary_bufs_sub .., nullary_bufs_sub .., unary_bufs_sub .., unary_bufs_sub .., reshape_bufs_sub .., nullary_bufs_sub .., unary_bufs_sub .., unary_bufs_sub .., ternary_bufs_sub .., nullary_bufs_sub .., unary_bufs_sub .., unary_bufs_sub .., binary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., reshape_bufs_sub .., nullary_bufs_sub .., unary_bufs_sub .., unary_bufs_sub .., ternary_bufs_sub .., nullary_bufs_sub .., unary_bufs_sub .., unary_bufs_sub .., reshape_bufs_sub .., nullary_bufs_sub .., unary_bufs_sub .., unary_bufs_sub .., ternary_bufs_sub .., nullary_bufs_sub .., unary_bufs_sub .., unary_bufs_sub .., binary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

/-- Every operation determines its results. -/
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Cert.ReferenceIdeal.RefRun

end
-- ==== Proof.RefOps2.lean ====
/-
  Statements 121 … 180 of the reference's @main as a list of operations, in order.  A call of a module-local
  function is that function's body over the call's own buffers: the clipping function is three operations (its
  scalar bound converted, broadcast, the elementwise maximum), the ELU function fifteen (three scalar zeros, two
  comparisons with zero, the inner selection's three, the exponential minus one, the scalar one and its
  broadcast, the product, the outer selection).  The part of @main is the straight line of these operations.
-/
import proofs.«168040_j41652592837487_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of statements 121 … 180, in order. -/
abbrev ops2 : List (HloOp τ sig (Elt F)) :=
  [
    StableHlo.unary main_arg7 main_v100 ((extractStridedSlice S1x160000 ![1, 0] · slices_S2x160000_S1x160000_1_0) : (⟨S2x160000, .i32⟩ : BufTy).Contents (Elt F) → (⟨S1x160000, .i32⟩ : BufTy).Contents (Elt F)),
    StableHlo.reshape main_v100 main_v101 rfl shapeCasts_S1x160000_S160000,
    StableHlo.nullary main_cst_18 (constant S_ .f32 0x00000000#32),
    StableHlo.unary main_cst_18 main_v102 (broadcastInDim S50000x128 ![] bcast_S_S50000x128 : (⟨S_, .f32⟩ : BufTy).Contents (Elt F) → (⟨S50000x128, .f32⟩ : BufTy).Contents (Elt F)),
    StableHlo.unary main_v101 main_v103 (broadcastInDim S160000x1 ![0] bcast_S160000_S160000x1_0 : (⟨S160000, .i32⟩ : BufTy).Contents (Elt F) → (⟨S160000x1, .i32⟩ : BufTy).Contents (Elt F)),
    StableHlo.ternary main_v102 main_v103 main_v99 main_v104 ((fun x i u => Host.scatterAdd scatter_S50000x128_S160000x1_S160000x128_1_0_0_1 x i u) : (⟨S50000x128, .f32⟩ : BufTy).Contents (Elt F) → (⟨S160000x1, .i32⟩ : BufTy).Contents (Elt F) → (⟨S160000x128, .f32⟩ : BufTy).Contents (Elt F) → (⟨S50000x128, .f32⟩ : BufTy).Contents (Elt F)),
    StableHlo.nullary main_cst_19 (constant S_ .f32 0x3F800000#32),
    StableHlo.unary main_cst_19 main_v105 (broadcastInDim S160000x1 ![] bcast_S_S160000x1 : (⟨S_, .f32⟩ : BufTy).Contents (Elt F) → (⟨S160000x1, .f32⟩ : BufTy).Contents (Elt F)),
    StableHlo.unary main_arg7 main_v106 ((extractStridedSlice S1x160000 ![1, 0] · slices_S2x160000_S1x160000_1_0) : (⟨S2x160000, .i32⟩ : BufTy).Contents (Elt F) → (⟨S1x160000, .i32⟩ : BufTy).Contents (Elt F)),
    StableHlo.reshape main_v106 main_v107 rfl shapeCasts_S1x160000_S160000,
    StableHlo.nullary main_cst_20 (constant S_ .f32 0x00000000#32),
    StableHlo.unary main_cst_20 main_v108 (broadcastInDim S50000x1 ![] bcast_S_S50000x1 : (⟨S_, .f32⟩ : BufTy).Contents (Elt F) → (⟨S50000x1, .f32⟩ : BufTy).Contents (Elt F)),
    StableHlo.unary main_v107 main_v109 (broadcastInDim S160000x1 ![0] bcast_S160000_S160000x1_0 : (⟨S160000, .i32⟩ : BufTy).Contents (Elt F) → (⟨S160000x1, .i32⟩ : BufTy).Contents (Elt F)),
    StableHlo.ternary main_v108 main_v109 main_v105 main_v110 ((fun x i u => Host.scatterAdd scatter_S50000x1_S160000x1_S160000x1_1_0_0_1 x i u) : (⟨S50000x1, .f32⟩ : BufTy).Contents (Elt F) → (⟨S160000x1, .i32⟩ : BufTy).Contents (Elt F) → (⟨S160000x1, .f32⟩ : BufTy).Contents (Elt F) → (⟨S50000x1, .f32⟩ : BufTy).Contents (Elt F)),
    StableHlo.nullary main_cst_21 (constant S_ .f32 0x3F800000#32),
    StableHlo.TRef.unary (.of main_cst_21) main_call3.v0 id,
    StableHlo.TRef.unary main_call3.v0 main_call3.v1 (broadcastInDim S50000x1 ![] bcast_S_S50000x1),
    StableHlo.TRef.binary main_call3.v1 (.of main_v110) main_call3.v2 maximumf,
    StableHlo.unary main_v111 main_v112 (broadcastInDim S50000x128 ![0, 1] bcast_S50000x1_S50000x128_0_1 : (⟨S50000x1, .f32⟩ : BufTy).Contents (Elt F) → (⟨S50000x128, .f32⟩ : BufTy).Contents (Elt F)),
    StableHlo.binary main_v104 main_v112 main_v113 (Host.divf : (⟨S50000x128, .f32⟩ : BufTy).Contents (Elt F) → (⟨S50000x128, .f32⟩ : BufTy).Contents (Elt F) → (⟨S50000x128, .f32⟩ : BufTy).Contents (Elt F)),
    StableHlo.unary main_arg16 main_v114 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v114 main_v115 rfl shapeCasts_S1x128x128_S128x128,
    StableHlo.binary main_v3 main_v115 main_v116 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg17 main_v117 ((extractStridedSlice S1x128 ![0, 0] · slices_S3x128_S1x128_0_0) : (⟨S3x128, .f32⟩ : BufTy).Contents (Elt F) → (⟨S1x128, .f32⟩ : BufTy).Contents (Elt F)),
    StableHlo.reshape main_v117 main_v118 rfl shapeCasts_S1x128_S128,
    StableHlo.unary main_v118 main_v119 (broadcastInDim S1x128 ![1] bcast_S128_S1x128_1 : (⟨S128, .f32⟩ : BufTy).Contents (Elt F) → (⟨S1x128, .f32⟩ : BufTy).Contents (Elt F)),
    StableHlo.unary main_v119 main_v120 (broadcastInDim S50000x128 ![0, 1] bcast_S1x128_S50000x128_0_1 : (⟨S1x128, .f32⟩ : BufTy).Contents (Elt F) → (⟨S50000x128, .f32⟩ : BufTy).Contents (Elt F)),
    StableHlo.binary main_v116 main_v120 main_v121 (addf : (⟨S50000x128, .f32⟩ : BufTy).Contents (Elt F) → (⟨S50000x128, .f32⟩ : BufTy).Contents (Elt F) → (⟨S50000x128, .f32⟩ : BufTy).Contents (Elt F)),
    StableHlo.binary main_v121 main_v41 main_v122 (addf : (⟨S50000x128, .f32⟩ : BufTy).Contents (Elt F) → (⟨S50000x128, .f32⟩ : BufTy).Contents (Elt F) → (⟨S50000x128, .f32⟩ : BufTy).Contents (Elt F)),
    StableHlo.binary main_v122 main_v65 main_v123 (addf : (⟨S50000x128, .f32⟩ : BufTy).Contents (Elt F) → (⟨S50000x128, .f32⟩ : BufTy).Contents (Elt F) → (⟨S50000x128, .f32⟩ : BufTy).Contents (Elt F)),
    StableHlo.binary main_v123 main_v89 main_v124 (addf : (⟨S50000x128, .f32⟩ : BufTy).Contents (Elt F) → (⟨S50000x128, .f32⟩ : BufTy).Contents (Elt F) → (⟨S50000x128, .f32⟩ : BufTy).Contents (Elt F)),
    StableHlo.binary main_v124 main_v113 main_v125 (addf : (⟨S50000x128, .f32⟩ : BufTy).Contents (Elt F) → (⟨S50000x128, .f32⟩ : BufTy).Contents (Elt F) → (⟨S50000x128, .f32⟩ : BufTy).Contents (Elt F)),
    StableHlo.TRef.nullary main_call4.cst (constant S_ .f32 0x00000000#32),
    StableHlo.TRef.unary main_call4.cst main_call4.v0 (broadcastInDim S50000x128 ![] bcast_S_S50000x128),
    StableHlo.TRef.binary (.of main_v125) main_call4.v0 main_call4.v1 (cmpf .ogt),
    StableHlo.TRef.nullary main_call4.cst_0 (constant S_ .f32 0x00000000#32),
    StableHlo.TRef.unary main_call4.cst_0 main_call4.v2 (broadcastInDim S50000x128 ![] bcast_S_S50000x128),
    StableHlo.TRef.binary (.of main_v125) main_call4.v2 main_call4.v3 (cmpf .ogt),
    StableHlo.TRef.nullary main_call4.cst_1 (constant S_ .f32 0x00000000#32),
    StableHlo.TRef.unary main_call4.cst_1 main_call4.call0.v0 id,
    StableHlo.TRef.unary main_call4.call0.v0 main_call4.call0.v1 (broadcastInDim S50000x128 ![] bcast_S_S50000x128),
    StableHlo.TRef.ternary main_call4.v3 main_call4.call0.v1 (.of main_v125) main_call4.call0.v2 select,
    StableHlo.TRef.unary main_call4.call0.v2 main_call4.v5 Host.expm1,
    StableHlo.TRef.nullary main_call4.cst_2 (constant S_ .f32 0x3F800000#32),
    StableHlo.TRef.unary main_call4.cst_2 main_call4.v6 (broadcastInDim S50000x128 ![] bcast_S_S50000x128),
    StableHlo.TRef.binary main_call4.v6 main_call4.v5 main_call4.v7 mulf,
    StableHlo.TRef.ternary main_call4.v1 (.of main_v125) main_call4.v7 main_call4.call1.v0 select,
    StableHlo.unary main_arg18 main_v127 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v127 main_v128 rfl shapeCasts_S1x128x128_S128x128,
    StableHlo.unary main_arg4 main_v129 ((extractStridedSlice S1x640000 ![0, 0] · slices_S2x640000_S1x640000_0_0) : (⟨S2x640000, .i32⟩ : BufTy).Contents (Elt F) → (⟨S1x640000, .i32⟩ : BufTy).Contents (Elt F)),
    StableHlo.reshape main_v129 main_v130 rfl shapeCasts_S1x640000_S640000,
    StableHlo.nullary main_c_22 (constantI S_ 32 0#32),
    StableHlo.unary main_c_22 main_v131 (broadcastInDim S640000 ![] bcast_S_S640000 : (⟨S_, .i32⟩ : BufTy).Contents (Elt F) → (⟨S640000, .i32⟩ : BufTy).Contents (Elt F)),
    StableHlo.binary main_v130 main_v131 main_v132 (cmpi .slt : (⟨S640000, .i32⟩ : BufTy).Contents (Elt F) → (⟨S640000, .i32⟩ : BufTy).Contents (Elt F) → (⟨S640000, .i1⟩ : BufTy).Contents (Elt F)),
    StableHlo.nullary main_c_23 (constantI S_ 32 50000#32),
    StableHlo.unary main_c_23 main_v133 (broadcastInDim S640000 ![] bcast_S_S640000 : (⟨S_, .i32⟩ : BufTy).Contents (Elt F) → (⟨S640000, .i32⟩ : BufTy).Contents (Elt F)),
    StableHlo.binary main_v130 main_v133 main_v134 (addi : (⟨S640000, .i32⟩ : BufTy).Contents (Elt F) → (⟨S640000, .i32⟩ : BufTy).Contents (Elt F) → (⟨S640000, .i32⟩ : BufTy).Contents (Elt F)),
    StableHlo.ternary main_v132 main_v134 main_v130 main_v135 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v135 main_v136 (broadcastInDim S640000x1 ![0] bcast_S640000_S640000x1_0 : (⟨S640000, .i32⟩ : BufTy).Contents (Elt F) → (⟨S640000x1, .i32⟩ : BufTy).Contents (Elt F)),
    StableHlo.binary main_v126 main_v136 main_v137 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    StableHlo.binary main_v137 main_v128 main_v138 ((fun l r => Host.dotGeneral dot_S640000x128_S128x128_S640000x128_1_0_0_1_n_n none l r) : (⟨S640000x128, .f32⟩ : BufTy).Contents (Elt F) → (⟨S128x128, .f32⟩ : BufTy).Contents (Elt F) → (⟨S640000x128, .f32⟩ : BufTy).Contents (Elt F)),
    StableHlo.unary main_arg4 main_v139 ((extractStridedSlice S1x640000 ![1, 0] · slices_S2x640000_S1x640000_1_0) : (⟨S2x640000, .i32⟩ : BufTy).Contents (Elt F) → (⟨S1x640000, .i32⟩ : BufTy).Contents (Elt F)),
    StableHlo.reshape main_v139 main_v140 rfl shapeCasts_S1x640000_S640000,
    StableHlo.nullary main_cst_24 (constant S_ .f32 0x00000000#32),
    StableHlo.unary main_cst_24 main_v141 (broadcastInDim S50000x128 ![] bcast_S_S50000x128 : (⟨S_, .f32⟩ : BufTy).Contents (Elt F) → (⟨S50000x128, .f32⟩ : BufTy).Contents (Elt F)),
    StableHlo.unary main_v140 main_v142 (broadcastInDim S640000x1 ![0] bcast_S640000_S640000x1_0 : (⟨S640000, .i32⟩ : BufTy).Contents (Elt F) → (⟨S640000x1, .i32⟩ : BufTy).Contents (Elt F)),
    StableHlo.ternary main_v141 main_v142 main_v138 main_v143 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)),
    StableHlo.nullary main_cst_25 (constant S_ .f32 0x3F800000#32),
    StableHlo.unary main_cst_25 main_v144 (broadcastInDim S640000x1 ![] bcast_S_S640000x1 : (⟨S_, .f32⟩ : BufTy).Contents (Elt F) → (⟨S640000x1, .f32⟩ : BufTy).Contents (Elt F)),
    StableHlo.unary main_arg4 main_v145 ((extractStridedSlice S1x640000 ![1, 0] · slices_S2x640000_S1x640000_1_0) : (⟨S2x640000, .i32⟩ : BufTy).Contents (Elt F) → (⟨S1x640000, .i32⟩ : BufTy).Contents (Elt F)),
    StableHlo.reshape main_v145 main_v146 rfl shapeCasts_S1x640000_S640000,
    StableHlo.nullary main_cst_26 (constant S_ .f32 0x00000000#32),
    StableHlo.unary main_cst_26 main_v147 (broadcastInDim S50000x1 ![] bcast_S_S50000x1 : (⟨S_, .f32⟩ : BufTy).Contents (Elt F) → (⟨S50000x1, .f32⟩ : BufTy).Contents (Elt F)),
    StableHlo.unary main_v146 main_v148 (broadcastInDim S640000x1 ![0] bcast_S640000_S640000x1_0 : (⟨S640000, .i32⟩ : BufTy).Contents (Elt F) → (⟨S640000x1, .i32⟩ : BufTy).Contents (Elt F)),
    StableHlo.ternary main_v147 main_v148 main_v144 main_v149 ((fun x i u => Host.scatterAdd scatter_S50000x1_S640000x1_S640000x1_1_0_0_1 x i u) : (⟨S50000x1, .f32⟩ : BufTy).Contents (Elt F) → (⟨S640000x1, .i32⟩ : BufTy).Contents (Elt F) → (⟨S640000x1, .f32⟩ : BufTy).Contents (Elt F) → (⟨S50000x1, .f32⟩ : BufTy).Contents (Elt F)),
    StableHlo.nullary main_cst_27 (constant S_ .f32 0x3F800000#32) ]

set_option maxRecDepth 8192 in
set_option maxHeartbeats 4000000 in
/-- The part is that straight line: the called functions unfolded at their calls, both sides are one chain of
    operation steps once sequencing is reassociated. -/
theorem part2_eq (c : Dev nD) : main_part2 (F := F) c = seq ops2 := by
  simp only [main_part2, fn_clip.body, fn_elu.body, fn_where.body, fn_where_0.body, seq, bind_assoc, pure_bind, bind_pure_unit] <;> rfl

/-- Every operation touches TensorCore buffers only. -/
theorem ops2_sub : (ops2 : List (HloOp τ sig (Elt F))).Forall fun op => op.bufs ⊆ tcRefs τ sig :=
  ⟨unary_bufs_sub .., reshape_bufs_sub .., nullary_bufs_sub .., unary_bufs_sub .., unary_bufs_sub .., ternary_bufs_sub .., nullary_bufs_sub .., unary_bufs_sub .., unary_bufs_sub .., reshape_bufs_sub .., nullary_bufs_sub .., unary_bufs_sub .., unary_bufs_sub .., ternary_bufs_sub .., nullary_bufs_sub .., unary_bufs_sub .., unary_bufs_sub .., binary_bufs_sub .., unary_bufs_sub .., binary_bufs_sub .., unary_bufs_sub .., reshape_bufs_sub .., binary_bufs_sub .., unary_bufs_sub .., reshape_bufs_sub .., unary_bufs_sub .., unary_bufs_sub .., binary_bufs_sub .., binary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., reshape_bufs_sub .., nullary_bufs_sub .., unary_bufs_sub .., unary_bufs_sub .., ternary_bufs_sub .., nullary_bufs_sub .., unary_bufs_sub .., unary_bufs_sub .., reshape_bufs_sub .., nullary_bufs_sub .., unary_bufs_sub .., unary_bufs_sub .., ternary_bufs_sub .., nullary_bufs_sub ..⟩

/-- Every operation determines its results. -/
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Cert.ReferenceIdeal.RefRun

end
-- ==== Proof.RefOps3.lean ====
/-
  Statements 181 … 240 of the reference's @main as a list of operations, in order.  A call of a module-local
  function is that function's body over the call's own buffers: the clipping function is three operations (its
  scalar bound converted, broadcast, the elementwise maximum), the ELU function fifteen (three scalar zeros, two
  comparisons with zero, the inner selection's three, the exponential minus one, the scalar one and its
  broadcast, the product, the outer selection).  The part of @main is the straight line of these operations.
-/
import proofs.«168040_j41652592837487_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of statements 181 … 240, in order. -/
abbrev ops3 : List (HloOp τ sig (Elt F)) :=
  [
    StableHlo.TRef.unary (.of main_cst_27) main_call5.v0 id,
    StableHlo.TRef.unary main_call5.v0 main_call5.v1 (broadcastInDim S50000x1 ![] bcast_S_S50000x1),
    StableHlo.TRef.binary main_call5.v1 (.of main_v149) main_call5.v2 maximumf,
    StableHlo.unary main_v150 main_v151 (broadcastInDim S50000x128 ![0, 1] bcast_S50000x1_S50000x128_0_1 : (⟨S50000x1, .f32⟩ : BufTy).Contents (Elt F) → (⟨S50000x128, .f32⟩ : BufTy).Contents (Elt F)),
    StableHlo.binary main_v143 main_v151 main_v152 (Host.divf : (⟨S50000x128, .f32⟩ : BufTy).Contents (Elt F) → (⟨S50000x128, .f32⟩ : BufTy).Contents (Elt F) → (⟨S50000x128, .f32⟩ : BufTy).Contents (Elt F)),
    StableHlo.unary main_arg5 main_v153 ((extractStridedSlice S1x640000 ![0, 0] · slices_S2x640000_S1x640000_0_0) : (⟨S2x640000, .i32⟩ : BufTy).Contents (Elt F) → (⟨S1x640000, .i32⟩ : BufTy).Contents (Elt F)),
    StableHlo.reshape main_v153 main_v154 rfl shapeCasts_S1x640000_S640000,
    StableHlo.nullary main_c_28 (constantI S_ 32 0#32),
    StableHlo.unary main_c_28 main_v155 (broadcastInDim S640000 ![] bcast_S_S640000 : (⟨S_, .i32⟩ : BufTy).Contents (Elt F) → (⟨S640000, .i32⟩ : BufTy).Contents (Elt F)),
    StableHlo.binary main_v154 main_v155 main_v156 (cmpi .slt : (⟨S640000, .i32⟩ : BufTy).Contents (Elt F) → (⟨S640000, .i32⟩ : BufTy).Contents (Elt F) → (⟨S640000, .i1⟩ : BufTy).Contents (Elt F)),
    StableHlo.nullary main_c_29 (constantI S_ 32 100000#32),
    StableHlo.unary main_c_29 main_v157 (broadcastInDim S640000 ![] bcast_S_S640000 : (⟨S_, .i32⟩ : BufTy).Contents (Elt F) → (⟨S640000, .i32⟩ : BufTy).Contents (Elt F)),
    StableHlo.binary main_v154 main_v157 main_v158 (addi : (⟨S640000, .i32⟩ : BufTy).Contents (Elt F) → (⟨S640000, .i32⟩ : BufTy).Contents (Elt F) → (⟨S640000, .i32⟩ : BufTy).Contents (Elt F)),
    StableHlo.ternary main_v156 main_v158 main_v154 main_v159 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v159 main_v160 (broadcastInDim S640000x1 ![0] bcast_S640000_S640000x1_0 : (⟨S640000, .i32⟩ : BufTy).Contents (Elt F) → (⟨S640000x1, .i32⟩ : BufTy).Contents (Elt F)),
    StableHlo.binary main_v7 main_v160 main_v161 ((fun x i => Host.gather gather_S100000x128_S640000x1_S640000x128_1_0_n_n_0_1_1128 x i) : (⟨S100000x128, .f32⟩ : BufTy).Contents (Elt F) → (⟨S640000x1, .i32⟩ : BufTy).Contents (Elt F) → (⟨S640000x128, .f32⟩ : BufTy).Contents (Elt F)),
    StableHlo.binary main_v161 main_v128 main_v162 ((fun l r => Host.dotGeneral dot_S640000x128_S128x128_S640000x128_1_0_0_1_n_n none l r) : (⟨S640000x128, .f32⟩ : BufTy).Contents (Elt F) → (⟨S128x128, .f32⟩ : BufTy).Contents (Elt F) → (⟨S640000x128, .f32⟩ : BufTy).Contents (Elt F)),
    StableHlo.unary main_arg5 main_v163 ((extractStridedSlice S1x640000 ![1, 0] · slices_S2x640000_S1x640000_1_0) : (⟨S2x640000, .i32⟩ : BufTy).Contents (Elt F) → (⟨S1x640000, .i32⟩ : BufTy).Contents (Elt F)),
    StableHlo.reshape main_v163 main_v164 rfl shapeCasts_S1x640000_S640000,
    StableHlo.nullary main_cst_30 (constant S_ .f32 0x00000000#32),
    StableHlo.unary main_cst_30 main_v165 (broadcastInDim S50000x128 ![] bcast_S_S50000x128 : (⟨S_, .f32⟩ : BufTy).Contents (Elt F) → (⟨S50000x128, .f32⟩ : BufTy).Contents (Elt F)),
    StableHlo.unary main_v164 main_v166 (broadcastInDim S640000x1 ![0] bcast_S640000_S640000x1_0 : (⟨S640000, .i32⟩ : BufTy).Contents (Elt F) → (⟨S640000x1, .i32⟩ : BufTy).Contents (Elt F)),
    StableHlo.ternary main_v165 main_v166 main_v162 main_v167 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)),
    StableHlo.nullary main_cst_31 (constant S_ .f32 0x3F800000#32),
    StableHlo.unary main_cst_31 main_v168 (broadcastInDim S640000x1 ![] bcast_S_S640000x1 : (⟨S_, .f32⟩ : BufTy).Contents (Elt F) → (⟨S640000x1, .f32⟩ : BufTy).Contents (Elt F)),
    StableHlo.unary main_arg5 main_v169 ((extractStridedSlice S1x640000 ![1, 0] · slices_S2x640000_S1x640000_1_0) : (⟨S2x640000, .i32⟩ : BufTy).Contents (Elt F) → (⟨S1x640000, .i32⟩ : BufTy).Contents (Elt F)),
    StableHlo.reshape main_v169 main_v170 rfl shapeCasts_S1x640000_S640000,
    StableHlo.nullary main_cst_32 (constant S_ .f32 0x00000000#32),
    StableHlo.unary main_cst_32 main_v171 (broadcastInDim S50000x1 ![] bcast_S_S50000x1 : (⟨S_, .f32⟩ : BufTy).Contents (Elt F) → (⟨S50000x1, .f32⟩ : BufTy).Contents (Elt F)),
    StableHlo.unary main_v170 main_v172 (broadcastInDim S640000x1 ![0] bcast_S640000_S640000x1_0 : (⟨S640000, .i32⟩ : BufTy).Contents (Elt F) → (⟨S640000x1, .i32⟩ : BufTy).Contents (Elt F)),
    StableHlo.ternary main_v171 main_v172 main_v168 main_v173 ((fun x i u => Host.scatterAdd scatter_S50000x1_S640000x1_S640000x1_1_0_0_1 x i u) : (⟨S50000x1, .f32⟩ : BufTy).Contents (Elt F) → (⟨S640000x1, .i32⟩ : BufTy).Contents (Elt F) → (⟨S640000x1, .f32⟩ : BufTy).Contents (Elt F) → (⟨S50000x1, .f32⟩ : BufTy).Contents (Elt F)),
    StableHlo.nullary main_cst_33 (constant S_ .f32 0x3F800000#32),
    StableHlo.TRef.unary (.of main_cst_33) main_call6.v0 id,
    StableHlo.TRef.unary main_call6.v0 main_call6.v1 (broadcastInDim S50000x1 ![] bcast_S_S50000x1),
    StableHlo.TRef.binary main_call6.v1 (.of main_v173) main_call6.v2 maximumf,
    StableHlo.unary main_v174 main_v175 (broadcastInDim S50000x128 ![0, 1] bcast_S50000x1_S50000x128_0_1 : (⟨S50000x1, .f32⟩ : BufTy).Contents (Elt F) → (⟨S50000x128, .f32⟩ : BufTy).Contents (Elt F)),
    StableHlo.binary main_v167 main_v175 main_v176 (Host.divf : (⟨S50000x128, .f32⟩ : BufTy).Contents (Elt F) → (⟨S50000x128, .f32⟩ : BufTy).Contents (Elt F) → (⟨S50000x128, .f32⟩ : BufTy).Contents (Elt F)),
    StableHlo.unary main_arg6 main_v177 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v177 main_v178 rfl shapeCasts_S1x320000_S320000,
    StableHlo.nullary main_c_34 (constantI S_ 32 0#32),
    StableHlo.unary main_c_34 main_v179 (broadcastInDim S320000 ![] bcast_S_S320000 : (⟨S_, .i32⟩ : BufTy).Contents (Elt F) → (⟨S320000, .i32⟩ : BufTy).Contents (Elt F)),
    StableHlo.binary main_v178 main_v179 main_v180 (cmpi .slt : (⟨S320000, .i32⟩ : BufTy).Contents (Elt F) → (⟨S320000, .i32⟩ : BufTy).Contents (Elt F) → (⟨S320000, .i1⟩ : BufTy).Contents (Elt F)),
    StableHlo.nullary main_c_35 (constantI S_ 32 50000#32),
    StableHlo.unary main_c_35 main_v181 (broadcastInDim S320000 ![] bcast_S_S320000 : (⟨S_, .i32⟩ : BufTy).Contents (Elt F) → (⟨S320000, .i32⟩ : BufTy).Contents (Elt F)),
    StableHlo.binary main_v178 main_v181 main_v182 (addi : (⟨S320000, .i32⟩ : BufTy).Contents (Elt F) → (⟨S320000, .i32⟩ : BufTy).Contents (Elt F) → (⟨S320000, .i32⟩ : BufTy).Contents (Elt F)),
    StableHlo.ternary main_v180 main_v182 main_v178 main_v183 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v183 main_v184 (broadcastInDim S320000x1 ![0] bcast_S320000_S320000x1_0 : (⟨S320000, .i32⟩ : BufTy).Contents (Elt F) → (⟨S320000x1, .i32⟩ : BufTy).Contents (Elt F)),
    StableHlo.binary main_v11 main_v184 main_v185 ((fun x i => Host.gather gather_S50000x128_S320000x1_S320000x128_1_0_n_n_0_1_1128 x i) : (⟨S50000x128, .f32⟩ : BufTy).Contents (Elt F) → (⟨S320000x1, .i32⟩ : BufTy).Contents (Elt F) → (⟨S320000x128, .f32⟩ : BufTy).Contents (Elt F)),
    StableHlo.binary main_v185 main_v128 main_v186 ((fun l r => Host.dotGeneral dot_S320000x128_S128x128_S320000x128_1_0_0_1_n_n none l r) : (⟨S320000x128, .f32⟩ : BufTy).Contents (Elt F) → (⟨S128x128, .f32⟩ : BufTy).Contents (Elt F) → (⟨S320000x128, .f32⟩ : BufTy).Contents (Elt F)),
    StableHlo.unary main_arg6 main_v187 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v187 main_v188 rfl shapeCasts_S1x320000_S320000,
    StableHlo.nullary main_cst_36 (constant S_ .f32 0x00000000#32),
    StableHlo.unary main_cst_36 main_v189 (broadcastInDim S50000x128 ![] bcast_S_S50000x128 : (⟨S_, .f32⟩ : BufTy).Contents (Elt F) → (⟨S50000x128, .f32⟩ : BufTy).Contents (Elt F)),
    StableHlo.unary main_v188 main_v190 (broadcastInDim S320000x1 ![0] bcast_S320000_S320000x1_0 : (⟨S320000, .i32⟩ : BufTy).Contents (Elt F) → (⟨S320000x1, .i32⟩ : BufTy).Contents (Elt F)),
    StableHlo.ternary main_v189 main_v190 main_v186 main_v191 ((fun x i u => Host.scatterAdd scatter_S50000x128_S320000x1_S320000x128_1_0_0_1 x i u) : (⟨S50000x128, .f32⟩ : BufTy).Contents (Elt F) → (⟨S320000x1, .i32⟩ : BufTy).Contents (Elt F) → (⟨S320000x128, .f32⟩ : BufTy).Contents (Elt F) → (⟨S50000x128, .f32⟩ : BufTy).Contents (Elt F)),
    StableHlo.nullary main_cst_37 (constant S_ .f32 0x3F800000#32),
    StableHlo.unary main_cst_37 main_v192 (broadcastInDim S320000x1 ![] bcast_S_S320000x1 : (⟨S_, .f32⟩ : BufTy).Contents (Elt F) → (⟨S320000x1, .f32⟩ : BufTy).Contents (Elt F)),
    StableHlo.unary main_arg6 main_v193 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v193 main_v194 rfl shapeCasts_S1x320000_S320000,
    StableHlo.nullary main_cst_38 (constant S_ .f32 0x00000000#32),
    StableHlo.unary main_cst_38 main_v195 (broadcastInDim S50000x1 ![] bcast_S_S50000x1 : (⟨S_, .f32⟩ : BufTy).Contents (Elt F) → (⟨S50000x1, .f32⟩ : BufTy).Contents (Elt F)),
    StableHlo.unary main_v194 main_v196 (broadcastInDim S320000x1 ![0] bcast_S320000_S320000x1_0 : (⟨S320000, .i32⟩ : BufTy).Contents (Elt F) → (⟨S320000x1, .i32⟩ : BufTy).Contents (Elt F)),
    StableHlo.ternary main_v195 main_v196 main_v192 main_v197 ((fun x i u => Host.scatterAdd scatter_S50000x1_S320000x1_S320000x1_1_0_0_1 x i u) : (⟨S50000x1, .f32⟩ : BufTy).Contents (Elt F) → (⟨S320000x1, .i32⟩ : BufTy).Contents (Elt F) → (⟨S320000x1, .f32⟩ : BufTy).Contents (Elt F) → (⟨S50000x1, .f32⟩ : BufTy).Contents (Elt F)),
    StableHlo.nullary main_cst_39 (constant S_ .f32 0x3F800000#32) ]

set_option maxRecDepth 8192 in
set_option maxHeartbeats 4000000 in
/-- The part is that straight line: the called functions unfolded at their calls, both sides are one chain of
    operation steps once sequencing is reassociated. -/
theorem part3_eq (c : Dev nD) : main_part3 (F := F) c = seq ops3 := by
  simp only [main_part3, fn_clip.body, fn_elu.body, fn_where.body, fn_where_0.body, seq, bind_assoc, pure_bind, bind_pure_unit] <;> rfl

/-- Every operation touches TensorCore buffers only. -/
theorem ops3_sub : (ops3 : List (HloOp τ sig (Elt F))).Forall fun op => op.bufs ⊆ tcRefs τ sig :=
  ⟨unary_bufs_sub .., unary_bufs_sub .., binary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., reshape_bufs_sub .., nullary_bufs_sub .., unary_bufs_sub .., unary_bufs_sub .., ternary_bufs_sub .., nullary_bufs_sub .., unary_bufs_sub .., unary_bufs_sub .., reshape_bufs_sub .., nullary_bufs_sub .., unary_bufs_sub .., unary_bufs_sub .., ternary_bufs_sub .., nullary_bufs_sub .., unary_bufs_sub .., unary_bufs_sub .., binary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., reshape_bufs_sub .., nullary_bufs_sub .., unary_bufs_sub .., unary_bufs_sub .., ternary_bufs_sub .., nullary_bufs_sub .., unary_bufs_sub .., unary_bufs_sub .., reshape_bufs_sub .., nullary_bufs_sub .., unary_bufs_sub .., unary_bufs_sub .., ternary_bufs_sub .., nullary_bufs_sub ..⟩

/-- Every operation determines its results. -/
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Cert.ReferenceIdeal.RefRun

end
-- ==== Proof.RefOps4.lean ====
/-
  Statements 241 … 300 of the reference's @main as a list of operations, in order.  A call of a module-local
  function is that function's body over the call's own buffers: the clipping function is three operations (its
  scalar bound converted, broadcast, the elementwise maximum), the ELU function fifteen (three scalar zeros, two
  comparisons with zero, the inner selection's three, the exponential minus one, the scalar one and its
  broadcast, the product, the outer selection).  The part of @main is the straight line of these operations.
-/
import proofs.«168040_j41652592837487_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of statements 241 … 300, in order. -/
abbrev ops4 : List (HloOp τ sig (Elt F)) :=
  [
    StableHlo.TRef.unary (.of main_cst_39) main_call7.v0 id,
    StableHlo.TRef.unary main_call7.v0 main_call7.v1 (broadcastInDim S50000x1 ![] bcast_S_S50000x1),
    StableHlo.TRef.binary main_call7.v1 (.of main_v197) main_call7.v2 maximumf,
    StableHlo.unary main_v198 main_v199 (broadcastInDim S50000x128 ![0, 1] bcast_S50000x1_S50000x128_0_1 : (⟨S50000x1, .f32⟩ : BufTy).Contents (Elt F) → (⟨S50000x128, .f32⟩ : BufTy).Contents (Elt F)),
    StableHlo.binary main_v191 main_v199 main_v200 (Host.divf : (⟨S50000x128, .f32⟩ : BufTy).Contents (Elt F) → (⟨S50000x128, .f32⟩ : BufTy).Contents (Elt F) → (⟨S50000x128, .f32⟩ : BufTy).Contents (Elt F)),
    StableHlo.unary main_arg7 main_v201 ((extractStridedSlice S1x160000 ![0, 0] · slices_S2x160000_S1x160000_0_0) : (⟨S2x160000, .i32⟩ : BufTy).Contents (Elt F) → (⟨S1x160000, .i32⟩ : BufTy).Contents (Elt F)),
    StableHlo.reshape main_v201 main_v202 rfl shapeCasts_S1x160000_S160000,
    StableHlo.nullary main_c_40 (constantI S_ 32 0#32),
    StableHlo.unary main_c_40 main_v203 (broadcastInDim S160000 ![] bcast_S_S160000 : (⟨S_, .i32⟩ : BufTy).Contents (Elt F) → (⟨S160000, .i32⟩ : BufTy).Contents (Elt F)),
    StableHlo.binary main_v202 main_v203 main_v204 (cmpi .slt : (⟨S160000, .i32⟩ : BufTy).Contents (Elt F) → (⟨S160000, .i32⟩ : BufTy).Contents (Elt F) → (⟨S160000, .i1⟩ : BufTy).Contents (Elt F)),
    StableHlo.nullary main_c_41 (constantI S_ 32 20000#32),
    StableHlo.unary main_c_41 main_v205 (broadcastInDim S160000 ![] bcast_S_S160000 : (⟨S_, .i32⟩ : BufTy).Contents (Elt F) → (⟨S160000, .i32⟩ : BufTy).Contents (Elt F)),
    StableHlo.binary main_v202 main_v205 main_v206 (addi : (⟨S160000, .i32⟩ : BufTy).Contents (Elt F) → (⟨S160000, .i32⟩ : BufTy).Contents (Elt F) → (⟨S160000, .i32⟩ : BufTy).Contents (Elt F)),
    StableHlo.ternary main_v204 main_v206 main_v202 main_v207 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    StableHlo.unary main_v207 main_v208 (broadcastInDim S160000x1 ![0] bcast_S160000_S160000x1_0 : (⟨S160000, .i32⟩ : BufTy).Contents (Elt F) → (⟨S160000x1, .i32⟩ : BufTy).Contents (Elt F)),
    StableHlo.binary main_v15 main_v208 main_v209 ((fun x i => Host.gather gather_S20000x128_S160000x1_S160000x128_1_0_n_n_0_1_1128 x i) : (⟨S20000x128, .f32⟩ : BufTy).Contents (Elt F) → (⟨S160000x1, .i32⟩ : BufTy).Contents (Elt F) → (⟨S160000x128, .f32⟩ : BufTy).Contents (Elt F)),
    StableHlo.binary main_v209 main_v128 main_v210 ((fun l r => Host.dotGeneral dot_S160000x128_S128x128_S160000x128_1_0_0_1_n_n none l r) : (⟨S160000x128, .f32⟩ : BufTy).Contents (Elt F) → (⟨S128x128, .f32⟩ : BufTy).Contents (Elt F) → (⟨S160000x128, .f32⟩ : BufTy).Contents (Elt F)),
    StableHlo.unary main_arg7 main_v211 ((extractStridedSlice S1x160000 ![1, 0] · slices_S2x160000_S1x160000_1_0) : (⟨S2x160000, .i32⟩ : BufTy).Contents (Elt F) → (⟨S1x160000, .i32⟩ : BufTy).Contents (Elt F)),
    StableHlo.reshape main_v211 main_v212 rfl shapeCasts_S1x160000_S160000,
    StableHlo.nullary main_cst_42 (constant S_ .f32 0x00000000#32),
    StableHlo.unary main_cst_42 main_v213 (broadcastInDim S50000x128 ![] bcast_S_S50000x128 : (⟨S_, .f32⟩ : BufTy).Contents (Elt F) → (⟨S50000x128, .f32⟩ : BufTy).Contents (Elt F)),
    StableHlo.unary main_v212 main_v214 (broadcastInDim S160000x1 ![0] bcast_S160000_S160000x1_0 : (⟨S160000, .i32⟩ : BufTy).Contents (Elt F) → (⟨S160000x1, .i32⟩ : BufTy).Contents (Elt F)),
    StableHlo.ternary main_v213 main_v214 main_v210 main_v215 ((fun x i u => Host.scatterAdd scatter_S50000x128_S160000x1_S160000x128_1_0_0_1 x i u) : (⟨S50000x128, .f32⟩ : BufTy).Contents (Elt F) → (⟨S160000x1, .i32⟩ : BufTy).Contents (Elt F) → (⟨S160000x128, .f32⟩ : BufTy).Contents (Elt F) → (⟨S50000x128, .f32⟩ : BufTy).Contents (Elt F)),
    StableHlo.nullary main_cst_43 (constant S_ .f32 0x3F800000#32),
    StableHlo.unary main_cst_43 main_v216 (broadcastInDim S160000x1 ![] bcast_S_S160000x1 : (⟨S_, .f32⟩ : BufTy).Contents (Elt F) → (⟨S160000x1, .f32⟩ : BufTy).Contents (Elt F)),
    StableHlo.unary main_arg7 main_v217 ((extractStridedSlice S1x160000 ![1, 0] · slices_S2x160000_S1x160000_1_0) : (⟨S2x160000, .i32⟩ : BufTy).Contents (Elt F) → (⟨S1x160000, .i32⟩ : BufTy).Contents (Elt F)),
    StableHlo.reshape main_v217 main_v218 rfl shapeCasts_S1x160000_S160000,
    StableHlo.nullary main_cst_44 (constant S_ .f32 0x00000000#32),
    StableHlo.unary main_cst_44 main_v219 (broadcastInDim S50000x1 ![] bcast_S_S50000x1 : (⟨S_, .f32⟩ : BufTy).Contents (Elt F) → (⟨S50000x1, .f32⟩ : BufTy).Contents (Elt F)),
    StableHlo.unary main_v218 main_v220 (broadcastInDim S160000x1 ![0] bcast_S160000_S160000x1_0 : (⟨S160000, .i32⟩ : BufTy).Contents (Elt F) → (⟨S160000x1, .i32⟩ : BufTy).Contents (Elt F)),
    StableHlo.ternary main_v219 main_v220 main_v216 main_v221 ((fun x i u => Host.scatterAdd scatter_S50000x1_S160000x1_S160000x1_1_0_0_1 x i u) : (⟨S50000x1, .f32⟩ : BufTy).Contents (Elt F) → (⟨S160000x1, .i32⟩ : BufTy).Contents (Elt F) → (⟨S160000x1, .f32⟩ : BufTy).Contents (Elt F) → (⟨S50000x1, .f32⟩ : BufTy).Contents (Elt F)),
    StableHlo.nullary main_cst_45 (constant S_ .f32 0x3F800000#32),
    StableHlo.TRef.unary (.of main_cst_45) main_call8.v0 id,
    StableHlo.TRef.unary main_call8.v0 main_call8.v1 (broadcastInDim S50000x1 ![] bcast_S_S50000x1),
    StableHlo.TRef.binary main_call8.v1 (.of main_v221) main_call8.v2 maximumf,
    StableHlo.unary main_v222 main_v223 (broadcastInDim S50000x128 ![0, 1] bcast_S50000x1_S50000x128_0_1 : (⟨S50000x1, .f32⟩ : BufTy).Contents (Elt F) → (⟨S50000x128, .f32⟩ : BufTy).Contents (Elt F)),
    StableHlo.binary main_v215 main_v223 main_v224 (Host.divf : (⟨S50000x128, .f32⟩ : BufTy).Contents (Elt F) → (⟨S50000x128, .f32⟩ : BufTy).Contents (Elt F) → (⟨S50000x128, .f32⟩ : BufTy).Contents (Elt F)),
    StableHlo.unary main_arg16 main_v225 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v225 main_v226 rfl shapeCasts_S1x128x128_S128x128,
    StableHlo.binary main_v126 main_v226 main_v227 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg17 main_v228 ((extractStridedSlice S1x128 ![1, 0] · slices_S3x128_S1x128_1_0) : (⟨S3x128, .f32⟩ : BufTy).Contents (Elt F) → (⟨S1x128, .f32⟩ : BufTy).Contents (Elt F)),
    StableHlo.reshape main_v228 main_v229 rfl shapeCasts_S1x128_S128,
    StableHlo.unary main_v229 main_v230 (broadcastInDim S1x128 ![1] bcast_S128_S1x128_1 : (⟨S128, .f32⟩ : BufTy).Contents (Elt F) → (⟨S1x128, .f32⟩ : BufTy).Contents (Elt F)),
    StableHlo.unary main_v230 main_v231 (broadcastInDim S50000x128 ![0, 1] bcast_S1x128_S50000x128_0_1 : (⟨S1x128, .f32⟩ : BufTy).Contents (Elt F) → (⟨S50000x128, .f32⟩ : BufTy).Contents (Elt F)),
    StableHlo.binary main_v227 main_v231 main_v232 (addf : (⟨S50000x128, .f32⟩ : BufTy).Contents (Elt F) → (⟨S50000x128, .f32⟩ : BufTy).Contents (Elt F) → (⟨S50000x128, .f32⟩ : BufTy).Contents (Elt F)),
    StableHlo.binary main_v232 main_v152 main_v233 (addf : (⟨S50000x128, .f32⟩ : BufTy).Contents (Elt F) → (⟨S50000x128, .f32⟩ : BufTy).Contents (Elt F) → (⟨S50000x128, .f32⟩ : BufTy).Contents (Elt F)),
    StableHlo.binary main_v233 main_v176 main_v234 (addf : (⟨S50000x128, .f32⟩ : BufTy).Contents (Elt F) → (⟨S50000x128, .f32⟩ : BufTy).Contents (Elt F) → (⟨S50000x128, .f32⟩ : BufTy).Contents (Elt F)),
    StableHlo.binary main_v234 main_v200 main_v235 (addf : (⟨S50000x128, .f32⟩ : BufTy).Contents (Elt F) → (⟨S50000x128, .f32⟩ : BufTy).Contents (Elt F) → (⟨S50000x128, .f32⟩ : BufTy).Contents (Elt F)),
    StableHlo.binary main_v235 main_v224 main_v236 (addf : (⟨S50000x128, .f32⟩ : BufTy).Contents (Elt F) → (⟨S50000x128, .f32⟩ : BufTy).Contents (Elt F) → (⟨S50000x128, .f32⟩ : BufTy).Contents (Elt F)),
    StableHlo.TRef.nullary main_call9.cst (constant S_ .f32 0x00000000#32),
    StableHlo.TRef.unary main_call9.cst main_call9.v0 (broadcastInDim S50000x128 ![] bcast_S_S50000x128),
    StableHlo.TRef.binary (.of main_v236) main_call9.v0 main_call9.v1 (cmpf .ogt),
    StableHlo.TRef.nullary main_call9.cst_0 (constant S_ .f32 0x00000000#32),
    StableHlo.TRef.unary main_call9.cst_0 main_call9.v2 (broadcastInDim S50000x128 ![] bcast_S_S50000x128),
    StableHlo.TRef.binary (.of main_v236) main_call9.v2 main_call9.v3 (cmpf .ogt),
    StableHlo.TRef.nullary main_call9.cst_1 (constant S_ .f32 0x00000000#32),
    StableHlo.TRef.unary main_call9.cst_1 main_call9.call0.v0 id,
    StableHlo.TRef.unary main_call9.call0.v0 main_call9.call0.v1 (broadcastInDim S50000x128 ![] bcast_S_S50000x128),
    StableHlo.TRef.ternary main_call9.v3 main_call9.call0.v1 (.of main_v236) main_call9.call0.v2 select,
    StableHlo.TRef.unary main_call9.call0.v2 main_call9.v5 Host.expm1,
    StableHlo.TRef.nullary main_call9.cst_2 (constant S_ .f32 0x3F800000#32),
    StableHlo.TRef.unary main_call9.cst_2 main_call9.v6 (broadcastInDim S50000x128 ![] bcast_S_S50000x128),
    StableHlo.TRef.binary main_call9.v6 main_call9.v5 main_call9.v7 mulf,
    StableHlo.TRef.ternary main_call9.v1 (.of main_v236) main_call9.v7 main_call9.call1.v0 select,
    StableHlo.unary main_arg18 main_v238 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v238 main_v239 rfl shapeCasts_S1x128x128_S128x128,
    StableHlo.unary main_arg4 main_v240 ((extractStridedSlice S1x640000 ![0, 0] · slices_S2x640000_S1x640000_0_0) : (⟨S2x640000, .i32⟩ : BufTy).Contents (Elt F) → (⟨S1x640000, .i32⟩ : BufTy).Contents (Elt F)),
    StableHlo.reshape main_v240 main_v241 rfl shapeCasts_S1x640000_S640000,
    StableHlo.nullary main_c_46 (constantI S_ 32 0#32),
    StableHlo.unary main_c_46 main_v242 (broadcastInDim S640000 ![] bcast_S_S640000 : (⟨S_, .i32⟩ : BufTy).Contents (Elt F) → (⟨S640000, .i32⟩ : BufTy).Contents (Elt F)),
    StableHlo.binary main_v241 main_v242 main_v243 (cmpi .slt : (⟨S640000, .i32⟩ : BufTy).Contents (Elt F) → (⟨S640000, .i32⟩ : BufTy).Contents (Elt F) → (⟨S640000, .i1⟩ : BufTy).Contents (Elt F)),
    StableHlo.nullary main_c_47 (constantI S_ 32 50000#32),
    StableHlo.unary main_c_47 main_v244 (broadcastInDim S640000 ![] bcast_S_S640000 : (⟨S_, .i32⟩ : BufTy).Contents (Elt F) → (⟨S640000, .i32⟩ : BufTy).Contents (Elt F)),
    StableHlo.binary main_v241 main_v244 main_v245 (addi : (⟨S640000, .i32⟩ : BufTy).Contents (Elt F) → (⟨S640000, .i32⟩ : BufTy).Contents (Elt F) → (⟨S640000, .i32⟩ : BufTy).Contents (Elt F)),
    StableHlo.ternary main_v243 main_v245 main_v241 main_v246 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v246 main_v247 (broadcastInDim S640000x1 ![0] bcast_S640000_S640000x1_0 : (⟨S640000, .i32⟩ : BufTy).Contents (Elt F) → (⟨S640000x1, .i32⟩ : BufTy).Contents (Elt F)),
    StableHlo.binary main_v237 main_v247 main_v248 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    StableHlo.binary main_v248 main_v239 main_v249 ((fun l r => Host.dotGeneral dot_S640000x128_S128x128_S640000x128_1_0_0_1_n_n none l r) : (⟨S640000x128, .f32⟩ : BufTy).Contents (Elt F) → (⟨S128x128, .f32⟩ : BufTy).Contents (Elt F) → (⟨S640000x128, .f32⟩ : BufTy).Contents (Elt F)) ]

set_option maxRecDepth 8192 in
set_option maxHeartbeats 4000000 in
/-- The part is that straight line: the called functions unfolded at their calls, both sides are one chain of
    operation steps once sequencing is reassociated. -/
theorem part4_eq (c : Dev nD) : main_part4 (F := F) c = seq ops4 := by
  simp only [main_part4, fn_clip.body, fn_elu.body, fn_where.body, fn_where_0.body, seq, bind_assoc, pure_bind, bind_pure_unit] <;> rfl

/-- Every operation touches TensorCore buffers only. -/
theorem ops4_sub : (ops4 : List (HloOp τ sig (Elt F))).Forall fun op => op.bufs ⊆ tcRefs τ sig :=
  ⟨unary_bufs_sub .., unary_bufs_sub .., binary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., reshape_bufs_sub .., nullary_bufs_sub .., unary_bufs_sub .., unary_bufs_sub .., ternary_bufs_sub .., nullary_bufs_sub .., unary_bufs_sub .., unary_bufs_sub .., reshape_bufs_sub .., nullary_bufs_sub .., unary_bufs_sub .., unary_bufs_sub .., ternary_bufs_sub .., nullary_bufs_sub .., unary_bufs_sub .., unary_bufs_sub .., binary_bufs_sub .., unary_bufs_sub .., binary_bufs_sub .., unary_bufs_sub .., reshape_bufs_sub .., binary_bufs_sub .., unary_bufs_sub .., reshape_bufs_sub .., unary_bufs_sub .., unary_bufs_sub .., binary_bufs_sub .., binary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

/-- Every operation determines its results. -/
theorem ops4_fresh : (ops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Cert.ReferenceIdeal.RefRun

end
-- ==== Proof.RefOps5.lean ====
/-
  Statements 301 … 360 of the reference's @main as a list of operations, in order.  A call of a module-local
  function is that function's body over the call's own buffers: the clipping function is three operations (its
  scalar bound converted, broadcast, the elementwise maximum), the ELU function fifteen (three scalar zeros, two
  comparisons with zero, the inner selection's three, the exponential minus one, the scalar one and its
  broadcast, the product, the outer selection).  The part of @main is the straight line of these operations.
-/
import proofs.«168040_j41652592837487_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of statements 301 … 360, in order. -/
abbrev ops5 : List (HloOp τ sig (Elt F)) :=
  [
    StableHlo.unary main_arg4 main_v250 ((extractStridedSlice S1x640000 ![1, 0] · slices_S2x640000_S1x640000_1_0) : (⟨S2x640000, .i32⟩ : BufTy).Contents (Elt F) → (⟨S1x640000, .i32⟩ : BufTy).Contents (Elt F)),
    StableHlo.reshape main_v250 main_v251 rfl shapeCasts_S1x640000_S640000,
    StableHlo.nullary main_cst_48 (constant S_ .f32 0x00000000#32),
    StableHlo.unary main_cst_48 main_v252 (broadcastInDim S50000x128 ![] bcast_S_S50000x128 : (⟨S_, .f32⟩ : BufTy).Contents (Elt F) → (⟨S50000x128, .f32⟩ : BufTy).Contents (Elt F)),
    StableHlo.unary main_v251 main_v253 (broadcastInDim S640000x1 ![0] bcast_S640000_S640000x1_0 : (⟨S640000, .i32⟩ : BufTy).Contents (Elt F) → (⟨S640000x1, .i32⟩ : BufTy).Contents (Elt F)),
    StableHlo.ternary main_v252 main_v253 main_v249 main_v254 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)),
    StableHlo.nullary main_cst_49 (constant S_ .f32 0x3F800000#32),
    StableHlo.unary main_cst_49 main_v255 (broadcastInDim S640000x1 ![] bcast_S_S640000x1 : (⟨S_, .f32⟩ : BufTy).Contents (Elt F) → (⟨S640000x1, .f32⟩ : BufTy).Contents (Elt F)),
    StableHlo.unary main_arg4 main_v256 ((extractStridedSlice S1x640000 ![1, 0] · slices_S2x640000_S1x640000_1_0) : (⟨S2x640000, .i32⟩ : BufTy).Contents (Elt F) → (⟨S1x640000, .i32⟩ : BufTy).Contents (Elt F)),
    StableHlo.reshape main_v256 main_v257 rfl shapeCasts_S1x640000_S640000,
    StableHlo.nullary main_cst_50 (constant S_ .f32 0x00000000#32),
    StableHlo.unary main_cst_50 main_v258 (broadcastInDim S50000x1 ![] bcast_S_S50000x1 : (⟨S_, .f32⟩ : BufTy).Contents (Elt F) → (⟨S50000x1, .f32⟩ : BufTy).Contents (Elt F)),
    StableHlo.unary main_v257 main_v259 (broadcastInDim S640000x1 ![0] bcast_S640000_S640000x1_0 : (⟨S640000, .i32⟩ : BufTy).Contents (Elt F) → (⟨S640000x1, .i32⟩ : BufTy).Contents (Elt F)),
    StableHlo.ternary main_v258 main_v259 main_v255 main_v260 ((fun x i u => Host.scatterAdd scatter_S50000x1_S640000x1_S640000x1_1_0_0_1 x i u) : (⟨S50000x1, .f32⟩ : BufTy).Contents (Elt F) → (⟨S640000x1, .i32⟩ : BufTy).Contents (Elt F) → (⟨S640000x1, .f32⟩ : BufTy).Contents (Elt F) → (⟨S50000x1, .f32⟩ : BufTy).Contents (Elt F)),
    StableHlo.nullary main_cst_51 (constant S_ .f32 0x3F800000#32),
    StableHlo.TRef.unary (.of main_cst_51) main_call10.v0 id,
    StableHlo.TRef.unary main_call10.v0 main_call10.v1 (broadcastInDim S50000x1 ![] bcast_S_S50000x1),
    StableHlo.TRef.binary main_call10.v1 (.of main_v260) main_call10.v2 maximumf,
    StableHlo.unary main_v261 main_v262 (broadcastInDim S50000x128 ![0, 1] bcast_S50000x1_S50000x128_0_1 : (⟨S50000x1, .f32⟩ : BufTy).Contents (Elt F) → (⟨S50000x128, .f32⟩ : BufTy).Contents (Elt F)),
    StableHlo.binary main_v254 main_v262 main_v263 (Host.divf : (⟨S50000x128, .f32⟩ : BufTy).Contents (Elt F) → (⟨S50000x128, .f32⟩ : BufTy).Contents (Elt F) → (⟨S50000x128, .f32⟩ : BufTy).Contents (Elt F)),
    StableHlo.unary main_arg5 main_v264 ((extractStridedSlice S1x640000 ![0, 0] · slices_S2x640000_S1x640000_0_0) : (⟨S2x640000, .i32⟩ : BufTy).Contents (Elt F) → (⟨S1x640000, .i32⟩ : BufTy).Contents (Elt F)),
    StableHlo.reshape main_v264 main_v265 rfl shapeCasts_S1x640000_S640000,
    StableHlo.nullary main_c_52 (constantI S_ 32 0#32),
    StableHlo.unary main_c_52 main_v266 (broadcastInDim S640000 ![] bcast_S_S640000 : (⟨S_, .i32⟩ : BufTy).Contents (Elt F) → (⟨S640000, .i32⟩ : BufTy).Contents (Elt F)),
    StableHlo.binary main_v265 main_v266 main_v267 (cmpi .slt : (⟨S640000, .i32⟩ : BufTy).Contents (Elt F) → (⟨S640000, .i32⟩ : BufTy).Contents (Elt F) → (⟨S640000, .i1⟩ : BufTy).Contents (Elt F)),
    StableHlo.nullary main_c_53 (constantI S_ 32 100000#32),
    StableHlo.unary main_c_53 main_v268 (broadcastInDim S640000 ![] bcast_S_S640000 : (⟨S_, .i32⟩ : BufTy).Contents (Elt F) → (⟨S640000, .i32⟩ : BufTy).Contents (Elt F)),
    StableHlo.binary main_v265 main_v268 main_v269 (addi : (⟨S640000, .i32⟩ : BufTy).Contents (Elt F) → (⟨S640000, .i32⟩ : BufTy).Contents (Elt F) → (⟨S640000, .i32⟩ : BufTy).Contents (Elt F)),
    StableHlo.ternary main_v267 main_v269 main_v265 main_v270 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v270 main_v271 (broadcastInDim S640000x1 ![0] bcast_S640000_S640000x1_0 : (⟨S640000, .i32⟩ : BufTy).Contents (Elt F) → (⟨S640000x1, .i32⟩ : BufTy).Contents (Elt F)),
    StableHlo.binary main_v7 main_v271 main_v272 ((fun x i => Host.gather gather_S100000x128_S640000x1_S640000x128_1_0_n_n_0_1_1128 x i) : (⟨S100000x128, .f32⟩ : BufTy).Contents (Elt F) → (⟨S640000x1, .i32⟩ : BufTy).Contents (Elt F) → (⟨S640000x128, .f32⟩ : BufTy).Contents (Elt F)),
    StableHlo.binary main_v272 main_v239 main_v273 ((fun l r => Host.dotGeneral dot_S640000x128_S128x128_S640000x128_1_0_0_1_n_n none l r) : (⟨S640000x128, .f32⟩ : BufTy).Contents (Elt F) → (⟨S128x128, .f32⟩ : BufTy).Contents (Elt F) → (⟨S640000x128, .f32⟩ : BufTy).Contents (Elt F)),
    StableHlo.unary main_arg5 main_v274 ((extractStridedSlice S1x640000 ![1, 0] · slices_S2x640000_S1x640000_1_0) : (⟨S2x640000, .i32⟩ : BufTy).Contents (Elt F) → (⟨S1x640000, .i32⟩ : BufTy).Contents (Elt F)),
    StableHlo.reshape main_v274 main_v275 rfl shapeCasts_S1x640000_S640000,
    StableHlo.nullary main_cst_54 (constant S_ .f32 0x00000000#32),
    StableHlo.unary main_cst_54 main_v276 (broadcastInDim S50000x128 ![] bcast_S_S50000x128 : (⟨S_, .f32⟩ : BufTy).Contents (Elt F) → (⟨S50000x128, .f32⟩ : BufTy).Contents (Elt F)),
    StableHlo.unary main_v275 main_v277 (broadcastInDim S640000x1 ![0] bcast_S640000_S640000x1_0 : (⟨S640000, .i32⟩ : BufTy).Contents (Elt F) → (⟨S640000x1, .i32⟩ : BufTy).Contents (Elt F)),
    StableHlo.ternary main_v276 main_v277 main_v273 main_v278 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)),
    StableHlo.nullary main_cst_55 (constant S_ .f32 0x3F800000#32),
    StableHlo.unary main_cst_55 main_v279 (broadcastInDim S640000x1 ![] bcast_S_S640000x1 : (⟨S_, .f32⟩ : BufTy).Contents (Elt F) → (⟨S640000x1, .f32⟩ : BufTy).Contents (Elt F)),
    StableHlo.unary main_arg5 main_v280 ((extractStridedSlice S1x640000 ![1, 0] · slices_S2x640000_S1x640000_1_0) : (⟨S2x640000, .i32⟩ : BufTy).Contents (Elt F) → (⟨S1x640000, .i32⟩ : BufTy).Contents (Elt F)),
    StableHlo.reshape main_v280 main_v281 rfl shapeCasts_S1x640000_S640000,
    StableHlo.nullary main_cst_56 (constant S_ .f32 0x00000000#32),
    StableHlo.unary main_cst_56 main_v282 (broadcastInDim S50000x1 ![] bcast_S_S50000x1 : (⟨S_, .f32⟩ : BufTy).Contents (Elt F) → (⟨S50000x1, .f32⟩ : BufTy).Contents (Elt F)),
    StableHlo.unary main_v281 main_v283 (broadcastInDim S640000x1 ![0] bcast_S640000_S640000x1_0 : (⟨S640000, .i32⟩ : BufTy).Contents (Elt F) → (⟨S640000x1, .i32⟩ : BufTy).Contents (Elt F)),
    StableHlo.ternary main_v282 main_v283 main_v279 main_v284 ((fun x i u => Host.scatterAdd scatter_S50000x1_S640000x1_S640000x1_1_0_0_1 x i u) : (⟨S50000x1, .f32⟩ : BufTy).Contents (Elt F) → (⟨S640000x1, .i32⟩ : BufTy).Contents (Elt F) → (⟨S640000x1, .f32⟩ : BufTy).Contents (Elt F) → (⟨S50000x1, .f32⟩ : BufTy).Contents (Elt F)),
    StableHlo.nullary main_cst_57 (constant S_ .f32 0x3F800000#32),
    StableHlo.TRef.unary (.of main_cst_57) main_call11.v0 id,
    StableHlo.TRef.unary main_call11.v0 main_call11.v1 (broadcastInDim S50000x1 ![] bcast_S_S50000x1),
    StableHlo.TRef.binary main_call11.v1 (.of main_v284) main_call11.v2 maximumf,
    StableHlo.unary main_v285 main_v286 (broadcastInDim S50000x128 ![0, 1] bcast_S50000x1_S50000x128_0_1 : (⟨S50000x1, .f32⟩ : BufTy).Contents (Elt F) → (⟨S50000x128, .f32⟩ : BufTy).Contents (Elt F)),
    StableHlo.binary main_v278 main_v286 main_v287 (Host.divf : (⟨S50000x128, .f32⟩ : BufTy).Contents (Elt F) → (⟨S50000x128, .f32⟩ : BufTy).Contents (Elt F) → (⟨S50000x128, .f32⟩ : BufTy).Contents (Elt F)),
    StableHlo.unary main_arg6 main_v288 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v288 main_v289 rfl shapeCasts_S1x320000_S320000,
    StableHlo.nullary main_c_58 (constantI S_ 32 0#32),
    StableHlo.unary main_c_58 main_v290 (broadcastInDim S320000 ![] bcast_S_S320000 : (⟨S_, .i32⟩ : BufTy).Contents (Elt F) → (⟨S320000, .i32⟩ : BufTy).Contents (Elt F)),
    StableHlo.binary main_v289 main_v290 main_v291 (cmpi .slt : (⟨S320000, .i32⟩ : BufTy).Contents (Elt F) → (⟨S320000, .i32⟩ : BufTy).Contents (Elt F) → (⟨S320000, .i1⟩ : BufTy).Contents (Elt F)),
    StableHlo.nullary main_c_59 (constantI S_ 32 50000#32),
    StableHlo.unary main_c_59 main_v292 (broadcastInDim S320000 ![] bcast_S_S320000 : (⟨S_, .i32⟩ : BufTy).Contents (Elt F) → (⟨S320000, .i32⟩ : BufTy).Contents (Elt F)),
    StableHlo.binary main_v289 main_v292 main_v293 (addi : (⟨S320000, .i32⟩ : BufTy).Contents (Elt F) → (⟨S320000, .i32⟩ : BufTy).Contents (Elt F) → (⟨S320000, .i32⟩ : BufTy).Contents (Elt F)),
    StableHlo.ternary main_v291 main_v293 main_v289 main_v294 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v294 main_v295 (broadcastInDim S320000x1 ![0] bcast_S320000_S320000x1_0 : (⟨S320000, .i32⟩ : BufTy).Contents (Elt F) → (⟨S320000x1, .i32⟩ : BufTy).Contents (Elt F)),
    StableHlo.binary main_v11 main_v295 main_v296 ((fun x i => Host.gather gather_S50000x128_S320000x1_S320000x128_1_0_n_n_0_1_1128 x i) : (⟨S50000x128, .f32⟩ : BufTy).Contents (Elt F) → (⟨S320000x1, .i32⟩ : BufTy).Contents (Elt F) → (⟨S320000x128, .f32⟩ : BufTy).Contents (Elt F)),
    StableHlo.binary main_v296 main_v239 main_v297 ((fun l r => Host.dotGeneral dot_S320000x128_S128x128_S320000x128_1_0_0_1_n_n none l r) : (⟨S320000x128, .f32⟩ : BufTy).Contents (Elt F) → (⟨S128x128, .f32⟩ : BufTy).Contents (Elt F) → (⟨S320000x128, .f32⟩ : BufTy).Contents (Elt F)) ]

set_option maxRecDepth 8192 in
set_option maxHeartbeats 4000000 in
/-- The part is that straight line: the called functions unfolded at their calls, both sides are one chain of
    operation steps once sequencing is reassociated. -/
theorem part5_eq (c : Dev nD) : main_part5 (F := F) c = seq ops5 := by
  simp only [main_part5, fn_clip.body, fn_elu.body, fn_where.body, fn_where_0.body, seq, bind_assoc, pure_bind, bind_pure_unit] <;> rfl

/-- Every operation touches TensorCore buffers only. -/
theorem ops5_sub : (ops5 : List (HloOp τ sig (Elt F))).Forall fun op => op.bufs ⊆ tcRefs τ sig :=
  ⟨unary_bufs_sub .., reshape_bufs_sub .., nullary_bufs_sub .., unary_bufs_sub .., unary_bufs_sub .., ternary_bufs_sub .., nullary_bufs_sub .., unary_bufs_sub .., unary_bufs_sub .., reshape_bufs_sub .., nullary_bufs_sub .., unary_bufs_sub .., unary_bufs_sub .., ternary_bufs_sub .., nullary_bufs_sub .., unary_bufs_sub .., unary_bufs_sub .., binary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., reshape_bufs_sub .., nullary_bufs_sub .., unary_bufs_sub .., unary_bufs_sub .., ternary_bufs_sub .., nullary_bufs_sub .., unary_bufs_sub .., unary_bufs_sub .., reshape_bufs_sub .., nullary_bufs_sub .., unary_bufs_sub .., unary_bufs_sub .., ternary_bufs_sub .., nullary_bufs_sub .., unary_bufs_sub .., unary_bufs_sub .., binary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

/-- Every operation determines its results. -/
theorem ops5_fresh : (ops5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Cert.ReferenceIdeal.RefRun

end
-- ==== Proof.RefOps6.lean ====
/-
  Statements 361 … 420 of the reference's @main as a list of operations, in order.  A call of a module-local
  function is that function's body over the call's own buffers: the clipping function is three operations (its
  scalar bound converted, broadcast, the elementwise maximum), the ELU function fifteen (three scalar zeros, two
  comparisons with zero, the inner selection's three, the exponential minus one, the scalar one and its
  broadcast, the product, the outer selection).  The part of @main is the straight line of these operations.
-/
import proofs.«168040_j41652592837487_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of statements 361 … 420, in order. -/
abbrev ops6 : List (HloOp τ sig (Elt F)) :=
  [
    StableHlo.unary main_arg6 main_v298 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v298 main_v299 rfl shapeCasts_S1x320000_S320000,
    StableHlo.nullary main_cst_60 (constant S_ .f32 0x00000000#32),
    StableHlo.unary main_cst_60 main_v300 (broadcastInDim S50000x128 ![] bcast_S_S50000x128 : (⟨S_, .f32⟩ : BufTy).Contents (Elt F) → (⟨S50000x128, .f32⟩ : BufTy).Contents (Elt F)),
    StableHlo.unary main_v299 main_v301 (broadcastInDim S320000x1 ![0] bcast_S320000_S320000x1_0 : (⟨S320000, .i32⟩ : BufTy).Contents (Elt F) → (⟨S320000x1, .i32⟩ : BufTy).Contents (Elt F)),
    StableHlo.ternary main_v300 main_v301 main_v297 main_v302 ((fun x i u => Host.scatterAdd scatter_S50000x128_S320000x1_S320000x128_1_0_0_1 x i u) : (⟨S50000x128, .f32⟩ : BufTy).Contents (Elt F) → (⟨S320000x1, .i32⟩ : BufTy).Contents (Elt F) → (⟨S320000x128, .f32⟩ : BufTy).Contents (Elt F) → (⟨S50000x128, .f32⟩ : BufTy).Contents (Elt F)),
    StableHlo.nullary main_cst_61 (constant S_ .f32 0x3F800000#32),
    StableHlo.unary main_cst_61 main_v303 (broadcastInDim S320000x1 ![] bcast_S_S320000x1 : (⟨S_, .f32⟩ : BufTy).Contents (Elt F) → (⟨S320000x1, .f32⟩ : BufTy).Contents (Elt F)),
    StableHlo.unary main_arg6 main_v304 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v304 main_v305 rfl shapeCasts_S1x320000_S320000,
    StableHlo.nullary main_cst_62 (constant S_ .f32 0x00000000#32),
    StableHlo.unary main_cst_62 main_v306 (broadcastInDim S50000x1 ![] bcast_S_S50000x1 : (⟨S_, .f32⟩ : BufTy).Contents (Elt F) → (⟨S50000x1, .f32⟩ : BufTy).Contents (Elt F)),
    StableHlo.unary main_v305 main_v307 (broadcastInDim S320000x1 ![0] bcast_S320000_S320000x1_0 : (⟨S320000, .i32⟩ : BufTy).Contents (Elt F) → (⟨S320000x1, .i32⟩ : BufTy).Contents (Elt F)),
    StableHlo.ternary main_v306 main_v307 main_v303 main_v308 ((fun x i u => Host.scatterAdd scatter_S50000x1_S320000x1_S320000x1_1_0_0_1 x i u) : (⟨S50000x1, .f32⟩ : BufTy).Contents (Elt F) → (⟨S320000x1, .i32⟩ : BufTy).Contents (Elt F) → (⟨S320000x1, .f32⟩ : BufTy).Contents (Elt F) → (⟨S50000x1, .f32⟩ : BufTy).Contents (Elt F)),
    StableHlo.nullary main_cst_63 (constant S_ .f32 0x3F800000#32),
    StableHlo.TRef.unary (.of main_cst_63) main_call12.v0 id,
    StableHlo.TRef.unary main_call12.v0 main_call12.v1 (broadcastInDim S50000x1 ![] bcast_S_S50000x1),
    StableHlo.TRef.binary main_call12.v1 (.of main_v308) main_call12.v2 maximumf,
    StableHlo.unary main_v309 main_v310 (broadcastInDim S50000x128 ![0, 1] bcast_S50000x1_S50000x128_0_1 : (⟨S50000x1, .f32⟩ : BufTy).Contents (Elt F) → (⟨S50000x128, .f32⟩ : BufTy).Contents (Elt F)),
    StableHlo.binary main_v302 main_v310 main_v311 (Host.divf : (⟨S50000x128, .f32⟩ : BufTy).Contents (Elt F) → (⟨S50000x128, .f32⟩ : BufTy).Contents (Elt F) → (⟨S50000x128, .f32⟩ : BufTy).Contents (Elt F)),
    StableHlo.unary main_arg7 main_v312 ((extractStridedSlice S1x160000 ![0, 0] · slices_S2x160000_S1x160000_0_0) : (⟨S2x160000, .i32⟩ : BufTy).Contents (Elt F) → (⟨S1x160000, .i32⟩ : BufTy).Contents (Elt F)),
    StableHlo.reshape main_v312 main_v313 rfl shapeCasts_S1x160000_S160000,
    StableHlo.nullary main_c_64 (constantI S_ 32 0#32),
    StableHlo.unary main_c_64 main_v314 (broadcastInDim S160000 ![] bcast_S_S160000 : (⟨S_, .i32⟩ : BufTy).Contents (Elt F) → (⟨S160000, .i32⟩ : BufTy).Contents (Elt F)),
    StableHlo.binary main_v313 main_v314 main_v315 (cmpi .slt : (⟨S160000, .i32⟩ : BufTy).Contents (Elt F) → (⟨S160000, .i32⟩ : BufTy).Contents (Elt F) → (⟨S160000, .i1⟩ : BufTy).Contents (Elt F)),
    StableHlo.nullary main_c_65 (constantI S_ 32 20000#32),
    StableHlo.unary main_c_65 main_v316 (broadcastInDim S160000 ![] bcast_S_S160000 : (⟨S_, .i32⟩ : BufTy).Contents (Elt F) → (⟨S160000, .i32⟩ : BufTy).Contents (Elt F)),
    StableHlo.binary main_v313 main_v316 main_v317 (addi : (⟨S160000, .i32⟩ : BufTy).Contents (Elt F) → (⟨S160000, .i32⟩ : BufTy).Contents (Elt F) → (⟨S160000, .i32⟩ : BufTy).Contents (Elt F)),
    StableHlo.ternary main_v315 main_v317 main_v313 main_v318 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    StableHlo.unary main_v318 main_v319 (broadcastInDim S160000x1 ![0] bcast_S160000_S160000x1_0 : (⟨S160000, .i32⟩ : BufTy).Contents (Elt F) → (⟨S160000x1, .i32⟩ : BufTy).Contents (Elt F)),
    StableHlo.binary main_v15 main_v319 main_v320 ((fun x i => Host.gather gather_S20000x128_S160000x1_S160000x128_1_0_n_n_0_1_1128 x i) : (⟨S20000x128, .f32⟩ : BufTy).Contents (Elt F) → (⟨S160000x1, .i32⟩ : BufTy).Contents (Elt F) → (⟨S160000x128, .f32⟩ : BufTy).Contents (Elt F)),
    StableHlo.binary main_v320 main_v239 main_v321 ((fun l r => Host.dotGeneral dot_S160000x128_S128x128_S160000x128_1_0_0_1_n_n none l r) : (⟨S160000x128, .f32⟩ : BufTy).Contents (Elt F) → (⟨S128x128, .f32⟩ : BufTy).Contents (Elt F) → (⟨S160000x128, .f32⟩ : BufTy).Contents (Elt F)),
    StableHlo.unary main_arg7 main_v322 ((extractStridedSlice S1x160000 ![1, 0] · slices_S2x160000_S1x160000_1_0) : (⟨S2x160000, .i32⟩ : BufTy).Contents (Elt F) → (⟨S1x160000, .i32⟩ : BufTy).Contents (Elt F)),
    StableHlo.reshape main_v322 main_v323 rfl shapeCasts_S1x160000_S160000,
    StableHlo.nullary main_cst_66 (constant S_ .f32 0x00000000#32),
    StableHlo.unary main_cst_66 main_v324 (broadcastInDim S50000x128 ![] bcast_S_S50000x128 : (⟨S_, .f32⟩ : BufTy).Contents (Elt F) → (⟨S50000x128, .f32⟩ : BufTy).Contents (Elt F)),
    StableHlo.unary main_v323 main_v325 (broadcastInDim S160000x1 ![0] bcast_S160000_S160000x1_0 : (⟨S160000, .i32⟩ : BufTy).Contents (Elt F) → (⟨S160000x1, .i32⟩ : BufTy).Contents (Elt F)),
    StableHlo.ternary main_v324 main_v325 main_v321 main_v326 ((fun x i u => Host.scatterAdd scatter_S50000x128_S160000x1_S160000x128_1_0_0_1 x i u) : (⟨S50000x128, .f32⟩ : BufTy).Contents (Elt F) → (⟨S160000x1, .i32⟩ : BufTy).Contents (Elt F) → (⟨S160000x128, .f32⟩ : BufTy).Contents (Elt F) → (⟨S50000x128, .f32⟩ : BufTy).Contents (Elt F)),
    StableHlo.nullary main_cst_67 (constant S_ .f32 0x3F800000#32),
    StableHlo.unary main_cst_67 main_v327 (broadcastInDim S160000x1 ![] bcast_S_S160000x1 : (⟨S_, .f32⟩ : BufTy).Contents (Elt F) → (⟨S160000x1, .f32⟩ : BufTy).Contents (Elt F)),
    StableHlo.unary main_arg7 main_v328 ((extractStridedSlice S1x160000 ![1, 0] · slices_S2x160000_S1x160000_1_0) : (⟨S2x160000, .i32⟩ : BufTy).Contents (Elt F) → (⟨S1x160000, .i32⟩ : BufTy).Contents (Elt F)),
    StableHlo.reshape main_v328 main_v329 rfl shapeCasts_S1x160000_S160000,
    StableHlo.nullary main_cst_68 (constant S_ .f32 0x00000000#32),
    StableHlo.unary main_cst_68 main_v330 (broadcastInDim S50000x1 ![] bcast_S_S50000x1 : (⟨S_, .f32⟩ : BufTy).Contents (Elt F) → (⟨S50000x1, .f32⟩ : BufTy).Contents (Elt F)),
    StableHlo.unary main_v329 main_v331 (broadcastInDim S160000x1 ![0] bcast_S160000_S160000x1_0 : (⟨S160000, .i32⟩ : BufTy).Contents (Elt F) → (⟨S160000x1, .i32⟩ : BufTy).Contents (Elt F)),
    StableHlo.ternary main_v330 main_v331 main_v327 main_v332 ((fun x i u => Host.scatterAdd scatter_S50000x1_S160000x1_S160000x1_1_0_0_1 x i u) : (⟨S50000x1, .f32⟩ : BufTy).Contents (Elt F) → (⟨S160000x1, .i32⟩ : BufTy).Contents (Elt F) → (⟨S160000x1, .f32⟩ : BufTy).Contents (Elt F) → (⟨S50000x1, .f32⟩ : BufTy).Contents (Elt F)),
    StableHlo.nullary main_cst_69 (constant S_ .f32 0x3F800000#32),
    StableHlo.TRef.unary (.of main_cst_69) main_call13.v0 id,
    StableHlo.TRef.unary main_call13.v0 main_call13.v1 (broadcastInDim S50000x1 ![] bcast_S_S50000x1),
    StableHlo.TRef.binary main_call13.v1 (.of main_v332) main_call13.v2 maximumf,
    StableHlo.unary main_v333 main_v334 (broadcastInDim S50000x128 ![0, 1] bcast_S50000x1_S50000x128_0_1 : (⟨S50000x1, .f32⟩ : BufTy).Contents (Elt F) → (⟨S50000x128, .f32⟩ : BufTy).Contents (Elt F)),
    StableHlo.binary main_v326 main_v334 main_v335 (Host.divf : (⟨S50000x128, .f32⟩ : BufTy).Contents (Elt F) → (⟨S50000x128, .f32⟩ : BufTy).Contents (Elt F) → (⟨S50000x128, .f32⟩ : BufTy).Contents (Elt F)),
    StableHlo.unary main_arg16 main_v336 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v336 main_v337 rfl shapeCasts_S1x128x128_S128x128,
    StableHlo.binary main_v237 main_v337 main_v338 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg17 main_v339 ((extractStridedSlice S1x128 ![2, 0] · slices_S3x128_S1x128_2_0) : (⟨S3x128, .f32⟩ : BufTy).Contents (Elt F) → (⟨S1x128, .f32⟩ : BufTy).Contents (Elt F)),
    StableHlo.reshape main_v339 main_v340 rfl shapeCasts_S1x128_S128,
    StableHlo.unary main_v340 main_v341 (broadcastInDim S1x128 ![1] bcast_S128_S1x128_1 : (⟨S128, .f32⟩ : BufTy).Contents (Elt F) → (⟨S1x128, .f32⟩ : BufTy).Contents (Elt F)),
    StableHlo.unary main_v341 main_v342 (broadcastInDim S50000x128 ![0, 1] bcast_S1x128_S50000x128_0_1 : (⟨S1x128, .f32⟩ : BufTy).Contents (Elt F) → (⟨S50000x128, .f32⟩ : BufTy).Contents (Elt F)),
    StableHlo.binary main_v338 main_v342 main_v343 (addf : (⟨S50000x128, .f32⟩ : BufTy).Contents (Elt F) → (⟨S50000x128, .f32⟩ : BufTy).Contents (Elt F) → (⟨S50000x128, .f32⟩ : BufTy).Contents (Elt F)),
    StableHlo.binary main_v343 main_v263 main_v344 (addf : (⟨S50000x128, .f32⟩ : BufTy).Contents (Elt F) → (⟨S50000x128, .f32⟩ : BufTy).Contents (Elt F) → (⟨S50000x128, .f32⟩ : BufTy).Contents (Elt F)),
    StableHlo.binary main_v344 main_v287 main_v345 (addf : (⟨S50000x128, .f32⟩ : BufTy).Contents (Elt F) → (⟨S50000x128, .f32⟩ : BufTy).Contents (Elt F) → (⟨S50000x128, .f32⟩ : BufTy).Contents (Elt F)),
    StableHlo.binary main_v345 main_v311 main_v346 (addf : (⟨S50000x128, .f32⟩ : BufTy).Contents (Elt F) → (⟨S50000x128, .f32⟩ : BufTy).Contents (Elt F) → (⟨S50000x128, .f32⟩ : BufTy).Contents (Elt F)),
    StableHlo.binary main_v346 main_v335 main_v347 (addf : (⟨S50000x128, .f32⟩ : BufTy).Contents (Elt F) → (⟨S50000x128, .f32⟩ : BufTy).Contents (Elt F) → (⟨S50000x128, .f32⟩ : BufTy).Contents (Elt F)) ]

set_option maxRecDepth 8192 in
set_option maxHeartbeats 4000000 in
/-- The part is that straight line: the called functions unfolded at their calls, both sides are one chain of
    operation steps once sequencing is reassociated. -/
theorem part6_eq (c : Dev nD) : main_part6 (F := F) c = seq ops6 := by
  simp only [main_part6, fn_clip.body, fn_elu.body, fn_where.body, fn_where_0.body, seq, bind_assoc, pure_bind, bind_pure_unit] <;> rfl

/-- Every operation touches TensorCore buffers only. -/
theorem ops6_sub : (ops6 : List (HloOp τ sig (Elt F))).Forall fun op => op.bufs ⊆ tcRefs τ sig :=
  ⟨unary_bufs_sub .., reshape_bufs_sub .., nullary_bufs_sub .., unary_bufs_sub .., unary_bufs_sub .., ternary_bufs_sub .., nullary_bufs_sub .., unary_bufs_sub .., unary_bufs_sub .., reshape_bufs_sub .., nullary_bufs_sub .., unary_bufs_sub .., unary_bufs_sub .., ternary_bufs_sub .., nullary_bufs_sub .., unary_bufs_sub .., unary_bufs_sub .., binary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., reshape_bufs_sub .., nullary_bufs_sub .., unary_bufs_sub .., unary_bufs_sub .., ternary_bufs_sub .., nullary_bufs_sub .., unary_bufs_sub .., unary_bufs_sub .., reshape_bufs_sub .., nullary_bufs_sub .., unary_bufs_sub .., unary_bufs_sub .., ternary_bufs_sub .., nullary_bufs_sub .., unary_bufs_sub .., unary_bufs_sub .., binary_bufs_sub .., unary_bufs_sub .., binary_bufs_sub .., unary_bufs_sub .., reshape_bufs_sub .., binary_bufs_sub .., unary_bufs_sub .., reshape_bufs_sub .., unary_bufs_sub .., unary_bufs_sub .., binary_bufs_sub .., binary_bufs_sub .., binary_bufs_sub .., binary_bufs_sub .., binary_bufs_sub ..⟩

/-- Every operation determines its results. -/
theorem ops6_fresh : (ops6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Cert.ReferenceIdeal.RefRun

end
-- ==== Proof.RefOps7.lean ====
/-
  Statements 421 … 422 of the reference's @main as a list of operations, in order.  A call of a module-local
  function is that function's body over the call's own buffers: the clipping function is three operations (its
  scalar bound converted, broadcast, the elementwise maximum), the ELU function fifteen (three scalar zeros, two
  comparisons with zero, the inner selection's three, the exponential minus one, the scalar one and its
  broadcast, the product, the outer selection).  The part of @main is the straight line of these operations.
-/
import proofs.«168040_j41652592837487_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of statements 421 … 422, in order. -/
abbrev ops7 : List (HloOp τ sig (Elt F)) :=
  [
    StableHlo.TRef.nullary main_call14.cst (constant S_ .f32 0x00000000#32),
    StableHlo.TRef.unary main_call14.cst main_call14.v0 (broadcastInDim S50000x128 ![] bcast_S_S50000x128),
    StableHlo.TRef.binary (.of main_v347) main_call14.v0 main_call14.v1 (cmpf .ogt),
    StableHlo.TRef.nullary main_call14.cst_0 (constant S_ .f32 0x00000000#32),
    StableHlo.TRef.unary main_call14.cst_0 main_call14.v2 (broadcastInDim S50000x128 ![] bcast_S_S50000x128),
    StableHlo.TRef.binary (.of main_v347) main_call14.v2 main_call14.v3 (cmpf .ogt),
    StableHlo.TRef.nullary main_call14.cst_1 (constant S_ .f32 0x00000000#32),
    StableHlo.TRef.unary main_call14.cst_1 main_call14.call0.v0 id,
    StableHlo.TRef.unary main_call14.call0.v0 main_call14.call0.v1 (broadcastInDim S50000x128 ![] bcast_S_S50000x128),
    StableHlo.TRef.ternary main_call14.v3 main_call14.call0.v1 (.of main_v347) main_call14.call0.v2 select,
    StableHlo.TRef.unary main_call14.call0.v2 main_call14.v5 Host.expm1,
    StableHlo.TRef.nullary main_call14.cst_2 (constant S_ .f32 0x3F800000#32),
    StableHlo.TRef.unary main_call14.cst_2 main_call14.v6 (broadcastInDim S50000x128 ![] bcast_S_S50000x128),
    StableHlo.TRef.binary main_call14.v6 main_call14.v5 main_call14.v7 mulf,
    StableHlo.TRef.ternary main_call14.v1 (.of main_v347) main_call14.v7 main_call14.call1.v0 select ]

set_option maxRecDepth 8192 in
set_option maxHeartbeats 4000000 in
/-- The part is that straight line: the called functions unfolded at their calls, both sides are one chain of
    operation steps once sequencing is reassociated. -/
theorem part7_eq (c : Dev nD) : main_part7 (F := F) c = seq ops7 := by
  simp only [main_part7, fn_clip.body, fn_elu.body, fn_where.body, fn_where_0.body, seq, bind_assoc, pure_bind, bind_pure_unit] <;> rfl

/-- Every operation touches TensorCore buffers only. -/
theorem ops7_sub : (ops7 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

/-- Every operation determines its results. -/
theorem ops7_fresh : (ops7 : List (HloOp τ sig (Elt F))).Forall fun op => op.fresh = ∅ :=
  ⟨rfl, rfl, rfl, rfl, rfl, rfl, rfl, rfl, rfl, rfl, rfl, rfl, rfl, rfl, rfl⟩

end Cert.ReferenceIdeal.RefRun

end
-- ==== Proof.RefOpsMain.lean ====
/-
  The reference's @main as ONE list of operations — the eight parts' lists, in order — and its run: @main is the
  straight line of these operations, every one touches TensorCore buffers only and determines its results, so
  from any memory with zero counters every weakly fair execution terminates with each TensorCore buffer at the
  fold of the operations' results over its launch contents.
-/
import proofs.«168040_j41652592837487_1_alg».proof.Proof.RefOps0
import proofs.«168040_j41652592837487_1_alg».proof.Proof.RefOps1
import proofs.«168040_j41652592837487_1_alg».proof.Proof.RefOps2
import proofs.«168040_j41652592837487_1_alg».proof.Proof.RefOps3
import proofs.«168040_j41652592837487_1_alg».proof.Proof.RefOps4
import proofs.«168040_j41652592837487_1_alg».proof.Proof.RefOps5
import proofs.«168040_j41652592837487_1_alg».proof.Proof.RefOps6
import proofs.«168040_j41652592837487_1_alg».proof.Proof.RefOps7
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 487 operations, in order: the parts' lists appended. -/
abbrev ops : List (HloOp τ sig (Elt F)) :=
  ops0 ++ (ops1 ++ (ops2 ++ (ops3 ++ (ops4 ++ (ops5 ++ (ops6 ++ (ops7)))))))

/-- @main runs its eight parts in order; each part is the straight line of its list, and lines run one after
    the other are their concatenation run as one. -/
theorem main_eq (c : Dev nD) : main (F := F) c = seq ops := by
  simp only [main, ops, seq_append, part0_eq, part1_eq, part2_eq, part3_eq, part4_eq, part5_eq, part6_eq, part7_eq]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  List.forall_append.mpr ⟨ops0_sub, List.forall_append.mpr ⟨ops1_sub, List.forall_append.mpr ⟨ops2_sub, List.forall_append.mpr ⟨ops3_sub, List.forall_append.mpr ⟨ops4_sub, List.forall_append.mpr ⟨ops5_sub, List.forall_append.mpr ⟨ops6_sub, ops7_sub⟩⟩⟩⟩⟩⟩⟩

/-- Every operation determines its results. -/
theorem ops_fresh : (ops : List (HloOp τ sig (Elt F))).Forall fun op => op.fresh = ∅ :=
  List.forall_append.mpr ⟨ops0_fresh, List.forall_append.mpr ⟨ops1_fresh, List.forall_append.mpr ⟨ops2_fresh, List.forall_append.mpr ⟨ops3_fresh, List.forall_append.mpr ⟨ops4_fresh, List.forall_append.mpr ⟨ops5_fresh, List.forall_append.mpr ⟨ops6_fresh, ops7_fresh⟩⟩⟩⟩⟩⟩⟩

/-- At the compiled mesh, for any float values, from any memory with zero counters: every weakly fair execution
    of @main on the TensorCores terminates, and every final state has each TensorCore buffer at the operations'
    fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ => List.forall_iff_forall_mem.mp ops_fresh)

end Cert.ReferenceIdeal.RefRun

end
-- ==== Proof.RefVal.lean ====
/-
  The value of the reference program at the ideal floats, as a layered term over its nineteen arguments: the
  program's operations composed in program order, each definition one stage.  An array is a function from its
  index type to its elements; float elements are extended reals, integer elements are bit vectors.

  * rowA_E / rowB_E  : row 0 / row 1 of a 2 × E edge array, as a vector of length E.
  * src_r e          : relation r's gather indices, E × 1: row 0 of e, an entry s < 0 replaced by s + N (N the
                       number of source rows), then laid out as a column.
  * tgt_r e          : relation r's scatter indices, E × 1: row 1 of e as a column.
  * rel_r h W e      : relation r's mean message: the rows of h gathered at src_r e, times W, summed into 50000
                       rows at tgt_r e, divided entrywise by max(1, count), count the number of edges into the row.
  * eluR x           : the exponential linear unit as the reference spells it: x where x > 0, and elsewhere
                       1 · expm1(y) with y = 0 where x > 0 and x elsewhere.
  * layer            : eluR of  h·Ws + bs + rel_sp + rel_fl + rel_fs + rel_inc, the sum associated to the left.
  * proj_k x W b     : x·W + b, the input projection of node type k.
  * sliceW_l, sliceB_l : matrix l of a stack of three 128 × 128 matrices, row l of a 3 × 128 array.
  * RVal             : three layers over the four projections; only the first node type's features change between layers.
-/
import proofs.«168040_j41652592837487_1_alg».proof.Proof.Gen.ReferenceIdeal
import Idealize.ShloMosaic.PureOps.Ideal

noncomputable section

namespace Cert.ReferenceIdeal.RefVal

open Cert.ReferenceIdeal Cert.ReferenceIdeal.Gen Idealize.ShloMosaic

/-- Row 0 of a 2 × 640000 integer array, as a vector. -/
def rowA_640000 (e : IVec S2x640000 32) : IVec S640000 32 :=
  shapeCast S640000 (extractStridedSlice S1x640000 ![0, 0] e slices_S2x640000_S1x640000_0_0) shapeCasts_S1x640000_S640000

/-- Row 1 of a 2 × 640000 integer array, as a vector. -/
def rowB_640000 (e : IVec S2x640000 32) : IVec S640000 32 :=
  shapeCast S640000 (extractStridedSlice S1x640000 ![1, 0] e slices_S2x640000_S1x640000_1_0) shapeCasts_S1x640000_S640000

/-- Row 0 of a 2 × 320000 integer array, as a vector. -/
def rowA_320000 (e : IVec S2x320000 32) : IVec S320000 32 :=
  shapeCast S320000 (extractStridedSlice S1x320000 ![0, 0] e slices_S2x320000_S1x320000_0_0) shapeCasts_S1x320000_S320000

/-- Row 1 of a 2 × 320000 integer array, as a vector. -/
def rowB_320000 (e : IVec S2x320000 32) : IVec S320000 32 :=
  shapeCast S320000 (extractStridedSlice S1x320000 ![1, 0] e slices_S2x320000_S1x320000_1_0) shapeCasts_S1x320000_S320000

/-- Row 0 of a 2 × 160000 integer array, as a vector. -/
def rowA_160000 (e : IVec S2x160000 32) : IVec S160000 32 :=
  shapeCast S160000 (extractStridedSlice S1x160000 ![0, 0] e slices_S2x160000_S1x160000_0_0) shapeCasts_S1x160000_S160000

/-- Row 1 of a 2 × 160000 integer array, as a vector. -/
def rowB_160000 (e : IVec S2x160000 32) : IVec S160000 32 :=
  shapeCast S160000 (extractStridedSlice S1x160000 ![1, 0] e slices_S2x160000_S1x160000_1_0) shapeCasts_S1x160000_S160000

/-- The first relation's gather indices: row 0 of the edge array, a negative entry s replaced by s + 50000, as a column. -/
def src_sp (e : IVec S2x640000 32) : IVec S640000x1 32 :=
  broadcastInDim S640000x1 ![0] bcast_S640000_S640000x1_0
    (select (cmpi .slt (rowA_640000 e) (broadcastInDim S640000 ![] bcast_S_S640000 (constantI S_ 32 0#32)))
      (addi (rowA_640000 e) (broadcastInDim S640000 ![] bcast_S_S640000 (constantI S_ 32 50000#32)))
      (rowA_640000 e))

/-- The first relation's scatter indices: row 1 of the edge array, as a column. -/
def tgt_sp (e : IVec S2x640000 32) : IVec S640000x1 32 :=
  broadcastInDim S640000x1 ![0] bcast_S640000_S640000x1_0 (rowB_640000 e)

/-- The first relation's mean message into the 50000 target rows. -/
def rel_sp (h : FVec Ideal S50000x128 .f32) (W : FVec Ideal S128x128 .f32) (e : IVec S2x640000 32) : FVec Ideal S50000x128 .f32 :=
  Host.divf (F := Ideal)
    (Host.scatterAdd (F := Ideal) scatter_S50000x128_S640000x1_S640000x128_1_0_0_1
      (broadcastInDim S50000x128 ![] bcast_S_S50000x128 (constant (F := Ideal) S_ .f32 0x00000000#32))
      (tgt_sp e)
      (Host.dotGeneral (F := Ideal) dot_S640000x128_S128x128_S640000x128_1_0_0_1_n_n none
        (Host.gather gather_S50000x128_S640000x1_S640000x128_1_0_n_n_0_1_1128 h (src_sp e)) W))
    (broadcastInDim S50000x128 ![0, 1] bcast_S50000x1_S50000x128_0_1
      (maximumf (F := Ideal)
        (broadcastInDim S50000x1 ![] bcast_S_S50000x1 (id (constant (F := Ideal) S_ .f32 0x3F800000#32)))
        (Host.scatterAdd (F := Ideal) scatter_S50000x1_S640000x1_S640000x1_1_0_0_1
          (broadcastInDim S50000x1 ![] bcast_S_S50000x1 (constant (F := Ideal) S_ .f32 0x00000000#32))
          (tgt_sp e)
          (broadcastInDim S640000x1 ![] bcast_S_S640000x1 (constant (F := Ideal) S_ .f32 0x3F800000#32)))))

/-- The second relation's gather indices: row 0 of the edge array, a negative entry s replaced by s + 100000, as a column. -/
def src_fl (e : IVec S2x640000 32) : IVec S640000x1 32 :=
  broadcastInDim S640000x1 ![0] bcast_S640000_S640000x1_0
    (select (cmpi .slt (rowA_640000 e) (broadcastInDim S640000 ![] bcast_S_S640000 (constantI S_ 32 0#32)))
      (addi (rowA_640000 e) (broadcastInDim S640000 ![] bcast_S_S640000 (constantI S_ 32 100000#32)))
      (rowA_640000 e))

/-- The second relation's scatter indices: row 1 of the edge array, as a column. -/
def tgt_fl (e : IVec S2x640000 32) : IVec S640000x1 32 :=
  broadcastInDim S640000x1 ![0] bcast_S640000_S640000x1_0 (rowB_640000 e)

/-- The second relation's mean message into the 50000 target rows. -/
def rel_fl (h : FVec Ideal S100000x128 .f32) (W : FVec Ideal S128x128 .f32) (e : IVec S2x640000 32) : FVec Ideal S50000x128 .f32 :=
  Host.divf (F := Ideal)
    (Host.scatterAdd (F := Ideal) scatter_S50000x128_S640000x1_S640000x128_1_0_0_1
      (broadcastInDim S50000x128 ![] bcast_S_S50000x128 (constant (F := Ideal) S_ .f32 0x00000000#32))
      (tgt_fl e)
      (Host.dotGeneral (F := Ideal) dot_S640000x128_S128x128_S640000x128_1_0_0_1_n_n none
        (Host.gather gather_S100000x128_S640000x1_S640000x128_1_0_n_n_0_1_1128 h (src_fl e)) W))
    (broadcastInDim S50000x128 ![0, 1] bcast_S50000x1_S50000x128_0_1
      (maximumf (F := Ideal)
        (broadcastInDim S50000x1 ![] bcast_S_S50000x1 (id (constant (F := Ideal) S_ .f32 0x3F800000#32)))
        (Host.scatterAdd (F := Ideal) scatter_S50000x1_S640000x1_S640000x1_1_0_0_1
          (broadcastInDim S50000x1 ![] bcast_S_S50000x1 (constant (F := Ideal) S_ .f32 0x00000000#32))
          (tgt_fl e)
          (broadcastInDim S640000x1 ![] bcast_S_S640000x1 (constant (F := Ideal) S_ .f32 0x3F800000#32)))))

/-- The third relation's gather indices: row 0 of the edge array, a negative entry s replaced by s + 50000, as a column. -/
def src_fs (e : IVec S2x320000 32) : IVec S320000x1 32 :=
  broadcastInDim S320000x1 ![0] bcast_S320000_S320000x1_0
    (select (cmpi .slt (rowA_320000 e) (broadcastInDim S320000 ![] bcast_S_S320000 (constantI S_ 32 0#32)))
      (addi (rowA_320000 e) (broadcastInDim S320000 ![] bcast_S_S320000 (constantI S_ 32 50000#32)))
      (rowA_320000 e))

/-- The third relation's scatter indices: row 1 of the edge array, as a column. -/
def tgt_fs (e : IVec S2x320000 32) : IVec S320000x1 32 :=
  broadcastInDim S320000x1 ![0] bcast_S320000_S320000x1_0 (rowB_320000 e)

/-- The third relation's mean message into the 50000 target rows. -/
def rel_fs (h : FVec Ideal S50000x128 .f32) (W : FVec Ideal S128x128 .f32) (e : IVec S2x320000 32) : FVec Ideal S50000x128 .f32 :=
  Host.divf (F := Ideal)
    (Host.scatterAdd (F := Ideal) scatter_S50000x128_S320000x1_S320000x128_1_0_0_1
      (broadcastInDim S50000x128 ![] bcast_S_S50000x128 (constant (F := Ideal) S_ .f32 0x00000000#32))
      (tgt_fs e)
      (Host.dotGeneral (F := Ideal) dot_S320000x128_S128x128_S320000x128_1_0_0_1_n_n none
        (Host.gather gather_S50000x128_S320000x1_S320000x128_1_0_n_n_0_1_1128 h (src_fs e)) W))
    (broadcastInDim S50000x128 ![0, 1] bcast_S50000x1_S50000x128_0_1
      (maximumf (F := Ideal)
        (broadcastInDim S50000x1 ![] bcast_S_S50000x1 (id (constant (F := Ideal) S_ .f32 0x3F800000#32)))
        (Host.scatterAdd (F := Ideal) scatter_S50000x1_S320000x1_S320000x1_1_0_0_1
          (broadcastInDim S50000x1 ![] bcast_S_S50000x1 (constant (F := Ideal) S_ .f32 0x00000000#32))
          (tgt_fs e)
          (broadcastInDim S320000x1 ![] bcast_S_S320000x1 (constant (F := Ideal) S_ .f32 0x3F800000#32)))))

/-- The fourth relation's gather indices: row 0 of the edge array, a negative entry s replaced by s + 20000, as a column. -/
def src_inc (e : IVec S2x160000 32) : IVec S160000x1 32 :=
  broadcastInDim S160000x1 ![0] bcast_S160000_S160000x1_0
    (select (cmpi .slt (rowA_160000 e) (broadcastInDim S160000 ![] bcast_S_S160000 (constantI S_ 32 0#32)))
      (addi (rowA_160000 e) (broadcastInDim S160000 ![] bcast_S_S160000 (constantI S_ 32 20000#32)))
      (rowA_160000 e))

/-- The fourth relation's scatter indices: row 1 of the edge array, as a column. -/
def tgt_inc (e : IVec S2x160000 32) : IVec S160000x1 32 :=
  broadcastInDim S160000x1 ![0] bcast_S160000_S160000x1_0 (rowB_160000 e)

/-- The fourth relation's mean message into the 50000 target rows. -/
def rel_inc (h : FVec Ideal S20000x128 .f32) (W : FVec Ideal S128x128 .f32) (e : IVec S2x160000 32) : FVec Ideal S50000x128 .f32 :=
  Host.divf (F := Ideal)
    (Host.scatterAdd (F := Ideal) scatter_S50000x128_S160000x1_S160000x128_1_0_0_1
      (broadcastInDim S50000x128 ![] bcast_S_S50000x128 (constant (F := Ideal) S_ .f32 0x00000000#32))
      (tgt_inc e)
      (Host.dotGeneral (F := Ideal) dot_S160000x128_S128x128_S160000x128_1_0_0_1_n_n none
        (Host.gather gather_S20000x128_S160000x1_S160000x128_1_0_n_n_0_1_1128 h (src_inc e)) W))
    (broadcastInDim S50000x128 ![0, 1] bcast_S50000x1_S50000x128_0_1
      (maximumf (F := Ideal)
        (broadcastInDim S50000x1 ![] bcast_S_S50000x1 (id (constant (F := Ideal) S_ .f32 0x3F800000#32)))
        (Host.scatterAdd (F := Ideal) scatter_S50000x1_S160000x1_S160000x1_1_0_0_1
          (broadcastInDim S50000x1 ![] bcast_S_S50000x1 (constant (F := Ideal) S_ .f32 0x00000000#32))
          (tgt_inc e)
          (broadcastInDim S160000x1 ![] bcast_S_S160000x1 (constant (F := Ideal) S_ .f32 0x3F800000#32)))))

/-- The exponential linear unit as the reference spells it. -/
def eluR (x : FVec Ideal S50000x128 .f32) : FVec Ideal S50000x128 .f32 :=
  select
    (cmpf (F := Ideal) .ogt x (broadcastInDim S50000x128 ![] bcast_S_S50000x128 (constant (F := Ideal) S_ .f32 0x00000000#32)))
    x
    (mulf (F := Ideal)
      (broadcastInDim S50000x128 ![] bcast_S_S50000x128 (constant (F := Ideal) S_ .f32 0x3F800000#32))
      (Host.expm1 (F := Ideal)
        (select
          (cmpf (F := Ideal) .ogt x (broadcastInDim S50000x128 ![] bcast_S_S50000x128 (constant (F := Ideal) S_ .f32 0x00000000#32)))
          (broadcastInDim S50000x128 ![] bcast_S_S50000x128 (id (constant (F := Ideal) S_ .f32 0x00000000#32)))
          x)))

/-- One layer: the unit of the self term plus the four relation means, the sum associated to the left. -/
def layer (Ws : FVec Ideal S128x128 .f32) (bs : FVec Ideal S128 .f32) (Wr : FVec Ideal S128x128 .f32)
    (h : FVec Ideal S50000x128 .f32) (hl : FVec Ideal S100000x128 .f32) (hs : FVec Ideal S50000x128 .f32)
    (hj : FVec Ideal S20000x128 .f32)
    (e4 : IVec S2x640000 32) (e5 : IVec S2x640000 32) (e6 : IVec S2x320000 32) (e7 : IVec S2x160000 32) :
    FVec Ideal S50000x128 .f32 :=
  eluR
    (addf (F := Ideal)
      (addf (F := Ideal)
        (addf (F := Ideal)
          (addf (F := Ideal)
            (addf (F := Ideal)
              (Host.dotGeneral (F := Ideal) dot_S50000x128_S128x128_S50000x128_1_0_0_1_n_n none h Ws)
              (broadcastInDim S50000x128 ![0, 1] bcast_S1x128_S50000x128_0_1 (broadcastInDim S1x128 ![1] bcast_S128_S1x128_1 bs)))
            (rel_sp h Wr e4))
          (rel_fl hl Wr e5))
        (rel_fs hs Wr e6))
      (rel_inc hj Wr e7))

/-- The input projection of node type 0: x·W plus the bias row. -/
def proj0 (x : FVec Ideal S50000x32 .f32) (W : FVec Ideal S32x128 .f32) (b : FVec Ideal S128 .f32) : FVec Ideal S50000x128 .f32 :=
  addf (F := Ideal) (Host.dotGeneral (F := Ideal) dot_S50000x32_S32x128_S50000x128_1_0_0_1_n_n none x W)
    (broadcastInDim S50000x128 ![0, 1] bcast_S1x128_S50000x128_0_1 (broadcastInDim S1x128 ![1] bcast_S128_S1x128_1 b))

/-- The input projection of node type 1: x·W plus the bias row. -/
def proj1 (x : FVec Ideal S100000x16 .f32) (W : FVec Ideal S16x128 .f32) (b : FVec Ideal S128 .f32) : FVec Ideal S100000x128 .f32 :=
  addf (F := Ideal) (Host.dotGeneral (F := Ideal) dot_S100000x16_S16x128_S100000x128_1_0_0_1_n_n none x W)
    (broadcastInDim S100000x128 ![0, 1] bcast_S1x128_S100000x128_0_1 (broadcastInDim S1x128 ![1] bcast_S128_S1x128_1 b))

/-- The input projection of node type 2: x·W plus the bias row. -/
def proj2 (x : FVec Ideal S50000x8 .f32) (W : FVec Ideal S8x128 .f32) (b : FVec Ideal S128 .f32) : FVec Ideal S50000x128 .f32 :=
  addf (F := Ideal) (Host.dotGeneral (F := Ideal) dot_S50000x8_S8x128_S50000x128_1_0_0_1_n_n none x W)
    (broadcastInDim S50000x128 ![0, 1] bcast_S1x128_S50000x128_0_1 (broadcastInDim S1x128 ![1] bcast_S128_S1x128_1 b))

/-- The input projection of node type 3: x·W plus the bias row. -/
def proj3 (x : FVec Ideal S20000x8 .f32) (W : FVec Ideal S8x128 .f32) (b : FVec Ideal S128 .f32) : FVec Ideal S20000x128 .f32 :=
  addf (F := Ideal) (Host.dotGeneral (F := Ideal) dot_S20000x8_S8x128_S20000x128_1_0_0_1_n_n none x W)
    (broadcastInDim S20000x128 ![0, 1] bcast_S1x128_S20000x128_0_1 (broadcastInDim S1x128 ![1] bcast_S128_S1x128_1 b))

/-- Matrix 0 of a stack of three 128 × 128 matrices. -/
def sliceW0 (a : FVec Ideal S3x128x128 .f32) : FVec Ideal S128x128 .f32 :=
  shapeCast S128x128 (extractStridedSlice S1x128x128 ![0, 0, 0] a slices_S3x128x128_S1x128x128_0_0_0) shapeCasts_S1x128x128_S128x128

/-- Row 0 of a 3 × 128 array, as a vector. -/
def sliceB0 (a : FVec Ideal S3x128 .f32) : FVec Ideal S128 .f32 :=
  shapeCast S128 (extractStridedSlice S1x128 ![0, 0] a slices_S3x128_S1x128_0_0) shapeCasts_S1x128_S128

/-- Matrix 1 of a stack of three 128 × 128 matrices. -/
def sliceW1 (a : FVec Ideal S3x128x128 .f32) : FVec Ideal S128x128 .f32 :=
  shapeCast S128x128 (extractStridedSlice S1x128x128 ![1, 0, 0] a slices_S3x128x128_S1x128x128_1_0_0) shapeCasts_S1x128x128_S128x128

/-- Row 1 of a 3 × 128 array, as a vector. -/
def sliceB1 (a : FVec Ideal S3x128 .f32) : FVec Ideal S128 .f32 :=
  shapeCast S128 (extractStridedSlice S1x128 ![1, 0] a slices_S3x128_S1x128_1_0) shapeCasts_S1x128_S128

/-- Matrix 2 of a stack of three 128 × 128 matrices. -/
def sliceW2 (a : FVec Ideal S3x128x128 .f32) : FVec Ideal S128x128 .f32 :=
  shapeCast S128x128 (extractStridedSlice S1x128x128 ![2, 0, 0] a slices_S3x128x128_S1x128x128_2_0_0) shapeCasts_S1x128x128_S128x128

/-- Row 2 of a 3 × 128 array, as a vector. -/
def sliceB2 (a : FVec Ideal S3x128 .f32) : FVec Ideal S128 .f32 :=
  shapeCast S128 (extractStridedSlice S1x128 ![2, 0] a slices_S3x128_S1x128_2_0) shapeCasts_S1x128_S128

/-- The reference's result over its nineteen arguments: three layers over the four input projections. -/
def RVal (a0 : FVec Ideal S50000x32 .f32) (a1 : FVec Ideal S100000x16 .f32) (a2 : FVec Ideal S50000x8 .f32) (a3 : FVec Ideal S20000x8 .f32) (a4 : IVec S2x640000 32) (a5 : IVec S2x640000 32) (a6 : IVec S2x320000 32) (a7 : IVec S2x160000 32) (a8 : FVec Ideal S32x128 .f32) (a9 : FVec Ideal S128 .f32) (a10 : FVec Ideal S16x128 .f32) (a11 : FVec Ideal S128 .f32) (a12 : FVec Ideal S8x128 .f32) (a13 : FVec Ideal S128 .f32) (a14 : FVec Ideal S8x128 .f32) (a15 : FVec Ideal S128 .f32) (a16 : FVec Ideal S3x128x128 .f32) (a17 : FVec Ideal S3x128 .f32) (a18 : FVec Ideal S3x128x128 .f32) : FVec Ideal S50000x128 .f32 :=
  layer (sliceW2 a16) (sliceB2 a17) (sliceW2 a18)
    (layer (sliceW1 a16) (sliceB1 a17) (sliceW1 a18)
      (layer (sliceW0 a16) (sliceB0 a17) (sliceW0 a18)
        (proj0 a0 a8 a9) (proj1 a1 a10 a11) (proj2 a2 a12 a13) (proj3 a3 a14 a15) a4 a5 a6 a7)
      (proj1 a1 a10 a11) (proj2 a2 a12 a13) (proj3 a3 a14 a15) a4 a5 a6 a7)
    (proj1 a1 a10 a11) (proj2 a2 a12 a13) (proj3 a3 a14 a15) a4 a5 a6 a7

end Cert.ReferenceIdeal.RefVal

end
-- ==== Proof.RefOpsLib.lean ====
/-
  Two general facts about the contents a line of host operations leaves.  No program is imported.
-/
import Idealize.ShloMosaic.Lib.StableHlo.Run

namespace Idealize.ShloMosaic.StableHlo

variable {τ : Topo} {sig : RefSig} {Val : EltTy → Type}

/-- If every operation of a line writes only buffers whose index lies between lo and hi, a TensorCore reference
    whose index is outside that range keeps its contents. -/
theorem after_of_idx_range {lo hi : Nat} (ops : List (HloOp τ sig Val)) (V : Valuation τ sig Val)
    (h : ops.Forall fun op => ∀ b ∈ op.writes, lo ≤ b.idx.val ∧ b.idx.val ≤ hi)
    (r : Ref sig .tc) (hr : r.idx.val < lo ∨ hi < r.idx.val) :
    after ops V (Proc.devRef .tc r) = V (Proc.devRef .tc r) :=
  after_of_forall_not_mem ops V fun op hop hb => by
    have h2 := List.forall_iff_forall_mem.mp h op hop _ hb
    have h3 : (Proc.devRef (τ := τ) .tc r).idx.val = r.idx.val := rfl
    omega

/-- A bound on the written indices may be widened. -/
theorem idx_range_mono {lo hi lo' hi' : Nat} (hlo : lo' ≤ lo) (hhi : hi ≤ hi') {ops : List (HloOp τ sig Val)}
    (h : ops.Forall fun op => ∀ b ∈ op.writes, lo ≤ b.idx.val ∧ b.idx.val ≤ hi) :
    ops.Forall fun op => ∀ b ∈ op.writes, lo' ≤ b.idx.val ∧ b.idx.val ≤ hi' :=
  List.forall_iff_forall_mem.mpr fun op hop b hb => by
    have := List.forall_iff_forall_mem.mp h op hop b hb
    omega

end Idealize.ShloMosaic.StableHlo
-- ==== Proof.RefOpsS_proj.lean ====
/-
  One stage of the reference's @main — the four input projections —: the list of its operations; the range of buffer
  indices they write (buffers are numbered in program order, so a stage writes a contiguous range; each operation
  writes one literal buffer, whose index is compared by computation); and what the stage leaves in each buffer a
  later stage reads, as the value-level stage function of the contents before it.  The value statements are at the
  ideal floats.
-/
import proofs.«168040_j41652592837487_1_alg».proof.Proof.Gen.ReferenceIdeal
import Idealize.ShloMosaic.Lib.StableHlo.Run
import proofs.«168040_j41652592837487_1_alg».proof.Proof.RefVal
import proofs.«168040_j41652592837487_1_alg».proof.Proof.RefOpsLib

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
/-- Operations 1 … 16 of @main: the four input projections. -/
def c_proj : List (HloOp τ sig (Elt F)) :=
  [
    StableHlo.binary main_arg0 main_arg8 main_v0 ((fun l r => Host.dotGeneral dot_S50000x32_S32x128_S50000x128_1_0_0_1_n_n none l r) : (⟨S50000x32, .f32⟩ : BufTy).Contents (Elt F) → (⟨S32x128, .f32⟩ : BufTy).Contents (Elt F) → (⟨S50000x128, .f32⟩ : BufTy).Contents (Elt F)),
    StableHlo.unary main_arg9 main_v1 (broadcastInDim S1x128 ![1] bcast_S128_S1x128_1 : (⟨S128, .f32⟩ : BufTy).Contents (Elt F) → (⟨S1x128, .f32⟩ : BufTy).Contents (Elt F)),
    StableHlo.unary main_v1 main_v2 (broadcastInDim S50000x128 ![0, 1] bcast_S1x128_S50000x128_0_1 : (⟨S1x128, .f32⟩ : BufTy).Contents (Elt F) → (⟨S50000x128, .f32⟩ : BufTy).Contents (Elt F)),
    StableHlo.binary main_v0 main_v2 main_v3 (addf : (⟨S50000x128, .f32⟩ : BufTy).Contents (Elt F) → (⟨S50000x128, .f32⟩ : BufTy).Contents (Elt F) → (⟨S50000x128, .f32⟩ : BufTy).Contents (Elt F)),
    StableHlo.binary main_arg1 main_arg10 main_v4 ((fun l r => Host.dotGeneral dot_S100000x16_S16x128_S100000x128_1_0_0_1_n_n none l r) : (⟨S100000x16, .f32⟩ : BufTy).Contents (Elt F) → (⟨S16x128, .f32⟩ : BufTy).Contents (Elt F) → (⟨S100000x128, .f32⟩ : BufTy).Contents (Elt F)),
    StableHlo.unary main_arg11 main_v5 (broadcastInDim S1x128 ![1] bcast_S128_S1x128_1 : (⟨S128, .f32⟩ : BufTy).Contents (Elt F) → (⟨S1x128, .f32⟩ : BufTy).Contents (Elt F)),
    StableHlo.unary main_v5 main_v6 (broadcastInDim S100000x128 ![0, 1] bcast_S1x128_S100000x128_0_1 : (⟨S1x128, .f32⟩ : BufTy).Contents (Elt F) → (⟨S100000x128, .f32⟩ : BufTy).Contents (Elt F)),
    StableHlo.binary main_v4 main_v6 main_v7 (addf : (⟨S100000x128, .f32⟩ : BufTy).Contents (Elt F) → (⟨S100000x128, .f32⟩ : BufTy).Contents (Elt F) → (⟨S100000x128, .f32⟩ : BufTy).Contents (Elt F)),
    StableHlo.binary main_arg2 main_arg12 main_v8 ((fun l r => Host.dotGeneral dot_S50000x8_S8x128_S50000x128_1_0_0_1_n_n none l r) : (⟨S50000x8, .f32⟩ : BufTy).Contents (Elt F) → (⟨S8x128, .f32⟩ : BufTy).Contents (Elt F) → (⟨S50000x128, .f32⟩ : BufTy).Contents (Elt F)),
    StableHlo.unary main_arg13 main_v9 (broadcastInDim S1x128 ![1] bcast_S128_S1x128_1 : (⟨S128, .f32⟩ : BufTy).Contents (Elt F) → (⟨S1x128, .f32⟩ : BufTy).Contents (Elt F)),
    StableHlo.unary main_v9 main_v10 (broadcastInDim S50000x128 ![0, 1] bcast_S1x128_S50000x128_0_1 : (⟨S1x128, .f32⟩ : BufTy).Contents (Elt F) → (⟨S50000x128, .f32⟩ : BufTy).Contents (Elt F)),
    StableHlo.binary main_v8 main_v10 main_v11 (addf : (⟨S50000x128, .f32⟩ : BufTy).Contents (Elt F) → (⟨S50000x128, .f32⟩ : BufTy).Contents (Elt F) → (⟨S50000x128, .f32⟩ : BufTy).Contents (Elt F)),
    StableHlo.binary main_arg3 main_arg14 main_v12 ((fun l r => Host.dotGeneral dot_S20000x8_S8x128_S20000x128_1_0_0_1_n_n none l r) : (⟨S20000x8, .f32⟩ : BufTy).Contents (Elt F) → (⟨S8x128, .f32⟩ : BufTy).Contents (Elt F) → (⟨S20000x128, .f32⟩ : BufTy).Contents (Elt F)),
    StableHlo.unary main_arg15 main_v13 (broadcastInDim S1x128 ![1] bcast_S128_S1x128_1 : (⟨S128, .f32⟩ : BufTy).Contents (Elt F) → (⟨S1x128, .f32⟩ : BufTy).Contents (Elt F)),
    StableHlo.unary main_v13 main_v14 (broadcastInDim S20000x128 ![0, 1] bcast_S1x128_S20000x128_0_1 : (⟨S1x128, .f32⟩ : BufTy).Contents (Elt F) → (⟨S20000x128, .f32⟩ : BufTy).Contents (Elt F)),
    StableHlo.binary main_v12 main_v14 main_v15 (addf : (⟨S20000x128, .f32⟩ : BufTy).Contents (Elt F) → (⟨S20000x128, .f32⟩ : BufTy).Contents (Elt F) → (⟨S20000x128, .f32⟩ : BufTy).Contents (Elt F)) ]

/-- Each of these operations writes one buffer, of index 19 … 34. -/
theorem c_proj_range : (c_proj : List (HloOp τ sig (Elt F))).Forall fun op => ∀ b ∈ op.writes, 19 ≤ b.idx.val ∧ b.idx.val ≤ 34 := by
  unfold c_proj
  exact ⟨by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide⟩

set_option maxRecDepth 8192 in
set_option maxHeartbeats 1600000 in
/-- What these operations leave in %3's buffer, over the contents before them: each operation's result
    at its own buffer is its function of its operands' contents, any other buffer is unchanged; the composed term is
    the stage function by unfolding its definition. -/
theorem c_proj_v3 (V : Valuation τ sig (Elt Ideal)) :
    after (c_proj (F := Ideal)) V (main_v3 : DevRef τ sig) = RefVal.proj0 (V (main_arg0 : DevRef τ sig)) (V (main_arg8 : DevRef τ sig)) (V (main_arg9 : DevRef τ sig)) := by
  unfold c_proj
  after_results_simp
  rfl

set_option maxRecDepth 8192 in
set_option maxHeartbeats 1600000 in
/-- What these operations leave in %7's buffer, over the contents before them: each operation's result
    at its own buffer is its function of its operands' contents, any other buffer is unchanged; the composed term is
    the stage function by unfolding its definition. -/
theorem c_proj_v7 (V : Valuation τ sig (Elt Ideal)) :
    after (c_proj (F := Ideal)) V (main_v7 : DevRef τ sig) = RefVal.proj1 (V (main_arg1 : DevRef τ sig)) (V (main_arg10 : DevRef τ sig)) (V (main_arg11 : DevRef τ sig)) := by
  unfold c_proj
  after_results_simp
  rfl

set_option maxRecDepth 8192 in
set_option maxHeartbeats 1600000 in
/-- What these operations leave in %11's buffer, over the contents before them: each operation's result
    at its own buffer is its function of its operands' contents, any other buffer is unchanged; the composed term is
    the stage function by unfolding its definition. -/
theorem c_proj_v11 (V : Valuation τ sig (Elt Ideal)) :
    after (c_proj (F := Ideal)) V (main_v11 : DevRef τ sig) = RefVal.proj2 (V (main_arg2 : DevRef τ sig)) (V (main_arg12 : DevRef τ sig)) (V (main_arg13 : DevRef τ sig)) := by
  unfold c_proj
  after_results_simp
  rfl

set_option maxRecDepth 8192 in
set_option maxHeartbeats 1600000 in
/-- What these operations leave in %15's buffer, over the contents before them: each operation's result
    at its own buffer is its function of its operands' contents, any other buffer is unchanged; the composed term is
    the stage function by unfolding its definition. -/
theorem c_proj_v15 (V : Valuation τ sig (Elt Ideal)) :
    after (c_proj (F := Ideal)) V (main_v15 : DevRef τ sig) = RefVal.proj3 (V (main_arg3 : DevRef τ sig)) (V (main_arg14 : DevRef τ sig)) (V (main_arg15 : DevRef τ sig)) := by
  unfold c_proj
  after_results_simp
  rfl

end Cert.ReferenceIdeal.RefRun

end
-- ==== Proof.RefOpsS_wr0.lean ====
/-
  One stage of the reference's @main — layer 0's relation matrix (a slice of the stack, reshaped) —: the list of its operations; the range of buffer
  indices they write (buffers are numbered in program order, so a stage writes a contiguous range; each operation
  writes one literal buffer, whose index is compared by computation); and what the stage leaves in each buffer a
  later stage reads, as the value-level stage function of the contents before it.  The value statements are at the
  ideal floats.
-/
import proofs.«168040_j41652592837487_1_alg».proof.Proof.Gen.ReferenceIdeal
import Idealize.ShloMosaic.Lib.StableHlo.Run
import proofs.«168040_j41652592837487_1_alg».proof.Proof.RefVal
import proofs.«168040_j41652592837487_1_alg».proof.Proof.RefOpsLib

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
/-- Operations 17 … 18 of @main: layer 0's relation matrix (a slice of the stack, reshaped). -/
def c_wr0 : List (HloOp τ sig (Elt F)) :=
  [
    StableHlo.unary main_arg18 main_v16 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v16 main_v17 rfl shapeCasts_S1x128x128_S128x128 ]

/-- Each of these operations writes one buffer, of index 35 … 36. -/
theorem c_wr0_range : (c_wr0 : List (HloOp τ sig (Elt F))).Forall fun op => ∀ b ∈ op.writes, 35 ≤ b.idx.val ∧ b.idx.val ≤ 36 := by
  unfold c_wr0
  exact ⟨by intro b hb; rw [Finset.mem_singleton.mp hb]; decide, by intro b hb; rw [Finset.mem_singleton.mp hb]; decide⟩

set_option maxRecDepth 8192 in
set_option maxHeartbeats 1600000 in
/-- What these operations leave in %17's buffer, over the contents before them: each operation's result
    at its own buffer is its function of its operands' contents, any other buffer is unchanged; the composed term is
    the stage function by unfolding its definition. -/
theorem c_wr0_v17 (V : Valuation τ sig (Elt Ideal)) :
    after (c_wr0 (F := Ideal)) V (main_v17 : DevRef τ sig) = RefVal.sliceW0 (V (main_arg18 : DevRef τ sig)) := by
  unfold c_wr0
  after_results_simp
  rfl

end Cert.ReferenceIdeal.RefRun

end
-- ==== Proof.LibTRef.lean ====
/-
  Typed references to tensor buffers carry contents along the equation between the buffer's type and the value's
  type, in both directions.  Going to the buffer and back is the identity: a value an operation writes through a
  typed reference and a later operation reads through the same reference is read unchanged.  General; no program
  is imported.
-/
import Idealize.ShloMosaic.Lib.StableHlo

namespace Idealize.ShloMosaic.StableHlo.TRef

variable {sig : RefSig} {Val : EltTy → Type} {T : BufTy}

/-- Contents carried to a typed reference's buffer and back are the contents. -/
theorem ofBuf_toBuf (x : TRef sig T) (v : T.Contents Val) : x.ofBuf (x.toBuf v) = v := by
  obtain ⟨r, rfl, _, _⟩ := x
  rfl

/-- Contents of the buffer carried to the value's type and back are the contents. -/
theorem toBuf_ofBuf (x : TRef sig T) (v : x.ref.ty.Contents Val) : x.toBuf (x.ofBuf v) = v := by
  obtain ⟨r, rfl, _, _⟩ := x
  rfl

end Idealize.ShloMosaic.StableHlo.TRef
-- ==== Proof.LibAfter.lean ====
/-
  The contents after two lines of host operations run one after the other: the fold of the concatenated
  line is the fold of the second line over the fold of the first. General; no program is imported.
-/
import Idealize.ShloMosaic.Lib.StableHlo.Run

namespace Idealize.ShloMosaic.StableHlo

variable {τ : Topo} {sig : RefSig} {Val : EltTy → Type}

/-- Folding the operations of `l₁ ++ l₂` over contents `V` is folding `l₂` over what `l₁` leaves. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Idealize.ShloMosaic.StableHlo
-- ==== Proof.RefOpsS_sp0.lean ====
/-
  One stage of the reference's @main — layer 0, first relation: indices, gather, product, the two scatters, the clipped count, the quotient — in four consecutive pieces: the gather indices, the
  gathered rows and their product with the relation matrix; the scatter indices and the messages summed into the
  target rows; the count of edges into each target row; the count clipped below at one and the quotient.  For each
  piece: the list of its operations, the range of buffer indices they write (buffers are numbered in program order;
  each operation writes one literal buffer, whose index is compared by computation), and what it leaves in the one
  buffer a later piece reads.  The stage is the four lists appended; its value is the pieces' values composed,
  every other buffer a piece reads being outside the range the pieces between write.  The value statements are at
  the ideal floats.
-/
import proofs.«168040_j41652592837487_1_alg».proof.Proof.Gen.ReferenceIdeal
import Idealize.ShloMosaic.Lib.StableHlo.Run
import proofs.«168040_j41652592837487_1_alg».proof.Proof.RefVal
import proofs.«168040_j41652592837487_1_alg».proof.Proof.RefOpsLib
import proofs.«168040_j41652592837487_1_alg».proof.Proof.LibTRef
import proofs.«168040_j41652592837487_1_alg».proof.Proof.LibAfter

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
/-- Operations 19 … 30 of @main: the gather indices, the gathered rows, their product with the relation matrix. -/
def c_sp0_a : List (HloOp τ sig (Elt F)) :=
  [
    StableHlo.unary main_arg4 main_v18 ((extractStridedSlice S1x640000 ![0, 0] · slices_S2x640000_S1x640000_0_0) : (⟨S2x640000, .i32⟩ : BufTy).Contents (Elt F) → (⟨S1x640000, .i32⟩ : BufTy).Contents (Elt F)),
    StableHlo.reshape main_v18 main_v19 rfl shapeCasts_S1x640000_S640000,
    StableHlo.nullary main_c (constantI S_ 32 0#32),
    StableHlo.unary main_c main_v20 (broadcastInDim S640000 ![] bcast_S_S640000 : (⟨S_, .i32⟩ : BufTy).Contents (Elt F) → (⟨S640000, .i32⟩ : BufTy).Contents (Elt F)),
    StableHlo.binary main_v19 main_v20 main_v21 (cmpi .slt : (⟨S640000, .i32⟩ : BufTy).Contents (Elt F) → (⟨S640000, .i32⟩ : BufTy).Contents (Elt F) → (⟨S640000, .i1⟩ : BufTy).Contents (Elt F)),
    StableHlo.nullary main_c_0 (constantI S_ 32 50000#32),
    StableHlo.unary main_c_0 main_v22 (broadcastInDim S640000 ![] bcast_S_S640000 : (⟨S_, .i32⟩ : BufTy).Contents (Elt F) → (⟨S640000, .i32⟩ : BufTy).Contents (Elt F)),
    StableHlo.binary main_v19 main_v22 main_v23 (addi : (⟨S640000, .i32⟩ : BufTy).Contents (Elt F) → (⟨S640000, .i32⟩ : BufTy).Contents (Elt F) → (⟨S640000, .i32⟩ : BufTy).Contents (Elt F)),
    StableHlo.ternary main_v21 main_v23 main_v19 main_v24 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v24 main_v25 (broadcastInDim S640000x1 ![0] bcast_S640000_S640000x1_0 : (⟨S640000, .i32⟩ : BufTy).Contents (Elt F) → (⟨S640000x1, .i32⟩ : BufTy).Contents (Elt F)),
    StableHlo.binary main_v3 main_v25 main_v26 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    StableHlo.binary main_v26 main_v17 main_v27 ((fun l r => Host.dotGeneral dot_S640000x128_S128x128_S640000x128_1_0_0_1_n_n none l r) : (⟨S640000x128, .f32⟩ : BufTy).Contents (Elt F) → (⟨S128x128, .f32⟩ : BufTy).Contents (Elt F) → (⟨S640000x128, .f32⟩ : BufTy).Contents (Elt F)) ]

/-- Each of these operations writes one buffer, of index 37 … 48. -/
theorem c_sp0_a_range : (c_sp0_a : List (HloOp τ sig (Elt F))).Forall fun op => ∀ b ∈ op.writes, 37 ≤ b.idx.val ∧ b.idx.val ≤ 48 := by
  unfold c_sp0_a
  exact ⟨by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide⟩

set_option maxRecDepth 8192 in
set_option maxHeartbeats 1600000 in
/-- What these operations leave in %27's buffer, over the contents before them. -/
theorem c_sp0_a_v27 (V : Valuation τ sig (Elt Ideal)) :
    after (c_sp0_a (F := Ideal)) V (main_v27 : DevRef τ sig) = Host.dotGeneral (F := Ideal) (φ₁ := .f32) (φ₂ := .f32) dot_S640000x128_S128x128_S640000x128_1_0_0_1_n_n none (Host.gather gather_S50000x128_S640000x1_S640000x128_1_0_n_n_0_1_1128 (V (main_v3 : DevRef τ sig)) (RefVal.src_sp (V (main_arg4 : DevRef τ sig)))) (V (main_v17 : DevRef τ sig)) := by
  unfold c_sp0_a
  after_results_simp
  rfl

/-- Operations 31 … 36 of @main: the scatter indices and the messages summed into the target rows. -/
def c_sp0_b : List (HloOp τ sig (Elt F)) :=
  [
    StableHlo.unary main_arg4 main_v28 ((extractStridedSlice S1x640000 ![1, 0] · slices_S2x640000_S1x640000_1_0) : (⟨S2x640000, .i32⟩ : BufTy).Contents (Elt F) → (⟨S1x640000, .i32⟩ : BufTy).Contents (Elt F)),
    StableHlo.reshape main_v28 main_v29 rfl shapeCasts_S1x640000_S640000,
    StableHlo.nullary main_cst (constant S_ .f32 0x00000000#32),
    StableHlo.unary main_cst main_v30 (broadcastInDim S50000x128 ![] bcast_S_S50000x128 : (⟨S_, .f32⟩ : BufTy).Contents (Elt F) → (⟨S50000x128, .f32⟩ : BufTy).Contents (Elt F)),
    StableHlo.unary main_v29 main_v31 (broadcastInDim S640000x1 ![0] bcast_S640000_S640000x1_0 : (⟨S640000, .i32⟩ : BufTy).Contents (Elt F) → (⟨S640000x1, .i32⟩ : BufTy).Contents (Elt F)),
    StableHlo.ternary main_v30 main_v31 main_v27 main_v32 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)) ]

/-- Each of these operations writes one buffer, of index 49 … 54. -/
theorem c_sp0_b_range : (c_sp0_b : List (HloOp τ sig (Elt F))).Forall fun op => ∀ b ∈ op.writes, 49 ≤ b.idx.val ∧ b.idx.val ≤ 54 := by
  unfold c_sp0_b
  exact ⟨by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide⟩

set_option maxRecDepth 8192 in
set_option maxHeartbeats 1600000 in
/-- What these operations leave in %32's buffer, over the contents before them. -/
theorem c_sp0_b_v32 (V : Valuation τ sig (Elt Ideal)) :
    after (c_sp0_b (F := Ideal)) V (main_v32 : DevRef τ sig) = Host.scatterAdd (F := Ideal) (φ := .f32) scatter_S50000x128_S640000x1_S640000x128_1_0_0_1 (broadcastInDim S50000x128 ![] bcast_S_S50000x128 (constant (F := Ideal) S_ .f32 0x00000000#32)) (RefVal.tgt_sp (V (main_arg4 : DevRef τ sig))) (V (main_v27 : DevRef τ sig)) := by
  unfold c_sp0_b
  after_results_simp
  rfl

/-- Operations 37 … 44 of @main: the count of edges into each target row. -/
def c_sp0_c : List (HloOp τ sig (Elt F)) :=
  [
    StableHlo.nullary main_cst_1 (constant S_ .f32 0x3F800000#32),
    StableHlo.unary main_cst_1 main_v33 (broadcastInDim S640000x1 ![] bcast_S_S640000x1 : (⟨S_, .f32⟩ : BufTy).Contents (Elt F) → (⟨S640000x1, .f32⟩ : BufTy).Contents (Elt F)),
    StableHlo.unary main_arg4 main_v34 ((extractStridedSlice S1x640000 ![1, 0] · slices_S2x640000_S1x640000_1_0) : (⟨S2x640000, .i32⟩ : BufTy).Contents (Elt F) → (⟨S1x640000, .i32⟩ : BufTy).Contents (Elt F)),
    StableHlo.reshape main_v34 main_v35 rfl shapeCasts_S1x640000_S640000,
    StableHlo.nullary main_cst_2 (constant S_ .f32 0x00000000#32),
    StableHlo.unary main_cst_2 main_v36 (broadcastInDim S50000x1 ![] bcast_S_S50000x1 : (⟨S_, .f32⟩ : BufTy).Contents (Elt F) → (⟨S50000x1, .f32⟩ : BufTy).Contents (Elt F)),
    StableHlo.unary main_v35 main_v37 (broadcastInDim S640000x1 ![0] bcast_S640000_S640000x1_0 : (⟨S640000, .i32⟩ : BufTy).Contents (Elt F) → (⟨S640000x1, .i32⟩ : BufTy).Contents (Elt F)),
    StableHlo.ternary main_v36 main_v37 main_v33 main_v38 ((fun x i u => Host.scatterAdd scatter_S50000x1_S640000x1_S640000x1_1_0_0_1 x i u) : (⟨S50000x1, .f32⟩ : BufTy).Contents (Elt F) → (⟨S640000x1, .i32⟩ : BufTy).Contents (Elt F) → (⟨S640000x1, .f32⟩ : BufTy).Contents (Elt F) → (⟨S50000x1, .f32⟩ : BufTy).Contents (Elt F)) ]

/-- Each of these operations writes one buffer, of index 55 … 62. -/
theorem c_sp0_c_range : (c_sp0_c : List (HloOp τ sig (Elt F))).Forall fun op => ∀ b ∈ op.writes, 55 ≤ b.idx.val ∧ b.idx.val ≤ 62 := by
  unfold c_sp0_c
  exact ⟨by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide⟩

set_option maxRecDepth 8192 in
set_option maxHeartbeats 1600000 in
/-- What these operations leave in %38's buffer, over the contents before them. -/
theorem c_sp0_c_v38 (V : Valuation τ sig (Elt Ideal)) :
    after (c_sp0_c (F := Ideal)) V (main_v38 : DevRef τ sig) = Host.scatterAdd (F := Ideal) (φ := .f32) scatter_S50000x1_S640000x1_S640000x1_1_0_0_1 (broadcastInDim S50000x1 ![] bcast_S_S50000x1 (constant (F := Ideal) S_ .f32 0x00000000#32)) (RefVal.tgt_sp (V (main_arg4 : DevRef τ sig))) (broadcastInDim S640000x1 ![] bcast_S_S640000x1 (constant (F := Ideal) S_ .f32 0x3F800000#32)) := by
  unfold c_sp0_c
  after_results_simp
  rfl

/-- Operations 45 … 50 of @main: the count clipped below at one, broadcast, and the quotient. -/
def c_sp0_d : List (HloOp τ sig (Elt F)) :=
  [
    StableHlo.nullary main_cst_3 (constant S_ .f32 0x3F800000#32),
    StableHlo.TRef.unary (.of main_cst_3) main_call0.v0 id,
    StableHlo.TRef.unary main_call0.v0 main_call0.v1 (broadcastInDim S50000x1 ![] bcast_S_S50000x1),
    StableHlo.TRef.binary main_call0.v1 (.of main_v38) main_call0.v2 maximumf,
    StableHlo.unary main_v39 main_v40 (broadcastInDim S50000x128 ![0, 1] bcast_S50000x1_S50000x128_0_1 : (⟨S50000x1, .f32⟩ : BufTy).Contents (Elt F) → (⟨S50000x128, .f32⟩ : BufTy).Contents (Elt F)),
    StableHlo.binary main_v32 main_v40 main_v41 (Host.divf : (⟨S50000x128, .f32⟩ : BufTy).Contents (Elt F) → (⟨S50000x128, .f32⟩ : BufTy).Contents (Elt F) → (⟨S50000x128, .f32⟩ : BufTy).Contents (Elt F)) ]

/-- Each of these operations writes one buffer, of index 63 … 68. -/
theorem c_sp0_d_range : (c_sp0_d : List (HloOp τ sig (Elt F))).Forall fun op => ∀ b ∈ op.writes, 63 ≤ b.idx.val ∧ b.idx.val ≤ 68 := by
  unfold c_sp0_d
  exact ⟨by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide⟩

set_option maxRecDepth 8192 in
set_option maxHeartbeats 1600000 in
/-- What these operations leave in %41's buffer, over the contents before them. -/
theorem c_sp0_d_v41 (V : Valuation τ sig (Elt Ideal)) :
    after (c_sp0_d (F := Ideal)) V (main_v41 : DevRef τ sig) = Host.divf (F := Ideal) (φ := .f32) (V (main_v32 : DevRef τ sig)) (broadcastInDim S50000x128 ![0, 1] bcast_S50000x1_S50000x128_0_1 (maximumf (F := Ideal) (φ := .f32) (broadcastInDim S50000x1 ![] bcast_S_S50000x1 (id (constant (F := Ideal) S_ .f32 0x3F800000#32))) (V (main_v38 : DevRef τ sig)))) := by
  unfold c_sp0_d
  after_results_simp
  simp only [TRef.ofBuf_toBuf]
  rfl

/-- The stage: its four pieces in order. -/
def c_sp0 : List (HloOp τ sig (Elt F)) :=
  c_sp0_a ++ (c_sp0_b ++ (c_sp0_c ++ (c_sp0_d)))

/-- Each operation of the stage writes one buffer, of index 37 … 68. -/
theorem c_sp0_range : (c_sp0 : List (HloOp τ sig (Elt F))).Forall fun op => ∀ b ∈ op.writes, 37 ≤ b.idx.val ∧ b.idx.val ≤ 68 := by
  unfold c_sp0
  exact List.forall_append.mpr ⟨idx_range_mono (by decide) (by decide) c_sp0_a_range, List.forall_append.mpr ⟨idx_range_mono (by decide) (by decide) c_sp0_b_range, List.forall_append.mpr ⟨idx_range_mono (by decide) (by decide) c_sp0_c_range, idx_range_mono (by decide) (by decide) c_sp0_d_range⟩⟩⟩

set_option maxRecDepth 8192
set_option maxHeartbeats 1600000

theorem c_sp0_suf3 (V : Valuation τ sig (Elt Ideal)) :
    after (c_sp0_d (F := Ideal)) V (main_v41 : DevRef τ sig) = (Host.divf (F := Ideal) (φ := .f32) (V (main_v32 : DevRef τ sig)) (broadcastInDim S50000x128 ![0, 1] bcast_S50000x1_S50000x128_0_1 (maximumf (F := Ideal) (φ := .f32) (broadcastInDim S50000x1 ![] bcast_S_S50000x1 (id (constant (F := Ideal) S_ .f32 0x3F800000#32))) (V (main_v38 : DevRef τ sig))))) :=
  c_sp0_d_v41 V

theorem c_sp0_suf2 (V : Valuation τ sig (Elt Ideal)) :
    after (c_sp0_c (F := Ideal) ++ (c_sp0_d (F := Ideal))) V (main_v41 : DevRef τ sig) = (Host.divf (F := Ideal) (φ := .f32) (V (main_v32 : DevRef τ sig)) (broadcastInDim S50000x128 ![0, 1] bcast_S50000x1_S50000x128_0_1 (maximumf (F := Ideal) (φ := .f32) (broadcastInDim S50000x1 ![] bcast_S_S50000x1 (id (constant (F := Ideal) S_ .f32 0x3F800000#32))) (Host.scatterAdd (F := Ideal) (φ := .f32) scatter_S50000x1_S640000x1_S640000x1_1_0_0_1 (broadcastInDim S50000x1 ![] bcast_S_S50000x1 (constant (F := Ideal) S_ .f32 0x00000000#32)) (RefVal.tgt_sp (V (main_arg4 : DevRef τ sig))) (broadcastInDim S640000x1 ![] bcast_S_S640000x1 (constant (F := Ideal) S_ .f32 0x3F800000#32)))))) := by
  rw [after_append, c_sp0_suf3]
  rw [show after (c_sp0_c (F := Ideal)) V (main_v32 : DevRef τ sig) = V (main_v32 : DevRef τ sig) from after_of_idx_range _ V c_sp0_c_range main_v32 (Or.inl (by decide)),
    c_sp0_c_v38 V]

theorem c_sp0_suf1 (V : Valuation τ sig (Elt Ideal)) :
    after (c_sp0_b (F := Ideal) ++ (c_sp0_c (F := Ideal) ++ (c_sp0_d (F := Ideal)))) V (main_v41 : DevRef τ sig) = (Host.divf (F := Ideal) (φ := .f32) (Host.scatterAdd (F := Ideal) (φ := .f32) scatter_S50000x128_S640000x1_S640000x128_1_0_0_1 (broadcastInDim S50000x128 ![] bcast_S_S50000x128 (constant (F := Ideal) S_ .f32 0x00000000#32)) (RefVal.tgt_sp (V (main_arg4 : DevRef τ sig))) (V (main_v27 : DevRef τ sig))) (broadcastInDim S50000x128 ![0, 1] bcast_S50000x1_S50000x128_0_1 (maximumf (F := Ideal) (φ := .f32) (broadcastInDim S50000x1 ![] bcast_S_S50000x1 (id (constant (F := Ideal) S_ .f32 0x3F800000#32))) (Host.scatterAdd (F := Ideal) (φ := .f32) scatter_S50000x1_S640000x1_S640000x1_1_0_0_1 (broadcastInDim S50000x1 ![] bcast_S_S50000x1 (constant (F := Ideal) S_ .f32 0x00000000#32)) (RefVal.tgt_sp (V (main_arg4 : DevRef τ sig))) (broadcastInDim S640000x1 ![] bcast_S_S640000x1 (constant (F := Ideal) S_ .f32 0x3F800000#32)))))) := by
  rw [after_append, c_sp0_suf2]
  rw [c_sp0_b_v32 V,
    show after (c_sp0_b (F := Ideal)) V (main_arg4 : DevRef τ sig) = V (main_arg4 : DevRef τ sig) from after_of_idx_range _ V c_sp0_b_range main_arg4 (Or.inl (by decide))]

theorem c_sp0_suf0 (V : Valuation τ sig (Elt Ideal)) :
    after (c_sp0_a (F := Ideal) ++ (c_sp0_b (F := Ideal) ++ (c_sp0_c (F := Ideal) ++ (c_sp0_d (F := Ideal))))) V (main_v41 : DevRef τ sig) = (Host.divf (F := Ideal) (φ := .f32) (Host.scatterAdd (F := Ideal) (φ := .f32) scatter_S50000x128_S640000x1_S640000x128_1_0_0_1 (broadcastInDim S50000x128 ![] bcast_S_S50000x128 (constant (F := Ideal) S_ .f32 0x00000000#32)) (RefVal.tgt_sp (V (main_arg4 : DevRef τ sig))) (Host.dotGeneral (F := Ideal) (φ₁ := .f32) (φ₂ := .f32) dot_S640000x128_S128x128_S640000x128_1_0_0_1_n_n none (Host.gather gather_S50000x128_S640000x1_S640000x128_1_0_n_n_0_1_1128 (V (main_v3 : DevRef τ sig)) (RefVal.src_sp (V (main_arg4 : DevRef τ sig)))) (V (main_v17 : DevRef τ sig)))) (broadcastInDim S50000x128 ![0, 1] bcast_S50000x1_S50000x128_0_1 (maximumf (F := Ideal) (φ := .f32) (broadcastInDim S50000x1 ![] bcast_S_S50000x1 (id (constant (F := Ideal) S_ .f32 0x3F800000#32))) (Host.scatterAdd (F := Ideal) (φ := .f32) scatter_S50000x1_S640000x1_S640000x1_1_0_0_1 (broadcastInDim S50000x1 ![] bcast_S_S50000x1 (constant (F := Ideal) S_ .f32 0x00000000#32)) (RefVal.tgt_sp (V (main_arg4 : DevRef τ sig))) (broadcastInDim S640000x1 ![] bcast_S_S640000x1 (constant (F := Ideal) S_ .f32 0x3F800000#32)))))) := by
  rw [after_append, c_sp0_suf1]
  rw [show after (c_sp0_a (F := Ideal)) V (main_arg4 : DevRef τ sig) = V (main_arg4 : DevRef τ sig) from after_of_idx_range _ V c_sp0_a_range main_arg4 (Or.inl (by decide)),
    c_sp0_a_v27 V]

/-- What the stage leaves in %41's buffer, over the contents before it: the relation's mean message. -/
theorem c_sp0_v41 (V : Valuation τ sig (Elt Ideal)) :
    after (c_sp0 (F := Ideal)) V (main_v41 : DevRef τ sig) = RefVal.rel_sp (V (main_v3 : DevRef τ sig)) (V (main_v17 : DevRef τ sig)) (V (main_arg4 : DevRef τ sig)) := by
  unfold c_sp0
  rw [c_sp0_suf0]
  rfl

end Cert.ReferenceIdeal.RefRun

end
-- ==== Proof.RefOpsS_fl0.lean ====
/-
  One stage of the reference's @main — layer 0, second relation — in four consecutive pieces: the gather indices, the
  gathered rows and their product with the relation matrix; the scatter indices and the messages summed into the
  target rows; the count of edges into each target row; the count clipped below at one and the quotient.  For each
  piece: the list of its operations, the range of buffer indices they write (buffers are numbered in program order;
  each operation writes one literal buffer, whose index is compared by computation), and what it leaves in the one
  buffer a later piece reads.  The stage is the four lists appended; its value is the pieces' values composed,
  every other buffer a piece reads being outside the range the pieces between write.  The value statements are at
  the ideal floats.
-/
import proofs.«168040_j41652592837487_1_alg».proof.Proof.Gen.ReferenceIdeal
import Idealize.ShloMosaic.Lib.StableHlo.Run
import proofs.«168040_j41652592837487_1_alg».proof.Proof.RefVal
import proofs.«168040_j41652592837487_1_alg».proof.Proof.RefOpsLib
import proofs.«168040_j41652592837487_1_alg».proof.Proof.LibTRef
import proofs.«168040_j41652592837487_1_alg».proof.Proof.LibAfter

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
/-- Operations 51 … 62 of @main: the gather indices, the gathered rows, their product with the relation matrix. -/
def c_fl0_a : List (HloOp τ sig (Elt F)) :=
  [
    StableHlo.unary main_arg5 main_v42 ((extractStridedSlice S1x640000 ![0, 0] · slices_S2x640000_S1x640000_0_0) : (⟨S2x640000, .i32⟩ : BufTy).Contents (Elt F) → (⟨S1x640000, .i32⟩ : BufTy).Contents (Elt F)),
    StableHlo.reshape main_v42 main_v43 rfl shapeCasts_S1x640000_S640000,
    StableHlo.nullary main_c_4 (constantI S_ 32 0#32),
    StableHlo.unary main_c_4 main_v44 (broadcastInDim S640000 ![] bcast_S_S640000 : (⟨S_, .i32⟩ : BufTy).Contents (Elt F) → (⟨S640000, .i32⟩ : BufTy).Contents (Elt F)),
    StableHlo.binary main_v43 main_v44 main_v45 (cmpi .slt : (⟨S640000, .i32⟩ : BufTy).Contents (Elt F) → (⟨S640000, .i32⟩ : BufTy).Contents (Elt F) → (⟨S640000, .i1⟩ : BufTy).Contents (Elt F)),
    StableHlo.nullary main_c_5 (constantI S_ 32 100000#32),
    StableHlo.unary main_c_5 main_v46 (broadcastInDim S640000 ![] bcast_S_S640000 : (⟨S_, .i32⟩ : BufTy).Contents (Elt F) → (⟨S640000, .i32⟩ : BufTy).Contents (Elt F)),
    StableHlo.binary main_v43 main_v46 main_v47 (addi : (⟨S640000, .i32⟩ : BufTy).Contents (Elt F) → (⟨S640000, .i32⟩ : BufTy).Contents (Elt F) → (⟨S640000, .i32⟩ : BufTy).Contents (Elt F)),
    StableHlo.ternary main_v45 main_v47 main_v43 main_v48 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v48 main_v49 (broadcastInDim S640000x1 ![0] bcast_S640000_S640000x1_0 : (⟨S640000, .i32⟩ : BufTy).Contents (Elt F) → (⟨S640000x1, .i32⟩ : BufTy).Contents (Elt F)),
    StableHlo.binary main_v7 main_v49 main_v50 ((fun x i => Host.gather gather_S100000x128_S640000x1_S640000x128_1_0_n_n_0_1_1128 x i) : (⟨S100000x128, .f32⟩ : BufTy).Contents (Elt F) → (⟨S640000x1, .i32⟩ : BufTy).Contents (Elt F) → (⟨S640000x128, .f32⟩ : BufTy).Contents (Elt F)),
    StableHlo.binary main_v50 main_v17 main_v51 ((fun l r => Host.dotGeneral dot_S640000x128_S128x128_S640000x128_1_0_0_1_n_n none l r) : (⟨S640000x128, .f32⟩ : BufTy).Contents (Elt F) → (⟨S128x128, .f32⟩ : BufTy).Contents (Elt F) → (⟨S640000x128, .f32⟩ : BufTy).Contents (Elt F)) ]

/-- Each of these operations writes one buffer, of index 69 … 80. -/
theorem c_fl0_a_range : (c_fl0_a : List (HloOp τ sig (Elt F))).Forall fun op => ∀ b ∈ op.writes, 69 ≤ b.idx.val ∧ b.idx.val ≤ 80 := by
  unfold c_fl0_a
  exact ⟨by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide⟩

set_option maxRecDepth 8192 in
set_option maxHeartbeats 1600000 in
/-- What these operations leave in %51's buffer, over the contents before them. -/
theorem c_fl0_a_v51 (V : Valuation τ sig (Elt Ideal)) :
    after (c_fl0_a (F := Ideal)) V (main_v51 : DevRef τ sig) = Host.dotGeneral (F := Ideal) (φ₁ := .f32) (φ₂ := .f32) dot_S640000x128_S128x128_S640000x128_1_0_0_1_n_n none (Host.gather gather_S100000x128_S640000x1_S640000x128_1_0_n_n_0_1_1128 (V (main_v7 : DevRef τ sig)) (RefVal.src_fl (V (main_arg5 : DevRef τ sig)))) (V (main_v17 : DevRef τ sig)) := by
  unfold c_fl0_a
  after_results_simp
  rfl

/-- Operations 63 … 68 of @main: the scatter indices and the messages summed into the target rows. -/
def c_fl0_b : List (HloOp τ sig (Elt F)) :=
  [
    StableHlo.unary main_arg5 main_v52 ((extractStridedSlice S1x640000 ![1, 0] · slices_S2x640000_S1x640000_1_0) : (⟨S2x640000, .i32⟩ : BufTy).Contents (Elt F) → (⟨S1x640000, .i32⟩ : BufTy).Contents (Elt F)),
    StableHlo.reshape main_v52 main_v53 rfl shapeCasts_S1x640000_S640000,
    StableHlo.nullary main_cst_6 (constant S_ .f32 0x00000000#32),
    StableHlo.unary main_cst_6 main_v54 (broadcastInDim S50000x128 ![] bcast_S_S50000x128 : (⟨S_, .f32⟩ : BufTy).Contents (Elt F) → (⟨S50000x128, .f32⟩ : BufTy).Contents (Elt F)),
    StableHlo.unary main_v53 main_v55 (broadcastInDim S640000x1 ![0] bcast_S640000_S640000x1_0 : (⟨S640000, .i32⟩ : BufTy).Contents (Elt F) → (⟨S640000x1, .i32⟩ : BufTy).Contents (Elt F)),
    StableHlo.ternary main_v54 main_v55 main_v51 main_v56 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)) ]

/-- Each of these operations writes one buffer, of index 81 … 86. -/
theorem c_fl0_b_range : (c_fl0_b : List (HloOp τ sig (Elt F))).Forall fun op => ∀ b ∈ op.writes, 81 ≤ b.idx.val ∧ b.idx.val ≤ 86 := by
  unfold c_fl0_b
  exact ⟨by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide⟩

set_option maxRecDepth 8192 in
set_option maxHeartbeats 1600000 in
/-- What these operations leave in %56's buffer, over the contents before them. -/
theorem c_fl0_b_v56 (V : Valuation τ sig (Elt Ideal)) :
    after (c_fl0_b (F := Ideal)) V (main_v56 : DevRef τ sig) = Host.scatterAdd (F := Ideal) (φ := .f32) scatter_S50000x128_S640000x1_S640000x128_1_0_0_1 (broadcastInDim S50000x128 ![] bcast_S_S50000x128 (constant (F := Ideal) S_ .f32 0x00000000#32)) (RefVal.tgt_fl (V (main_arg5 : DevRef τ sig))) (V (main_v51 : DevRef τ sig)) := by
  unfold c_fl0_b
  after_results_simp
  rfl

/-- Operations 69 … 76 of @main: the count of edges into each target row. -/
def c_fl0_c : List (HloOp τ sig (Elt F)) :=
  [
    StableHlo.nullary main_cst_7 (constant S_ .f32 0x3F800000#32),
    StableHlo.unary main_cst_7 main_v57 (broadcastInDim S640000x1 ![] bcast_S_S640000x1 : (⟨S_, .f32⟩ : BufTy).Contents (Elt F) → (⟨S640000x1, .f32⟩ : BufTy).Contents (Elt F)),
    StableHlo.unary main_arg5 main_v58 ((extractStridedSlice S1x640000 ![1, 0] · slices_S2x640000_S1x640000_1_0) : (⟨S2x640000, .i32⟩ : BufTy).Contents (Elt F) → (⟨S1x640000, .i32⟩ : BufTy).Contents (Elt F)),
    StableHlo.reshape main_v58 main_v59 rfl shapeCasts_S1x640000_S640000,
    StableHlo.nullary main_cst_8 (constant S_ .f32 0x00000000#32),
    StableHlo.unary main_cst_8 main_v60 (broadcastInDim S50000x1 ![] bcast_S_S50000x1 : (⟨S_, .f32⟩ : BufTy).Contents (Elt F) → (⟨S50000x1, .f32⟩ : BufTy).Contents (Elt F)),
    StableHlo.unary main_v59 main_v61 (broadcastInDim S640000x1 ![0] bcast_S640000_S640000x1_0 : (⟨S640000, .i32⟩ : BufTy).Contents (Elt F) → (⟨S640000x1, .i32⟩ : BufTy).Contents (Elt F)),
    StableHlo.ternary main_v60 main_v61 main_v57 main_v62 ((fun x i u => Host.scatterAdd scatter_S50000x1_S640000x1_S640000x1_1_0_0_1 x i u) : (⟨S50000x1, .f32⟩ : BufTy).Contents (Elt F) → (⟨S640000x1, .i32⟩ : BufTy).Contents (Elt F) → (⟨S640000x1, .f32⟩ : BufTy).Contents (Elt F) → (⟨S50000x1, .f32⟩ : BufTy).Contents (Elt F)) ]

/-- Each of these operations writes one buffer, of index 87 … 94. -/
theorem c_fl0_c_range : (c_fl0_c : List (HloOp τ sig (Elt F))).Forall fun op => ∀ b ∈ op.writes, 87 ≤ b.idx.val ∧ b.idx.val ≤ 94 := by
  unfold c_fl0_c
  exact ⟨by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide⟩

set_option maxRecDepth 8192 in
set_option maxHeartbeats 1600000 in
/-- What these operations leave in %62's buffer, over the contents before them. -/
theorem c_fl0_c_v62 (V : Valuation τ sig (Elt Ideal)) :
    after (c_fl0_c (F := Ideal)) V (main_v62 : DevRef τ sig) = Host.scatterAdd (F := Ideal) (φ := .f32) scatter_S50000x1_S640000x1_S640000x1_1_0_0_1 (broadcastInDim S50000x1 ![] bcast_S_S50000x1 (constant (F := Ideal) S_ .f32 0x00000000#32)) (RefVal.tgt_fl (V (main_arg5 : DevRef τ sig))) (broadcastInDim S640000x1 ![] bcast_S_S640000x1 (constant (F := Ideal) S_ .f32 0x3F800000#32)) := by
  unfold c_fl0_c
  after_results_simp
  rfl

/-- Operations 77 … 82 of @main: the count clipped below at one, broadcast, and the quotient. -/
def c_fl0_d : List (HloOp τ sig (Elt F)) :=
  [
    StableHlo.nullary main_cst_9 (constant S_ .f32 0x3F800000#32),
    StableHlo.TRef.unary (.of main_cst_9) main_call1.v0 id,
    StableHlo.TRef.unary main_call1.v0 main_call1.v1 (broadcastInDim S50000x1 ![] bcast_S_S50000x1),
    StableHlo.TRef.binary main_call1.v1 (.of main_v62) main_call1.v2 maximumf,
    StableHlo.unary main_v63 main_v64 (broadcastInDim S50000x128 ![0, 1] bcast_S50000x1_S50000x128_0_1 : (⟨S50000x1, .f32⟩ : BufTy).Contents (Elt F) → (⟨S50000x128, .f32⟩ : BufTy).Contents (Elt F)),
    StableHlo.binary main_v56 main_v64 main_v65 (Host.divf : (⟨S50000x128, .f32⟩ : BufTy).Contents (Elt F) → (⟨S50000x128, .f32⟩ : BufTy).Contents (Elt F) → (⟨S50000x128, .f32⟩ : BufTy).Contents (Elt F)) ]

/-- Each of these operations writes one buffer, of index 95 … 100. -/
theorem c_fl0_d_range : (c_fl0_d : List (HloOp τ sig (Elt F))).Forall fun op => ∀ b ∈ op.writes, 95 ≤ b.idx.val ∧ b.idx.val ≤ 100 := by
  unfold c_fl0_d
  exact ⟨by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide⟩

set_option maxRecDepth 8192 in
set_option maxHeartbeats 1600000 in
/-- What these operations leave in %65's buffer, over the contents before them. -/
theorem c_fl0_d_v65 (V : Valuation τ sig (Elt Ideal)) :
    after (c_fl0_d (F := Ideal)) V (main_v65 : DevRef τ sig) = Host.divf (F := Ideal) (φ := .f32) (V (main_v56 : DevRef τ sig)) (broadcastInDim S50000x128 ![0, 1] bcast_S50000x1_S50000x128_0_1 (maximumf (F := Ideal) (φ := .f32) (broadcastInDim S50000x1 ![] bcast_S_S50000x1 (id (constant (F := Ideal) S_ .f32 0x3F800000#32))) (V (main_v62 : DevRef τ sig)))) := by
  unfold c_fl0_d
  after_results_simp
  simp only [TRef.ofBuf_toBuf]
  rfl

/-- The stage: its four pieces in order. -/
def c_fl0 : List (HloOp τ sig (Elt F)) :=
  c_fl0_a ++ (c_fl0_b ++ (c_fl0_c ++ (c_fl0_d)))

/-- Each operation of the stage writes one buffer, of index 69 … 100. -/
theorem c_fl0_range : (c_fl0 : List (HloOp τ sig (Elt F))).Forall fun op => ∀ b ∈ op.writes, 69 ≤ b.idx.val ∧ b.idx.val ≤ 100 := by
  unfold c_fl0
  exact List.forall_append.mpr ⟨idx_range_mono (by decide) (by decide) c_fl0_a_range, List.forall_append.mpr ⟨idx_range_mono (by decide) (by decide) c_fl0_b_range, List.forall_append.mpr ⟨idx_range_mono (by decide) (by decide) c_fl0_c_range, idx_range_mono (by decide) (by decide) c_fl0_d_range⟩⟩⟩

set_option maxRecDepth 8192
set_option maxHeartbeats 1600000

theorem c_fl0_suf3 (V : Valuation τ sig (Elt Ideal)) :
    after (c_fl0_d (F := Ideal)) V (main_v65 : DevRef τ sig) = (Host.divf (F := Ideal) (φ := .f32) (V (main_v56 : DevRef τ sig)) (broadcastInDim S50000x128 ![0, 1] bcast_S50000x1_S50000x128_0_1 (maximumf (F := Ideal) (φ := .f32) (broadcastInDim S50000x1 ![] bcast_S_S50000x1 (id (constant (F := Ideal) S_ .f32 0x3F800000#32))) (V (main_v62 : DevRef τ sig))))) :=
  c_fl0_d_v65 V

theorem c_fl0_suf2 (V : Valuation τ sig (Elt Ideal)) :
    after (c_fl0_c (F := Ideal) ++ (c_fl0_d (F := Ideal))) V (main_v65 : DevRef τ sig) = (Host.divf (F := Ideal) (φ := .f32) (V (main_v56 : DevRef τ sig)) (broadcastInDim S50000x128 ![0, 1] bcast_S50000x1_S50000x128_0_1 (maximumf (F := Ideal) (φ := .f32) (broadcastInDim S50000x1 ![] bcast_S_S50000x1 (id (constant (F := Ideal) S_ .f32 0x3F800000#32))) (Host.scatterAdd (F := Ideal) (φ := .f32) scatter_S50000x1_S640000x1_S640000x1_1_0_0_1 (broadcastInDim S50000x1 ![] bcast_S_S50000x1 (constant (F := Ideal) S_ .f32 0x00000000#32)) (RefVal.tgt_fl (V (main_arg5 : DevRef τ sig))) (broadcastInDim S640000x1 ![] bcast_S_S640000x1 (constant (F := Ideal) S_ .f32 0x3F800000#32)))))) := by
  rw [after_append, c_fl0_suf3]
  rw [show after (c_fl0_c (F := Ideal)) V (main_v56 : DevRef τ sig) = V (main_v56 : DevRef τ sig) from after_of_idx_range _ V c_fl0_c_range main_v56 (Or.inl (by decide)),
    c_fl0_c_v62 V]

theorem c_fl0_suf1 (V : Valuation τ sig (Elt Ideal)) :
    after (c_fl0_b (F := Ideal) ++ (c_fl0_c (F := Ideal) ++ (c_fl0_d (F := Ideal)))) V (main_v65 : DevRef τ sig) = (Host.divf (F := Ideal) (φ := .f32) (Host.scatterAdd (F := Ideal) (φ := .f32) scatter_S50000x128_S640000x1_S640000x128_1_0_0_1 (broadcastInDim S50000x128 ![] bcast_S_S50000x128 (constant (F := Ideal) S_ .f32 0x00000000#32)) (RefVal.tgt_fl (V (main_arg5 : DevRef τ sig))) (V (main_v51 : DevRef τ sig))) (broadcastInDim S50000x128 ![0, 1] bcast_S50000x1_S50000x128_0_1 (maximumf (F := Ideal) (φ := .f32) (broadcastInDim S50000x1 ![] bcast_S_S50000x1 (id (constant (F := Ideal) S_ .f32 0x3F800000#32))) (Host.scatterAdd (F := Ideal) (φ := .f32) scatter_S50000x1_S640000x1_S640000x1_1_0_0_1 (broadcastInDim S50000x1 ![] bcast_S_S50000x1 (constant (F := Ideal) S_ .f32 0x00000000#32)) (RefVal.tgt_fl (V (main_arg5 : DevRef τ sig))) (broadcastInDim S640000x1 ![] bcast_S_S640000x1 (constant (F := Ideal) S_ .f32 0x3F800000#32)))))) := by
  rw [after_append, c_fl0_suf2]
  rw [c_fl0_b_v56 V,
    show after (c_fl0_b (F := Ideal)) V (main_arg5 : DevRef τ sig) = V (main_arg5 : DevRef τ sig) from after_of_idx_range _ V c_fl0_b_range main_arg5 (Or.inl (by decide))]

theorem c_fl0_suf0 (V : Valuation τ sig (Elt Ideal)) :
    after (c_fl0_a (F := Ideal) ++ (c_fl0_b (F := Ideal) ++ (c_fl0_c (F := Ideal) ++ (c_fl0_d (F := Ideal))))) V (main_v65 : DevRef τ sig) = (Host.divf (F := Ideal) (φ := .f32) (Host.scatterAdd (F := Ideal) (φ := .f32) scatter_S50000x128_S640000x1_S640000x128_1_0_0_1 (broadcastInDim S50000x128 ![] bcast_S_S50000x128 (constant (F := Ideal) S_ .f32 0x00000000#32)) (RefVal.tgt_fl (V (main_arg5 : DevRef τ sig))) (Host.dotGeneral (F := Ideal) (φ₁ := .f32) (φ₂ := .f32) dot_S640000x128_S128x128_S640000x128_1_0_0_1_n_n none (Host.gather gather_S100000x128_S640000x1_S640000x128_1_0_n_n_0_1_1128 (V (main_v7 : DevRef τ sig)) (RefVal.src_fl (V (main_arg5 : DevRef τ sig)))) (V (main_v17 : DevRef τ sig)))) (broadcastInDim S50000x128 ![0, 1] bcast_S50000x1_S50000x128_0_1 (maximumf (F := Ideal) (φ := .f32) (broadcastInDim S50000x1 ![] bcast_S_S50000x1 (id (constant (F := Ideal) S_ .f32 0x3F800000#32))) (Host.scatterAdd (F := Ideal) (φ := .f32) scatter_S50000x1_S640000x1_S640000x1_1_0_0_1 (broadcastInDim S50000x1 ![] bcast_S_S50000x1 (constant (F := Ideal) S_ .f32 0x00000000#32)) (RefVal.tgt_fl (V (main_arg5 : DevRef τ sig))) (broadcastInDim S640000x1 ![] bcast_S_S640000x1 (constant (F := Ideal) S_ .f32 0x3F800000#32)))))) := by
  rw [after_append, c_fl0_suf1]
  rw [show after (c_fl0_a (F := Ideal)) V (main_arg5 : DevRef τ sig) = V (main_arg5 : DevRef τ sig) from after_of_idx_range _ V c_fl0_a_range main_arg5 (Or.inl (by decide)),
    c_fl0_a_v51 V]

/-- What the stage leaves in %65's buffer, over the contents before it: the relation's mean message. -/
theorem c_fl0_v65 (V : Valuation τ sig (Elt Ideal)) :
    after (c_fl0 (F := Ideal)) V (main_v65 : DevRef τ sig) = RefVal.rel_fl (V (main_v7 : DevRef τ sig)) (V (main_v17 : DevRef τ sig)) (V (main_arg5 : DevRef τ sig)) := by
  unfold c_fl0
  rw [c_fl0_suf0]
  rfl

end Cert.ReferenceIdeal.RefRun

end
-- ==== Proof.RefOpsS_fs0.lean ====
/-
  One stage of the reference's @main — layer 0, third relation — in four consecutive pieces: the gather indices, the
  gathered rows and their product with the relation matrix; the scatter indices and the messages summed into the
  target rows; the count of edges into each target row; the count clipped below at one and the quotient.  For each
  piece: the list of its operations, the range of buffer indices they write (buffers are numbered in program order;
  each operation writes one literal buffer, whose index is compared by computation), and what it leaves in the one
  buffer a later piece reads.  The stage is the four lists appended; its value is the pieces' values composed,
  every other buffer a piece reads being outside the range the pieces between write.  The value statements are at
  the ideal floats.
-/
import proofs.«168040_j41652592837487_1_alg».proof.Proof.Gen.ReferenceIdeal
import Idealize.ShloMosaic.Lib.StableHlo.Run
import proofs.«168040_j41652592837487_1_alg».proof.Proof.RefVal
import proofs.«168040_j41652592837487_1_alg».proof.Proof.RefOpsLib
import proofs.«168040_j41652592837487_1_alg».proof.Proof.LibTRef
import proofs.«168040_j41652592837487_1_alg».proof.Proof.LibAfter

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
/-- Operations 83 … 94 of @main: the gather indices, the gathered rows, their product with the relation matrix. -/
def c_fs0_a : List (HloOp τ sig (Elt F)) :=
  [
    StableHlo.unary main_arg6 main_v66 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v66 main_v67 rfl shapeCasts_S1x320000_S320000,
    StableHlo.nullary main_c_10 (constantI S_ 32 0#32),
    StableHlo.unary main_c_10 main_v68 (broadcastInDim S320000 ![] bcast_S_S320000 : (⟨S_, .i32⟩ : BufTy).Contents (Elt F) → (⟨S320000, .i32⟩ : BufTy).Contents (Elt F)),
    StableHlo.binary main_v67 main_v68 main_v69 (cmpi .slt : (⟨S320000, .i32⟩ : BufTy).Contents (Elt F) → (⟨S320000, .i32⟩ : BufTy).Contents (Elt F) → (⟨S320000, .i1⟩ : BufTy).Contents (Elt F)),
    StableHlo.nullary main_c_11 (constantI S_ 32 50000#32),
    StableHlo.unary main_c_11 main_v70 (broadcastInDim S320000 ![] bcast_S_S320000 : (⟨S_, .i32⟩ : BufTy).Contents (Elt F) → (⟨S320000, .i32⟩ : BufTy).Contents (Elt F)),
    StableHlo.binary main_v67 main_v70 main_v71 (addi : (⟨S320000, .i32⟩ : BufTy).Contents (Elt F) → (⟨S320000, .i32⟩ : BufTy).Contents (Elt F) → (⟨S320000, .i32⟩ : BufTy).Contents (Elt F)),
    StableHlo.ternary main_v69 main_v71 main_v67 main_v72 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v72 main_v73 (broadcastInDim S320000x1 ![0] bcast_S320000_S320000x1_0 : (⟨S320000, .i32⟩ : BufTy).Contents (Elt F) → (⟨S320000x1, .i32⟩ : BufTy).Contents (Elt F)),
    StableHlo.binary main_v11 main_v73 main_v74 ((fun x i => Host.gather gather_S50000x128_S320000x1_S320000x128_1_0_n_n_0_1_1128 x i) : (⟨S50000x128, .f32⟩ : BufTy).Contents (Elt F) → (⟨S320000x1, .i32⟩ : BufTy).Contents (Elt F) → (⟨S320000x128, .f32⟩ : BufTy).Contents (Elt F)),
    StableHlo.binary main_v74 main_v17 main_v75 ((fun l r => Host.dotGeneral dot_S320000x128_S128x128_S320000x128_1_0_0_1_n_n none l r) : (⟨S320000x128, .f32⟩ : BufTy).Contents (Elt F) → (⟨S128x128, .f32⟩ : BufTy).Contents (Elt F) → (⟨S320000x128, .f32⟩ : BufTy).Contents (Elt F)) ]

/-- Each of these operations writes one buffer, of index 101 … 112. -/
theorem c_fs0_a_range : (c_fs0_a : List (HloOp τ sig (Elt F))).Forall fun op => ∀ b ∈ op.writes, 101 ≤ b.idx.val ∧ b.idx.val ≤ 112 := by
  unfold c_fs0_a
  exact ⟨by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide⟩

set_option maxRecDepth 8192 in
set_option maxHeartbeats 1600000 in
/-- What these operations leave in %75's buffer, over the contents before them. -/
theorem c_fs0_a_v75 (V : Valuation τ sig (Elt Ideal)) :
    after (c_fs0_a (F := Ideal)) V (main_v75 : DevRef τ sig) = Host.dotGeneral (F := Ideal) (φ₁ := .f32) (φ₂ := .f32) dot_S320000x128_S128x128_S320000x128_1_0_0_1_n_n none (Host.gather gather_S50000x128_S320000x1_S320000x128_1_0_n_n_0_1_1128 (V (main_v11 : DevRef τ sig)) (RefVal.src_fs (V (main_arg6 : DevRef τ sig)))) (V (main_v17 : DevRef τ sig)) := by
  unfold c_fs0_a
  after_results_simp
  rfl

/-- Operations 95 … 100 of @main: the scatter indices and the messages summed into the target rows. -/
def c_fs0_b : List (HloOp τ sig (Elt F)) :=
  [
    StableHlo.unary main_arg6 main_v76 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v76 main_v77 rfl shapeCasts_S1x320000_S320000,
    StableHlo.nullary main_cst_12 (constant S_ .f32 0x00000000#32),
    StableHlo.unary main_cst_12 main_v78 (broadcastInDim S50000x128 ![] bcast_S_S50000x128 : (⟨S_, .f32⟩ : BufTy).Contents (Elt F) → (⟨S50000x128, .f32⟩ : BufTy).Contents (Elt F)),
    StableHlo.unary main_v77 main_v79 (broadcastInDim S320000x1 ![0] bcast_S320000_S320000x1_0 : (⟨S320000, .i32⟩ : BufTy).Contents (Elt F) → (⟨S320000x1, .i32⟩ : BufTy).Contents (Elt F)),
    StableHlo.ternary main_v78 main_v79 main_v75 main_v80 ((fun x i u => Host.scatterAdd scatter_S50000x128_S320000x1_S320000x128_1_0_0_1 x i u) : (⟨S50000x128, .f32⟩ : BufTy).Contents (Elt F) → (⟨S320000x1, .i32⟩ : BufTy).Contents (Elt F) → (⟨S320000x128, .f32⟩ : BufTy).Contents (Elt F) → (⟨S50000x128, .f32⟩ : BufTy).Contents (Elt F)) ]

/-- Each of these operations writes one buffer, of index 113 … 118. -/
theorem c_fs0_b_range : (c_fs0_b : List (HloOp τ sig (Elt F))).Forall fun op => ∀ b ∈ op.writes, 113 ≤ b.idx.val ∧ b.idx.val ≤ 118 := by
  unfold c_fs0_b
  exact ⟨by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide⟩

set_option maxRecDepth 8192 in
set_option maxHeartbeats 1600000 in
/-- What these operations leave in %80's buffer, over the contents before them. -/
theorem c_fs0_b_v80 (V : Valuation τ sig (Elt Ideal)) :
    after (c_fs0_b (F := Ideal)) V (main_v80 : DevRef τ sig) = Host.scatterAdd (F := Ideal) (φ := .f32) scatter_S50000x128_S320000x1_S320000x128_1_0_0_1 (broadcastInDim S50000x128 ![] bcast_S_S50000x128 (constant (F := Ideal) S_ .f32 0x00000000#32)) (RefVal.tgt_fs (V (main_arg6 : DevRef τ sig))) (V (main_v75 : DevRef τ sig)) := by
  unfold c_fs0_b
  after_results_simp
  rfl

/-- Operations 101 … 108 of @main: the count of edges into each target row. -/
def c_fs0_c : List (HloOp τ sig (Elt F)) :=
  [
    StableHlo.nullary main_cst_13 (constant S_ .f32 0x3F800000#32),
    StableHlo.unary main_cst_13 main_v81 (broadcastInDim S320000x1 ![] bcast_S_S320000x1 : (⟨S_, .f32⟩ : BufTy).Contents (Elt F) → (⟨S320000x1, .f32⟩ : BufTy).Contents (Elt F)),
    StableHlo.unary main_arg6 main_v82 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v82 main_v83 rfl shapeCasts_S1x320000_S320000,
    StableHlo.nullary main_cst_14 (constant S_ .f32 0x00000000#32),
    StableHlo.unary main_cst_14 main_v84 (broadcastInDim S50000x1 ![] bcast_S_S50000x1 : (⟨S_, .f32⟩ : BufTy).Contents (Elt F) → (⟨S50000x1, .f32⟩ : BufTy).Contents (Elt F)),
    StableHlo.unary main_v83 main_v85 (broadcastInDim S320000x1 ![0] bcast_S320000_S320000x1_0 : (⟨S320000, .i32⟩ : BufTy).Contents (Elt F) → (⟨S320000x1, .i32⟩ : BufTy).Contents (Elt F)),
    StableHlo.ternary main_v84 main_v85 main_v81 main_v86 ((fun x i u => Host.scatterAdd scatter_S50000x1_S320000x1_S320000x1_1_0_0_1 x i u) : (⟨S50000x1, .f32⟩ : BufTy).Contents (Elt F) → (⟨S320000x1, .i32⟩ : BufTy).Contents (Elt F) → (⟨S320000x1, .f32⟩ : BufTy).Contents (Elt F) → (⟨S50000x1, .f32⟩ : BufTy).Contents (Elt F)) ]

/-- Each of these operations writes one buffer, of index 119 … 126. -/
theorem c_fs0_c_range : (c_fs0_c : List (HloOp τ sig (Elt F))).Forall fun op => ∀ b ∈ op.writes, 119 ≤ b.idx.val ∧ b.idx.val ≤ 126 := by
  unfold c_fs0_c
  exact ⟨by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide⟩

set_option maxRecDepth 8192 in
set_option maxHeartbeats 1600000 in
/-- What these operations leave in %86's buffer, over the contents before them. -/
theorem c_fs0_c_v86 (V : Valuation τ sig (Elt Ideal)) :
    after (c_fs0_c (F := Ideal)) V (main_v86 : DevRef τ sig) = Host.scatterAdd (F := Ideal) (φ := .f32) scatter_S50000x1_S320000x1_S320000x1_1_0_0_1 (broadcastInDim S50000x1 ![] bcast_S_S50000x1 (constant (F := Ideal) S_ .f32 0x00000000#32)) (RefVal.tgt_fs (V (main_arg6 : DevRef τ sig))) (broadcastInDim S320000x1 ![] bcast_S_S320000x1 (constant (F := Ideal) S_ .f32 0x3F800000#32)) := by
  unfold c_fs0_c
  after_results_simp
  rfl

/-- Operations 109 … 114 of @main: the count clipped below at one, broadcast, and the quotient. -/
def c_fs0_d : List (HloOp τ sig (Elt F)) :=
  [
    StableHlo.nullary main_cst_15 (constant S_ .f32 0x3F800000#32),
    StableHlo.TRef.unary (.of main_cst_15) main_call2.v0 id,
    StableHlo.TRef.unary main_call2.v0 main_call2.v1 (broadcastInDim S50000x1 ![] bcast_S_S50000x1),
    StableHlo.TRef.binary main_call2.v1 (.of main_v86) main_call2.v2 maximumf,
    StableHlo.unary main_v87 main_v88 (broadcastInDim S50000x128 ![0, 1] bcast_S50000x1_S50000x128_0_1 : (⟨S50000x1, .f32⟩ : BufTy).Contents (Elt F) → (⟨S50000x128, .f32⟩ : BufTy).Contents (Elt F)),
    StableHlo.binary main_v80 main_v88 main_v89 (Host.divf : (⟨S50000x128, .f32⟩ : BufTy).Contents (Elt F) → (⟨S50000x128, .f32⟩ : BufTy).Contents (Elt F) → (⟨S50000x128, .f32⟩ : BufTy).Contents (Elt F)) ]

/-- Each of these operations writes one buffer, of index 127 … 132. -/
theorem c_fs0_d_range : (c_fs0_d : List (HloOp τ sig (Elt F))).Forall fun op => ∀ b ∈ op.writes, 127 ≤ b.idx.val ∧ b.idx.val ≤ 132 := by
  unfold c_fs0_d
  exact ⟨by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide⟩

set_option maxRecDepth 8192 in
set_option maxHeartbeats 1600000 in
/-- What these operations leave in %89's buffer, over the contents before them. -/
theorem c_fs0_d_v89 (V : Valuation τ sig (Elt Ideal)) :
    after (c_fs0_d (F := Ideal)) V (main_v89 : DevRef τ sig) = Host.divf (F := Ideal) (φ := .f32) (V (main_v80 : DevRef τ sig)) (broadcastInDim S50000x128 ![0, 1] bcast_S50000x1_S50000x128_0_1 (maximumf (F := Ideal) (φ := .f32) (broadcastInDim S50000x1 ![] bcast_S_S50000x1 (id (constant (F := Ideal) S_ .f32 0x3F800000#32))) (V (main_v86 : DevRef τ sig)))) := by
  unfold c_fs0_d
  after_results_simp
  simp only [TRef.ofBuf_toBuf]
  rfl

/-- The stage: its four pieces in order. -/
def c_fs0 : List (HloOp τ sig (Elt F)) :=
  c_fs0_a ++ (c_fs0_b ++ (c_fs0_c ++ (c_fs0_d)))

/-- Each operation of the stage writes one buffer, of index 101 … 132. -/
theorem c_fs0_range : (c_fs0 : List (HloOp τ sig (Elt F))).Forall fun op => ∀ b ∈ op.writes, 101 ≤ b.idx.val ∧ b.idx.val ≤ 132 := by
  unfold c_fs0
  exact List.forall_append.mpr ⟨idx_range_mono (by decide) (by decide) c_fs0_a_range, List.forall_append.mpr ⟨idx_range_mono (by decide) (by decide) c_fs0_b_range, List.forall_append.mpr ⟨idx_range_mono (by decide) (by decide) c_fs0_c_range, idx_range_mono (by decide) (by decide) c_fs0_d_range⟩⟩⟩

set_option maxRecDepth 8192
set_option maxHeartbeats 1600000

theorem c_fs0_suf3 (V : Valuation τ sig (Elt Ideal)) :
    after (c_fs0_d (F := Ideal)) V (main_v89 : DevRef τ sig) = (Host.divf (F := Ideal) (φ := .f32) (V (main_v80 : DevRef τ sig)) (broadcastInDim S50000x128 ![0, 1] bcast_S50000x1_S50000x128_0_1 (maximumf (F := Ideal) (φ := .f32) (broadcastInDim S50000x1 ![] bcast_S_S50000x1 (id (constant (F := Ideal) S_ .f32 0x3F800000#32))) (V (main_v86 : DevRef τ sig))))) :=
  c_fs0_d_v89 V

theorem c_fs0_suf2 (V : Valuation τ sig (Elt Ideal)) :
    after (c_fs0_c (F := Ideal) ++ (c_fs0_d (F := Ideal))) V (main_v89 : DevRef τ sig) = (Host.divf (F := Ideal) (φ := .f32) (V (main_v80 : DevRef τ sig)) (broadcastInDim S50000x128 ![0, 1] bcast_S50000x1_S50000x128_0_1 (maximumf (F := Ideal) (φ := .f32) (broadcastInDim S50000x1 ![] bcast_S_S50000x1 (id (constant (F := Ideal) S_ .f32 0x3F800000#32))) (Host.scatterAdd (F := Ideal) (φ := .f32) scatter_S50000x1_S320000x1_S320000x1_1_0_0_1 (broadcastInDim S50000x1 ![] bcast_S_S50000x1 (constant (F := Ideal) S_ .f32 0x00000000#32)) (RefVal.tgt_fs (V (main_arg6 : DevRef τ sig))) (broadcastInDim S320000x1 ![] bcast_S_S320000x1 (constant (F := Ideal) S_ .f32 0x3F800000#32)))))) := by
  rw [after_append, c_fs0_suf3]
  rw [show after (c_fs0_c (F := Ideal)) V (main_v80 : DevRef τ sig) = V (main_v80 : DevRef τ sig) from after_of_idx_range _ V c_fs0_c_range main_v80 (Or.inl (by decide)),
    c_fs0_c_v86 V]

theorem c_fs0_suf1 (V : Valuation τ sig (Elt Ideal)) :
    after (c_fs0_b (F := Ideal) ++ (c_fs0_c (F := Ideal) ++ (c_fs0_d (F := Ideal)))) V (main_v89 : DevRef τ sig) = (Host.divf (F := Ideal) (φ := .f32) (Host.scatterAdd (F := Ideal) (φ := .f32) scatter_S50000x128_S320000x1_S320000x128_1_0_0_1 (broadcastInDim S50000x128 ![] bcast_S_S50000x128 (constant (F := Ideal) S_ .f32 0x00000000#32)) (RefVal.tgt_fs (V (main_arg6 : DevRef τ sig))) (V (main_v75 : DevRef τ sig))) (broadcastInDim S50000x128 ![0, 1] bcast_S50000x1_S50000x128_0_1 (maximumf (F := Ideal) (φ := .f32) (broadcastInDim S50000x1 ![] bcast_S_S50000x1 (id (constant (F := Ideal) S_ .f32 0x3F800000#32))) (Host.scatterAdd (F := Ideal) (φ := .f32) scatter_S50000x1_S320000x1_S320000x1_1_0_0_1 (broadcastInDim S50000x1 ![] bcast_S_S50000x1 (constant (F := Ideal) S_ .f32 0x00000000#32)) (RefVal.tgt_fs (V (main_arg6 : DevRef τ sig))) (broadcastInDim S320000x1 ![] bcast_S_S320000x1 (constant (F := Ideal) S_ .f32 0x3F800000#32)))))) := by
  rw [after_append, c_fs0_suf2]
  rw [c_fs0_b_v80 V,
    show after (c_fs0_b (F := Ideal)) V (main_arg6 : DevRef τ sig) = V (main_arg6 : DevRef τ sig) from after_of_idx_range _ V c_fs0_b_range main_arg6 (Or.inl (by decide))]

theorem c_fs0_suf0 (V : Valuation τ sig (Elt Ideal)) :
    after (c_fs0_a (F := Ideal) ++ (c_fs0_b (F := Ideal) ++ (c_fs0_c (F := Ideal) ++ (c_fs0_d (F := Ideal))))) V (main_v89 : DevRef τ sig) = (Host.divf (F := Ideal) (φ := .f32) (Host.scatterAdd (F := Ideal) (φ := .f32) scatter_S50000x128_S320000x1_S320000x128_1_0_0_1 (broadcastInDim S50000x128 ![] bcast_S_S50000x128 (constant (F := Ideal) S_ .f32 0x00000000#32)) (RefVal.tgt_fs (V (main_arg6 : DevRef τ sig))) (Host.dotGeneral (F := Ideal) (φ₁ := .f32) (φ₂ := .f32) dot_S320000x128_S128x128_S320000x128_1_0_0_1_n_n none (Host.gather gather_S50000x128_S320000x1_S320000x128_1_0_n_n_0_1_1128 (V (main_v11 : DevRef τ sig)) (RefVal.src_fs (V (main_arg6 : DevRef τ sig)))) (V (main_v17 : DevRef τ sig)))) (broadcastInDim S50000x128 ![0, 1] bcast_S50000x1_S50000x128_0_1 (maximumf (F := Ideal) (φ := .f32) (broadcastInDim S50000x1 ![] bcast_S_S50000x1 (id (constant (F := Ideal) S_ .f32 0x3F800000#32))) (Host.scatterAdd (F := Ideal) (φ := .f32) scatter_S50000x1_S320000x1_S320000x1_1_0_0_1 (broadcastInDim S50000x1 ![] bcast_S_S50000x1 (constant (F := Ideal) S_ .f32 0x00000000#32)) (RefVal.tgt_fs (V (main_arg6 : DevRef τ sig))) (broadcastInDim S320000x1 ![] bcast_S_S320000x1 (constant (F := Ideal) S_ .f32 0x3F800000#32)))))) := by
  rw [after_append, c_fs0_suf1]
  rw [show after (c_fs0_a (F := Ideal)) V (main_arg6 : DevRef τ sig) = V (main_arg6 : DevRef τ sig) from after_of_idx_range _ V c_fs0_a_range main_arg6 (Or.inl (by decide)),
    c_fs0_a_v75 V]

/-- What the stage leaves in %89's buffer, over the contents before it: the relation's mean message. -/
theorem c_fs0_v89 (V : Valuation τ sig (Elt Ideal)) :
    after (c_fs0 (F := Ideal)) V (main_v89 : DevRef τ sig) = RefVal.rel_fs (V (main_v11 : DevRef τ sig)) (V (main_v17 : DevRef τ sig)) (V (main_arg6 : DevRef τ sig)) := by
  unfold c_fs0
  rw [c_fs0_suf0]
  rfl

end Cert.ReferenceIdeal.RefRun

end
-- ==== Proof.RefOpsS_inc0.lean ====
/-
  One stage of the reference's @main — layer 0, fourth relation — in four consecutive pieces: the gather indices, the
  gathered rows and their product with the relation matrix; the scatter indices and the messages summed into the
  target rows; the count of edges into each target row; the count clipped below at one and the quotient.  For each
  piece: the list of its operations, the range of buffer indices they write (buffers are numbered in program order;
  each operation writes one literal buffer, whose index is compared by computation), and what it leaves in the one
  buffer a later piece reads.  The stage is the four lists appended; its value is the pieces' values composed,
  every other buffer a piece reads being outside the range the pieces between write.  The value statements are at
  the ideal floats.
-/
import proofs.«168040_j41652592837487_1_alg».proof.Proof.Gen.ReferenceIdeal
import Idealize.ShloMosaic.Lib.StableHlo.Run
import proofs.«168040_j41652592837487_1_alg».proof.Proof.RefVal
import proofs.«168040_j41652592837487_1_alg».proof.Proof.RefOpsLib
import proofs.«168040_j41652592837487_1_alg».proof.Proof.LibTRef
import proofs.«168040_j41652592837487_1_alg».proof.Proof.LibAfter

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
/-- Operations 115 … 126 of @main: the gather indices, the gathered rows, their product with the relation matrix. -/
def c_inc0_a : List (HloOp τ sig (Elt F)) :=
  [
    StableHlo.unary main_arg7 main_v90 ((extractStridedSlice S1x160000 ![0, 0] · slices_S2x160000_S1x160000_0_0) : (⟨S2x160000, .i32⟩ : BufTy).Contents (Elt F) → (⟨S1x160000, .i32⟩ : BufTy).Contents (Elt F)),
    StableHlo.reshape main_v90 main_v91 rfl shapeCasts_S1x160000_S160000,
    StableHlo.nullary main_c_16 (constantI S_ 32 0#32),
    StableHlo.unary main_c_16 main_v92 (broadcastInDim S160000 ![] bcast_S_S160000 : (⟨S_, .i32⟩ : BufTy).Contents (Elt F) → (⟨S160000, .i32⟩ : BufTy).Contents (Elt F)),
    StableHlo.binary main_v91 main_v92 main_v93 (cmpi .slt : (⟨S160000, .i32⟩ : BufTy).Contents (Elt F) → (⟨S160000, .i32⟩ : BufTy).Contents (Elt F) → (⟨S160000, .i1⟩ : BufTy).Contents (Elt F)),
    StableHlo.nullary main_c_17 (constantI S_ 32 20000#32),
    StableHlo.unary main_c_17 main_v94 (broadcastInDim S160000 ![] bcast_S_S160000 : (⟨S_, .i32⟩ : BufTy).Contents (Elt F) → (⟨S160000, .i32⟩ : BufTy).Contents (Elt F)),
    StableHlo.binary main_v91 main_v94 main_v95 (addi : (⟨S160000, .i32⟩ : BufTy).Contents (Elt F) → (⟨S160000, .i32⟩ : BufTy).Contents (Elt F) → (⟨S160000, .i32⟩ : BufTy).Contents (Elt F)),
    StableHlo.ternary main_v93 main_v95 main_v91 main_v96 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    StableHlo.unary main_v96 main_v97 (broadcastInDim S160000x1 ![0] bcast_S160000_S160000x1_0 : (⟨S160000, .i32⟩ : BufTy).Contents (Elt F) → (⟨S160000x1, .i32⟩ : BufTy).Contents (Elt F)),
    StableHlo.binary main_v15 main_v97 main_v98 ((fun x i => Host.gather gather_S20000x128_S160000x1_S160000x128_1_0_n_n_0_1_1128 x i) : (⟨S20000x128, .f32⟩ : BufTy).Contents (Elt F) → (⟨S160000x1, .i32⟩ : BufTy).Contents (Elt F) → (⟨S160000x128, .f32⟩ : BufTy).Contents (Elt F)),
    StableHlo.binary main_v98 main_v17 main_v99 ((fun l r => Host.dotGeneral dot_S160000x128_S128x128_S160000x128_1_0_0_1_n_n none l r) : (⟨S160000x128, .f32⟩ : BufTy).Contents (Elt F) → (⟨S128x128, .f32⟩ : BufTy).Contents (Elt F) → (⟨S160000x128, .f32⟩ : BufTy).Contents (Elt F)) ]

/-- Each of these operations writes one buffer, of index 133 … 144. -/
theorem c_inc0_a_range : (c_inc0_a : List (HloOp τ sig (Elt F))).Forall fun op => ∀ b ∈ op.writes, 133 ≤ b.idx.val ∧ b.idx.val ≤ 144 := by
  unfold c_inc0_a
  exact ⟨by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide⟩

set_option maxRecDepth 8192 in
set_option maxHeartbeats 1600000 in
/-- What these operations leave in %99's buffer, over the contents before them. -/
theorem c_inc0_a_v99 (V : Valuation τ sig (Elt Ideal)) :
    after (c_inc0_a (F := Ideal)) V (main_v99 : DevRef τ sig) = Host.dotGeneral (F := Ideal) (φ₁ := .f32) (φ₂ := .f32) dot_S160000x128_S128x128_S160000x128_1_0_0_1_n_n none (Host.gather gather_S20000x128_S160000x1_S160000x128_1_0_n_n_0_1_1128 (V (main_v15 : DevRef τ sig)) (RefVal.src_inc (V (main_arg7 : DevRef τ sig)))) (V (main_v17 : DevRef τ sig)) := by
  unfold c_inc0_a
  after_results_simp
  rfl

/-- Operations 127 … 132 of @main: the scatter indices and the messages summed into the target rows. -/
def c_inc0_b : List (HloOp τ sig (Elt F)) :=
  [
    StableHlo.unary main_arg7 main_v100 ((extractStridedSlice S1x160000 ![1, 0] · slices_S2x160000_S1x160000_1_0) : (⟨S2x160000, .i32⟩ : BufTy).Contents (Elt F) → (⟨S1x160000, .i32⟩ : BufTy).Contents (Elt F)),
    StableHlo.reshape main_v100 main_v101 rfl shapeCasts_S1x160000_S160000,
    StableHlo.nullary main_cst_18 (constant S_ .f32 0x00000000#32),
    StableHlo.unary main_cst_18 main_v102 (broadcastInDim S50000x128 ![] bcast_S_S50000x128 : (⟨S_, .f32⟩ : BufTy).Contents (Elt F) → (⟨S50000x128, .f32⟩ : BufTy).Contents (Elt F)),
    StableHlo.unary main_v101 main_v103 (broadcastInDim S160000x1 ![0] bcast_S160000_S160000x1_0 : (⟨S160000, .i32⟩ : BufTy).Contents (Elt F) → (⟨S160000x1, .i32⟩ : BufTy).Contents (Elt F)),
    StableHlo.ternary main_v102 main_v103 main_v99 main_v104 ((fun x i u => Host.scatterAdd scatter_S50000x128_S160000x1_S160000x128_1_0_0_1 x i u) : (⟨S50000x128, .f32⟩ : BufTy).Contents (Elt F) → (⟨S160000x1, .i32⟩ : BufTy).Contents (Elt F) → (⟨S160000x128, .f32⟩ : BufTy).Contents (Elt F) → (⟨S50000x128, .f32⟩ : BufTy).Contents (Elt F)) ]

/-- Each of these operations writes one buffer, of index 145 … 150. -/
theorem c_inc0_b_range : (c_inc0_b : List (HloOp τ sig (Elt F))).Forall fun op => ∀ b ∈ op.writes, 145 ≤ b.idx.val ∧ b.idx.val ≤ 150 := by
  unfold c_inc0_b
  exact ⟨by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide⟩

set_option maxRecDepth 8192 in
set_option maxHeartbeats 1600000 in
/-- What these operations leave in %104's buffer, over the contents before them. -/
theorem c_inc0_b_v104 (V : Valuation τ sig (Elt Ideal)) :
    after (c_inc0_b (F := Ideal)) V (main_v104 : DevRef τ sig) = Host.scatterAdd (F := Ideal) (φ := .f32) scatter_S50000x128_S160000x1_S160000x128_1_0_0_1 (broadcastInDim S50000x128 ![] bcast_S_S50000x128 (constant (F := Ideal) S_ .f32 0x00000000#32)) (RefVal.tgt_inc (V (main_arg7 : DevRef τ sig))) (V (main_v99 : DevRef τ sig)) := by
  unfold c_inc0_b
  after_results_simp
  rfl

/-- Operations 133 … 140 of @main: the count of edges into each target row. -/
def c_inc0_c : List (HloOp τ sig (Elt F)) :=
  [
    StableHlo.nullary main_cst_19 (constant S_ .f32 0x3F800000#32),
    StableHlo.unary main_cst_19 main_v105 (broadcastInDim S160000x1 ![] bcast_S_S160000x1 : (⟨S_, .f32⟩ : BufTy).Contents (Elt F) → (⟨S160000x1, .f32⟩ : BufTy).Contents (Elt F)),
    StableHlo.unary main_arg7 main_v106 ((extractStridedSlice S1x160000 ![1, 0] · slices_S2x160000_S1x160000_1_0) : (⟨S2x160000, .i32⟩ : BufTy).Contents (Elt F) → (⟨S1x160000, .i32⟩ : BufTy).Contents (Elt F)),
    StableHlo.reshape main_v106 main_v107 rfl shapeCasts_S1x160000_S160000,
    StableHlo.nullary main_cst_20 (constant S_ .f32 0x00000000#32),
    StableHlo.unary main_cst_20 main_v108 (broadcastInDim S50000x1 ![] bcast_S_S50000x1 : (⟨S_, .f32⟩ : BufTy).Contents (Elt F) → (⟨S50000x1, .f32⟩ : BufTy).Contents (Elt F)),
    StableHlo.unary main_v107 main_v109 (broadcastInDim S160000x1 ![0] bcast_S160000_S160000x1_0 : (⟨S160000, .i32⟩ : BufTy).Contents (Elt F) → (⟨S160000x1, .i32⟩ : BufTy).Contents (Elt F)),
    StableHlo.ternary main_v108 main_v109 main_v105 main_v110 ((fun x i u => Host.scatterAdd scatter_S50000x1_S160000x1_S160000x1_1_0_0_1 x i u) : (⟨S50000x1, .f32⟩ : BufTy).Contents (Elt F) → (⟨S160000x1, .i32⟩ : BufTy).Contents (Elt F) → (⟨S160000x1, .f32⟩ : BufTy).Contents (Elt F) → (⟨S50000x1, .f32⟩ : BufTy).Contents (Elt F)) ]

/-- Each of these operations writes one buffer, of index 151 … 158. -/
theorem c_inc0_c_range : (c_inc0_c : List (HloOp τ sig (Elt F))).Forall fun op => ∀ b ∈ op.writes, 151 ≤ b.idx.val ∧ b.idx.val ≤ 158 := by
  unfold c_inc0_c
  exact ⟨by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide⟩

set_option maxRecDepth 8192 in
set_option maxHeartbeats 1600000 in
/-- What these operations leave in %110's buffer, over the contents before them. -/
theorem c_inc0_c_v110 (V : Valuation τ sig (Elt Ideal)) :
    after (c_inc0_c (F := Ideal)) V (main_v110 : DevRef τ sig) = Host.scatterAdd (F := Ideal) (φ := .f32) scatter_S50000x1_S160000x1_S160000x1_1_0_0_1 (broadcastInDim S50000x1 ![] bcast_S_S50000x1 (constant (F := Ideal) S_ .f32 0x00000000#32)) (RefVal.tgt_inc (V (main_arg7 : DevRef τ sig))) (broadcastInDim S160000x1 ![] bcast_S_S160000x1 (constant (F := Ideal) S_ .f32 0x3F800000#32)) := by
  unfold c_inc0_c
  after_results_simp
  rfl

/-- Operations 141 … 146 of @main: the count clipped below at one, broadcast, and the quotient. -/
def c_inc0_d : List (HloOp τ sig (Elt F)) :=
  [
    StableHlo.nullary main_cst_21 (constant S_ .f32 0x3F800000#32),
    StableHlo.TRef.unary (.of main_cst_21) main_call3.v0 id,
    StableHlo.TRef.unary main_call3.v0 main_call3.v1 (broadcastInDim S50000x1 ![] bcast_S_S50000x1),
    StableHlo.TRef.binary main_call3.v1 (.of main_v110) main_call3.v2 maximumf,
    StableHlo.unary main_v111 main_v112 (broadcastInDim S50000x128 ![0, 1] bcast_S50000x1_S50000x128_0_1 : (⟨S50000x1, .f32⟩ : BufTy).Contents (Elt F) → (⟨S50000x128, .f32⟩ : BufTy).Contents (Elt F)),
    StableHlo.binary main_v104 main_v112 main_v113 (Host.divf : (⟨S50000x128, .f32⟩ : BufTy).Contents (Elt F) → (⟨S50000x128, .f32⟩ : BufTy).Contents (Elt F) → (⟨S50000x128, .f32⟩ : BufTy).Contents (Elt F)) ]

/-- Each of these operations writes one buffer, of index 159 … 164. -/
theorem c_inc0_d_range : (c_inc0_d : List (HloOp τ sig (Elt F))).Forall fun op => ∀ b ∈ op.writes, 159 ≤ b.idx.val ∧ b.idx.val ≤ 164 := by
  unfold c_inc0_d
  exact ⟨by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide⟩

set_option maxRecDepth 8192 in
set_option maxHeartbeats 1600000 in
/-- What these operations leave in %113's buffer, over the contents before them. -/
theorem c_inc0_d_v113 (V : Valuation τ sig (Elt Ideal)) :
    after (c_inc0_d (F := Ideal)) V (main_v113 : DevRef τ sig) = Host.divf (F := Ideal) (φ := .f32) (V (main_v104 : DevRef τ sig)) (broadcastInDim S50000x128 ![0, 1] bcast_S50000x1_S50000x128_0_1 (maximumf (F := Ideal) (φ := .f32) (broadcastInDim S50000x1 ![] bcast_S_S50000x1 (id (constant (F := Ideal) S_ .f32 0x3F800000#32))) (V (main_v110 : DevRef τ sig)))) := by
  unfold c_inc0_d
  after_results_simp
  simp only [TRef.ofBuf_toBuf]
  rfl

/-- The stage: its four pieces in order. -/
def c_inc0 : List (HloOp τ sig (Elt F)) :=
  c_inc0_a ++ (c_inc0_b ++ (c_inc0_c ++ (c_inc0_d)))

/-- Each operation of the stage writes one buffer, of index 133 … 164. -/
theorem c_inc0_range : (c_inc0 : List (HloOp τ sig (Elt F))).Forall fun op => ∀ b ∈ op.writes, 133 ≤ b.idx.val ∧ b.idx.val ≤ 164 := by
  unfold c_inc0
  exact List.forall_append.mpr ⟨idx_range_mono (by decide) (by decide) c_inc0_a_range, List.forall_append.mpr ⟨idx_range_mono (by decide) (by decide) c_inc0_b_range, List.forall_append.mpr ⟨idx_range_mono (by decide) (by decide) c_inc0_c_range, idx_range_mono (by decide) (by decide) c_inc0_d_range⟩⟩⟩

set_option maxRecDepth 8192
set_option maxHeartbeats 1600000

theorem c_inc0_suf3 (V : Valuation τ sig (Elt Ideal)) :
    after (c_inc0_d (F := Ideal)) V (main_v113 : DevRef τ sig) = (Host.divf (F := Ideal) (φ := .f32) (V (main_v104 : DevRef τ sig)) (broadcastInDim S50000x128 ![0, 1] bcast_S50000x1_S50000x128_0_1 (maximumf (F := Ideal) (φ := .f32) (broadcastInDim S50000x1 ![] bcast_S_S50000x1 (id (constant (F := Ideal) S_ .f32 0x3F800000#32))) (V (main_v110 : DevRef τ sig))))) :=
  c_inc0_d_v113 V

theorem c_inc0_suf2 (V : Valuation τ sig (Elt Ideal)) :
    after (c_inc0_c (F := Ideal) ++ (c_inc0_d (F := Ideal))) V (main_v113 : DevRef τ sig) = (Host.divf (F := Ideal) (φ := .f32) (V (main_v104 : DevRef τ sig)) (broadcastInDim S50000x128 ![0, 1] bcast_S50000x1_S50000x128_0_1 (maximumf (F := Ideal) (φ := .f32) (broadcastInDim S50000x1 ![] bcast_S_S50000x1 (id (constant (F := Ideal) S_ .f32 0x3F800000#32))) (Host.scatterAdd (F := Ideal) (φ := .f32) scatter_S50000x1_S160000x1_S160000x1_1_0_0_1 (broadcastInDim S50000x1 ![] bcast_S_S50000x1 (constant (F := Ideal) S_ .f32 0x00000000#32)) (RefVal.tgt_inc (V (main_arg7 : DevRef τ sig))) (broadcastInDim S160000x1 ![] bcast_S_S160000x1 (constant (F := Ideal) S_ .f32 0x3F800000#32)))))) := by
  rw [after_append, c_inc0_suf3]
  rw [show after (c_inc0_c (F := Ideal)) V (main_v104 : DevRef τ sig) = V (main_v104 : DevRef τ sig) from after_of_idx_range _ V c_inc0_c_range main_v104 (Or.inl (by decide)),
    c_inc0_c_v110 V]

theorem c_inc0_suf1 (V : Valuation τ sig (Elt Ideal)) :
    after (c_inc0_b (F := Ideal) ++ (c_inc0_c (F := Ideal) ++ (c_inc0_d (F := Ideal)))) V (main_v113 : DevRef τ sig) = (Host.divf (F := Ideal) (φ := .f32) (Host.scatterAdd (F := Ideal) (φ := .f32) scatter_S50000x128_S160000x1_S160000x128_1_0_0_1 (broadcastInDim S50000x128 ![] bcast_S_S50000x128 (constant (F := Ideal) S_ .f32 0x00000000#32)) (RefVal.tgt_inc (V (main_arg7 : DevRef τ sig))) (V (main_v99 : DevRef τ sig))) (broadcastInDim S50000x128 ![0, 1] bcast_S50000x1_S50000x128_0_1 (maximumf (F := Ideal) (φ := .f32) (broadcastInDim S50000x1 ![] bcast_S_S50000x1 (id (constant (F := Ideal) S_ .f32 0x3F800000#32))) (Host.scatterAdd (F := Ideal) (φ := .f32) scatter_S50000x1_S160000x1_S160000x1_1_0_0_1 (broadcastInDim S50000x1 ![] bcast_S_S50000x1 (constant (F := Ideal) S_ .f32 0x00000000#32)) (RefVal.tgt_inc (V (main_arg7 : DevRef τ sig))) (broadcastInDim S160000x1 ![] bcast_S_S160000x1 (constant (F := Ideal) S_ .f32 0x3F800000#32)))))) := by
  rw [after_append, c_inc0_suf2]
  rw [c_inc0_b_v104 V,
    show after (c_inc0_b (F := Ideal)) V (main_arg7 : DevRef τ sig) = V (main_arg7 : DevRef τ sig) from after_of_idx_range _ V c_inc0_b_range main_arg7 (Or.inl (by decide))]

theorem c_inc0_suf0 (V : Valuation τ sig (Elt Ideal)) :
    after (c_inc0_a (F := Ideal) ++ (c_inc0_b (F := Ideal) ++ (c_inc0_c (F := Ideal) ++ (c_inc0_d (F := Ideal))))) V (main_v113 : DevRef τ sig) = (Host.divf (F := Ideal) (φ := .f32) (Host.scatterAdd (F := Ideal) (φ := .f32) scatter_S50000x128_S160000x1_S160000x128_1_0_0_1 (broadcastInDim S50000x128 ![] bcast_S_S50000x128 (constant (F := Ideal) S_ .f32 0x00000000#32)) (RefVal.tgt_inc (V (main_arg7 : DevRef τ sig))) (Host.dotGeneral (F := Ideal) (φ₁ := .f32) (φ₂ := .f32) dot_S160000x128_S128x128_S160000x128_1_0_0_1_n_n none (Host.gather gather_S20000x128_S160000x1_S160000x128_1_0_n_n_0_1_1128 (V (main_v15 : DevRef τ sig)) (RefVal.src_inc (V (main_arg7 : DevRef τ sig)))) (V (main_v17 : DevRef τ sig)))) (broadcastInDim S50000x128 ![0, 1] bcast_S50000x1_S50000x128_0_1 (maximumf (F := Ideal) (φ := .f32) (broadcastInDim S50000x1 ![] bcast_S_S50000x1 (id (constant (F := Ideal) S_ .f32 0x3F800000#32))) (Host.scatterAdd (F := Ideal) (φ := .f32) scatter_S50000x1_S160000x1_S160000x1_1_0_0_1 (broadcastInDim S50000x1 ![] bcast_S_S50000x1 (constant (F := Ideal) S_ .f32 0x00000000#32)) (RefVal.tgt_inc (V (main_arg7 : DevRef τ sig))) (broadcastInDim S160000x1 ![] bcast_S_S160000x1 (constant (F := Ideal) S_ .f32 0x3F800000#32)))))) := by
  rw [after_append, c_inc0_suf1]
  rw [show after (c_inc0_a (F := Ideal)) V (main_arg7 : DevRef τ sig) = V (main_arg7 : DevRef τ sig) from after_of_idx_range _ V c_inc0_a_range main_arg7 (Or.inl (by decide)),
    c_inc0_a_v99 V]

/-- What the stage leaves in %113's buffer, over the contents before it: the relation's mean message. -/
theorem c_inc0_v113 (V : Valuation τ sig (Elt Ideal)) :
    after (c_inc0 (F := Ideal)) V (main_v113 : DevRef τ sig) = RefVal.rel_inc (V (main_v15 : DevRef τ sig)) (V (main_v17 : DevRef τ sig)) (V (main_arg7 : DevRef τ sig)) := by
  unfold c_inc0
  rw [c_inc0_suf0]
  rfl

end Cert.ReferenceIdeal.RefRun

end
-- ==== Proof.RefOpsS_comb0.lean ====
/-
  One stage of the reference's @main — layer 0's self term, the five-term sum and the unit —: the list of its operations; the range of buffer
  indices they write (buffers are numbered in program order, so a stage writes a contiguous range; each operation
  writes one literal buffer, whose index is compared by computation); and what the stage leaves in each buffer a
  later stage reads, as the value-level stage function of the contents before it.  The value statements are at the
  ideal floats.
-/
import proofs.«168040_j41652592837487_1_alg».proof.Proof.Gen.ReferenceIdeal
import Idealize.ShloMosaic.Lib.StableHlo.Run
import proofs.«168040_j41652592837487_1_alg».proof.Proof.RefVal
import proofs.«168040_j41652592837487_1_alg».proof.Proof.RefOpsLib
import proofs.«168040_j41652592837487_1_alg».proof.Proof.LibTRef

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
/-- Operations 147 … 173 of @main: layer 0's self term, the five-term sum and the unit. -/
def c_comb0 : List (HloOp τ sig (Elt F)) :=
  [
    StableHlo.unary main_arg16 main_v114 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v114 main_v115 rfl shapeCasts_S1x128x128_S128x128,
    StableHlo.binary main_v3 main_v115 main_v116 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg17 main_v117 ((extractStridedSlice S1x128 ![0, 0] · slices_S3x128_S1x128_0_0) : (⟨S3x128, .f32⟩ : BufTy).Contents (Elt F) → (⟨S1x128, .f32⟩ : BufTy).Contents (Elt F)),
    StableHlo.reshape main_v117 main_v118 rfl shapeCasts_S1x128_S128,
    StableHlo.unary main_v118 main_v119 (broadcastInDim S1x128 ![1] bcast_S128_S1x128_1 : (⟨S128, .f32⟩ : BufTy).Contents (Elt F) → (⟨S1x128, .f32⟩ : BufTy).Contents (Elt F)),
    StableHlo.unary main_v119 main_v120 (broadcastInDim S50000x128 ![0, 1] bcast_S1x128_S50000x128_0_1 : (⟨S1x128, .f32⟩ : BufTy).Contents (Elt F) → (⟨S50000x128, .f32⟩ : BufTy).Contents (Elt F)),
    StableHlo.binary main_v116 main_v120 main_v121 (addf : (⟨S50000x128, .f32⟩ : BufTy).Contents (Elt F) → (⟨S50000x128, .f32⟩ : BufTy).Contents (Elt F) → (⟨S50000x128, .f32⟩ : BufTy).Contents (Elt F)),
    StableHlo.binary main_v121 main_v41 main_v122 (addf : (⟨S50000x128, .f32⟩ : BufTy).Contents (Elt F) → (⟨S50000x128, .f32⟩ : BufTy).Contents (Elt F) → (⟨S50000x128, .f32⟩ : BufTy).Contents (Elt F)),
    StableHlo.binary main_v122 main_v65 main_v123 (addf : (⟨S50000x128, .f32⟩ : BufTy).Contents (Elt F) → (⟨S50000x128, .f32⟩ : BufTy).Contents (Elt F) → (⟨S50000x128, .f32⟩ : BufTy).Contents (Elt F)),
    StableHlo.binary main_v123 main_v89 main_v124 (addf : (⟨S50000x128, .f32⟩ : BufTy).Contents (Elt F) → (⟨S50000x128, .f32⟩ : BufTy).Contents (Elt F) → (⟨S50000x128, .f32⟩ : BufTy).Contents (Elt F)),
    StableHlo.binary main_v124 main_v113 main_v125 (addf : (⟨S50000x128, .f32⟩ : BufTy).Contents (Elt F) → (⟨S50000x128, .f32⟩ : BufTy).Contents (Elt F) → (⟨S50000x128, .f32⟩ : BufTy).Contents (Elt F)),
    StableHlo.TRef.nullary main_call4.cst (constant S_ .f32 0x00000000#32),
    StableHlo.TRef.unary main_call4.cst main_call4.v0 (broadcastInDim S50000x128 ![] bcast_S_S50000x128),
    StableHlo.TRef.binary (.of main_v125) main_call4.v0 main_call4.v1 (cmpf .ogt),
    StableHlo.TRef.nullary main_call4.cst_0 (constant S_ .f32 0x00000000#32),
    StableHlo.TRef.unary main_call4.cst_0 main_call4.v2 (broadcastInDim S50000x128 ![] bcast_S_S50000x128),
    StableHlo.TRef.binary (.of main_v125) main_call4.v2 main_call4.v3 (cmpf .ogt),
    StableHlo.TRef.nullary main_call4.cst_1 (constant S_ .f32 0x00000000#32),
    StableHlo.TRef.unary main_call4.cst_1 main_call4.call0.v0 id,
    StableHlo.TRef.unary main_call4.call0.v0 main_call4.call0.v1 (broadcastInDim S50000x128 ![] bcast_S_S50000x128),
    StableHlo.TRef.ternary main_call4.v3 main_call4.call0.v1 (.of main_v125) main_call4.call0.v2 select,
    StableHlo.TRef.unary main_call4.call0.v2 main_call4.v5 Host.expm1,
    StableHlo.TRef.nullary main_call4.cst_2 (constant S_ .f32 0x3F800000#32),
    StableHlo.TRef.unary main_call4.cst_2 main_call4.v6 (broadcastInDim S50000x128 ![] bcast_S_S50000x128),
    StableHlo.TRef.binary main_call4.v6 main_call4.v5 main_call4.v7 mulf,
    StableHlo.TRef.ternary main_call4.v1 (.of main_v125) main_call4.v7 main_call4.call1.v0 select ]

/-- Each of these operations writes one buffer, of index 165 … 191. -/
theorem c_comb0_range : (c_comb0 : List (HloOp τ sig (Elt F))).Forall fun op => ∀ b ∈ op.writes, 165 ≤ b.idx.val ∧ b.idx.val ≤ 191 := by
  unfold c_comb0
  exact ⟨by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide⟩

set_option maxRecDepth 8192 in
set_option maxHeartbeats 1600000 in
/-- What these operations leave in %126's buffer, over the contents before them: each operation's result
    at its own buffer is its function of its operands' contents, any other buffer is unchanged; the composed term is
    the stage function by unfolding its definition. -/
theorem c_comb0_v126 (V : Valuation τ sig (Elt Ideal)) :
    after (c_comb0 (F := Ideal)) V (main_v126 : DevRef τ sig) = RefVal.eluR (addf (F := Ideal) (addf (F := Ideal) (addf (F := Ideal) (addf (F := Ideal) (addf (F := Ideal) (Host.dotGeneral (F := Ideal) (φ₁ := .f32) (φ₂ := .f32) dot_S50000x128_S128x128_S50000x128_1_0_0_1_n_n none (V (main_v3 : DevRef τ sig)) (RefVal.sliceW0 (V (main_arg16 : DevRef τ sig)))) (broadcastInDim S50000x128 ![0, 1] bcast_S1x128_S50000x128_0_1 (broadcastInDim S1x128 ![1] bcast_S128_S1x128_1 (RefVal.sliceB0 (V (main_arg17 : DevRef τ sig)))))) (V (main_v41 : DevRef τ sig))) (V (main_v65 : DevRef τ sig))) (V (main_v89 : DevRef τ sig))) (V (main_v113 : DevRef τ sig))) := by
  unfold c_comb0
  after_results_simp
  simp only [TRef.ofBuf_toBuf]
  rfl

end Cert.ReferenceIdeal.RefRun

end
-- ==== Proof.RefOpsC0.lean ====
/-
  The stages of the input projections and of layer 0 of the reference's @main, gathered: each stage's list of operations, the range of
  buffer indices it writes, and its value lemma are in its own module.
-/
import proofs.«168040_j41652592837487_1_alg».proof.Proof.RefOpsS_proj
import proofs.«168040_j41652592837487_1_alg».proof.Proof.RefOpsS_wr0
import proofs.«168040_j41652592837487_1_alg».proof.Proof.RefOpsS_sp0
import proofs.«168040_j41652592837487_1_alg».proof.Proof.RefOpsS_fl0
import proofs.«168040_j41652592837487_1_alg».proof.Proof.RefOpsS_fs0
import proofs.«168040_j41652592837487_1_alg».proof.Proof.RefOpsS_inc0
import proofs.«168040_j41652592837487_1_alg».proof.Proof.RefOpsS_comb0
-- ==== Proof.RefOpsS_wr1.lean ====
/-
  One stage of the reference's @main — layer 1's relation matrix (a slice of the stack, reshaped) —: the list of its operations; the range of buffer
  indices they write (buffers are numbered in program order, so a stage writes a contiguous range; each operation
  writes one literal buffer, whose index is compared by computation); and what the stage leaves in each buffer a
  later stage reads, as the value-level stage function of the contents before it.  The value statements are at the
  ideal floats.
-/
import proofs.«168040_j41652592837487_1_alg».proof.Proof.Gen.ReferenceIdeal
import Idealize.ShloMosaic.Lib.StableHlo.Run
import proofs.«168040_j41652592837487_1_alg».proof.Proof.RefVal
import proofs.«168040_j41652592837487_1_alg».proof.Proof.RefOpsLib

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
/-- Operations 174 … 175 of @main: layer 1's relation matrix (a slice of the stack, reshaped). -/
def c_wr1 : List (HloOp τ sig (Elt F)) :=
  [
    StableHlo.unary main_arg18 main_v127 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v127 main_v128 rfl shapeCasts_S1x128x128_S128x128 ]

/-- Each of these operations writes one buffer, of index 192 … 193. -/
theorem c_wr1_range : (c_wr1 : List (HloOp τ sig (Elt F))).Forall fun op => ∀ b ∈ op.writes, 192 ≤ b.idx.val ∧ b.idx.val ≤ 193 := by
  unfold c_wr1
  exact ⟨by intro b hb; rw [Finset.mem_singleton.mp hb]; decide, by intro b hb; rw [Finset.mem_singleton.mp hb]; decide⟩

set_option maxRecDepth 8192 in
set_option maxHeartbeats 1600000 in
/-- What these operations leave in %128's buffer, over the contents before them: each operation's result
    at its own buffer is its function of its operands' contents, any other buffer is unchanged; the composed term is
    the stage function by unfolding its definition. -/
theorem c_wr1_v128 (V : Valuation τ sig (Elt Ideal)) :
    after (c_wr1 (F := Ideal)) V (main_v128 : DevRef τ sig) = RefVal.sliceW1 (V (main_arg18 : DevRef τ sig)) := by
  unfold c_wr1
  after_results_simp
  rfl

end Cert.ReferenceIdeal.RefRun

end
-- ==== Proof.RefOpsS_sp1.lean ====
/-
  One stage of the reference's @main — layer 1, first relation: indices, gather, product, the two scatters, the clipped count, the quotient — in four consecutive pieces: the gather indices, the
  gathered rows and their product with the relation matrix; the scatter indices and the messages summed into the
  target rows; the count of edges into each target row; the count clipped below at one and the quotient.  For each
  piece: the list of its operations, the range of buffer indices they write (buffers are numbered in program order;
  each operation writes one literal buffer, whose index is compared by computation), and what it leaves in the one
  buffer a later piece reads.  The stage is the four lists appended; its value is the pieces' values composed,
  every other buffer a piece reads being outside the range the pieces between write.  The value statements are at
  the ideal floats.
-/
import proofs.«168040_j41652592837487_1_alg».proof.Proof.Gen.ReferenceIdeal
import Idealize.ShloMosaic.Lib.StableHlo.Run
import proofs.«168040_j41652592837487_1_alg».proof.Proof.RefVal
import proofs.«168040_j41652592837487_1_alg».proof.Proof.RefOpsLib
import proofs.«168040_j41652592837487_1_alg».proof.Proof.LibTRef
import proofs.«168040_j41652592837487_1_alg».proof.Proof.LibAfter

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
/-- Operations 176 … 187 of @main: the gather indices, the gathered rows, their product with the relation matrix. -/
def c_sp1_a : List (HloOp τ sig (Elt F)) :=
  [
    StableHlo.unary main_arg4 main_v129 ((extractStridedSlice S1x640000 ![0, 0] · slices_S2x640000_S1x640000_0_0) : (⟨S2x640000, .i32⟩ : BufTy).Contents (Elt F) → (⟨S1x640000, .i32⟩ : BufTy).Contents (Elt F)),
    StableHlo.reshape main_v129 main_v130 rfl shapeCasts_S1x640000_S640000,
    StableHlo.nullary main_c_22 (constantI S_ 32 0#32),
    StableHlo.unary main_c_22 main_v131 (broadcastInDim S640000 ![] bcast_S_S640000 : (⟨S_, .i32⟩ : BufTy).Contents (Elt F) → (⟨S640000, .i32⟩ : BufTy).Contents (Elt F)),
    StableHlo.binary main_v130 main_v131 main_v132 (cmpi .slt : (⟨S640000, .i32⟩ : BufTy).Contents (Elt F) → (⟨S640000, .i32⟩ : BufTy).Contents (Elt F) → (⟨S640000, .i1⟩ : BufTy).Contents (Elt F)),
    StableHlo.nullary main_c_23 (constantI S_ 32 50000#32),
    StableHlo.unary main_c_23 main_v133 (broadcastInDim S640000 ![] bcast_S_S640000 : (⟨S_, .i32⟩ : BufTy).Contents (Elt F) → (⟨S640000, .i32⟩ : BufTy).Contents (Elt F)),
    StableHlo.binary main_v130 main_v133 main_v134 (addi : (⟨S640000, .i32⟩ : BufTy).Contents (Elt F) → (⟨S640000, .i32⟩ : BufTy).Contents (Elt F) → (⟨S640000, .i32⟩ : BufTy).Contents (Elt F)),
    StableHlo.ternary main_v132 main_v134 main_v130 main_v135 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v135 main_v136 (broadcastInDim S640000x1 ![0] bcast_S640000_S640000x1_0 : (⟨S640000, .i32⟩ : BufTy).Contents (Elt F) → (⟨S640000x1, .i32⟩ : BufTy).Contents (Elt F)),
    StableHlo.binary main_v126 main_v136 main_v137 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    StableHlo.binary main_v137 main_v128 main_v138 ((fun l r => Host.dotGeneral dot_S640000x128_S128x128_S640000x128_1_0_0_1_n_n none l r) : (⟨S640000x128, .f32⟩ : BufTy).Contents (Elt F) → (⟨S128x128, .f32⟩ : BufTy).Contents (Elt F) → (⟨S640000x128, .f32⟩ : BufTy).Contents (Elt F)) ]

/-- Each of these operations writes one buffer, of index 194 … 205. -/
theorem c_sp1_a_range : (c_sp1_a : List (HloOp τ sig (Elt F))).Forall fun op => ∀ b ∈ op.writes, 194 ≤ b.idx.val ∧ b.idx.val ≤ 205 := by
  unfold c_sp1_a
  exact ⟨by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide⟩

set_option maxRecDepth 8192 in
set_option maxHeartbeats 1600000 in
/-- What these operations leave in %138's buffer, over the contents before them. -/
theorem c_sp1_a_v138 (V : Valuation τ sig (Elt Ideal)) :
    after (c_sp1_a (F := Ideal)) V (main_v138 : DevRef τ sig) = Host.dotGeneral (F := Ideal) (φ₁ := .f32) (φ₂ := .f32) dot_S640000x128_S128x128_S640000x128_1_0_0_1_n_n none (Host.gather gather_S50000x128_S640000x1_S640000x128_1_0_n_n_0_1_1128 (V (main_v126 : DevRef τ sig)) (RefVal.src_sp (V (main_arg4 : DevRef τ sig)))) (V (main_v128 : DevRef τ sig)) := by
  unfold c_sp1_a
  after_results_simp
  rfl

/-- Operations 188 … 193 of @main: the scatter indices and the messages summed into the target rows. -/
def c_sp1_b : List (HloOp τ sig (Elt F)) :=
  [
    StableHlo.unary main_arg4 main_v139 ((extractStridedSlice S1x640000 ![1, 0] · slices_S2x640000_S1x640000_1_0) : (⟨S2x640000, .i32⟩ : BufTy).Contents (Elt F) → (⟨S1x640000, .i32⟩ : BufTy).Contents (Elt F)),
    StableHlo.reshape main_v139 main_v140 rfl shapeCasts_S1x640000_S640000,
    StableHlo.nullary main_cst_24 (constant S_ .f32 0x00000000#32),
    StableHlo.unary main_cst_24 main_v141 (broadcastInDim S50000x128 ![] bcast_S_S50000x128 : (⟨S_, .f32⟩ : BufTy).Contents (Elt F) → (⟨S50000x128, .f32⟩ : BufTy).Contents (Elt F)),
    StableHlo.unary main_v140 main_v142 (broadcastInDim S640000x1 ![0] bcast_S640000_S640000x1_0 : (⟨S640000, .i32⟩ : BufTy).Contents (Elt F) → (⟨S640000x1, .i32⟩ : BufTy).Contents (Elt F)),
    StableHlo.ternary main_v141 main_v142 main_v138 main_v143 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)) ]

/-- Each of these operations writes one buffer, of index 206 … 211. -/
theorem c_sp1_b_range : (c_sp1_b : List (HloOp τ sig (Elt F))).Forall fun op => ∀ b ∈ op.writes, 206 ≤ b.idx.val ∧ b.idx.val ≤ 211 := by
  unfold c_sp1_b
  exact ⟨by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide⟩

set_option maxRecDepth 8192 in
set_option maxHeartbeats 1600000 in
/-- What these operations leave in %143's buffer, over the contents before them. -/
theorem c_sp1_b_v143 (V : Valuation τ sig (Elt Ideal)) :
    after (c_sp1_b (F := Ideal)) V (main_v143 : DevRef τ sig) = Host.scatterAdd (F := Ideal) (φ := .f32) scatter_S50000x128_S640000x1_S640000x128_1_0_0_1 (broadcastInDim S50000x128 ![] bcast_S_S50000x128 (constant (F := Ideal) S_ .f32 0x00000000#32)) (RefVal.tgt_sp (V (main_arg4 : DevRef τ sig))) (V (main_v138 : DevRef τ sig)) := by
  unfold c_sp1_b
  after_results_simp
  rfl

/-- Operations 194 … 201 of @main: the count of edges into each target row. -/
def c_sp1_c : List (HloOp τ sig (Elt F)) :=
  [
    StableHlo.nullary main_cst_25 (constant S_ .f32 0x3F800000#32),
    StableHlo.unary main_cst_25 main_v144 (broadcastInDim S640000x1 ![] bcast_S_S640000x1 : (⟨S_, .f32⟩ : BufTy).Contents (Elt F) → (⟨S640000x1, .f32⟩ : BufTy).Contents (Elt F)),
    StableHlo.unary main_arg4 main_v145 ((extractStridedSlice S1x640000 ![1, 0] · slices_S2x640000_S1x640000_1_0) : (⟨S2x640000, .i32⟩ : BufTy).Contents (Elt F) → (⟨S1x640000, .i32⟩ : BufTy).Contents (Elt F)),
    StableHlo.reshape main_v145 main_v146 rfl shapeCasts_S1x640000_S640000,
    StableHlo.nullary main_cst_26 (constant S_ .f32 0x00000000#32),
    StableHlo.unary main_cst_26 main_v147 (broadcastInDim S50000x1 ![] bcast_S_S50000x1 : (⟨S_, .f32⟩ : BufTy).Contents (Elt F) → (⟨S50000x1, .f32⟩ : BufTy).Contents (Elt F)),
    StableHlo.unary main_v146 main_v148 (broadcastInDim S640000x1 ![0] bcast_S640000_S640000x1_0 : (⟨S640000, .i32⟩ : BufTy).Contents (Elt F) → (⟨S640000x1, .i32⟩ : BufTy).Contents (Elt F)),
    StableHlo.ternary main_v147 main_v148 main_v144 main_v149 ((fun x i u => Host.scatterAdd scatter_S50000x1_S640000x1_S640000x1_1_0_0_1 x i u) : (⟨S50000x1, .f32⟩ : BufTy).Contents (Elt F) → (⟨S640000x1, .i32⟩ : BufTy).Contents (Elt F) → (⟨S640000x1, .f32⟩ : BufTy).Contents (Elt F) → (⟨S50000x1, .f32⟩ : BufTy).Contents (Elt F)) ]

/-- Each of these operations writes one buffer, of index 212 … 219. -/
theorem c_sp1_c_range : (c_sp1_c : List (HloOp τ sig (Elt F))).Forall fun op => ∀ b ∈ op.writes, 212 ≤ b.idx.val ∧ b.idx.val ≤ 219 := by
  unfold c_sp1_c
  exact ⟨by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide⟩

set_option maxRecDepth 8192 in
set_option maxHeartbeats 1600000 in
/-- What these operations leave in %149's buffer, over the contents before them. -/
theorem c_sp1_c_v149 (V : Valuation τ sig (Elt Ideal)) :
    after (c_sp1_c (F := Ideal)) V (main_v149 : DevRef τ sig) = Host.scatterAdd (F := Ideal) (φ := .f32) scatter_S50000x1_S640000x1_S640000x1_1_0_0_1 (broadcastInDim S50000x1 ![] bcast_S_S50000x1 (constant (F := Ideal) S_ .f32 0x00000000#32)) (RefVal.tgt_sp (V (main_arg4 : DevRef τ sig))) (broadcastInDim S640000x1 ![] bcast_S_S640000x1 (constant (F := Ideal) S_ .f32 0x3F800000#32)) := by
  unfold c_sp1_c
  after_results_simp
  rfl

/-- Operations 202 … 207 of @main: the count clipped below at one, broadcast, and the quotient. -/
def c_sp1_d : List (HloOp τ sig (Elt F)) :=
  [
    StableHlo.nullary main_cst_27 (constant S_ .f32 0x3F800000#32),
    StableHlo.TRef.unary (.of main_cst_27) main_call5.v0 id,
    StableHlo.TRef.unary main_call5.v0 main_call5.v1 (broadcastInDim S50000x1 ![] bcast_S_S50000x1),
    StableHlo.TRef.binary main_call5.v1 (.of main_v149) main_call5.v2 maximumf,
    StableHlo.unary main_v150 main_v151 (broadcastInDim S50000x128 ![0, 1] bcast_S50000x1_S50000x128_0_1 : (⟨S50000x1, .f32⟩ : BufTy).Contents (Elt F) → (⟨S50000x128, .f32⟩ : BufTy).Contents (Elt F)),
    StableHlo.binary main_v143 main_v151 main_v152 (Host.divf : (⟨S50000x128, .f32⟩ : BufTy).Contents (Elt F) → (⟨S50000x128, .f32⟩ : BufTy).Contents (Elt F) → (⟨S50000x128, .f32⟩ : BufTy).Contents (Elt F)) ]

/-- Each of these operations writes one buffer, of index 220 … 225. -/
theorem c_sp1_d_range : (c_sp1_d : List (HloOp τ sig (Elt F))).Forall fun op => ∀ b ∈ op.writes, 220 ≤ b.idx.val ∧ b.idx.val ≤ 225 := by
  unfold c_sp1_d
  exact ⟨by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide⟩

set_option maxRecDepth 8192 in
set_option maxHeartbeats 1600000 in
/-- What these operations leave in %152's buffer, over the contents before them. -/
theorem c_sp1_d_v152 (V : Valuation τ sig (Elt Ideal)) :
    after (c_sp1_d (F := Ideal)) V (main_v152 : DevRef τ sig) = Host.divf (F := Ideal) (φ := .f32) (V (main_v143 : DevRef τ sig)) (broadcastInDim S50000x128 ![0, 1] bcast_S50000x1_S50000x128_0_1 (maximumf (F := Ideal) (φ := .f32) (broadcastInDim S50000x1 ![] bcast_S_S50000x1 (id (constant (F := Ideal) S_ .f32 0x3F800000#32))) (V (main_v149 : DevRef τ sig)))) := by
  unfold c_sp1_d
  after_results_simp
  simp only [TRef.ofBuf_toBuf]
  rfl

/-- The stage: its four pieces in order. -/
def c_sp1 : List (HloOp τ sig (Elt F)) :=
  c_sp1_a ++ (c_sp1_b ++ (c_sp1_c ++ (c_sp1_d)))

/-- Each operation of the stage writes one buffer, of index 194 … 225. -/
theorem c_sp1_range : (c_sp1 : List (HloOp τ sig (Elt F))).Forall fun op => ∀ b ∈ op.writes, 194 ≤ b.idx.val ∧ b.idx.val ≤ 225 := by
  unfold c_sp1
  exact List.forall_append.mpr ⟨idx_range_mono (by decide) (by decide) c_sp1_a_range, List.forall_append.mpr ⟨idx_range_mono (by decide) (by decide) c_sp1_b_range, List.forall_append.mpr ⟨idx_range_mono (by decide) (by decide) c_sp1_c_range, idx_range_mono (by decide) (by decide) c_sp1_d_range⟩⟩⟩

set_option maxRecDepth 8192
set_option maxHeartbeats 1600000

theorem c_sp1_suf3 (V : Valuation τ sig (Elt Ideal)) :
    after (c_sp1_d (F := Ideal)) V (main_v152 : DevRef τ sig) = (Host.divf (F := Ideal) (φ := .f32) (V (main_v143 : DevRef τ sig)) (broadcastInDim S50000x128 ![0, 1] bcast_S50000x1_S50000x128_0_1 (maximumf (F := Ideal) (φ := .f32) (broadcastInDim S50000x1 ![] bcast_S_S50000x1 (id (constant (F := Ideal) S_ .f32 0x3F800000#32))) (V (main_v149 : DevRef τ sig))))) :=
  c_sp1_d_v152 V

theorem c_sp1_suf2 (V : Valuation τ sig (Elt Ideal)) :
    after (c_sp1_c (F := Ideal) ++ (c_sp1_d (F := Ideal))) V (main_v152 : DevRef τ sig) = (Host.divf (F := Ideal) (φ := .f32) (V (main_v143 : DevRef τ sig)) (broadcastInDim S50000x128 ![0, 1] bcast_S50000x1_S50000x128_0_1 (maximumf (F := Ideal) (φ := .f32) (broadcastInDim S50000x1 ![] bcast_S_S50000x1 (id (constant (F := Ideal) S_ .f32 0x3F800000#32))) (Host.scatterAdd (F := Ideal) (φ := .f32) scatter_S50000x1_S640000x1_S640000x1_1_0_0_1 (broadcastInDim S50000x1 ![] bcast_S_S50000x1 (constant (F := Ideal) S_ .f32 0x00000000#32)) (RefVal.tgt_sp (V (main_arg4 : DevRef τ sig))) (broadcastInDim S640000x1 ![] bcast_S_S640000x1 (constant (F := Ideal) S_ .f32 0x3F800000#32)))))) := by
  rw [after_append, c_sp1_suf3]
  rw [show after (c_sp1_c (F := Ideal)) V (main_v143 : DevRef τ sig) = V (main_v143 : DevRef τ sig) from after_of_idx_range _ V c_sp1_c_range main_v143 (Or.inl (by decide)),
    c_sp1_c_v149 V]

theorem c_sp1_suf1 (V : Valuation τ sig (Elt Ideal)) :
    after (c_sp1_b (F := Ideal) ++ (c_sp1_c (F := Ideal) ++ (c_sp1_d (F := Ideal)))) V (main_v152 : DevRef τ sig) = (Host.divf (F := Ideal) (φ := .f32) (Host.scatterAdd (F := Ideal) (φ := .f32) scatter_S50000x128_S640000x1_S640000x128_1_0_0_1 (broadcastInDim S50000x128 ![] bcast_S_S50000x128 (constant (F := Ideal) S_ .f32 0x00000000#32)) (RefVal.tgt_sp (V (main_arg4 : DevRef τ sig))) (V (main_v138 : DevRef τ sig))) (broadcastInDim S50000x128 ![0, 1] bcast_S50000x1_S50000x128_0_1 (maximumf (F := Ideal) (φ := .f32) (broadcastInDim S50000x1 ![] bcast_S_S50000x1 (id (constant (F := Ideal) S_ .f32 0x3F800000#32))) (Host.scatterAdd (F := Ideal) (φ := .f32) scatter_S50000x1_S640000x1_S640000x1_1_0_0_1 (broadcastInDim S50000x1 ![] bcast_S_S50000x1 (constant (F := Ideal) S_ .f32 0x00000000#32)) (RefVal.tgt_sp (V (main_arg4 : DevRef τ sig))) (broadcastInDim S640000x1 ![] bcast_S_S640000x1 (constant (F := Ideal) S_ .f32 0x3F800000#32)))))) := by
  rw [after_append, c_sp1_suf2]
  rw [c_sp1_b_v143 V,
    show after (c_sp1_b (F := Ideal)) V (main_arg4 : DevRef τ sig) = V (main_arg4 : DevRef τ sig) from after_of_idx_range _ V c_sp1_b_range main_arg4 (Or.inl (by decide))]

theorem c_sp1_suf0 (V : Valuation τ sig (Elt Ideal)) :
    after (c_sp1_a (F := Ideal) ++ (c_sp1_b (F := Ideal) ++ (c_sp1_c (F := Ideal) ++ (c_sp1_d (F := Ideal))))) V (main_v152 : DevRef τ sig) = (Host.divf (F := Ideal) (φ := .f32) (Host.scatterAdd (F := Ideal) (φ := .f32) scatter_S50000x128_S640000x1_S640000x128_1_0_0_1 (broadcastInDim S50000x128 ![] bcast_S_S50000x128 (constant (F := Ideal) S_ .f32 0x00000000#32)) (RefVal.tgt_sp (V (main_arg4 : DevRef τ sig))) (Host.dotGeneral (F := Ideal) (φ₁ := .f32) (φ₂ := .f32) dot_S640000x128_S128x128_S640000x128_1_0_0_1_n_n none (Host.gather gather_S50000x128_S640000x1_S640000x128_1_0_n_n_0_1_1128 (V (main_v126 : DevRef τ sig)) (RefVal.src_sp (V (main_arg4 : DevRef τ sig)))) (V (main_v128 : DevRef τ sig)))) (broadcastInDim S50000x128 ![0, 1] bcast_S50000x1_S50000x128_0_1 (maximumf (F := Ideal) (φ := .f32) (broadcastInDim S50000x1 ![] bcast_S_S50000x1 (id (constant (F := Ideal) S_ .f32 0x3F800000#32))) (Host.scatterAdd (F := Ideal) (φ := .f32) scatter_S50000x1_S640000x1_S640000x1_1_0_0_1 (broadcastInDim S50000x1 ![] bcast_S_S50000x1 (constant (F := Ideal) S_ .f32 0x00000000#32)) (RefVal.tgt_sp (V (main_arg4 : DevRef τ sig))) (broadcastInDim S640000x1 ![] bcast_S_S640000x1 (constant (F := Ideal) S_ .f32 0x3F800000#32)))))) := by
  rw [after_append, c_sp1_suf1]
  rw [show after (c_sp1_a (F := Ideal)) V (main_arg4 : DevRef τ sig) = V (main_arg4 : DevRef τ sig) from after_of_idx_range _ V c_sp1_a_range main_arg4 (Or.inl (by decide)),
    c_sp1_a_v138 V]

/-- What the stage leaves in %152's buffer, over the contents before it: the relation's mean message. -/
theorem c_sp1_v152 (V : Valuation τ sig (Elt Ideal)) :
    after (c_sp1 (F := Ideal)) V (main_v152 : DevRef τ sig) = RefVal.rel_sp (V (main_v126 : DevRef τ sig)) (V (main_v128 : DevRef τ sig)) (V (main_arg4 : DevRef τ sig)) := by
  unfold c_sp1
  rw [c_sp1_suf0]
  rfl

end Cert.ReferenceIdeal.RefRun

end
-- ==== Proof.RefOpsS_fl1.lean ====
/-
  One stage of the reference's @main — layer 1, second relation — in four consecutive pieces: the gather indices, the
  gathered rows and their product with the relation matrix; the scatter indices and the messages summed into the
  target rows; the count of edges into each target row; the count clipped below at one and the quotient.  For each
  piece: the list of its operations, the range of buffer indices they write (buffers are numbered in program order;
  each operation writes one literal buffer, whose index is compared by computation), and what it leaves in the one
  buffer a later piece reads.  The stage is the four lists appended; its value is the pieces' values composed,
  every other buffer a piece reads being outside the range the pieces between write.  The value statements are at
  the ideal floats.
-/
import proofs.«168040_j41652592837487_1_alg».proof.Proof.Gen.ReferenceIdeal
import Idealize.ShloMosaic.Lib.StableHlo.Run
import proofs.«168040_j41652592837487_1_alg».proof.Proof.RefVal
import proofs.«168040_j41652592837487_1_alg».proof.Proof.RefOpsLib
import proofs.«168040_j41652592837487_1_alg».proof.Proof.LibTRef
import proofs.«168040_j41652592837487_1_alg».proof.Proof.LibAfter

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
/-- Operations 208 … 219 of @main: the gather indices, the gathered rows, their product with the relation matrix. -/
def c_fl1_a : List (HloOp τ sig (Elt F)) :=
  [
    StableHlo.unary main_arg5 main_v153 ((extractStridedSlice S1x640000 ![0, 0] · slices_S2x640000_S1x640000_0_0) : (⟨S2x640000, .i32⟩ : BufTy).Contents (Elt F) → (⟨S1x640000, .i32⟩ : BufTy).Contents (Elt F)),
    StableHlo.reshape main_v153 main_v154 rfl shapeCasts_S1x640000_S640000,
    StableHlo.nullary main_c_28 (constantI S_ 32 0#32),
    StableHlo.unary main_c_28 main_v155 (broadcastInDim S640000 ![] bcast_S_S640000 : (⟨S_, .i32⟩ : BufTy).Contents (Elt F) → (⟨S640000, .i32⟩ : BufTy).Contents (Elt F)),
    StableHlo.binary main_v154 main_v155 main_v156 (cmpi .slt : (⟨S640000, .i32⟩ : BufTy).Contents (Elt F) → (⟨S640000, .i32⟩ : BufTy).Contents (Elt F) → (⟨S640000, .i1⟩ : BufTy).Contents (Elt F)),
    StableHlo.nullary main_c_29 (constantI S_ 32 100000#32),
    StableHlo.unary main_c_29 main_v157 (broadcastInDim S640000 ![] bcast_S_S640000 : (⟨S_, .i32⟩ : BufTy).Contents (Elt F) → (⟨S640000, .i32⟩ : BufTy).Contents (Elt F)),
    StableHlo.binary main_v154 main_v157 main_v158 (addi : (⟨S640000, .i32⟩ : BufTy).Contents (Elt F) → (⟨S640000, .i32⟩ : BufTy).Contents (Elt F) → (⟨S640000, .i32⟩ : BufTy).Contents (Elt F)),
    StableHlo.ternary main_v156 main_v158 main_v154 main_v159 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v159 main_v160 (broadcastInDim S640000x1 ![0] bcast_S640000_S640000x1_0 : (⟨S640000, .i32⟩ : BufTy).Contents (Elt F) → (⟨S640000x1, .i32⟩ : BufTy).Contents (Elt F)),
    StableHlo.binary main_v7 main_v160 main_v161 ((fun x i => Host.gather gather_S100000x128_S640000x1_S640000x128_1_0_n_n_0_1_1128 x i) : (⟨S100000x128, .f32⟩ : BufTy).Contents (Elt F) → (⟨S640000x1, .i32⟩ : BufTy).Contents (Elt F) → (⟨S640000x128, .f32⟩ : BufTy).Contents (Elt F)),
    StableHlo.binary main_v161 main_v128 main_v162 ((fun l r => Host.dotGeneral dot_S640000x128_S128x128_S640000x128_1_0_0_1_n_n none l r) : (⟨S640000x128, .f32⟩ : BufTy).Contents (Elt F) → (⟨S128x128, .f32⟩ : BufTy).Contents (Elt F) → (⟨S640000x128, .f32⟩ : BufTy).Contents (Elt F)) ]

/-- Each of these operations writes one buffer, of index 226 … 237. -/
theorem c_fl1_a_range : (c_fl1_a : List (HloOp τ sig (Elt F))).Forall fun op => ∀ b ∈ op.writes, 226 ≤ b.idx.val ∧ b.idx.val ≤ 237 := by
  unfold c_fl1_a
  exact ⟨by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide⟩

set_option maxRecDepth 8192 in
set_option maxHeartbeats 1600000 in
/-- What these operations leave in %162's buffer, over the contents before them. -/
theorem c_fl1_a_v162 (V : Valuation τ sig (Elt Ideal)) :
    after (c_fl1_a (F := Ideal)) V (main_v162 : DevRef τ sig) = Host.dotGeneral (F := Ideal) (φ₁ := .f32) (φ₂ := .f32) dot_S640000x128_S128x128_S640000x128_1_0_0_1_n_n none (Host.gather gather_S100000x128_S640000x1_S640000x128_1_0_n_n_0_1_1128 (V (main_v7 : DevRef τ sig)) (RefVal.src_fl (V (main_arg5 : DevRef τ sig)))) (V (main_v128 : DevRef τ sig)) := by
  unfold c_fl1_a
  after_results_simp
  rfl

/-- Operations 220 … 225 of @main: the scatter indices and the messages summed into the target rows. -/
def c_fl1_b : List (HloOp τ sig (Elt F)) :=
  [
    StableHlo.unary main_arg5 main_v163 ((extractStridedSlice S1x640000 ![1, 0] · slices_S2x640000_S1x640000_1_0) : (⟨S2x640000, .i32⟩ : BufTy).Contents (Elt F) → (⟨S1x640000, .i32⟩ : BufTy).Contents (Elt F)),
    StableHlo.reshape main_v163 main_v164 rfl shapeCasts_S1x640000_S640000,
    StableHlo.nullary main_cst_30 (constant S_ .f32 0x00000000#32),
    StableHlo.unary main_cst_30 main_v165 (broadcastInDim S50000x128 ![] bcast_S_S50000x128 : (⟨S_, .f32⟩ : BufTy).Contents (Elt F) → (⟨S50000x128, .f32⟩ : BufTy).Contents (Elt F)),
    StableHlo.unary main_v164 main_v166 (broadcastInDim S640000x1 ![0] bcast_S640000_S640000x1_0 : (⟨S640000, .i32⟩ : BufTy).Contents (Elt F) → (⟨S640000x1, .i32⟩ : BufTy).Contents (Elt F)),
    StableHlo.ternary main_v165 main_v166 main_v162 main_v167 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)) ]

/-- Each of these operations writes one buffer, of index 238 … 243. -/
theorem c_fl1_b_range : (c_fl1_b : List (HloOp τ sig (Elt F))).Forall fun op => ∀ b ∈ op.writes, 238 ≤ b.idx.val ∧ b.idx.val ≤ 243 := by
  unfold c_fl1_b
  exact ⟨by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide⟩

set_option maxRecDepth 8192 in
set_option maxHeartbeats 1600000 in
/-- What these operations leave in %167's buffer, over the contents before them. -/
theorem c_fl1_b_v167 (V : Valuation τ sig (Elt Ideal)) :
    after (c_fl1_b (F := Ideal)) V (main_v167 : DevRef τ sig) = Host.scatterAdd (F := Ideal) (φ := .f32) scatter_S50000x128_S640000x1_S640000x128_1_0_0_1 (broadcastInDim S50000x128 ![] bcast_S_S50000x128 (constant (F := Ideal) S_ .f32 0x00000000#32)) (RefVal.tgt_fl (V (main_arg5 : DevRef τ sig))) (V (main_v162 : DevRef τ sig)) := by
  unfold c_fl1_b
  after_results_simp
  rfl

/-- Operations 226 … 233 of @main: the count of edges into each target row. -/
def c_fl1_c : List (HloOp τ sig (Elt F)) :=
  [
    StableHlo.nullary main_cst_31 (constant S_ .f32 0x3F800000#32),
    StableHlo.unary main_cst_31 main_v168 (broadcastInDim S640000x1 ![] bcast_S_S640000x1 : (⟨S_, .f32⟩ : BufTy).Contents (Elt F) → (⟨S640000x1, .f32⟩ : BufTy).Contents (Elt F)),
    StableHlo.unary main_arg5 main_v169 ((extractStridedSlice S1x640000 ![1, 0] · slices_S2x640000_S1x640000_1_0) : (⟨S2x640000, .i32⟩ : BufTy).Contents (Elt F) → (⟨S1x640000, .i32⟩ : BufTy).Contents (Elt F)),
    StableHlo.reshape main_v169 main_v170 rfl shapeCasts_S1x640000_S640000,
    StableHlo.nullary main_cst_32 (constant S_ .f32 0x00000000#32),
    StableHlo.unary main_cst_32 main_v171 (broadcastInDim S50000x1 ![] bcast_S_S50000x1 : (⟨S_, .f32⟩ : BufTy).Contents (Elt F) → (⟨S50000x1, .f32⟩ : BufTy).Contents (Elt F)),
    StableHlo.unary main_v170 main_v172 (broadcastInDim S640000x1 ![0] bcast_S640000_S640000x1_0 : (⟨S640000, .i32⟩ : BufTy).Contents (Elt F) → (⟨S640000x1, .i32⟩ : BufTy).Contents (Elt F)),
    StableHlo.ternary main_v171 main_v172 main_v168 main_v173 ((fun x i u => Host.scatterAdd scatter_S50000x1_S640000x1_S640000x1_1_0_0_1 x i u) : (⟨S50000x1, .f32⟩ : BufTy).Contents (Elt F) → (⟨S640000x1, .i32⟩ : BufTy).Contents (Elt F) → (⟨S640000x1, .f32⟩ : BufTy).Contents (Elt F) → (⟨S50000x1, .f32⟩ : BufTy).Contents (Elt F)) ]

/-- Each of these operations writes one buffer, of index 244 … 251. -/
theorem c_fl1_c_range : (c_fl1_c : List (HloOp τ sig (Elt F))).Forall fun op => ∀ b ∈ op.writes, 244 ≤ b.idx.val ∧ b.idx.val ≤ 251 := by
  unfold c_fl1_c
  exact ⟨by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide⟩

set_option maxRecDepth 8192 in
set_option maxHeartbeats 1600000 in
/-- What these operations leave in %173's buffer, over the contents before them. -/
theorem c_fl1_c_v173 (V : Valuation τ sig (Elt Ideal)) :
    after (c_fl1_c (F := Ideal)) V (main_v173 : DevRef τ sig) = Host.scatterAdd (F := Ideal) (φ := .f32) scatter_S50000x1_S640000x1_S640000x1_1_0_0_1 (broadcastInDim S50000x1 ![] bcast_S_S50000x1 (constant (F := Ideal) S_ .f32 0x00000000#32)) (RefVal.tgt_fl (V (main_arg5 : DevRef τ sig))) (broadcastInDim S640000x1 ![] bcast_S_S640000x1 (constant (F := Ideal) S_ .f32 0x3F800000#32)) := by
  unfold c_fl1_c
  after_results_simp
  rfl

/-- Operations 234 … 239 of @main: the count clipped below at one, broadcast, and the quotient. -/
def c_fl1_d : List (HloOp τ sig (Elt F)) :=
  [
    StableHlo.nullary main_cst_33 (constant S_ .f32 0x3F800000#32),
    StableHlo.TRef.unary (.of main_cst_33) main_call6.v0 id,
    StableHlo.TRef.unary main_call6.v0 main_call6.v1 (broadcastInDim S50000x1 ![] bcast_S_S50000x1),
    StableHlo.TRef.binary main_call6.v1 (.of main_v173) main_call6.v2 maximumf,
    StableHlo.unary main_v174 main_v175 (broadcastInDim S50000x128 ![0, 1] bcast_S50000x1_S50000x128_0_1 : (⟨S50000x1, .f32⟩ : BufTy).Contents (Elt F) → (⟨S50000x128, .f32⟩ : BufTy).Contents (Elt F)),
    StableHlo.binary main_v167 main_v175 main_v176 (Host.divf : (⟨S50000x128, .f32⟩ : BufTy).Contents (Elt F) → (⟨S50000x128, .f32⟩ : BufTy).Contents (Elt F) → (⟨S50000x128, .f32⟩ : BufTy).Contents (Elt F)) ]

/-- Each of these operations writes one buffer, of index 252 … 257. -/
theorem c_fl1_d_range : (c_fl1_d : List (HloOp τ sig (Elt F))).Forall fun op => ∀ b ∈ op.writes, 252 ≤ b.idx.val ∧ b.idx.val ≤ 257 := by
  unfold c_fl1_d
  exact ⟨by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide⟩

set_option maxRecDepth 8192 in
set_option maxHeartbeats 1600000 in
/-- What these operations leave in %176's buffer, over the contents before them. -/
theorem c_fl1_d_v176 (V : Valuation τ sig (Elt Ideal)) :
    after (c_fl1_d (F := Ideal)) V (main_v176 : DevRef τ sig) = Host.divf (F := Ideal) (φ := .f32) (V (main_v167 : DevRef τ sig)) (broadcastInDim S50000x128 ![0, 1] bcast_S50000x1_S50000x128_0_1 (maximumf (F := Ideal) (φ := .f32) (broadcastInDim S50000x1 ![] bcast_S_S50000x1 (id (constant (F := Ideal) S_ .f32 0x3F800000#32))) (V (main_v173 : DevRef τ sig)))) := by
  unfold c_fl1_d
  after_results_simp
  simp only [TRef.ofBuf_toBuf]
  rfl

/-- The stage: its four pieces in order. -/
def c_fl1 : List (HloOp τ sig (Elt F)) :=
  c_fl1_a ++ (c_fl1_b ++ (c_fl1_c ++ (c_fl1_d)))

/-- Each operation of the stage writes one buffer, of index 226 … 257. -/
theorem c_fl1_range : (c_fl1 : List (HloOp τ sig (Elt F))).Forall fun op => ∀ b ∈ op.writes, 226 ≤ b.idx.val ∧ b.idx.val ≤ 257 := by
  unfold c_fl1
  exact List.forall_append.mpr ⟨idx_range_mono (by decide) (by decide) c_fl1_a_range, List.forall_append.mpr ⟨idx_range_mono (by decide) (by decide) c_fl1_b_range, List.forall_append.mpr ⟨idx_range_mono (by decide) (by decide) c_fl1_c_range, idx_range_mono (by decide) (by decide) c_fl1_d_range⟩⟩⟩

set_option maxRecDepth 8192
set_option maxHeartbeats 1600000

theorem c_fl1_suf3 (V : Valuation τ sig (Elt Ideal)) :
    after (c_fl1_d (F := Ideal)) V (main_v176 : DevRef τ sig) = (Host.divf (F := Ideal) (φ := .f32) (V (main_v167 : DevRef τ sig)) (broadcastInDim S50000x128 ![0, 1] bcast_S50000x1_S50000x128_0_1 (maximumf (F := Ideal) (φ := .f32) (broadcastInDim S50000x1 ![] bcast_S_S50000x1 (id (constant (F := Ideal) S_ .f32 0x3F800000#32))) (V (main_v173 : DevRef τ sig))))) :=
  c_fl1_d_v176 V

theorem c_fl1_suf2 (V : Valuation τ sig (Elt Ideal)) :
    after (c_fl1_c (F := Ideal) ++ (c_fl1_d (F := Ideal))) V (main_v176 : DevRef τ sig) = (Host.divf (F := Ideal) (φ := .f32) (V (main_v167 : DevRef τ sig)) (broadcastInDim S50000x128 ![0, 1] bcast_S50000x1_S50000x128_0_1 (maximumf (F := Ideal) (φ := .f32) (broadcastInDim S50000x1 ![] bcast_S_S50000x1 (id (constant (F := Ideal) S_ .f32 0x3F800000#32))) (Host.scatterAdd (F := Ideal) (φ := .f32) scatter_S50000x1_S640000x1_S640000x1_1_0_0_1 (broadcastInDim S50000x1 ![] bcast_S_S50000x1 (constant (F := Ideal) S_ .f32 0x00000000#32)) (RefVal.tgt_fl (V (main_arg5 : DevRef τ sig))) (broadcastInDim S640000x1 ![] bcast_S_S640000x1 (constant (F := Ideal) S_ .f32 0x3F800000#32)))))) := by
  rw [after_append, c_fl1_suf3]
  rw [show after (c_fl1_c (F := Ideal)) V (main_v167 : DevRef τ sig) = V (main_v167 : DevRef τ sig) from after_of_idx_range _ V c_fl1_c_range main_v167 (Or.inl (by decide)),
    c_fl1_c_v173 V]

theorem c_fl1_suf1 (V : Valuation τ sig (Elt Ideal)) :
    after (c_fl1_b (F := Ideal) ++ (c_fl1_c (F := Ideal) ++ (c_fl1_d (F := Ideal)))) V (main_v176 : DevRef τ sig) = (Host.divf (F := Ideal) (φ := .f32) (Host.scatterAdd (F := Ideal) (φ := .f32) scatter_S50000x128_S640000x1_S640000x128_1_0_0_1 (broadcastInDim S50000x128 ![] bcast_S_S50000x128 (constant (F := Ideal) S_ .f32 0x00000000#32)) (RefVal.tgt_fl (V (main_arg5 : DevRef τ sig))) (V (main_v162 : DevRef τ sig))) (broadcastInDim S50000x128 ![0, 1] bcast_S50000x1_S50000x128_0_1 (maximumf (F := Ideal) (φ := .f32) (broadcastInDim S50000x1 ![] bcast_S_S50000x1 (id (constant (F := Ideal) S_ .f32 0x3F800000#32))) (Host.scatterAdd (F := Ideal) (φ := .f32) scatter_S50000x1_S640000x1_S640000x1_1_0_0_1 (broadcastInDim S50000x1 ![] bcast_S_S50000x1 (constant (F := Ideal) S_ .f32 0x00000000#32)) (RefVal.tgt_fl (V (main_arg5 : DevRef τ sig))) (broadcastInDim S640000x1 ![] bcast_S_S640000x1 (constant (F := Ideal) S_ .f32 0x3F800000#32)))))) := by
  rw [after_append, c_fl1_suf2]
  rw [c_fl1_b_v167 V,
    show after (c_fl1_b (F := Ideal)) V (main_arg5 : DevRef τ sig) = V (main_arg5 : DevRef τ sig) from after_of_idx_range _ V c_fl1_b_range main_arg5 (Or.inl (by decide))]

theorem c_fl1_suf0 (V : Valuation τ sig (Elt Ideal)) :
    after (c_fl1_a (F := Ideal) ++ (c_fl1_b (F := Ideal) ++ (c_fl1_c (F := Ideal) ++ (c_fl1_d (F := Ideal))))) V (main_v176 : DevRef τ sig) = (Host.divf (F := Ideal) (φ := .f32) (Host.scatterAdd (F := Ideal) (φ := .f32) scatter_S50000x128_S640000x1_S640000x128_1_0_0_1 (broadcastInDim S50000x128 ![] bcast_S_S50000x128 (constant (F := Ideal) S_ .f32 0x00000000#32)) (RefVal.tgt_fl (V (main_arg5 : DevRef τ sig))) (Host.dotGeneral (F := Ideal) (φ₁ := .f32) (φ₂ := .f32) dot_S640000x128_S128x128_S640000x128_1_0_0_1_n_n none (Host.gather gather_S100000x128_S640000x1_S640000x128_1_0_n_n_0_1_1128 (V (main_v7 : DevRef τ sig)) (RefVal.src_fl (V (main_arg5 : DevRef τ sig)))) (V (main_v128 : DevRef τ sig)))) (broadcastInDim S50000x128 ![0, 1] bcast_S50000x1_S50000x128_0_1 (maximumf (F := Ideal) (φ := .f32) (broadcastInDim S50000x1 ![] bcast_S_S50000x1 (id (constant (F := Ideal) S_ .f32 0x3F800000#32))) (Host.scatterAdd (F := Ideal) (φ := .f32) scatter_S50000x1_S640000x1_S640000x1_1_0_0_1 (broadcastInDim S50000x1 ![] bcast_S_S50000x1 (constant (F := Ideal) S_ .f32 0x00000000#32)) (RefVal.tgt_fl (V (main_arg5 : DevRef τ sig))) (broadcastInDim S640000x1 ![] bcast_S_S640000x1 (constant (F := Ideal) S_ .f32 0x3F800000#32)))))) := by
  rw [after_append, c_fl1_suf1]
  rw [show after (c_fl1_a (F := Ideal)) V (main_arg5 : DevRef τ sig) = V (main_arg5 : DevRef τ sig) from after_of_idx_range _ V c_fl1_a_range main_arg5 (Or.inl (by decide)),
    c_fl1_a_v162 V]

/-- What the stage leaves in %176's buffer, over the contents before it: the relation's mean message. -/
theorem c_fl1_v176 (V : Valuation τ sig (Elt Ideal)) :
    after (c_fl1 (F := Ideal)) V (main_v176 : DevRef τ sig) = RefVal.rel_fl (V (main_v7 : DevRef τ sig)) (V (main_v128 : DevRef τ sig)) (V (main_arg5 : DevRef τ sig)) := by
  unfold c_fl1
  rw [c_fl1_suf0]
  rfl

end Cert.ReferenceIdeal.RefRun

end
-- ==== Proof.RefOpsS_fs1.lean ====
/-
  One stage of the reference's @main — layer 1, third relation — in four consecutive pieces: the gather indices, the
  gathered rows and their product with the relation matrix; the scatter indices and the messages summed into the
  target rows; the count of edges into each target row; the count clipped below at one and the quotient.  For each
  piece: the list of its operations, the range of buffer indices they write (buffers are numbered in program order;
  each operation writes one literal buffer, whose index is compared by computation), and what it leaves in the one
  buffer a later piece reads.  The stage is the four lists appended; its value is the pieces' values composed,
  every other buffer a piece reads being outside the range the pieces between write.  The value statements are at
  the ideal floats.
-/
import proofs.«168040_j41652592837487_1_alg».proof.Proof.Gen.ReferenceIdeal
import Idealize.ShloMosaic.Lib.StableHlo.Run
import proofs.«168040_j41652592837487_1_alg».proof.Proof.RefVal
import proofs.«168040_j41652592837487_1_alg».proof.Proof.RefOpsLib
import proofs.«168040_j41652592837487_1_alg».proof.Proof.LibTRef
import proofs.«168040_j41652592837487_1_alg».proof.Proof.LibAfter

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
/-- Operations 240 … 251 of @main: the gather indices, the gathered rows, their product with the relation matrix. -/
def c_fs1_a : List (HloOp τ sig (Elt F)) :=
  [
    StableHlo.unary main_arg6 main_v177 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v177 main_v178 rfl shapeCasts_S1x320000_S320000,
    StableHlo.nullary main_c_34 (constantI S_ 32 0#32),
    StableHlo.unary main_c_34 main_v179 (broadcastInDim S320000 ![] bcast_S_S320000 : (⟨S_, .i32⟩ : BufTy).Contents (Elt F) → (⟨S320000, .i32⟩ : BufTy).Contents (Elt F)),
    StableHlo.binary main_v178 main_v179 main_v180 (cmpi .slt : (⟨S320000, .i32⟩ : BufTy).Contents (Elt F) → (⟨S320000, .i32⟩ : BufTy).Contents (Elt F) → (⟨S320000, .i1⟩ : BufTy).Contents (Elt F)),
    StableHlo.nullary main_c_35 (constantI S_ 32 50000#32),
    StableHlo.unary main_c_35 main_v181 (broadcastInDim S320000 ![] bcast_S_S320000 : (⟨S_, .i32⟩ : BufTy).Contents (Elt F) → (⟨S320000, .i32⟩ : BufTy).Contents (Elt F)),
    StableHlo.binary main_v178 main_v181 main_v182 (addi : (⟨S320000, .i32⟩ : BufTy).Contents (Elt F) → (⟨S320000, .i32⟩ : BufTy).Contents (Elt F) → (⟨S320000, .i32⟩ : BufTy).Contents (Elt F)),
    StableHlo.ternary main_v180 main_v182 main_v178 main_v183 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v183 main_v184 (broadcastInDim S320000x1 ![0] bcast_S320000_S320000x1_0 : (⟨S320000, .i32⟩ : BufTy).Contents (Elt F) → (⟨S320000x1, .i32⟩ : BufTy).Contents (Elt F)),
    StableHlo.binary main_v11 main_v184 main_v185 ((fun x i => Host.gather gather_S50000x128_S320000x1_S320000x128_1_0_n_n_0_1_1128 x i) : (⟨S50000x128, .f32⟩ : BufTy).Contents (Elt F) → (⟨S320000x1, .i32⟩ : BufTy).Contents (Elt F) → (⟨S320000x128, .f32⟩ : BufTy).Contents (Elt F)),
    StableHlo.binary main_v185 main_v128 main_v186 ((fun l r => Host.dotGeneral dot_S320000x128_S128x128_S320000x128_1_0_0_1_n_n none l r) : (⟨S320000x128, .f32⟩ : BufTy).Contents (Elt F) → (⟨S128x128, .f32⟩ : BufTy).Contents (Elt F) → (⟨S320000x128, .f32⟩ : BufTy).Contents (Elt F)) ]

/-- Each of these operations writes one buffer, of index 258 … 269. -/
theorem c_fs1_a_range : (c_fs1_a : List (HloOp τ sig (Elt F))).Forall fun op => ∀ b ∈ op.writes, 258 ≤ b.idx.val ∧ b.idx.val ≤ 269 := by
  unfold c_fs1_a
  exact ⟨by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide⟩

set_option maxRecDepth 8192 in
set_option maxHeartbeats 1600000 in
/-- What these operations leave in %186's buffer, over the contents before them. -/
theorem c_fs1_a_v186 (V : Valuation τ sig (Elt Ideal)) :
    after (c_fs1_a (F := Ideal)) V (main_v186 : DevRef τ sig) = Host.dotGeneral (F := Ideal) (φ₁ := .f32) (φ₂ := .f32) dot_S320000x128_S128x128_S320000x128_1_0_0_1_n_n none (Host.gather gather_S50000x128_S320000x1_S320000x128_1_0_n_n_0_1_1128 (V (main_v11 : DevRef τ sig)) (RefVal.src_fs (V (main_arg6 : DevRef τ sig)))) (V (main_v128 : DevRef τ sig)) := by
  unfold c_fs1_a
  after_results_simp
  rfl

/-- Operations 252 … 257 of @main: the scatter indices and the messages summed into the target rows. -/
def c_fs1_b : List (HloOp τ sig (Elt F)) :=
  [
    StableHlo.unary main_arg6 main_v187 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v187 main_v188 rfl shapeCasts_S1x320000_S320000,
    StableHlo.nullary main_cst_36 (constant S_ .f32 0x00000000#32),
    StableHlo.unary main_cst_36 main_v189 (broadcastInDim S50000x128 ![] bcast_S_S50000x128 : (⟨S_, .f32⟩ : BufTy).Contents (Elt F) → (⟨S50000x128, .f32⟩ : BufTy).Contents (Elt F)),
    StableHlo.unary main_v188 main_v190 (broadcastInDim S320000x1 ![0] bcast_S320000_S320000x1_0 : (⟨S320000, .i32⟩ : BufTy).Contents (Elt F) → (⟨S320000x1, .i32⟩ : BufTy).Contents (Elt F)),
    StableHlo.ternary main_v189 main_v190 main_v186 main_v191 ((fun x i u => Host.scatterAdd scatter_S50000x128_S320000x1_S320000x128_1_0_0_1 x i u) : (⟨S50000x128, .f32⟩ : BufTy).Contents (Elt F) → (⟨S320000x1, .i32⟩ : BufTy).Contents (Elt F) → (⟨S320000x128, .f32⟩ : BufTy).Contents (Elt F) → (⟨S50000x128, .f32⟩ : BufTy).Contents (Elt F)) ]

/-- Each of these operations writes one buffer, of index 270 … 275. -/
theorem c_fs1_b_range : (c_fs1_b : List (HloOp τ sig (Elt F))).Forall fun op => ∀ b ∈ op.writes, 270 ≤ b.idx.val ∧ b.idx.val ≤ 275 := by
  unfold c_fs1_b
  exact ⟨by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide⟩

set_option maxRecDepth 8192 in
set_option maxHeartbeats 1600000 in
/-- What these operations leave in %191's buffer, over the contents before them. -/
theorem c_fs1_b_v191 (V : Valuation τ sig (Elt Ideal)) :
    after (c_fs1_b (F := Ideal)) V (main_v191 : DevRef τ sig) = Host.scatterAdd (F := Ideal) (φ := .f32) scatter_S50000x128_S320000x1_S320000x128_1_0_0_1 (broadcastInDim S50000x128 ![] bcast_S_S50000x128 (constant (F := Ideal) S_ .f32 0x00000000#32)) (RefVal.tgt_fs (V (main_arg6 : DevRef τ sig))) (V (main_v186 : DevRef τ sig)) := by
  unfold c_fs1_b
  after_results_simp
  rfl

/-- Operations 258 … 265 of @main: the count of edges into each target row. -/
def c_fs1_c : List (HloOp τ sig (Elt F)) :=
  [
    StableHlo.nullary main_cst_37 (constant S_ .f32 0x3F800000#32),
    StableHlo.unary main_cst_37 main_v192 (broadcastInDim S320000x1 ![] bcast_S_S320000x1 : (⟨S_, .f32⟩ : BufTy).Contents (Elt F) → (⟨S320000x1, .f32⟩ : BufTy).Contents (Elt F)),
    StableHlo.unary main_arg6 main_v193 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v193 main_v194 rfl shapeCasts_S1x320000_S320000,
    StableHlo.nullary main_cst_38 (constant S_ .f32 0x00000000#32),
    StableHlo.unary main_cst_38 main_v195 (broadcastInDim S50000x1 ![] bcast_S_S50000x1 : (⟨S_, .f32⟩ : BufTy).Contents (Elt F) → (⟨S50000x1, .f32⟩ : BufTy).Contents (Elt F)),
    StableHlo.unary main_v194 main_v196 (broadcastInDim S320000x1 ![0] bcast_S320000_S320000x1_0 : (⟨S320000, .i32⟩ : BufTy).Contents (Elt F) → (⟨S320000x1, .i32⟩ : BufTy).Contents (Elt F)),
    StableHlo.ternary main_v195 main_v196 main_v192 main_v197 ((fun x i u => Host.scatterAdd scatter_S50000x1_S320000x1_S320000x1_1_0_0_1 x i u) : (⟨S50000x1, .f32⟩ : BufTy).Contents (Elt F) → (⟨S320000x1, .i32⟩ : BufTy).Contents (Elt F) → (⟨S320000x1, .f32⟩ : BufTy).Contents (Elt F) → (⟨S50000x1, .f32⟩ : BufTy).Contents (Elt F)) ]

/-- Each of these operations writes one buffer, of index 276 … 283. -/
theorem c_fs1_c_range : (c_fs1_c : List (HloOp τ sig (Elt F))).Forall fun op => ∀ b ∈ op.writes, 276 ≤ b.idx.val ∧ b.idx.val ≤ 283 := by
  unfold c_fs1_c
  exact ⟨by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide⟩

set_option maxRecDepth 8192 in
set_option maxHeartbeats 1600000 in
/-- What these operations leave in %197's buffer, over the contents before them. -/
theorem c_fs1_c_v197 (V : Valuation τ sig (Elt Ideal)) :
    after (c_fs1_c (F := Ideal)) V (main_v197 : DevRef τ sig) = Host.scatterAdd (F := Ideal) (φ := .f32) scatter_S50000x1_S320000x1_S320000x1_1_0_0_1 (broadcastInDim S50000x1 ![] bcast_S_S50000x1 (constant (F := Ideal) S_ .f32 0x00000000#32)) (RefVal.tgt_fs (V (main_arg6 : DevRef τ sig))) (broadcastInDim S320000x1 ![] bcast_S_S320000x1 (constant (F := Ideal) S_ .f32 0x3F800000#32)) := by
  unfold c_fs1_c
  after_results_simp
  rfl

/-- Operations 266 … 271 of @main: the count clipped below at one, broadcast, and the quotient. -/
def c_fs1_d : List (HloOp τ sig (Elt F)) :=
  [
    StableHlo.nullary main_cst_39 (constant S_ .f32 0x3F800000#32),
    StableHlo.TRef.unary (.of main_cst_39) main_call7.v0 id,
    StableHlo.TRef.unary main_call7.v0 main_call7.v1 (broadcastInDim S50000x1 ![] bcast_S_S50000x1),
    StableHlo.TRef.binary main_call7.v1 (.of main_v197) main_call7.v2 maximumf,
    StableHlo.unary main_v198 main_v199 (broadcastInDim S50000x128 ![0, 1] bcast_S50000x1_S50000x128_0_1 : (⟨S50000x1, .f32⟩ : BufTy).Contents (Elt F) → (⟨S50000x128, .f32⟩ : BufTy).Contents (Elt F)),
    StableHlo.binary main_v191 main_v199 main_v200 (Host.divf : (⟨S50000x128, .f32⟩ : BufTy).Contents (Elt F) → (⟨S50000x128, .f32⟩ : BufTy).Contents (Elt F) → (⟨S50000x128, .f32⟩ : BufTy).Contents (Elt F)) ]

/-- Each of these operations writes one buffer, of index 284 … 289. -/
theorem c_fs1_d_range : (c_fs1_d : List (HloOp τ sig (Elt F))).Forall fun op => ∀ b ∈ op.writes, 284 ≤ b.idx.val ∧ b.idx.val ≤ 289 := by
  unfold c_fs1_d
  exact ⟨by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide⟩

set_option maxRecDepth 8192 in
set_option maxHeartbeats 1600000 in
/-- What these operations leave in %200's buffer, over the contents before them. -/
theorem c_fs1_d_v200 (V : Valuation τ sig (Elt Ideal)) :
    after (c_fs1_d (F := Ideal)) V (main_v200 : DevRef τ sig) = Host.divf (F := Ideal) (φ := .f32) (V (main_v191 : DevRef τ sig)) (broadcastInDim S50000x128 ![0, 1] bcast_S50000x1_S50000x128_0_1 (maximumf (F := Ideal) (φ := .f32) (broadcastInDim S50000x1 ![] bcast_S_S50000x1 (id (constant (F := Ideal) S_ .f32 0x3F800000#32))) (V (main_v197 : DevRef τ sig)))) := by
  unfold c_fs1_d
  after_results_simp
  simp only [TRef.ofBuf_toBuf]
  rfl

/-- The stage: its four pieces in order. -/
def c_fs1 : List (HloOp τ sig (Elt F)) :=
  c_fs1_a ++ (c_fs1_b ++ (c_fs1_c ++ (c_fs1_d)))

/-- Each operation of the stage writes one buffer, of index 258 … 289. -/
theorem c_fs1_range : (c_fs1 : List (HloOp τ sig (Elt F))).Forall fun op => ∀ b ∈ op.writes, 258 ≤ b.idx.val ∧ b.idx.val ≤ 289 := by
  unfold c_fs1
  exact List.forall_append.mpr ⟨idx_range_mono (by decide) (by decide) c_fs1_a_range, List.forall_append.mpr ⟨idx_range_mono (by decide) (by decide) c_fs1_b_range, List.forall_append.mpr ⟨idx_range_mono (by decide) (by decide) c_fs1_c_range, idx_range_mono (by decide) (by decide) c_fs1_d_range⟩⟩⟩

set_option maxRecDepth 8192
set_option maxHeartbeats 1600000

theorem c_fs1_suf3 (V : Valuation τ sig (Elt Ideal)) :
    after (c_fs1_d (F := Ideal)) V (main_v200 : DevRef τ sig) = (Host.divf (F := Ideal) (φ := .f32) (V (main_v191 : DevRef τ sig)) (broadcastInDim S50000x128 ![0, 1] bcast_S50000x1_S50000x128_0_1 (maximumf (F := Ideal) (φ := .f32) (broadcastInDim S50000x1 ![] bcast_S_S50000x1 (id (constant (F := Ideal) S_ .f32 0x3F800000#32))) (V (main_v197 : DevRef τ sig))))) :=
  c_fs1_d_v200 V

theorem c_fs1_suf2 (V : Valuation τ sig (Elt Ideal)) :
    after (c_fs1_c (F := Ideal) ++ (c_fs1_d (F := Ideal))) V (main_v200 : DevRef τ sig) = (Host.divf (F := Ideal) (φ := .f32) (V (main_v191 : DevRef τ sig)) (broadcastInDim S50000x128 ![0, 1] bcast_S50000x1_S50000x128_0_1 (maximumf (F := Ideal) (φ := .f32) (broadcastInDim S50000x1 ![] bcast_S_S50000x1 (id (constant (F := Ideal) S_ .f32 0x3F800000#32))) (Host.scatterAdd (F := Ideal) (φ := .f32) scatter_S50000x1_S320000x1_S320000x1_1_0_0_1 (broadcastInDim S50000x1 ![] bcast_S_S50000x1 (constant (F := Ideal) S_ .f32 0x00000000#32)) (RefVal.tgt_fs (V (main_arg6 : DevRef τ sig))) (broadcastInDim S320000x1 ![] bcast_S_S320000x1 (constant (F := Ideal) S_ .f32 0x3F800000#32)))))) := by
  rw [after_append, c_fs1_suf3]
  rw [show after (c_fs1_c (F := Ideal)) V (main_v191 : DevRef τ sig) = V (main_v191 : DevRef τ sig) from after_of_idx_range _ V c_fs1_c_range main_v191 (Or.inl (by decide)),
    c_fs1_c_v197 V]

theorem c_fs1_suf1 (V : Valuation τ sig (Elt Ideal)) :
    after (c_fs1_b (F := Ideal) ++ (c_fs1_c (F := Ideal) ++ (c_fs1_d (F := Ideal)))) V (main_v200 : DevRef τ sig) = (Host.divf (F := Ideal) (φ := .f32) (Host.scatterAdd (F := Ideal) (φ := .f32) scatter_S50000x128_S320000x1_S320000x128_1_0_0_1 (broadcastInDim S50000x128 ![] bcast_S_S50000x128 (constant (F := Ideal) S_ .f32 0x00000000#32)) (RefVal.tgt_fs (V (main_arg6 : DevRef τ sig))) (V (main_v186 : DevRef τ sig))) (broadcastInDim S50000x128 ![0, 1] bcast_S50000x1_S50000x128_0_1 (maximumf (F := Ideal) (φ := .f32) (broadcastInDim S50000x1 ![] bcast_S_S50000x1 (id (constant (F := Ideal) S_ .f32 0x3F800000#32))) (Host.scatterAdd (F := Ideal) (φ := .f32) scatter_S50000x1_S320000x1_S320000x1_1_0_0_1 (broadcastInDim S50000x1 ![] bcast_S_S50000x1 (constant (F := Ideal) S_ .f32 0x00000000#32)) (RefVal.tgt_fs (V (main_arg6 : DevRef τ sig))) (broadcastInDim S320000x1 ![] bcast_S_S320000x1 (constant (F := Ideal) S_ .f32 0x3F800000#32)))))) := by
  rw [after_append, c_fs1_suf2]
  rw [c_fs1_b_v191 V,
    show after (c_fs1_b (F := Ideal)) V (main_arg6 : DevRef τ sig) = V (main_arg6 : DevRef τ sig) from after_of_idx_range _ V c_fs1_b_range main_arg6 (Or.inl (by decide))]

theorem c_fs1_suf0 (V : Valuation τ sig (Elt Ideal)) :
    after (c_fs1_a (F := Ideal) ++ (c_fs1_b (F := Ideal) ++ (c_fs1_c (F := Ideal) ++ (c_fs1_d (F := Ideal))))) V (main_v200 : DevRef τ sig) = (Host.divf (F := Ideal) (φ := .f32) (Host.scatterAdd (F := Ideal) (φ := .f32) scatter_S50000x128_S320000x1_S320000x128_1_0_0_1 (broadcastInDim S50000x128 ![] bcast_S_S50000x128 (constant (F := Ideal) S_ .f32 0x00000000#32)) (RefVal.tgt_fs (V (main_arg6 : DevRef τ sig))) (Host.dotGeneral (F := Ideal) (φ₁ := .f32) (φ₂ := .f32) dot_S320000x128_S128x128_S320000x128_1_0_0_1_n_n none (Host.gather gather_S50000x128_S320000x1_S320000x128_1_0_n_n_0_1_1128 (V (main_v11 : DevRef τ sig)) (RefVal.src_fs (V (main_arg6 : DevRef τ sig)))) (V (main_v128 : DevRef τ sig)))) (broadcastInDim S50000x128 ![0, 1] bcast_S50000x1_S50000x128_0_1 (maximumf (F := Ideal) (φ := .f32) (broadcastInDim S50000x1 ![] bcast_S_S50000x1 (id (constant (F := Ideal) S_ .f32 0x3F800000#32))) (Host.scatterAdd (F := Ideal) (φ := .f32) scatter_S50000x1_S320000x1_S320000x1_1_0_0_1 (broadcastInDim S50000x1 ![] bcast_S_S50000x1 (constant (F := Ideal) S_ .f32 0x00000000#32)) (RefVal.tgt_fs (V (main_arg6 : DevRef τ sig))) (broadcastInDim S320000x1 ![] bcast_S_S320000x1 (constant (F := Ideal) S_ .f32 0x3F800000#32)))))) := by
  rw [after_append, c_fs1_suf1]
  rw [show after (c_fs1_a (F := Ideal)) V (main_arg6 : DevRef τ sig) = V (main_arg6 : DevRef τ sig) from after_of_idx_range _ V c_fs1_a_range main_arg6 (Or.inl (by decide)),
    c_fs1_a_v186 V]

/-- What the stage leaves in %200's buffer, over the contents before it: the relation's mean message. -/
theorem c_fs1_v200 (V : Valuation τ sig (Elt Ideal)) :
    after (c_fs1 (F := Ideal)) V (main_v200 : DevRef τ sig) = RefVal.rel_fs (V (main_v11 : DevRef τ sig)) (V (main_v128 : DevRef τ sig)) (V (main_arg6 : DevRef τ sig)) := by
  unfold c_fs1
  rw [c_fs1_suf0]
  rfl

end Cert.ReferenceIdeal.RefRun

end
-- ==== Proof.RefOpsS_inc1.lean ====
/-
  One stage of the reference's @main — layer 1, fourth relation — in four consecutive pieces: the gather indices, the
  gathered rows and their product with the relation matrix; the scatter indices and the messages summed into the
  target rows; the count of edges into each target row; the count clipped below at one and the quotient.  For each
  piece: the list of its operations, the range of buffer indices they write (buffers are numbered in program order;
  each operation writes one literal buffer, whose index is compared by computation), and what it leaves in the one
  buffer a later piece reads.  The stage is the four lists appended; its value is the pieces' values composed,
  every other buffer a piece reads being outside the range the pieces between write.  The value statements are at
  the ideal floats.
-/
import proofs.«168040_j41652592837487_1_alg».proof.Proof.Gen.ReferenceIdeal
import Idealize.ShloMosaic.Lib.StableHlo.Run
import proofs.«168040_j41652592837487_1_alg».proof.Proof.RefVal
import proofs.«168040_j41652592837487_1_alg».proof.Proof.RefOpsLib
import proofs.«168040_j41652592837487_1_alg».proof.Proof.LibTRef
import proofs.«168040_j41652592837487_1_alg».proof.Proof.LibAfter

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
/-- Operations 272 … 283 of @main: the gather indices, the gathered rows, their product with the relation matrix. -/
def c_inc1_a : List (HloOp τ sig (Elt F)) :=
  [
    StableHlo.unary main_arg7 main_v201 ((extractStridedSlice S1x160000 ![0, 0] · slices_S2x160000_S1x160000_0_0) : (⟨S2x160000, .i32⟩ : BufTy).Contents (Elt F) → (⟨S1x160000, .i32⟩ : BufTy).Contents (Elt F)),
    StableHlo.reshape main_v201 main_v202 rfl shapeCasts_S1x160000_S160000,
    StableHlo.nullary main_c_40 (constantI S_ 32 0#32),
    StableHlo.unary main_c_40 main_v203 (broadcastInDim S160000 ![] bcast_S_S160000 : (⟨S_, .i32⟩ : BufTy).Contents (Elt F) → (⟨S160000, .i32⟩ : BufTy).Contents (Elt F)),
    StableHlo.binary main_v202 main_v203 main_v204 (cmpi .slt : (⟨S160000, .i32⟩ : BufTy).Contents (Elt F) → (⟨S160000, .i32⟩ : BufTy).Contents (Elt F) → (⟨S160000, .i1⟩ : BufTy).Contents (Elt F)),
    StableHlo.nullary main_c_41 (constantI S_ 32 20000#32),
    StableHlo.unary main_c_41 main_v205 (broadcastInDim S160000 ![] bcast_S_S160000 : (⟨S_, .i32⟩ : BufTy).Contents (Elt F) → (⟨S160000, .i32⟩ : BufTy).Contents (Elt F)),
    StableHlo.binary main_v202 main_v205 main_v206 (addi : (⟨S160000, .i32⟩ : BufTy).Contents (Elt F) → (⟨S160000, .i32⟩ : BufTy).Contents (Elt F) → (⟨S160000, .i32⟩ : BufTy).Contents (Elt F)),
    StableHlo.ternary main_v204 main_v206 main_v202 main_v207 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    StableHlo.unary main_v207 main_v208 (broadcastInDim S160000x1 ![0] bcast_S160000_S160000x1_0 : (⟨S160000, .i32⟩ : BufTy).Contents (Elt F) → (⟨S160000x1, .i32⟩ : BufTy).Contents (Elt F)),
    StableHlo.binary main_v15 main_v208 main_v209 ((fun x i => Host.gather gather_S20000x128_S160000x1_S160000x128_1_0_n_n_0_1_1128 x i) : (⟨S20000x128, .f32⟩ : BufTy).Contents (Elt F) → (⟨S160000x1, .i32⟩ : BufTy).Contents (Elt F) → (⟨S160000x128, .f32⟩ : BufTy).Contents (Elt F)),
    StableHlo.binary main_v209 main_v128 main_v210 ((fun l r => Host.dotGeneral dot_S160000x128_S128x128_S160000x128_1_0_0_1_n_n none l r) : (⟨S160000x128, .f32⟩ : BufTy).Contents (Elt F) → (⟨S128x128, .f32⟩ : BufTy).Contents (Elt F) → (⟨S160000x128, .f32⟩ : BufTy).Contents (Elt F)) ]

/-- Each of these operations writes one buffer, of index 290 … 301. -/
theorem c_inc1_a_range : (c_inc1_a : List (HloOp τ sig (Elt F))).Forall fun op => ∀ b ∈ op.writes, 290 ≤ b.idx.val ∧ b.idx.val ≤ 301 := by
  unfold c_inc1_a
  exact ⟨by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide⟩

set_option maxRecDepth 8192 in
set_option maxHeartbeats 1600000 in
/-- What these operations leave in %210's buffer, over the contents before them. -/
theorem c_inc1_a_v210 (V : Valuation τ sig (Elt Ideal)) :
    after (c_inc1_a (F := Ideal)) V (main_v210 : DevRef τ sig) = Host.dotGeneral (F := Ideal) (φ₁ := .f32) (φ₂ := .f32) dot_S160000x128_S128x128_S160000x128_1_0_0_1_n_n none (Host.gather gather_S20000x128_S160000x1_S160000x128_1_0_n_n_0_1_1128 (V (main_v15 : DevRef τ sig)) (RefVal.src_inc (V (main_arg7 : DevRef τ sig)))) (V (main_v128 : DevRef τ sig)) := by
  unfold c_inc1_a
  after_results_simp
  rfl

/-- Operations 284 … 289 of @main: the scatter indices and the messages summed into the target rows. -/
def c_inc1_b : List (HloOp τ sig (Elt F)) :=
  [
    StableHlo.unary main_arg7 main_v211 ((extractStridedSlice S1x160000 ![1, 0] · slices_S2x160000_S1x160000_1_0) : (⟨S2x160000, .i32⟩ : BufTy).Contents (Elt F) → (⟨S1x160000, .i32⟩ : BufTy).Contents (Elt F)),
    StableHlo.reshape main_v211 main_v212 rfl shapeCasts_S1x160000_S160000,
    StableHlo.nullary main_cst_42 (constant S_ .f32 0x00000000#32),
    StableHlo.unary main_cst_42 main_v213 (broadcastInDim S50000x128 ![] bcast_S_S50000x128 : (⟨S_, .f32⟩ : BufTy).Contents (Elt F) → (⟨S50000x128, .f32⟩ : BufTy).Contents (Elt F)),
    StableHlo.unary main_v212 main_v214 (broadcastInDim S160000x1 ![0] bcast_S160000_S160000x1_0 : (⟨S160000, .i32⟩ : BufTy).Contents (Elt F) → (⟨S160000x1, .i32⟩ : BufTy).Contents (Elt F)),
    StableHlo.ternary main_v213 main_v214 main_v210 main_v215 ((fun x i u => Host.scatterAdd scatter_S50000x128_S160000x1_S160000x128_1_0_0_1 x i u) : (⟨S50000x128, .f32⟩ : BufTy).Contents (Elt F) → (⟨S160000x1, .i32⟩ : BufTy).Contents (Elt F) → (⟨S160000x128, .f32⟩ : BufTy).Contents (Elt F) → (⟨S50000x128, .f32⟩ : BufTy).Contents (Elt F)) ]

/-- Each of these operations writes one buffer, of index 302 … 307. -/
theorem c_inc1_b_range : (c_inc1_b : List (HloOp τ sig (Elt F))).Forall fun op => ∀ b ∈ op.writes, 302 ≤ b.idx.val ∧ b.idx.val ≤ 307 := by
  unfold c_inc1_b
  exact ⟨by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide⟩

set_option maxRecDepth 8192 in
set_option maxHeartbeats 1600000 in
/-- What these operations leave in %215's buffer, over the contents before them. -/
theorem c_inc1_b_v215 (V : Valuation τ sig (Elt Ideal)) :
    after (c_inc1_b (F := Ideal)) V (main_v215 : DevRef τ sig) = Host.scatterAdd (F := Ideal) (φ := .f32) scatter_S50000x128_S160000x1_S160000x128_1_0_0_1 (broadcastInDim S50000x128 ![] bcast_S_S50000x128 (constant (F := Ideal) S_ .f32 0x00000000#32)) (RefVal.tgt_inc (V (main_arg7 : DevRef τ sig))) (V (main_v210 : DevRef τ sig)) := by
  unfold c_inc1_b
  after_results_simp
  rfl

/-- Operations 290 … 297 of @main: the count of edges into each target row. -/
def c_inc1_c : List (HloOp τ sig (Elt F)) :=
  [
    StableHlo.nullary main_cst_43 (constant S_ .f32 0x3F800000#32),
    StableHlo.unary main_cst_43 main_v216 (broadcastInDim S160000x1 ![] bcast_S_S160000x1 : (⟨S_, .f32⟩ : BufTy).Contents (Elt F) → (⟨S160000x1, .f32⟩ : BufTy).Contents (Elt F)),
    StableHlo.unary main_arg7 main_v217 ((extractStridedSlice S1x160000 ![1, 0] · slices_S2x160000_S1x160000_1_0) : (⟨S2x160000, .i32⟩ : BufTy).Contents (Elt F) → (⟨S1x160000, .i32⟩ : BufTy).Contents (Elt F)),
    StableHlo.reshape main_v217 main_v218 rfl shapeCasts_S1x160000_S160000,
    StableHlo.nullary main_cst_44 (constant S_ .f32 0x00000000#32),
    StableHlo.unary main_cst_44 main_v219 (broadcastInDim S50000x1 ![] bcast_S_S50000x1 : (⟨S_, .f32⟩ : BufTy).Contents (Elt F) → (⟨S50000x1, .f32⟩ : BufTy).Contents (Elt F)),
    StableHlo.unary main_v218 main_v220 (broadcastInDim S160000x1 ![0] bcast_S160000_S160000x1_0 : (⟨S160000, .i32⟩ : BufTy).Contents (Elt F) → (⟨S160000x1, .i32⟩ : BufTy).Contents (Elt F)),
    StableHlo.ternary main_v219 main_v220 main_v216 main_v221 ((fun x i u => Host.scatterAdd scatter_S50000x1_S160000x1_S160000x1_1_0_0_1 x i u) : (⟨S50000x1, .f32⟩ : BufTy).Contents (Elt F) → (⟨S160000x1, .i32⟩ : BufTy).Contents (Elt F) → (⟨S160000x1, .f32⟩ : BufTy).Contents (Elt F) → (⟨S50000x1, .f32⟩ : BufTy).Contents (Elt F)) ]

/-- Each of these operations writes one buffer, of index 308 … 315. -/
theorem c_inc1_c_range : (c_inc1_c : List (HloOp τ sig (Elt F))).Forall fun op => ∀ b ∈ op.writes, 308 ≤ b.idx.val ∧ b.idx.val ≤ 315 := by
  unfold c_inc1_c
  exact ⟨by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide⟩

set_option maxRecDepth 8192 in
set_option maxHeartbeats 1600000 in
/-- What these operations leave in %221's buffer, over the contents before them. -/
theorem c_inc1_c_v221 (V : Valuation τ sig (Elt Ideal)) :
    after (c_inc1_c (F := Ideal)) V (main_v221 : DevRef τ sig) = Host.scatterAdd (F := Ideal) (φ := .f32) scatter_S50000x1_S160000x1_S160000x1_1_0_0_1 (broadcastInDim S50000x1 ![] bcast_S_S50000x1 (constant (F := Ideal) S_ .f32 0x00000000#32)) (RefVal.tgt_inc (V (main_arg7 : DevRef τ sig))) (broadcastInDim S160000x1 ![] bcast_S_S160000x1 (constant (F := Ideal) S_ .f32 0x3F800000#32)) := by
  unfold c_inc1_c
  after_results_simp
  rfl

/-- Operations 298 … 303 of @main: the count clipped below at one, broadcast, and the quotient. -/
def c_inc1_d : List (HloOp τ sig (Elt F)) :=
  [
    StableHlo.nullary main_cst_45 (constant S_ .f32 0x3F800000#32),
    StableHlo.TRef.unary (.of main_cst_45) main_call8.v0 id,
    StableHlo.TRef.unary main_call8.v0 main_call8.v1 (broadcastInDim S50000x1 ![] bcast_S_S50000x1),
    StableHlo.TRef.binary main_call8.v1 (.of main_v221) main_call8.v2 maximumf,
    StableHlo.unary main_v222 main_v223 (broadcastInDim S50000x128 ![0, 1] bcast_S50000x1_S50000x128_0_1 : (⟨S50000x1, .f32⟩ : BufTy).Contents (Elt F) → (⟨S50000x128, .f32⟩ : BufTy).Contents (Elt F)),
    StableHlo.binary main_v215 main_v223 main_v224 (Host.divf : (⟨S50000x128, .f32⟩ : BufTy).Contents (Elt F) → (⟨S50000x128, .f32⟩ : BufTy).Contents (Elt F) → (⟨S50000x128, .f32⟩ : BufTy).Contents (Elt F)) ]

/-- Each of these operations writes one buffer, of index 316 … 321. -/
theorem c_inc1_d_range : (c_inc1_d : List (HloOp τ sig (Elt F))).Forall fun op => ∀ b ∈ op.writes, 316 ≤ b.idx.val ∧ b.idx.val ≤ 321 := by
  unfold c_inc1_d
  exact ⟨by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide⟩

set_option maxRecDepth 8192 in
set_option maxHeartbeats 1600000 in
/-- What these operations leave in %224's buffer, over the contents before them. -/
theorem c_inc1_d_v224 (V : Valuation τ sig (Elt Ideal)) :
    after (c_inc1_d (F := Ideal)) V (main_v224 : DevRef τ sig) = Host.divf (F := Ideal) (φ := .f32) (V (main_v215 : DevRef τ sig)) (broadcastInDim S50000x128 ![0, 1] bcast_S50000x1_S50000x128_0_1 (maximumf (F := Ideal) (φ := .f32) (broadcastInDim S50000x1 ![] bcast_S_S50000x1 (id (constant (F := Ideal) S_ .f32 0x3F800000#32))) (V (main_v221 : DevRef τ sig)))) := by
  unfold c_inc1_d
  after_results_simp
  simp only [TRef.ofBuf_toBuf]
  rfl

/-- The stage: its four pieces in order. -/
def c_inc1 : List (HloOp τ sig (Elt F)) :=
  c_inc1_a ++ (c_inc1_b ++ (c_inc1_c ++ (c_inc1_d)))

/-- Each operation of the stage writes one buffer, of index 290 … 321. -/
theorem c_inc1_range : (c_inc1 : List (HloOp τ sig (Elt F))).Forall fun op => ∀ b ∈ op.writes, 290 ≤ b.idx.val ∧ b.idx.val ≤ 321 := by
  unfold c_inc1
  exact List.forall_append.mpr ⟨idx_range_mono (by decide) (by decide) c_inc1_a_range, List.forall_append.mpr ⟨idx_range_mono (by decide) (by decide) c_inc1_b_range, List.forall_append.mpr ⟨idx_range_mono (by decide) (by decide) c_inc1_c_range, idx_range_mono (by decide) (by decide) c_inc1_d_range⟩⟩⟩

set_option maxRecDepth 8192
set_option maxHeartbeats 1600000

theorem c_inc1_suf3 (V : Valuation τ sig (Elt Ideal)) :
    after (c_inc1_d (F := Ideal)) V (main_v224 : DevRef τ sig) = (Host.divf (F := Ideal) (φ := .f32) (V (main_v215 : DevRef τ sig)) (broadcastInDim S50000x128 ![0, 1] bcast_S50000x1_S50000x128_0_1 (maximumf (F := Ideal) (φ := .f32) (broadcastInDim S50000x1 ![] bcast_S_S50000x1 (id (constant (F := Ideal) S_ .f32 0x3F800000#32))) (V (main_v221 : DevRef τ sig))))) :=
  c_inc1_d_v224 V

theorem c_inc1_suf2 (V : Valuation τ sig (Elt Ideal)) :
    after (c_inc1_c (F := Ideal) ++ (c_inc1_d (F := Ideal))) V (main_v224 : DevRef τ sig) = (Host.divf (F := Ideal) (φ := .f32) (V (main_v215 : DevRef τ sig)) (broadcastInDim S50000x128 ![0, 1] bcast_S50000x1_S50000x128_0_1 (maximumf (F := Ideal) (φ := .f32) (broadcastInDim S50000x1 ![] bcast_S_S50000x1 (id (constant (F := Ideal) S_ .f32 0x3F800000#32))) (Host.scatterAdd (F := Ideal) (φ := .f32) scatter_S50000x1_S160000x1_S160000x1_1_0_0_1 (broadcastInDim S50000x1 ![] bcast_S_S50000x1 (constant (F := Ideal) S_ .f32 0x00000000#32)) (RefVal.tgt_inc (V (main_arg7 : DevRef τ sig))) (broadcastInDim S160000x1 ![] bcast_S_S160000x1 (constant (F := Ideal) S_ .f32 0x3F800000#32)))))) := by
  rw [after_append, c_inc1_suf3]
  rw [show after (c_inc1_c (F := Ideal)) V (main_v215 : DevRef τ sig) = V (main_v215 : DevRef τ sig) from after_of_idx_range _ V c_inc1_c_range main_v215 (Or.inl (by decide)),
    c_inc1_c_v221 V]

theorem c_inc1_suf1 (V : Valuation τ sig (Elt Ideal)) :
    after (c_inc1_b (F := Ideal) ++ (c_inc1_c (F := Ideal) ++ (c_inc1_d (F := Ideal)))) V (main_v224 : DevRef τ sig) = (Host.divf (F := Ideal) (φ := .f32) (Host.scatterAdd (F := Ideal) (φ := .f32) scatter_S50000x128_S160000x1_S160000x128_1_0_0_1 (broadcastInDim S50000x128 ![] bcast_S_S50000x128 (constant (F := Ideal) S_ .f32 0x00000000#32)) (RefVal.tgt_inc (V (main_arg7 : DevRef τ sig))) (V (main_v210 : DevRef τ sig))) (broadcastInDim S50000x128 ![0, 1] bcast_S50000x1_S50000x128_0_1 (maximumf (F := Ideal) (φ := .f32) (broadcastInDim S50000x1 ![] bcast_S_S50000x1 (id (constant (F := Ideal) S_ .f32 0x3F800000#32))) (Host.scatterAdd (F := Ideal) (φ := .f32) scatter_S50000x1_S160000x1_S160000x1_1_0_0_1 (broadcastInDim S50000x1 ![] bcast_S_S50000x1 (constant (F := Ideal) S_ .f32 0x00000000#32)) (RefVal.tgt_inc (V (main_arg7 : DevRef τ sig))) (broadcastInDim S160000x1 ![] bcast_S_S160000x1 (constant (F := Ideal) S_ .f32 0x3F800000#32)))))) := by
  rw [after_append, c_inc1_suf2]
  rw [c_inc1_b_v215 V,
    show after (c_inc1_b (F := Ideal)) V (main_arg7 : DevRef τ sig) = V (main_arg7 : DevRef τ sig) from after_of_idx_range _ V c_inc1_b_range main_arg7 (Or.inl (by decide))]

theorem c_inc1_suf0 (V : Valuation τ sig (Elt Ideal)) :
    after (c_inc1_a (F := Ideal) ++ (c_inc1_b (F := Ideal) ++ (c_inc1_c (F := Ideal) ++ (c_inc1_d (F := Ideal))))) V (main_v224 : DevRef τ sig) = (Host.divf (F := Ideal) (φ := .f32) (Host.scatterAdd (F := Ideal) (φ := .f32) scatter_S50000x128_S160000x1_S160000x128_1_0_0_1 (broadcastInDim S50000x128 ![] bcast_S_S50000x128 (constant (F := Ideal) S_ .f32 0x00000000#32)) (RefVal.tgt_inc (V (main_arg7 : DevRef τ sig))) (Host.dotGeneral (F := Ideal) (φ₁ := .f32) (φ₂ := .f32) dot_S160000x128_S128x128_S160000x128_1_0_0_1_n_n none (Host.gather gather_S20000x128_S160000x1_S160000x128_1_0_n_n_0_1_1128 (V (main_v15 : DevRef τ sig)) (RefVal.src_inc (V (main_arg7 : DevRef τ sig)))) (V (main_v128 : DevRef τ sig)))) (broadcastInDim S50000x128 ![0, 1] bcast_S50000x1_S50000x128_0_1 (maximumf (F := Ideal) (φ := .f32) (broadcastInDim S50000x1 ![] bcast_S_S50000x1 (id (constant (F := Ideal) S_ .f32 0x3F800000#32))) (Host.scatterAdd (F := Ideal) (φ := .f32) scatter_S50000x1_S160000x1_S160000x1_1_0_0_1 (broadcastInDim S50000x1 ![] bcast_S_S50000x1 (constant (F := Ideal) S_ .f32 0x00000000#32)) (RefVal.tgt_inc (V (main_arg7 : DevRef τ sig))) (broadcastInDim S160000x1 ![] bcast_S_S160000x1 (constant (F := Ideal) S_ .f32 0x3F800000#32)))))) := by
  rw [after_append, c_inc1_suf1]
  rw [show after (c_inc1_a (F := Ideal)) V (main_arg7 : DevRef τ sig) = V (main_arg7 : DevRef τ sig) from after_of_idx_range _ V c_inc1_a_range main_arg7 (Or.inl (by decide)),
    c_inc1_a_v210 V]

/-- What the stage leaves in %224's buffer, over the contents before it: the relation's mean message. -/
theorem c_inc1_v224 (V : Valuation τ sig (Elt Ideal)) :
    after (c_inc1 (F := Ideal)) V (main_v224 : DevRef τ sig) = RefVal.rel_inc (V (main_v15 : DevRef τ sig)) (V (main_v128 : DevRef τ sig)) (V (main_arg7 : DevRef τ sig)) := by
  unfold c_inc1
  rw [c_inc1_suf0]
  rfl

end Cert.ReferenceIdeal.RefRun

end
-- ==== Proof.RefOpsS_comb1.lean ====
/-
  One stage of the reference's @main — layer 1's self term, the five-term sum and the unit —: the list of its operations; the range of buffer
  indices they write (buffers are numbered in program order, so a stage writes a contiguous range; each operation
  writes one literal buffer, whose index is compared by computation); and what the stage leaves in each buffer a
  later stage reads, as the value-level stage function of the contents before it.  The value statements are at the
  ideal floats.
-/
import proofs.«168040_j41652592837487_1_alg».proof.Proof.Gen.ReferenceIdeal
import Idealize.ShloMosaic.Lib.StableHlo.Run
import proofs.«168040_j41652592837487_1_alg».proof.Proof.RefVal
import proofs.«168040_j41652592837487_1_alg».proof.Proof.RefOpsLib
import proofs.«168040_j41652592837487_1_alg».proof.Proof.LibTRef

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
/-- Operations 304 … 330 of @main: layer 1's self term, the five-term sum and the unit. -/
def c_comb1 : List (HloOp τ sig (Elt F)) :=
  [
    StableHlo.unary main_arg16 main_v225 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v225 main_v226 rfl shapeCasts_S1x128x128_S128x128,
    StableHlo.binary main_v126 main_v226 main_v227 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg17 main_v228 ((extractStridedSlice S1x128 ![1, 0] · slices_S3x128_S1x128_1_0) : (⟨S3x128, .f32⟩ : BufTy).Contents (Elt F) → (⟨S1x128, .f32⟩ : BufTy).Contents (Elt F)),
    StableHlo.reshape main_v228 main_v229 rfl shapeCasts_S1x128_S128,
    StableHlo.unary main_v229 main_v230 (broadcastInDim S1x128 ![1] bcast_S128_S1x128_1 : (⟨S128, .f32⟩ : BufTy).Contents (Elt F) → (⟨S1x128, .f32⟩ : BufTy).Contents (Elt F)),
    StableHlo.unary main_v230 main_v231 (broadcastInDim S50000x128 ![0, 1] bcast_S1x128_S50000x128_0_1 : (⟨S1x128, .f32⟩ : BufTy).Contents (Elt F) → (⟨S50000x128, .f32⟩ : BufTy).Contents (Elt F)),
    StableHlo.binary main_v227 main_v231 main_v232 (addf : (⟨S50000x128, .f32⟩ : BufTy).Contents (Elt F) → (⟨S50000x128, .f32⟩ : BufTy).Contents (Elt F) → (⟨S50000x128, .f32⟩ : BufTy).Contents (Elt F)),
    StableHlo.binary main_v232 main_v152 main_v233 (addf : (⟨S50000x128, .f32⟩ : BufTy).Contents (Elt F) → (⟨S50000x128, .f32⟩ : BufTy).Contents (Elt F) → (⟨S50000x128, .f32⟩ : BufTy).Contents (Elt F)),
    StableHlo.binary main_v233 main_v176 main_v234 (addf : (⟨S50000x128, .f32⟩ : BufTy).Contents (Elt F) → (⟨S50000x128, .f32⟩ : BufTy).Contents (Elt F) → (⟨S50000x128, .f32⟩ : BufTy).Contents (Elt F)),
    StableHlo.binary main_v234 main_v200 main_v235 (addf : (⟨S50000x128, .f32⟩ : BufTy).Contents (Elt F) → (⟨S50000x128, .f32⟩ : BufTy).Contents (Elt F) → (⟨S50000x128, .f32⟩ : BufTy).Contents (Elt F)),
    StableHlo.binary main_v235 main_v224 main_v236 (addf : (⟨S50000x128, .f32⟩ : BufTy).Contents (Elt F) → (⟨S50000x128, .f32⟩ : BufTy).Contents (Elt F) → (⟨S50000x128, .f32⟩ : BufTy).Contents (Elt F)),
    StableHlo.TRef.nullary main_call9.cst (constant S_ .f32 0x00000000#32),
    StableHlo.TRef.unary main_call9.cst main_call9.v0 (broadcastInDim S50000x128 ![] bcast_S_S50000x128),
    StableHlo.TRef.binary (.of main_v236) main_call9.v0 main_call9.v1 (cmpf .ogt),
    StableHlo.TRef.nullary main_call9.cst_0 (constant S_ .f32 0x00000000#32),
    StableHlo.TRef.unary main_call9.cst_0 main_call9.v2 (broadcastInDim S50000x128 ![] bcast_S_S50000x128),
    StableHlo.TRef.binary (.of main_v236) main_call9.v2 main_call9.v3 (cmpf .ogt),
    StableHlo.TRef.nullary main_call9.cst_1 (constant S_ .f32 0x00000000#32),
    StableHlo.TRef.unary main_call9.cst_1 main_call9.call0.v0 id,
    StableHlo.TRef.unary main_call9.call0.v0 main_call9.call0.v1 (broadcastInDim S50000x128 ![] bcast_S_S50000x128),
    StableHlo.TRef.ternary main_call9.v3 main_call9.call0.v1 (.of main_v236) main_call9.call0.v2 select,
    StableHlo.TRef.unary main_call9.call0.v2 main_call9.v5 Host.expm1,
    StableHlo.TRef.nullary main_call9.cst_2 (constant S_ .f32 0x3F800000#32),
    StableHlo.TRef.unary main_call9.cst_2 main_call9.v6 (broadcastInDim S50000x128 ![] bcast_S_S50000x128),
    StableHlo.TRef.binary main_call9.v6 main_call9.v5 main_call9.v7 mulf,
    StableHlo.TRef.ternary main_call9.v1 (.of main_v236) main_call9.v7 main_call9.call1.v0 select ]

/-- Each of these operations writes one buffer, of index 322 … 348. -/
theorem c_comb1_range : (c_comb1 : List (HloOp τ sig (Elt F))).Forall fun op => ∀ b ∈ op.writes, 322 ≤ b.idx.val ∧ b.idx.val ≤ 348 := by
  unfold c_comb1
  exact ⟨by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide⟩

set_option maxRecDepth 8192 in
set_option maxHeartbeats 1600000 in
/-- What these operations leave in %237's buffer, over the contents before them: each operation's result
    at its own buffer is its function of its operands' contents, any other buffer is unchanged; the composed term is
    the stage function by unfolding its definition. -/
theorem c_comb1_v237 (V : Valuation τ sig (Elt Ideal)) :
    after (c_comb1 (F := Ideal)) V (main_v237 : DevRef τ sig) = RefVal.eluR (addf (F := Ideal) (addf (F := Ideal) (addf (F := Ideal) (addf (F := Ideal) (addf (F := Ideal) (Host.dotGeneral (F := Ideal) (φ₁ := .f32) (φ₂ := .f32) dot_S50000x128_S128x128_S50000x128_1_0_0_1_n_n none (V (main_v126 : DevRef τ sig)) (RefVal.sliceW1 (V (main_arg16 : DevRef τ sig)))) (broadcastInDim S50000x128 ![0, 1] bcast_S1x128_S50000x128_0_1 (broadcastInDim S1x128 ![1] bcast_S128_S1x128_1 (RefVal.sliceB1 (V (main_arg17 : DevRef τ sig)))))) (V (main_v152 : DevRef τ sig))) (V (main_v176 : DevRef τ sig))) (V (main_v200 : DevRef τ sig))) (V (main_v224 : DevRef τ sig))) := by
  unfold c_comb1
  after_results_simp
  simp only [TRef.ofBuf_toBuf]
  rfl

end Cert.ReferenceIdeal.RefRun

end
-- ==== Proof.RefOpsC1.lean ====
/-
  The stages of layer 1 of the reference's @main, gathered: each stage's list of operations, the range of
  buffer indices it writes, and its value lemma are in its own module.
-/
import proofs.«168040_j41652592837487_1_alg».proof.Proof.RefOpsS_wr1
import proofs.«168040_j41652592837487_1_alg».proof.Proof.RefOpsS_sp1
import proofs.«168040_j41652592837487_1_alg».proof.Proof.RefOpsS_fl1
import proofs.«168040_j41652592837487_1_alg».proof.Proof.RefOpsS_fs1
import proofs.«168040_j41652592837487_1_alg».proof.Proof.RefOpsS_inc1
import proofs.«168040_j41652592837487_1_alg».proof.Proof.RefOpsS_comb1
-- ==== Proof.RefOpsS_wr2.lean ====
/-
  One stage of the reference's @main — layer 2's relation matrix (a slice of the stack, reshaped) —: the list of its operations; the range of buffer
  indices they write (buffers are numbered in program order, so a stage writes a contiguous range; each operation
  writes one literal buffer, whose index is compared by computation); and what the stage leaves in each buffer a
  later stage reads, as the value-level stage function of the contents before it.  The value statements are at the
  ideal floats.
-/
import proofs.«168040_j41652592837487_1_alg».proof.Proof.Gen.ReferenceIdeal
import Idealize.ShloMosaic.Lib.StableHlo.Run
import proofs.«168040_j41652592837487_1_alg».proof.Proof.RefVal
import proofs.«168040_j41652592837487_1_alg».proof.Proof.RefOpsLib

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
/-- Operations 331 … 332 of @main: layer 2's relation matrix (a slice of the stack, reshaped). -/
def c_wr2 : List (HloOp τ sig (Elt F)) :=
  [
    StableHlo.unary main_arg18 main_v238 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v238 main_v239 rfl shapeCasts_S1x128x128_S128x128 ]

/-- Each of these operations writes one buffer, of index 349 … 350. -/
theorem c_wr2_range : (c_wr2 : List (HloOp τ sig (Elt F))).Forall fun op => ∀ b ∈ op.writes, 349 ≤ b.idx.val ∧ b.idx.val ≤ 350 := by
  unfold c_wr2
  exact ⟨by intro b hb; rw [Finset.mem_singleton.mp hb]; decide, by intro b hb; rw [Finset.mem_singleton.mp hb]; decide⟩

set_option maxRecDepth 8192 in
set_option maxHeartbeats 1600000 in
/-- What these operations leave in %239's buffer, over the contents before them: each operation's result
    at its own buffer is its function of its operands' contents, any other buffer is unchanged; the composed term is
    the stage function by unfolding its definition. -/
theorem c_wr2_v239 (V : Valuation τ sig (Elt Ideal)) :
    after (c_wr2 (F := Ideal)) V (main_v239 : DevRef τ sig) = RefVal.sliceW2 (V (main_arg18 : DevRef τ sig)) := by
  unfold c_wr2
  after_results_simp
  rfl

end Cert.ReferenceIdeal.RefRun

end
-- ==== Proof.RefOpsS_sp2.lean ====
/-
  One stage of the reference's @main — layer 2, first relation: indices, gather, product, the two scatters, the clipped count, the quotient — in four consecutive pieces: the gather indices, the
  gathered rows and their product with the relation matrix; the scatter indices and the messages summed into the
  target rows; the count of edges into each target row; the count clipped below at one and the quotient.  For each
  piece: the list of its operations, the range of buffer indices they write (buffers are numbered in program order;
  each operation writes one literal buffer, whose index is compared by computation), and what it leaves in the one
  buffer a later piece reads.  The stage is the four lists appended; its value is the pieces' values composed,
  every other buffer a piece reads being outside the range the pieces between write.  The value statements are at
  the ideal floats.
-/
import proofs.«168040_j41652592837487_1_alg».proof.Proof.Gen.ReferenceIdeal
import Idealize.ShloMosaic.Lib.StableHlo.Run
import proofs.«168040_j41652592837487_1_alg».proof.Proof.RefVal
import proofs.«168040_j41652592837487_1_alg».proof.Proof.RefOpsLib
import proofs.«168040_j41652592837487_1_alg».proof.Proof.LibTRef
import proofs.«168040_j41652592837487_1_alg».proof.Proof.LibAfter

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
/-- Operations 333 … 344 of @main: the gather indices, the gathered rows, their product with the relation matrix. -/
def c_sp2_a : List (HloOp τ sig (Elt F)) :=
  [
    StableHlo.unary main_arg4 main_v240 ((extractStridedSlice S1x640000 ![0, 0] · slices_S2x640000_S1x640000_0_0) : (⟨S2x640000, .i32⟩ : BufTy).Contents (Elt F) → (⟨S1x640000, .i32⟩ : BufTy).Contents (Elt F)),
    StableHlo.reshape main_v240 main_v241 rfl shapeCasts_S1x640000_S640000,
    StableHlo.nullary main_c_46 (constantI S_ 32 0#32),
    StableHlo.unary main_c_46 main_v242 (broadcastInDim S640000 ![] bcast_S_S640000 : (⟨S_, .i32⟩ : BufTy).Contents (Elt F) → (⟨S640000, .i32⟩ : BufTy).Contents (Elt F)),
    StableHlo.binary main_v241 main_v242 main_v243 (cmpi .slt : (⟨S640000, .i32⟩ : BufTy).Contents (Elt F) → (⟨S640000, .i32⟩ : BufTy).Contents (Elt F) → (⟨S640000, .i1⟩ : BufTy).Contents (Elt F)),
    StableHlo.nullary main_c_47 (constantI S_ 32 50000#32),
    StableHlo.unary main_c_47 main_v244 (broadcastInDim S640000 ![] bcast_S_S640000 : (⟨S_, .i32⟩ : BufTy).Contents (Elt F) → (⟨S640000, .i32⟩ : BufTy).Contents (Elt F)),
    StableHlo.binary main_v241 main_v244 main_v245 (addi : (⟨S640000, .i32⟩ : BufTy).Contents (Elt F) → (⟨S640000, .i32⟩ : BufTy).Contents (Elt F) → (⟨S640000, .i32⟩ : BufTy).Contents (Elt F)),
    StableHlo.ternary main_v243 main_v245 main_v241 main_v246 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v246 main_v247 (broadcastInDim S640000x1 ![0] bcast_S640000_S640000x1_0 : (⟨S640000, .i32⟩ : BufTy).Contents (Elt F) → (⟨S640000x1, .i32⟩ : BufTy).Contents (Elt F)),
    StableHlo.binary main_v237 main_v247 main_v248 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    StableHlo.binary main_v248 main_v239 main_v249 ((fun l r => Host.dotGeneral dot_S640000x128_S128x128_S640000x128_1_0_0_1_n_n none l r) : (⟨S640000x128, .f32⟩ : BufTy).Contents (Elt F) → (⟨S128x128, .f32⟩ : BufTy).Contents (Elt F) → (⟨S640000x128, .f32⟩ : BufTy).Contents (Elt F)) ]

/-- Each of these operations writes one buffer, of index 351 … 362. -/
theorem c_sp2_a_range : (c_sp2_a : List (HloOp τ sig (Elt F))).Forall fun op => ∀ b ∈ op.writes, 351 ≤ b.idx.val ∧ b.idx.val ≤ 362 := by
  unfold c_sp2_a
  exact ⟨by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide⟩

set_option maxRecDepth 8192 in
set_option maxHeartbeats 1600000 in
/-- What these operations leave in %249's buffer, over the contents before them. -/
theorem c_sp2_a_v249 (V : Valuation τ sig (Elt Ideal)) :
    after (c_sp2_a (F := Ideal)) V (main_v249 : DevRef τ sig) = Host.dotGeneral (F := Ideal) (φ₁ := .f32) (φ₂ := .f32) dot_S640000x128_S128x128_S640000x128_1_0_0_1_n_n none (Host.gather gather_S50000x128_S640000x1_S640000x128_1_0_n_n_0_1_1128 (V (main_v237 : DevRef τ sig)) (RefVal.src_sp (V (main_arg4 : DevRef τ sig)))) (V (main_v239 : DevRef τ sig)) := by
  unfold c_sp2_a
  after_results_simp
  rfl

/-- Operations 345 … 350 of @main: the scatter indices and the messages summed into the target rows. -/
def c_sp2_b : List (HloOp τ sig (Elt F)) :=
  [
    StableHlo.unary main_arg4 main_v250 ((extractStridedSlice S1x640000 ![1, 0] · slices_S2x640000_S1x640000_1_0) : (⟨S2x640000, .i32⟩ : BufTy).Contents (Elt F) → (⟨S1x640000, .i32⟩ : BufTy).Contents (Elt F)),
    StableHlo.reshape main_v250 main_v251 rfl shapeCasts_S1x640000_S640000,
    StableHlo.nullary main_cst_48 (constant S_ .f32 0x00000000#32),
    StableHlo.unary main_cst_48 main_v252 (broadcastInDim S50000x128 ![] bcast_S_S50000x128 : (⟨S_, .f32⟩ : BufTy).Contents (Elt F) → (⟨S50000x128, .f32⟩ : BufTy).Contents (Elt F)),
    StableHlo.unary main_v251 main_v253 (broadcastInDim S640000x1 ![0] bcast_S640000_S640000x1_0 : (⟨S640000, .i32⟩ : BufTy).Contents (Elt F) → (⟨S640000x1, .i32⟩ : BufTy).Contents (Elt F)),
    StableHlo.ternary main_v252 main_v253 main_v249 main_v254 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)) ]

/-- Each of these operations writes one buffer, of index 363 … 368. -/
theorem c_sp2_b_range : (c_sp2_b : List (HloOp τ sig (Elt F))).Forall fun op => ∀ b ∈ op.writes, 363 ≤ b.idx.val ∧ b.idx.val ≤ 368 := by
  unfold c_sp2_b
  exact ⟨by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide⟩

set_option maxRecDepth 8192 in
set_option maxHeartbeats 1600000 in
/-- What these operations leave in %254's buffer, over the contents before them. -/
theorem c_sp2_b_v254 (V : Valuation τ sig (Elt Ideal)) :
    after (c_sp2_b (F := Ideal)) V (main_v254 : DevRef τ sig) = Host.scatterAdd (F := Ideal) (φ := .f32) scatter_S50000x128_S640000x1_S640000x128_1_0_0_1 (broadcastInDim S50000x128 ![] bcast_S_S50000x128 (constant (F := Ideal) S_ .f32 0x00000000#32)) (RefVal.tgt_sp (V (main_arg4 : DevRef τ sig))) (V (main_v249 : DevRef τ sig)) := by
  unfold c_sp2_b
  after_results_simp
  rfl

/-- Operations 351 … 358 of @main: the count of edges into each target row. -/
def c_sp2_c : List (HloOp τ sig (Elt F)) :=
  [
    StableHlo.nullary main_cst_49 (constant S_ .f32 0x3F800000#32),
    StableHlo.unary main_cst_49 main_v255 (broadcastInDim S640000x1 ![] bcast_S_S640000x1 : (⟨S_, .f32⟩ : BufTy).Contents (Elt F) → (⟨S640000x1, .f32⟩ : BufTy).Contents (Elt F)),
    StableHlo.unary main_arg4 main_v256 ((extractStridedSlice S1x640000 ![1, 0] · slices_S2x640000_S1x640000_1_0) : (⟨S2x640000, .i32⟩ : BufTy).Contents (Elt F) → (⟨S1x640000, .i32⟩ : BufTy).Contents (Elt F)),
    StableHlo.reshape main_v256 main_v257 rfl shapeCasts_S1x640000_S640000,
    StableHlo.nullary main_cst_50 (constant S_ .f32 0x00000000#32),
    StableHlo.unary main_cst_50 main_v258 (broadcastInDim S50000x1 ![] bcast_S_S50000x1 : (⟨S_, .f32⟩ : BufTy).Contents (Elt F) → (⟨S50000x1, .f32⟩ : BufTy).Contents (Elt F)),
    StableHlo.unary main_v257 main_v259 (broadcastInDim S640000x1 ![0] bcast_S640000_S640000x1_0 : (⟨S640000, .i32⟩ : BufTy).Contents (Elt F) → (⟨S640000x1, .i32⟩ : BufTy).Contents (Elt F)),
    StableHlo.ternary main_v258 main_v259 main_v255 main_v260 ((fun x i u => Host.scatterAdd scatter_S50000x1_S640000x1_S640000x1_1_0_0_1 x i u) : (⟨S50000x1, .f32⟩ : BufTy).Contents (Elt F) → (⟨S640000x1, .i32⟩ : BufTy).Contents (Elt F) → (⟨S640000x1, .f32⟩ : BufTy).Contents (Elt F) → (⟨S50000x1, .f32⟩ : BufTy).Contents (Elt F)) ]

/-- Each of these operations writes one buffer, of index 369 … 376. -/
theorem c_sp2_c_range : (c_sp2_c : List (HloOp τ sig (Elt F))).Forall fun op => ∀ b ∈ op.writes, 369 ≤ b.idx.val ∧ b.idx.val ≤ 376 := by
  unfold c_sp2_c
  exact ⟨by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide⟩

set_option maxRecDepth 8192 in
set_option maxHeartbeats 1600000 in
/-- What these operations leave in %260's buffer, over the contents before them. -/
theorem c_sp2_c_v260 (V : Valuation τ sig (Elt Ideal)) :
    after (c_sp2_c (F := Ideal)) V (main_v260 : DevRef τ sig) = Host.scatterAdd (F := Ideal) (φ := .f32) scatter_S50000x1_S640000x1_S640000x1_1_0_0_1 (broadcastInDim S50000x1 ![] bcast_S_S50000x1 (constant (F := Ideal) S_ .f32 0x00000000#32)) (RefVal.tgt_sp (V (main_arg4 : DevRef τ sig))) (broadcastInDim S640000x1 ![] bcast_S_S640000x1 (constant (F := Ideal) S_ .f32 0x3F800000#32)) := by
  unfold c_sp2_c
  after_results_simp
  rfl

/-- Operations 359 … 364 of @main: the count clipped below at one, broadcast, and the quotient. -/
def c_sp2_d : List (HloOp τ sig (Elt F)) :=
  [
    StableHlo.nullary main_cst_51 (constant S_ .f32 0x3F800000#32),
    StableHlo.TRef.unary (.of main_cst_51) main_call10.v0 id,
    StableHlo.TRef.unary main_call10.v0 main_call10.v1 (broadcastInDim S50000x1 ![] bcast_S_S50000x1),
    StableHlo.TRef.binary main_call10.v1 (.of main_v260) main_call10.v2 maximumf,
    StableHlo.unary main_v261 main_v262 (broadcastInDim S50000x128 ![0, 1] bcast_S50000x1_S50000x128_0_1 : (⟨S50000x1, .f32⟩ : BufTy).Contents (Elt F) → (⟨S50000x128, .f32⟩ : BufTy).Contents (Elt F)),
    StableHlo.binary main_v254 main_v262 main_v263 (Host.divf : (⟨S50000x128, .f32⟩ : BufTy).Contents (Elt F) → (⟨S50000x128, .f32⟩ : BufTy).Contents (Elt F) → (⟨S50000x128, .f32⟩ : BufTy).Contents (Elt F)) ]

/-- Each of these operations writes one buffer, of index 377 … 382. -/
theorem c_sp2_d_range : (c_sp2_d : List (HloOp τ sig (Elt F))).Forall fun op => ∀ b ∈ op.writes, 377 ≤ b.idx.val ∧ b.idx.val ≤ 382 := by
  unfold c_sp2_d
  exact ⟨by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide⟩

set_option maxRecDepth 8192 in
set_option maxHeartbeats 1600000 in
/-- What these operations leave in %263's buffer, over the contents before them. -/
theorem c_sp2_d_v263 (V : Valuation τ sig (Elt Ideal)) :
    after (c_sp2_d (F := Ideal)) V (main_v263 : DevRef τ sig) = Host.divf (F := Ideal) (φ := .f32) (V (main_v254 : DevRef τ sig)) (broadcastInDim S50000x128 ![0, 1] bcast_S50000x1_S50000x128_0_1 (maximumf (F := Ideal) (φ := .f32) (broadcastInDim S50000x1 ![] bcast_S_S50000x1 (id (constant (F := Ideal) S_ .f32 0x3F800000#32))) (V (main_v260 : DevRef τ sig)))) := by
  unfold c_sp2_d
  after_results_simp
  simp only [TRef.ofBuf_toBuf]
  rfl

/-- The stage: its four pieces in order. -/
def c_sp2 : List (HloOp τ sig (Elt F)) :=
  c_sp2_a ++ (c_sp2_b ++ (c_sp2_c ++ (c_sp2_d)))

/-- Each operation of the stage writes one buffer, of index 351 … 382. -/
theorem c_sp2_range : (c_sp2 : List (HloOp τ sig (Elt F))).Forall fun op => ∀ b ∈ op.writes, 351 ≤ b.idx.val ∧ b.idx.val ≤ 382 := by
  unfold c_sp2
  exact List.forall_append.mpr ⟨idx_range_mono (by decide) (by decide) c_sp2_a_range, List.forall_append.mpr ⟨idx_range_mono (by decide) (by decide) c_sp2_b_range, List.forall_append.mpr ⟨idx_range_mono (by decide) (by decide) c_sp2_c_range, idx_range_mono (by decide) (by decide) c_sp2_d_range⟩⟩⟩

set_option maxRecDepth 8192
set_option maxHeartbeats 1600000

theorem c_sp2_suf3 (V : Valuation τ sig (Elt Ideal)) :
    after (c_sp2_d (F := Ideal)) V (main_v263 : DevRef τ sig) = (Host.divf (F := Ideal) (φ := .f32) (V (main_v254 : DevRef τ sig)) (broadcastInDim S50000x128 ![0, 1] bcast_S50000x1_S50000x128_0_1 (maximumf (F := Ideal) (φ := .f32) (broadcastInDim S50000x1 ![] bcast_S_S50000x1 (id (constant (F := Ideal) S_ .f32 0x3F800000#32))) (V (main_v260 : DevRef τ sig))))) :=
  c_sp2_d_v263 V

theorem c_sp2_suf2 (V : Valuation τ sig (Elt Ideal)) :
    after (c_sp2_c (F := Ideal) ++ (c_sp2_d (F := Ideal))) V (main_v263 : DevRef τ sig) = (Host.divf (F := Ideal) (φ := .f32) (V (main_v254 : DevRef τ sig)) (broadcastInDim S50000x128 ![0, 1] bcast_S50000x1_S50000x128_0_1 (maximumf (F := Ideal) (φ := .f32) (broadcastInDim S50000x1 ![] bcast_S_S50000x1 (id (constant (F := Ideal) S_ .f32 0x3F800000#32))) (Host.scatterAdd (F := Ideal) (φ := .f32) scatter_S50000x1_S640000x1_S640000x1_1_0_0_1 (broadcastInDim S50000x1 ![] bcast_S_S50000x1 (constant (F := Ideal) S_ .f32 0x00000000#32)) (RefVal.tgt_sp (V (main_arg4 : DevRef τ sig))) (broadcastInDim S640000x1 ![] bcast_S_S640000x1 (constant (F := Ideal) S_ .f32 0x3F800000#32)))))) := by
  rw [after_append, c_sp2_suf3]
  rw [show after (c_sp2_c (F := Ideal)) V (main_v254 : DevRef τ sig) = V (main_v254 : DevRef τ sig) from after_of_idx_range _ V c_sp2_c_range main_v254 (Or.inl (by decide)),
    c_sp2_c_v260 V]

theorem c_sp2_suf1 (V : Valuation τ sig (Elt Ideal)) :
    after (c_sp2_b (F := Ideal) ++ (c_sp2_c (F := Ideal) ++ (c_sp2_d (F := Ideal)))) V (main_v263 : DevRef τ sig) = (Host.divf (F := Ideal) (φ := .f32) (Host.scatterAdd (F := Ideal) (φ := .f32) scatter_S50000x128_S640000x1_S640000x128_1_0_0_1 (broadcastInDim S50000x128 ![] bcast_S_S50000x128 (constant (F := Ideal) S_ .f32 0x00000000#32)) (RefVal.tgt_sp (V (main_arg4 : DevRef τ sig))) (V (main_v249 : DevRef τ sig))) (broadcastInDim S50000x128 ![0, 1] bcast_S50000x1_S50000x128_0_1 (maximumf (F := Ideal) (φ := .f32) (broadcastInDim S50000x1 ![] bcast_S_S50000x1 (id (constant (F := Ideal) S_ .f32 0x3F800000#32))) (Host.scatterAdd (F := Ideal) (φ := .f32) scatter_S50000x1_S640000x1_S640000x1_1_0_0_1 (broadcastInDim S50000x1 ![] bcast_S_S50000x1 (constant (F := Ideal) S_ .f32 0x00000000#32)) (RefVal.tgt_sp (V (main_arg4 : DevRef τ sig))) (broadcastInDim S640000x1 ![] bcast_S_S640000x1 (constant (F := Ideal) S_ .f32 0x3F800000#32)))))) := by
  rw [after_append, c_sp2_suf2]
  rw [c_sp2_b_v254 V,
    show after (c_sp2_b (F := Ideal)) V (main_arg4 : DevRef τ sig) = V (main_arg4 : DevRef τ sig) from after_of_idx_range _ V c_sp2_b_range main_arg4 (Or.inl (by decide))]

theorem c_sp2_suf0 (V : Valuation τ sig (Elt Ideal)) :
    after (c_sp2_a (F := Ideal) ++ (c_sp2_b (F := Ideal) ++ (c_sp2_c (F := Ideal) ++ (c_sp2_d (F := Ideal))))) V (main_v263 : DevRef τ sig) = (Host.divf (F := Ideal) (φ := .f32) (Host.scatterAdd (F := Ideal) (φ := .f32) scatter_S50000x128_S640000x1_S640000x128_1_0_0_1 (broadcastInDim S50000x128 ![] bcast_S_S50000x128 (constant (F := Ideal) S_ .f32 0x00000000#32)) (RefVal.tgt_sp (V (main_arg4 : DevRef τ sig))) (Host.dotGeneral (F := Ideal) (φ₁ := .f32) (φ₂ := .f32) dot_S640000x128_S128x128_S640000x128_1_0_0_1_n_n none (Host.gather gather_S50000x128_S640000x1_S640000x128_1_0_n_n_0_1_1128 (V (main_v237 : DevRef τ sig)) (RefVal.src_sp (V (main_arg4 : DevRef τ sig)))) (V (main_v239 : DevRef τ sig)))) (broadcastInDim S50000x128 ![0, 1] bcast_S50000x1_S50000x128_0_1 (maximumf (F := Ideal) (φ := .f32) (broadcastInDim S50000x1 ![] bcast_S_S50000x1 (id (constant (F := Ideal) S_ .f32 0x3F800000#32))) (Host.scatterAdd (F := Ideal) (φ := .f32) scatter_S50000x1_S640000x1_S640000x1_1_0_0_1 (broadcastInDim S50000x1 ![] bcast_S_S50000x1 (constant (F := Ideal) S_ .f32 0x00000000#32)) (RefVal.tgt_sp (V (main_arg4 : DevRef τ sig))) (broadcastInDim S640000x1 ![] bcast_S_S640000x1 (constant (F := Ideal) S_ .f32 0x3F800000#32)))))) := by
  rw [after_append, c_sp2_suf1]
  rw [show after (c_sp2_a (F := Ideal)) V (main_arg4 : DevRef τ sig) = V (main_arg4 : DevRef τ sig) from after_of_idx_range _ V c_sp2_a_range main_arg4 (Or.inl (by decide)),
    c_sp2_a_v249 V]

/-- What the stage leaves in %263's buffer, over the contents before it: the relation's mean message. -/
theorem c_sp2_v263 (V : Valuation τ sig (Elt Ideal)) :
    after (c_sp2 (F := Ideal)) V (main_v263 : DevRef τ sig) = RefVal.rel_sp (V (main_v237 : DevRef τ sig)) (V (main_v239 : DevRef τ sig)) (V (main_arg4 : DevRef τ sig)) := by
  unfold c_sp2
  rw [c_sp2_suf0]
  rfl

end Cert.ReferenceIdeal.RefRun

end
-- ==== Proof.RefOpsS_fl2.lean ====
/-
  One stage of the reference's @main — layer 2, second relation — in four consecutive pieces: the gather indices, the
  gathered rows and their product with the relation matrix; the scatter indices and the messages summed into the
  target rows; the count of edges into each target row; the count clipped below at one and the quotient.  For each
  piece: the list of its operations, the range of buffer indices they write (buffers are numbered in program order;
  each operation writes one literal buffer, whose index is compared by computation), and what it leaves in the one
  buffer a later piece reads.  The stage is the four lists appended; its value is the pieces' values composed,
  every other buffer a piece reads being outside the range the pieces between write.  The value statements are at
  the ideal floats.
-/
import proofs.«168040_j41652592837487_1_alg».proof.Proof.Gen.ReferenceIdeal
import Idealize.ShloMosaic.Lib.StableHlo.Run
import proofs.«168040_j41652592837487_1_alg».proof.Proof.RefVal
import proofs.«168040_j41652592837487_1_alg».proof.Proof.RefOpsLib
import proofs.«168040_j41652592837487_1_alg».proof.Proof.LibTRef
import proofs.«168040_j41652592837487_1_alg».proof.Proof.LibAfter

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
/-- Operations 365 … 376 of @main: the gather indices, the gathered rows, their product with the relation matrix. -/
def c_fl2_a : List (HloOp τ sig (Elt F)) :=
  [
    StableHlo.unary main_arg5 main_v264 ((extractStridedSlice S1x640000 ![0, 0] · slices_S2x640000_S1x640000_0_0) : (⟨S2x640000, .i32⟩ : BufTy).Contents (Elt F) → (⟨S1x640000, .i32⟩ : BufTy).Contents (Elt F)),
    StableHlo.reshape main_v264 main_v265 rfl shapeCasts_S1x640000_S640000,
    StableHlo.nullary main_c_52 (constantI S_ 32 0#32),
    StableHlo.unary main_c_52 main_v266 (broadcastInDim S640000 ![] bcast_S_S640000 : (⟨S_, .i32⟩ : BufTy).Contents (Elt F) → (⟨S640000, .i32⟩ : BufTy).Contents (Elt F)),
    StableHlo.binary main_v265 main_v266 main_v267 (cmpi .slt : (⟨S640000, .i32⟩ : BufTy).Contents (Elt F) → (⟨S640000, .i32⟩ : BufTy).Contents (Elt F) → (⟨S640000, .i1⟩ : BufTy).Contents (Elt F)),
    StableHlo.nullary main_c_53 (constantI S_ 32 100000#32),
    StableHlo.unary main_c_53 main_v268 (broadcastInDim S640000 ![] bcast_S_S640000 : (⟨S_, .i32⟩ : BufTy).Contents (Elt F) → (⟨S640000, .i32⟩ : BufTy).Contents (Elt F)),
    StableHlo.binary main_v265 main_v268 main_v269 (addi : (⟨S640000, .i32⟩ : BufTy).Contents (Elt F) → (⟨S640000, .i32⟩ : BufTy).Contents (Elt F) → (⟨S640000, .i32⟩ : BufTy).Contents (Elt F)),
    StableHlo.ternary main_v267 main_v269 main_v265 main_v270 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v270 main_v271 (broadcastInDim S640000x1 ![0] bcast_S640000_S640000x1_0 : (⟨S640000, .i32⟩ : BufTy).Contents (Elt F) → (⟨S640000x1, .i32⟩ : BufTy).Contents (Elt F)),
    StableHlo.binary main_v7 main_v271 main_v272 ((fun x i => Host.gather gather_S100000x128_S640000x1_S640000x128_1_0_n_n_0_1_1128 x i) : (⟨S100000x128, .f32⟩ : BufTy).Contents (Elt F) → (⟨S640000x1, .i32⟩ : BufTy).Contents (Elt F) → (⟨S640000x128, .f32⟩ : BufTy).Contents (Elt F)),
    StableHlo.binary main_v272 main_v239 main_v273 ((fun l r => Host.dotGeneral dot_S640000x128_S128x128_S640000x128_1_0_0_1_n_n none l r) : (⟨S640000x128, .f32⟩ : BufTy).Contents (Elt F) → (⟨S128x128, .f32⟩ : BufTy).Contents (Elt F) → (⟨S640000x128, .f32⟩ : BufTy).Contents (Elt F)) ]

/-- Each of these operations writes one buffer, of index 383 … 394. -/
theorem c_fl2_a_range : (c_fl2_a : List (HloOp τ sig (Elt F))).Forall fun op => ∀ b ∈ op.writes, 383 ≤ b.idx.val ∧ b.idx.val ≤ 394 := by
  unfold c_fl2_a
  exact ⟨by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide⟩

set_option maxRecDepth 8192 in
set_option maxHeartbeats 1600000 in
/-- What these operations leave in %273's buffer, over the contents before them. -/
theorem c_fl2_a_v273 (V : Valuation τ sig (Elt Ideal)) :
    after (c_fl2_a (F := Ideal)) V (main_v273 : DevRef τ sig) = Host.dotGeneral (F := Ideal) (φ₁ := .f32) (φ₂ := .f32) dot_S640000x128_S128x128_S640000x128_1_0_0_1_n_n none (Host.gather gather_S100000x128_S640000x1_S640000x128_1_0_n_n_0_1_1128 (V (main_v7 : DevRef τ sig)) (RefVal.src_fl (V (main_arg5 : DevRef τ sig)))) (V (main_v239 : DevRef τ sig)) := by
  unfold c_fl2_a
  after_results_simp
  rfl

/-- Operations 377 … 382 of @main: the scatter indices and the messages summed into the target rows. -/
def c_fl2_b : List (HloOp τ sig (Elt F)) :=
  [
    StableHlo.unary main_arg5 main_v274 ((extractStridedSlice S1x640000 ![1, 0] · slices_S2x640000_S1x640000_1_0) : (⟨S2x640000, .i32⟩ : BufTy).Contents (Elt F) → (⟨S1x640000, .i32⟩ : BufTy).Contents (Elt F)),
    StableHlo.reshape main_v274 main_v275 rfl shapeCasts_S1x640000_S640000,
    StableHlo.nullary main_cst_54 (constant S_ .f32 0x00000000#32),
    StableHlo.unary main_cst_54 main_v276 (broadcastInDim S50000x128 ![] bcast_S_S50000x128 : (⟨S_, .f32⟩ : BufTy).Contents (Elt F) → (⟨S50000x128, .f32⟩ : BufTy).Contents (Elt F)),
    StableHlo.unary main_v275 main_v277 (broadcastInDim S640000x1 ![0] bcast_S640000_S640000x1_0 : (⟨S640000, .i32⟩ : BufTy).Contents (Elt F) → (⟨S640000x1, .i32⟩ : BufTy).Contents (Elt F)),
    StableHlo.ternary main_v276 main_v277 main_v273 main_v278 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)) ]

/-- Each of these operations writes one buffer, of index 395 … 400. -/
theorem c_fl2_b_range : (c_fl2_b : List (HloOp τ sig (Elt F))).Forall fun op => ∀ b ∈ op.writes, 395 ≤ b.idx.val ∧ b.idx.val ≤ 400 := by
  unfold c_fl2_b
  exact ⟨by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide⟩

set_option maxRecDepth 8192 in
set_option maxHeartbeats 1600000 in
/-- What these operations leave in %278's buffer, over the contents before them. -/
theorem c_fl2_b_v278 (V : Valuation τ sig (Elt Ideal)) :
    after (c_fl2_b (F := Ideal)) V (main_v278 : DevRef τ sig) = Host.scatterAdd (F := Ideal) (φ := .f32) scatter_S50000x128_S640000x1_S640000x128_1_0_0_1 (broadcastInDim S50000x128 ![] bcast_S_S50000x128 (constant (F := Ideal) S_ .f32 0x00000000#32)) (RefVal.tgt_fl (V (main_arg5 : DevRef τ sig))) (V (main_v273 : DevRef τ sig)) := by
  unfold c_fl2_b
  after_results_simp
  rfl

/-- Operations 383 … 390 of @main: the count of edges into each target row. -/
def c_fl2_c : List (HloOp τ sig (Elt F)) :=
  [
    StableHlo.nullary main_cst_55 (constant S_ .f32 0x3F800000#32),
    StableHlo.unary main_cst_55 main_v279 (broadcastInDim S640000x1 ![] bcast_S_S640000x1 : (⟨S_, .f32⟩ : BufTy).Contents (Elt F) → (⟨S640000x1, .f32⟩ : BufTy).Contents (Elt F)),
    StableHlo.unary main_arg5 main_v280 ((extractStridedSlice S1x640000 ![1, 0] · slices_S2x640000_S1x640000_1_0) : (⟨S2x640000, .i32⟩ : BufTy).Contents (Elt F) → (⟨S1x640000, .i32⟩ : BufTy).Contents (Elt F)),
    StableHlo.reshape main_v280 main_v281 rfl shapeCasts_S1x640000_S640000,
    StableHlo.nullary main_cst_56 (constant S_ .f32 0x00000000#32),
    StableHlo.unary main_cst_56 main_v282 (broadcastInDim S50000x1 ![] bcast_S_S50000x1 : (⟨S_, .f32⟩ : BufTy).Contents (Elt F) → (⟨S50000x1, .f32⟩ : BufTy).Contents (Elt F)),
    StableHlo.unary main_v281 main_v283 (broadcastInDim S640000x1 ![0] bcast_S640000_S640000x1_0 : (⟨S640000, .i32⟩ : BufTy).Contents (Elt F) → (⟨S640000x1, .i32⟩ : BufTy).Contents (Elt F)),
    StableHlo.ternary main_v282 main_v283 main_v279 main_v284 ((fun x i u => Host.scatterAdd scatter_S50000x1_S640000x1_S640000x1_1_0_0_1 x i u) : (⟨S50000x1, .f32⟩ : BufTy).Contents (Elt F) → (⟨S640000x1, .i32⟩ : BufTy).Contents (Elt F) → (⟨S640000x1, .f32⟩ : BufTy).Contents (Elt F) → (⟨S50000x1, .f32⟩ : BufTy).Contents (Elt F)) ]

/-- Each of these operations writes one buffer, of index 401 … 408. -/
theorem c_fl2_c_range : (c_fl2_c : List (HloOp τ sig (Elt F))).Forall fun op => ∀ b ∈ op.writes, 401 ≤ b.idx.val ∧ b.idx.val ≤ 408 := by
  unfold c_fl2_c
  exact ⟨by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide⟩

set_option maxRecDepth 8192 in
set_option maxHeartbeats 1600000 in
/-- What these operations leave in %284's buffer, over the contents before them. -/
theorem c_fl2_c_v284 (V : Valuation τ sig (Elt Ideal)) :
    after (c_fl2_c (F := Ideal)) V (main_v284 : DevRef τ sig) = Host.scatterAdd (F := Ideal) (φ := .f32) scatter_S50000x1_S640000x1_S640000x1_1_0_0_1 (broadcastInDim S50000x1 ![] bcast_S_S50000x1 (constant (F := Ideal) S_ .f32 0x00000000#32)) (RefVal.tgt_fl (V (main_arg5 : DevRef τ sig))) (broadcastInDim S640000x1 ![] bcast_S_S640000x1 (constant (F := Ideal) S_ .f32 0x3F800000#32)) := by
  unfold c_fl2_c
  after_results_simp
  rfl

/-- Operations 391 … 396 of @main: the count clipped below at one, broadcast, and the quotient. -/
def c_fl2_d : List (HloOp τ sig (Elt F)) :=
  [
    StableHlo.nullary main_cst_57 (constant S_ .f32 0x3F800000#32),
    StableHlo.TRef.unary (.of main_cst_57) main_call11.v0 id,
    StableHlo.TRef.unary main_call11.v0 main_call11.v1 (broadcastInDim S50000x1 ![] bcast_S_S50000x1),
    StableHlo.TRef.binary main_call11.v1 (.of main_v284) main_call11.v2 maximumf,
    StableHlo.unary main_v285 main_v286 (broadcastInDim S50000x128 ![0, 1] bcast_S50000x1_S50000x128_0_1 : (⟨S50000x1, .f32⟩ : BufTy).Contents (Elt F) → (⟨S50000x128, .f32⟩ : BufTy).Contents (Elt F)),
    StableHlo.binary main_v278 main_v286 main_v287 (Host.divf : (⟨S50000x128, .f32⟩ : BufTy).Contents (Elt F) → (⟨S50000x128, .f32⟩ : BufTy).Contents (Elt F) → (⟨S50000x128, .f32⟩ : BufTy).Contents (Elt F)) ]

/-- Each of these operations writes one buffer, of index 409 … 414. -/
theorem c_fl2_d_range : (c_fl2_d : List (HloOp τ sig (Elt F))).Forall fun op => ∀ b ∈ op.writes, 409 ≤ b.idx.val ∧ b.idx.val ≤ 414 := by
  unfold c_fl2_d
  exact ⟨by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide⟩

set_option maxRecDepth 8192 in
set_option maxHeartbeats 1600000 in
/-- What these operations leave in %287's buffer, over the contents before them. -/
theorem c_fl2_d_v287 (V : Valuation τ sig (Elt Ideal)) :
    after (c_fl2_d (F := Ideal)) V (main_v287 : DevRef τ sig) = Host.divf (F := Ideal) (φ := .f32) (V (main_v278 : DevRef τ sig)) (broadcastInDim S50000x128 ![0, 1] bcast_S50000x1_S50000x128_0_1 (maximumf (F := Ideal) (φ := .f32) (broadcastInDim S50000x1 ![] bcast_S_S50000x1 (id (constant (F := Ideal) S_ .f32 0x3F800000#32))) (V (main_v284 : DevRef τ sig)))) := by
  unfold c_fl2_d
  after_results_simp
  simp only [TRef.ofBuf_toBuf]
  rfl

/-- The stage: its four pieces in order. -/
def c_fl2 : List (HloOp τ sig (Elt F)) :=
  c_fl2_a ++ (c_fl2_b ++ (c_fl2_c ++ (c_fl2_d)))

/-- Each operation of the stage writes one buffer, of index 383 … 414. -/
theorem c_fl2_range : (c_fl2 : List (HloOp τ sig (Elt F))).Forall fun op => ∀ b ∈ op.writes, 383 ≤ b.idx.val ∧ b.idx.val ≤ 414 := by
  unfold c_fl2
  exact List.forall_append.mpr ⟨idx_range_mono (by decide) (by decide) c_fl2_a_range, List.forall_append.mpr ⟨idx_range_mono (by decide) (by decide) c_fl2_b_range, List.forall_append.mpr ⟨idx_range_mono (by decide) (by decide) c_fl2_c_range, idx_range_mono (by decide) (by decide) c_fl2_d_range⟩⟩⟩

set_option maxRecDepth 8192
set_option maxHeartbeats 1600000

theorem c_fl2_suf3 (V : Valuation τ sig (Elt Ideal)) :
    after (c_fl2_d (F := Ideal)) V (main_v287 : DevRef τ sig) = (Host.divf (F := Ideal) (φ := .f32) (V (main_v278 : DevRef τ sig)) (broadcastInDim S50000x128 ![0, 1] bcast_S50000x1_S50000x128_0_1 (maximumf (F := Ideal) (φ := .f32) (broadcastInDim S50000x1 ![] bcast_S_S50000x1 (id (constant (F := Ideal) S_ .f32 0x3F800000#32))) (V (main_v284 : DevRef τ sig))))) :=
  c_fl2_d_v287 V

theorem c_fl2_suf2 (V : Valuation τ sig (Elt Ideal)) :
    after (c_fl2_c (F := Ideal) ++ (c_fl2_d (F := Ideal))) V (main_v287 : DevRef τ sig) = (Host.divf (F := Ideal) (φ := .f32) (V (main_v278 : DevRef τ sig)) (broadcastInDim S50000x128 ![0, 1] bcast_S50000x1_S50000x128_0_1 (maximumf (F := Ideal) (φ := .f32) (broadcastInDim S50000x1 ![] bcast_S_S50000x1 (id (constant (F := Ideal) S_ .f32 0x3F800000#32))) (Host.scatterAdd (F := Ideal) (φ := .f32) scatter_S50000x1_S640000x1_S640000x1_1_0_0_1 (broadcastInDim S50000x1 ![] bcast_S_S50000x1 (constant (F := Ideal) S_ .f32 0x00000000#32)) (RefVal.tgt_fl (V (main_arg5 : DevRef τ sig))) (broadcastInDim S640000x1 ![] bcast_S_S640000x1 (constant (F := Ideal) S_ .f32 0x3F800000#32)))))) := by
  rw [after_append, c_fl2_suf3]
  rw [show after (c_fl2_c (F := Ideal)) V (main_v278 : DevRef τ sig) = V (main_v278 : DevRef τ sig) from after_of_idx_range _ V c_fl2_c_range main_v278 (Or.inl (by decide)),
    c_fl2_c_v284 V]

theorem c_fl2_suf1 (V : Valuation τ sig (Elt Ideal)) :
    after (c_fl2_b (F := Ideal) ++ (c_fl2_c (F := Ideal) ++ (c_fl2_d (F := Ideal)))) V (main_v287 : DevRef τ sig) = (Host.divf (F := Ideal) (φ := .f32) (Host.scatterAdd (F := Ideal) (φ := .f32) scatter_S50000x128_S640000x1_S640000x128_1_0_0_1 (broadcastInDim S50000x128 ![] bcast_S_S50000x128 (constant (F := Ideal) S_ .f32 0x00000000#32)) (RefVal.tgt_fl (V (main_arg5 : DevRef τ sig))) (V (main_v273 : DevRef τ sig))) (broadcastInDim S50000x128 ![0, 1] bcast_S50000x1_S50000x128_0_1 (maximumf (F := Ideal) (φ := .f32) (broadcastInDim S50000x1 ![] bcast_S_S50000x1 (id (constant (F := Ideal) S_ .f32 0x3F800000#32))) (Host.scatterAdd (F := Ideal) (φ := .f32) scatter_S50000x1_S640000x1_S640000x1_1_0_0_1 (broadcastInDim S50000x1 ![] bcast_S_S50000x1 (constant (F := Ideal) S_ .f32 0x00000000#32)) (RefVal.tgt_fl (V (main_arg5 : DevRef τ sig))) (broadcastInDim S640000x1 ![] bcast_S_S640000x1 (constant (F := Ideal) S_ .f32 0x3F800000#32)))))) := by
  rw [after_append, c_fl2_suf2]
  rw [c_fl2_b_v278 V,
    show after (c_fl2_b (F := Ideal)) V (main_arg5 : DevRef τ sig) = V (main_arg5 : DevRef τ sig) from after_of_idx_range _ V c_fl2_b_range main_arg5 (Or.inl (by decide))]

theorem c_fl2_suf0 (V : Valuation τ sig (Elt Ideal)) :
    after (c_fl2_a (F := Ideal) ++ (c_fl2_b (F := Ideal) ++ (c_fl2_c (F := Ideal) ++ (c_fl2_d (F := Ideal))))) V (main_v287 : DevRef τ sig) = (Host.divf (F := Ideal) (φ := .f32) (Host.scatterAdd (F := Ideal) (φ := .f32) scatter_S50000x128_S640000x1_S640000x128_1_0_0_1 (broadcastInDim S50000x128 ![] bcast_S_S50000x128 (constant (F := Ideal) S_ .f32 0x00000000#32)) (RefVal.tgt_fl (V (main_arg5 : DevRef τ sig))) (Host.dotGeneral (F := Ideal) (φ₁ := .f32) (φ₂ := .f32) dot_S640000x128_S128x128_S640000x128_1_0_0_1_n_n none (Host.gather gather_S100000x128_S640000x1_S640000x128_1_0_n_n_0_1_1128 (V (main_v7 : DevRef τ sig)) (RefVal.src_fl (V (main_arg5 : DevRef τ sig)))) (V (main_v239 : DevRef τ sig)))) (broadcastInDim S50000x128 ![0, 1] bcast_S50000x1_S50000x128_0_1 (maximumf (F := Ideal) (φ := .f32) (broadcastInDim S50000x1 ![] bcast_S_S50000x1 (id (constant (F := Ideal) S_ .f32 0x3F800000#32))) (Host.scatterAdd (F := Ideal) (φ := .f32) scatter_S50000x1_S640000x1_S640000x1_1_0_0_1 (broadcastInDim S50000x1 ![] bcast_S_S50000x1 (constant (F := Ideal) S_ .f32 0x00000000#32)) (RefVal.tgt_fl (V (main_arg5 : DevRef τ sig))) (broadcastInDim S640000x1 ![] bcast_S_S640000x1 (constant (F := Ideal) S_ .f32 0x3F800000#32)))))) := by
  rw [after_append, c_fl2_suf1]
  rw [show after (c_fl2_a (F := Ideal)) V (main_arg5 : DevRef τ sig) = V (main_arg5 : DevRef τ sig) from after_of_idx_range _ V c_fl2_a_range main_arg5 (Or.inl (by decide)),
    c_fl2_a_v273 V]

/-- What the stage leaves in %287's buffer, over the contents before it: the relation's mean message. -/
theorem c_fl2_v287 (V : Valuation τ sig (Elt Ideal)) :
    after (c_fl2 (F := Ideal)) V (main_v287 : DevRef τ sig) = RefVal.rel_fl (V (main_v7 : DevRef τ sig)) (V (main_v239 : DevRef τ sig)) (V (main_arg5 : DevRef τ sig)) := by
  unfold c_fl2
  rw [c_fl2_suf0]
  rfl

end Cert.ReferenceIdeal.RefRun

end
-- ==== Proof.RefOpsS_fs2.lean ====
/-
  One stage of the reference's @main — layer 2, third relation — in four consecutive pieces: the gather indices, the
  gathered rows and their product with the relation matrix; the scatter indices and the messages summed into the
  target rows; the count of edges into each target row; the count clipped below at one and the quotient.  For each
  piece: the list of its operations, the range of buffer indices they write (buffers are numbered in program order;
  each operation writes one literal buffer, whose index is compared by computation), and what it leaves in the one
  buffer a later piece reads.  The stage is the four lists appended; its value is the pieces' values composed,
  every other buffer a piece reads being outside the range the pieces between write.  The value statements are at
  the ideal floats.
-/
import proofs.«168040_j41652592837487_1_alg».proof.Proof.Gen.ReferenceIdeal
import Idealize.ShloMosaic.Lib.StableHlo.Run
import proofs.«168040_j41652592837487_1_alg».proof.Proof.RefVal
import proofs.«168040_j41652592837487_1_alg».proof.Proof.RefOpsLib
import proofs.«168040_j41652592837487_1_alg».proof.Proof.LibTRef
import proofs.«168040_j41652592837487_1_alg».proof.Proof.LibAfter

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
/-- Operations 397 … 408 of @main: the gather indices, the gathered rows, their product with the relation matrix. -/
def c_fs2_a : List (HloOp τ sig (Elt F)) :=
  [
    StableHlo.unary main_arg6 main_v288 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v288 main_v289 rfl shapeCasts_S1x320000_S320000,
    StableHlo.nullary main_c_58 (constantI S_ 32 0#32),
    StableHlo.unary main_c_58 main_v290 (broadcastInDim S320000 ![] bcast_S_S320000 : (⟨S_, .i32⟩ : BufTy).Contents (Elt F) → (⟨S320000, .i32⟩ : BufTy).Contents (Elt F)),
    StableHlo.binary main_v289 main_v290 main_v291 (cmpi .slt : (⟨S320000, .i32⟩ : BufTy).Contents (Elt F) → (⟨S320000, .i32⟩ : BufTy).Contents (Elt F) → (⟨S320000, .i1⟩ : BufTy).Contents (Elt F)),
    StableHlo.nullary main_c_59 (constantI S_ 32 50000#32),
    StableHlo.unary main_c_59 main_v292 (broadcastInDim S320000 ![] bcast_S_S320000 : (⟨S_, .i32⟩ : BufTy).Contents (Elt F) → (⟨S320000, .i32⟩ : BufTy).Contents (Elt F)),
    StableHlo.binary main_v289 main_v292 main_v293 (addi : (⟨S320000, .i32⟩ : BufTy).Contents (Elt F) → (⟨S320000, .i32⟩ : BufTy).Contents (Elt F) → (⟨S320000, .i32⟩ : BufTy).Contents (Elt F)),
    StableHlo.ternary main_v291 main_v293 main_v289 main_v294 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v294 main_v295 (broadcastInDim S320000x1 ![0] bcast_S320000_S320000x1_0 : (⟨S320000, .i32⟩ : BufTy).Contents (Elt F) → (⟨S320000x1, .i32⟩ : BufTy).Contents (Elt F)),
    StableHlo.binary main_v11 main_v295 main_v296 ((fun x i => Host.gather gather_S50000x128_S320000x1_S320000x128_1_0_n_n_0_1_1128 x i) : (⟨S50000x128, .f32⟩ : BufTy).Contents (Elt F) → (⟨S320000x1, .i32⟩ : BufTy).Contents (Elt F) → (⟨S320000x128, .f32⟩ : BufTy).Contents (Elt F)),
    StableHlo.binary main_v296 main_v239 main_v297 ((fun l r => Host.dotGeneral dot_S320000x128_S128x128_S320000x128_1_0_0_1_n_n none l r) : (⟨S320000x128, .f32⟩ : BufTy).Contents (Elt F) → (⟨S128x128, .f32⟩ : BufTy).Contents (Elt F) → (⟨S320000x128, .f32⟩ : BufTy).Contents (Elt F)) ]

/-- Each of these operations writes one buffer, of index 415 … 426. -/
theorem c_fs2_a_range : (c_fs2_a : List (HloOp τ sig (Elt F))).Forall fun op => ∀ b ∈ op.writes, 415 ≤ b.idx.val ∧ b.idx.val ≤ 426 := by
  unfold c_fs2_a
  exact ⟨by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide⟩

set_option maxRecDepth 8192 in
set_option maxHeartbeats 1600000 in
/-- What these operations leave in %297's buffer, over the contents before them. -/
theorem c_fs2_a_v297 (V : Valuation τ sig (Elt Ideal)) :
    after (c_fs2_a (F := Ideal)) V (main_v297 : DevRef τ sig) = Host.dotGeneral (F := Ideal) (φ₁ := .f32) (φ₂ := .f32) dot_S320000x128_S128x128_S320000x128_1_0_0_1_n_n none (Host.gather gather_S50000x128_S320000x1_S320000x128_1_0_n_n_0_1_1128 (V (main_v11 : DevRef τ sig)) (RefVal.src_fs (V (main_arg6 : DevRef τ sig)))) (V (main_v239 : DevRef τ sig)) := by
  unfold c_fs2_a
  after_results_simp
  rfl

/-- Operations 409 … 414 of @main: the scatter indices and the messages summed into the target rows. -/
def c_fs2_b : List (HloOp τ sig (Elt F)) :=
  [
    StableHlo.unary main_arg6 main_v298 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v298 main_v299 rfl shapeCasts_S1x320000_S320000,
    StableHlo.nullary main_cst_60 (constant S_ .f32 0x00000000#32),
    StableHlo.unary main_cst_60 main_v300 (broadcastInDim S50000x128 ![] bcast_S_S50000x128 : (⟨S_, .f32⟩ : BufTy).Contents (Elt F) → (⟨S50000x128, .f32⟩ : BufTy).Contents (Elt F)),
    StableHlo.unary main_v299 main_v301 (broadcastInDim S320000x1 ![0] bcast_S320000_S320000x1_0 : (⟨S320000, .i32⟩ : BufTy).Contents (Elt F) → (⟨S320000x1, .i32⟩ : BufTy).Contents (Elt F)),
    StableHlo.ternary main_v300 main_v301 main_v297 main_v302 ((fun x i u => Host.scatterAdd scatter_S50000x128_S320000x1_S320000x128_1_0_0_1 x i u) : (⟨S50000x128, .f32⟩ : BufTy).Contents (Elt F) → (⟨S320000x1, .i32⟩ : BufTy).Contents (Elt F) → (⟨S320000x128, .f32⟩ : BufTy).Contents (Elt F) → (⟨S50000x128, .f32⟩ : BufTy).Contents (Elt F)) ]

/-- Each of these operations writes one buffer, of index 427 … 432. -/
theorem c_fs2_b_range : (c_fs2_b : List (HloOp τ sig (Elt F))).Forall fun op => ∀ b ∈ op.writes, 427 ≤ b.idx.val ∧ b.idx.val ≤ 432 := by
  unfold c_fs2_b
  exact ⟨by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide⟩

set_option maxRecDepth 8192 in
set_option maxHeartbeats 1600000 in
/-- What these operations leave in %302's buffer, over the contents before them. -/
theorem c_fs2_b_v302 (V : Valuation τ sig (Elt Ideal)) :
    after (c_fs2_b (F := Ideal)) V (main_v302 : DevRef τ sig) = Host.scatterAdd (F := Ideal) (φ := .f32) scatter_S50000x128_S320000x1_S320000x128_1_0_0_1 (broadcastInDim S50000x128 ![] bcast_S_S50000x128 (constant (F := Ideal) S_ .f32 0x00000000#32)) (RefVal.tgt_fs (V (main_arg6 : DevRef τ sig))) (V (main_v297 : DevRef τ sig)) := by
  unfold c_fs2_b
  after_results_simp
  rfl

/-- Operations 415 … 422 of @main: the count of edges into each target row. -/
def c_fs2_c : List (HloOp τ sig (Elt F)) :=
  [
    StableHlo.nullary main_cst_61 (constant S_ .f32 0x3F800000#32),
    StableHlo.unary main_cst_61 main_v303 (broadcastInDim S320000x1 ![] bcast_S_S320000x1 : (⟨S_, .f32⟩ : BufTy).Contents (Elt F) → (⟨S320000x1, .f32⟩ : BufTy).Contents (Elt F)),
    StableHlo.unary main_arg6 main_v304 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v304 main_v305 rfl shapeCasts_S1x320000_S320000,
    StableHlo.nullary main_cst_62 (constant S_ .f32 0x00000000#32),
    StableHlo.unary main_cst_62 main_v306 (broadcastInDim S50000x1 ![] bcast_S_S50000x1 : (⟨S_, .f32⟩ : BufTy).Contents (Elt F) → (⟨S50000x1, .f32⟩ : BufTy).Contents (Elt F)),
    StableHlo.unary main_v305 main_v307 (broadcastInDim S320000x1 ![0] bcast_S320000_S320000x1_0 : (⟨S320000, .i32⟩ : BufTy).Contents (Elt F) → (⟨S320000x1, .i32⟩ : BufTy).Contents (Elt F)),
    StableHlo.ternary main_v306 main_v307 main_v303 main_v308 ((fun x i u => Host.scatterAdd scatter_S50000x1_S320000x1_S320000x1_1_0_0_1 x i u) : (⟨S50000x1, .f32⟩ : BufTy).Contents (Elt F) → (⟨S320000x1, .i32⟩ : BufTy).Contents (Elt F) → (⟨S320000x1, .f32⟩ : BufTy).Contents (Elt F) → (⟨S50000x1, .f32⟩ : BufTy).Contents (Elt F)) ]

/-- Each of these operations writes one buffer, of index 433 … 440. -/
theorem c_fs2_c_range : (c_fs2_c : List (HloOp τ sig (Elt F))).Forall fun op => ∀ b ∈ op.writes, 433 ≤ b.idx.val ∧ b.idx.val ≤ 440 := by
  unfold c_fs2_c
  exact ⟨by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide⟩

set_option maxRecDepth 8192 in
set_option maxHeartbeats 1600000 in
/-- What these operations leave in %308's buffer, over the contents before them. -/
theorem c_fs2_c_v308 (V : Valuation τ sig (Elt Ideal)) :
    after (c_fs2_c (F := Ideal)) V (main_v308 : DevRef τ sig) = Host.scatterAdd (F := Ideal) (φ := .f32) scatter_S50000x1_S320000x1_S320000x1_1_0_0_1 (broadcastInDim S50000x1 ![] bcast_S_S50000x1 (constant (F := Ideal) S_ .f32 0x00000000#32)) (RefVal.tgt_fs (V (main_arg6 : DevRef τ sig))) (broadcastInDim S320000x1 ![] bcast_S_S320000x1 (constant (F := Ideal) S_ .f32 0x3F800000#32)) := by
  unfold c_fs2_c
  after_results_simp
  rfl

/-- Operations 423 … 428 of @main: the count clipped below at one, broadcast, and the quotient. -/
def c_fs2_d : List (HloOp τ sig (Elt F)) :=
  [
    StableHlo.nullary main_cst_63 (constant S_ .f32 0x3F800000#32),
    StableHlo.TRef.unary (.of main_cst_63) main_call12.v0 id,
    StableHlo.TRef.unary main_call12.v0 main_call12.v1 (broadcastInDim S50000x1 ![] bcast_S_S50000x1),
    StableHlo.TRef.binary main_call12.v1 (.of main_v308) main_call12.v2 maximumf,
    StableHlo.unary main_v309 main_v310 (broadcastInDim S50000x128 ![0, 1] bcast_S50000x1_S50000x128_0_1 : (⟨S50000x1, .f32⟩ : BufTy).Contents (Elt F) → (⟨S50000x128, .f32⟩ : BufTy).Contents (Elt F)),
    StableHlo.binary main_v302 main_v310 main_v311 (Host.divf : (⟨S50000x128, .f32⟩ : BufTy).Contents (Elt F) → (⟨S50000x128, .f32⟩ : BufTy).Contents (Elt F) → (⟨S50000x128, .f32⟩ : BufTy).Contents (Elt F)) ]

/-- Each of these operations writes one buffer, of index 441 … 446. -/
theorem c_fs2_d_range : (c_fs2_d : List (HloOp τ sig (Elt F))).Forall fun op => ∀ b ∈ op.writes, 441 ≤ b.idx.val ∧ b.idx.val ≤ 446 := by
  unfold c_fs2_d
  exact ⟨by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide⟩

set_option maxRecDepth 8192 in
set_option maxHeartbeats 1600000 in
/-- What these operations leave in %311's buffer, over the contents before them. -/
theorem c_fs2_d_v311 (V : Valuation τ sig (Elt Ideal)) :
    after (c_fs2_d (F := Ideal)) V (main_v311 : DevRef τ sig) = Host.divf (F := Ideal) (φ := .f32) (V (main_v302 : DevRef τ sig)) (broadcastInDim S50000x128 ![0, 1] bcast_S50000x1_S50000x128_0_1 (maximumf (F := Ideal) (φ := .f32) (broadcastInDim S50000x1 ![] bcast_S_S50000x1 (id (constant (F := Ideal) S_ .f32 0x3F800000#32))) (V (main_v308 : DevRef τ sig)))) := by
  unfold c_fs2_d
  after_results_simp
  simp only [TRef.ofBuf_toBuf]
  rfl

/-- The stage: its four pieces in order. -/
def c_fs2 : List (HloOp τ sig (Elt F)) :=
  c_fs2_a ++ (c_fs2_b ++ (c_fs2_c ++ (c_fs2_d)))

/-- Each operation of the stage writes one buffer, of index 415 … 446. -/
theorem c_fs2_range : (c_fs2 : List (HloOp τ sig (Elt F))).Forall fun op => ∀ b ∈ op.writes, 415 ≤ b.idx.val ∧ b.idx.val ≤ 446 := by
  unfold c_fs2
  exact List.forall_append.mpr ⟨idx_range_mono (by decide) (by decide) c_fs2_a_range, List.forall_append.mpr ⟨idx_range_mono (by decide) (by decide) c_fs2_b_range, List.forall_append.mpr ⟨idx_range_mono (by decide) (by decide) c_fs2_c_range, idx_range_mono (by decide) (by decide) c_fs2_d_range⟩⟩⟩

set_option maxRecDepth 8192
set_option maxHeartbeats 1600000

theorem c_fs2_suf3 (V : Valuation τ sig (Elt Ideal)) :
    after (c_fs2_d (F := Ideal)) V (main_v311 : DevRef τ sig) = (Host.divf (F := Ideal) (φ := .f32) (V (main_v302 : DevRef τ sig)) (broadcastInDim S50000x128 ![0, 1] bcast_S50000x1_S50000x128_0_1 (maximumf (F := Ideal) (φ := .f32) (broadcastInDim S50000x1 ![] bcast_S_S50000x1 (id (constant (F := Ideal) S_ .f32 0x3F800000#32))) (V (main_v308 : DevRef τ sig))))) :=
  c_fs2_d_v311 V

theorem c_fs2_suf2 (V : Valuation τ sig (Elt Ideal)) :
    after (c_fs2_c (F := Ideal) ++ (c_fs2_d (F := Ideal))) V (main_v311 : DevRef τ sig) = (Host.divf (F := Ideal) (φ := .f32) (V (main_v302 : DevRef τ sig)) (broadcastInDim S50000x128 ![0, 1] bcast_S50000x1_S50000x128_0_1 (maximumf (F := Ideal) (φ := .f32) (broadcastInDim S50000x1 ![] bcast_S_S50000x1 (id (constant (F := Ideal) S_ .f32 0x3F800000#32))) (Host.scatterAdd (F := Ideal) (φ := .f32) scatter_S50000x1_S320000x1_S320000x1_1_0_0_1 (broadcastInDim S50000x1 ![] bcast_S_S50000x1 (constant (F := Ideal) S_ .f32 0x00000000#32)) (RefVal.tgt_fs (V (main_arg6 : DevRef τ sig))) (broadcastInDim S320000x1 ![] bcast_S_S320000x1 (constant (F := Ideal) S_ .f32 0x3F800000#32)))))) := by
  rw [after_append, c_fs2_suf3]
  rw [show after (c_fs2_c (F := Ideal)) V (main_v302 : DevRef τ sig) = V (main_v302 : DevRef τ sig) from after_of_idx_range _ V c_fs2_c_range main_v302 (Or.inl (by decide)),
    c_fs2_c_v308 V]

theorem c_fs2_suf1 (V : Valuation τ sig (Elt Ideal)) :
    after (c_fs2_b (F := Ideal) ++ (c_fs2_c (F := Ideal) ++ (c_fs2_d (F := Ideal)))) V (main_v311 : DevRef τ sig) = (Host.divf (F := Ideal) (φ := .f32) (Host.scatterAdd (F := Ideal) (φ := .f32) scatter_S50000x128_S320000x1_S320000x128_1_0_0_1 (broadcastInDim S50000x128 ![] bcast_S_S50000x128 (constant (F := Ideal) S_ .f32 0x00000000#32)) (RefVal.tgt_fs (V (main_arg6 : DevRef τ sig))) (V (main_v297 : DevRef τ sig))) (broadcastInDim S50000x128 ![0, 1] bcast_S50000x1_S50000x128_0_1 (maximumf (F := Ideal) (φ := .f32) (broadcastInDim S50000x1 ![] bcast_S_S50000x1 (id (constant (F := Ideal) S_ .f32 0x3F800000#32))) (Host.scatterAdd (F := Ideal) (φ := .f32) scatter_S50000x1_S320000x1_S320000x1_1_0_0_1 (broadcastInDim S50000x1 ![] bcast_S_S50000x1 (constant (F := Ideal) S_ .f32 0x00000000#32)) (RefVal.tgt_fs (V (main_arg6 : DevRef τ sig))) (broadcastInDim S320000x1 ![] bcast_S_S320000x1 (constant (F := Ideal) S_ .f32 0x3F800000#32)))))) := by
  rw [after_append, c_fs2_suf2]
  rw [c_fs2_b_v302 V,
    show after (c_fs2_b (F := Ideal)) V (main_arg6 : DevRef τ sig) = V (main_arg6 : DevRef τ sig) from after_of_idx_range _ V c_fs2_b_range main_arg6 (Or.inl (by decide))]

theorem c_fs2_suf0 (V : Valuation τ sig (Elt Ideal)) :
    after (c_fs2_a (F := Ideal) ++ (c_fs2_b (F := Ideal) ++ (c_fs2_c (F := Ideal) ++ (c_fs2_d (F := Ideal))))) V (main_v311 : DevRef τ sig) = (Host.divf (F := Ideal) (φ := .f32) (Host.scatterAdd (F := Ideal) (φ := .f32) scatter_S50000x128_S320000x1_S320000x128_1_0_0_1 (broadcastInDim S50000x128 ![] bcast_S_S50000x128 (constant (F := Ideal) S_ .f32 0x00000000#32)) (RefVal.tgt_fs (V (main_arg6 : DevRef τ sig))) (Host.dotGeneral (F := Ideal) (φ₁ := .f32) (φ₂ := .f32) dot_S320000x128_S128x128_S320000x128_1_0_0_1_n_n none (Host.gather gather_S50000x128_S320000x1_S320000x128_1_0_n_n_0_1_1128 (V (main_v11 : DevRef τ sig)) (RefVal.src_fs (V (main_arg6 : DevRef τ sig)))) (V (main_v239 : DevRef τ sig)))) (broadcastInDim S50000x128 ![0, 1] bcast_S50000x1_S50000x128_0_1 (maximumf (F := Ideal) (φ := .f32) (broadcastInDim S50000x1 ![] bcast_S_S50000x1 (id (constant (F := Ideal) S_ .f32 0x3F800000#32))) (Host.scatterAdd (F := Ideal) (φ := .f32) scatter_S50000x1_S320000x1_S320000x1_1_0_0_1 (broadcastInDim S50000x1 ![] bcast_S_S50000x1 (constant (F := Ideal) S_ .f32 0x00000000#32)) (RefVal.tgt_fs (V (main_arg6 : DevRef τ sig))) (broadcastInDim S320000x1 ![] bcast_S_S320000x1 (constant (F := Ideal) S_ .f32 0x3F800000#32)))))) := by
  rw [after_append, c_fs2_suf1]
  rw [show after (c_fs2_a (F := Ideal)) V (main_arg6 : DevRef τ sig) = V (main_arg6 : DevRef τ sig) from after_of_idx_range _ V c_fs2_a_range main_arg6 (Or.inl (by decide)),
    c_fs2_a_v297 V]

/-- What the stage leaves in %311's buffer, over the contents before it: the relation's mean message. -/
theorem c_fs2_v311 (V : Valuation τ sig (Elt Ideal)) :
    after (c_fs2 (F := Ideal)) V (main_v311 : DevRef τ sig) = RefVal.rel_fs (V (main_v11 : DevRef τ sig)) (V (main_v239 : DevRef τ sig)) (V (main_arg6 : DevRef τ sig)) := by
  unfold c_fs2
  rw [c_fs2_suf0]
  rfl

end Cert.ReferenceIdeal.RefRun

end
-- ==== Proof.RefOpsS_inc2.lean ====
/-
  One stage of the reference's @main — layer 2, fourth relation — in four consecutive pieces: the gather indices, the
  gathered rows and their product with the relation matrix; the scatter indices and the messages summed into the
  target rows; the count of edges into each target row; the count clipped below at one and the quotient.  For each
  piece: the list of its operations, the range of buffer indices they write (buffers are numbered in program order;
  each operation writes one literal buffer, whose index is compared by computation), and what it leaves in the one
  buffer a later piece reads.  The stage is the four lists appended; its value is the pieces' values composed,
  every other buffer a piece reads being outside the range the pieces between write.  The value statements are at
  the ideal floats.
-/
import proofs.«168040_j41652592837487_1_alg».proof.Proof.Gen.ReferenceIdeal
import Idealize.ShloMosaic.Lib.StableHlo.Run
import proofs.«168040_j41652592837487_1_alg».proof.Proof.RefVal
import proofs.«168040_j41652592837487_1_alg».proof.Proof.RefOpsLib
import proofs.«168040_j41652592837487_1_alg».proof.Proof.LibTRef
import proofs.«168040_j41652592837487_1_alg».proof.Proof.LibAfter

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
/-- Operations 429 … 440 of @main: the gather indices, the gathered rows, their product with the relation matrix. -/
def c_inc2_a : List (HloOp τ sig (Elt F)) :=
  [
    StableHlo.unary main_arg7 main_v312 ((extractStridedSlice S1x160000 ![0, 0] · slices_S2x160000_S1x160000_0_0) : (⟨S2x160000, .i32⟩ : BufTy).Contents (Elt F) → (⟨S1x160000, .i32⟩ : BufTy).Contents (Elt F)),
    StableHlo.reshape main_v312 main_v313 rfl shapeCasts_S1x160000_S160000,
    StableHlo.nullary main_c_64 (constantI S_ 32 0#32),
    StableHlo.unary main_c_64 main_v314 (broadcastInDim S160000 ![] bcast_S_S160000 : (⟨S_, .i32⟩ : BufTy).Contents (Elt F) → (⟨S160000, .i32⟩ : BufTy).Contents (Elt F)),
    StableHlo.binary main_v313 main_v314 main_v315 (cmpi .slt : (⟨S160000, .i32⟩ : BufTy).Contents (Elt F) → (⟨S160000, .i32⟩ : BufTy).Contents (Elt F) → (⟨S160000, .i1⟩ : BufTy).Contents (Elt F)),
    StableHlo.nullary main_c_65 (constantI S_ 32 20000#32),
    StableHlo.unary main_c_65 main_v316 (broadcastInDim S160000 ![] bcast_S_S160000 : (⟨S_, .i32⟩ : BufTy).Contents (Elt F) → (⟨S160000, .i32⟩ : BufTy).Contents (Elt F)),
    StableHlo.binary main_v313 main_v316 main_v317 (addi : (⟨S160000, .i32⟩ : BufTy).Contents (Elt F) → (⟨S160000, .i32⟩ : BufTy).Contents (Elt F) → (⟨S160000, .i32⟩ : BufTy).Contents (Elt F)),
    StableHlo.ternary main_v315 main_v317 main_v313 main_v318 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    StableHlo.unary main_v318 main_v319 (broadcastInDim S160000x1 ![0] bcast_S160000_S160000x1_0 : (⟨S160000, .i32⟩ : BufTy).Contents (Elt F) → (⟨S160000x1, .i32⟩ : BufTy).Contents (Elt F)),
    StableHlo.binary main_v15 main_v319 main_v320 ((fun x i => Host.gather gather_S20000x128_S160000x1_S160000x128_1_0_n_n_0_1_1128 x i) : (⟨S20000x128, .f32⟩ : BufTy).Contents (Elt F) → (⟨S160000x1, .i32⟩ : BufTy).Contents (Elt F) → (⟨S160000x128, .f32⟩ : BufTy).Contents (Elt F)),
    StableHlo.binary main_v320 main_v239 main_v321 ((fun l r => Host.dotGeneral dot_S160000x128_S128x128_S160000x128_1_0_0_1_n_n none l r) : (⟨S160000x128, .f32⟩ : BufTy).Contents (Elt F) → (⟨S128x128, .f32⟩ : BufTy).Contents (Elt F) → (⟨S160000x128, .f32⟩ : BufTy).Contents (Elt F)) ]

/-- Each of these operations writes one buffer, of index 447 … 458. -/
theorem c_inc2_a_range : (c_inc2_a : List (HloOp τ sig (Elt F))).Forall fun op => ∀ b ∈ op.writes, 447 ≤ b.idx.val ∧ b.idx.val ≤ 458 := by
  unfold c_inc2_a
  exact ⟨by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide⟩

set_option maxRecDepth 8192 in
set_option maxHeartbeats 1600000 in
/-- What these operations leave in %321's buffer, over the contents before them. -/
theorem c_inc2_a_v321 (V : Valuation τ sig (Elt Ideal)) :
    after (c_inc2_a (F := Ideal)) V (main_v321 : DevRef τ sig) = Host.dotGeneral (F := Ideal) (φ₁ := .f32) (φ₂ := .f32) dot_S160000x128_S128x128_S160000x128_1_0_0_1_n_n none (Host.gather gather_S20000x128_S160000x1_S160000x128_1_0_n_n_0_1_1128 (V (main_v15 : DevRef τ sig)) (RefVal.src_inc (V (main_arg7 : DevRef τ sig)))) (V (main_v239 : DevRef τ sig)) := by
  unfold c_inc2_a
  after_results_simp
  rfl

/-- Operations 441 … 446 of @main: the scatter indices and the messages summed into the target rows. -/
def c_inc2_b : List (HloOp τ sig (Elt F)) :=
  [
    StableHlo.unary main_arg7 main_v322 ((extractStridedSlice S1x160000 ![1, 0] · slices_S2x160000_S1x160000_1_0) : (⟨S2x160000, .i32⟩ : BufTy).Contents (Elt F) → (⟨S1x160000, .i32⟩ : BufTy).Contents (Elt F)),
    StableHlo.reshape main_v322 main_v323 rfl shapeCasts_S1x160000_S160000,
    StableHlo.nullary main_cst_66 (constant S_ .f32 0x00000000#32),
    StableHlo.unary main_cst_66 main_v324 (broadcastInDim S50000x128 ![] bcast_S_S50000x128 : (⟨S_, .f32⟩ : BufTy).Contents (Elt F) → (⟨S50000x128, .f32⟩ : BufTy).Contents (Elt F)),
    StableHlo.unary main_v323 main_v325 (broadcastInDim S160000x1 ![0] bcast_S160000_S160000x1_0 : (⟨S160000, .i32⟩ : BufTy).Contents (Elt F) → (⟨S160000x1, .i32⟩ : BufTy).Contents (Elt F)),
    StableHlo.ternary main_v324 main_v325 main_v321 main_v326 ((fun x i u => Host.scatterAdd scatter_S50000x128_S160000x1_S160000x128_1_0_0_1 x i u) : (⟨S50000x128, .f32⟩ : BufTy).Contents (Elt F) → (⟨S160000x1, .i32⟩ : BufTy).Contents (Elt F) → (⟨S160000x128, .f32⟩ : BufTy).Contents (Elt F) → (⟨S50000x128, .f32⟩ : BufTy).Contents (Elt F)) ]

/-- Each of these operations writes one buffer, of index 459 … 464. -/
theorem c_inc2_b_range : (c_inc2_b : List (HloOp τ sig (Elt F))).Forall fun op => ∀ b ∈ op.writes, 459 ≤ b.idx.val ∧ b.idx.val ≤ 464 := by
  unfold c_inc2_b
  exact ⟨by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide⟩

set_option maxRecDepth 8192 in
set_option maxHeartbeats 1600000 in
/-- What these operations leave in %326's buffer, over the contents before them. -/
theorem c_inc2_b_v326 (V : Valuation τ sig (Elt Ideal)) :
    after (c_inc2_b (F := Ideal)) V (main_v326 : DevRef τ sig) = Host.scatterAdd (F := Ideal) (φ := .f32) scatter_S50000x128_S160000x1_S160000x128_1_0_0_1 (broadcastInDim S50000x128 ![] bcast_S_S50000x128 (constant (F := Ideal) S_ .f32 0x00000000#32)) (RefVal.tgt_inc (V (main_arg7 : DevRef τ sig))) (V (main_v321 : DevRef τ sig)) := by
  unfold c_inc2_b
  after_results_simp
  rfl

/-- Operations 447 … 454 of @main: the count of edges into each target row. -/
def c_inc2_c : List (HloOp τ sig (Elt F)) :=
  [
    StableHlo.nullary main_cst_67 (constant S_ .f32 0x3F800000#32),
    StableHlo.unary main_cst_67 main_v327 (broadcastInDim S160000x1 ![] bcast_S_S160000x1 : (⟨S_, .f32⟩ : BufTy).Contents (Elt F) → (⟨S160000x1, .f32⟩ : BufTy).Contents (Elt F)),
    StableHlo.unary main_arg7 main_v328 ((extractStridedSlice S1x160000 ![1, 0] · slices_S2x160000_S1x160000_1_0) : (⟨S2x160000, .i32⟩ : BufTy).Contents (Elt F) → (⟨S1x160000, .i32⟩ : BufTy).Contents (Elt F)),
    StableHlo.reshape main_v328 main_v329 rfl shapeCasts_S1x160000_S160000,
    StableHlo.nullary main_cst_68 (constant S_ .f32 0x00000000#32),
    StableHlo.unary main_cst_68 main_v330 (broadcastInDim S50000x1 ![] bcast_S_S50000x1 : (⟨S_, .f32⟩ : BufTy).Contents (Elt F) → (⟨S50000x1, .f32⟩ : BufTy).Contents (Elt F)),
    StableHlo.unary main_v329 main_v331 (broadcastInDim S160000x1 ![0] bcast_S160000_S160000x1_0 : (⟨S160000, .i32⟩ : BufTy).Contents (Elt F) → (⟨S160000x1, .i32⟩ : BufTy).Contents (Elt F)),
    StableHlo.ternary main_v330 main_v331 main_v327 main_v332 ((fun x i u => Host.scatterAdd scatter_S50000x1_S160000x1_S160000x1_1_0_0_1 x i u) : (⟨S50000x1, .f32⟩ : BufTy).Contents (Elt F) → (⟨S160000x1, .i32⟩ : BufTy).Contents (Elt F) → (⟨S160000x1, .f32⟩ : BufTy).Contents (Elt F) → (⟨S50000x1, .f32⟩ : BufTy).Contents (Elt F)) ]

/-- Each of these operations writes one buffer, of index 465 … 472. -/
theorem c_inc2_c_range : (c_inc2_c : List (HloOp τ sig (Elt F))).Forall fun op => ∀ b ∈ op.writes, 465 ≤ b.idx.val ∧ b.idx.val ≤ 472 := by
  unfold c_inc2_c
  exact ⟨by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide⟩

set_option maxRecDepth 8192 in
set_option maxHeartbeats 1600000 in
/-- What these operations leave in %332's buffer, over the contents before them. -/
theorem c_inc2_c_v332 (V : Valuation τ sig (Elt Ideal)) :
    after (c_inc2_c (F := Ideal)) V (main_v332 : DevRef τ sig) = Host.scatterAdd (F := Ideal) (φ := .f32) scatter_S50000x1_S160000x1_S160000x1_1_0_0_1 (broadcastInDim S50000x1 ![] bcast_S_S50000x1 (constant (F := Ideal) S_ .f32 0x00000000#32)) (RefVal.tgt_inc (V (main_arg7 : DevRef τ sig))) (broadcastInDim S160000x1 ![] bcast_S_S160000x1 (constant (F := Ideal) S_ .f32 0x3F800000#32)) := by
  unfold c_inc2_c
  after_results_simp
  rfl

/-- Operations 455 … 460 of @main: the count clipped below at one, broadcast, and the quotient. -/
def c_inc2_d : List (HloOp τ sig (Elt F)) :=
  [
    StableHlo.nullary main_cst_69 (constant S_ .f32 0x3F800000#32),
    StableHlo.TRef.unary (.of main_cst_69) main_call13.v0 id,
    StableHlo.TRef.unary main_call13.v0 main_call13.v1 (broadcastInDim S50000x1 ![] bcast_S_S50000x1),
    StableHlo.TRef.binary main_call13.v1 (.of main_v332) main_call13.v2 maximumf,
    StableHlo.unary main_v333 main_v334 (broadcastInDim S50000x128 ![0, 1] bcast_S50000x1_S50000x128_0_1 : (⟨S50000x1, .f32⟩ : BufTy).Contents (Elt F) → (⟨S50000x128, .f32⟩ : BufTy).Contents (Elt F)),
    StableHlo.binary main_v326 main_v334 main_v335 (Host.divf : (⟨S50000x128, .f32⟩ : BufTy).Contents (Elt F) → (⟨S50000x128, .f32⟩ : BufTy).Contents (Elt F) → (⟨S50000x128, .f32⟩ : BufTy).Contents (Elt F)) ]

/-- Each of these operations writes one buffer, of index 473 … 478. -/
theorem c_inc2_d_range : (c_inc2_d : List (HloOp τ sig (Elt F))).Forall fun op => ∀ b ∈ op.writes, 473 ≤ b.idx.val ∧ b.idx.val ≤ 478 := by
  unfold c_inc2_d
  exact ⟨by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide⟩

set_option maxRecDepth 8192 in
set_option maxHeartbeats 1600000 in
/-- What these operations leave in %335's buffer, over the contents before them. -/
theorem c_inc2_d_v335 (V : Valuation τ sig (Elt Ideal)) :
    after (c_inc2_d (F := Ideal)) V (main_v335 : DevRef τ sig) = Host.divf (F := Ideal) (φ := .f32) (V (main_v326 : DevRef τ sig)) (broadcastInDim S50000x128 ![0, 1] bcast_S50000x1_S50000x128_0_1 (maximumf (F := Ideal) (φ := .f32) (broadcastInDim S50000x1 ![] bcast_S_S50000x1 (id (constant (F := Ideal) S_ .f32 0x3F800000#32))) (V (main_v332 : DevRef τ sig)))) := by
  unfold c_inc2_d
  after_results_simp
  simp only [TRef.ofBuf_toBuf]
  rfl

/-- The stage: its four pieces in order. -/
def c_inc2 : List (HloOp τ sig (Elt F)) :=
  c_inc2_a ++ (c_inc2_b ++ (c_inc2_c ++ (c_inc2_d)))

/-- Each operation of the stage writes one buffer, of index 447 … 478. -/
theorem c_inc2_range : (c_inc2 : List (HloOp τ sig (Elt F))).Forall fun op => ∀ b ∈ op.writes, 447 ≤ b.idx.val ∧ b.idx.val ≤ 478 := by
  unfold c_inc2
  exact List.forall_append.mpr ⟨idx_range_mono (by decide) (by decide) c_inc2_a_range, List.forall_append.mpr ⟨idx_range_mono (by decide) (by decide) c_inc2_b_range, List.forall_append.mpr ⟨idx_range_mono (by decide) (by decide) c_inc2_c_range, idx_range_mono (by decide) (by decide) c_inc2_d_range⟩⟩⟩

set_option maxRecDepth 8192
set_option maxHeartbeats 1600000

theorem c_inc2_suf3 (V : Valuation τ sig (Elt Ideal)) :
    after (c_inc2_d (F := Ideal)) V (main_v335 : DevRef τ sig) = (Host.divf (F := Ideal) (φ := .f32) (V (main_v326 : DevRef τ sig)) (broadcastInDim S50000x128 ![0, 1] bcast_S50000x1_S50000x128_0_1 (maximumf (F := Ideal) (φ := .f32) (broadcastInDim S50000x1 ![] bcast_S_S50000x1 (id (constant (F := Ideal) S_ .f32 0x3F800000#32))) (V (main_v332 : DevRef τ sig))))) :=
  c_inc2_d_v335 V

theorem c_inc2_suf2 (V : Valuation τ sig (Elt Ideal)) :
    after (c_inc2_c (F := Ideal) ++ (c_inc2_d (F := Ideal))) V (main_v335 : DevRef τ sig) = (Host.divf (F := Ideal) (φ := .f32) (V (main_v326 : DevRef τ sig)) (broadcastInDim S50000x128 ![0, 1] bcast_S50000x1_S50000x128_0_1 (maximumf (F := Ideal) (φ := .f32) (broadcastInDim S50000x1 ![] bcast_S_S50000x1 (id (constant (F := Ideal) S_ .f32 0x3F800000#32))) (Host.scatterAdd (F := Ideal) (φ := .f32) scatter_S50000x1_S160000x1_S160000x1_1_0_0_1 (broadcastInDim S50000x1 ![] bcast_S_S50000x1 (constant (F := Ideal) S_ .f32 0x00000000#32)) (RefVal.tgt_inc (V (main_arg7 : DevRef τ sig))) (broadcastInDim S160000x1 ![] bcast_S_S160000x1 (constant (F := Ideal) S_ .f32 0x3F800000#32)))))) := by
  rw [after_append, c_inc2_suf3]
  rw [show after (c_inc2_c (F := Ideal)) V (main_v326 : DevRef τ sig) = V (main_v326 : DevRef τ sig) from after_of_idx_range _ V c_inc2_c_range main_v326 (Or.inl (by decide)),
    c_inc2_c_v332 V]

theorem c_inc2_suf1 (V : Valuation τ sig (Elt Ideal)) :
    after (c_inc2_b (F := Ideal) ++ (c_inc2_c (F := Ideal) ++ (c_inc2_d (F := Ideal)))) V (main_v335 : DevRef τ sig) = (Host.divf (F := Ideal) (φ := .f32) (Host.scatterAdd (F := Ideal) (φ := .f32) scatter_S50000x128_S160000x1_S160000x128_1_0_0_1 (broadcastInDim S50000x128 ![] bcast_S_S50000x128 (constant (F := Ideal) S_ .f32 0x00000000#32)) (RefVal.tgt_inc (V (main_arg7 : DevRef τ sig))) (V (main_v321 : DevRef τ sig))) (broadcastInDim S50000x128 ![0, 1] bcast_S50000x1_S50000x128_0_1 (maximumf (F := Ideal) (φ := .f32) (broadcastInDim S50000x1 ![] bcast_S_S50000x1 (id (constant (F := Ideal) S_ .f32 0x3F800000#32))) (Host.scatterAdd (F := Ideal) (φ := .f32) scatter_S50000x1_S160000x1_S160000x1_1_0_0_1 (broadcastInDim S50000x1 ![] bcast_S_S50000x1 (constant (F := Ideal) S_ .f32 0x00000000#32)) (RefVal.tgt_inc (V (main_arg7 : DevRef τ sig))) (broadcastInDim S160000x1 ![] bcast_S_S160000x1 (constant (F := Ideal) S_ .f32 0x3F800000#32)))))) := by
  rw [after_append, c_inc2_suf2]
  rw [c_inc2_b_v326 V,
    show after (c_inc2_b (F := Ideal)) V (main_arg7 : DevRef τ sig) = V (main_arg7 : DevRef τ sig) from after_of_idx_range _ V c_inc2_b_range main_arg7 (Or.inl (by decide))]

theorem c_inc2_suf0 (V : Valuation τ sig (Elt Ideal)) :
    after (c_inc2_a (F := Ideal) ++ (c_inc2_b (F := Ideal) ++ (c_inc2_c (F := Ideal) ++ (c_inc2_d (F := Ideal))))) V (main_v335 : DevRef τ sig) = (Host.divf (F := Ideal) (φ := .f32) (Host.scatterAdd (F := Ideal) (φ := .f32) scatter_S50000x128_S160000x1_S160000x128_1_0_0_1 (broadcastInDim S50000x128 ![] bcast_S_S50000x128 (constant (F := Ideal) S_ .f32 0x00000000#32)) (RefVal.tgt_inc (V (main_arg7 : DevRef τ sig))) (Host.dotGeneral (F := Ideal) (φ₁ := .f32) (φ₂ := .f32) dot_S160000x128_S128x128_S160000x128_1_0_0_1_n_n none (Host.gather gather_S20000x128_S160000x1_S160000x128_1_0_n_n_0_1_1128 (V (main_v15 : DevRef τ sig)) (RefVal.src_inc (V (main_arg7 : DevRef τ sig)))) (V (main_v239 : DevRef τ sig)))) (broadcastInDim S50000x128 ![0, 1] bcast_S50000x1_S50000x128_0_1 (maximumf (F := Ideal) (φ := .f32) (broadcastInDim S50000x1 ![] bcast_S_S50000x1 (id (constant (F := Ideal) S_ .f32 0x3F800000#32))) (Host.scatterAdd (F := Ideal) (φ := .f32) scatter_S50000x1_S160000x1_S160000x1_1_0_0_1 (broadcastInDim S50000x1 ![] bcast_S_S50000x1 (constant (F := Ideal) S_ .f32 0x00000000#32)) (RefVal.tgt_inc (V (main_arg7 : DevRef τ sig))) (broadcastInDim S160000x1 ![] bcast_S_S160000x1 (constant (F := Ideal) S_ .f32 0x3F800000#32)))))) := by
  rw [after_append, c_inc2_suf1]
  rw [show after (c_inc2_a (F := Ideal)) V (main_arg7 : DevRef τ sig) = V (main_arg7 : DevRef τ sig) from after_of_idx_range _ V c_inc2_a_range main_arg7 (Or.inl (by decide)),
    c_inc2_a_v321 V]

/-- What the stage leaves in %335's buffer, over the contents before it: the relation's mean message. -/
theorem c_inc2_v335 (V : Valuation τ sig (Elt Ideal)) :
    after (c_inc2 (F := Ideal)) V (main_v335 : DevRef τ sig) = RefVal.rel_inc (V (main_v15 : DevRef τ sig)) (V (main_v239 : DevRef τ sig)) (V (main_arg7 : DevRef τ sig)) := by
  unfold c_inc2
  rw [c_inc2_suf0]
  rfl

end Cert.ReferenceIdeal.RefRun

end
-- ==== Proof.RefOpsS_comb2.lean ====
/-
  One stage of the reference's @main — layer 2's self term, the five-term sum and the unit —: the list of its operations; the range of buffer
  indices they write (buffers are numbered in program order, so a stage writes a contiguous range; each operation
  writes one literal buffer, whose index is compared by computation); and what the stage leaves in each buffer a
  later stage reads, as the value-level stage function of the contents before it.  The value statements are at the
  ideal floats.
-/
import proofs.«168040_j41652592837487_1_alg».proof.Proof.Gen.ReferenceIdeal
import Idealize.ShloMosaic.Lib.StableHlo.Run
import proofs.«168040_j41652592837487_1_alg».proof.Proof.RefVal
import proofs.«168040_j41652592837487_1_alg».proof.Proof.RefOpsLib
import proofs.«168040_j41652592837487_1_alg».proof.Proof.LibTRef

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
/-- Operations 461 … 487 of @main: layer 2's self term, the five-term sum and the unit. -/
def c_comb2 : List (HloOp τ sig (Elt F)) :=
  [
    StableHlo.unary main_arg16 main_v336 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v336 main_v337 rfl shapeCasts_S1x128x128_S128x128,
    StableHlo.binary main_v237 main_v337 main_v338 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg17 main_v339 ((extractStridedSlice S1x128 ![2, 0] · slices_S3x128_S1x128_2_0) : (⟨S3x128, .f32⟩ : BufTy).Contents (Elt F) → (⟨S1x128, .f32⟩ : BufTy).Contents (Elt F)),
    StableHlo.reshape main_v339 main_v340 rfl shapeCasts_S1x128_S128,
    StableHlo.unary main_v340 main_v341 (broadcastInDim S1x128 ![1] bcast_S128_S1x128_1 : (⟨S128, .f32⟩ : BufTy).Contents (Elt F) → (⟨S1x128, .f32⟩ : BufTy).Contents (Elt F)),
    StableHlo.unary main_v341 main_v342 (broadcastInDim S50000x128 ![0, 1] bcast_S1x128_S50000x128_0_1 : (⟨S1x128, .f32⟩ : BufTy).Contents (Elt F) → (⟨S50000x128, .f32⟩ : BufTy).Contents (Elt F)),
    StableHlo.binary main_v338 main_v342 main_v343 (addf : (⟨S50000x128, .f32⟩ : BufTy).Contents (Elt F) → (⟨S50000x128, .f32⟩ : BufTy).Contents (Elt F) → (⟨S50000x128, .f32⟩ : BufTy).Contents (Elt F)),
    StableHlo.binary main_v343 main_v263 main_v344 (addf : (⟨S50000x128, .f32⟩ : BufTy).Contents (Elt F) → (⟨S50000x128, .f32⟩ : BufTy).Contents (Elt F) → (⟨S50000x128, .f32⟩ : BufTy).Contents (Elt F)),
    StableHlo.binary main_v344 main_v287 main_v345 (addf : (⟨S50000x128, .f32⟩ : BufTy).Contents (Elt F) → (⟨S50000x128, .f32⟩ : BufTy).Contents (Elt F) → (⟨S50000x128, .f32⟩ : BufTy).Contents (Elt F)),
    StableHlo.binary main_v345 main_v311 main_v346 (addf : (⟨S50000x128, .f32⟩ : BufTy).Contents (Elt F) → (⟨S50000x128, .f32⟩ : BufTy).Contents (Elt F) → (⟨S50000x128, .f32⟩ : BufTy).Contents (Elt F)),
    StableHlo.binary main_v346 main_v335 main_v347 (addf : (⟨S50000x128, .f32⟩ : BufTy).Contents (Elt F) → (⟨S50000x128, .f32⟩ : BufTy).Contents (Elt F) → (⟨S50000x128, .f32⟩ : BufTy).Contents (Elt F)),
    StableHlo.TRef.nullary main_call14.cst (constant S_ .f32 0x00000000#32),
    StableHlo.TRef.unary main_call14.cst main_call14.v0 (broadcastInDim S50000x128 ![] bcast_S_S50000x128),
    StableHlo.TRef.binary (.of main_v347) main_call14.v0 main_call14.v1 (cmpf .ogt),
    StableHlo.TRef.nullary main_call14.cst_0 (constant S_ .f32 0x00000000#32),
    StableHlo.TRef.unary main_call14.cst_0 main_call14.v2 (broadcastInDim S50000x128 ![] bcast_S_S50000x128),
    StableHlo.TRef.binary (.of main_v347) main_call14.v2 main_call14.v3 (cmpf .ogt),
    StableHlo.TRef.nullary main_call14.cst_1 (constant S_ .f32 0x00000000#32),
    StableHlo.TRef.unary main_call14.cst_1 main_call14.call0.v0 id,
    StableHlo.TRef.unary main_call14.call0.v0 main_call14.call0.v1 (broadcastInDim S50000x128 ![] bcast_S_S50000x128),
    StableHlo.TRef.ternary main_call14.v3 main_call14.call0.v1 (.of main_v347) main_call14.call0.v2 select,
    StableHlo.TRef.unary main_call14.call0.v2 main_call14.v5 Host.expm1,
    StableHlo.TRef.nullary main_call14.cst_2 (constant S_ .f32 0x3F800000#32),
    StableHlo.TRef.unary main_call14.cst_2 main_call14.v6 (broadcastInDim S50000x128 ![] bcast_S_S50000x128),
    StableHlo.TRef.binary main_call14.v6 main_call14.v5 main_call14.v7 mulf,
    StableHlo.TRef.ternary main_call14.v1 (.of main_v347) main_call14.v7 main_call14.call1.v0 select ]

/-- Each of these operations writes one buffer, of index 479 … 505. -/
theorem c_comb2_range : (c_comb2 : List (HloOp τ sig (Elt F))).Forall fun op => ∀ b ∈ op.writes, 479 ≤ b.idx.val ∧ b.idx.val ≤ 505 := by
  unfold c_comb2
  exact ⟨by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide, by intro b hb; rw [Finset.mem_singleton.mp hb]; decide⟩

set_option maxRecDepth 8192 in
set_option maxHeartbeats 1600000 in
/-- What these operations leave in %348's buffer, over the contents before them: each operation's result
    at its own buffer is its function of its operands' contents, any other buffer is unchanged; the composed term is
    the stage function by unfolding its definition. -/
theorem c_comb2_v348 (V : Valuation τ sig (Elt Ideal)) :
    after (c_comb2 (F := Ideal)) V (main_v348 : DevRef τ sig) = RefVal.eluR (addf (F := Ideal) (addf (F := Ideal) (addf (F := Ideal) (addf (F := Ideal) (addf (F := Ideal) (Host.dotGeneral (F := Ideal) (φ₁ := .f32) (φ₂ := .f32) dot_S50000x128_S128x128_S50000x128_1_0_0_1_n_n none (V (main_v237 : DevRef τ sig)) (RefVal.sliceW2 (V (main_arg16 : DevRef τ sig)))) (broadcastInDim S50000x128 ![0, 1] bcast_S1x128_S50000x128_0_1 (broadcastInDim S1x128 ![1] bcast_S128_S1x128_1 (RefVal.sliceB2 (V (main_arg17 : DevRef τ sig)))))) (V (main_v263 : DevRef τ sig))) (V (main_v287 : DevRef τ sig))) (V (main_v311 : DevRef τ sig))) (V (main_v335 : DevRef τ sig))) := by
  unfold c_comb2
  after_results_simp
  simp only [TRef.ofBuf_toBuf]
  rfl

end Cert.ReferenceIdeal.RefRun

end
-- ==== Proof.RefOpsC2.lean ====
/-
  The stages of layer 2 of the reference's @main, gathered: each stage's list of operations, the range of
  buffer indices it writes, and its value lemma are in its own module.
-/
import proofs.«168040_j41652592837487_1_alg».proof.Proof.RefOpsS_wr2
import proofs.«168040_j41652592837487_1_alg».proof.Proof.RefOpsS_sp2
import proofs.«168040_j41652592837487_1_alg».proof.Proof.RefOpsS_fl2
import proofs.«168040_j41652592837487_1_alg».proof.Proof.RefOpsS_fs2
import proofs.«168040_j41652592837487_1_alg».proof.Proof.RefOpsS_inc2
import proofs.«168040_j41652592837487_1_alg».proof.Proof.RefOpsS_comb2
-- ==== Proof.RefOpsArgs.lean ====
/-
  @main's list of operations is also its nineteen stages' lists appended; every operation writes a buffer of
  index 19 … 505, so the nineteen argument buffers (indices 0 … 18) keep their launch contents.
-/
import proofs.«168040_j41652592837487_1_alg».proof.Proof.RefOpsMain
import proofs.«168040_j41652592837487_1_alg».proof.Proof.RefOpsC0
import proofs.«168040_j41652592837487_1_alg».proof.Proof.RefOpsC1
import proofs.«168040_j41652592837487_1_alg».proof.Proof.RefOpsC2
import proofs.«168040_j41652592837487_1_alg».proof.Proof.RefOpsLib

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
/-- The parts' lists appended and the stages' lists appended are the same list. -/
theorem ops_eq_chunks : (ops : List (HloOp τ sig (Elt F))) = c_proj ++ (c_wr0 ++ (c_sp0 ++ (c_fl0 ++ (c_fs0 ++ (c_inc0 ++ (c_comb0 ++ (c_wr1 ++ (c_sp1 ++ (c_fl1 ++ (c_fs1 ++ (c_inc1 ++ (c_comb1 ++ (c_wr2 ++ (c_sp2 ++ (c_fl2 ++ (c_fs2 ++ (c_inc2 ++ (c_comb2)))))))))))))))))) := rfl

/-- Every operation of @main writes a buffer of index 19 … 505. -/
theorem ops_range : (ops : List (HloOp τ sig (Elt F))).Forall fun op => ∀ b ∈ op.writes, 19 ≤ b.idx.val ∧ b.idx.val ≤ 505 := by
  rw [ops_eq_chunks]
  exact List.forall_append.mpr ⟨idx_range_mono (by decide) (by decide) c_proj_range, List.forall_append.mpr ⟨idx_range_mono (by decide) (by decide) c_wr0_range, List.forall_append.mpr ⟨idx_range_mono (by decide) (by decide) c_sp0_range, List.forall_append.mpr ⟨idx_range_mono (by decide) (by decide) c_fl0_range, List.forall_append.mpr ⟨idx_range_mono (by decide) (by decide) c_fs0_range, List.forall_append.mpr ⟨idx_range_mono (by decide) (by decide) c_inc0_range, List.forall_append.mpr ⟨idx_range_mono (by decide) (by decide) c_comb0_range, List.forall_append.mpr ⟨idx_range_mono (by decide) (by decide) c_wr1_range, List.forall_append.mpr ⟨idx_range_mono (by decide) (by decide) c_sp1_range, List.forall_append.mpr ⟨idx_range_mono (by decide) (by decide) c_fl1_range, List.forall_append.mpr ⟨idx_range_mono (by decide) (by decide) c_fs1_range, List.forall_append.mpr ⟨idx_range_mono (by decide) (by decide) c_inc1_range, List.forall_append.mpr ⟨idx_range_mono (by decide) (by decide) c_comb1_range, List.forall_append.mpr ⟨idx_range_mono (by decide) (by decide) c_wr2_range, List.forall_append.mpr ⟨idx_range_mono (by decide) (by decide) c_sp2_range, List.forall_append.mpr ⟨idx_range_mono (by decide) (by decide) c_fl2_range, List.forall_append.mpr ⟨idx_range_mono (by decide) (by decide) c_fs2_range, List.forall_append.mpr ⟨idx_range_mono (by decide) (by decide) c_inc2_range, idx_range_mono (by decide) (by decide) c_comb2_range⟩⟩⟩⟩⟩⟩⟩⟩⟩⟩⟩⟩⟩⟩⟩⟩⟩⟩

/-- Argument 0 is not written. -/
theorem arg0_eq (V : Valuation τ sig (Elt F)) : after ops V (main_arg0 : DevRef τ sig) = V (main_arg0 : DevRef τ sig) :=
  after_of_idx_range ops V ops_range main_arg0 (Or.inl (by decide))

/-- Argument 1 is not written. -/
theorem arg1_eq (V : Valuation τ sig (Elt F)) : after ops V (main_arg1 : DevRef τ sig) = V (main_arg1 : DevRef τ sig) :=
  after_of_idx_range ops V ops_range main_arg1 (Or.inl (by decide))

/-- Argument 2 is not written. -/
theorem arg2_eq (V : Valuation τ sig (Elt F)) : after ops V (main_arg2 : DevRef τ sig) = V (main_arg2 : DevRef τ sig) :=
  after_of_idx_range ops V ops_range main_arg2 (Or.inl (by decide))

/-- Argument 3 is not written. -/
theorem arg3_eq (V : Valuation τ sig (Elt F)) : after ops V (main_arg3 : DevRef τ sig) = V (main_arg3 : DevRef τ sig) :=
  after_of_idx_range ops V ops_range main_arg3 (Or.inl (by decide))

/-- Argument 4 is not written. -/
theorem arg4_eq (V : Valuation τ sig (Elt F)) : after ops V (main_arg4 : DevRef τ sig) = V (main_arg4 : DevRef τ sig) :=
  after_of_idx_range ops V ops_range main_arg4 (Or.inl (by decide))

/-- Argument 5 is not written. -/
theorem arg5_eq (V : Valuation τ sig (Elt F)) : after ops V (main_arg5 : DevRef τ sig) = V (main_arg5 : DevRef τ sig) :=
  after_of_idx_range ops V ops_range main_arg5 (Or.inl (by decide))

/-- Argument 6 is not written. -/
theorem arg6_eq (V : Valuation τ sig (Elt F)) : after ops V (main_arg6 : DevRef τ sig) = V (main_arg6 : DevRef τ sig) :=
  after_of_idx_range ops V ops_range main_arg6 (Or.inl (by decide))

/-- Argument 7 is not written. -/
theorem arg7_eq (V : Valuation τ sig (Elt F)) : after ops V (main_arg7 : DevRef τ sig) = V (main_arg7 : DevRef τ sig) :=
  after_of_idx_range ops V ops_range main_arg7 (Or.inl (by decide))

/-- Argument 8 is not written. -/
theorem arg8_eq (V : Valuation τ sig (Elt F)) : after ops V (main_arg8 : DevRef τ sig) = V (main_arg8 : DevRef τ sig) :=
  after_of_idx_range ops V ops_range main_arg8 (Or.inl (by decide))

/-- Argument 9 is not written. -/
theorem arg9_eq (V : Valuation τ sig (Elt F)) : after ops V (main_arg9 : DevRef τ sig) = V (main_arg9 : DevRef τ sig) :=
  after_of_idx_range ops V ops_range main_arg9 (Or.inl (by decide))

/-- Argument 10 is not written. -/
theorem arg10_eq (V : Valuation τ sig (Elt F)) : after ops V (main_arg10 : DevRef τ sig) = V (main_arg10 : DevRef τ sig) :=
  after_of_idx_range ops V ops_range main_arg10 (Or.inl (by decide))

/-- Argument 11 is not written. -/
theorem arg11_eq (V : Valuation τ sig (Elt F)) : after ops V (main_arg11 : DevRef τ sig) = V (main_arg11 : DevRef τ sig) :=
  after_of_idx_range ops V ops_range main_arg11 (Or.inl (by decide))

/-- Argument 12 is not written. -/
theorem arg12_eq (V : Valuation τ sig (Elt F)) : after ops V (main_arg12 : DevRef τ sig) = V (main_arg12 : DevRef τ sig) :=
  after_of_idx_range ops V ops_range main_arg12 (Or.inl (by decide))

/-- Argument 13 is not written. -/
theorem arg13_eq (V : Valuation τ sig (Elt F)) : after ops V (main_arg13 : DevRef τ sig) = V (main_arg13 : DevRef τ sig) :=
  after_of_idx_range ops V ops_range main_arg13 (Or.inl (by decide))

/-- Argument 14 is not written. -/
theorem arg14_eq (V : Valuation τ sig (Elt F)) : after ops V (main_arg14 : DevRef τ sig) = V (main_arg14 : DevRef τ sig) :=
  after_of_idx_range ops V ops_range main_arg14 (Or.inl (by decide))

/-- Argument 15 is not written. -/
theorem arg15_eq (V : Valuation τ sig (Elt F)) : after ops V (main_arg15 : DevRef τ sig) = V (main_arg15 : DevRef τ sig) :=
  after_of_idx_range ops V ops_range main_arg15 (Or.inl (by decide))

/-- Argument 16 is not written. -/
theorem arg16_eq (V : Valuation τ sig (Elt F)) : after ops V (main_arg16 : DevRef τ sig) = V (main_arg16 : DevRef τ sig) :=
  after_of_idx_range ops V ops_range main_arg16 (Or.inl (by decide))

/-- Argument 17 is not written. -/
theorem arg17_eq (V : Valuation τ sig (Elt F)) : after ops V (main_arg17 : DevRef τ sig) = V (main_arg17 : DevRef τ sig) :=
  after_of_idx_range ops V ops_range main_arg17 (Or.inl (by decide))

/-- Argument 18 is not written. -/
theorem arg18_eq (V : Valuation τ sig (Elt F)) : after ops V (main_arg18 : DevRef τ sig) = V (main_arg18 : DevRef τ sig) :=
  after_of_idx_range ops V ops_range main_arg18 (Or.inl (by decide))

end Cert.ReferenceIdeal.RefRun

end
-- ==== Proof.RefOpsOut.lean ====
/-
  The reference's result at the ideal floats is the layered value term of its arguments.  Backwards over the
  nineteen stages: the result over the contents before stage k is the result over the contents before stage k+1
  with each buffer stage k writes replaced by that stage's value and every other buffer unchanged (its index is
  outside the range stage k writes).  Before stage 1 the contents are the launch contents, and the term is the
  three layers over the four projections.
-/
import proofs.«168040_j41652592837487_1_alg».proof.Proof.RefOpsArgs
import proofs.«168040_j41652592837487_1_alg».proof.Proof.LibAfter

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192
set_option maxHeartbeats 1600000

/-- The result over the contents before stage 19 of 19. -/
theorem suf18 (V : Valuation τ sig (Elt Ideal)) :
    after (c_comb2 (F := Ideal)) V (main_v348 : DevRef τ sig) = (RefVal.eluR (addf (F := Ideal) (addf (F := Ideal) (addf (F := Ideal) (addf (F := Ideal) (addf (F := Ideal) (Host.dotGeneral (F := Ideal) (φ₁ := .f32) (φ₂ := .f32) dot_S50000x128_S128x128_S50000x128_1_0_0_1_n_n none (V (main_v237 : DevRef τ sig)) (RefVal.sliceW2 (V (main_arg16 : DevRef τ sig)))) (broadcastInDim S50000x128 ![0, 1] bcast_S1x128_S50000x128_0_1 (broadcastInDim S1x128 ![1] bcast_S128_S1x128_1 (RefVal.sliceB2 (V (main_arg17 : DevRef τ sig)))))) (V (main_v263 : DevRef τ sig))) (V (main_v287 : DevRef τ sig))) (V (main_v311 : DevRef τ sig))) (V (main_v335 : DevRef τ sig)))) :=
  c_comb2_v348 V

/-- The result over the contents before stage 18 of 19. -/
theorem suf17 (V : Valuation τ sig (Elt Ideal)) :
    after (c_inc2 (F := Ideal) ++ (c_comb2 (F := Ideal))) V (main_v348 : DevRef τ sig) = (RefVal.eluR (addf (F := Ideal) (addf (F := Ideal) (addf (F := Ideal) (addf (F := Ideal) (addf (F := Ideal) (Host.dotGeneral (F := Ideal) (φ₁ := .f32) (φ₂ := .f32) dot_S50000x128_S128x128_S50000x128_1_0_0_1_n_n none (V (main_v237 : DevRef τ sig)) (RefVal.sliceW2 (V (main_arg16 : DevRef τ sig)))) (broadcastInDim S50000x128 ![0, 1] bcast_S1x128_S50000x128_0_1 (broadcastInDim S1x128 ![1] bcast_S128_S1x128_1 (RefVal.sliceB2 (V (main_arg17 : DevRef τ sig)))))) (V (main_v263 : DevRef τ sig))) (V (main_v287 : DevRef τ sig))) (V (main_v311 : DevRef τ sig))) (RefVal.rel_inc (V (main_v15 : DevRef τ sig)) (V (main_v239 : DevRef τ sig)) (V (main_arg7 : DevRef τ sig))))) := by
  rw [after_append, suf18]
  rw [show after (c_inc2 (F := Ideal)) V (main_v237 : DevRef τ sig) = V (main_v237 : DevRef τ sig) from after_of_idx_range _ V c_inc2_range main_v237 (Or.inl (by decide)),
    show after (c_inc2 (F := Ideal)) V (main_arg16 : DevRef τ sig) = V (main_arg16 : DevRef τ sig) from after_of_idx_range _ V c_inc2_range main_arg16 (Or.inl (by decide)),
    show after (c_inc2 (F := Ideal)) V (main_arg17 : DevRef τ sig) = V (main_arg17 : DevRef τ sig) from after_of_idx_range _ V c_inc2_range main_arg17 (Or.inl (by decide)),
    show after (c_inc2 (F := Ideal)) V (main_v263 : DevRef τ sig) = V (main_v263 : DevRef τ sig) from after_of_idx_range _ V c_inc2_range main_v263 (Or.inl (by decide)),
    show after (c_inc2 (F := Ideal)) V (main_v287 : DevRef τ sig) = V (main_v287 : DevRef τ sig) from after_of_idx_range _ V c_inc2_range main_v287 (Or.inl (by decide)),
    show after (c_inc2 (F := Ideal)) V (main_v311 : DevRef τ sig) = V (main_v311 : DevRef τ sig) from after_of_idx_range _ V c_inc2_range main_v311 (Or.inl (by decide)),
    c_inc2_v335 V]

/-- The result over the contents before stage 17 of 19. -/
theorem suf16 (V : Valuation τ sig (Elt Ideal)) :
    after (c_fs2 (F := Ideal) ++ (c_inc2 (F := Ideal) ++ (c_comb2 (F := Ideal)))) V (main_v348 : DevRef τ sig) = (RefVal.eluR (addf (F := Ideal) (addf (F := Ideal) (addf (F := Ideal) (addf (F := Ideal) (addf (F := Ideal) (Host.dotGeneral (F := Ideal) (φ₁ := .f32) (φ₂ := .f32) dot_S50000x128_S128x128_S50000x128_1_0_0_1_n_n none (V (main_v237 : DevRef τ sig)) (RefVal.sliceW2 (V (main_arg16 : DevRef τ sig)))) (broadcastInDim S50000x128 ![0, 1] bcast_S1x128_S50000x128_0_1 (broadcastInDim S1x128 ![1] bcast_S128_S1x128_1 (RefVal.sliceB2 (V (main_arg17 : DevRef τ sig)))))) (V (main_v263 : DevRef τ sig))) (V (main_v287 : DevRef τ sig))) (RefVal.rel_fs (V (main_v11 : DevRef τ sig)) (V (main_v239 : DevRef τ sig)) (V (main_arg6 : DevRef τ sig)))) (RefVal.rel_inc (V (main_v15 : DevRef τ sig)) (V (main_v239 : DevRef τ sig)) (V (main_arg7 : DevRef τ sig))))) := by
  rw [after_append, suf17]
  rw [show after (c_fs2 (F := Ideal)) V (main_v237 : DevRef τ sig) = V (main_v237 : DevRef τ sig) from after_of_idx_range _ V c_fs2_range main_v237 (Or.inl (by decide)),
    show after (c_fs2 (F := Ideal)) V (main_arg16 : DevRef τ sig) = V (main_arg16 : DevRef τ sig) from after_of_idx_range _ V c_fs2_range main_arg16 (Or.inl (by decide)),
    show after (c_fs2 (F := Ideal)) V (main_arg17 : DevRef τ sig) = V (main_arg17 : DevRef τ sig) from after_of_idx_range _ V c_fs2_range main_arg17 (Or.inl (by decide)),
    show after (c_fs2 (F := Ideal)) V (main_v263 : DevRef τ sig) = V (main_v263 : DevRef τ sig) from after_of_idx_range _ V c_fs2_range main_v263 (Or.inl (by decide)),
    show after (c_fs2 (F := Ideal)) V (main_v287 : DevRef τ sig) = V (main_v287 : DevRef τ sig) from after_of_idx_range _ V c_fs2_range main_v287 (Or.inl (by decide)),
    c_fs2_v311 V,
    show after (c_fs2 (F := Ideal)) V (main_v15 : DevRef τ sig) = V (main_v15 : DevRef τ sig) from after_of_idx_range _ V c_fs2_range main_v15 (Or.inl (by decide)),
    show after (c_fs2 (F := Ideal)) V (main_v239 : DevRef τ sig) = V (main_v239 : DevRef τ sig) from after_of_idx_range _ V c_fs2_range main_v239 (Or.inl (by decide)),
    show after (c_fs2 (F := Ideal)) V (main_arg7 : DevRef τ sig) = V (main_arg7 : DevRef τ sig) from after_of_idx_range _ V c_fs2_range main_arg7 (Or.inl (by decide))]

/-- The result over the contents before stage 16 of 19. -/
theorem suf15 (V : Valuation τ sig (Elt Ideal)) :
    after (c_fl2 (F := Ideal) ++ (c_fs2 (F := Ideal) ++ (c_inc2 (F := Ideal) ++ (c_comb2 (F := Ideal))))) V (main_v348 : DevRef τ sig) = (RefVal.eluR (addf (F := Ideal) (addf (F := Ideal) (addf (F := Ideal) (addf (F := Ideal) (addf (F := Ideal) (Host.dotGeneral (F := Ideal) (φ₁ := .f32) (φ₂ := .f32) dot_S50000x128_S128x128_S50000x128_1_0_0_1_n_n none (V (main_v237 : DevRef τ sig)) (RefVal.sliceW2 (V (main_arg16 : DevRef τ sig)))) (broadcastInDim S50000x128 ![0, 1] bcast_S1x128_S50000x128_0_1 (broadcastInDim S1x128 ![1] bcast_S128_S1x128_1 (RefVal.sliceB2 (V (main_arg17 : DevRef τ sig)))))) (V (main_v263 : DevRef τ sig))) (RefVal.rel_fl (V (main_v7 : DevRef τ sig)) (V (main_v239 : DevRef τ sig)) (V (main_arg5 : DevRef τ sig)))) (RefVal.rel_fs (V (main_v11 : DevRef τ sig)) (V (main_v239 : DevRef τ sig)) (V (main_arg6 : DevRef τ sig)))) (RefVal.rel_inc (V (main_v15 : DevRef τ sig)) (V (main_v239 : DevRef τ sig)) (V (main_arg7 : DevRef τ sig))))) := by
  rw [after_append, suf16]
  rw [show after (c_fl2 (F := Ideal)) V (main_v237 : DevRef τ sig) = V (main_v237 : DevRef τ sig) from after_of_idx_range _ V c_fl2_range main_v237 (Or.inl (by decide)),
    show after (c_fl2 (F := Ideal)) V (main_arg16 : DevRef τ sig) = V (main_arg16 : DevRef τ sig) from after_of_idx_range _ V c_fl2_range main_arg16 (Or.inl (by decide)),
    show after (c_fl2 (F := Ideal)) V (main_arg17 : DevRef τ sig) = V (main_arg17 : DevRef τ sig) from after_of_idx_range _ V c_fl2_range main_arg17 (Or.inl (by decide)),
    show after (c_fl2 (F := Ideal)) V (main_v263 : DevRef τ sig) = V (main_v263 : DevRef τ sig) from after_of_idx_range _ V c_fl2_range main_v263 (Or.inl (by decide)),
    c_fl2_v287 V,
    show after (c_fl2 (F := Ideal)) V (main_v11 : DevRef τ sig) = V (main_v11 : DevRef τ sig) from after_of_idx_range _ V c_fl2_range main_v11 (Or.inl (by decide)),
    show after (c_fl2 (F := Ideal)) V (main_v239 : DevRef τ sig) = V (main_v239 : DevRef τ sig) from after_of_idx_range _ V c_fl2_range main_v239 (Or.inl (by decide)),
    show after (c_fl2 (F := Ideal)) V (main_arg6 : DevRef τ sig) = V (main_arg6 : DevRef τ sig) from after_of_idx_range _ V c_fl2_range main_arg6 (Or.inl (by decide)),
    show after (c_fl2 (F := Ideal)) V (main_v15 : DevRef τ sig) = V (main_v15 : DevRef τ sig) from after_of_idx_range _ V c_fl2_range main_v15 (Or.inl (by decide)),
    show after (c_fl2 (F := Ideal)) V (main_arg7 : DevRef τ sig) = V (main_arg7 : DevRef τ sig) from after_of_idx_range _ V c_fl2_range main_arg7 (Or.inl (by decide))]

/-- The result over the contents before stage 15 of 19. -/
theorem suf14 (V : Valuation τ sig (Elt Ideal)) :
    after (c_sp2 (F := Ideal) ++ (c_fl2 (F := Ideal) ++ (c_fs2 (F := Ideal) ++ (c_inc2 (F := Ideal) ++ (c_comb2 (F := Ideal)))))) V (main_v348 : DevRef τ sig) = (RefVal.eluR (addf (F := Ideal) (addf (F := Ideal) (addf (F := Ideal) (addf (F := Ideal) (addf (F := Ideal) (Host.dotGeneral (F := Ideal) (φ₁ := .f32) (φ₂ := .f32) dot_S50000x128_S128x128_S50000x128_1_0_0_1_n_n none (V (main_v237 : DevRef τ sig)) (RefVal.sliceW2 (V (main_arg16 : DevRef τ sig)))) (broadcastInDim S50000x128 ![0, 1] bcast_S1x128_S50000x128_0_1 (broadcastInDim S1x128 ![1] bcast_S128_S1x128_1 (RefVal.sliceB2 (V (main_arg17 : DevRef τ sig)))))) (RefVal.rel_sp (V (main_v237 : DevRef τ sig)) (V (main_v239 : DevRef τ sig)) (V (main_arg4 : DevRef τ sig)))) (RefVal.rel_fl (V (main_v7 : DevRef τ sig)) (V (main_v239 : DevRef τ sig)) (V (main_arg5 : DevRef τ sig)))) (RefVal.rel_fs (V (main_v11 : DevRef τ sig)) (V (main_v239 : DevRef τ sig)) (V (main_arg6 : DevRef τ sig)))) (RefVal.rel_inc (V (main_v15 : DevRef τ sig)) (V (main_v239 : DevRef τ sig)) (V (main_arg7 : DevRef τ sig))))) := by
  rw [after_append, suf15]
  rw [show after (c_sp2 (F := Ideal)) V (main_v237 : DevRef τ sig) = V (main_v237 : DevRef τ sig) from after_of_idx_range _ V c_sp2_range main_v237 (Or.inl (by decide)),
    show after (c_sp2 (F := Ideal)) V (main_arg16 : DevRef τ sig) = V (main_arg16 : DevRef τ sig) from after_of_idx_range _ V c_sp2_range main_arg16 (Or.inl (by decide)),
    show after (c_sp2 (F := Ideal)) V (main_arg17 : DevRef τ sig) = V (main_arg17 : DevRef τ sig) from after_of_idx_range _ V c_sp2_range main_arg17 (Or.inl (by decide)),
    c_sp2_v263 V,
    show after (c_sp2 (F := Ideal)) V (main_v7 : DevRef τ sig) = V (main_v7 : DevRef τ sig) from after_of_idx_range _ V c_sp2_range main_v7 (Or.inl (by decide)),
    show after (c_sp2 (F := Ideal)) V (main_v239 : DevRef τ sig) = V (main_v239 : DevRef τ sig) from after_of_idx_range _ V c_sp2_range main_v239 (Or.inl (by decide)),
    show after (c_sp2 (F := Ideal)) V (main_arg5 : DevRef τ sig) = V (main_arg5 : DevRef τ sig) from after_of_idx_range _ V c_sp2_range main_arg5 (Or.inl (by decide)),
    show after (c_sp2 (F := Ideal)) V (main_v11 : DevRef τ sig) = V (main_v11 : DevRef τ sig) from after_of_idx_range _ V c_sp2_range main_v11 (Or.inl (by decide)),
    show after (c_sp2 (F := Ideal)) V (main_arg6 : DevRef τ sig) = V (main_arg6 : DevRef τ sig) from after_of_idx_range _ V c_sp2_range main_arg6 (Or.inl (by decide)),
    show after (c_sp2 (F := Ideal)) V (main_v15 : DevRef τ sig) = V (main_v15 : DevRef τ sig) from after_of_idx_range _ V c_sp2_range main_v15 (Or.inl (by decide)),
    show after (c_sp2 (F := Ideal)) V (main_arg7 : DevRef τ sig) = V (main_arg7 : DevRef τ sig) from after_of_idx_range _ V c_sp2_range main_arg7 (Or.inl (by decide))]

/-- The result over the contents before stage 14 of 19. -/
theorem suf13 (V : Valuation τ sig (Elt Ideal)) :
    after (c_wr2 (F := Ideal) ++ (c_sp2 (F := Ideal) ++ (c_fl2 (F := Ideal) ++ (c_fs2 (F := Ideal) ++ (c_inc2 (F := Ideal) ++ (c_comb2 (F := Ideal))))))) V (main_v348 : DevRef τ sig) = (RefVal.eluR (addf (F := Ideal) (addf (F := Ideal) (addf (F := Ideal) (addf (F := Ideal) (addf (F := Ideal) (Host.dotGeneral (F := Ideal) (φ₁ := .f32) (φ₂ := .f32) dot_S50000x128_S128x128_S50000x128_1_0_0_1_n_n none (V (main_v237 : DevRef τ sig)) (RefVal.sliceW2 (V (main_arg16 : DevRef τ sig)))) (broadcastInDim S50000x128 ![0, 1] bcast_S1x128_S50000x128_0_1 (broadcastInDim S1x128 ![1] bcast_S128_S1x128_1 (RefVal.sliceB2 (V (main_arg17 : DevRef τ sig)))))) (RefVal.rel_sp (V (main_v237 : DevRef τ sig)) (RefVal.sliceW2 (V (main_arg18 : DevRef τ sig))) (V (main_arg4 : DevRef τ sig)))) (RefVal.rel_fl (V (main_v7 : DevRef τ sig)) (RefVal.sliceW2 (V (main_arg18 : DevRef τ sig))) (V (main_arg5 : DevRef τ sig)))) (RefVal.rel_fs (V (main_v11 : DevRef τ sig)) (RefVal.sliceW2 (V (main_arg18 : DevRef τ sig))) (V (main_arg6 : DevRef τ sig)))) (RefVal.rel_inc (V (main_v15 : DevRef τ sig)) (RefVal.sliceW2 (V (main_arg18 : DevRef τ sig))) (V (main_arg7 : DevRef τ sig))))) := by
  rw [after_append, suf14]
  rw [show after (c_wr2 (F := Ideal)) V (main_v237 : DevRef τ sig) = V (main_v237 : DevRef τ sig) from after_of_idx_range _ V c_wr2_range main_v237 (Or.inl (by decide)),
    show after (c_wr2 (F := Ideal)) V (main_arg16 : DevRef τ sig) = V (main_arg16 : DevRef τ sig) from after_of_idx_range _ V c_wr2_range main_arg16 (Or.inl (by decide)),
    show after (c_wr2 (F := Ideal)) V (main_arg17 : DevRef τ sig) = V (main_arg17 : DevRef τ sig) from after_of_idx_range _ V c_wr2_range main_arg17 (Or.inl (by decide)),
    c_wr2_v239 V,
    show after (c_wr2 (F := Ideal)) V (main_arg4 : DevRef τ sig) = V (main_arg4 : DevRef τ sig) from after_of_idx_range _ V c_wr2_range main_arg4 (Or.inl (by decide)),
    show after (c_wr2 (F := Ideal)) V (main_v7 : DevRef τ sig) = V (main_v7 : DevRef τ sig) from after_of_idx_range _ V c_wr2_range main_v7 (Or.inl (by decide)),
    show after (c_wr2 (F := Ideal)) V (main_arg5 : DevRef τ sig) = V (main_arg5 : DevRef τ sig) from after_of_idx_range _ V c_wr2_range main_arg5 (Or.inl (by decide)),
    show after (c_wr2 (F := Ideal)) V (main_v11 : DevRef τ sig) = V (main_v11 : DevRef τ sig) from after_of_idx_range _ V c_wr2_range main_v11 (Or.inl (by decide)),
    show after (c_wr2 (F := Ideal)) V (main_arg6 : DevRef τ sig) = V (main_arg6 : DevRef τ sig) from after_of_idx_range _ V c_wr2_range main_arg6 (Or.inl (by decide)),
    show after (c_wr2 (F := Ideal)) V (main_v15 : DevRef τ sig) = V (main_v15 : DevRef τ sig) from after_of_idx_range _ V c_wr2_range main_v15 (Or.inl (by decide)),
    show after (c_wr2 (F := Ideal)) V (main_arg7 : DevRef τ sig) = V (main_arg7 : DevRef τ sig) from after_of_idx_range _ V c_wr2_range main_arg7 (Or.inl (by decide))]

/-- The result over the contents before stage 13 of 19. -/
theorem suf12 (V : Valuation τ sig (Elt Ideal)) :
    after (c_comb1 (F := Ideal) ++ (c_wr2 (F := Ideal) ++ (c_sp2 (F := Ideal) ++ (c_fl2 (F := Ideal) ++ (c_fs2 (F := Ideal) ++ (c_inc2 (F := Ideal) ++ (c_comb2 (F := Ideal)))))))) V (main_v348 : DevRef τ sig) = (RefVal.eluR (addf (F := Ideal) (addf (F := Ideal) (addf (F := Ideal) (addf (F := Ideal) (addf (F := Ideal) (Host.dotGeneral (F := Ideal) (φ₁ := .f32) (φ₂ := .f32) dot_S50000x128_S128x128_S50000x128_1_0_0_1_n_n none (RefVal.eluR (addf (F := Ideal) (addf (F := Ideal) (addf (F := Ideal) (addf (F := Ideal) (addf (F := Ideal) (Host.dotGeneral (F := Ideal) (φ₁ := .f32) (φ₂ := .f32) dot_S50000x128_S128x128_S50000x128_1_0_0_1_n_n none (V (main_v126 : DevRef τ sig)) (RefVal.sliceW1 (V (main_arg16 : DevRef τ sig)))) (broadcastInDim S50000x128 ![0, 1] bcast_S1x128_S50000x128_0_1 (broadcastInDim S1x128 ![1] bcast_S128_S1x128_1 (RefVal.sliceB1 (V (main_arg17 : DevRef τ sig)))))) (V (main_v152 : DevRef τ sig))) (V (main_v176 : DevRef τ sig))) (V (main_v200 : DevRef τ sig))) (V (main_v224 : DevRef τ sig)))) (RefVal.sliceW2 (V (main_arg16 : DevRef τ sig)))) (broadcastInDim S50000x128 ![0, 1] bcast_S1x128_S50000x128_0_1 (broadcastInDim S1x128 ![1] bcast_S128_S1x128_1 (RefVal.sliceB2 (V (main_arg17 : DevRef τ sig)))))) (RefVal.rel_sp (RefVal.eluR (addf (F := Ideal) (addf (F := Ideal) (addf (F := Ideal) (addf (F := Ideal) (addf (F := Ideal) (Host.dotGeneral (F := Ideal) (φ₁ := .f32) (φ₂ := .f32) dot_S50000x128_S128x128_S50000x128_1_0_0_1_n_n none (V (main_v126 : DevRef τ sig)) (RefVal.sliceW1 (V (main_arg16 : DevRef τ sig)))) (broadcastInDim S50000x128 ![0, 1] bcast_S1x128_S50000x128_0_1 (broadcastInDim S1x128 ![1] bcast_S128_S1x128_1 (RefVal.sliceB1 (V (main_arg17 : DevRef τ sig)))))) (V (main_v152 : DevRef τ sig))) (V (main_v176 : DevRef τ sig))) (V (main_v200 : DevRef τ sig))) (V (main_v224 : DevRef τ sig)))) (RefVal.sliceW2 (V (main_arg18 : DevRef τ sig))) (V (main_arg4 : DevRef τ sig)))) (RefVal.rel_fl (V (main_v7 : DevRef τ sig)) (RefVal.sliceW2 (V (main_arg18 : DevRef τ sig))) (V (main_arg5 : DevRef τ sig)))) (RefVal.rel_fs (V (main_v11 : DevRef τ sig)) (RefVal.sliceW2 (V (main_arg18 : DevRef τ sig))) (V (main_arg6 : DevRef τ sig)))) (RefVal.rel_inc (V (main_v15 : DevRef τ sig)) (RefVal.sliceW2 (V (main_arg18 : DevRef τ sig))) (V (main_arg7 : DevRef τ sig))))) := by
  rw [after_append, suf13]
  rw [c_comb1_v237 V,
    show after (c_comb1 (F := Ideal)) V (main_arg16 : DevRef τ sig) = V (main_arg16 : DevRef τ sig) from after_of_idx_range _ V c_comb1_range main_arg16 (Or.inl (by decide)),
    show after (c_comb1 (F := Ideal)) V (main_arg17 : DevRef τ sig) = V (main_arg17 : DevRef τ sig) from after_of_idx_range _ V c_comb1_range main_arg17 (Or.inl (by decide)),
    show after (c_comb1 (F := Ideal)) V (main_arg18 : DevRef τ sig) = V (main_arg18 : DevRef τ sig) from after_of_idx_range _ V c_comb1_range main_arg18 (Or.inl (by decide)),
    show after (c_comb1 (F := Ideal)) V (main_arg4 : DevRef τ sig) = V (main_arg4 : DevRef τ sig) from after_of_idx_range _ V c_comb1_range main_arg4 (Or.inl (by decide)),
    show after (c_comb1 (F := Ideal)) V (main_v7 : DevRef τ sig) = V (main_v7 : DevRef τ sig) from after_of_idx_range _ V c_comb1_range main_v7 (Or.inl (by decide)),
    show after (c_comb1 (F := Ideal)) V (main_arg5 : DevRef τ sig) = V (main_arg5 : DevRef τ sig) from after_of_idx_range _ V c_comb1_range main_arg5 (Or.inl (by decide)),
    show after (c_comb1 (F := Ideal)) V (main_v11 : DevRef τ sig) = V (main_v11 : DevRef τ sig) from after_of_idx_range _ V c_comb1_range main_v11 (Or.inl (by decide)),
    show after (c_comb1 (F := Ideal)) V (main_arg6 : DevRef τ sig) = V (main_arg6 : DevRef τ sig) from after_of_idx_range _ V c_comb1_range main_arg6 (Or.inl (by decide)),
    show after (c_comb1 (F := Ideal)) V (main_v15 : DevRef τ sig) = V (main_v15 : DevRef τ sig) from after_of_idx_range _ V c_comb1_range main_v15 (Or.inl (by decide)),
    show after (c_comb1 (F := Ideal)) V (main_arg7 : DevRef τ sig) = V (main_arg7 : DevRef τ sig) from after_of_idx_range _ V c_comb1_range main_arg7 (Or.inl (by decide))]

/-- The result over the contents before stage 12 of 19. -/
theorem suf11 (V : Valuation τ sig (Elt Ideal)) :
    after (c_inc1 (F := Ideal) ++ (c_comb1 (F := Ideal) ++ (c_wr2 (F := Ideal) ++ (c_sp2 (F := Ideal) ++ (c_fl2 (F := Ideal) ++ (c_fs2 (F := Ideal) ++ (c_inc2 (F := Ideal) ++ (c_comb2 (F := Ideal))))))))) V (main_v348 : DevRef τ sig) = (RefVal.eluR (addf (F := Ideal) (addf (F := Ideal) (addf (F := Ideal) (addf (F := Ideal) (addf (F := Ideal) (Host.dotGeneral (F := Ideal) (φ₁ := .f32) (φ₂ := .f32) dot_S50000x128_S128x128_S50000x128_1_0_0_1_n_n none (RefVal.eluR (addf (F := Ideal) (addf (F := Ideal) (addf (F := Ideal) (addf (F := Ideal) (addf (F := Ideal) (Host.dotGeneral (F := Ideal) (φ₁ := .f32) (φ₂ := .f32) dot_S50000x128_S128x128_S50000x128_1_0_0_1_n_n none (V (main_v126 : DevRef τ sig)) (RefVal.sliceW1 (V (main_arg16 : DevRef τ sig)))) (broadcastInDim S50000x128 ![0, 1] bcast_S1x128_S50000x128_0_1 (broadcastInDim S1x128 ![1] bcast_S128_S1x128_1 (RefVal.sliceB1 (V (main_arg17 : DevRef τ sig)))))) (V (main_v152 : DevRef τ sig))) (V (main_v176 : DevRef τ sig))) (V (main_v200 : DevRef τ sig))) (RefVal.rel_inc (V (main_v15 : DevRef τ sig)) (V (main_v128 : DevRef τ sig)) (V (main_arg7 : DevRef τ sig))))) (RefVal.sliceW2 (V (main_arg16 : DevRef τ sig)))) (broadcastInDim S50000x128 ![0, 1] bcast_S1x128_S50000x128_0_1 (broadcastInDim S1x128 ![1] bcast_S128_S1x128_1 (RefVal.sliceB2 (V (main_arg17 : DevRef τ sig)))))) (RefVal.rel_sp (RefVal.eluR (addf (F := Ideal) (addf (F := Ideal) (addf (F := Ideal) (addf (F := Ideal) (addf (F := Ideal) (Host.dotGeneral (F := Ideal) (φ₁ := .f32) (φ₂ := .f32) dot_S50000x128_S128x128_S50000x128_1_0_0_1_n_n none (V (main_v126 : DevRef τ sig)) (RefVal.sliceW1 (V (main_arg16 : DevRef τ sig)))) (broadcastInDim S50000x128 ![0, 1] bcast_S1x128_S50000x128_0_1 (broadcastInDim S1x128 ![1] bcast_S128_S1x128_1 (RefVal.sliceB1 (V (main_arg17 : DevRef τ sig)))))) (V (main_v152 : DevRef τ sig))) (V (main_v176 : DevRef τ sig))) (V (main_v200 : DevRef τ sig))) (RefVal.rel_inc (V (main_v15 : DevRef τ sig)) (V (main_v128 : DevRef τ sig)) (V (main_arg7 : DevRef τ sig))))) (RefVal.sliceW2 (V (main_arg18 : DevRef τ sig))) (V (main_arg4 : DevRef τ sig)))) (RefVal.rel_fl (V (main_v7 : DevRef τ sig)) (RefVal.sliceW2 (V (main_arg18 : DevRef τ sig))) (V (main_arg5 : DevRef τ sig)))) (RefVal.rel_fs (V (main_v11 : DevRef τ sig)) (RefVal.sliceW2 (V (main_arg18 : DevRef τ sig))) (V (main_arg6 : DevRef τ sig)))) (RefVal.rel_inc (V (main_v15 : DevRef τ sig)) (RefVal.sliceW2 (V (main_arg18 : DevRef τ sig))) (V (main_arg7 : DevRef τ sig))))) := by
  rw [after_append, suf12]
  rw [show after (c_inc1 (F := Ideal)) V (main_v126 : DevRef τ sig) = V (main_v126 : DevRef τ sig) from after_of_idx_range _ V c_inc1_range main_v126 (Or.inl (by decide)),
    show after (c_inc1 (F := Ideal)) V (main_arg16 : DevRef τ sig) = V (main_arg16 : DevRef τ sig) from after_of_idx_range _ V c_inc1_range main_arg16 (Or.inl (by decide)),
    show after (c_inc1 (F := Ideal)) V (main_arg17 : DevRef τ sig) = V (main_arg17 : DevRef τ sig) from after_of_idx_range _ V c_inc1_range main_arg17 (Or.inl (by decide)),
    show after (c_inc1 (F := Ideal)) V (main_v152 : DevRef τ sig) = V (main_v152 : DevRef τ sig) from after_of_idx_range _ V c_inc1_range main_v152 (Or.inl (by decide)),
    show after (c_inc1 (F := Ideal)) V (main_v176 : DevRef τ sig) = V (main_v176 : DevRef τ sig) from after_of_idx_range _ V c_inc1_range main_v176 (Or.inl (by decide)),
    show after (c_inc1 (F := Ideal)) V (main_v200 : DevRef τ sig) = V (main_v200 : DevRef τ sig) from after_of_idx_range _ V c_inc1_range main_v200 (Or.inl (by decide)),
    c_inc1_v224 V,
    show after (c_inc1 (F := Ideal)) V (main_arg18 : DevRef τ sig) = V (main_arg18 : DevRef τ sig) from after_of_idx_range _ V c_inc1_range main_arg18 (Or.inl (by decide)),
    show after (c_inc1 (F := Ideal)) V (main_arg4 : DevRef τ sig) = V (main_arg4 : DevRef τ sig) from after_of_idx_range _ V c_inc1_range main_arg4 (Or.inl (by decide)),
    show after (c_inc1 (F := Ideal)) V (main_v7 : DevRef τ sig) = V (main_v7 : DevRef τ sig) from after_of_idx_range _ V c_inc1_range main_v7 (Or.inl (by decide)),
    show after (c_inc1 (F := Ideal)) V (main_arg5 : DevRef τ sig) = V (main_arg5 : DevRef τ sig) from after_of_idx_range _ V c_inc1_range main_arg5 (Or.inl (by decide)),
    show after (c_inc1 (F := Ideal)) V (main_v11 : DevRef τ sig) = V (main_v11 : DevRef τ sig) from after_of_idx_range _ V c_inc1_range main_v11 (Or.inl (by decide)),
    show after (c_inc1 (F := Ideal)) V (main_arg6 : DevRef τ sig) = V (main_arg6 : DevRef τ sig) from after_of_idx_range _ V c_inc1_range main_arg6 (Or.inl (by decide)),
    show after (c_inc1 (F := Ideal)) V (main_v15 : DevRef τ sig) = V (main_v15 : DevRef τ sig) from after_of_idx_range _ V c_inc1_range main_v15 (Or.inl (by decide)),
    show after (c_inc1 (F := Ideal)) V (main_arg7 : DevRef τ sig) = V (main_arg7 : DevRef τ sig) from after_of_idx_range _ V c_inc1_range main_arg7 (Or.inl (by decide))]

/-- The result over the contents before stage 11 of 19. -/
theorem suf10 (V : Valuation τ sig (Elt Ideal)) :
    after (c_fs1 (F := Ideal) ++ (c_inc1 (F := Ideal) ++ (c_comb1 (F := Ideal) ++ (c_wr2 (F := Ideal) ++ (c_sp2 (F := Ideal) ++ (c_fl2 (F := Ideal) ++ (c_fs2 (F := Ideal) ++ (c_inc2 (F := Ideal) ++ (c_comb2 (F := Ideal)))))))))) V (main_v348 : DevRef τ sig) = (RefVal.eluR (addf (F := Ideal) (addf (F := Ideal) (addf (F := Ideal) (addf (F := Ideal) (addf (F := Ideal) (Host.dotGeneral (F := Ideal) (φ₁ := .f32) (φ₂ := .f32) dot_S50000x128_S128x128_S50000x128_1_0_0_1_n_n none (RefVal.eluR (addf (F := Ideal) (addf (F := Ideal) (addf (F := Ideal) (addf (F := Ideal) (addf (F := Ideal) (Host.dotGeneral (F := Ideal) (φ₁ := .f32) (φ₂ := .f32) dot_S50000x128_S128x128_S50000x128_1_0_0_1_n_n none (V (main_v126 : DevRef τ sig)) (RefVal.sliceW1 (V (main_arg16 : DevRef τ sig)))) (broadcastInDim S50000x128 ![0, 1] bcast_S1x128_S50000x128_0_1 (broadcastInDim S1x128 ![1] bcast_S128_S1x128_1 (RefVal.sliceB1 (V (main_arg17 : DevRef τ sig)))))) (V (main_v152 : DevRef τ sig))) (V (main_v176 : DevRef τ sig))) (RefVal.rel_fs (V (main_v11 : DevRef τ sig)) (V (main_v128 : DevRef τ sig)) (V (main_arg6 : DevRef τ sig)))) (RefVal.rel_inc (V (main_v15 : DevRef τ sig)) (V (main_v128 : DevRef τ sig)) (V (main_arg7 : DevRef τ sig))))) (RefVal.sliceW2 (V (main_arg16 : DevRef τ sig)))) (broadcastInDim S50000x128 ![0, 1] bcast_S1x128_S50000x128_0_1 (broadcastInDim S1x128 ![1] bcast_S128_S1x128_1 (RefVal.sliceB2 (V (main_arg17 : DevRef τ sig)))))) (RefVal.rel_sp (RefVal.eluR (addf (F := Ideal) (addf (F := Ideal) (addf (F := Ideal) (addf (F := Ideal) (addf (F := Ideal) (Host.dotGeneral (F := Ideal) (φ₁ := .f32) (φ₂ := .f32) dot_S50000x128_S128x128_S50000x128_1_0_0_1_n_n none (V (main_v126 : DevRef τ sig)) (RefVal.sliceW1 (V (main_arg16 : DevRef τ sig)))) (broadcastInDim S50000x128 ![0, 1] bcast_S1x128_S50000x128_0_1 (broadcastInDim S1x128 ![1] bcast_S128_S1x128_1 (RefVal.sliceB1 (V (main_arg17 : DevRef τ sig)))))) (V (main_v152 : DevRef τ sig))) (V (main_v176 : DevRef τ sig))) (RefVal.rel_fs (V (main_v11 : DevRef τ sig)) (V (main_v128 : DevRef τ sig)) (V (main_arg6 : DevRef τ sig)))) (RefVal.rel_inc (V (main_v15 : DevRef τ sig)) (V (main_v128 : DevRef τ sig)) (V (main_arg7 : DevRef τ sig))))) (RefVal.sliceW2 (V (main_arg18 : DevRef τ sig))) (V (main_arg4 : DevRef τ sig)))) (RefVal.rel_fl (V (main_v7 : DevRef τ sig)) (RefVal.sliceW2 (V (main_arg18 : DevRef τ sig))) (V (main_arg5 : DevRef τ sig)))) (RefVal.rel_fs (V (main_v11 : DevRef τ sig)) (RefVal.sliceW2 (V (main_arg18 : DevRef τ sig))) (V (main_arg6 : DevRef τ sig)))) (RefVal.rel_inc (V (main_v15 : DevRef τ sig)) (RefVal.sliceW2 (V (main_arg18 : DevRef τ sig))) (V (main_arg7 : DevRef τ sig))))) := by
  rw [after_append, suf11]
  rw [show after (c_fs1 (F := Ideal)) V (main_v126 : DevRef τ sig) = V (main_v126 : DevRef τ sig) from after_of_idx_range _ V c_fs1_range main_v126 (Or.inl (by decide)),
    show after (c_fs1 (F := Ideal)) V (main_arg16 : DevRef τ sig) = V (main_arg16 : DevRef τ sig) from after_of_idx_range _ V c_fs1_range main_arg16 (Or.inl (by decide)),
    show after (c_fs1 (F := Ideal)) V (main_arg17 : DevRef τ sig) = V (main_arg17 : DevRef τ sig) from after_of_idx_range _ V c_fs1_range main_arg17 (Or.inl (by decide)),
    show after (c_fs1 (F := Ideal)) V (main_v152 : DevRef τ sig) = V (main_v152 : DevRef τ sig) from after_of_idx_range _ V c_fs1_range main_v152 (Or.inl (by decide)),
    show after (c_fs1 (F := Ideal)) V (main_v176 : DevRef τ sig) = V (main_v176 : DevRef τ sig) from after_of_idx_range _ V c_fs1_range main_v176 (Or.inl (by decide)),
    c_fs1_v200 V,
    show after (c_fs1 (F := Ideal)) V (main_v15 : DevRef τ sig) = V (main_v15 : DevRef τ sig) from after_of_idx_range _ V c_fs1_range main_v15 (Or.inl (by decide)),
    show after (c_fs1 (F := Ideal)) V (main_v128 : DevRef τ sig) = V (main_v128 : DevRef τ sig) from after_of_idx_range _ V c_fs1_range main_v128 (Or.inl (by decide)),
    show after (c_fs1 (F := Ideal)) V (main_arg7 : DevRef τ sig) = V (main_arg7 : DevRef τ sig) from after_of_idx_range _ V c_fs1_range main_arg7 (Or.inl (by decide)),
    show after (c_fs1 (F := Ideal)) V (main_arg18 : DevRef τ sig) = V (main_arg18 : DevRef τ sig) from after_of_idx_range _ V c_fs1_range main_arg18 (Or.inl (by decide)),
    show after (c_fs1 (F := Ideal)) V (main_arg4 : DevRef τ sig) = V (main_arg4 : DevRef τ sig) from after_of_idx_range _ V c_fs1_range main_arg4 (Or.inl (by decide)),
    show after (c_fs1 (F := Ideal)) V (main_v7 : DevRef τ sig) = V (main_v7 : DevRef τ sig) from after_of_idx_range _ V c_fs1_range main_v7 (Or.inl (by decide)),
    show after (c_fs1 (F := Ideal)) V (main_arg5 : DevRef τ sig) = V (main_arg5 : DevRef τ sig) from after_of_idx_range _ V c_fs1_range main_arg5 (Or.inl (by decide)),
    show after (c_fs1 (F := Ideal)) V (main_v11 : DevRef τ sig) = V (main_v11 : DevRef τ sig) from after_of_idx_range _ V c_fs1_range main_v11 (Or.inl (by decide)),
    show after (c_fs1 (F := Ideal)) V (main_arg6 : DevRef τ sig) = V (main_arg6 : DevRef τ sig) from after_of_idx_range _ V c_fs1_range main_arg6 (Or.inl (by decide))]

/-- The result over the contents before stage 10 of 19. -/
theorem suf9 (V : Valuation τ sig (Elt Ideal)) :
    after (c_fl1 (F := Ideal) ++ (c_fs1 (F := Ideal) ++ (c_inc1 (F := Ideal) ++ (c_comb1 (F := Ideal) ++ (c_wr2 (F := Ideal) ++ (c_sp2 (F := Ideal) ++ (c_fl2 (F := Ideal) ++ (c_fs2 (F := Ideal) ++ (c_inc2 (F := Ideal) ++ (c_comb2 (F := Ideal))))))))))) V (main_v348 : DevRef τ sig) = (RefVal.eluR (addf (F := Ideal) (addf (F := Ideal) (addf (F := Ideal) (addf (F := Ideal) (addf (F := Ideal) (Host.dotGeneral (F := Ideal) (φ₁ := .f32) (φ₂ := .f32) dot_S50000x128_S128x128_S50000x128_1_0_0_1_n_n none (RefVal.eluR (addf (F := Ideal) (addf (F := Ideal) (addf (F := Ideal) (addf (F := Ideal) (addf (F := Ideal) (Host.dotGeneral (F := Ideal) (φ₁ := .f32) (φ₂ := .f32) dot_S50000x128_S128x128_S50000x128_1_0_0_1_n_n none (V (main_v126 : DevRef τ sig)) (RefVal.sliceW1 (V (main_arg16 : DevRef τ sig)))) (broadcastInDim S50000x128 ![0, 1] bcast_S1x128_S50000x128_0_1 (broadcastInDim S1x128 ![1] bcast_S128_S1x128_1 (RefVal.sliceB1 (V (main_arg17 : DevRef τ sig)))))) (V (main_v152 : DevRef τ sig))) (RefVal.rel_fl (V (main_v7 : DevRef τ sig)) (V (main_v128 : DevRef τ sig)) (V (main_arg5 : DevRef τ sig)))) (RefVal.rel_fs (V (main_v11 : DevRef τ sig)) (V (main_v128 : DevRef τ sig)) (V (main_arg6 : DevRef τ sig)))) (RefVal.rel_inc (V (main_v15 : DevRef τ sig)) (V (main_v128 : DevRef τ sig)) (V (main_arg7 : DevRef τ sig))))) (RefVal.sliceW2 (V (main_arg16 : DevRef τ sig)))) (broadcastInDim S50000x128 ![0, 1] bcast_S1x128_S50000x128_0_1 (broadcastInDim S1x128 ![1] bcast_S128_S1x128_1 (RefVal.sliceB2 (V (main_arg17 : DevRef τ sig)))))) (RefVal.rel_sp (RefVal.eluR (addf (F := Ideal) (addf (F := Ideal) (addf (F := Ideal) (addf (F := Ideal) (addf (F := Ideal) (Host.dotGeneral (F := Ideal) (φ₁ := .f32) (φ₂ := .f32) dot_S50000x128_S128x128_S50000x128_1_0_0_1_n_n none (V (main_v126 : DevRef τ sig)) (RefVal.sliceW1 (V (main_arg16 : DevRef τ sig)))) (broadcastInDim S50000x128 ![0, 1] bcast_S1x128_S50000x128_0_1 (broadcastInDim S1x128 ![1] bcast_S128_S1x128_1 (RefVal.sliceB1 (V (main_arg17 : DevRef τ sig)))))) (V (main_v152 : DevRef τ sig))) (RefVal.rel_fl (V (main_v7 : DevRef τ sig)) (V (main_v128 : DevRef τ sig)) (V (main_arg5 : DevRef τ sig)))) (RefVal.rel_fs (V (main_v11 : DevRef τ sig)) (V (main_v128 : DevRef τ sig)) (V (main_arg6 : DevRef τ sig)))) (RefVal.rel_inc (V (main_v15 : DevRef τ sig)) (V (main_v128 : DevRef τ sig)) (V (main_arg7 : DevRef τ sig))))) (RefVal.sliceW2 (V (main_arg18 : DevRef τ sig))) (V (main_arg4 : DevRef τ sig)))) (RefVal.rel_fl (V (main_v7 : DevRef τ sig)) (RefVal.sliceW2 (V (main_arg18 : DevRef τ sig))) (V (main_arg5 : DevRef τ sig)))) (RefVal.rel_fs (V (main_v11 : DevRef τ sig)) (RefVal.sliceW2 (V (main_arg18 : DevRef τ sig))) (V (main_arg6 : DevRef τ sig)))) (RefVal.rel_inc (V (main_v15 : DevRef τ sig)) (RefVal.sliceW2 (V (main_arg18 : DevRef τ sig))) (V (main_arg7 : DevRef τ sig))))) := by
  rw [after_append, suf10]
  rw [show after (c_fl1 (F := Ideal)) V (main_v126 : DevRef τ sig) = V (main_v126 : DevRef τ sig) from after_of_idx_range _ V c_fl1_range main_v126 (Or.inl (by decide)),
    show after (c_fl1 (F := Ideal)) V (main_arg16 : DevRef τ sig) = V (main_arg16 : DevRef τ sig) from after_of_idx_range _ V c_fl1_range main_arg16 (Or.inl (by decide)),
    show after (c_fl1 (F := Ideal)) V (main_arg17 : DevRef τ sig) = V (main_arg17 : DevRef τ sig) from after_of_idx_range _ V c_fl1_range main_arg17 (Or.inl (by decide)),
    show after (c_fl1 (F := Ideal)) V (main_v152 : DevRef τ sig) = V (main_v152 : DevRef τ sig) from after_of_idx_range _ V c_fl1_range main_v152 (Or.inl (by decide)),
    c_fl1_v176 V,
    show after (c_fl1 (F := Ideal)) V (main_v11 : DevRef τ sig) = V (main_v11 : DevRef τ sig) from after_of_idx_range _ V c_fl1_range main_v11 (Or.inl (by decide)),
    show after (c_fl1 (F := Ideal)) V (main_v128 : DevRef τ sig) = V (main_v128 : DevRef τ sig) from after_of_idx_range _ V c_fl1_range main_v128 (Or.inl (by decide)),
    show after (c_fl1 (F := Ideal)) V (main_arg6 : DevRef τ sig) = V (main_arg6 : DevRef τ sig) from after_of_idx_range _ V c_fl1_range main_arg6 (Or.inl (by decide)),
    show after (c_fl1 (F := Ideal)) V (main_v15 : DevRef τ sig) = V (main_v15 : DevRef τ sig) from after_of_idx_range _ V c_fl1_range main_v15 (Or.inl (by decide)),
    show after (c_fl1 (F := Ideal)) V (main_arg7 : DevRef τ sig) = V (main_arg7 : DevRef τ sig) from after_of_idx_range _ V c_fl1_range main_arg7 (Or.inl (by decide)),
    show after (c_fl1 (F := Ideal)) V (main_arg18 : DevRef τ sig) = V (main_arg18 : DevRef τ sig) from after_of_idx_range _ V c_fl1_range main_arg18 (Or.inl (by decide)),
    show after (c_fl1 (F := Ideal)) V (main_arg4 : DevRef τ sig) = V (main_arg4 : DevRef τ sig) from after_of_idx_range _ V c_fl1_range main_arg4 (Or.inl (by decide)),
    show after (c_fl1 (F := Ideal)) V (main_v7 : DevRef τ sig) = V (main_v7 : DevRef τ sig) from after_of_idx_range _ V c_fl1_range main_v7 (Or.inl (by decide)),
    show after (c_fl1 (F := Ideal)) V (main_arg5 : DevRef τ sig) = V (main_arg5 : DevRef τ sig) from after_of_idx_range _ V c_fl1_range main_arg5 (Or.inl (by decide))]

/-- The result over the contents before stage 9 of 19. -/
theorem suf8 (V : Valuation τ sig (Elt Ideal)) :
    after (c_sp1 (F := Ideal) ++ (c_fl1 (F := Ideal) ++ (c_fs1 (F := Ideal) ++ (c_inc1 (F := Ideal) ++ (c_comb1 (F := Ideal) ++ (c_wr2 (F := Ideal) ++ (c_sp2 (F := Ideal) ++ (c_fl2 (F := Ideal) ++ (c_fs2 (F := Ideal) ++ (c_inc2 (F := Ideal) ++ (c_comb2 (F := Ideal)))))))))))) V (main_v348 : DevRef τ sig) = (RefVal.eluR (addf (F := Ideal) (addf (F := Ideal) (addf (F := Ideal) (addf (F := Ideal) (addf (F := Ideal) (Host.dotGeneral (F := Ideal) (φ₁ := .f32) (φ₂ := .f32) dot_S50000x128_S128x128_S50000x128_1_0_0_1_n_n none (RefVal.eluR (addf (F := Ideal) (addf (F := Ideal) (addf (F := Ideal) (addf (F := Ideal) (addf (F := Ideal) (Host.dotGeneral (F := Ideal) (φ₁ := .f32) (φ₂ := .f32) dot_S50000x128_S128x128_S50000x128_1_0_0_1_n_n none (V (main_v126 : DevRef τ sig)) (RefVal.sliceW1 (V (main_arg16 : DevRef τ sig)))) (broadcastInDim S50000x128 ![0, 1] bcast_S1x128_S50000x128_0_1 (broadcastInDim S1x128 ![1] bcast_S128_S1x128_1 (RefVal.sliceB1 (V (main_arg17 : DevRef τ sig)))))) (RefVal.rel_sp (V (main_v126 : DevRef τ sig)) (V (main_v128 : DevRef τ sig)) (V (main_arg4 : DevRef τ sig)))) (RefVal.rel_fl (V (main_v7 : DevRef τ sig)) (V (main_v128 : DevRef τ sig)) (V (main_arg5 : DevRef τ sig)))) (RefVal.rel_fs (V (main_v11 : DevRef τ sig)) (V (main_v128 : DevRef τ sig)) (V (main_arg6 : DevRef τ sig)))) (RefVal.rel_inc (V (main_v15 : DevRef τ sig)) (V (main_v128 : DevRef τ sig)) (V (main_arg7 : DevRef τ sig))))) (RefVal.sliceW2 (V (main_arg16 : DevRef τ sig)))) (broadcastInDim S50000x128 ![0, 1] bcast_S1x128_S50000x128_0_1 (broadcastInDim S1x128 ![1] bcast_S128_S1x128_1 (RefVal.sliceB2 (V (main_arg17 : DevRef τ sig)))))) (RefVal.rel_sp (RefVal.eluR (addf (F := Ideal) (addf (F := Ideal) (addf (F := Ideal) (addf (F := Ideal) (addf (F := Ideal) (Host.dotGeneral (F := Ideal) (φ₁ := .f32) (φ₂ := .f32) dot_S50000x128_S128x128_S50000x128_1_0_0_1_n_n none (V (main_v126 : DevRef τ sig)) (RefVal.sliceW1 (V (main_arg16 : DevRef τ sig)))) (broadcastInDim S50000x128 ![0, 1] bcast_S1x128_S50000x128_0_1 (broadcastInDim S1x128 ![1] bcast_S128_S1x128_1 (RefVal.sliceB1 (V (main_arg17 : DevRef τ sig)))))) (RefVal.rel_sp (V (main_v126 : DevRef τ sig)) (V (main_v128 : DevRef τ sig)) (V (main_arg4 : DevRef τ sig)))) (RefVal.rel_fl (V (main_v7 : DevRef τ sig)) (V (main_v128 : DevRef τ sig)) (V (main_arg5 : DevRef τ sig)))) (RefVal.rel_fs (V (main_v11 : DevRef τ sig)) (V (main_v128 : DevRef τ sig)) (V (main_arg6 : DevRef τ sig)))) (RefVal.rel_inc (V (main_v15 : DevRef τ sig)) (V (main_v128 : DevRef τ sig)) (V (main_arg7 : DevRef τ sig))))) (RefVal.sliceW2 (V (main_arg18 : DevRef τ sig))) (V (main_arg4 : DevRef τ sig)))) (RefVal.rel_fl (V (main_v7 : DevRef τ sig)) (RefVal.sliceW2 (V (main_arg18 : DevRef τ sig))) (V (main_arg5 : DevRef τ sig)))) (RefVal.rel_fs (V (main_v11 : DevRef τ sig)) (RefVal.sliceW2 (V (main_arg18 : DevRef τ sig))) (V (main_arg6 : DevRef τ sig)))) (RefVal.rel_inc (V (main_v15 : DevRef τ sig)) (RefVal.sliceW2 (V (main_arg18 : DevRef τ sig))) (V (main_arg7 : DevRef τ sig))))) := by
  rw [after_append, suf9]
  rw [show after (c_sp1 (F := Ideal)) V (main_v126 : DevRef τ sig) = V (main_v126 : DevRef τ sig) from after_of_idx_range _ V c_sp1_range main_v126 (Or.inl (by decide)),
    show after (c_sp1 (F := Ideal)) V (main_arg16 : DevRef τ sig) = V (main_arg16 : DevRef τ sig) from after_of_idx_range _ V c_sp1_range main_arg16 (Or.inl (by decide)),
    show after (c_sp1 (F := Ideal)) V (main_arg17 : DevRef τ sig) = V (main_arg17 : DevRef τ sig) from after_of_idx_range _ V c_sp1_range main_arg17 (Or.inl (by decide)),
    c_sp1_v152 V,
    show after (c_sp1 (F := Ideal)) V (main_v7 : DevRef τ sig) = V (main_v7 : DevRef τ sig) from after_of_idx_range _ V c_sp1_range main_v7 (Or.inl (by decide)),
    show after (c_sp1 (F := Ideal)) V (main_v128 : DevRef τ sig) = V (main_v128 : DevRef τ sig) from after_of_idx_range _ V c_sp1_range main_v128 (Or.inl (by decide)),
    show after (c_sp1 (F := Ideal)) V (main_arg5 : DevRef τ sig) = V (main_arg5 : DevRef τ sig) from after_of_idx_range _ V c_sp1_range main_arg5 (Or.inl (by decide)),
    show after (c_sp1 (F := Ideal)) V (main_v11 : DevRef τ sig) = V (main_v11 : DevRef τ sig) from after_of_idx_range _ V c_sp1_range main_v11 (Or.inl (by decide)),
    show after (c_sp1 (F := Ideal)) V (main_arg6 : DevRef τ sig) = V (main_arg6 : DevRef τ sig) from after_of_idx_range _ V c_sp1_range main_arg6 (Or.inl (by decide)),
    show after (c_sp1 (F := Ideal)) V (main_v15 : DevRef τ sig) = V (main_v15 : DevRef τ sig) from after_of_idx_range _ V c_sp1_range main_v15 (Or.inl (by decide)),
    show after (c_sp1 (F := Ideal)) V (main_arg7 : DevRef τ sig) = V (main_arg7 : DevRef τ sig) from after_of_idx_range _ V c_sp1_range main_arg7 (Or.inl (by decide)),
    show after (c_sp1 (F := Ideal)) V (main_arg18 : DevRef τ sig) = V (main_arg18 : DevRef τ sig) from after_of_idx_range _ V c_sp1_range main_arg18 (Or.inl (by decide)),
    show after (c_sp1 (F := Ideal)) V (main_arg4 : DevRef τ sig) = V (main_arg4 : DevRef τ sig) from after_of_idx_range _ V c_sp1_range main_arg4 (Or.inl (by decide))]

/-- The result over the contents before stage 8 of 19. -/
theorem suf7 (V : Valuation τ sig (Elt Ideal)) :
    after (c_wr1 (F := Ideal) ++ (c_sp1 (F := Ideal) ++ (c_fl1 (F := Ideal) ++ (c_fs1 (F := Ideal) ++ (c_inc1 (F := Ideal) ++ (c_comb1 (F := Ideal) ++ (c_wr2 (F := Ideal) ++ (c_sp2 (F := Ideal) ++ (c_fl2 (F := Ideal) ++ (c_fs2 (F := Ideal) ++ (c_inc2 (F := Ideal) ++ (c_comb2 (F := Ideal))))))))))))) V (main_v348 : DevRef τ sig) = (RefVal.eluR (addf (F := Ideal) (addf (F := Ideal) (addf (F := Ideal) (addf (F := Ideal) (addf (F := Ideal) (Host.dotGeneral (F := Ideal) (φ₁ := .f32) (φ₂ := .f32) dot_S50000x128_S128x128_S50000x128_1_0_0_1_n_n none (RefVal.eluR (addf (F := Ideal) (addf (F := Ideal) (addf (F := Ideal) (addf (F := Ideal) (addf (F := Ideal) (Host.dotGeneral (F := Ideal) (φ₁ := .f32) (φ₂ := .f32) dot_S50000x128_S128x128_S50000x128_1_0_0_1_n_n none (V (main_v126 : DevRef τ sig)) (RefVal.sliceW1 (V (main_arg16 : DevRef τ sig)))) (broadcastInDim S50000x128 ![0, 1] bcast_S1x128_S50000x128_0_1 (broadcastInDim S1x128 ![1] bcast_S128_S1x128_1 (RefVal.sliceB1 (V (main_arg17 : DevRef τ sig)))))) (RefVal.rel_sp (V (main_v126 : DevRef τ sig)) (RefVal.sliceW1 (V (main_arg18 : DevRef τ sig))) (V (main_arg4 : DevRef τ sig)))) (RefVal.rel_fl (V (main_v7 : DevRef τ sig)) (RefVal.sliceW1 (V (main_arg18 : DevRef τ sig))) (V (main_arg5 : DevRef τ sig)))) (RefVal.rel_fs (V (main_v11 : DevRef τ sig)) (RefVal.sliceW1 (V (main_arg18 : DevRef τ sig))) (V (main_arg6 : DevRef τ sig)))) (RefVal.rel_inc (V (main_v15 : DevRef τ sig)) (RefVal.sliceW1 (V (main_arg18 : DevRef τ sig))) (V (main_arg7 : DevRef τ sig))))) (RefVal.sliceW2 (V (main_arg16 : DevRef τ sig)))) (broadcastInDim S50000x128 ![0, 1] bcast_S1x128_S50000x128_0_1 (broadcastInDim S1x128 ![1] bcast_S128_S1x128_1 (RefVal.sliceB2 (V (main_arg17 : DevRef τ sig)))))) (RefVal.rel_sp (RefVal.eluR (addf (F := Ideal) (addf (F := Ideal) (addf (F := Ideal) (addf (F := Ideal) (addf (F := Ideal) (Host.dotGeneral (F := Ideal) (φ₁ := .f32) (φ₂ := .f32) dot_S50000x128_S128x128_S50000x128_1_0_0_1_n_n none (V (main_v126 : DevRef τ sig)) (RefVal.sliceW1 (V (main_arg16 : DevRef τ sig)))) (broadcastInDim S50000x128 ![0, 1] bcast_S1x128_S50000x128_0_1 (broadcastInDim S1x128 ![1] bcast_S128_S1x128_1 (RefVal.sliceB1 (V (main_arg17 : DevRef τ sig)))))) (RefVal.rel_sp (V (main_v126 : DevRef τ sig)) (RefVal.sliceW1 (V (main_arg18 : DevRef τ sig))) (V (main_arg4 : DevRef τ sig)))) (RefVal.rel_fl (V (main_v7 : DevRef τ sig)) (RefVal.sliceW1 (V (main_arg18 : DevRef τ sig))) (V (main_arg5 : DevRef τ sig)))) (RefVal.rel_fs (V (main_v11 : DevRef τ sig)) (RefVal.sliceW1 (V (main_arg18 : DevRef τ sig))) (V (main_arg6 : DevRef τ sig)))) (RefVal.rel_inc (V (main_v15 : DevRef τ sig)) (RefVal.sliceW1 (V (main_arg18 : DevRef τ sig))) (V (main_arg7 : DevRef τ sig))))) (RefVal.sliceW2 (V (main_arg18 : DevRef τ sig))) (V (main_arg4 : DevRef τ sig)))) (RefVal.rel_fl (V (main_v7 : DevRef τ sig)) (RefVal.sliceW2 (V (main_arg18 : DevRef τ sig))) (V (main_arg5 : DevRef τ sig)))) (RefVal.rel_fs (V (main_v11 : DevRef τ sig)) (RefVal.sliceW2 (V (main_arg18 : DevRef τ sig))) (V (main_arg6 : DevRef τ sig)))) (RefVal.rel_inc (V (main_v15 : DevRef τ sig)) (RefVal.sliceW2 (V (main_arg18 : DevRef τ sig))) (V (main_arg7 : DevRef τ sig))))) := by
  rw [after_append, suf8]
  rw [show after (c_wr1 (F := Ideal)) V (main_v126 : DevRef τ sig) = V (main_v126 : DevRef τ sig) from after_of_idx_range _ V c_wr1_range main_v126 (Or.inl (by decide)),
    show after (c_wr1 (F := Ideal)) V (main_arg16 : DevRef τ sig) = V (main_arg16 : DevRef τ sig) from after_of_idx_range _ V c_wr1_range main_arg16 (Or.inl (by decide)),
    show after (c_wr1 (F := Ideal)) V (main_arg17 : DevRef τ sig) = V (main_arg17 : DevRef τ sig) from after_of_idx_range _ V c_wr1_range main_arg17 (Or.inl (by decide)),
    c_wr1_v128 V,
    show after (c_wr1 (F := Ideal)) V (main_arg4 : DevRef τ sig) = V (main_arg4 : DevRef τ sig) from after_of_idx_range _ V c_wr1_range main_arg4 (Or.inl (by decide)),
    show after (c_wr1 (F := Ideal)) V (main_v7 : DevRef τ sig) = V (main_v7 : DevRef τ sig) from after_of_idx_range _ V c_wr1_range main_v7 (Or.inl (by decide)),
    show after (c_wr1 (F := Ideal)) V (main_arg5 : DevRef τ sig) = V (main_arg5 : DevRef τ sig) from after_of_idx_range _ V c_wr1_range main_arg5 (Or.inl (by decide)),
    show after (c_wr1 (F := Ideal)) V (main_v11 : DevRef τ sig) = V (main_v11 : DevRef τ sig) from after_of_idx_range _ V c_wr1_range main_v11 (Or.inl (by decide)),
    show after (c_wr1 (F := Ideal)) V (main_arg6 : DevRef τ sig) = V (main_arg6 : DevRef τ sig) from after_of_idx_range _ V c_wr1_range main_arg6 (Or.inl (by decide)),
    show after (c_wr1 (F := Ideal)) V (main_v15 : DevRef τ sig) = V (main_v15 : DevRef τ sig) from after_of_idx_range _ V c_wr1_range main_v15 (Or.inl (by decide)),
    show after (c_wr1 (F := Ideal)) V (main_arg7 : DevRef τ sig) = V (main_arg7 : DevRef τ sig) from after_of_idx_range _ V c_wr1_range main_arg7 (Or.inl (by decide)),
    show after (c_wr1 (F := Ideal)) V (main_arg18 : DevRef τ sig) = V (main_arg18 : DevRef τ sig) from after_of_idx_range _ V c_wr1_range main_arg18 (Or.inl (by decide))]

/-- The result over the contents before stage 7 of 19. -/
theorem suf6 (V : Valuation τ sig (Elt Ideal)) :
    after (c_comb0 (F := Ideal) ++ (c_wr1 (F := Ideal) ++ (c_sp1 (F := Ideal) ++ (c_fl1 (F := Ideal) ++ (c_fs1 (F := Ideal) ++ (c_inc1 (F := Ideal) ++ (c_comb1 (F := Ideal) ++ (c_wr2 (F := Ideal) ++ (c_sp2 (F := Ideal) ++ (c_fl2 (F := Ideal) ++ (c_fs2 (F := Ideal) ++ (c_inc2 (F := Ideal) ++ (c_comb2 (F := Ideal)))))))))))))) V (main_v348 : DevRef τ sig) = (RefVal.eluR (addf (F := Ideal) (addf (F := Ideal) (addf (F := Ideal) (addf (F := Ideal) (addf (F := Ideal) (Host.dotGeneral (F := Ideal) (φ₁ := .f32) (φ₂ := .f32) dot_S50000x128_S128x128_S50000x128_1_0_0_1_n_n none (RefVal.eluR (addf (F := Ideal) (addf (F := Ideal) (addf (F := Ideal) (addf (F := Ideal) (addf (F := Ideal) (Host.dotGeneral (F := Ideal) (φ₁ := .f32) (φ₂ := .f32) dot_S50000x128_S128x128_S50000x128_1_0_0_1_n_n none (RefVal.eluR (addf (F := Ideal) (addf (F := Ideal) (addf (F := Ideal) (addf (F := Ideal) (addf (F := Ideal) (Host.dotGeneral (F := Ideal) (φ₁ := .f32) (φ₂ := .f32) dot_S50000x128_S128x128_S50000x128_1_0_0_1_n_n none (V (main_v3 : DevRef τ sig)) (RefVal.sliceW0 (V (main_arg16 : DevRef τ sig)))) (broadcastInDim S50000x128 ![0, 1] bcast_S1x128_S50000x128_0_1 (broadcastInDim S1x128 ![1] bcast_S128_S1x128_1 (RefVal.sliceB0 (V (main_arg17 : DevRef τ sig)))))) (V (main_v41 : DevRef τ sig))) (V (main_v65 : DevRef τ sig))) (V (main_v89 : DevRef τ sig))) (V (main_v113 : DevRef τ sig)))) (RefVal.sliceW1 (V (main_arg16 : DevRef τ sig)))) (broadcastInDim S50000x128 ![0, 1] bcast_S1x128_S50000x128_0_1 (broadcastInDim S1x128 ![1] bcast_S128_S1x128_1 (RefVal.sliceB1 (V (main_arg17 : DevRef τ sig)))))) (RefVal.rel_sp (RefVal.eluR (addf (F := Ideal) (addf (F := Ideal) (addf (F := Ideal) (addf (F := Ideal) (addf (F := Ideal) (Host.dotGeneral (F := Ideal) (φ₁ := .f32) (φ₂ := .f32) dot_S50000x128_S128x128_S50000x128_1_0_0_1_n_n none (V (main_v3 : DevRef τ sig)) (RefVal.sliceW0 (V (main_arg16 : DevRef τ sig)))) (broadcastInDim S50000x128 ![0, 1] bcast_S1x128_S50000x128_0_1 (broadcastInDim S1x128 ![1] bcast_S128_S1x128_1 (RefVal.sliceB0 (V (main_arg17 : DevRef τ sig)))))) (V (main_v41 : DevRef τ sig))) (V (main_v65 : DevRef τ sig))) (V (main_v89 : DevRef τ sig))) (V (main_v113 : DevRef τ sig)))) (RefVal.sliceW1 (V (main_arg18 : DevRef τ sig))) (V (main_arg4 : DevRef τ sig)))) (RefVal.rel_fl (V (main_v7 : DevRef τ sig)) (RefVal.sliceW1 (V (main_arg18 : DevRef τ sig))) (V (main_arg5 : DevRef τ sig)))) (RefVal.rel_fs (V (main_v11 : DevRef τ sig)) (RefVal.sliceW1 (V (main_arg18 : DevRef τ sig))) (V (main_arg6 : DevRef τ sig)))) (RefVal.rel_inc (V (main_v15 : DevRef τ sig)) (RefVal.sliceW1 (V (main_arg18 : DevRef τ sig))) (V (main_arg7 : DevRef τ sig))))) (RefVal.sliceW2 (V (main_arg16 : DevRef τ sig)))) (broadcastInDim S50000x128 ![0, 1] bcast_S1x128_S50000x128_0_1 (broadcastInDim S1x128 ![1] bcast_S128_S1x128_1 (RefVal.sliceB2 (V (main_arg17 : DevRef τ sig)))))) (RefVal.rel_sp (RefVal.eluR (addf (F := Ideal) (addf (F := Ideal) (addf (F := Ideal) (addf (F := Ideal) (addf (F := Ideal) (Host.dotGeneral (F := Ideal) (φ₁ := .f32) (φ₂ := .f32) dot_S50000x128_S128x128_S50000x128_1_0_0_1_n_n none (RefVal.eluR (addf (F := Ideal) (addf (F := Ideal) (addf (F := Ideal) (addf (F := Ideal) (addf (F := Ideal) (Host.dotGeneral (F := Ideal) (φ₁ := .f32) (φ₂ := .f32) dot_S50000x128_S128x128_S50000x128_1_0_0_1_n_n none (V (main_v3 : DevRef τ sig)) (RefVal.sliceW0 (V (main_arg16 : DevRef τ sig)))) (broadcastInDim S50000x128 ![0, 1] bcast_S1x128_S50000x128_0_1 (broadcastInDim S1x128 ![1] bcast_S128_S1x128_1 (RefVal.sliceB0 (V (main_arg17 : DevRef τ sig)))))) (V (main_v41 : DevRef τ sig))) (V (main_v65 : DevRef τ sig))) (V (main_v89 : DevRef τ sig))) (V (main_v113 : DevRef τ sig)))) (RefVal.sliceW1 (V (main_arg16 : DevRef τ sig)))) (broadcastInDim S50000x128 ![0, 1] bcast_S1x128_S50000x128_0_1 (broadcastInDim S1x128 ![1] bcast_S128_S1x128_1 (RefVal.sliceB1 (V (main_arg17 : DevRef τ sig)))))) (RefVal.rel_sp (RefVal.eluR (addf (F := Ideal) (addf (F := Ideal) (addf (F := Ideal) (addf (F := Ideal) (addf (F := Ideal) (Host.dotGeneral (F := Ideal) (φ₁ := .f32) (φ₂ := .f32) dot_S50000x128_S128x128_S50000x128_1_0_0_1_n_n none (V (main_v3 : DevRef τ sig)) (RefVal.sliceW0 (V (main_arg16 : DevRef τ sig)))) (broadcastInDim S50000x128 ![0, 1] bcast_S1x128_S50000x128_0_1 (broadcastInDim S1x128 ![1] bcast_S128_S1x128_1 (RefVal.sliceB0 (V (main_arg17 : DevRef τ sig)))))) (V (main_v41 : DevRef τ sig))) (V (main_v65 : DevRef τ sig))) (V (main_v89 : DevRef τ sig))) (V (main_v113 : DevRef τ sig)))) (RefVal.sliceW1 (V (main_arg18 : DevRef τ sig))) (V (main_arg4 : DevRef τ sig)))) (RefVal.rel_fl (V (main_v7 : DevRef τ sig)) (RefVal.sliceW1 (V (main_arg18 : DevRef τ sig))) (V (main_arg5 : DevRef τ sig)))) (RefVal.rel_fs (V (main_v11 : DevRef τ sig)) (RefVal.sliceW1 (V (main_arg18 : DevRef τ sig))) (V (main_arg6 : DevRef τ sig)))) (RefVal.rel_inc (V (main_v15 : DevRef τ sig)) (RefVal.sliceW1 (V (main_arg18 : DevRef τ sig))) (V (main_arg7 : DevRef τ sig))))) (RefVal.sliceW2 (V (main_arg18 : DevRef τ sig))) (V (main_arg4 : DevRef τ sig)))) (RefVal.rel_fl (V (main_v7 : DevRef τ sig)) (RefVal.sliceW2 (V (main_arg18 : DevRef τ sig))) (V (main_arg5 : DevRef τ sig)))) (RefVal.rel_fs (V (main_v11 : DevRef τ sig)) (RefVal.sliceW2 (V (main_arg18 : DevRef τ sig))) (V (main_arg6 : DevRef τ sig)))) (RefVal.rel_inc (V (main_v15 : DevRef τ sig)) (RefVal.sliceW2 (V (main_arg18 : DevRef τ sig))) (V (main_arg7 : DevRef τ sig))))) := by
  rw [after_append, suf7]
  rw [c_comb0_v126 V,
    show after (c_comb0 (F := Ideal)) V (main_arg16 : DevRef τ sig) = V (main_arg16 : DevRef τ sig) from after_of_idx_range _ V c_comb0_range main_arg16 (Or.inl (by decide)),
    show after (c_comb0 (F := Ideal)) V (main_arg17 : DevRef τ sig) = V (main_arg17 : DevRef τ sig) from after_of_idx_range _ V c_comb0_range main_arg17 (Or.inl (by decide)),
    show after (c_comb0 (F := Ideal)) V (main_arg18 : DevRef τ sig) = V (main_arg18 : DevRef τ sig) from after_of_idx_range _ V c_comb0_range main_arg18 (Or.inl (by decide)),
    show after (c_comb0 (F := Ideal)) V (main_arg4 : DevRef τ sig) = V (main_arg4 : DevRef τ sig) from after_of_idx_range _ V c_comb0_range main_arg4 (Or.inl (by decide)),
    show after (c_comb0 (F := Ideal)) V (main_v7 : DevRef τ sig) = V (main_v7 : DevRef τ sig) from after_of_idx_range _ V c_comb0_range main_v7 (Or.inl (by decide)),
    show after (c_comb0 (F := Ideal)) V (main_arg5 : DevRef τ sig) = V (main_arg5 : DevRef τ sig) from after_of_idx_range _ V c_comb0_range main_arg5 (Or.inl (by decide)),
    show after (c_comb0 (F := Ideal)) V (main_v11 : DevRef τ sig) = V (main_v11 : DevRef τ sig) from after_of_idx_range _ V c_comb0_range main_v11 (Or.inl (by decide)),
    show after (c_comb0 (F := Ideal)) V (main_arg6 : DevRef τ sig) = V (main_arg6 : DevRef τ sig) from after_of_idx_range _ V c_comb0_range main_arg6 (Or.inl (by decide)),
    show after (c_comb0 (F := Ideal)) V (main_v15 : DevRef τ sig) = V (main_v15 : DevRef τ sig) from after_of_idx_range _ V c_comb0_range main_v15 (Or.inl (by decide)),
    show after (c_comb0 (F := Ideal)) V (main_arg7 : DevRef τ sig) = V (main_arg7 : DevRef τ sig) from after_of_idx_range _ V c_comb0_range main_arg7 (Or.inl (by decide))]

/-- The result over the contents before stage 6 of 19. -/
theorem suf5 (V : Valuation τ sig (Elt Ideal)) :
    after (c_inc0 (F := Ideal) ++ (c_comb0 (F := Ideal) ++ (c_wr1 (F := Ideal) ++ (c_sp1 (F := Ideal) ++ (c_fl1 (F := Ideal) ++ (c_fs1 (F := Ideal) ++ (c_inc1 (F := Ideal) ++ (c_comb1 (F := Ideal) ++ (c_wr2 (F := Ideal) ++ (c_sp2 (F := Ideal) ++ (c_fl2 (F := Ideal) ++ (c_fs2 (F := Ideal) ++ (c_inc2 (F := Ideal) ++ (c_comb2 (F := Ideal))))))))))))))) V (main_v348 : DevRef τ sig) = (RefVal.eluR (addf (F := Ideal) (addf (F := Ideal) (addf (F := Ideal) (addf (F := Ideal) (addf (F := Ideal) (Host.dotGeneral (F := Ideal) (φ₁ := .f32) (φ₂ := .f32) dot_S50000x128_S128x128_S50000x128_1_0_0_1_n_n none (RefVal.eluR (addf (F := Ideal) (addf (F := Ideal) (addf (F := Ideal) (addf (F := Ideal) (addf (F := Ideal) (Host.dotGeneral (F := Ideal) (φ₁ := .f32) (φ₂ := .f32) dot_S50000x128_S128x128_S50000x128_1_0_0_1_n_n none (RefVal.eluR (addf (F := Ideal) (addf (F := Ideal) (addf (F := Ideal) (addf (F := Ideal) (addf (F := Ideal) (Host.dotGeneral (F := Ideal) (φ₁ := .f32) (φ₂ := .f32) dot_S50000x128_S128x128_S50000x128_1_0_0_1_n_n none (V (main_v3 : DevRef τ sig)) (RefVal.sliceW0 (V (main_arg16 : DevRef τ sig)))) (broadcastInDim S50000x128 ![0, 1] bcast_S1x128_S50000x128_0_1 (broadcastInDim S1x128 ![1] bcast_S128_S1x128_1 (RefVal.sliceB0 (V (main_arg17 : DevRef τ sig)))))) (V (main_v41 : DevRef τ sig))) (V (main_v65 : DevRef τ sig))) (V (main_v89 : DevRef τ sig))) (RefVal.rel_inc (V (main_v15 : DevRef τ sig)) (V (main_v17 : DevRef τ sig)) (V (main_arg7 : DevRef τ sig))))) (RefVal.sliceW1 (V (main_arg16 : DevRef τ sig)))) (broadcastInDim S50000x128 ![0, 1] bcast_S1x128_S50000x128_0_1 (broadcastInDim S1x128 ![1] bcast_S128_S1x128_1 (RefVal.sliceB1 (V (main_arg17 : DevRef τ sig)))))) (RefVal.rel_sp (RefVal.eluR (addf (F := Ideal) (addf (F := Ideal) (addf (F := Ideal) (addf (F := Ideal) (addf (F := Ideal) (Host.dotGeneral (F := Ideal) (φ₁ := .f32) (φ₂ := .f32) dot_S50000x128_S128x128_S50000x128_1_0_0_1_n_n none (V (main_v3 : DevRef τ sig)) (RefVal.sliceW0 (V (main_arg16 : DevRef τ sig)))) (broadcastInDim S50000x128 ![0, 1] bcast_S1x128_S50000x128_0_1 (broadcastInDim S1x128 ![1] bcast_S128_S1x128_1 (RefVal.sliceB0 (V (main_arg17 : DevRef τ sig)))))) (V (main_v41 : DevRef τ sig))) (V (main_v65 : DevRef τ sig))) (V (main_v89 : DevRef τ sig))) (RefVal.rel_inc (V (main_v15 : DevRef τ sig)) (V (main_v17 : DevRef τ sig)) (V (main_arg7 : DevRef τ sig))))) (RefVal.sliceW1 (V (main_arg18 : DevRef τ sig))) (V (main_arg4 : DevRef τ sig)))) (RefVal.rel_fl (V (main_v7 : DevRef τ sig)) (RefVal.sliceW1 (V (main_arg18 : DevRef τ sig))) (V (main_arg5 : DevRef τ sig)))) (RefVal.rel_fs (V (main_v11 : DevRef τ sig)) (RefVal.sliceW1 (V (main_arg18 : DevRef τ sig))) (V (main_arg6 : DevRef τ sig)))) (RefVal.rel_inc (V (main_v15 : DevRef τ sig)) (RefVal.sliceW1 (V (main_arg18 : DevRef τ sig))) (V (main_arg7 : DevRef τ sig))))) (RefVal.sliceW2 (V (main_arg16 : DevRef τ sig)))) (broadcastInDim S50000x128 ![0, 1] bcast_S1x128_S50000x128_0_1 (broadcastInDim S1x128 ![1] bcast_S128_S1x128_1 (RefVal.sliceB2 (V (main_arg17 : DevRef τ sig)))))) (RefVal.rel_sp (RefVal.eluR (addf (F := Ideal) (addf (F := Ideal) (addf (F := Ideal) (addf (F := Ideal) (addf (F := Ideal) (Host.dotGeneral (F := Ideal) (φ₁ := .f32) (φ₂ := .f32) dot_S50000x128_S128x128_S50000x128_1_0_0_1_n_n none (RefVal.eluR (addf (F := Ideal) (addf (F := Ideal) (addf (F := Ideal) (addf (F := Ideal) (addf (F := Ideal) (Host.dotGeneral (F := Ideal) (φ₁ := .f32) (φ₂ := .f32) dot_S50000x128_S128x128_S50000x128_1_0_0_1_n_n none (V (main_v3 : DevRef τ sig)) (RefVal.sliceW0 (V (main_arg16 : DevRef τ sig)))) (broadcastInDim S50000x128 ![0, 1] bcast_S1x128_S50000x128_0_1 (broadcastInDim S1x128 ![1] bcast_S128_S1x128_1 (RefVal.sliceB0 (V (main_arg17 : DevRef τ sig)))))) (V (main_v41 : DevRef τ sig))) (V (main_v65 : DevRef τ sig))) (V (main_v89 : DevRef τ sig))) (RefVal.rel_inc (V (main_v15 : DevRef τ sig)) (V (main_v17 : DevRef τ sig)) (V (main_arg7 : DevRef τ sig))))) (RefVal.sliceW1 (V (main_arg16 : DevRef τ sig)))) (broadcastInDim S50000x128 ![0, 1] bcast_S1x128_S50000x128_0_1 (broadcastInDim S1x128 ![1] bcast_S128_S1x128_1 (RefVal.sliceB1 (V (main_arg17 : DevRef τ sig)))))) (RefVal.rel_sp (RefVal.eluR (addf (F := Ideal) (addf (F := Ideal) (addf (F := Ideal) (addf (F := Ideal) (addf (F := Ideal) (Host.dotGeneral (F := Ideal) (φ₁ := .f32) (φ₂ := .f32) dot_S50000x128_S128x128_S50000x128_1_0_0_1_n_n none (V (main_v3 : DevRef τ sig)) (RefVal.sliceW0 (V (main_arg16 : DevRef τ sig)))) (broadcastInDim S50000x128 ![0, 1] bcast_S1x128_S50000x128_0_1 (broadcastInDim S1x128 ![1] bcast_S128_S1x128_1 (RefVal.sliceB0 (V (main_arg17 : DevRef τ sig)))))) (V (main_v41 : DevRef τ sig))) (V (main_v65 : DevRef τ sig))) (V (main_v89 : DevRef τ sig))) (RefVal.rel_inc (V (main_v15 : DevRef τ sig)) (V (main_v17 : DevRef τ sig)) (V (main_arg7 : DevRef τ sig))))) (RefVal.sliceW1 (V (main_arg18 : DevRef τ sig))) (V (main_arg4 : DevRef τ sig)))) (RefVal.rel_fl (V (main_v7 : DevRef τ sig)) (RefVal.sliceW1 (V (main_arg18 : DevRef τ sig))) (V (main_arg5 : DevRef τ sig)))) (RefVal.rel_fs (V (main_v11 : DevRef τ sig)) (RefVal.sliceW1 (V (main_arg18 : DevRef τ sig))) (V (main_arg6 : DevRef τ sig)))) (RefVal.rel_inc (V (main_v15 : DevRef τ sig)) (RefVal.sliceW1 (V (main_arg18 : DevRef τ sig))) (V (main_arg7 : DevRef τ sig))))) (RefVal.sliceW2 (V (main_arg18 : DevRef τ sig))) (V (main_arg4 : DevRef τ sig)))) (RefVal.rel_fl (V (main_v7 : DevRef τ sig)) (RefVal.sliceW2 (V (main_arg18 : DevRef τ sig))) (V (main_arg5 : DevRef τ sig)))) (RefVal.rel_fs (V (main_v11 : DevRef τ sig)) (RefVal.sliceW2 (V (main_arg18 : DevRef τ sig))) (V (main_arg6 : DevRef τ sig)))) (RefVal.rel_inc (V (main_v15 : DevRef τ sig)) (RefVal.sliceW2 (V (main_arg18 : DevRef τ sig))) (V (main_arg7 : DevRef τ sig))))) := by
  rw [after_append, suf6]
  rw [show after (c_inc0 (F := Ideal)) V (main_v3 : DevRef τ sig) = V (main_v3 : DevRef τ sig) from after_of_idx_range _ V c_inc0_range main_v3 (Or.inl (by decide)),
    show after (c_inc0 (F := Ideal)) V (main_arg16 : DevRef τ sig) = V (main_arg16 : DevRef τ sig) from after_of_idx_range _ V c_inc0_range main_arg16 (Or.inl (by decide)),
    show after (c_inc0 (F := Ideal)) V (main_arg17 : DevRef τ sig) = V (main_arg17 : DevRef τ sig) from after_of_idx_range _ V c_inc0_range main_arg17 (Or.inl (by decide)),
    show after (c_inc0 (F := Ideal)) V (main_v41 : DevRef τ sig) = V (main_v41 : DevRef τ sig) from after_of_idx_range _ V c_inc0_range main_v41 (Or.inl (by decide)),
    show after (c_inc0 (F := Ideal)) V (main_v65 : DevRef τ sig) = V (main_v65 : DevRef τ sig) from after_of_idx_range _ V c_inc0_range main_v65 (Or.inl (by decide)),
    show after (c_inc0 (F := Ideal)) V (main_v89 : DevRef τ sig) = V (main_v89 : DevRef τ sig) from after_of_idx_range _ V c_inc0_range main_v89 (Or.inl (by decide)),
    c_inc0_v113 V,
    show after (c_inc0 (F := Ideal)) V (main_arg18 : DevRef τ sig) = V (main_arg18 : DevRef τ sig) from after_of_idx_range _ V c_inc0_range main_arg18 (Or.inl (by decide)),
    show after (c_inc0 (F := Ideal)) V (main_arg4 : DevRef τ sig) = V (main_arg4 : DevRef τ sig) from after_of_idx_range _ V c_inc0_range main_arg4 (Or.inl (by decide)),
    show after (c_inc0 (F := Ideal)) V (main_v7 : DevRef τ sig) = V (main_v7 : DevRef τ sig) from after_of_idx_range _ V c_inc0_range main_v7 (Or.inl (by decide)),
    show after (c_inc0 (F := Ideal)) V (main_arg5 : DevRef τ sig) = V (main_arg5 : DevRef τ sig) from after_of_idx_range _ V c_inc0_range main_arg5 (Or.inl (by decide)),
    show after (c_inc0 (F := Ideal)) V (main_v11 : DevRef τ sig) = V (main_v11 : DevRef τ sig) from after_of_idx_range _ V c_inc0_range main_v11 (Or.inl (by decide)),
    show after (c_inc0 (F := Ideal)) V (main_arg6 : DevRef τ sig) = V (main_arg6 : DevRef τ sig) from after_of_idx_range _ V c_inc0_range main_arg6 (Or.inl (by decide)),
    show after (c_inc0 (F := Ideal)) V (main_v15 : DevRef τ sig) = V (main_v15 : DevRef τ sig) from after_of_idx_range _ V c_inc0_range main_v15 (Or.inl (by decide)),
    show after (c_inc0 (F := Ideal)) V (main_arg7 : DevRef τ sig) = V (main_arg7 : DevRef τ sig) from after_of_idx_range _ V c_inc0_range main_arg7 (Or.inl (by decide))]

/-- The result over the contents before stage 5 of 19. -/
theorem suf4 (V : Valuation τ sig (Elt Ideal)) :
    after (c_fs0 (F := Ideal) ++ (c_inc0 (F := Ideal) ++ (c_comb0 (F := Ideal) ++ (c_wr1 (F := Ideal) ++ (c_sp1 (F := Ideal) ++ (c_fl1 (F := Ideal) ++ (c_fs1 (F := Ideal) ++ (c_inc1 (F := Ideal) ++ (c_comb1 (F := Ideal) ++ (c_wr2 (F := Ideal) ++ (c_sp2 (F := Ideal) ++ (c_fl2 (F := Ideal) ++ (c_fs2 (F := Ideal) ++ (c_inc2 (F := Ideal) ++ (c_comb2 (F := Ideal)))))))))))))))) V (main_v348 : DevRef τ sig) = (RefVal.eluR (addf (F := Ideal) (addf (F := Ideal) (addf (F := Ideal) (addf (F := Ideal) (addf (F := Ideal) (Host.dotGeneral (F := Ideal) (φ₁ := .f32) (φ₂ := .f32) dot_S50000x128_S128x128_S50000x128_1_0_0_1_n_n none (RefVal.eluR (addf (F := Ideal) (addf (F := Ideal) (addf (F := Ideal) (addf (F := Ideal) (addf (F := Ideal) (Host.dotGeneral (F := Ideal) (φ₁ := .f32) (φ₂ := .f32) dot_S50000x128_S128x128_S50000x128_1_0_0_1_n_n none (RefVal.eluR (addf (F := Ideal) (addf (F := Ideal) (addf (F := Ideal) (addf (F := Ideal) (addf (F := Ideal) (Host.dotGeneral (F := Ideal) (φ₁ := .f32) (φ₂ := .f32) dot_S50000x128_S128x128_S50000x128_1_0_0_1_n_n none (V (main_v3 : DevRef τ sig)) (RefVal.sliceW0 (V (main_arg16 : DevRef τ sig)))) (broadcastInDim S50000x128 ![0, 1] bcast_S1x128_S50000x128_0_1 (broadcastInDim S1x128 ![1] bcast_S128_S1x128_1 (RefVal.sliceB0 (V (main_arg17 : DevRef τ sig)))))) (V (main_v41 : DevRef τ sig))) (V (main_v65 : DevRef τ sig))) (RefVal.rel_fs (V (main_v11 : DevRef τ sig)) (V (main_v17 : DevRef τ sig)) (V (main_arg6 : DevRef τ sig)))) (RefVal.rel_inc (V (main_v15 : DevRef τ sig)) (V (main_v17 : DevRef τ sig)) (V (main_arg7 : DevRef τ sig))))) (RefVal.sliceW1 (V (main_arg16 : DevRef τ sig)))) (broadcastInDim S50000x128 ![0, 1] bcast_S1x128_S50000x128_0_1 (broadcastInDim S1x128 ![1] bcast_S128_S1x128_1 (RefVal.sliceB1 (V (main_arg17 : DevRef τ sig)))))) (RefVal.rel_sp (RefVal.eluR (addf (F := Ideal) (addf (F := Ideal) (addf (F := Ideal) (addf (F := Ideal) (addf (F := Ideal) (Host.dotGeneral (F := Ideal) (φ₁ := .f32) (φ₂ := .f32) dot_S50000x128_S128x128_S50000x128_1_0_0_1_n_n none (V (main_v3 : DevRef τ sig)) (RefVal.sliceW0 (V (main_arg16 : DevRef τ sig)))) (broadcastInDim S50000x128 ![0, 1] bcast_S1x128_S50000x128_0_1 (broadcastInDim S1x128 ![1] bcast_S128_S1x128_1 (RefVal.sliceB0 (V (main_arg17 : DevRef τ sig)))))) (V (main_v41 : DevRef τ sig))) (V (main_v65 : DevRef τ sig))) (RefVal.rel_fs (V (main_v11 : DevRef τ sig)) (V (main_v17 : DevRef τ sig)) (V (main_arg6 : DevRef τ sig)))) (RefVal.rel_inc (V (main_v15 : DevRef τ sig)) (V (main_v17 : DevRef τ sig)) (V (main_arg7 : DevRef τ sig))))) (RefVal.sliceW1 (V (main_arg18 : DevRef τ sig))) (V (main_arg4 : DevRef τ sig)))) (RefVal.rel_fl (V (main_v7 : DevRef τ sig)) (RefVal.sliceW1 (V (main_arg18 : DevRef τ sig))) (V (main_arg5 : DevRef τ sig)))) (RefVal.rel_fs (V (main_v11 : DevRef τ sig)) (RefVal.sliceW1 (V (main_arg18 : DevRef τ sig))) (V (main_arg6 : DevRef τ sig)))) (RefVal.rel_inc (V (main_v15 : DevRef τ sig)) (RefVal.sliceW1 (V (main_arg18 : DevRef τ sig))) (V (main_arg7 : DevRef τ sig))))) (RefVal.sliceW2 (V (main_arg16 : DevRef τ sig)))) (broadcastInDim S50000x128 ![0, 1] bcast_S1x128_S50000x128_0_1 (broadcastInDim S1x128 ![1] bcast_S128_S1x128_1 (RefVal.sliceB2 (V (main_arg17 : DevRef τ sig)))))) (RefVal.rel_sp (RefVal.eluR (addf (F := Ideal) (addf (F := Ideal) (addf (F := Ideal) (addf (F := Ideal) (addf (F := Ideal) (Host.dotGeneral (F := Ideal) (φ₁ := .f32) (φ₂ := .f32) dot_S50000x128_S128x128_S50000x128_1_0_0_1_n_n none (RefVal.eluR (addf (F := Ideal) (addf (F := Ideal) (addf (F := Ideal) (addf (F := Ideal) (addf (F := Ideal) (Host.dotGeneral (F := Ideal) (φ₁ := .f32) (φ₂ := .f32) dot_S50000x128_S128x128_S50000x128_1_0_0_1_n_n none (V (main_v3 : DevRef τ sig)) (RefVal.sliceW0 (V (main_arg16 : DevRef τ sig)))) (broadcastInDim S50000x128 ![0, 1] bcast_S1x128_S50000x128_0_1 (broadcastInDim S1x128 ![1] bcast_S128_S1x128_1 (RefVal.sliceB0 (V (main_arg17 : DevRef τ sig)))))) (V (main_v41 : DevRef τ sig))) (V (main_v65 : DevRef τ sig))) (RefVal.rel_fs (V (main_v11 : DevRef τ sig)) (V (main_v17 : DevRef τ sig)) (V (main_arg6 : DevRef τ sig)))) (RefVal.rel_inc (V (main_v15 : DevRef τ sig)) (V (main_v17 : DevRef τ sig)) (V (main_arg7 : DevRef τ sig))))) (RefVal.sliceW1 (V (main_arg16 : DevRef τ sig)))) (broadcastInDim S50000x128 ![0, 1] bcast_S1x128_S50000x128_0_1 (broadcastInDim S1x128 ![1] bcast_S128_S1x128_1 (RefVal.sliceB1 (V (main_arg17 : DevRef τ sig)))))) (RefVal.rel_sp (RefVal.eluR (addf (F := Ideal) (addf (F := Ideal) (addf (F := Ideal) (addf (F := Ideal) (addf (F := Ideal) (Host.dotGeneral (F := Ideal) (φ₁ := .f32) (φ₂ := .f32) dot_S50000x128_S128x128_S50000x128_1_0_0_1_n_n none (V (main_v3 : DevRef τ sig)) (RefVal.sliceW0 (V (main_arg16 : DevRef τ sig)))) (broadcastInDim S50000x128 ![0, 1] bcast_S1x128_S50000x128_0_1 (broadcastInDim S1x128 ![1] bcast_S128_S1x128_1 (RefVal.sliceB0 (V (main_arg17 : DevRef τ sig)))))) (V (main_v41 : DevRef τ sig))) (V (main_v65 : DevRef τ sig))) (RefVal.rel_fs (V (main_v11 : DevRef τ sig)) (V (main_v17 : DevRef τ sig)) (V (main_arg6 : DevRef τ sig)))) (RefVal.rel_inc (V (main_v15 : DevRef τ sig)) (V (main_v17 : DevRef τ sig)) (V (main_arg7 : DevRef τ sig))))) (RefVal.sliceW1 (V (main_arg18 : DevRef τ sig))) (V (main_arg4 : DevRef τ sig)))) (RefVal.rel_fl (V (main_v7 : DevRef τ sig)) (RefVal.sliceW1 (V (main_arg18 : DevRef τ sig))) (V (main_arg5 : DevRef τ sig)))) (RefVal.rel_fs (V (main_v11 : DevRef τ sig)) (RefVal.sliceW1 (V (main_arg18 : DevRef τ sig))) (V (main_arg6 : DevRef τ sig)))) (RefVal.rel_inc (V (main_v15 : DevRef τ sig)) (RefVal.sliceW1 (V (main_arg18 : DevRef τ sig))) (V (main_arg7 : DevRef τ sig))))) (RefVal.sliceW2 (V (main_arg18 : DevRef τ sig))) (V (main_arg4 : DevRef τ sig)))) (RefVal.rel_fl (V (main_v7 : DevRef τ sig)) (RefVal.sliceW2 (V (main_arg18 : DevRef τ sig))) (V (main_arg5 : DevRef τ sig)))) (RefVal.rel_fs (V (main_v11 : DevRef τ sig)) (RefVal.sliceW2 (V (main_arg18 : DevRef τ sig))) (V (main_arg6 : DevRef τ sig)))) (RefVal.rel_inc (V (main_v15 : DevRef τ sig)) (RefVal.sliceW2 (V (main_arg18 : DevRef τ sig))) (V (main_arg7 : DevRef τ sig))))) := by
  rw [after_append, suf5]
  rw [show after (c_fs0 (F := Ideal)) V (main_v3 : DevRef τ sig) = V (main_v3 : DevRef τ sig) from after_of_idx_range _ V c_fs0_range main_v3 (Or.inl (by decide)),
    show after (c_fs0 (F := Ideal)) V (main_arg16 : DevRef τ sig) = V (main_arg16 : DevRef τ sig) from after_of_idx_range _ V c_fs0_range main_arg16 (Or.inl (by decide)),
    show after (c_fs0 (F := Ideal)) V (main_arg17 : DevRef τ sig) = V (main_arg17 : DevRef τ sig) from after_of_idx_range _ V c_fs0_range main_arg17 (Or.inl (by decide)),
    show after (c_fs0 (F := Ideal)) V (main_v41 : DevRef τ sig) = V (main_v41 : DevRef τ sig) from after_of_idx_range _ V c_fs0_range main_v41 (Or.inl (by decide)),
    show after (c_fs0 (F := Ideal)) V (main_v65 : DevRef τ sig) = V (main_v65 : DevRef τ sig) from after_of_idx_range _ V c_fs0_range main_v65 (Or.inl (by decide)),
    c_fs0_v89 V,
    show after (c_fs0 (F := Ideal)) V (main_v15 : DevRef τ sig) = V (main_v15 : DevRef τ sig) from after_of_idx_range _ V c_fs0_range main_v15 (Or.inl (by decide)),
    show after (c_fs0 (F := Ideal)) V (main_v17 : DevRef τ sig) = V (main_v17 : DevRef τ sig) from after_of_idx_range _ V c_fs0_range main_v17 (Or.inl (by decide)),
    show after (c_fs0 (F := Ideal)) V (main_arg7 : DevRef τ sig) = V (main_arg7 : DevRef τ sig) from after_of_idx_range _ V c_fs0_range main_arg7 (Or.inl (by decide)),
    show after (c_fs0 (F := Ideal)) V (main_arg18 : DevRef τ sig) = V (main_arg18 : DevRef τ sig) from after_of_idx_range _ V c_fs0_range main_arg18 (Or.inl (by decide)),
    show after (c_fs0 (F := Ideal)) V (main_arg4 : DevRef τ sig) = V (main_arg4 : DevRef τ sig) from after_of_idx_range _ V c_fs0_range main_arg4 (Or.inl (by decide)),
    show after (c_fs0 (F := Ideal)) V (main_v7 : DevRef τ sig) = V (main_v7 : DevRef τ sig) from after_of_idx_range _ V c_fs0_range main_v7 (Or.inl (by decide)),
    show after (c_fs0 (F := Ideal)) V (main_arg5 : DevRef τ sig) = V (main_arg5 : DevRef τ sig) from after_of_idx_range _ V c_fs0_range main_arg5 (Or.inl (by decide)),
    show after (c_fs0 (F := Ideal)) V (main_v11 : DevRef τ sig) = V (main_v11 : DevRef τ sig) from after_of_idx_range _ V c_fs0_range main_v11 (Or.inl (by decide)),
    show after (c_fs0 (F := Ideal)) V (main_arg6 : DevRef τ sig) = V (main_arg6 : DevRef τ sig) from after_of_idx_range _ V c_fs0_range main_arg6 (Or.inl (by decide))]

/-- The result over the contents before stage 4 of 19. -/
theorem suf3 (V : Valuation τ sig (Elt Ideal)) :
    after (c_fl0 (F := Ideal) ++ (c_fs0 (F := Ideal) ++ (c_inc0 (F := Ideal) ++ (c_comb0 (F := Ideal) ++ (c_wr1 (F := Ideal) ++ (c_sp1 (F := Ideal) ++ (c_fl1 (F := Ideal) ++ (c_fs1 (F := Ideal) ++ (c_inc1 (F := Ideal) ++ (c_comb1 (F := Ideal) ++ (c_wr2 (F := Ideal) ++ (c_sp2 (F := Ideal) ++ (c_fl2 (F := Ideal) ++ (c_fs2 (F := Ideal) ++ (c_inc2 (F := Ideal) ++ (c_comb2 (F := Ideal))))))))))))))))) V (main_v348 : DevRef τ sig) = (RefVal.eluR (addf (F := Ideal) (addf (F := Ideal) (addf (F := Ideal) (addf (F := Ideal) (addf (F := Ideal) (Host.dotGeneral (F := Ideal) (φ₁ := .f32) (φ₂ := .f32) dot_S50000x128_S128x128_S50000x128_1_0_0_1_n_n none (RefVal.eluR (addf (F := Ideal) (addf (F := Ideal) (addf (F := Ideal) (addf (F := Ideal) (addf (F := Ideal) (Host.dotGeneral (F := Ideal) (φ₁ := .f32) (φ₂ := .f32) dot_S50000x128_S128x128_S50000x128_1_0_0_1_n_n none (RefVal.eluR (addf (F := Ideal) (addf (F := Ideal) (addf (F := Ideal) (addf (F := Ideal) (addf (F := Ideal) (Host.dotGeneral (F := Ideal) (φ₁ := .f32) (φ₂ := .f32) dot_S50000x128_S128x128_S50000x128_1_0_0_1_n_n none (V (main_v3 : DevRef τ sig)) (RefVal.sliceW0 (V (main_arg16 : DevRef τ sig)))) (broadcastInDim S50000x128 ![0, 1] bcast_S1x128_S50000x128_0_1 (broadcastInDim S1x128 ![1] bcast_S128_S1x128_1 (RefVal.sliceB0 (V (main_arg17 : DevRef τ sig)))))) (V (main_v41 : DevRef τ sig))) (RefVal.rel_fl (V (main_v7 : DevRef τ sig)) (V (main_v17 : DevRef τ sig)) (V (main_arg5 : DevRef τ sig)))) (RefVal.rel_fs (V (main_v11 : DevRef τ sig)) (V (main_v17 : DevRef τ sig)) (V (main_arg6 : DevRef τ sig)))) (RefVal.rel_inc (V (main_v15 : DevRef τ sig)) (V (main_v17 : DevRef τ sig)) (V (main_arg7 : DevRef τ sig))))) (RefVal.sliceW1 (V (main_arg16 : DevRef τ sig)))) (broadcastInDim S50000x128 ![0, 1] bcast_S1x128_S50000x128_0_1 (broadcastInDim S1x128 ![1] bcast_S128_S1x128_1 (RefVal.sliceB1 (V (main_arg17 : DevRef τ sig)))))) (RefVal.rel_sp (RefVal.eluR (addf (F := Ideal) (addf (F := Ideal) (addf (F := Ideal) (addf (F := Ideal) (addf (F := Ideal) (Host.dotGeneral (F := Ideal) (φ₁ := .f32) (φ₂ := .f32) dot_S50000x128_S128x128_S50000x128_1_0_0_1_n_n none (V (main_v3 : DevRef τ sig)) (RefVal.sliceW0 (V (main_arg16 : DevRef τ sig)))) (broadcastInDim S50000x128 ![0, 1] bcast_S1x128_S50000x128_0_1 (broadcastInDim S1x128 ![1] bcast_S128_S1x128_1 (RefVal.sliceB0 (V (main_arg17 : DevRef τ sig)))))) (V (main_v41 : DevRef τ sig))) (RefVal.rel_fl (V (main_v7 : DevRef τ sig)) (V (main_v17 : DevRef τ sig)) (V (main_arg5 : DevRef τ sig)))) (RefVal.rel_fs (V (main_v11 : DevRef τ sig)) (V (main_v17 : DevRef τ sig)) (V (main_arg6 : DevRef τ sig)))) (RefVal.rel_inc (V (main_v15 : DevRef τ sig)) (V (main_v17 : DevRef τ sig)) (V (main_arg7 : DevRef τ sig))))) (RefVal.sliceW1 (V (main_arg18 : DevRef τ sig))) (V (main_arg4 : DevRef τ sig)))) (RefVal.rel_fl (V (main_v7 : DevRef τ sig)) (RefVal.sliceW1 (V (main_arg18 : DevRef τ sig))) (V (main_arg5 : DevRef τ sig)))) (RefVal.rel_fs (V (main_v11 : DevRef τ sig)) (RefVal.sliceW1 (V (main_arg18 : DevRef τ sig))) (V (main_arg6 : DevRef τ sig)))) (RefVal.rel_inc (V (main_v15 : DevRef τ sig)) (RefVal.sliceW1 (V (main_arg18 : DevRef τ sig))) (V (main_arg7 : DevRef τ sig))))) (RefVal.sliceW2 (V (main_arg16 : DevRef τ sig)))) (broadcastInDim S50000x128 ![0, 1] bcast_S1x128_S50000x128_0_1 (broadcastInDim S1x128 ![1] bcast_S128_S1x128_1 (RefVal.sliceB2 (V (main_arg17 : DevRef τ sig)))))) (RefVal.rel_sp (RefVal.eluR (addf (F := Ideal) (addf (F := Ideal) (addf (F := Ideal) (addf (F := Ideal) (addf (F := Ideal) (Host.dotGeneral (F := Ideal) (φ₁ := .f32) (φ₂ := .f32) dot_S50000x128_S128x128_S50000x128_1_0_0_1_n_n none (RefVal.eluR (addf (F := Ideal) (addf (F := Ideal) (addf (F := Ideal) (addf (F := Ideal) (addf (F := Ideal) (Host.dotGeneral (F := Ideal) (φ₁ := .f32) (φ₂ := .f32) dot_S50000x128_S128x128_S50000x128_1_0_0_1_n_n none (V (main_v3 : DevRef τ sig)) (RefVal.sliceW0 (V (main_arg16 : DevRef τ sig)))) (broadcastInDim S50000x128 ![0, 1] bcast_S1x128_S50000x128_0_1 (broadcastInDim S1x128 ![1] bcast_S128_S1x128_1 (RefVal.sliceB0 (V (main_arg17 : DevRef τ sig)))))) (V (main_v41 : DevRef τ sig))) (RefVal.rel_fl (V (main_v7 : DevRef τ sig)) (V (main_v17 : DevRef τ sig)) (V (main_arg5 : DevRef τ sig)))) (RefVal.rel_fs (V (main_v11 : DevRef τ sig)) (V (main_v17 : DevRef τ sig)) (V (main_arg6 : DevRef τ sig)))) (RefVal.rel_inc (V (main_v15 : DevRef τ sig)) (V (main_v17 : DevRef τ sig)) (V (main_arg7 : DevRef τ sig))))) (RefVal.sliceW1 (V (main_arg16 : DevRef τ sig)))) (broadcastInDim S50000x128 ![0, 1] bcast_S1x128_S50000x128_0_1 (broadcastInDim S1x128 ![1] bcast_S128_S1x128_1 (RefVal.sliceB1 (V (main_arg17 : DevRef τ sig)))))) (RefVal.rel_sp (RefVal.eluR (addf (F := Ideal) (addf (F := Ideal) (addf (F := Ideal) (addf (F := Ideal) (addf (F := Ideal) (Host.dotGeneral (F := Ideal) (φ₁ := .f32) (φ₂ := .f32) dot_S50000x128_S128x128_S50000x128_1_0_0_1_n_n none (V (main_v3 : DevRef τ sig)) (RefVal.sliceW0 (V (main_arg16 : DevRef τ sig)))) (broadcastInDim S50000x128 ![0, 1] bcast_S1x128_S50000x128_0_1 (broadcastInDim S1x128 ![1] bcast_S128_S1x128_1 (RefVal.sliceB0 (V (main_arg17 : DevRef τ sig)))))) (V (main_v41 : DevRef τ sig))) (RefVal.rel_fl (V (main_v7 : DevRef τ sig)) (V (main_v17 : DevRef τ sig)) (V (main_arg5 : DevRef τ sig)))) (RefVal.rel_fs (V (main_v11 : DevRef τ sig)) (V (main_v17 : DevRef τ sig)) (V (main_arg6 : DevRef τ sig)))) (RefVal.rel_inc (V (main_v15 : DevRef τ sig)) (V (main_v17 : DevRef τ sig)) (V (main_arg7 : DevRef τ sig))))) (RefVal.sliceW1 (V (main_arg18 : DevRef τ sig))) (V (main_arg4 : DevRef τ sig)))) (RefVal.rel_fl (V (main_v7 : DevRef τ sig)) (RefVal.sliceW1 (V (main_arg18 : DevRef τ sig))) (V (main_arg5 : DevRef τ sig)))) (RefVal.rel_fs (V (main_v11 : DevRef τ sig)) (RefVal.sliceW1 (V (main_arg18 : DevRef τ sig))) (V (main_arg6 : DevRef τ sig)))) (RefVal.rel_inc (V (main_v15 : DevRef τ sig)) (RefVal.sliceW1 (V (main_arg18 : DevRef τ sig))) (V (main_arg7 : DevRef τ sig))))) (RefVal.sliceW2 (V (main_arg18 : DevRef τ sig))) (V (main_arg4 : DevRef τ sig)))) (RefVal.rel_fl (V (main_v7 : DevRef τ sig)) (RefVal.sliceW2 (V (main_arg18 : DevRef τ sig))) (V (main_arg5 : DevRef τ sig)))) (RefVal.rel_fs (V (main_v11 : DevRef τ sig)) (RefVal.sliceW2 (V (main_arg18 : DevRef τ sig))) (V (main_arg6 : DevRef τ sig)))) (RefVal.rel_inc (V (main_v15 : DevRef τ sig)) (RefVal.sliceW2 (V (main_arg18 : DevRef τ sig))) (V (main_arg7 : DevRef τ sig))))) := by
  rw [after_append, suf4]
  rw [show after (c_fl0 (F := Ideal)) V (main_v3 : DevRef τ sig) = V (main_v3 : DevRef τ sig) from after_of_idx_range _ V c_fl0_range main_v3 (Or.inl (by decide)),
    show after (c_fl0 (F := Ideal)) V (main_arg16 : DevRef τ sig) = V (main_arg16 : DevRef τ sig) from after_of_idx_range _ V c_fl0_range main_arg16 (Or.inl (by decide)),
    show after (c_fl0 (F := Ideal)) V (main_arg17 : DevRef τ sig) = V (main_arg17 : DevRef τ sig) from after_of_idx_range _ V c_fl0_range main_arg17 (Or.inl (by decide)),
    show after (c_fl0 (F := Ideal)) V (main_v41 : DevRef τ sig) = V (main_v41 : DevRef τ sig) from after_of_idx_range _ V c_fl0_range main_v41 (Or.inl (by decide)),
    c_fl0_v65 V,
    show after (c_fl0 (F := Ideal)) V (main_v11 : DevRef τ sig) = V (main_v11 : DevRef τ sig) from after_of_idx_range _ V c_fl0_range main_v11 (Or.inl (by decide)),
    show after (c_fl0 (F := Ideal)) V (main_v17 : DevRef τ sig) = V (main_v17 : DevRef τ sig) from after_of_idx_range _ V c_fl0_range main_v17 (Or.inl (by decide)),
    show after (c_fl0 (F := Ideal)) V (main_arg6 : DevRef τ sig) = V (main_arg6 : DevRef τ sig) from after_of_idx_range _ V c_fl0_range main_arg6 (Or.inl (by decide)),
    show after (c_fl0 (F := Ideal)) V (main_v15 : DevRef τ sig) = V (main_v15 : DevRef τ sig) from after_of_idx_range _ V c_fl0_range main_v15 (Or.inl (by decide)),
    show after (c_fl0 (F := Ideal)) V (main_arg7 : DevRef τ sig) = V (main_arg7 : DevRef τ sig) from after_of_idx_range _ V c_fl0_range main_arg7 (Or.inl (by decide)),
    show after (c_fl0 (F := Ideal)) V (main_arg18 : DevRef τ sig) = V (main_arg18 : DevRef τ sig) from after_of_idx_range _ V c_fl0_range main_arg18 (Or.inl (by decide)),
    show after (c_fl0 (F := Ideal)) V (main_arg4 : DevRef τ sig) = V (main_arg4 : DevRef τ sig) from after_of_idx_range _ V c_fl0_range main_arg4 (Or.inl (by decide)),
    show after (c_fl0 (F := Ideal)) V (main_v7 : DevRef τ sig) = V (main_v7 : DevRef τ sig) from after_of_idx_range _ V c_fl0_range main_v7 (Or.inl (by decide)),
    show after (c_fl0 (F := Ideal)) V (main_arg5 : DevRef τ sig) = V (main_arg5 : DevRef τ sig) from after_of_idx_range _ V c_fl0_range main_arg5 (Or.inl (by decide))]

/-- The result over the contents before stage 3 of 19. -/
theorem suf2 (V : Valuation τ sig (Elt Ideal)) :
    after (c_sp0 (F := Ideal) ++ (c_fl0 (F := Ideal) ++ (c_fs0 (F := Ideal) ++ (c_inc0 (F := Ideal) ++ (c_comb0 (F := Ideal) ++ (c_wr1 (F := Ideal) ++ (c_sp1 (F := Ideal) ++ (c_fl1 (F := Ideal) ++ (c_fs1 (F := Ideal) ++ (c_inc1 (F := Ideal) ++ (c_comb1 (F := Ideal) ++ (c_wr2 (F := Ideal) ++ (c_sp2 (F := Ideal) ++ (c_fl2 (F := Ideal) ++ (c_fs2 (F := Ideal) ++ (c_inc2 (F := Ideal) ++ (c_comb2 (F := Ideal)))))))))))))))))) V (main_v348 : DevRef τ sig) = (RefVal.eluR (addf (F := Ideal) (addf (F := Ideal) (addf (F := Ideal) (addf (F := Ideal) (addf (F := Ideal) (Host.dotGeneral (F := Ideal) (φ₁ := .f32) (φ₂ := .f32) dot_S50000x128_S128x128_S50000x128_1_0_0_1_n_n none (RefVal.eluR (addf (F := Ideal) (addf (F := Ideal) (addf (F := Ideal) (addf (F := Ideal) (addf (F := Ideal) (Host.dotGeneral (F := Ideal) (φ₁ := .f32) (φ₂ := .f32) dot_S50000x128_S128x128_S50000x128_1_0_0_1_n_n none (RefVal.eluR (addf (F := Ideal) (addf (F := Ideal) (addf (F := Ideal) (addf (F := Ideal) (addf (F := Ideal) (Host.dotGeneral (F := Ideal) (φ₁ := .f32) (φ₂ := .f32) dot_S50000x128_S128x128_S50000x128_1_0_0_1_n_n none (V (main_v3 : DevRef τ sig)) (RefVal.sliceW0 (V (main_arg16 : DevRef τ sig)))) (broadcastInDim S50000x128 ![0, 1] bcast_S1x128_S50000x128_0_1 (broadcastInDim S1x128 ![1] bcast_S128_S1x128_1 (RefVal.sliceB0 (V (main_arg17 : DevRef τ sig)))))) (RefVal.rel_sp (V (main_v3 : DevRef τ sig)) (V (main_v17 : DevRef τ sig)) (V (main_arg4 : DevRef τ sig)))) (RefVal.rel_fl (V (main_v7 : DevRef τ sig)) (V (main_v17 : DevRef τ sig)) (V (main_arg5 : DevRef τ sig)))) (RefVal.rel_fs (V (main_v11 : DevRef τ sig)) (V (main_v17 : DevRef τ sig)) (V (main_arg6 : DevRef τ sig)))) (RefVal.rel_inc (V (main_v15 : DevRef τ sig)) (V (main_v17 : DevRef τ sig)) (V (main_arg7 : DevRef τ sig))))) (RefVal.sliceW1 (V (main_arg16 : DevRef τ sig)))) (broadcastInDim S50000x128 ![0, 1] bcast_S1x128_S50000x128_0_1 (broadcastInDim S1x128 ![1] bcast_S128_S1x128_1 (RefVal.sliceB1 (V (main_arg17 : DevRef τ sig)))))) (RefVal.rel_sp (RefVal.eluR (addf (F := Ideal) (addf (F := Ideal) (addf (F := Ideal) (addf (F := Ideal) (addf (F := Ideal) (Host.dotGeneral (F := Ideal) (φ₁ := .f32) (φ₂ := .f32) dot_S50000x128_S128x128_S50000x128_1_0_0_1_n_n none (V (main_v3 : DevRef τ sig)) (RefVal.sliceW0 (V (main_arg16 : DevRef τ sig)))) (broadcastInDim S50000x128 ![0, 1] bcast_S1x128_S50000x128_0_1 (broadcastInDim S1x128 ![1] bcast_S128_S1x128_1 (RefVal.sliceB0 (V (main_arg17 : DevRef τ sig)))))) (RefVal.rel_sp (V (main_v3 : DevRef τ sig)) (V (main_v17 : DevRef τ sig)) (V (main_arg4 : DevRef τ sig)))) (RefVal.rel_fl (V (main_v7 : DevRef τ sig)) (V (main_v17 : DevRef τ sig)) (V (main_arg5 : DevRef τ sig)))) (RefVal.rel_fs (V (main_v11 : DevRef τ sig)) (V (main_v17 : DevRef τ sig)) (V (main_arg6 : DevRef τ sig)))) (RefVal.rel_inc (V (main_v15 : DevRef τ sig)) (V (main_v17 : DevRef τ sig)) (V (main_arg7 : DevRef τ sig))))) (RefVal.sliceW1 (V (main_arg18 : DevRef τ sig))) (V (main_arg4 : DevRef τ sig)))) (RefVal.rel_fl (V (main_v7 : DevRef τ sig)) (RefVal.sliceW1 (V (main_arg18 : DevRef τ sig))) (V (main_arg5 : DevRef τ sig)))) (RefVal.rel_fs (V (main_v11 : DevRef τ sig)) (RefVal.sliceW1 (V (main_arg18 : DevRef τ sig))) (V (main_arg6 : DevRef τ sig)))) (RefVal.rel_inc (V (main_v15 : DevRef τ sig)) (RefVal.sliceW1 (V (main_arg18 : DevRef τ sig))) (V (main_arg7 : DevRef τ sig))))) (RefVal.sliceW2 (V (main_arg16 : DevRef τ sig)))) (broadcastInDim S50000x128 ![0, 1] bcast_S1x128_S50000x128_0_1 (broadcastInDim S1x128 ![1] bcast_S128_S1x128_1 (RefVal.sliceB2 (V (main_arg17 : DevRef τ sig)))))) (RefVal.rel_sp (RefVal.eluR (addf (F := Ideal) (addf (F := Ideal) (addf (F := Ideal) (addf (F := Ideal) (addf (F := Ideal) (Host.dotGeneral (F := Ideal) (φ₁ := .f32) (φ₂ := .f32) dot_S50000x128_S128x128_S50000x128_1_0_0_1_n_n none (RefVal.eluR (addf (F := Ideal) (addf (F := Ideal) (addf (F := Ideal) (addf (F := Ideal) (addf (F := Ideal) (Host.dotGeneral (F := Ideal) (φ₁ := .f32) (φ₂ := .f32) dot_S50000x128_S128x128_S50000x128_1_0_0_1_n_n none (V (main_v3 : DevRef τ sig)) (RefVal.sliceW0 (V (main_arg16 : DevRef τ sig)))) (broadcastInDim S50000x128 ![0, 1] bcast_S1x128_S50000x128_0_1 (broadcastInDim S1x128 ![1] bcast_S128_S1x128_1 (RefVal.sliceB0 (V (main_arg17 : DevRef τ sig)))))) (RefVal.rel_sp (V (main_v3 : DevRef τ sig)) (V (main_v17 : DevRef τ sig)) (V (main_arg4 : DevRef τ sig)))) (RefVal.rel_fl (V (main_v7 : DevRef τ sig)) (V (main_v17 : DevRef τ sig)) (V (main_arg5 : DevRef τ sig)))) (RefVal.rel_fs (V (main_v11 : DevRef τ sig)) (V (main_v17 : DevRef τ sig)) (V (main_arg6 : DevRef τ sig)))) (RefVal.rel_inc (V (main_v15 : DevRef τ sig)) (V (main_v17 : DevRef τ sig)) (V (main_arg7 : DevRef τ sig))))) (RefVal.sliceW1 (V (main_arg16 : DevRef τ sig)))) (broadcastInDim S50000x128 ![0, 1] bcast_S1x128_S50000x128_0_1 (broadcastInDim S1x128 ![1] bcast_S128_S1x128_1 (RefVal.sliceB1 (V (main_arg17 : DevRef τ sig)))))) (RefVal.rel_sp (RefVal.eluR (addf (F := Ideal) (addf (F := Ideal) (addf (F := Ideal) (addf (F := Ideal) (addf (F := Ideal) (Host.dotGeneral (F := Ideal) (φ₁ := .f32) (φ₂ := .f32) dot_S50000x128_S128x128_S50000x128_1_0_0_1_n_n none (V (main_v3 : DevRef τ sig)) (RefVal.sliceW0 (V (main_arg16 : DevRef τ sig)))) (broadcastInDim S50000x128 ![0, 1] bcast_S1x128_S50000x128_0_1 (broadcastInDim S1x128 ![1] bcast_S128_S1x128_1 (RefVal.sliceB0 (V (main_arg17 : DevRef τ sig)))))) (RefVal.rel_sp (V (main_v3 : DevRef τ sig)) (V (main_v17 : DevRef τ sig)) (V (main_arg4 : DevRef τ sig)))) (RefVal.rel_fl (V (main_v7 : DevRef τ sig)) (V (main_v17 : DevRef τ sig)) (V (main_arg5 : DevRef τ sig)))) (RefVal.rel_fs (V (main_v11 : DevRef τ sig)) (V (main_v17 : DevRef τ sig)) (V (main_arg6 : DevRef τ sig)))) (RefVal.rel_inc (V (main_v15 : DevRef τ sig)) (V (main_v17 : DevRef τ sig)) (V (main_arg7 : DevRef τ sig))))) (RefVal.sliceW1 (V (main_arg18 : DevRef τ sig))) (V (main_arg4 : DevRef τ sig)))) (RefVal.rel_fl (V (main_v7 : DevRef τ sig)) (RefVal.sliceW1 (V (main_arg18 : DevRef τ sig))) (V (main_arg5 : DevRef τ sig)))) (RefVal.rel_fs (V (main_v11 : DevRef τ sig)) (RefVal.sliceW1 (V (main_arg18 : DevRef τ sig))) (V (main_arg6 : DevRef τ sig)))) (RefVal.rel_inc (V (main_v15 : DevRef τ sig)) (RefVal.sliceW1 (V (main_arg18 : DevRef τ sig))) (V (main_arg7 : DevRef τ sig))))) (RefVal.sliceW2 (V (main_arg18 : DevRef τ sig))) (V (main_arg4 : DevRef τ sig)))) (RefVal.rel_fl (V (main_v7 : DevRef τ sig)) (RefVal.sliceW2 (V (main_arg18 : DevRef τ sig))) (V (main_arg5 : DevRef τ sig)))) (RefVal.rel_fs (V (main_v11 : DevRef τ sig)) (RefVal.sliceW2 (V (main_arg18 : DevRef τ sig))) (V (main_arg6 : DevRef τ sig)))) (RefVal.rel_inc (V (main_v15 : DevRef τ sig)) (RefVal.sliceW2 (V (main_arg18 : DevRef τ sig))) (V (main_arg7 : DevRef τ sig))))) := by
  rw [after_append, suf3]
  rw [show after (c_sp0 (F := Ideal)) V (main_v3 : DevRef τ sig) = V (main_v3 : DevRef τ sig) from after_of_idx_range _ V c_sp0_range main_v3 (Or.inl (by decide)),
    show after (c_sp0 (F := Ideal)) V (main_arg16 : DevRef τ sig) = V (main_arg16 : DevRef τ sig) from after_of_idx_range _ V c_sp0_range main_arg16 (Or.inl (by decide)),
    show after (c_sp0 (F := Ideal)) V (main_arg17 : DevRef τ sig) = V (main_arg17 : DevRef τ sig) from after_of_idx_range _ V c_sp0_range main_arg17 (Or.inl (by decide)),
    c_sp0_v41 V,
    show after (c_sp0 (F := Ideal)) V (main_v7 : DevRef τ sig) = V (main_v7 : DevRef τ sig) from after_of_idx_range _ V c_sp0_range main_v7 (Or.inl (by decide)),
    show after (c_sp0 (F := Ideal)) V (main_v17 : DevRef τ sig) = V (main_v17 : DevRef τ sig) from after_of_idx_range _ V c_sp0_range main_v17 (Or.inl (by decide)),
    show after (c_sp0 (F := Ideal)) V (main_arg5 : DevRef τ sig) = V (main_arg5 : DevRef τ sig) from after_of_idx_range _ V c_sp0_range main_arg5 (Or.inl (by decide)),
    show after (c_sp0 (F := Ideal)) V (main_v11 : DevRef τ sig) = V (main_v11 : DevRef τ sig) from after_of_idx_range _ V c_sp0_range main_v11 (Or.inl (by decide)),
    show after (c_sp0 (F := Ideal)) V (main_arg6 : DevRef τ sig) = V (main_arg6 : DevRef τ sig) from after_of_idx_range _ V c_sp0_range main_arg6 (Or.inl (by decide)),
    show after (c_sp0 (F := Ideal)) V (main_v15 : DevRef τ sig) = V (main_v15 : DevRef τ sig) from after_of_idx_range _ V c_sp0_range main_v15 (Or.inl (by decide)),
    show after (c_sp0 (F := Ideal)) V (main_arg7 : DevRef τ sig) = V (main_arg7 : DevRef τ sig) from after_of_idx_range _ V c_sp0_range main_arg7 (Or.inl (by decide)),
    show after (c_sp0 (F := Ideal)) V (main_arg18 : DevRef τ sig) = V (main_arg18 : DevRef τ sig) from after_of_idx_range _ V c_sp0_range main_arg18 (Or.inl (by decide)),
    show after (c_sp0 (F := Ideal)) V (main_arg4 : DevRef τ sig) = V (main_arg4 : DevRef τ sig) from after_of_idx_range _ V c_sp0_range main_arg4 (Or.inl (by decide))]

/-- The result over the contents before stage 2 of 19. -/
theorem suf1 (V : Valuation τ sig (Elt Ideal)) :
    after (c_wr0 (F := Ideal) ++ (c_sp0 (F := Ideal) ++ (c_fl0 (F := Ideal) ++ (c_fs0 (F := Ideal) ++ (c_inc0 (F := Ideal) ++ (c_comb0 (F := Ideal) ++ (c_wr1 (F := Ideal) ++ (c_sp1 (F := Ideal) ++ (c_fl1 (F := Ideal) ++ (c_fs1 (F := Ideal) ++ (c_inc1 (F := Ideal) ++ (c_comb1 (F := Ideal) ++ (c_wr2 (F := Ideal) ++ (c_sp2 (F := Ideal) ++ (c_fl2 (F := Ideal) ++ (c_fs2 (F := Ideal) ++ (c_inc2 (F := Ideal) ++ (c_comb2 (F := Ideal))))))))))))))))))) V (main_v348 : DevRef τ sig) = (RefVal.eluR (addf (F := Ideal) (addf (F := Ideal) (addf (F := Ideal) (addf (F := Ideal) (addf (F := Ideal) (Host.dotGeneral (F := Ideal) (φ₁ := .f32) (φ₂ := .f32) dot_S50000x128_S128x128_S50000x128_1_0_0_1_n_n none (RefVal.eluR (addf (F := Ideal) (addf (F := Ideal) (addf (F := Ideal) (addf (F := Ideal) (addf (F := Ideal) (Host.dotGeneral (F := Ideal) (φ₁ := .f32) (φ₂ := .f32) dot_S50000x128_S128x128_S50000x128_1_0_0_1_n_n none (RefVal.eluR (addf (F := Ideal) (addf (F := Ideal) (addf (F := Ideal) (addf (F := Ideal) (addf (F := Ideal) (Host.dotGeneral (F := Ideal) (φ₁ := .f32) (φ₂ := .f32) dot_S50000x128_S128x128_S50000x128_1_0_0_1_n_n none (V (main_v3 : DevRef τ sig)) (RefVal.sliceW0 (V (main_arg16 : DevRef τ sig)))) (broadcastInDim S50000x128 ![0, 1] bcast_S1x128_S50000x128_0_1 (broadcastInDim S1x128 ![1] bcast_S128_S1x128_1 (RefVal.sliceB0 (V (main_arg17 : DevRef τ sig)))))) (RefVal.rel_sp (V (main_v3 : DevRef τ sig)) (RefVal.sliceW0 (V (main_arg18 : DevRef τ sig))) (V (main_arg4 : DevRef τ sig)))) (RefVal.rel_fl (V (main_v7 : DevRef τ sig)) (RefVal.sliceW0 (V (main_arg18 : DevRef τ sig))) (V (main_arg5 : DevRef τ sig)))) (RefVal.rel_fs (V (main_v11 : DevRef τ sig)) (RefVal.sliceW0 (V (main_arg18 : DevRef τ sig))) (V (main_arg6 : DevRef τ sig)))) (RefVal.rel_inc (V (main_v15 : DevRef τ sig)) (RefVal.sliceW0 (V (main_arg18 : DevRef τ sig))) (V (main_arg7 : DevRef τ sig))))) (RefVal.sliceW1 (V (main_arg16 : DevRef τ sig)))) (broadcastInDim S50000x128 ![0, 1] bcast_S1x128_S50000x128_0_1 (broadcastInDim S1x128 ![1] bcast_S128_S1x128_1 (RefVal.sliceB1 (V (main_arg17 : DevRef τ sig)))))) (RefVal.rel_sp (RefVal.eluR (addf (F := Ideal) (addf (F := Ideal) (addf (F := Ideal) (addf (F := Ideal) (addf (F := Ideal) (Host.dotGeneral (F := Ideal) (φ₁ := .f32) (φ₂ := .f32) dot_S50000x128_S128x128_S50000x128_1_0_0_1_n_n none (V (main_v3 : DevRef τ sig)) (RefVal.sliceW0 (V (main_arg16 : DevRef τ sig)))) (broadcastInDim S50000x128 ![0, 1] bcast_S1x128_S50000x128_0_1 (broadcastInDim S1x128 ![1] bcast_S128_S1x128_1 (RefVal.sliceB0 (V (main_arg17 : DevRef τ sig)))))) (RefVal.rel_sp (V (main_v3 : DevRef τ sig)) (RefVal.sliceW0 (V (main_arg18 : DevRef τ sig))) (V (main_arg4 : DevRef τ sig)))) (RefVal.rel_fl (V (main_v7 : DevRef τ sig)) (RefVal.sliceW0 (V (main_arg18 : DevRef τ sig))) (V (main_arg5 : DevRef τ sig)))) (RefVal.rel_fs (V (main_v11 : DevRef τ sig)) (RefVal.sliceW0 (V (main_arg18 : DevRef τ sig))) (V (main_arg6 : DevRef τ sig)))) (RefVal.rel_inc (V (main_v15 : DevRef τ sig)) (RefVal.sliceW0 (V (main_arg18 : DevRef τ sig))) (V (main_arg7 : DevRef τ sig))))) (RefVal.sliceW1 (V (main_arg18 : DevRef τ sig))) (V (main_arg4 : DevRef τ sig)))) (RefVal.rel_fl (V (main_v7 : DevRef τ sig)) (RefVal.sliceW1 (V (main_arg18 : DevRef τ sig))) (V (main_arg5 : DevRef τ sig)))) (RefVal.rel_fs (V (main_v11 : DevRef τ sig)) (RefVal.sliceW1 (V (main_arg18 : DevRef τ sig))) (V (main_arg6 : DevRef τ sig)))) (RefVal.rel_inc (V (main_v15 : DevRef τ sig)) (RefVal.sliceW1 (V (main_arg18 : DevRef τ sig))) (V (main_arg7 : DevRef τ sig))))) (RefVal.sliceW2 (V (main_arg16 : DevRef τ sig)))) (broadcastInDim S50000x128 ![0, 1] bcast_S1x128_S50000x128_0_1 (broadcastInDim S1x128 ![1] bcast_S128_S1x128_1 (RefVal.sliceB2 (V (main_arg17 : DevRef τ sig)))))) (RefVal.rel_sp (RefVal.eluR (addf (F := Ideal) (addf (F := Ideal) (addf (F := Ideal) (addf (F := Ideal) (addf (F := Ideal) (Host.dotGeneral (F := Ideal) (φ₁ := .f32) (φ₂ := .f32) dot_S50000x128_S128x128_S50000x128_1_0_0_1_n_n none (RefVal.eluR (addf (F := Ideal) (addf (F := Ideal) (addf (F := Ideal) (addf (F := Ideal) (addf (F := Ideal) (Host.dotGeneral (F := Ideal) (φ₁ := .f32) (φ₂ := .f32) dot_S50000x128_S128x128_S50000x128_1_0_0_1_n_n none (V (main_v3 : DevRef τ sig)) (RefVal.sliceW0 (V (main_arg16 : DevRef τ sig)))) (broadcastInDim S50000x128 ![0, 1] bcast_S1x128_S50000x128_0_1 (broadcastInDim S1x128 ![1] bcast_S128_S1x128_1 (RefVal.sliceB0 (V (main_arg17 : DevRef τ sig)))))) (RefVal.rel_sp (V (main_v3 : DevRef τ sig)) (RefVal.sliceW0 (V (main_arg18 : DevRef τ sig))) (V (main_arg4 : DevRef τ sig)))) (RefVal.rel_fl (V (main_v7 : DevRef τ sig)) (RefVal.sliceW0 (V (main_arg18 : DevRef τ sig))) (V (main_arg5 : DevRef τ sig)))) (RefVal.rel_fs (V (main_v11 : DevRef τ sig)) (RefVal.sliceW0 (V (main_arg18 : DevRef τ sig))) (V (main_arg6 : DevRef τ sig)))) (RefVal.rel_inc (V (main_v15 : DevRef τ sig)) (RefVal.sliceW0 (V (main_arg18 : DevRef τ sig))) (V (main_arg7 : DevRef τ sig))))) (RefVal.sliceW1 (V (main_arg16 : DevRef τ sig)))) (broadcastInDim S50000x128 ![0, 1] bcast_S1x128_S50000x128_0_1 (broadcastInDim S1x128 ![1] bcast_S128_S1x128_1 (RefVal.sliceB1 (V (main_arg17 : DevRef τ sig)))))) (RefVal.rel_sp (RefVal.eluR (addf (F := Ideal) (addf (F := Ideal) (addf (F := Ideal) (addf (F := Ideal) (addf (F := Ideal) (Host.dotGeneral (F := Ideal) (φ₁ := .f32) (φ₂ := .f32) dot_S50000x128_S128x128_S50000x128_1_0_0_1_n_n none (V (main_v3 : DevRef τ sig)) (RefVal.sliceW0 (V (main_arg16 : DevRef τ sig)))) (broadcastInDim S50000x128 ![0, 1] bcast_S1x128_S50000x128_0_1 (broadcastInDim S1x128 ![1] bcast_S128_S1x128_1 (RefVal.sliceB0 (V (main_arg17 : DevRef τ sig)))))) (RefVal.rel_sp (V (main_v3 : DevRef τ sig)) (RefVal.sliceW0 (V (main_arg18 : DevRef τ sig))) (V (main_arg4 : DevRef τ sig)))) (RefVal.rel_fl (V (main_v7 : DevRef τ sig)) (RefVal.sliceW0 (V (main_arg18 : DevRef τ sig))) (V (main_arg5 : DevRef τ sig)))) (RefVal.rel_fs (V (main_v11 : DevRef τ sig)) (RefVal.sliceW0 (V (main_arg18 : DevRef τ sig))) (V (main_arg6 : DevRef τ sig)))) (RefVal.rel_inc (V (main_v15 : DevRef τ sig)) (RefVal.sliceW0 (V (main_arg18 : DevRef τ sig))) (V (main_arg7 : DevRef τ sig))))) (RefVal.sliceW1 (V (main_arg18 : DevRef τ sig))) (V (main_arg4 : DevRef τ sig)))) (RefVal.rel_fl (V (main_v7 : DevRef τ sig)) (RefVal.sliceW1 (V (main_arg18 : DevRef τ sig))) (V (main_arg5 : DevRef τ sig)))) (RefVal.rel_fs (V (main_v11 : DevRef τ sig)) (RefVal.sliceW1 (V (main_arg18 : DevRef τ sig))) (V (main_arg6 : DevRef τ sig)))) (RefVal.rel_inc (V (main_v15 : DevRef τ sig)) (RefVal.sliceW1 (V (main_arg18 : DevRef τ sig))) (V (main_arg7 : DevRef τ sig))))) (RefVal.sliceW2 (V (main_arg18 : DevRef τ sig))) (V (main_arg4 : DevRef τ sig)))) (RefVal.rel_fl (V (main_v7 : DevRef τ sig)) (RefVal.sliceW2 (V (main_arg18 : DevRef τ sig))) (V (main_arg5 : DevRef τ sig)))) (RefVal.rel_fs (V (main_v11 : DevRef τ sig)) (RefVal.sliceW2 (V (main_arg18 : DevRef τ sig))) (V (main_arg6 : DevRef τ sig)))) (RefVal.rel_inc (V (main_v15 : DevRef τ sig)) (RefVal.sliceW2 (V (main_arg18 : DevRef τ sig))) (V (main_arg7 : DevRef τ sig))))) := by
  rw [after_append, suf2]
  rw [show after (c_wr0 (F := Ideal)) V (main_v3 : DevRef τ sig) = V (main_v3 : DevRef τ sig) from after_of_idx_range _ V c_wr0_range main_v3 (Or.inl (by decide)),
    show after (c_wr0 (F := Ideal)) V (main_arg16 : DevRef τ sig) = V (main_arg16 : DevRef τ sig) from after_of_idx_range _ V c_wr0_range main_arg16 (Or.inl (by decide)),
    show after (c_wr0 (F := Ideal)) V (main_arg17 : DevRef τ sig) = V (main_arg17 : DevRef τ sig) from after_of_idx_range _ V c_wr0_range main_arg17 (Or.inl (by decide)),
    c_wr0_v17 V,
    show after (c_wr0 (F := Ideal)) V (main_arg4 : DevRef τ sig) = V (main_arg4 : DevRef τ sig) from after_of_idx_range _ V c_wr0_range main_arg4 (Or.inl (by decide)),
    show after (c_wr0 (F := Ideal)) V (main_v7 : DevRef τ sig) = V (main_v7 : DevRef τ sig) from after_of_idx_range _ V c_wr0_range main_v7 (Or.inl (by decide)),
    show after (c_wr0 (F := Ideal)) V (main_arg5 : DevRef τ sig) = V (main_arg5 : DevRef τ sig) from after_of_idx_range _ V c_wr0_range main_arg5 (Or.inl (by decide)),
    show after (c_wr0 (F := Ideal)) V (main_v11 : DevRef τ sig) = V (main_v11 : DevRef τ sig) from after_of_idx_range _ V c_wr0_range main_v11 (Or.inl (by decide)),
    show after (c_wr0 (F := Ideal)) V (main_arg6 : DevRef τ sig) = V (main_arg6 : DevRef τ sig) from after_of_idx_range _ V c_wr0_range main_arg6 (Or.inl (by decide)),
    show after (c_wr0 (F := Ideal)) V (main_v15 : DevRef τ sig) = V (main_v15 : DevRef τ sig) from after_of_idx_range _ V c_wr0_range main_v15 (Or.inl (by decide)),
    show after (c_wr0 (F := Ideal)) V (main_arg7 : DevRef τ sig) = V (main_arg7 : DevRef τ sig) from after_of_idx_range _ V c_wr0_range main_arg7 (Or.inl (by decide)),
    show after (c_wr0 (F := Ideal)) V (main_arg18 : DevRef τ sig) = V (main_arg18 : DevRef τ sig) from after_of_idx_range _ V c_wr0_range main_arg18 (Or.inl (by decide))]

/-- The result over the contents before stage 1 of 19. -/
theorem suf0 (V : Valuation τ sig (Elt Ideal)) :
    after (c_proj (F := Ideal) ++ (c_wr0 (F := Ideal) ++ (c_sp0 (F := Ideal) ++ (c_fl0 (F := Ideal) ++ (c_fs0 (F := Ideal) ++ (c_inc0 (F := Ideal) ++ (c_comb0 (F := Ideal) ++ (c_wr1 (F := Ideal) ++ (c_sp1 (F := Ideal) ++ (c_fl1 (F := Ideal) ++ (c_fs1 (F := Ideal) ++ (c_inc1 (F := Ideal) ++ (c_comb1 (F := Ideal) ++ (c_wr2 (F := Ideal) ++ (c_sp2 (F := Ideal) ++ (c_fl2 (F := Ideal) ++ (c_fs2 (F := Ideal) ++ (c_inc2 (F := Ideal) ++ (c_comb2 (F := Ideal)))))))))))))))))))) V (main_v348 : DevRef τ sig) = (RefVal.eluR (addf (F := Ideal) (addf (F := Ideal) (addf (F := Ideal) (addf (F := Ideal) (addf (F := Ideal) (Host.dotGeneral (F := Ideal) (φ₁ := .f32) (φ₂ := .f32) dot_S50000x128_S128x128_S50000x128_1_0_0_1_n_n none (RefVal.eluR (addf (F := Ideal) (addf (F := Ideal) (addf (F := Ideal) (addf (F := Ideal) (addf (F := Ideal) (Host.dotGeneral (F := Ideal) (φ₁ := .f32) (φ₂ := .f32) dot_S50000x128_S128x128_S50000x128_1_0_0_1_n_n none (RefVal.eluR (addf (F := Ideal) (addf (F := Ideal) (addf (F := Ideal) (addf (F := Ideal) (addf (F := Ideal) (Host.dotGeneral (F := Ideal) (φ₁ := .f32) (φ₂ := .f32) dot_S50000x128_S128x128_S50000x128_1_0_0_1_n_n none (RefVal.proj0 (V (main_arg0 : DevRef τ sig)) (V (main_arg8 : DevRef τ sig)) (V (main_arg9 : DevRef τ sig))) (RefVal.sliceW0 (V (main_arg16 : DevRef τ sig)))) (broadcastInDim S50000x128 ![0, 1] bcast_S1x128_S50000x128_0_1 (broadcastInDim S1x128 ![1] bcast_S128_S1x128_1 (RefVal.sliceB0 (V (main_arg17 : DevRef τ sig)))))) (RefVal.rel_sp (RefVal.proj0 (V (main_arg0 : DevRef τ sig)) (V (main_arg8 : DevRef τ sig)) (V (main_arg9 : DevRef τ sig))) (RefVal.sliceW0 (V (main_arg18 : DevRef τ sig))) (V (main_arg4 : DevRef τ sig)))) (RefVal.rel_fl (RefVal.proj1 (V (main_arg1 : DevRef τ sig)) (V (main_arg10 : DevRef τ sig)) (V (main_arg11 : DevRef τ sig))) (RefVal.sliceW0 (V (main_arg18 : DevRef τ sig))) (V (main_arg5 : DevRef τ sig)))) (RefVal.rel_fs (RefVal.proj2 (V (main_arg2 : DevRef τ sig)) (V (main_arg12 : DevRef τ sig)) (V (main_arg13 : DevRef τ sig))) (RefVal.sliceW0 (V (main_arg18 : DevRef τ sig))) (V (main_arg6 : DevRef τ sig)))) (RefVal.rel_inc (RefVal.proj3 (V (main_arg3 : DevRef τ sig)) (V (main_arg14 : DevRef τ sig)) (V (main_arg15 : DevRef τ sig))) (RefVal.sliceW0 (V (main_arg18 : DevRef τ sig))) (V (main_arg7 : DevRef τ sig))))) (RefVal.sliceW1 (V (main_arg16 : DevRef τ sig)))) (broadcastInDim S50000x128 ![0, 1] bcast_S1x128_S50000x128_0_1 (broadcastInDim S1x128 ![1] bcast_S128_S1x128_1 (RefVal.sliceB1 (V (main_arg17 : DevRef τ sig)))))) (RefVal.rel_sp (RefVal.eluR (addf (F := Ideal) (addf (F := Ideal) (addf (F := Ideal) (addf (F := Ideal) (addf (F := Ideal) (Host.dotGeneral (F := Ideal) (φ₁ := .f32) (φ₂ := .f32) dot_S50000x128_S128x128_S50000x128_1_0_0_1_n_n none (RefVal.proj0 (V (main_arg0 : DevRef τ sig)) (V (main_arg8 : DevRef τ sig)) (V (main_arg9 : DevRef τ sig))) (RefVal.sliceW0 (V (main_arg16 : DevRef τ sig)))) (broadcastInDim S50000x128 ![0, 1] bcast_S1x128_S50000x128_0_1 (broadcastInDim S1x128 ![1] bcast_S128_S1x128_1 (RefVal.sliceB0 (V (main_arg17 : DevRef τ sig)))))) (RefVal.rel_sp (RefVal.proj0 (V (main_arg0 : DevRef τ sig)) (V (main_arg8 : DevRef τ sig)) (V (main_arg9 : DevRef τ sig))) (RefVal.sliceW0 (V (main_arg18 : DevRef τ sig))) (V (main_arg4 : DevRef τ sig)))) (RefVal.rel_fl (RefVal.proj1 (V (main_arg1 : DevRef τ sig)) (V (main_arg10 : DevRef τ sig)) (V (main_arg11 : DevRef τ sig))) (RefVal.sliceW0 (V (main_arg18 : DevRef τ sig))) (V (main_arg5 : DevRef τ sig)))) (RefVal.rel_fs (RefVal.proj2 (V (main_arg2 : DevRef τ sig)) (V (main_arg12 : DevRef τ sig)) (V (main_arg13 : DevRef τ sig))) (RefVal.sliceW0 (V (main_arg18 : DevRef τ sig))) (V (main_arg6 : DevRef τ sig)))) (RefVal.rel_inc (RefVal.proj3 (V (main_arg3 : DevRef τ sig)) (V (main_arg14 : DevRef τ sig)) (V (main_arg15 : DevRef τ sig))) (RefVal.sliceW0 (V (main_arg18 : DevRef τ sig))) (V (main_arg7 : DevRef τ sig))))) (RefVal.sliceW1 (V (main_arg18 : DevRef τ sig))) (V (main_arg4 : DevRef τ sig)))) (RefVal.rel_fl (RefVal.proj1 (V (main_arg1 : DevRef τ sig)) (V (main_arg10 : DevRef τ sig)) (V (main_arg11 : DevRef τ sig))) (RefVal.sliceW1 (V (main_arg18 : DevRef τ sig))) (V (main_arg5 : DevRef τ sig)))) (RefVal.rel_fs (RefVal.proj2 (V (main_arg2 : DevRef τ sig)) (V (main_arg12 : DevRef τ sig)) (V (main_arg13 : DevRef τ sig))) (RefVal.sliceW1 (V (main_arg18 : DevRef τ sig))) (V (main_arg6 : DevRef τ sig)))) (RefVal.rel_inc (RefVal.proj3 (V (main_arg3 : DevRef τ sig)) (V (main_arg14 : DevRef τ sig)) (V (main_arg15 : DevRef τ sig))) (RefVal.sliceW1 (V (main_arg18 : DevRef τ sig))) (V (main_arg7 : DevRef τ sig))))) (RefVal.sliceW2 (V (main_arg16 : DevRef τ sig)))) (broadcastInDim S50000x128 ![0, 1] bcast_S1x128_S50000x128_0_1 (broadcastInDim S1x128 ![1] bcast_S128_S1x128_1 (RefVal.sliceB2 (V (main_arg17 : DevRef τ sig)))))) (RefVal.rel_sp (RefVal.eluR (addf (F := Ideal) (addf (F := Ideal) (addf (F := Ideal) (addf (F := Ideal) (addf (F := Ideal) (Host.dotGeneral (F := Ideal) (φ₁ := .f32) (φ₂ := .f32) dot_S50000x128_S128x128_S50000x128_1_0_0_1_n_n none (RefVal.eluR (addf (F := Ideal) (addf (F := Ideal) (addf (F := Ideal) (addf (F := Ideal) (addf (F := Ideal) (Host.dotGeneral (F := Ideal) (φ₁ := .f32) (φ₂ := .f32) dot_S50000x128_S128x128_S50000x128_1_0_0_1_n_n none (RefVal.proj0 (V (main_arg0 : DevRef τ sig)) (V (main_arg8 : DevRef τ sig)) (V (main_arg9 : DevRef τ sig))) (RefVal.sliceW0 (V (main_arg16 : DevRef τ sig)))) (broadcastInDim S50000x128 ![0, 1] bcast_S1x128_S50000x128_0_1 (broadcastInDim S1x128 ![1] bcast_S128_S1x128_1 (RefVal.sliceB0 (V (main_arg17 : DevRef τ sig)))))) (RefVal.rel_sp (RefVal.proj0 (V (main_arg0 : DevRef τ sig)) (V (main_arg8 : DevRef τ sig)) (V (main_arg9 : DevRef τ sig))) (RefVal.sliceW0 (V (main_arg18 : DevRef τ sig))) (V (main_arg4 : DevRef τ sig)))) (RefVal.rel_fl (RefVal.proj1 (V (main_arg1 : DevRef τ sig)) (V (main_arg10 : DevRef τ sig)) (V (main_arg11 : DevRef τ sig))) (RefVal.sliceW0 (V (main_arg18 : DevRef τ sig))) (V (main_arg5 : DevRef τ sig)))) (RefVal.rel_fs (RefVal.proj2 (V (main_arg2 : DevRef τ sig)) (V (main_arg12 : DevRef τ sig)) (V (main_arg13 : DevRef τ sig))) (RefVal.sliceW0 (V (main_arg18 : DevRef τ sig))) (V (main_arg6 : DevRef τ sig)))) (RefVal.rel_inc (RefVal.proj3 (V (main_arg3 : DevRef τ sig)) (V (main_arg14 : DevRef τ sig)) (V (main_arg15 : DevRef τ sig))) (RefVal.sliceW0 (V (main_arg18 : DevRef τ sig))) (V (main_arg7 : DevRef τ sig))))) (RefVal.sliceW1 (V (main_arg16 : DevRef τ sig)))) (broadcastInDim S50000x128 ![0, 1] bcast_S1x128_S50000x128_0_1 (broadcastInDim S1x128 ![1] bcast_S128_S1x128_1 (RefVal.sliceB1 (V (main_arg17 : DevRef τ sig)))))) (RefVal.rel_sp (RefVal.eluR (addf (F := Ideal) (addf (F := Ideal) (addf (F := Ideal) (addf (F := Ideal) (addf (F := Ideal) (Host.dotGeneral (F := Ideal) (φ₁ := .f32) (φ₂ := .f32) dot_S50000x128_S128x128_S50000x128_1_0_0_1_n_n none (RefVal.proj0 (V (main_arg0 : DevRef τ sig)) (V (main_arg8 : DevRef τ sig)) (V (main_arg9 : DevRef τ sig))) (RefVal.sliceW0 (V (main_arg16 : DevRef τ sig)))) (broadcastInDim S50000x128 ![0, 1] bcast_S1x128_S50000x128_0_1 (broadcastInDim S1x128 ![1] bcast_S128_S1x128_1 (RefVal.sliceB0 (V (main_arg17 : DevRef τ sig)))))) (RefVal.rel_sp (RefVal.proj0 (V (main_arg0 : DevRef τ sig)) (V (main_arg8 : DevRef τ sig)) (V (main_arg9 : DevRef τ sig))) (RefVal.sliceW0 (V (main_arg18 : DevRef τ sig))) (V (main_arg4 : DevRef τ sig)))) (RefVal.rel_fl (RefVal.proj1 (V (main_arg1 : DevRef τ sig)) (V (main_arg10 : DevRef τ sig)) (V (main_arg11 : DevRef τ sig))) (RefVal.sliceW0 (V (main_arg18 : DevRef τ sig))) (V (main_arg5 : DevRef τ sig)))) (RefVal.rel_fs (RefVal.proj2 (V (main_arg2 : DevRef τ sig)) (V (main_arg12 : DevRef τ sig)) (V (main_arg13 : DevRef τ sig))) (RefVal.sliceW0 (V (main_arg18 : DevRef τ sig))) (V (main_arg6 : DevRef τ sig)))) (RefVal.rel_inc (RefVal.proj3 (V (main_arg3 : DevRef τ sig)) (V (main_arg14 : DevRef τ sig)) (V (main_arg15 : DevRef τ sig))) (RefVal.sliceW0 (V (main_arg18 : DevRef τ sig))) (V (main_arg7 : DevRef τ sig))))) (RefVal.sliceW1 (V (main_arg18 : DevRef τ sig))) (V (main_arg4 : DevRef τ sig)))) (RefVal.rel_fl (RefVal.proj1 (V (main_arg1 : DevRef τ sig)) (V (main_arg10 : DevRef τ sig)) (V (main_arg11 : DevRef τ sig))) (RefVal.sliceW1 (V (main_arg18 : DevRef τ sig))) (V (main_arg5 : DevRef τ sig)))) (RefVal.rel_fs (RefVal.proj2 (V (main_arg2 : DevRef τ sig)) (V (main_arg12 : DevRef τ sig)) (V (main_arg13 : DevRef τ sig))) (RefVal.sliceW1 (V (main_arg18 : DevRef τ sig))) (V (main_arg6 : DevRef τ sig)))) (RefVal.rel_inc (RefVal.proj3 (V (main_arg3 : DevRef τ sig)) (V (main_arg14 : DevRef τ sig)) (V (main_arg15 : DevRef τ sig))) (RefVal.sliceW1 (V (main_arg18 : DevRef τ sig))) (V (main_arg7 : DevRef τ sig))))) (RefVal.sliceW2 (V (main_arg18 : DevRef τ sig))) (V (main_arg4 : DevRef τ sig)))) (RefVal.rel_fl (RefVal.proj1 (V (main_arg1 : DevRef τ sig)) (V (main_arg10 : DevRef τ sig)) (V (main_arg11 : DevRef τ sig))) (RefVal.sliceW2 (V (main_arg18 : DevRef τ sig))) (V (main_arg5 : DevRef τ sig)))) (RefVal.rel_fs (RefVal.proj2 (V (main_arg2 : DevRef τ sig)) (V (main_arg12 : DevRef τ sig)) (V (main_arg13 : DevRef τ sig))) (RefVal.sliceW2 (V (main_arg18 : DevRef τ sig))) (V (main_arg6 : DevRef τ sig)))) (RefVal.rel_inc (RefVal.proj3 (V (main_arg3 : DevRef τ sig)) (V (main_arg14 : DevRef τ sig)) (V (main_arg15 : DevRef τ sig))) (RefVal.sliceW2 (V (main_arg18 : DevRef τ sig))) (V (main_arg7 : DevRef τ sig))))) := by
  rw [after_append, suf1]
  rw [c_proj_v3 V,
    show after (c_proj (F := Ideal)) V (main_arg16 : DevRef τ sig) = V (main_arg16 : DevRef τ sig) from after_of_idx_range _ V c_proj_range main_arg16 (Or.inl (by decide)),
    show after (c_proj (F := Ideal)) V (main_arg17 : DevRef τ sig) = V (main_arg17 : DevRef τ sig) from after_of_idx_range _ V c_proj_range main_arg17 (Or.inl (by decide)),
    show after (c_proj (F := Ideal)) V (main_arg18 : DevRef τ sig) = V (main_arg18 : DevRef τ sig) from after_of_idx_range _ V c_proj_range main_arg18 (Or.inl (by decide)),
    show after (c_proj (F := Ideal)) V (main_arg4 : DevRef τ sig) = V (main_arg4 : DevRef τ sig) from after_of_idx_range _ V c_proj_range main_arg4 (Or.inl (by decide)),
    c_proj_v7 V,
    show after (c_proj (F := Ideal)) V (main_arg5 : DevRef τ sig) = V (main_arg5 : DevRef τ sig) from after_of_idx_range _ V c_proj_range main_arg5 (Or.inl (by decide)),
    c_proj_v11 V,
    show after (c_proj (F := Ideal)) V (main_arg6 : DevRef τ sig) = V (main_arg6 : DevRef τ sig) from after_of_idx_range _ V c_proj_range main_arg6 (Or.inl (by decide)),
    c_proj_v15 V,
    show after (c_proj (F := Ideal)) V (main_arg7 : DevRef τ sig) = V (main_arg7 : DevRef τ sig) from after_of_idx_range _ V c_proj_range main_arg7 (Or.inl (by decide))]

/-- The result buffer after @main, over any launch contents, is the layered value of the nineteen arguments. -/
theorem out_eq (V : Valuation τ sig (Elt Ideal)) :
    after ops V (main_v348 : DevRef τ sig)
      = RefVal.RVal (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) := by
  rw [ops_eq_chunks, suf0]
  rfl

end Cert.ReferenceIdeal.RefRun

end
-- ==== Proof.RefRun.lean ====
/-
  The reference program's run and value, assembled: its operations as one list and the run over them
  (RefOpsMain), the arguments unchanged (RefOpsArgs), and the result as the layered value term (RefOpsOut, over the
  definitions of RefVal).
-/
import proofs.«168040_j41652592837487_1_alg».proof.Proof.RefOpsMain
import proofs.«168040_j41652592837487_1_alg».proof.Proof.RefOpsArgs
import proofs.«168040_j41652592837487_1_alg».proof.Proof.RefOpsOut
import proofs.«168040_j41652592837487_1_alg».proof.Proof.RefVal
-- ==== Proof.LibGatherRows.lean ====
import Idealize.ShloMosaic.Lib.ValueIdx

/-!
  A ROW GATHER READ AT AN INDEX.

  A gather whose start indices are one column of row numbers — operand `[N, J]`, start indices `[E, 1]`, result
  `[E, J]`, result row `e` a copy of operand row `idx e` — is, at result index `(e, c)`, the operand at
  `(r, c)` where `r` is the row number `idx (e, 0)` read SIGNED and CLAMPED into `[0, N - 1]`: a negative row
  number reads row `0`, one that is `N` or more reads row `N - 1`. The same for a rank-1 operand `[N]` with
  result `[E]`: result entry `e` is the operand at the clamped `idx (e, 0)`.

  Every lemma takes an arbitrary dimension record `d` of the right shapes together with the equations that say
  its lists are those of a row gather; for a record given by literal lists each equation is `rfl`.
-/

open Idealize.ShloMosaic Idealize.ShloMosaic.ValueIdx

namespace GatherRows

/-! ## Rank 2: operand `[N, J]`, start indices `[E, 1]`, result `[E, J]` -/

section Rank2

variable {α : Type} {N J E w : Nat} (d : GatherDims ⟨2, ![N, J]⟩ ⟨2, ![E, 1]⟩ ⟨2, ![E, J]⟩)

/-- Result index `(e, c)` reads its row number at `(e, 0)` of the start indices. -/
theorem siIdx2 (hod : d.offsetDims = [1]) (hsm : d.startIndexMap = [0]) (hiv : d.indexVectorDim = 1)
    (e : Fin E) (c : Fin J) (k : Fin d.startIndexMap.length) :
    d.siIdx (ix2 e c) k = ix2 e 0 := by
  obtain ⟨od, cd, ob, sb, sm, iv, ss, wf⟩ := d
  subst hod hsm hiv
  funext b
  match b with
  | ⟨0, _⟩ => rfl
  | ⟨1, _⟩ => exact Fin.ext (by have := k.isLt; simp at this; simpa [GatherDims.siIdx] using this)

/-- On the row axis the slice of result index `(e, c)` starts at its row number, read signed and clamped into
    `[0, N - 1]`. -/
theorem start2_row (hod : d.offsetDims = [1]) (hsm : d.startIndexMap = [0]) (hiv : d.indexVectorDim = 1)
    (hss : d.sliceSizes = ![1, J]) (idx : IVec ⟨2, ![E, 1]⟩ w) (e : Fin E) (c : Fin J) :
    d.start (ix2 e c) idx 0 = min (idx (ix2 e 0)).toInt.toNat (N - 1) := by
  have hm : (0 : Fin 2) ∈ d.startIndexMap := by
    rw [hsm]; show (0 : Fin 2) ∈ ([0] : List (Fin 2)); decide
  unfold GatherDims.start
  rw [dif_pos hm, siIdx2 d hod hsm hiv, hss]
  rfl

/-- On the column axis the slice starts at `0`. -/
theorem start2_col (hsm : d.startIndexMap = [0]) (idx : IVec ⟨2, ![E, 1]⟩ w) (j : (⟨2, ![E, J]⟩ : Shape).Idx) :
    d.start j idx 1 = 0 := by
  have hm : ¬ (1 : Fin 2) ∈ d.startIndexMap := by
    rw [hsm]; show ¬ (1 : Fin 2) ∈ ([0] : List (Fin 2)); decide
  unfold GatherDims.start
  rw [dif_neg hm]

/-- The offset coordinate on the column axis is the result's column. -/
theorem offCoord2_col (hod : d.offsetDims = [1]) (hcd : d.collapsedSliceDims = [0])
    (hob : d.operandBatchingDims = []) (e : Fin E) (c : Fin J) :
    d.offCoord (ix2 e c) 1 = c.val := by
  obtain ⟨od, cd, ob, sb, sm, iv, ss, wf⟩ := d
  subst hod hcd hob
  rfl

/-- THE ROW GATHER AT AN INDEX, rank 2: the operand at `(r, c)`, `r` the row number `idx (e, 0)` read signed
    and clamped into `[0, N - 1]`. -/
theorem gather_rows2 (hN : 0 < N) (hod : d.offsetDims = [1]) (hcd : d.collapsedSliceDims = [0])
    (hob : d.operandBatchingDims = []) (hsm : d.startIndexMap = [0]) (hiv : d.indexVectorDim = 1)
    (hss : d.sliceSizes = ![1, J])
    (x : (⟨2, ![N, J]⟩ : Shape).Idx → α) (idx : IVec ⟨2, ![E, 1]⟩ w) (e : Fin E) (c : Fin J) :
    Host.gather d x idx (ix2 e c)
      = x (ix2 ⟨min (idx (ix2 e 0)).toInt.toNat (N - 1), by omega⟩ c) := by
  have hnb : ∀ a : Fin 2, a ∉ d.operandBatchingDims := by
    intro a; rw [hob]; exact List.not_mem_nil
  unfold Host.gather
  congr 1
  funext a
  refine Fin.ext ?_
  match a with
  | ⟨0, _⟩ =>
    show d.start (ix2 e c) idx 0 + d.batchCoord (ix2 e c) 0 + d.offCoord (ix2 e c) 0 = _
    rw [d.batchCoord_eq_zero _ _ (hnb 0),
      d.offCoord_eq_zero _ _ (fun h => ((d.mem_sKept _).mp h).1 (by rw [hcd]; exact List.mem_singleton.mpr rfl)),
      start2_row d hod hsm hiv hss]
    rfl
  | ⟨1, _⟩ =>
    show d.start (ix2 e c) idx 1 + d.batchCoord (ix2 e c) 1 + d.offCoord (ix2 e c) 1 = c.val
    rw [d.batchCoord_eq_zero _ _ (hnb 1), start2_col d hsm, offCoord2_col d hod hcd hob]
    omega

end Rank2

/-! ## Rank 1: operand `[N]`, start indices `[E, 1]`, result `[E]` -/

section Rank1

variable {α : Type} {N E w : Nat} (d : GatherDims ⟨1, ![N]⟩ ⟨2, ![E, 1]⟩ ⟨1, ![E]⟩)

/-- Result index `e` reads its row number at `(e, 0)` of the start indices. -/
theorem siIdx1 (hod : d.offsetDims = []) (hsm : d.startIndexMap = [0]) (hiv : d.indexVectorDim = 1)
    (e : Fin E) (k : Fin d.startIndexMap.length) :
    d.siIdx (ix1 e) k = ix2 e 0 := by
  obtain ⟨od, cd, ob, sb, sm, iv, ss, wf⟩ := d
  subst hod hsm hiv
  funext b
  match b with
  | ⟨0, _⟩ => rfl
  | ⟨1, _⟩ => exact Fin.ext (by have := k.isLt; simp at this; simpa [GatherDims.siIdx] using this)

/-- The slice of result index `e` starts at its row number, read signed and clamped into `[0, N - 1]`. -/
theorem start1 (hod : d.offsetDims = []) (hsm : d.startIndexMap = [0]) (hiv : d.indexVectorDim = 1)
    (hss : d.sliceSizes = ![1]) (idx : IVec ⟨2, ![E, 1]⟩ w) (e : Fin E) :
    d.start (ix1 e) idx 0 = min (idx (ix2 e 0)).toInt.toNat (N - 1) := by
  have hm : (0 : Fin 1) ∈ d.startIndexMap := by
    rw [hsm]; show (0 : Fin 1) ∈ ([0] : List (Fin 1)); decide
  unfold GatherDims.start
  rw [dif_pos hm, siIdx1 d hod hsm hiv, hss]
  rfl

/-- THE ROW GATHER AT AN INDEX, rank 1: the operand at the row number `idx (e, 0)` read signed and clamped into
    `[0, N - 1]`. -/
theorem gather_rows1 (hN : 0 < N) (hod : d.offsetDims = []) (hcd : d.collapsedSliceDims = [0])
    (hob : d.operandBatchingDims = []) (hsm : d.startIndexMap = [0]) (hiv : d.indexVectorDim = 1)
    (hss : d.sliceSizes = ![1])
    (x : (⟨1, ![N]⟩ : Shape).Idx → α) (idx : IVec ⟨2, ![E, 1]⟩ w) (e : Fin E) :
    Host.gather d x idx (ix1 e) = x (ix1 ⟨min (idx (ix2 e 0)).toInt.toNat (N - 1), by omega⟩) := by
  unfold Host.gather
  congr 1
  funext a
  obtain rfl : a = 0 := Subsingleton.elim _ _
  refine Fin.ext ?_
  show d.start (ix1 e) idx 0 + d.batchCoord (ix1 e) 0 + d.offCoord (ix1 e) 0 = _
  rw [d.batchCoord_eq_zero _ _ (by rw [hob]; exact List.not_mem_nil),
    d.offCoord_eq_zero _ _ (fun h => ((d.mem_sKept _).mp h).1 (by rw [hcd]; exact List.mem_singleton.mpr rfl)),
    start1 d hod hsm hiv hss]
  rfl

end Rank1

end GatherRows
-- ==== Proof.LibScatterRows.lean ====
import Idealize.ShloMosaic.Lib.ValueIdx

/-!
  A ROW SCATTER READ AT AN INDEX.

  An accumulating scatter whose scatter indices are one column of row numbers — operand `[N, F]`, updates
  `[E, F]`, indices `[E, 1]`, update `e` added onto operand row `idx e` (a segment sum over the leading axis) — is, at
  the ideal values and at operand index `(n, f)`, the operand there plus the sum of `u (e, f)` over the updates `e`
  whose row number is `n`. The row number is read SIGNED and is not clamped: an update whose row number lies outside
  `[0, N)` lands nowhere and is dropped. The same for a rank-3 operand `[N, H, D]` with updates `[E, H, D]`, and
  the two compared: scattering `[E, H, D]` updates is scattering the same numbers laid out as `[E, H * D]`.

  Every lemma takes an arbitrary dimension record `d` of the right shapes together with the four equations that
  say its lists are those of a row scatter; for a record given by literal lists each equation is `rfl`.
-/

open scoped BigOperators
open Idealize.ShloMosaic Idealize.ShloMosaic.ValueIdx

namespace ScatterRows

/-! ## A sum over a rank-3 index set -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## Rank 2: operand `[N, F]`, updates `[E, F]`, indices `[E, 1]` -/

section Rank2

variable {N E F : Nat} (d : ScatterDims ⟨2, ![N, F]⟩ ⟨2, ![E, 1]⟩ ⟨2, ![E, F]⟩)

/-- Update `(e, f)` reads its row number at `(e, 0)` of the scatter indices. -/
theorem siIdx2 (huw : d.updateWindowDims = [1]) (hiw : d.insertedWindowDims = [0])
    (hsd : d.scatterDimsToOperandDims = [0]) (hiv : d.indexVectorDim = 1)
    (e : Fin E) (f : Fin F) (c : Fin d.scatterDimsToOperandDims.length) :
    d.siIdx (ix2 e f) c = ix2 e 0 := by
  obtain ⟨uw, iw, sd, iv, wf⟩ := d
  subst huw hiw hsd hiv
  funext b
  match b with
  | ⟨0, _⟩ => rfl
  | ⟨1, _⟩ => exact Fin.ext (by have := c.isLt; simp at this; simpa [ScatterDims.siIdx] using this)

/-- On the row axis the window of update `(e, f)` starts at its row number, read signed. -/
theorem start2_row (huw : d.updateWindowDims = [1]) (hiw : d.insertedWindowDims = [0])
    (hsd : d.scatterDimsToOperandDims = [0]) (hiv : d.indexVectorDim = 1)
    (idx : IVec ⟨2, ![E, 1]⟩ 32) (e : Fin E) (f : Fin F) :
    d.start (ix2 e f) idx 0 = (idx (ix2 e 0)).toInt := by
  have hm : (0 : Fin 2) ∈ d.scatterDimsToOperandDims := by
    rw [hsd]; show (0 : Fin 2) ∈ ([0] : List (Fin 2)); decide
  unfold ScatterDims.start
  rw [dif_pos hm, siIdx2 d huw hiw hsd hiv]

/-- On the column axis the window starts at `0`. -/
theorem start2_col (hsd : d.scatterDimsToOperandDims = [0])
    (idx : IVec ⟨2, ![E, 1]⟩ 32) (j : (⟨2, ![E, F]⟩ : Shape).Idx) :
    d.start j idx 1 = 0 := by
  have hm : ¬ (1 : Fin 2) ∈ d.scatterDimsToOperandDims := by
    rw [hsd]; show ¬ (1 : Fin 2) ∈ ([0] : List (Fin 2)); decide
  unfold ScatterDims.start
  rw [dif_neg hm]

/-- The row axis is inserted: the window coordinate there is `0`. -/
theorem window2_row (hiw : d.insertedWindowDims = [0]) (j : (⟨2, ![E, F]⟩ : Shape).Idx) :
    d.window j 0 = 0 := by
  have hm : ¬ (0 : Fin 2) ∈ d.sKept := by
    show ¬ (0 : Fin 2) ∈ Shape.kept _ d.insertedWindowDims
    rw [hiw]
    show ¬ (0 : Fin 2) ∈ (List.finRange 2).filter (fun a => a ∉ ([0] : List (Fin 2)))
    decide
  unfold ScatterDims.window
  rw [dif_neg hm]

/-- The window coordinate on the column axis is the update's column. -/
theorem window2_col (huw : d.updateWindowDims = [1]) (hiw : d.insertedWindowDims = [0])
    (e : Fin E) (f : Fin F) :
    d.window (ix2 e f) 1 = f.val := by
  obtain ⟨uw, iw, sd, iv, wf⟩ := d
  subst huw hiw
  rfl

/-- Update `(e, f)` lands at operand index `(n, f')` exactly when its row number is `n` and `f = f'`. -/
theorem resultIdx2 (huw : d.updateWindowDims = [1]) (hiw : d.insertedWindowDims = [0])
    (hsd : d.scatterDimsToOperandDims = [0]) (hiv : d.indexVectorDim = 1)
    (idx : IVec ⟨2, ![E, 1]⟩ 32) (e : Fin E) (f : Fin F) (n : Fin N) (f' : Fin F) :
    d.resultIdx? (ix2 e f) idx = some (ix2 n f') ↔ (idx (ix2 e 0)).toInt = (n.val : Int) ∧ f = f' := by
  have s0 := start2_row d huw hiw hsd hiv idx e f
  have s1 := start2_col d hsd idx (ix2 e f)
  have w0 := window2_row d hiw (ix2 e f)
  have w1 := window2_col d huw hiw e f
  unfold ScatterDims.resultIdx?
  split
  · rename_i h
    constructor
    · intro he
      have hfun := Option.some.inj he
      have h0 : (d.start (ix2 e f) idx 0 + d.window (ix2 e f) 0).toNat = n.val :=
        congrArg Fin.val (congrFun hfun 0)
      have h1 : (d.start (ix2 e f) idx 1 + d.window (ix2 e f) 1).toNat = f'.val :=
        congrArg Fin.val (congrFun hfun 1)
      have hh := (h 0).1
      rw [s0, w0] at h0 hh
      rw [s1, w1] at h1
      exact ⟨by omega, Fin.ext (by omega)⟩
    · rintro ⟨hn, rfl⟩
      congr 1
      funext a
      match a with
      | ⟨0, _⟩ =>
        exact Fin.ext (by
          show (d.start (ix2 e f) idx 0 + d.window (ix2 e f) 0).toNat = n.val
          rw [s0, w0]; omega)
      | ⟨1, _⟩ =>
        exact Fin.ext (by
          show (d.start (ix2 e f) idx 1 + d.window (ix2 e f) 1).toNat = f.val
          rw [s1, w1]; omega)
  · rename_i h
    constructor
    · intro he; exact absurd he (by simp)
    · rintro ⟨hn, rfl⟩
      exfalso; apply h
      intro a
      match a with
      | ⟨0, _⟩ =>
        show 0 ≤ d.start (ix2 e f) idx 0 + d.window (ix2 e f) 0
          ∧ d.start (ix2 e f) idx 0 + d.window (ix2 e f) 0 < (N : Int)
        rw [s0, w0]; have := n.isLt; omega
      | ⟨1, _⟩ =>
        show 0 ≤ d.start (ix2 e f) idx 1 + d.window (ix2 e f) 1
          ∧ d.start (ix2 e f) idx 1 + d.window (ix2 e f) 1 < (F : Int)
        rw [s1, w1]; have := f.isLt; omega

/-- THE ROW SCATTER AT AN INDEX, rank 2: the operand at `(n, f)` plus the sum of `u (e, f)` over the updates `e`
    whose row number, read signed, is `n`. -/
theorem hostScatterAdd_rows2 (huw : d.updateWindowDims = [1]) (hiw : d.insertedWindowDims = [0])
    (hsd : d.scatterDimsToOperandDims = [0]) (hiv : d.indexVectorDim = 1)
    (x : (⟨2, ![N, F]⟩ : Shape).Idx → EReal) (idx : IVec ⟨2, ![E, 1]⟩ 32)
    (u : (⟨2, ![E, F]⟩ : Shape).Idx → EReal) (n : Fin N) (f : Fin F) :
    Ideal.hostScatterAdd d x idx u (ix2 n f)
      = x (ix2 n f) + ∑ e ∈ Finset.univ.filter (fun e : Fin E => (idx (ix2 e 0)).toInt = (n.val : Int)), u (ix2 e f) := by
  unfold Ideal.hostScatterAdd
  congr 1
  rw [Finset.sum_filter, Finset.sum_filter, sum_idx2]
  refine Finset.sum_congr rfl fun e _ => ?_
  simp only [resultIdx2 d huw hiw hsd hiv idx e]
  by_cases hn : (idx (ix2 e 0)).toInt = (n.val : Int)
  · simp [hn]
  · simp [hn]

end Rank2

/-! ## Rank 3: operand `[N, H, D]`, updates `[E, H, D]`, indices `[E, 1]` -/

section Rank3

variable {N E H D : Nat} (d : ScatterDims ⟨3, ![N, H, D]⟩ ⟨2, ![E, 1]⟩ ⟨3, ![E, H, D]⟩)

/-- Update `(e, h, k)` reads its row number at `(e, 0)` of the scatter indices. -/
theorem siIdx3 (huw : d.updateWindowDims = [1, 2]) (hiw : d.insertedWindowDims = [0])
    (hsd : d.scatterDimsToOperandDims = [0]) (hiv : d.indexVectorDim = 1)
    (e : Fin E) (h : Fin H) (k : Fin D) (c : Fin d.scatterDimsToOperandDims.length) :
    d.siIdx (ix3 e h k) c = ix2 e 0 := by
  obtain ⟨uw, iw, sd, iv, wf⟩ := d
  subst huw hiw hsd hiv
  funext b
  match b with
  | ⟨0, _⟩ => rfl
  | ⟨1, _⟩ => exact Fin.ext (by have := c.isLt; simp at this; simpa [ScatterDims.siIdx] using this)

/-- On the row axis the window of update `(e, h, k)` starts at its row number, read signed. -/
theorem start3_row (huw : d.updateWindowDims = [1, 2]) (hiw : d.insertedWindowDims = [0])
    (hsd : d.scatterDimsToOperandDims = [0]) (hiv : d.indexVectorDim = 1)
    (idx : IVec ⟨2, ![E, 1]⟩ 32) (e : Fin E) (h : Fin H) (k : Fin D) :
    d.start (ix3 e h k) idx 0 = (idx (ix2 e 0)).toInt := by
  have hm : (0 : Fin 3) ∈ d.scatterDimsToOperandDims := by
    rw [hsd]; show (0 : Fin 3) ∈ ([0] : List (Fin 3)); decide
  unfold ScatterDims.start
  rw [dif_pos hm, siIdx3 d huw hiw hsd hiv]

/-- On the two window axes the window starts at `0`. -/
theorem start3_win (hsd : d.scatterDimsToOperandDims = [0])
    (idx : IVec ⟨2, ![E, 1]⟩ 32) (j : (⟨3, ![E, H, D]⟩ : Shape).Idx) (a : Fin 3) (ha : a ≠ 0) :
    d.start j idx a = 0 := by
  have hm : ¬ a ∈ d.scatterDimsToOperandDims := by
    rw [hsd]; intro hmem; exact ha (List.mem_singleton.1 hmem)
  unfold ScatterDims.start
  rw [dif_neg hm]

/-- The row axis is inserted: the window coordinate there is `0`. -/
theorem window3_row (hiw : d.insertedWindowDims = [0]) (j : (⟨3, ![E, H, D]⟩ : Shape).Idx) :
    d.window j 0 = 0 := by
  have hm : ¬ (0 : Fin 3) ∈ d.sKept := by
    show ¬ (0 : Fin 3) ∈ Shape.kept _ d.insertedWindowDims
    rw [hiw]
    show ¬ (0 : Fin 3) ∈ (List.finRange 3).filter (fun a => a ∉ ([0] : List (Fin 3)))
    decide
  unfold ScatterDims.window
  rw [dif_neg hm]

/-- The window coordinate on the second axis is the update's second coordinate. -/
theorem window3_mid (huw : d.updateWindowDims = [1, 2]) (hiw : d.insertedWindowDims = [0])
    (e : Fin E) (h : Fin H) (k : Fin D) :
    d.window (ix3 e h k) 1 = h.val := by
  obtain ⟨uw, iw, sd, iv, wf⟩ := d
  subst huw hiw
  rfl

/-- The window coordinate on the third axis is the update's third coordinate. -/
theorem window3_last (huw : d.updateWindowDims = [1, 2]) (hiw : d.insertedWindowDims = [0])
    (e : Fin E) (h : Fin H) (k : Fin D) :
    d.window (ix3 e h k) 2 = k.val := by
  obtain ⟨uw, iw, sd, iv, wf⟩ := d
  subst huw hiw
  rfl

/-- Update `(e, h, k)` lands at operand index `(n, h', k')` exactly when its row number is `n`, `h = h'` and `k = k'`. -/
theorem resultIdx3 (huw : d.updateWindowDims = [1, 2]) (hiw : d.insertedWindowDims = [0])
    (hsd : d.scatterDimsToOperandDims = [0]) (hiv : d.indexVectorDim = 1)
    (idx : IVec ⟨2, ![E, 1]⟩ 32) (e : Fin E) (h : Fin H) (k : Fin D) (n : Fin N) (h' : Fin H) (k' : Fin D) :
    d.resultIdx? (ix3 e h k) idx = some (ix3 n h' k')
      ↔ (idx (ix2 e 0)).toInt = (n.val : Int) ∧ h = h' ∧ k = k' := by
  have s0 := start3_row d huw hiw hsd hiv idx e h k
  have s1 := start3_win d hsd idx (ix3 e h k) 1 (by decide)
  have s2 := start3_win d hsd idx (ix3 e h k) 2 (by decide)
  have w0 := window3_row d hiw (ix3 e h k)
  have w1 := window3_mid d huw hiw e h k
  have w2 := window3_last d huw hiw e h k
  unfold ScatterDims.resultIdx?
  split
  · rename_i hb
    constructor
    · intro he
      have hfun := Option.some.inj he
      have h0 : (d.start (ix3 e h k) idx 0 + d.window (ix3 e h k) 0).toNat = n.val :=
        congrArg Fin.val (congrFun hfun 0)
      have h1 : (d.start (ix3 e h k) idx 1 + d.window (ix3 e h k) 1).toNat = h'.val :=
        congrArg Fin.val (congrFun hfun 1)
      have h2 : (d.start (ix3 e h k) idx 2 + d.window (ix3 e h k) 2).toNat = k'.val :=
        congrArg Fin.val (congrFun hfun 2)
      have hh := (hb 0).1
      rw [s0, w0] at h0 hh
      rw [s1, w1] at h1
      rw [s2, w2] at h2
      exact ⟨by omega, Fin.ext (by omega), Fin.ext (by omega)⟩
    · rintro ⟨hn, rfl, rfl⟩
      congr 1
      funext a
      match a with
      | ⟨0, _⟩ =>
        exact Fin.ext (by
          show (d.start (ix3 e h k) idx 0 + d.window (ix3 e h k) 0).toNat = n.val
          rw [s0, w0]; omega)
      | ⟨1, _⟩ =>
        exact Fin.ext (by
          show (d.start (ix3 e h k) idx 1 + d.window (ix3 e h k) 1).toNat = h.val
          rw [s1, w1]; omega)
      | ⟨2, _⟩ =>
        exact Fin.ext (by
          show (d.start (ix3 e h k) idx 2 + d.window (ix3 e h k) 2).toNat = k.val
          rw [s2, w2]; omega)
  · rename_i hb
    constructor
    · intro he; exact absurd he (by simp)
    · rintro ⟨hn, rfl, rfl⟩
      exfalso; apply hb
      intro a
      match a with
      | ⟨0, _⟩ =>
        show 0 ≤ d.start (ix3 e h k) idx 0 + d.window (ix3 e h k) 0
          ∧ d.start (ix3 e h k) idx 0 + d.window (ix3 e h k) 0 < (N : Int)
        rw [s0, w0]; have := n.isLt; omega
      | ⟨1, _⟩ =>
        show 0 ≤ d.start (ix3 e h k) idx 1 + d.window (ix3 e h k) 1
          ∧ d.start (ix3 e h k) idx 1 + d.window (ix3 e h k) 1 < (H : Int)
        rw [s1, w1]; have := h.isLt; omega
      | ⟨2, _⟩ =>
        show 0 ≤ d.start (ix3 e h k) idx 2 + d.window (ix3 e h k) 2
          ∧ d.start (ix3 e h k) idx 2 + d.window (ix3 e h k) 2 < (D : Int)
        rw [s2, w2]; have := k.isLt; omega

/-- THE ROW SCATTER AT AN INDEX, rank 3: the operand at `(n, h, k)` plus the sum of `u (e, h, k)` over the updates
    `e` whose row number, read signed, is `n`. -/
theorem hostScatterAdd_rows3 (huw : d.updateWindowDims = [1, 2]) (hiw : d.insertedWindowDims = [0])
    (hsd : d.scatterDimsToOperandDims = [0]) (hiv : d.indexVectorDim = 1)
    (x : (⟨3, ![N, H, D]⟩ : Shape).Idx → EReal) (idx : IVec ⟨2, ![E, 1]⟩ 32)
    (u : (⟨3, ![E, H, D]⟩ : Shape).Idx → EReal) (n : Fin N) (h : Fin H) (k : Fin D) :
    Ideal.hostScatterAdd d x idx u (ix3 n h k)
      = x (ix3 n h k)
        + ∑ e ∈ Finset.univ.filter (fun e : Fin E => (idx (ix2 e 0)).toInt = (n.val : Int)), u (ix3 e h k) := by
  unfold Ideal.hostScatterAdd
  congr 1
  rw [Finset.sum_filter, Finset.sum_filter, sum_idx3]
  refine Finset.sum_congr rfl fun e _ => ?_
  simp only [resultIdx3 d huw hiw hsd hiv idx e]
  by_cases hn : (idx (ix2 e 0)).toInt = (n.val : Int)
  · simp [hn, ite_and]
  · simp [hn]

end Rank3

/-! ## The two ranks compared -/

/-- A rank-3 row scatter at `(n, h, k)` is a rank-2 row scatter at `(n, f)` over the same scatter indices, as soon
    as the operands agree at these two indices and the updates agree there in every row `e`. -/
theorem hostScatterAdd_rows3_eq_rows2 {N E H D F : Nat}
    (d3 : ScatterDims ⟨3, ![N, H, D]⟩ ⟨2, ![E, 1]⟩ ⟨3, ![E, H, D]⟩)
    (huw3 : d3.updateWindowDims = [1, 2]) (hiw3 : d3.insertedWindowDims = [0])
    (hsd3 : d3.scatterDimsToOperandDims = [0]) (hiv3 : d3.indexVectorDim = 1)
    (d2 : ScatterDims ⟨2, ![N, F]⟩ ⟨2, ![E, 1]⟩ ⟨2, ![E, F]⟩)
    (huw2 : d2.updateWindowDims = [1]) (hiw2 : d2.insertedWindowDims = [0])
    (hsd2 : d2.scatterDimsToOperandDims = [0]) (hiv2 : d2.indexVectorDim = 1)
    (x3 : (⟨3, ![N, H, D]⟩ : Shape).Idx → EReal) (x2 : (⟨2, ![N, F]⟩ : Shape).Idx → EReal)
    (idx : IVec ⟨2, ![E, 1]⟩ 32)
    (u3 : (⟨3, ![E, H, D]⟩ : Shape).Idx → EReal) (u2 : (⟨2, ![E, F]⟩ : Shape).Idx → EReal)
    (n : Fin N) (h : Fin H) (k : Fin D) (f : Fin F)
    (hx : x3 (ix3 n h k) = x2 (ix2 n f))
    (hu : ∀ e : Fin E, u3 (ix3 e h k) = u2 (ix2 e f)) :
    Ideal.hostScatterAdd d3 x3 idx u3 (ix3 n h k) = Ideal.hostScatterAdd d2 x2 idx u2 (ix2 n f) := by
  rw [hostScatterAdd_rows3 d3 huw3 hiw3 hsd3 hiv3, hostScatterAdd_rows2 d2 huw2 hiw2 hsd2 hiv2, hx]
  congr 1
  exact Finset.sum_congr rfl fun e _ => hu e

/-- The same when the rank-2 updates are the rank-3 ones with the last two axes laid out as one of length
    `F = H * D` (column `f` holding entry `(f / D, f % D)`): the rank-3 scatter at `(n, h, k)` is the rank-2 scatter at
    column `D * h + k`. -/
theorem hostScatterAdd_rows3_flat {N E H D F : Nat} (hF : F = H * D)
    (d3 : ScatterDims ⟨3, ![N, H, D]⟩ ⟨2, ![E, 1]⟩ ⟨3, ![E, H, D]⟩)
    (huw3 : d3.updateWindowDims = [1, 2]) (hiw3 : d3.insertedWindowDims = [0])
    (hsd3 : d3.scatterDimsToOperandDims = [0]) (hiv3 : d3.indexVectorDim = 1)
    (d2 : ScatterDims ⟨2, ![N, F]⟩ ⟨2, ![E, 1]⟩ ⟨2, ![E, F]⟩)
    (huw2 : d2.updateWindowDims = [1]) (hiw2 : d2.insertedWindowDims = [0])
    (hsd2 : d2.scatterDimsToOperandDims = [0]) (hiv2 : d2.indexVectorDim = 1)
    (x3 : (⟨3, ![N, H, D]⟩ : Shape).Idx → EReal) (x2 : (⟨2, ![N, F]⟩ : Shape).Idx → EReal)
    (idx : IVec ⟨2, ![E, 1]⟩ 32)
    (u3 : (⟨3, ![E, H, D]⟩ : Shape).Idx → EReal) (u2 : (⟨2, ![E, F]⟩ : Shape).Idx → EReal)
    (hu : ∀ (e : Fin E) (f : Fin F) (hq : f.val / D < H) (hr : f.val % D < D),
      u2 (ix2 e f) = u3 (ix3 e ⟨f.val / D, hq⟩ ⟨f.val % D, hr⟩))
    (n : Fin N) (h : Fin H) (k : Fin D) (f : Fin F) (hf : f.val = D * h.val + k.val)
    (hx : x3 (ix3 n h k) = x2 (ix2 n f)) :
    Ideal.hostScatterAdd d3 x3 idx u3 (ix3 n h k) = Ideal.hostScatterAdd d2 x2 idx u2 (ix2 n f) := by
  have hD : 0 < D := Nat.lt_of_le_of_lt (Nat.zero_le _) k.isLt
  have hq : f.val / D = h.val := by
    rw [hf, Nat.mul_add_div hD, Nat.div_eq_of_lt k.isLt, Nat.add_zero]
  have hr : f.val % D = k.val := by
    rw [hf, Nat.mul_add_mod, Nat.mod_eq_of_lt k.isLt]
  refine hostScatterAdd_rows3_eq_rows2 d3 huw3 hiw3 hsd3 hiv3 d2 huw2 hiw2 hsd2 hiv2 x3 x2 idx u3 u2 n h k f hx ?_
  intro e
  have hq' : f.val / D < H := by rw [hq]; exact h.isLt
  have hr' : f.val % D < D := by rw [hr]; exact k.isLt
  have e1 : (⟨f.val / D, hq'⟩ : Fin H) = h := Fin.ext hq
  have e2 : (⟨f.val % D, hr'⟩ : Fin D) = k := Fin.ext hr
  rw [hu e f hq' hr', e1, e2]

end ScatterRows
-- ==== Proof.LibScatter1.lean ====
import Idealize.ShloMosaic.Lib.ValueIdx

/-!
  A SCATTER ONTO A VECTOR READ AT AN INDEX.

  An accumulating scatter whose scatter indices are one column of entry numbers — operand `[N]`, updates `[E]`,
  indices `[E, 1]`, update `e` added onto operand entry `idx e` (a segment sum) — is, at the ideal values and at
  operand index `n`, the operand there plus the sum of `u e` over the updates `e` whose entry number is `n`.
  The entry number is read SIGNED and is not clamped: an update whose entry number lies outside `[0, N)` lands
  nowhere and is dropped.

  Every lemma takes an arbitrary dimension record `d` of the right shapes together with the four equations that
  say its lists are those of such a scatter; for a record given by literal lists each equation is `rfl`.
-/

open scoped BigOperators
open Idealize.ShloMosaic Idealize.ShloMosaic.ValueIdx

namespace Scatter1

/-! ## A sum over a rank-1 index set -/

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## Operand `[N]`, updates `[E]`, indices `[E, 1]` -/

variable {N E w : Nat} (d : ScatterDims ⟨1, ![N]⟩ ⟨2, ![E, 1]⟩ ⟨1, ![E]⟩)

/-- Update `e` reads its entry number at `(e, 0)` of the scatter indices. -/
theorem siIdx1 (huw : d.updateWindowDims = []) (hsd : d.scatterDimsToOperandDims = [0]) (hiv : d.indexVectorDim = 1)
    (e : Fin E) (c : Fin d.scatterDimsToOperandDims.length) :
    d.siIdx (ix1 e) c = ix2 e 0 := by
  obtain ⟨uw, iw, sd, iv, wf⟩ := d
  subst huw hsd hiv
  funext b
  match b with
  | ⟨0, _⟩ => rfl
  | ⟨1, _⟩ => exact Fin.ext (by have := c.isLt; simp at this; simpa [ScatterDims.siIdx] using this)

/-- The window of update `e` starts at its entry number, read signed. -/
theorem start1 (huw : d.updateWindowDims = []) (hsd : d.scatterDimsToOperandDims = [0]) (hiv : d.indexVectorDim = 1)
    (idx : IVec ⟨2, ![E, 1]⟩ w) (e : Fin E) :
    d.start (ix1 e) idx 0 = (idx (ix2 e 0)).toInt := by
  have hm : (0 : Fin 1) ∈ d.scatterDimsToOperandDims := by
    rw [hsd]; show (0 : Fin 1) ∈ ([0] : List (Fin 1)); decide
  unfold ScatterDims.start
  rw [dif_pos hm, siIdx1 d huw hsd hiv]

/-- The one operand axis is inserted: the window coordinate there is `0`. -/
theorem window1 (hiw : d.insertedWindowDims = [0]) (j : (⟨1, ![E]⟩ : Shape).Idx) :
    d.window j 0 = 0 := by
  have hm : ¬ (0 : Fin 1) ∈ d.sKept := by
    show ¬ (0 : Fin 1) ∈ Shape.kept _ d.insertedWindowDims
    rw [hiw]
    show ¬ (0 : Fin 1) ∈ (List.finRange 1).filter (fun a => a ∉ ([0] : List (Fin 1)))
    decide
  unfold ScatterDims.window
  rw [dif_neg hm]

/-- Update `e` lands at operand index `n` exactly when its entry number is `n`. -/
theorem resultIdx1 (huw : d.updateWindowDims = []) (hiw : d.insertedWindowDims = [0])
    (hsd : d.scatterDimsToOperandDims = [0]) (hiv : d.indexVectorDim = 1)
    (idx : IVec ⟨2, ![E, 1]⟩ w) (e : Fin E) (n : Fin N) :
    d.resultIdx? (ix1 e) idx = some (ix1 n) ↔ (idx (ix2 e 0)).toInt = (n.val : Int) := by
  have s0 := start1 d huw hsd hiv idx e
  have w0 := window1 d hiw (ix1 e)
  unfold ScatterDims.resultIdx?
  split
  · rename_i h
    constructor
    · intro he
      have hfun := Option.some.inj he
      have h0 : (d.start (ix1 e) idx 0 + d.window (ix1 e) 0).toNat = n.val :=
        congrArg Fin.val (congrFun hfun 0)
      have hh := (h 0).1
      rw [s0, w0] at h0 hh
      omega
    · intro hn
      congr 1
      funext a
      match a with
      | ⟨0, _⟩ =>
        exact Fin.ext (by
          show (d.start (ix1 e) idx 0 + d.window (ix1 e) 0).toNat = n.val
          rw [s0, w0]; omega)
  · rename_i h
    constructor
    · intro he; exact absurd he (by simp)
    · intro hn
      exfalso; apply h
      intro a
      match a with
      | ⟨0, _⟩ =>
        show 0 ≤ d.start (ix1 e) idx 0 + d.window (ix1 e) 0
          ∧ d.start (ix1 e) idx 0 + d.window (ix1 e) 0 < (N : Int)
        rw [s0, w0]; have := n.isLt; omega

/-- THE SCATTER ONTO A VECTOR AT AN INDEX: the operand at `n` plus the sum of `u e` over the updates `e` whose
    entry number, read signed, is `n`. -/
theorem hostScatterAdd_rows1 (huw : d.updateWindowDims = []) (hiw : d.insertedWindowDims = [0])
    (hsd : d.scatterDimsToOperandDims = [0]) (hiv : d.indexVectorDim = 1)
    (x : (⟨1, ![N]⟩ : Shape).Idx → EReal) (idx : IVec ⟨2, ![E, 1]⟩ w)
    (u : (⟨1, ![E]⟩ : Shape).Idx → EReal) (n : Fin N) :
    Ideal.hostScatterAdd d x idx u (ix1 n)
      = x (ix1 n) + ∑ e ∈ Finset.univ.filter (fun e : Fin E => (idx (ix2 e 0)).toInt = (n.val : Int)), u (ix1 e) := by
  unfold Ideal.hostScatterAdd
  congr 1
  rw [Finset.sum_filter, Finset.sum_filter, sum_idx1]
  refine Finset.sum_congr rfl fun e _ => ?_
  simp only [resultIdx1 d huw hiw hsd hiv idx e]

end Scatter1
-- ==== Proof.LibRelMean.lean ====
/-
  The algebra that joins a graph-network layer written two ways, as general statements over arbitrary
  dimension records, at the ideal values (an array is a function from its index type to the extended reals).

  * A linear map of the rows with a zero bias row is the plain matrix product; the matrix product plus a
    bias vector broadcast down the rows is the linear map with that bias as a row.
  * The exponential linear unit spelt "t where t > 0, eᵗ − 1 elsewhere" equals the one spelt
    "t where t > 0, 1 · expm1(t where t ≤ 0, 0 elsewhere) elsewhere", at one entry and as whole arrays.
  * One relation's mean: scattering the gathered rows of a row-wise linear image onto their targets and
    multiplying by 1 / max(count, 1) equals gathering first, multiplying by the matrix after, scattering, and
    dividing by max(1, count). Both scatters are the same sum over the edges into a target; both counts are
    the same natural number n; and x · (1 / c) = x / c for every extended real x and real c = max n 1 ≥ 1.
-/
import Idealize.ShloMosaic.PureOps.Ideal
import Idealize.ShloMosaic.PureOps.Ideal.Laws
import Idealize.ShloMosaic.PureOps.Vector
import Idealize.ShloMosaic.PureOps.Contract
import Idealize.ShloMosaic.PureOps.ShapeOps
import Idealize.ShloMosaic.Lib.ValueIdx
import Idealize.ShloMosaic.Lib.IdealHost
import proofs.«168040_j41652592837487_1_alg».proof.Proof.Spec
import proofs.«168040_j41652592837487_1_alg».proof.Proof.LibDotRows
import proofs.«168040_j41652592837487_1_alg».proof.Proof.LibGatherRows
import proofs.«168040_j41652592837487_1_alg».proof.Proof.LibScatterRows
import proofs.«168040_j41652592837487_1_alg».proof.Proof.LibScatter1

noncomputable section

namespace Cert.RelMean

open Idealize.ShloMosaic Idealize.ShloMosaic.ValueIdx
open scoped BigOperators

/-! ## Linear maps of the rows -/

/-- The linear map read at (r, c). -/
theorem lin_apply {M K : Nat} (x : (⟨2, ![M, K]⟩ : Shape).Idx → EReal) (w : (⟨2, ![K, 128]⟩ : Shape).Idx → EReal)
    (b : (⟨2, ![1, 128]⟩ : Shape).Idx → EReal) (r : Fin M) (c : Fin 128) :
    Cert.Spec.lin x w b (ix2 r c) = (∑ k : Fin K, x (ix2 r k) * w (ix2 k c)) + b (ix2 0 c) := rfl

/-- The plain product read at (r, c). -/
theorem mm_apply {M K : Nat} (x : (⟨2, ![M, K]⟩ : Shape).Idx → EReal) (w : (⟨2, ![K, 128]⟩ : Shape).Idx → EReal)
    (r : Fin M) (c : Fin 128) :
    Cert.Spec.mm x w (ix2 r c) = ∑ k : Fin K, x (ix2 r k) * w (ix2 k c) := rfl

/-- With a zero bias row the linear map is the plain product: x + 0 = x. -/
theorem lin_zero {M K : Nat} (x : (⟨2, ![M, K]⟩ : Shape).Idx → EReal) (w : (⟨2, ![K, 128]⟩ : Shape).Idx → EReal)
    (zrow : (⟨2, ![1, 128]⟩ : Shape).Idx → EReal) (hz : ∀ j, zrow (ix2 0 j) = 0) :
    Cert.Spec.lin x w zrow = Cert.Spec.mm x w := by
  funext i
  obtain ⟨r, c, rfl⟩ : ∃ (r : Fin M) (c : Fin 128), i = ix2 r c := ⟨i 0, i 1, eq_ix2 i⟩
  show (∑ k : Fin K, x (ix2 r k) * w (ix2 k c)) + zrow (ix2 0 c) = ∑ k : Fin K, x (ix2 r k) * w (ix2 k c)
  rw [hz c, add_zero]

/-- The plain product is the host's matrix product of the two arrays. -/
theorem mm_eq {M K : Nat} (dd : DotDims ⟨2, ![M, K]⟩ ⟨2, ![K, 128]⟩ ⟨2, ![M, 128]⟩)
    (hr : dd.contr.rank = 1) (hs : dd.contr.size ⟨0, by omega⟩ = K)
    (h1 : ∀ j k, (dd.lhsIdx j k 0).val = (j 0).val)
    (h2 : ∀ j k, (dd.lhsIdx j k 1).val = (k ⟨0, by omega⟩).val)
    (h3 : ∀ j k, (dd.rhsIdx j k 0).val = (k ⟨0, by omega⟩).val)
    (h4 : ∀ j k, (dd.rhsIdx j k 1).val = (j 1).val)
    (x : (⟨2, ![M, K]⟩ : Shape).Idx → EReal) (w : (⟨2, ![K, 128]⟩ : Shape).Idx → EReal) :
    Cert.Spec.mm x w = Host.dotGeneral (F := Ideal) (φ₁ := .f32) (φ₂ := .f32) dd none x w := by
  funext i
  obtain ⟨r, c, rfl⟩ : ∃ (r : Fin M) (c : Fin 128), i = ix2 r c := ⟨i 0, i 1, eq_ix2 i⟩
  exact (dotGeneral_rows (φ₁ := .f32) (φ₂ := .f32) dd none .single hr hs h1 h2 h3 h4 x w r c).symm

/-- The linear map with bias row `brow` is the host's matrix product plus the bias vector broadcast down the rows. -/
theorem proj_eq {M K : Nat} (dd : DotDims ⟨2, ![M, K]⟩ ⟨2, ![K, 128]⟩ ⟨2, ![M, 128]⟩)
    (hr : dd.contr.rank = 1) (hs : dd.contr.size ⟨0, by omega⟩ = K)
    (h1 : ∀ j k, (dd.lhsIdx j k 0).val = (j 0).val)
    (h2 : ∀ j k, (dd.lhsIdx j k 1).val = (k ⟨0, by omega⟩).val)
    (h3 : ∀ j k, (dd.rhsIdx j k 0).val = (k ⟨0, by omega⟩).val)
    (h4 : ∀ j k, (dd.rhsIdx j k 1).val = (j 1).val)
    (x : (⟨2, ![M, K]⟩ : Shape).Idx → EReal) (w : (⟨2, ![K, 128]⟩ : Shape).Idx → EReal)
    (b : (⟨1, ![128]⟩ : Shape).Idx → EReal) (brow : (⟨2, ![1, 128]⟩ : Shape).Idx → EReal)
    (hbrow : ∀ j, brow (ix2 0 j) = b (ix1 j))
    (bb : (⟨2, ![M, 128]⟩ : Shape).Idx → EReal) (hbb : ∀ r j, bb (ix2 r j) = b (ix1 j)) :
    Cert.Spec.lin x w brow
      = addf (F := Ideal) (φ := .f32) (Host.dotGeneral (F := Ideal) (φ₁ := .f32) (φ₂ := .f32) dd none x w) bb := by
  funext i
  obtain ⟨r, c, rfl⟩ : ∃ (r : Fin M) (c : Fin 128), i = ix2 r c := ⟨i 0, i 1, eq_ix2 i⟩
  show (∑ k : Fin K, x (ix2 r k) * w (ix2 k c)) + brow (ix2 0 c)
    = (FloatOps.dotGeneral (F := Ideal) (φ₁ := .f32) (φ₂ := .f32) dd none .single x w (ix2 r c) : EReal) + bb (ix2 r c)
  rw [dotGeneral_rows (φ₁ := .f32) (φ₂ := .f32) dd none .single hr hs h1 h2 h3 h4 x w r c, hbb, hbrow]

/-! ## The exponential linear unit -/

/-- The two spellings of the unit at one extended real: where t > 0 both give t; elsewhere the inner choice
    gives t and 1 · (eᵗ − 1) = eᵗ − 1. -/
theorem elu_point (t : EReal) :
    Cert.Spec.elu1 t
      = Scalar.select (FloatOps.cmpf (F := Ideal) (φ := .f32) .ogt t (FloatOps.ofBits (F := Ideal) .f32 0x00000000#32)) t
          (FloatOps.mulf (F := Ideal) (φ := .f32) (FloatOps.ofBits (F := Ideal) .f32 0x3F800000#32)
            (FloatOps.hostUnary (F := Ideal) (φ := .f32) .expm1
              (Scalar.select (FloatOps.cmpf (F := Ideal) (φ := .f32) .ogt t (FloatOps.ofBits (F := Ideal) .f32 0x00000000#32))
                (FloatOps.ofBits (F := Ideal) .f32 0x00000000#32) t))) := by
  have ho : FloatOps.ofBits (F := Ideal) .f32 0x3F800000#32 = (1 : EReal) := Ideal.ofBits_one_f32
  unfold Cert.Spec.elu1 Scalar.select
  by_cases hc : FloatOps.cmpf (F := Ideal) (φ := .f32) .ogt t (FloatOps.ofBits (F := Ideal) .f32 0x00000000#32) = 1
  · rw [if_pos hc, if_pos hc]
  · rw [if_neg hc, if_neg hc, if_neg hc, ho]
    show Ideal.exp t - 1 = 1 * (Ideal.exp t - 1)
    rw [one_mul]

/-- The same for whole arrays of any shape: the unit entry by entry is the vector term
    "choose x where x > 0, else 1 · expm1 (choose 0 where x > 0, else x)", every constant a scalar broadcast to the shape. -/
theorem elu_array {T : Shape}
    (hb0 hb1 hb2 hb3 : (⟨0, ![]⟩ : Shape).BroadcastsInDim T ![]) (x : T.Idx → EReal) :
    (fun i => Cert.Spec.elu1 (x i))
      = select (cmpf (F := Ideal) (φ := .f32) .ogt x
            (broadcastInDim T ![] hb0 (constant (F := Ideal) ⟨0, ![]⟩ .f32 0x00000000#32)))
          x
          (mulf (F := Ideal) (φ := .f32)
            (broadcastInDim T ![] hb3 (constant (F := Ideal) ⟨0, ![]⟩ .f32 0x3F800000#32))
            (Host.expm1 (F := Ideal) (φ := .f32)
              (select (cmpf (F := Ideal) (φ := .f32) .ogt x
                  (broadcastInDim T ![] hb1 (constant (F := Ideal) ⟨0, ![]⟩ .f32 0x00000000#32)))
                (broadcastInDim T ![] hb2 (id (constant (F := Ideal) ⟨0, ![]⟩ .f32 0x00000000#32)))
                x))) := by
  funext i
  rw [elu_point]
  rfl
/-! ## One relation's mean -/

section RelMean

variable {N E : Nat}

/-- The edges whose target, read signed, is the node t. -/
def edgesInto (tgt : IVec ⟨2, ![E, 1]⟩ 32) (t : Fin 50000) : Finset (Fin E) :=
  Finset.univ.filter (fun e : Fin E => (tgt (ix2 e 0)).toInt = (t.val : Int))

/-- The source row of edge e, read signed and clamped into [0, N − 1]. -/
def srcRow (hN : 0 < N) (src : IVec ⟨2, ![E, 1]⟩ 32) (e : Fin E) : Fin N :=
  ⟨min (src (ix2 e 0)).toInt.toNat (N - 1), by omega⟩

/-- Scatter of the gathered rows of a row-wise linear image, read at (t, j): the sum over the edges into t of the
    linear image of the source row. -/
theorem scatter_gather_lin (hN : 0 < N)
    (gd : GatherDims ⟨2, ![N, 128]⟩ ⟨2, ![E, 1]⟩ ⟨2, ![E, 128]⟩)
    (hod : gd.offsetDims = [1]) (hcd : gd.collapsedSliceDims = [0]) (hob : gd.operandBatchingDims = [])
    (hsm : gd.startIndexMap = [0]) (hiv : gd.indexVectorDim = 1) (hss : gd.sliceSizes = ![1, 128])
    (sd : ScatterDims ⟨2, ![50000, 128]⟩ ⟨2, ![E, 1]⟩ ⟨2, ![E, 128]⟩)
    (huw : sd.updateWindowDims = [1]) (hiw : sd.insertedWindowDims = [0])
    (hsd : sd.scatterDimsToOperandDims = [0]) (hsiv : sd.indexVectorDim = 1)
    (h : (⟨2, ![N, 128]⟩ : Shape).Idx → EReal) (W : (⟨2, ![128, 128]⟩ : Shape).Idx → EReal)
    (hrel : (⟨2, ![N, 128]⟩ : Shape).Idx → EReal)
    (hhrel : ∀ r j, hrel (ix2 r j) = ∑ k : Fin 128, h (ix2 r k) * W (ix2 k j))
    (src tgt : IVec ⟨2, ![E, 1]⟩ 32)
    (z2 : (⟨2, ![50000, 128]⟩ : Shape).Idx → EReal) (hz2 : ∀ i, z2 i = 0) (t : Fin 50000) (j : Fin 128) :
    Host.scatterAdd (F := Ideal) (φ := .f32) sd z2 tgt (Host.gather gd hrel src) (ix2 t j)
      = ∑ e ∈ edgesInto tgt t, ∑ k : Fin 128, h (ix2 (srcRow hN src e) k) * W (ix2 k j) := by
  show Ideal.hostScatterAdd sd z2 tgt (Host.gather gd hrel src) (ix2 t j) = _
  rw [ScatterRows.hostScatterAdd_rows2 sd huw hiw hsd hsiv, hz2, zero_add]
  refine Finset.sum_congr rfl fun e _ => ?_
  rw [GatherRows.gather_rows2 gd hN hod hcd hob hsm hiv hss, hhrel]
  rfl

/-- Scatter of the matrix product of the gathered rows, read at (t, j): the same sum. -/
theorem scatter_dot_gather (hN : 0 < N)
    (gd : GatherDims ⟨2, ![N, 128]⟩ ⟨2, ![E, 1]⟩ ⟨2, ![E, 128]⟩)
    (hod : gd.offsetDims = [1]) (hcd : gd.collapsedSliceDims = [0]) (hob : gd.operandBatchingDims = [])
    (hsm : gd.startIndexMap = [0]) (hiv : gd.indexVectorDim = 1) (hss : gd.sliceSizes = ![1, 128])
    (sd : ScatterDims ⟨2, ![50000, 128]⟩ ⟨2, ![E, 1]⟩ ⟨2, ![E, 128]⟩)
    (huw : sd.updateWindowDims = [1]) (hiw : sd.insertedWindowDims = [0])
    (hsd : sd.scatterDimsToOperandDims = [0]) (hsiv : sd.indexVectorDim = 1)
    (dd : DotDims ⟨2, ![E, 128]⟩ ⟨2, ![128, 128]⟩ ⟨2, ![E, 128]⟩)
    (hr : dd.contr.rank = 1) (hs : dd.contr.size ⟨0, by omega⟩ = 128)
    (h1 : ∀ j k, (dd.lhsIdx j k 0).val = (j 0).val)
    (h2 : ∀ j k, (dd.lhsIdx j k 1).val = (k ⟨0, by omega⟩).val)
    (h3 : ∀ j k, (dd.rhsIdx j k 0).val = (k ⟨0, by omega⟩).val)
    (h4 : ∀ j k, (dd.rhsIdx j k 1).val = (j 1).val)
    (h : (⟨2, ![N, 128]⟩ : Shape).Idx → EReal) (W : (⟨2, ![128, 128]⟩ : Shape).Idx → EReal)
    (src tgt : IVec ⟨2, ![E, 1]⟩ 32)
    (z2 : (⟨2, ![50000, 128]⟩ : Shape).Idx → EReal) (hz2 : ∀ i, z2 i = 0) (t : Fin 50000) (j : Fin 128) :
    Host.scatterAdd (F := Ideal) (φ := .f32) sd z2 tgt
        (Host.dotGeneral (F := Ideal) (φ₁ := .f32) (φ₂ := .f32) dd none (Host.gather gd h src) W) (ix2 t j)
      = ∑ e ∈ edgesInto tgt t, ∑ k : Fin 128, h (ix2 (srcRow hN src e) k) * W (ix2 k j) := by
  show Ideal.hostScatterAdd sd z2 tgt (FloatOps.dotGeneral (F := Ideal) (φ₁ := .f32) (φ₂ := .f32) dd none .single (Host.gather gd h src) W) (ix2 t j) = _
  rw [ScatterRows.hostScatterAdd_rows2 sd huw hiw hsd hsiv, hz2, zero_add]
  refine Finset.sum_congr rfl fun e _ => ?_
  rw [dotGeneral_rows (φ₁ := .f32) (φ₂ := .f32) dd none .single hr hs h1 h2 h3 h4]
  refine Finset.sum_congr rfl fun k _ => ?_
  rw [GatherRows.gather_rows2 gd hN hod hcd hob hsm hiv hss]
  rfl

/-- A sum of ones over a finite set is its number of elements, as an extended real. -/
theorem sum_ones {ι : Type} (S : Finset ι) (o : ι → EReal) (ho : ∀ e, o e = 1) :
    ∑ e ∈ S, o e = ((S.card : ℕ) : EReal) := by
  rw [Finset.sum_congr rfl fun e _ => ho e, Finset.sum_const, nsmul_one]

/-- The count scattered onto a vector, read at t: the number of edges into t. -/
theorem count_vec (sd1 : ScatterDims ⟨1, ![50000]⟩ ⟨2, ![E, 1]⟩ ⟨1, ![E]⟩)
    (huw : sd1.updateWindowDims = []) (hiw : sd1.insertedWindowDims = [0])
    (hsd : sd1.scatterDimsToOperandDims = [0]) (hiv : sd1.indexVectorDim = 1)
    (tgt : IVec ⟨2, ![E, 1]⟩ 32)
    (z1 : (⟨1, ![50000]⟩ : Shape).Idx → EReal) (hz1 : ∀ i, z1 i = 0)
    (o1 : (⟨1, ![E]⟩ : Shape).Idx → EReal) (ho1 : ∀ i, o1 i = 1) (t : Fin 50000) :
    Host.scatterAdd (F := Ideal) (φ := .f32) sd1 z1 tgt o1 (ix1 t) = (((edgesInto tgt t).card : ℕ) : EReal) := by
  show Ideal.hostScatterAdd sd1 z1 tgt o1 (ix1 t) = _
  rw [Scatter1.hostScatterAdd_rows1 sd1 huw hiw hsd hiv, hz1, zero_add]
  exact sum_ones _ (fun e => o1 (ix1 e)) (fun e => ho1 _)

/-- The count scattered onto a column, read at (t, 0): the same number. -/
theorem count_col (sd1 : ScatterDims ⟨2, ![50000, 1]⟩ ⟨2, ![E, 1]⟩ ⟨2, ![E, 1]⟩)
    (huw : sd1.updateWindowDims = [1]) (hiw : sd1.insertedWindowDims = [0])
    (hsd : sd1.scatterDimsToOperandDims = [0]) (hiv : sd1.indexVectorDim = 1)
    (tgt : IVec ⟨2, ![E, 1]⟩ 32)
    (z1 : (⟨2, ![50000, 1]⟩ : Shape).Idx → EReal) (hz1 : ∀ i, z1 i = 0)
    (o1 : (⟨2, ![E, 1]⟩ : Shape).Idx → EReal) (ho1 : ∀ i, o1 i = 1) (t : Fin 50000) :
    Host.scatterAdd (F := Ideal) (φ := .f32) sd1 z1 tgt o1 (ix2 t 0) = (((edgesInto tgt t).card : ℕ) : EReal) := by
  show Ideal.hostScatterAdd sd1 z1 tgt o1 (ix2 t 0) = _
  rw [ScatterRows.hostScatterAdd_rows2 sd1 huw hiw hsd hiv, hz1, zero_add]
  exact sum_ones _ (fun e => o1 (ix2 e 0)) (fun e => ho1 _)

/-- For a natural number n and every extended real x: x · (1 / max n 1) = x / max 1 n, the quotient being the
    ideal division (the divisor is at least 1, so it is not zero). -/
theorem mul_recip_count (n : ℕ) (x : EReal) :
    x * Ideal.div 1 (max ((n : ℕ) : EReal) 1) = Ideal.div x (max 1 ((n : ℕ) : EReal)) := by
  have h1 : (1 : EReal) ≤ max ((n : ℕ) : EReal) 1 := le_max_right _ _
  have hne : max ((n : ℕ) : EReal) 1 ≠ 0 := (lt_of_lt_of_le zero_lt_one h1).ne'
  rw [Ideal.mul_one_div hne, max_comm]

end RelMean

/-- ONE RELATION'S MEAN, the two ways: scatter the gathered rows of the row-wise linear image and multiply by
    1 / max(count, 1), or gather, multiply by the matrix, scatter, and divide by max(1, count). -/
theorem relmean_eq {N E : Nat} (hN : 0 < N)
    (gdK : GatherDims ⟨2, ![N, 128]⟩ ⟨2, ![E, 1]⟩ ⟨2, ![E, 128]⟩)
    (hodK : gdK.offsetDims = [1]) (hcdK : gdK.collapsedSliceDims = [0]) (hobK : gdK.operandBatchingDims = [])
    (hsmK : gdK.startIndexMap = [0]) (hivK : gdK.indexVectorDim = 1) (hssK : gdK.sliceSizes = ![1, 128])
    (gdR : GatherDims ⟨2, ![N, 128]⟩ ⟨2, ![E, 1]⟩ ⟨2, ![E, 128]⟩)
    (hodR : gdR.offsetDims = [1]) (hcdR : gdR.collapsedSliceDims = [0]) (hobR : gdR.operandBatchingDims = [])
    (hsmR : gdR.startIndexMap = [0]) (hivR : gdR.indexVectorDim = 1) (hssR : gdR.sliceSizes = ![1, 128])
    (sdK : ScatterDims ⟨2, ![50000, 128]⟩ ⟨2, ![E, 1]⟩ ⟨2, ![E, 128]⟩)
    (huwK : sdK.updateWindowDims = [1]) (hiwK : sdK.insertedWindowDims = [0])
    (hsdK : sdK.scatterDimsToOperandDims = [0]) (hsivK : sdK.indexVectorDim = 1)
    (sdR : ScatterDims ⟨2, ![50000, 128]⟩ ⟨2, ![E, 1]⟩ ⟨2, ![E, 128]⟩)
    (huwR : sdR.updateWindowDims = [1]) (hiwR : sdR.insertedWindowDims = [0])
    (hsdR : sdR.scatterDimsToOperandDims = [0]) (hsivR : sdR.indexVectorDim = 1)
    (sd1K : ScatterDims ⟨1, ![50000]⟩ ⟨2, ![E, 1]⟩ ⟨1, ![E]⟩)
    (huw1K : sd1K.updateWindowDims = []) (hiw1K : sd1K.insertedWindowDims = [0])
    (hsd1K : sd1K.scatterDimsToOperandDims = [0]) (hiv1K : sd1K.indexVectorDim = 1)
    (sd1R : ScatterDims ⟨2, ![50000, 1]⟩ ⟨2, ![E, 1]⟩ ⟨2, ![E, 1]⟩)
    (huw1R : sd1R.updateWindowDims = [1]) (hiw1R : sd1R.insertedWindowDims = [0])
    (hsd1R : sd1R.scatterDimsToOperandDims = [0]) (hiv1R : sd1R.indexVectorDim = 1)
    (dd : DotDims ⟨2, ![E, 128]⟩ ⟨2, ![128, 128]⟩ ⟨2, ![E, 128]⟩)
    (hr : dd.contr.rank = 1) (hs : dd.contr.size ⟨0, by omega⟩ = 128)
    (h1 : ∀ j k, (dd.lhsIdx j k 0).val = (j 0).val)
    (h2 : ∀ j k, (dd.lhsIdx j k 1).val = (k ⟨0, by omega⟩).val)
    (h3 : ∀ j k, (dd.rhsIdx j k 0).val = (k ⟨0, by omega⟩).val)
    (h4 : ∀ j k, (dd.rhsIdx j k 1).val = (j 1).val)
    (h : (⟨2, ![N, 128]⟩ : Shape).Idx → EReal) (W : (⟨2, ![128, 128]⟩ : Shape).Idx → EReal)
    (hrel : (⟨2, ![N, 128]⟩ : Shape).Idx → EReal)
    (hhrel : ∀ r j, hrel (ix2 r j) = ∑ k : Fin 128, h (ix2 r k) * W (ix2 k j))
    (src tgt : IVec ⟨2, ![E, 1]⟩ 32)
    (z2K z2R : (⟨2, ![50000, 128]⟩ : Shape).Idx → EReal) (hz2K : ∀ i, z2K i = 0) (hz2R : ∀ i, z2R i = 0)
    (z1K : (⟨1, ![50000]⟩ : Shape).Idx → EReal) (hz1K : ∀ i, z1K i = 0)
    (o1K : (⟨1, ![E]⟩ : Shape).Idx → EReal) (ho1K : ∀ i, o1K i = 1)
    (oneK oneK' : (⟨1, ![50000]⟩ : Shape).Idx → EReal) (honeK : ∀ i, oneK i = 1) (honeK' : ∀ i, oneK' i = 1)
    (z1R : (⟨2, ![50000, 1]⟩ : Shape).Idx → EReal) (hz1R : ∀ i, z1R i = 0)
    (o1R : (⟨2, ![E, 1]⟩ : Shape).Idx → EReal) (ho1R : ∀ i, o1R i = 1)
    (oneR : (⟨2, ![50000, 1]⟩ : Shape).Idx → EReal) (honeR : ∀ i, oneR i = 1)
    (bK : (⟨2, ![50000, 128]⟩ : Shape).Idx → EReal)
    (hbK : ∀ t j, bK (ix2 t j)
      = Host.divf (F := Ideal) (φ := .f32) oneK
          (maximumf (F := Ideal) (φ := .f32) (Host.scatterAdd (F := Ideal) (φ := .f32) sd1K z1K tgt o1K) oneK') (ix1 t))
    (bR : (⟨2, ![50000, 128]⟩ : Shape).Idx → EReal)
    (hbR : ∀ t j, bR (ix2 t j)
      = maximumf (F := Ideal) (φ := .f32) oneR (Host.scatterAdd (F := Ideal) (φ := .f32) sd1R z1R tgt o1R) (ix2 t 0)) :
    mulf (F := Ideal) (φ := .f32)
        (Host.scatterAdd (F := Ideal) (φ := .f32) sdK z2K tgt (Host.gather gdK hrel src)) bK
      = Host.divf (F := Ideal) (φ := .f32)
          (Host.scatterAdd (F := Ideal) (φ := .f32) sdR z2R tgt
            (Host.dotGeneral (F := Ideal) (φ₁ := .f32) (φ₂ := .f32) dd none (Host.gather gdR h src) W)) bR := by
  funext i
  obtain ⟨t, j, rfl⟩ : ∃ (t : Fin 50000) (j : Fin 128), i = ix2 t j := ⟨i 0, i 1, eq_ix2 i⟩
  show Host.scatterAdd (F := Ideal) (φ := .f32) sdK z2K tgt (Host.gather gdK hrel src) (ix2 t j) * bK (ix2 t j)
    = Ideal.div (Host.scatterAdd (F := Ideal) (φ := .f32) sdR z2R tgt
        (Host.dotGeneral (F := Ideal) (φ₁ := .f32) (φ₂ := .f32) dd none (Host.gather gdR h src) W) (ix2 t j)) (bR (ix2 t j))
  rw [scatter_gather_lin hN gdK hodK hcdK hobK hsmK hivK hssK sdK huwK hiwK hsdK hsivK h W hrel hhrel src tgt z2K hz2K,
    scatter_dot_gather hN gdR hodR hcdR hobR hsmR hivR hssR sdR huwR hiwR hsdR hsivR dd hr hs h1 h2 h3 h4 h W src tgt
      z2R hz2R,
    hbK, hbR]
  show _ * Ideal.div (oneK (ix1 t))
        (max (Host.scatterAdd (F := Ideal) (φ := .f32) sd1K z1K tgt o1K (ix1 t)) (oneK' (ix1 t)))
    = Ideal.div _ (max (oneR (ix2 t 0)) (Host.scatterAdd (F := Ideal) (φ := .f32) sd1R z1R tgt o1R (ix2 t 0)))
  rw [count_vec sd1K huw1K hiw1K hsd1K hiv1K tgt z1K hz1K o1K ho1K,
    count_col sd1R huw1R hiw1R hsd1R hiv1R tgt z1R hz1R o1R ho1R, honeK, honeK', honeR]
  exact mul_recip_count _ _

end Cert.RelMean

end
-- ==== Proof.LibHostLayout.lean ====
/-
  Host layout steps read at an index written by coordinates, for any extents.

  A vector of `b` entries broadcast first to the single row `[1, b]` and then down `a` rows reads, at `(i, j)`, the
  vector at `j`.  A column `[a, 1]` broadcast along `b` columns reads, at `(i, j)`, the column at row `i`.  A vector of
  `a` entries broadcast to the column `[a, 1]` reads, at `(i, u)`, the vector at `i`.  The host's sum of a matrix along
  its rows, at the ideal values, is the initial value plus the sum of that row's entries.  General; no program is
  imported.
-/
import Idealize.ShloMosaic.Lib.Pipeline.Value
import Idealize.ShloMosaic.Lib.ValueIdx
import Idealize.ShloMosaic.Lib.IdealHost
import Idealize.ShloMosaic.PureOps.Ideal.Laws
import Idealize.ShloMosaic.PureOps.Reduce

noncomputable section

open scoped BigOperators

namespace Idealize.ShloMosaic.ValueIdx

open Idealize.ShloMosaic

variable {α : Type}

/-- A vector `[b]` made the row `[1, b]` and copied down `a` rows reads, at `(i, j)`, the vector at `j`. -/
theorem broadcastInDim_vec_rows_apply {a b : ℕ} (x : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (i : Fin a) (j : Fin b) :
    broadcastInDim ⟨2, ![a, b]⟩ ![0, 1] h2 (broadcastInDim ⟨2, ![1, b]⟩ ![1] h1 x) (ix2 i j) = x (ix1 j) := by
  refine (broadcastInDim_apply ![0, 1] h2 _ (ix2 i j) (ix2 (0 : Fin 1) j) fun ax => ?_).trans
    (broadcastInDim_apply ![1] h1 x (ix2 (0 : Fin 1) j) (ix1 j) fun ax => ?_)
  · match ax with
    | ⟨0, _⟩ => exact (if_pos rfl).symm
    | ⟨1, _⟩ =>
      show j.val = if b = 1 then 0 else j.val
      split
      · have := j.isLt; omega
      · rfl
  · match ax with
    | ⟨0, _⟩ =>
      show j.val = if b = 1 then 0 else j.val
      split
      · have := j.isLt; omega
      · rfl

/-- A column `[a, 1]` copied along `b` columns reads, at `(i, j)`, the column at row `i`. -/
theorem broadcastInDim_col_apply {a b : ℕ} (v : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h v (ix2 i j) = v (ix2 i (0 : Fin 1)) := by
  refine broadcastInDim_apply ![0, 1] h v (ix2 i j) (ix2 i (0 : Fin 1)) fun ax => ?_
  match ax with
  | ⟨0, _⟩ =>
    show i.val = if a = 1 then 0 else i.val
    split
    · have := i.isLt; omega
    · rfl
  | ⟨1, _⟩ => exact (if_pos rfl).symm

/-- A vector `[a]` made the column `[a, 1]` reads, at `(i, u)`, the vector at `i`. -/
theorem broadcastInDim_vec_col_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- The host's sum of a matrix along its rows, at the ideal values, read at row `i`: the initial value plus the
    sum of the row's entries. -/
theorem hostRowSum_apply {a b : ℕ} {u : Shape} (z : FVec Ideal ⟨2, ![a, b]⟩ .f32) (init : u.Idx → EReal)
    (h' : (⟨2, ![a, b]⟩ : Shape).ReducesTo [1] ⟨1, ![a]⟩) (h : (⟨2, ![a, b]⟩ : Shape).Reduces [1] ⟨1, ![a]⟩)
    (hu : 0 < u.numel) (i : Fin a) :
    Host.reduceAdd z init h' hu (ix1 i) = init (Shape.Idx.first hu) + ∑ k : Fin b, z (ix2 i k) := by
  refine (hostReduceAdd_apply z init h' hu (ix1 i)).trans ((Ideal.hostReduceAdd_single h' h z _ (ix1 i)).trans ?_)
  refine congrArg (fun s => init (Shape.Idx.first hu) + s) ?_
  show ∑ k : Fin b, z (h.lift (ix1 i) k) = _
  refine Finset.sum_congr rfl fun k _ => congrArg z ?_
  funext ax; apply Fin.ext
  fin_cases ax <;> rfl

end Idealize.ShloMosaic.ValueIdx

end
-- ==== Proof.Bridge.lean ====
/-
  The reference's value equals the kernel's value, as functions of the nineteen argument arrays, at the ideal values.

  * A broadcast scalar constant reads its value at every index; a column broadcast along the columns reads the
    column's row; a vector reshaped to a row reads the vector.
  * One relation's mean: the kernel scatters the gathered rows of the table h·W onto their targets and multiplies by the
    broadcast column 1 / max(count, 1); the reference gathers the rows of h, multiplies by W, scatters, and divides by
    the broadcast column max(1, count). The index arrays of the two are the same operations, the dimension records
    have the same lists, and the general statement about such a pair gives the equality, for each of the four relations.
  * A projection x·W + b: the linear map with b reshaped to a row equals the matrix product plus b broadcast to a row
    and down the rows; with the zero vector as bias it is the plain product.
  * One layer: the unit of the five-term sum, entry by entry, is the reference's spelling of the unit over the sum
    associated to the left; three layers over the four projections give the result.
-/
import proofs.«168040_j41652592837487_1_alg».proof.Proof.KVal
import proofs.«168040_j41652592837487_1_alg».proof.Proof.RefVal
import proofs.«168040_j41652592837487_1_alg».proof.Proof.LibRelMean
import proofs.«168040_j41652592837487_1_alg».proof.Proof.LibHostLayout
import Idealize.ShloMosaic.Lib.IdealHost
import Idealize.ShloMosaic.Lib.ValueLayout

set_option maxRecDepth 16384

noncomputable section

namespace Cert.Bridge

open Idealize.ShloMosaic Idealize.ShloMosaic.ValueIdx
open Cert.KernelIdeal Cert.ReferenceIdeal
open scoped BigOperators

/-! ## Constants and layout steps read at an index -/

/-- The zero word broadcast from a scalar reads 0 everywhere. -/
theorem bcast_zero {T : Shape} (hb : (⟨0, ![]⟩ : Shape).BroadcastsInDim T ![]) (i : T.Idx) :
    broadcastInDim T ![] hb (constant (F := Ideal) ⟨0, ![]⟩ .f32 0x00000000#32) i = (0 : EReal) := by
  rw [broadcastInDim_scalar_apply]
  exact Ideal.ofBits_zero_f32

/-- The one word broadcast from a scalar reads 1 everywhere. -/
theorem bcast_one {T : Shape} (hb : (⟨0, ![]⟩ : Shape).BroadcastsInDim T ![]) (i : T.Idx) :
    broadcastInDim T ![] hb (constant (F := Ideal) ⟨0, ![]⟩ .f32 0x3F800000#32) i = (1 : EReal) := by
  rw [broadcastInDim_scalar_apply]
  exact Ideal.ofBits_one_f32

/-! ## One relation's mean over the two programs' terms -/

/-- The kernel's relation mean (scatter of gathered rows of the linear image, times the broadcast column of
    1 / max(count, 1)) equals the reference's (gather, matrix product, scatter, divided by the broadcast column
    max(1, count)), every constant a broadcast scalar. -/
theorem rel_bridge {N E : Nat} (hN : 0 < N)
    (gdK : GatherDims ⟨2, ![N, 128]⟩ ⟨2, ![E, 1]⟩ ⟨2, ![E, 128]⟩)
    (hodK : gdK.offsetDims = [1]) (hcdK : gdK.collapsedSliceDims = [0]) (hobK : gdK.operandBatchingDims = [])
    (hsmK : gdK.startIndexMap = [0]) (hivK : gdK.indexVectorDim = 1) (hssK : gdK.sliceSizes = ![1, 128])
    (gdR : GatherDims ⟨2, ![N, 128]⟩ ⟨2, ![E, 1]⟩ ⟨2, ![E, 128]⟩)
    (hodR : gdR.offsetDims = [1]) (hcdR : gdR.collapsedSliceDims = [0]) (hobR : gdR.operandBatchingDims = [])
    (hsmR : gdR.startIndexMap = [0]) (hivR : gdR.indexVectorDim = 1) (hssR : gdR.sliceSizes = ![1, 128])
    (sdK : ScatterDims ⟨2, ![50000, 128]⟩ ⟨2, ![E, 1]⟩ ⟨2, ![E, 128]⟩)
    (huwK : sdK.updateWindowDims = [1]) (hiwK : sdK.insertedWindowDims = [0])
    (hsdK : sdK.scatterDimsToOperandDims = [0]) (hsivK : sdK.indexVectorDim = 1)
    (sdR : ScatterDims ⟨2, ![50000, 128]⟩ ⟨2, ![E, 1]⟩ ⟨2, ![E, 128]⟩)
    (huwR : sdR.updateWindowDims = [1]) (hiwR : sdR.insertedWindowDims = [0])
    (hsdR : sdR.scatterDimsToOperandDims = [0]) (hsivR : sdR.indexVectorDim = 1)
    (sd1K : ScatterDims ⟨1, ![50000]⟩ ⟨2, ![E, 1]⟩ ⟨1, ![E]⟩)
    (huw1K : sd1K.updateWindowDims = []) (hiw1K : sd1K.insertedWindowDims = [0])
    (hsd1K : sd1K.scatterDimsToOperandDims = [0]) (hiv1K : sd1K.indexVectorDim = 1)
    (sd1R : ScatterDims ⟨2, ![50000, 1]⟩ ⟨2, ![E, 1]⟩ ⟨2, ![E, 1]⟩)
    (huw1R : sd1R.updateWindowDims = [1]) (hiw1R : sd1R.insertedWindowDims = [0])
    (hsd1R : sd1R.scatterDimsToOperandDims = [0]) (hiv1R : sd1R.indexVectorDim = 1)
    (dd : DotDims ⟨2, ![E, 128]⟩ ⟨2, ![128, 128]⟩ ⟨2, ![E, 128]⟩)
    (hr : dd.contr.rank = 1) (hs : dd.contr.size ⟨0, by omega⟩ = 128)
    (h1 : ∀ j k, (dd.lhsIdx j k 0).val = (j 0).val)
    (h2 : ∀ j k, (dd.lhsIdx j k 1).val = (k ⟨0, by omega⟩).val)
    (h3 : ∀ j k, (dd.rhsIdx j k 0).val = (k ⟨0, by omega⟩).val)
    (h4 : ∀ j k, (dd.rhsIdx j k 1).val = (j 1).val)
    (h : (⟨2, ![N, 128]⟩ : Shape).Idx → EReal) (W : (⟨2, ![128, 128]⟩ : Shape).Idx → EReal)
    (hrel : (⟨2, ![N, 128]⟩ : Shape).Idx → EReal)
    (hhrel : ∀ r j, hrel (ix2 r j) = ∑ k : Fin 128, h (ix2 r k) * W (ix2 k j))
    (src tgt : IVec ⟨2, ![E, 1]⟩ 32)
    (pz2K pz2R : (⟨0, ![]⟩ : Shape).BroadcastsInDim ⟨2, ![50000, 128]⟩ ![])
    (pz1K poneK poneK' : (⟨0, ![]⟩ : Shape).BroadcastsInDim ⟨1, ![50000]⟩ ![])
    (po1K : (⟨0, ![]⟩ : Shape).BroadcastsInDim ⟨1, ![E]⟩ ![])
    (pcolK : (⟨1, ![50000]⟩ : Shape).BroadcastsInDim ⟨2, ![50000, 1]⟩ ![0])
    (pbK pbR : (⟨2, ![50000, 1]⟩ : Shape).BroadcastsInDim ⟨2, ![50000, 128]⟩ ![0, 1])
    (pz1R poneR : (⟨0, ![]⟩ : Shape).BroadcastsInDim ⟨2, ![50000, 1]⟩ ![])
    (po1R : (⟨0, ![]⟩ : Shape).BroadcastsInDim ⟨2, ![E, 1]⟩ ![]) :
    mulf (F := Ideal) (φ := .f32)
        (Host.scatterAdd (F := Ideal) (φ := .f32) sdK
          (broadcastInDim ⟨2, ![50000, 128]⟩ ![] pz2K (constant (F := Ideal) ⟨0, ![]⟩ .f32 0x00000000#32)) tgt
          (Host.gather gdK hrel src))
        (broadcastInDim ⟨2, ![50000, 128]⟩ ![0, 1] pbK
          (broadcastInDim ⟨2, ![50000, 1]⟩ ![0] pcolK
            (Host.divf (F := Ideal) (φ := .f32)
              (broadcastInDim ⟨1, ![50000]⟩ ![] poneK (constant (F := Ideal) ⟨0, ![]⟩ .f32 0x3F800000#32))
              (maximumf (F := Ideal) (φ := .f32)
                (Host.scatterAdd (F := Ideal) (φ := .f32) sd1K
                  (broadcastInDim ⟨1, ![50000]⟩ ![] pz1K (constant (F := Ideal) ⟨0, ![]⟩ .f32 0x00000000#32)) tgt
                  (broadcastInDim ⟨1, ![E]⟩ ![] po1K (constant (F := Ideal) ⟨0, ![]⟩ .f32 0x3F800000#32)))
                (broadcastInDim ⟨1, ![50000]⟩ ![] poneK' (constant (F := Ideal) ⟨0, ![]⟩ .f32 0x3F800000#32))))))
      = Host.divf (F := Ideal) (φ := .f32)
          (Host.scatterAdd (F := Ideal) (φ := .f32) sdR
            (broadcastInDim ⟨2, ![50000, 128]⟩ ![] pz2R (constant (F := Ideal) ⟨0, ![]⟩ .f32 0x00000000#32)) tgt
            (Host.dotGeneral (F := Ideal) (φ₁ := .f32) (φ₂ := .f32) dd none (Host.gather gdR h src) W))
          (broadcastInDim ⟨2, ![50000, 128]⟩ ![0, 1] pbR
            (maximumf (F := Ideal) (φ := .f32)
              (broadcastInDim ⟨2, ![50000, 1]⟩ ![] poneR (id (constant (F := Ideal) ⟨0, ![]⟩ .f32 0x3F800000#32)))
              (Host.scatterAdd (F := Ideal) (φ := .f32) sd1R
                (broadcastInDim ⟨2, ![50000, 1]⟩ ![] pz1R (constant (F := Ideal) ⟨0, ![]⟩ .f32 0x00000000#32)) tgt
                (broadcastInDim ⟨2, ![E, 1]⟩ ![] po1R (constant (F := Ideal) ⟨0, ![]⟩ .f32 0x3F800000#32))))) := by
  refine Cert.RelMean.relmean_eq hN gdK hodK hcdK hobK hsmK hivK hssK gdR hodR hcdR hobR hsmR hivR hssR
    sdK huwK hiwK hsdK hsivK sdR huwR hiwR hsdR hsivR sd1K huw1K hiw1K hsd1K hiv1K sd1R huw1R hiw1R hsd1R hiv1R
    dd hr hs h1 h2 h3 h4 h W hrel hhrel src tgt
    _ _ (fun i => bcast_zero pz2K i) (fun i => bcast_zero pz2R i)
    _ (fun i => bcast_zero pz1K i) _ (fun i => bcast_one po1K i)
    _ _ (fun i => bcast_one poneK i) (fun i => bcast_one poneK' i)
    _ (fun i => bcast_zero pz1R i) _ (fun i => bcast_one po1R i)
    _ (fun i => bcast_one poneR i)
    _ (fun t j => ?_) _ (fun t j => ?_)
  · rw [broadcastInDim_col_apply, broadcastInDim_vec_col_apply]
  · rw [broadcastInDim_col_apply]
    rfl

/-! ## A projection over the two programs' terms -/

/-- The linear map with the bias vector reshaped to a row equals the host's product plus the bias vector broadcast
    to a row and then down the rows. -/
theorem proj_bridge {M K : Nat} (dd : DotDims ⟨2, ![M, K]⟩ ⟨2, ![K, 128]⟩ ⟨2, ![M, 128]⟩)
    (hr : dd.contr.rank = 1) (hs : dd.contr.size ⟨0, by omega⟩ = K)
    (h1 : ∀ j k, (dd.lhsIdx j k 0).val = (j 0).val)
    (h2 : ∀ j k, (dd.lhsIdx j k 1).val = (k ⟨0, by omega⟩).val)
    (h3 : ∀ j k, (dd.rhsIdx j k 0).val = (k ⟨0, by omega⟩).val)
    (h4 : ∀ j k, (dd.rhsIdx j k 1).val = (j 1).val)
    (x : (⟨2, ![M, K]⟩ : Shape).Idx → EReal) (w : (⟨2, ![K, 128]⟩ : Shape).Idx → EReal)
    (b : (⟨1, ![128]⟩ : Shape).Idx → EReal)
    (hc : (⟨1, ![128]⟩ : Shape).ShapeCasts ⟨2, ![1, 128]⟩)
    (hb1 : (⟨1, ![128]⟩ : Shape).BroadcastsInDim ⟨2, ![1, 128]⟩ ![1])
    (hb2 : (⟨2, ![1, 128]⟩ : Shape).BroadcastsInDim ⟨2, ![M, 128]⟩ ![0, 1]) :
    Cert.Spec.lin x w (shapeCast ⟨2, ![1, 128]⟩ b hc)
      = addf (F := Ideal) (φ := .f32) (Host.dotGeneral (F := Ideal) (φ₁ := .f32) (φ₂ := .f32) dd none x w)
          (broadcastInDim ⟨2, ![M, 128]⟩ ![0, 1] hb2 (broadcastInDim ⟨2, ![1, 128]⟩ ![1] hb1 b)) :=
  Cert.RelMean.proj_eq dd hr hs h1 h2 h3 h4 x w b _ (fun j => shapeCast_a_1a_apply b hc 0 j) _
    (fun r j => broadcastInDim_vec_rows_apply b hb1 hb2 r j)

/-- The linear map whose bias row is the reshaped zero vector is the plain product. -/
theorem lin_zero_bridge {M K : Nat} (x : (⟨2, ![M, K]⟩ : Shape).Idx → EReal) (w : (⟨2, ![K, 128]⟩ : Shape).Idx → EReal)
    (hz : (⟨0, ![]⟩ : Shape).BroadcastsInDim ⟨1, ![128]⟩ ![])
    (hc : (⟨1, ![128]⟩ : Shape).ShapeCasts ⟨2, ![1, 128]⟩) :
    Cert.Spec.lin x w (shapeCast ⟨2, ![1, 128]⟩
        (broadcastInDim ⟨1, ![128]⟩ ![] hz (constant (F := Ideal) ⟨0, ![]⟩ .f32 0x00000000#32)) hc)
      = Cert.Spec.mm x w :=
  Cert.RelMean.lin_zero x w _ (fun j => by rw [shapeCast_a_1a_apply]; exact bcast_zero hz _)

/-- Relation sp: the kernel's mean over the table h·W equals the reference's mean of h under W. -/
theorem rel_sp_eq (h : FVec Ideal Cert.ReferenceIdeal.S50000x128 .f32) (W : FVec Ideal Cert.ReferenceIdeal.S128x128 .f32) (e : IVec Cert.ReferenceIdeal.S2x640000 32) :
    KVal.rel_sp (Cert.Spec.mm (M := 50000) (K := 128) h W) e (KVal.inv_sp e) = RefVal.rel_sp h W e := by
  unfold KVal.rel_sp KVal.inv_sp RefVal.rel_sp RefVal.tgt_sp RefVal.src_sp RefVal.rowA_640000 RefVal.rowB_640000
  exact rel_bridge (N := 50000) (E := 640000) (by norm_num)
    Cert.KernelIdeal.gather_S50000x128_S640000x1_S640000x128_1_0_n_n_0_1_1128 rfl rfl rfl rfl rfl rfl
    Cert.ReferenceIdeal.gather_S50000x128_S640000x1_S640000x128_1_0_n_n_0_1_1128 rfl rfl rfl rfl rfl rfl
    Cert.KernelIdeal.scatter_S50000x128_S640000x1_S640000x128_1_0_0_1 rfl rfl rfl rfl
    Cert.ReferenceIdeal.scatter_S50000x128_S640000x1_S640000x128_1_0_0_1 rfl rfl rfl rfl
    Cert.KernelIdeal.scatter_S50000_S640000x1_S640000_n_0_0_1 rfl rfl rfl rfl
    Cert.ReferenceIdeal.scatter_S50000x1_S640000x1_S640000x1_1_0_0_1 rfl rfl rfl rfl
    Cert.ReferenceIdeal.dot_S640000x128_S128x128_S640000x128_1_0_0_1_n_n rfl rfl (fun _ _ => rfl) (fun _ _ => rfl) (fun _ _ => rfl) (fun _ _ => rfl)
    h W (Cert.Spec.mm (M := 50000) (K := 128) h W) (fun r j => rfl) _ _
    _ _ _ _ _ _ _ _ _ _ _ _

/-- Relation fl: the kernel's mean over the table h·W equals the reference's mean of h under W. -/
theorem rel_fl_eq (h : FVec Ideal Cert.ReferenceIdeal.S100000x128 .f32) (W : FVec Ideal Cert.ReferenceIdeal.S128x128 .f32) (e : IVec Cert.ReferenceIdeal.S2x640000 32) :
    KVal.rel_fl (Cert.Spec.mm (M := 100000) (K := 128) h W) e (KVal.inv_fl e) = RefVal.rel_fl h W e := by
  unfold KVal.rel_fl KVal.inv_fl RefVal.rel_fl RefVal.tgt_fl RefVal.src_fl RefVal.rowA_640000 RefVal.rowB_640000
  exact rel_bridge (N := 100000) (E := 640000) (by norm_num)
    Cert.KernelIdeal.gather_S100000x128_S640000x1_S640000x128_1_0_n_n_0_1_1128 rfl rfl rfl rfl rfl rfl
    Cert.ReferenceIdeal.gather_S100000x128_S640000x1_S640000x128_1_0_n_n_0_1_1128 rfl rfl rfl rfl rfl rfl
    Cert.KernelIdeal.scatter_S50000x128_S640000x1_S640000x128_1_0_0_1 rfl rfl rfl rfl
    Cert.ReferenceIdeal.scatter_S50000x128_S640000x1_S640000x128_1_0_0_1 rfl rfl rfl rfl
    Cert.KernelIdeal.scatter_S50000_S640000x1_S640000_n_0_0_1 rfl rfl rfl rfl
    Cert.ReferenceIdeal.scatter_S50000x1_S640000x1_S640000x1_1_0_0_1 rfl rfl rfl rfl
    Cert.ReferenceIdeal.dot_S640000x128_S128x128_S640000x128_1_0_0_1_n_n rfl rfl (fun _ _ => rfl) (fun _ _ => rfl) (fun _ _ => rfl) (fun _ _ => rfl)
    h W (Cert.Spec.mm (M := 100000) (K := 128) h W) (fun r j => rfl) _ _
    _ _ _ _ _ _ _ _ _ _ _ _

/-- Relation fs: the kernel's mean over the table h·W equals the reference's mean of h under W. -/
theorem rel_fs_eq (h : FVec Ideal Cert.ReferenceIdeal.S50000x128 .f32) (W : FVec Ideal Cert.ReferenceIdeal.S128x128 .f32) (e : IVec Cert.ReferenceIdeal.S2x320000 32) :
    KVal.rel_fs (Cert.Spec.mm (M := 50000) (K := 128) h W) e (KVal.inv_fs e) = RefVal.rel_fs h W e := by
  unfold KVal.rel_fs KVal.inv_fs RefVal.rel_fs RefVal.tgt_fs RefVal.src_fs RefVal.rowA_320000 RefVal.rowB_320000
  exact rel_bridge (N := 50000) (E := 320000) (by norm_num)
    Cert.KernelIdeal.gather_S50000x128_S320000x1_S320000x128_1_0_n_n_0_1_1128 rfl rfl rfl rfl rfl rfl
    Cert.ReferenceIdeal.gather_S50000x128_S320000x1_S320000x128_1_0_n_n_0_1_1128 rfl rfl rfl rfl rfl rfl
    Cert.KernelIdeal.scatter_S50000x128_S320000x1_S320000x128_1_0_0_1 rfl rfl rfl rfl
    Cert.ReferenceIdeal.scatter_S50000x128_S320000x1_S320000x128_1_0_0_1 rfl rfl rfl rfl
    Cert.KernelIdeal.scatter_S50000_S320000x1_S320000_n_0_0_1 rfl rfl rfl rfl
    Cert.ReferenceIdeal.scatter_S50000x1_S320000x1_S320000x1_1_0_0_1 rfl rfl rfl rfl
    Cert.ReferenceIdeal.dot_S320000x128_S128x128_S320000x128_1_0_0_1_n_n rfl rfl (fun _ _ => rfl) (fun _ _ => rfl) (fun _ _ => rfl) (fun _ _ => rfl)
    h W (Cert.Spec.mm (M := 50000) (K := 128) h W) (fun r j => rfl) _ _
    _ _ _ _ _ _ _ _ _ _ _ _

/-- Relation inc: the kernel's mean over the table h·W equals the reference's mean of h under W. -/
theorem rel_inc_eq (h : FVec Ideal Cert.ReferenceIdeal.S20000x128 .f32) (W : FVec Ideal Cert.ReferenceIdeal.S128x128 .f32) (e : IVec Cert.ReferenceIdeal.S2x160000 32) :
    KVal.rel_inc (Cert.Spec.mm (M := 20000) (K := 128) h W) e (KVal.inv_inc e) = RefVal.rel_inc h W e := by
  unfold KVal.rel_inc KVal.inv_inc RefVal.rel_inc RefVal.tgt_inc RefVal.src_inc RefVal.rowA_160000 RefVal.rowB_160000
  exact rel_bridge (N := 20000) (E := 160000) (by norm_num)
    Cert.KernelIdeal.gather_S20000x128_S160000x1_S160000x128_1_0_n_n_0_1_1128 rfl rfl rfl rfl rfl rfl
    Cert.ReferenceIdeal.gather_S20000x128_S160000x1_S160000x128_1_0_n_n_0_1_1128 rfl rfl rfl rfl rfl rfl
    Cert.KernelIdeal.scatter_S50000x128_S160000x1_S160000x128_1_0_0_1 rfl rfl rfl rfl
    Cert.ReferenceIdeal.scatter_S50000x128_S160000x1_S160000x128_1_0_0_1 rfl rfl rfl rfl
    Cert.KernelIdeal.scatter_S50000_S160000x1_S160000_n_0_0_1 rfl rfl rfl rfl
    Cert.ReferenceIdeal.scatter_S50000x1_S160000x1_S160000x1_1_0_0_1 rfl rfl rfl rfl
    Cert.ReferenceIdeal.dot_S160000x128_S128x128_S160000x128_1_0_0_1_n_n rfl rfl (fun _ _ => rfl) (fun _ _ => rfl) (fun _ _ => rfl) (fun _ _ => rfl)
    h W (Cert.Spec.mm (M := 20000) (K := 128) h W) (fun r j => rfl) _ _
    _ _ _ _ _ _ _ _ _ _ _ _

theorem h0_eq (a : KVal.Args) : KVal.h0 a = RefVal.proj0 a.a0 a.a8 a.a9 := by
  unfold KVal.h0 KVal.brow RefVal.proj0
  exact proj_bridge Cert.ReferenceIdeal.dot_S50000x32_S32x128_S50000x128_1_0_0_1_n_n rfl rfl (fun _ _ => rfl) (fun _ _ => rfl) (fun _ _ => rfl) (fun _ _ => rfl)
    a.a0 a.a8 a.a9 _ _ _

theorem hl_eq (a : KVal.Args) : KVal.hl a = RefVal.proj1 a.a1 a.a10 a.a11 := by
  unfold KVal.hl KVal.brow RefVal.proj1
  exact proj_bridge Cert.ReferenceIdeal.dot_S100000x16_S16x128_S100000x128_1_0_0_1_n_n rfl rfl (fun _ _ => rfl) (fun _ _ => rfl) (fun _ _ => rfl) (fun _ _ => rfl)
    a.a1 a.a10 a.a11 _ _ _

theorem hs_eq (a : KVal.Args) : KVal.hs a = RefVal.proj2 a.a2 a.a12 a.a13 := by
  unfold KVal.hs KVal.brow RefVal.proj2
  exact proj_bridge Cert.ReferenceIdeal.dot_S50000x8_S8x128_S50000x128_1_0_0_1_n_n rfl rfl (fun _ _ => rfl) (fun _ _ => rfl) (fun _ _ => rfl) (fun _ _ => rfl)
    a.a2 a.a12 a.a13 _ _ _

theorem hj_eq (a : KVal.Args) : KVal.hj a = RefVal.proj3 a.a3 a.a14 a.a15 := by
  unfold KVal.hj KVal.brow RefVal.proj3
  exact proj_bridge Cert.ReferenceIdeal.dot_S20000x8_S8x128_S20000x128_1_0_0_1_n_n rfl rfl (fun _ _ => rfl) (fun _ _ => rfl) (fun _ _ => rfl) (fun _ _ => rfl)
    a.a3 a.a14 a.a15 _ _ _

/-- One layer: the unit of the self term plus the four relation means, the kernel's way and the reference's. -/
theorem layer_eq (Ws : FVec Ideal Cert.ReferenceIdeal.S128x128 .f32) (bs : FVec Ideal Cert.ReferenceIdeal.S128 .f32) (Wr : FVec Ideal Cert.ReferenceIdeal.S128x128 .f32)
    (h : FVec Ideal Cert.ReferenceIdeal.S50000x128 .f32) (hl : FVec Ideal Cert.ReferenceIdeal.S100000x128 .f32) (hs : FVec Ideal Cert.ReferenceIdeal.S50000x128 .f32)
    (hj : FVec Ideal Cert.ReferenceIdeal.S20000x128 .f32)
    (e4 : IVec Cert.ReferenceIdeal.S2x640000 32) (e5 : IVec Cert.ReferenceIdeal.S2x640000 32) (e6 : IVec Cert.ReferenceIdeal.S2x320000 32) (e7 : IVec Cert.ReferenceIdeal.S2x160000 32) :
    Cert.Spec.comb (M := 50000) (Cert.Spec.lin (M := 50000) (K := 128) h Ws (KVal.brow bs))
        (KVal.rel_sp (Cert.Spec.mm (M := 50000) (K := 128) h Wr) e4 (KVal.inv_sp e4))
        (KVal.rel_fl (Cert.Spec.lin (M := 100000) (K := 128) hl Wr (KVal.brow KVal.zero128)) e5 (KVal.inv_fl e5))
        (KVal.rel_fs (Cert.Spec.lin (M := 50000) (K := 128) hs Wr (KVal.brow KVal.zero128)) e6 (KVal.inv_fs e6))
        (KVal.rel_inc (Cert.Spec.lin (M := 20000) (K := 128) hj Wr (KVal.brow KVal.zero128)) e7 (KVal.inv_inc e7))
      = RefVal.layer Ws bs Wr h hl hs hj e4 e5 e6 e7 := by
  have hz : ∀ {M : Nat} (x : (⟨2, ![M, 128]⟩ : Shape).Idx → EReal),
      Cert.Spec.lin (M := M) (K := 128) x Wr (KVal.brow KVal.zero128) = Cert.Spec.mm (M := M) (K := 128) x Wr :=
    fun x => lin_zero_bridge x Wr _ _
  have hself : Cert.Spec.lin (M := 50000) (K := 128) h Ws (KVal.brow bs)
      = addf (F := Ideal) (φ := .f32)
          (Host.dotGeneral (F := Ideal) (φ₁ := .f32) (φ₂ := .f32) Cert.ReferenceIdeal.dot_S50000x128_S128x128_S50000x128_1_0_0_1_n_n none h Ws)
          (broadcastInDim Cert.ReferenceIdeal.S50000x128 ![0, 1] Cert.ReferenceIdeal.Gen.bcast_S1x128_S50000x128_0_1
            (broadcastInDim Cert.ReferenceIdeal.S1x128 ![1] Cert.ReferenceIdeal.Gen.bcast_S128_S1x128_1 bs)) :=
    proj_bridge Cert.ReferenceIdeal.dot_S50000x128_S128x128_S50000x128_1_0_0_1_n_n rfl rfl (fun _ _ => rfl) (fun _ _ => rfl)
      (fun _ _ => rfl) (fun _ _ => rfl) h Ws bs _ _ _
  rw [hz hl, hz hs, hz hj, rel_sp_eq, rel_fl_eq, rel_fs_eq, rel_inc_eq, hself]
  unfold RefVal.layer RefVal.eluR
  exact Cert.RelMean.elu_array _ _ _ _ _

theorem next0_eq (a : KVal.Args) (h : FVec Ideal Cert.ReferenceIdeal.S50000x128 .f32) :
    KVal.next0 a h = RefVal.layer (RefVal.sliceW0 a.a16) (RefVal.sliceB0 a.a17) (RefVal.sliceW0 a.a18) h
      (KVal.hl a) (KVal.hs a) (KVal.hj a) a.a4 a.a5 a.a6 a.a7 := by
  unfold KVal.next0 KVal.selfT0 KVal.hrel0 KVal.lrel0 KVal.srel0 KVal.jrel0
  exact layer_eq (RefVal.sliceW0 a.a16) (RefVal.sliceB0 a.a17) (RefVal.sliceW0 a.a18) h
    (KVal.hl a) (KVal.hs a) (KVal.hj a) a.a4 a.a5 a.a6 a.a7

theorem next1_eq (a : KVal.Args) (h : FVec Ideal Cert.ReferenceIdeal.S50000x128 .f32) :
    KVal.next1 a h = RefVal.layer (RefVal.sliceW1 a.a16) (RefVal.sliceB1 a.a17) (RefVal.sliceW1 a.a18) h
      (KVal.hl a) (KVal.hs a) (KVal.hj a) a.a4 a.a5 a.a6 a.a7 := by
  unfold KVal.next1 KVal.selfT1 KVal.hrel1 KVal.lrel1 KVal.srel1 KVal.jrel1
  exact layer_eq (RefVal.sliceW1 a.a16) (RefVal.sliceB1 a.a17) (RefVal.sliceW1 a.a18) h
    (KVal.hl a) (KVal.hs a) (KVal.hj a) a.a4 a.a5 a.a6 a.a7

theorem next2_eq (a : KVal.Args) (h : FVec Ideal Cert.ReferenceIdeal.S50000x128 .f32) :
    KVal.next2 a h = RefVal.layer (RefVal.sliceW2 a.a16) (RefVal.sliceB2 a.a17) (RefVal.sliceW2 a.a18) h
      (KVal.hl a) (KVal.hs a) (KVal.hj a) a.a4 a.a5 a.a6 a.a7 := by
  unfold KVal.next2 KVal.selfT2 KVal.hrel2 KVal.lrel2 KVal.srel2 KVal.jrel2
  exact layer_eq (RefVal.sliceW2 a.a16) (RefVal.sliceB2 a.a17) (RefVal.sliceW2 a.a18) h
    (KVal.hl a) (KVal.hs a) (KVal.hj a) a.a4 a.a5 a.a6 a.a7

/-- The reference's value over the nineteen arguments is the kernel's. -/
theorem bridge (a : KVal.Args) :
    RefVal.RVal a.a0 a.a1 a.a2 a.a3 a.a4 a.a5 a.a6 a.a7 a.a8 a.a9 a.a10 a.a11 a.a12 a.a13 a.a14 a.a15 a.a16 a.a17 a.a18
      = KVal.KVal a := by
  unfold RefVal.RVal KVal.KVal KVal.H2 KVal.H1
  rw [next2_eq, next1_eq, next0_eq, h0_eq, hl_eq, hs_eq, hj_eq]

end Cert.Bridge

end
-- ==== Proof.lean ====
/-
  The certificate of a three-layer graph network on 50000 target nodes: a Pallas kernel program of nineteen regions
  against its jnp reference, equal as extended reals.

  Both programs project four node tables to 128 features (x·W + b), then three times replace the target table h by
      ELU( h·Ws + bs + mean_sp + mean_fl + mean_fs + mean_inc ),
  where a relation's mean at a target row t is the sum, over the edges that land on t, of the source row's image under
  the relation weight Wr, divided by max(number of such edges, 1). The kernel transforms each source TABLE first
  (t·Wr, by a region) and gathers rows of the image, and multiplies by the reciprocal 1 / max(count, 1); the reference
  gathers the rows first and transforms the gathered rows, and divides by clip(count, 1). At the ideal values these
  agree: gathering rows commutes with a row-wise linear map (the same clamped row is read on both sides), and for a
  real c ≥ 1 and ANY extended real x, x · (1/c) = x / c; the units agree entry by entry (exp x − 1 on both sides where
  x ≤ 0). No finiteness of the inputs is used.

  * the three frames: the two kernel programs' are the generated frame certificates; the reference's is its run
    (RefRun) with the results dropped;
  * preserves: the idealization rewrote nothing;
  * algebraic: the kernel's run with its result named (KRun) and the result read off the fold through @main (KFold) as
    the function KVal of the arguments; the reference's run and its result as RVal (RefRun, RefVal); the two functions
    are one (Bridge).
-/
import proofs.«168040_j41652592837487_1_alg».proof.Defs
import proofs.«168040_j41652592837487_1_alg».proof.Proof.Gen.Kernel
import proofs.«168040_j41652592837487_1_alg».proof.Proof.Gen.Kernel.Frame
import proofs.«168040_j41652592837487_1_alg».proof.Proof.Gen.KernelIdeal
import proofs.«168040_j41652592837487_1_alg».proof.Proof.Gen.KernelIdeal.Frame
import proofs.«168040_j41652592837487_1_alg».proof.Proof.Gen.ReferenceIdeal
import proofs.«168040_j41652592837487_1_alg».proof.Proof.Gen.Pre_finite_inputs
import proofs.«168040_j41652592837487_1_alg».proof.Proof.KRun
import proofs.«168040_j41652592837487_1_alg».proof.Proof.KFold
import proofs.«168040_j41652592837487_1_alg».proof.Proof.RefRun
import proofs.«168040_j41652592837487_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The reference runs and keeps its arguments: its run, the results dropped. -/
theorem frame_ri : Cert.frame_ReferenceIdeal := fun m ρ _ =>
  (θ_run Cert.ReferenceIdeal.defs _ _).mono (fun r h c =>
    ⟨(h c Cert.ReferenceIdeal.main_arg0).trans (Cert.ReferenceIdeal.RefRun.arg0_eq _),
     (h c Cert.ReferenceIdeal.main_arg1).trans (Cert.ReferenceIdeal.RefRun.arg1_eq _),
     (h c Cert.ReferenceIdeal.main_arg2).trans (Cert.ReferenceIdeal.RefRun.arg2_eq _),
     (h c Cert.ReferenceIdeal.main_arg3).trans (Cert.ReferenceIdeal.RefRun.arg3_eq _),
     (h c Cert.ReferenceIdeal.main_arg4).trans (Cert.ReferenceIdeal.RefRun.arg4_eq _),
     (h c Cert.ReferenceIdeal.main_arg5).trans (Cert.ReferenceIdeal.RefRun.arg5_eq _),
     (h c Cert.ReferenceIdeal.main_arg6).trans (Cert.ReferenceIdeal.RefRun.arg6_eq _),
     (h c Cert.ReferenceIdeal.main_arg7).trans (Cert.ReferenceIdeal.RefRun.arg7_eq _),
     (h c Cert.ReferenceIdeal.main_arg8).trans (Cert.ReferenceIdeal.RefRun.arg8_eq _),
     (h c Cert.ReferenceIdeal.main_arg9).trans (Cert.ReferenceIdeal.RefRun.arg9_eq _),
     (h c Cert.ReferenceIdeal.main_arg10).trans (Cert.ReferenceIdeal.RefRun.arg10_eq _),
     (h c Cert.ReferenceIdeal.main_arg11).trans (Cert.ReferenceIdeal.RefRun.arg11_eq _),
     (h c Cert.ReferenceIdeal.main_arg12).trans (Cert.ReferenceIdeal.RefRun.arg12_eq _),
     (h c Cert.ReferenceIdeal.main_arg13).trans (Cert.ReferenceIdeal.RefRun.arg13_eq _),
     (h c Cert.ReferenceIdeal.main_arg14).trans (Cert.ReferenceIdeal.RefRun.arg14_eq _),
     (h c Cert.ReferenceIdeal.main_arg15).trans (Cert.ReferenceIdeal.RefRun.arg15_eq _),
     (h c Cert.ReferenceIdeal.main_arg16).trans (Cert.ReferenceIdeal.RefRun.arg16_eq _),
     (h c Cert.ReferenceIdeal.main_arg17).trans (Cert.ReferenceIdeal.RefRun.arg17_eq _),
     (h c Cert.ReferenceIdeal.main_arg18).trans (Cert.ReferenceIdeal.RefRun.arg18_eq _)⟩)
    (Cert.ReferenceIdeal.RefRun.run_main (F := Ideal) m ρ)

/-- From memories that agree on the arguments both idealized programs end with the same result array: the kernel's is
    KVal of its arguments, the reference's RVal of the same arguments, and the two functions are one. -/
theorem algebraic : Cert.algebraic_KernelIdeal_ReferenceIdeal := by
  intro m ρ m' ρ' _ hagree
  refine ⟨fun c => Cert.KernelIdeal.KVal.KVal (Cert.KernelIdeal.KVal.argsOf m c), ?_, ?_⟩
  · exact (θ_run Cert.KernelIdeal.defs _ _).mono (fun r h c => ⟨(h c).1.trans (Cert.KernelIdeal.KFold.result_eq m ρ c), (h c).2⟩)
      (Cert.KernelIdeal.KRun.run (F := Ideal) m ρ)
  · refine (θ_run Cert.ReferenceIdeal.defs _ _).mono (fun r h c => ⟨?_,
      (h c Cert.ReferenceIdeal.main_arg0).trans (Cert.ReferenceIdeal.RefRun.arg0_eq _),
      (h c Cert.ReferenceIdeal.main_arg1).trans (Cert.ReferenceIdeal.RefRun.arg1_eq _),
      (h c Cert.ReferenceIdeal.main_arg2).trans (Cert.ReferenceIdeal.RefRun.arg2_eq _),
      (h c Cert.ReferenceIdeal.main_arg3).trans (Cert.ReferenceIdeal.RefRun.arg3_eq _),
      (h c Cert.ReferenceIdeal.main_arg4).trans (Cert.ReferenceIdeal.RefRun.arg4_eq _),
      (h c Cert.ReferenceIdeal.main_arg5).trans (Cert.ReferenceIdeal.RefRun.arg5_eq _),
      (h c Cert.ReferenceIdeal.main_arg6).trans (Cert.ReferenceIdeal.RefRun.arg6_eq _),
      (h c Cert.ReferenceIdeal.main_arg7).trans (Cert.ReferenceIdeal.RefRun.arg7_eq _),
      (h c Cert.ReferenceIdeal.main_arg8).trans (Cert.ReferenceIdeal.RefRun.arg8_eq _),
      (h c Cert.ReferenceIdeal.main_arg9).trans (Cert.ReferenceIdeal.RefRun.arg9_eq _),
      (h c Cert.ReferenceIdeal.main_arg10).trans (Cert.ReferenceIdeal.RefRun.arg10_eq _),
      (h c Cert.ReferenceIdeal.main_arg11).trans (Cert.ReferenceIdeal.RefRun.arg11_eq _),
      (h c Cert.ReferenceIdeal.main_arg12).trans (Cert.ReferenceIdeal.RefRun.arg12_eq _),
      (h c Cert.ReferenceIdeal.main_arg13).trans (Cert.ReferenceIdeal.RefRun.arg13_eq _),
      (h c Cert.ReferenceIdeal.main_arg14).trans (Cert.ReferenceIdeal.RefRun.arg14_eq _),
      (h c Cert.ReferenceIdeal.main_arg15).trans (Cert.ReferenceIdeal.RefRun.arg15_eq _),
      (h c Cert.ReferenceIdeal.main_arg16).trans (Cert.ReferenceIdeal.RefRun.arg16_eq _),
      (h c Cert.ReferenceIdeal.main_arg17).trans (Cert.ReferenceIdeal.RefRun.arg17_eq _),
      (h c Cert.ReferenceIdeal.main_arg18).trans (Cert.ReferenceIdeal.RefRun.arg18_eq _)⟩)
      (Cert.ReferenceIdeal.RefRun.run_main (F := Ideal) m' ρ')
    refine (h c Cert.ReferenceIdeal.main_v348).trans ((Cert.ReferenceIdeal.RefRun.out_eq _).trans ?_)
    obtain ⟨e0, e1, e2, e3, e4, e5, e6, e7, e8, e9, e10, e11, e12, e13, e14, e15, e16, e17, e18⟩ := hagree c
    show Cert.ReferenceIdeal.RefVal.RVal (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) = _
    rw [e0, e1, e2, e3, e4, e5, e6, e7, e8, e9, e10, e11, e12, e13, e14, e15, e16, e17, e18]
    exact Cert.Bridge.bridge (Cert.KernelIdeal.KVal.argsOf m c)

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ri, trivial, algebraic⟩

end Cert.Proof

end
